-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17))

def preserves_Kernel_KernelIdeal : Prop :=
  IdealRules.named_const.Statement Cert.KernelIdeal.κ "inv_50000" .f32 0x37A7C5AC#32 ((1 / 50000 : ℝ) : EReal)
  ∧ IdealRules.named_const.Statement Cert.KernelIdeal.κ "inv_50000" .f32 0x37A7C5AC#32 ((1 / 50000 : ℝ) : EReal)
  ∧ IdealRules.named_const.Statement Cert.KernelIdeal.κ "inv_50000" .f32 0x37A7C5AC#32 ((1 / 50000 : ℝ) : EReal)
  ∧ IdealRules.named_const.Statement Cert.KernelIdeal.κ "inv_50000" .f32 0x37A7C5AC#32 ((1 / 50000 : ℝ) : EReal)
  ∧ IdealRules.named_const.Statement Cert.KernelIdeal.κ "inv_50000" .f32 0x37A7C5AC#32 ((1 / 50000 : ℝ) : EReal)
  ∧ IdealRules.named_const.Statement Cert.KernelIdeal.κ "inv_50000" .f32 0x37A7C5AC#32 ((1 / 50000 : ℝ) : EReal)
  ∧ IdealRules.named_const.Statement Cert.KernelIdeal.κ "inv_50000" .f32 0x37A7C5AC#32 ((1 / 50000 : ℝ) : EReal)
  ∧ IdealRules.named_const.Statement Cert.KernelIdeal.κ "inv_50000" .f32 0x37A7C5AC#32 ((1 / 50000 : ℝ) : EReal)

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)) →
    ∃ (v0 : (c : Dev Cert.KernelIdeal.nD) → Buf (Elt Ideal) ((c.tc : Thread Cert.KernelIdeal.nD Cert.KernelIdeal.τ).loc Cert.KernelIdeal.main_v180)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v180) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v350) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000 : Shape := ⟨1, ![50000]⟩
abbrev S800000 : Shape := ⟨1, ![800000]⟩
abbrev S28x64 : Shape := ⟨2, ![28, 64]⟩
abbrev S4x192x64 : Shape := ⟨3, ![4, 192, 64]⟩
abbrev S4x3x2 : Shape := ⟨3, ![4, 3, 2]⟩
abbrev S4x64 : Shape := ⟨2, ![4, 64]⟩
abbrev S4x2x2 : Shape := ⟨3, ![4, 2, 2]⟩
abbrev S4x2 : Shape := ⟨2, ![4, 2]⟩
abbrev S32x64 : Shape := ⟨2, ![32, 64]⟩
abbrev S32 : Shape := ⟨1, ![32]⟩
abbrev S16x32 : Shape := ⟨2, ![16, 32]⟩
abbrev S16 : Shape := ⟨1, ![16]⟩
abbrev S1x16 : Shape := ⟨2, ![1, 16]⟩
abbrev S1 : Shape := ⟨1, ![1]⟩
abbrev S_ : Shape := ⟨0, ![]⟩

class Facts : Prop where
  bcast_S_S28x64 : S_.BroadcastsInDim S28x64 (![] : Fin 0 → Fin S28x64.rank)
  reducesTo_S28x64_S_d0_1 : S28x64.ReducesTo [0, 1] S_
  h_S_ : 0 < S_.numel
  bcast_S_S4x192x64 : S_.BroadcastsInDim S4x192x64 (![] : Fin 0 → Fin S4x192x64.rank)
  reducesTo_S4x192x64_S_d0_1_2 : S4x192x64.ReducesTo [0, 1, 2] S_
  bcast_S_S4x3x2 : S_.BroadcastsInDim S4x3x2 (![] : Fin 0 → Fin S4x3x2.rank)
  reducesTo_S4x3x2_S_d0_1_2 : S4x3x2.ReducesTo [0, 1, 2] S_
  bcast_S_S4x64 : S_.BroadcastsInDim S4x64 (![] : Fin 0 → Fin S4x64.rank)
  reducesTo_S4x64_S_d0_1 : S4x64.ReducesTo [0, 1] S_
  bcast_S_S4x2x2 : S_.BroadcastsInDim S4x2x2 (![] : Fin 0 → Fin S4x2x2.rank)
  reducesTo_S4x2x2_S_d0_1_2 : S4x2x2.ReducesTo [0, 1, 2] S_
  bcast_S_S4x2 : S_.BroadcastsInDim S4x2 (![] : Fin 0 → Fin S4x2.rank)
  reducesTo_S4x2_S_d0_1 : S4x2.ReducesTo [0, 1] S_
  bcast_S_S32x64 : S_.BroadcastsInDim S32x64 (![] : Fin 0 → Fin S32x64.rank)
  reducesTo_S32x64_S_d0_1 : S32x64.ReducesTo [0, 1] S_
  bcast_S_S32 : S_.BroadcastsInDim S32 (![] : Fin 0 → Fin S32.rank)
  reducesTo_S32_S_d0 : S32.ReducesTo [0] S_
  bcast_S_S16x32 : S_.BroadcastsInDim S16x32 (![] : Fin 0 → Fin S16x32.rank)
  reducesTo_S16x32_S_d0_1 : S16x32.ReducesTo [0, 1] S_
  bcast_S_S16 : S_.BroadcastsInDim S16 (![] : Fin 0 → Fin S16.rank)
  reducesTo_S16_S_d0 : S16.ReducesTo [0] S_
  bcast_S_S1x16 : S_.BroadcastsInDim S1x16 (![] : Fin 0 → Fin S1x16.rank)
  reducesTo_S1x16_S_d0_1 : S1x16.ReducesTo [0, 1] S_
  bcast_S_S1 : S_.BroadcastsInDim S1 (![] : Fin 0 → Fin S1.rank)
  reducesTo_S1_S_d0 : S1.ReducesTo [0] S_

variable [Facts]

def fn_part4 {F : FTy → Type} [FloatOps F] (main_v63 : IVec S_ 1) (main_v67 : IVec S_ 1) : IVec S_ 1 :=
  let main_v68 : IVec S_ 1 := andi main_v63 main_v67
  main_v68

def fn_part3 {F : FTy → Type} [FloatOps F] (main_arg15 : FVec F S16 .f32) (main_arg16 : FVec F S1x16 .f32) (main_arg17 : FVec F S1 .f32) (main_v48 : IVec S_ 1) (main_v49 : FVec F S16x32 .f32) (main_v50 : FVec F S16x32 .f32) : IVec S_ 1 :=
  let main_v51 : IVec S16x32 1 := cmpf .olt main_v49 main_v50
  let main_c_19 : IVec S_ 1 := constantI S_ 1 1#1
  let main_v52 : IVec S_ 1 := (fun x v => Host.reduce IntOp.andi x v reducesTo_S16x32_S_d0_1 h_S_) main_v51 main_c_19
  let main_v53 : IVec S_ 1 := andi main_v48 main_v52
  let main_v54 : FVec F S16 .f32 := Host.absf main_arg15
  let main_cst_20 : FVec F S_ .f32 := constant S_ .f32 0x7F800000#32
  let main_v55 : FVec F S16 .f32 := broadcastInDim S16 ![] bcast_S_S16 main_cst_20
  let main_v56 : IVec S16 1 := cmpf .olt main_v54 main_v55
  let main_c_21 : IVec S_ 1 := constantI S_ 1 1#1
  let main_v57 : IVec S_ 1 := (fun x v => Host.reduce IntOp.andi x v reducesTo_S16_S_d0 h_S_) main_v56 main_c_21
  let main_v58 : IVec S_ 1 := andi main_v53 main_v57
  let main_v59 : FVec F S1x16 .f32 := Host.absf main_arg16
  let main_cst_22 : FVec F S_ .f32 := constant S_ .f32 0x7F800000#32
  let main_v60 : FVec F S1x16 .f32 := broadcastInDim S1x16 ![] bcast_S_S1x16 main_cst_22
  let main_v61 : IVec S1x16 1 := cmpf .olt main_v59 main_v60
  let main_c_23 : IVec S_ 1 := constantI S_ 1 1#1
  let main_v62 : IVec S_ 1 := (fun x v => Host.reduce IntOp.andi x v reducesTo_S1x16_S_d0_1 h_S_) main_v61 main_c_23
  let main_v63 : IVec S_ 1 := andi main_v58 main_v62
  let main_v64 : FVec F S1 .f32 := Host.absf main_arg17
  let main_cst_24 : FVec F S_ .f32 := constant S_ .f32 0x7F800000#32
  let main_v65 : FVec F S1 .f32 := broadcastInDim S1 ![] bcast_S_S1 main_cst_24
  let main_v66 : IVec S1 1 := cmpf .olt main_v64 main_v65
  let main_c_25 : IVec S_ 1 := constantI S_ 1 1#1
  let main_v67 : IVec S_ 1 := (fun x v => Host.reduce IntOp.andi x v reducesTo_S1_S_d0 h_S_) main_v66 main_c_25
  fn_part4 (F := F) main_v63 main_v67

def fn_part2 {F : FTy → Type} [FloatOps F] (main_arg11 : FVec F S4x2 .f32) (main_arg12 : FVec F S32x64 .f32) (main_arg13 : FVec F S32 .f32) (main_arg14 : FVec F S16x32 .f32) (main_arg15 : FVec F S16 .f32) (main_arg16 : FVec F S1x16 .f32) (main_arg17 : FVec F S1 .f32) (main_v33 : IVec S_ 1) : IVec S_ 1 :=
  let main_v34 : FVec F S4x2 .f32 := Host.absf main_arg11
  let main_cst_12 : FVec F S_ .f32 := constant S_ .f32 0x7F800000#32
  let main_v35 : FVec F S4x2 .f32 := broadcastInDim S4x2 ![] bcast_S_S4x2 main_cst_12
  let main_v36 : IVec S4x2 1 := cmpf .olt main_v34 main_v35
  let main_c_13 : IVec S_ 1 := constantI S_ 1 1#1
  let main_v37 : IVec S_ 1 := (fun x v => Host.reduce IntOp.andi x v reducesTo_S4x2_S_d0_1 h_S_) main_v36 main_c_13
  let main_v38 : IVec S_ 1 := andi main_v33 main_v37
  let main_v39 : FVec F S32x64 .f32 := Host.absf main_arg12
  let main_cst_14 : FVec F S_ .f32 := constant S_ .f32 0x7F800000#32
  let main_v40 : FVec F S32x64 .f32 := broadcastInDim S32x64 ![] bcast_S_S32x64 main_cst_14
  let main_v41 : IVec S32x64 1 := cmpf .olt main_v39 main_v40
  let main_c_15 : IVec S_ 1 := constantI S_ 1 1#1
  let main_v42 : IVec S_ 1 := (fun x v => Host.reduce IntOp.andi x v reducesTo_S32x64_S_d0_1 h_S_) main_v41 main_c_15
  let main_v43 : IVec S_ 1 := andi main_v38 main_v42
  let main_v44 : FVec F S32 .f32 := Host.absf main_arg13
  let main_cst_16 : FVec F S_ .f32 := constant S_ .f32 0x7F800000#32
  let main_v45 : FVec F S32 .f32 := broadcastInDim S32 ![] bcast_S_S32 main_cst_16
  let main_v46 : IVec S32 1 := cmpf .olt main_v44 main_v45
  let main_c_17 : IVec S_ 1 := constantI S_ 1 1#1
  let main_v47 : IVec S_ 1 := (fun x v => Host.reduce IntOp.andi x v reducesTo_S32_S_d0 h_S_) main_v46 main_c_17
  let main_v48 : IVec S_ 1 := andi main_v43 main_v47
  let main_v49 : FVec F S16x32 .f32 := Host.absf main_arg14
  let main_cst_18 : FVec F S_ .f32 := constant S_ .f32 0x7F800000#32
  let main_v50 : FVec F S16x32 .f32 := broadcastInDim S16x32 ![] bcast_S_S16x32 main_cst_18
  fn_part3 (F := F) main_arg15 main_arg16 main_arg17 main_v48 main_v49 main_v50

def fn_part1 {F : FTy → Type} [FloatOps F] (main_arg8 : FVec F S4x64 .f32) (main_arg9 : FVec F S4x64 .f32) (main_arg10 : FVec F S4x2x2 .f32) (main_arg11 : FVec F S4x2 .f32) (main_arg12 : FVec F S32x64 .f32) (main_arg13 : FVec F S32 .f32) (main_arg14 : FVec F S16x32 .f32) (main_arg15 : FVec F S16 .f32) (main_arg16 : FVec F S1x16 .f32) (main_arg17 : FVec F S1 .f32) (main_v13 : IVec S_ 1) (main_v16 : IVec S4x3x2 1) : IVec S_ 1 :=
  let main_c_5 : IVec S_ 1 := constantI S_ 1 1#1
  let main_v17 : IVec S_ 1 := (fun x v => Host.reduce IntOp.andi x v reducesTo_S4x3x2_S_d0_1_2 h_S_) main_v16 main_c_5
  let main_v18 : IVec S_ 1 := andi main_v13 main_v17
  let main_v19 : FVec F S4x64 .f32 := Host.absf main_arg8
  let main_cst_6 : FVec F S_ .f32 := constant S_ .f32 0x7F800000#32
  let main_v20 : FVec F S4x64 .f32 := broadcastInDim S4x64 ![] bcast_S_S4x64 main_cst_6
  let main_v21 : IVec S4x64 1 := cmpf .olt main_v19 main_v20
  let main_c_7 : IVec S_ 1 := constantI S_ 1 1#1
  let main_v22 : IVec S_ 1 := (fun x v => Host.reduce IntOp.andi x v reducesTo_S4x64_S_d0_1 h_S_) main_v21 main_c_7
  let main_v23 : IVec S_ 1 := andi main_v18 main_v22
  let main_v24 : FVec F S4x64 .f32 := Host.absf main_arg9
  let main_cst_8 : FVec F S_ .f32 := constant S_ .f32 0x7F800000#32
  let main_v25 : FVec F S4x64 .f32 := broadcastInDim S4x64 ![] bcast_S_S4x64 main_cst_8
  let main_v26 : IVec S4x64 1 := cmpf .olt main_v24 main_v25
  let main_c_9 : IVec S_ 1 := constantI S_ 1 1#1
  let main_v27 : IVec S_ 1 := (fun x v => Host.reduce IntOp.andi x v reducesTo_S4x64_S_d0_1 h_S_) main_v26 main_c_9
  let main_v28 : IVec S_ 1 := andi main_v23 main_v27
  let main_v29 : FVec F S4x2x2 .f32 := Host.absf main_arg10
  let main_cst_10 : FVec F S_ .f32 := constant S_ .f32 0x7F800000#32
  let main_v30 : FVec F S4x2x2 .f32 := broadcastInDim S4x2x2 ![] bcast_S_S4x2x2 main_cst_10
  let main_v31 : IVec S4x2x2 1 := cmpf .olt main_v29 main_v30
  let main_c_11 : IVec S_ 1 := constantI S_ 1 1#1
  let main_v32 : IVec S_ 1 := (fun x v => Host.reduce IntOp.andi x v reducesTo_S4x2x2_S_d0_1_2 h_S_) main_v31 main_c_11
  let main_v33 : IVec S_ 1 := andi main_v28 main_v32
  fn_part2 (F := F) main_arg11 main_arg12 main_arg13 main_arg14 main_arg15 main_arg16 main_arg17 main_v33

def fn {F : FTy → Type} [FloatOps F] (main_arg0 : IVec S50000 32) (main_arg1 : IVec S800000 32) (main_arg2 : IVec S800000 32) (main_arg3 : IVec S50000 32) (main_arg4 : FVec F S28x64 .f32) (main_arg5 : FVec F S4x192x64 .f32) (main_arg6 : FVec F S4x3x2 .f32) (main_arg7 : FVec F S4x3x2 .f32) (main_arg8 : FVec F S4x64 .f32) (main_arg9 : FVec F S4x64 .f32) (main_arg10 : FVec F S4x2x2 .f32) (main_arg11 : FVec F S4x2 .f32) (main_arg12 : FVec F S32x64 .f32) (main_arg13 : FVec F S32 .f32) (main_arg14 : FVec F S16x32 .f32) (main_arg15 : FVec F S16 .f32) (main_arg16 : FVec F S1x16 .f32) (main_arg17 : FVec F S1 .f32) : IVec S_ 1 :=
  let main_v0 : FVec F S28x64 .f32 := Host.absf main_arg4
  let main_cst : FVec F S_ .f32 := constant S_ .f32 0x7F800000#32
  let main_v1 : FVec F S28x64 .f32 := broadcastInDim S28x64 ![] bcast_S_S28x64 main_cst
  let main_v2 : IVec S28x64 1 := cmpf .olt main_v0 main_v1
  let main_c : IVec S_ 1 := constantI S_ 1 1#1
  let main_v3 : IVec S_ 1 := (fun x v => Host.reduce IntOp.andi x v reducesTo_S28x64_S_d0_1 h_S_) main_v2 main_c
  let main_v4 : FVec F S4x192x64 .f32 := Host.absf main_arg5
  let main_cst_0 : FVec F S_ .f32 := constant S_ .f32 0x7F800000#32
  let main_v5 : FVec F S4x192x64 .f32 := broadcastInDim S4x192x64 ![] bcast_S_S4x192x64 main_cst_0
  let main_v6 : IVec S4x192x64 1 := cmpf .olt main_v4 main_v5
  let main_c_1 : IVec S_ 1 := constantI S_ 1 1#1
  let main_v7 : IVec S_ 1 := (fun x v => Host.reduce IntOp.andi x v reducesTo_S4x192x64_S_d0_1_2 h_S_) main_v6 main_c_1
  let main_v8 : IVec S_ 1 := andi main_v3 main_v7
  let main_v9 : FVec F S4x3x2 .f32 := Host.absf main_arg6
  let main_cst_2 : FVec F S_ .f32 := constant S_ .f32 0x7F800000#32
  let main_v10 : FVec F S4x3x2 .f32 := broadcastInDim S4x3x2 ![] bcast_S_S4x3x2 main_cst_2
  let main_v11 : IVec S4x3x2 1 := cmpf .olt main_v9 main_v10
  let main_c_3 : IVec S_ 1 := constantI S_ 1 1#1
  let main_v12 : IVec S_ 1 := (fun x v => Host.reduce IntOp.andi x v reducesTo_S4x3x2_S_d0_1_2 h_S_) main_v11 main_c_3
  let main_v13 : IVec S_ 1 := andi main_v8 main_v12
  let main_v14 : FVec F S4x3x2 .f32 := Host.absf main_arg7
  let main_cst_4 : FVec F S_ .f32 := constant S_ .f32 0x7F800000#32
  let main_v15 : FVec F S4x3x2 .f32 := broadcastInDim S4x3x2 ![] bcast_S_S4x3x2 main_cst_4
  let main_v16 : IVec S4x3x2 1 := cmpf .olt main_v14 main_v15
  fn_part1 (F := F) main_arg8 main_arg9 main_arg10 main_arg11 main_arg12 main_arg13 main_arg14 main_arg15 main_arg16 main_arg17 main_v13 main_v16
-- ==== Kernel.lean ====
abbrev S50000 : Shape := ⟨1, ![50000]⟩
abbrev S800000 : Shape := ⟨1, ![800000]⟩
abbrev S28x64 : Shape := ⟨2, ![28, 64]⟩
abbrev S4x192x64 : Shape := ⟨3, ![4, 192, 64]⟩
abbrev S4x3x2 : Shape := ⟨3, ![4, 3, 2]⟩
abbrev S4x64 : Shape := ⟨2, ![4, 64]⟩
abbrev S4x2x2 : Shape := ⟨3, ![4, 2, 2]⟩
abbrev S4x2 : Shape := ⟨2, ![4, 2]⟩
abbrev S32x64 : Shape := ⟨2, ![32, 64]⟩
abbrev S32 : Shape := ⟨1, ![32]⟩
abbrev S16x32 : Shape := ⟨2, ![16, 32]⟩
abbrev S16 : Shape := ⟨1, ![16]⟩
abbrev S1x16 : Shape := ⟨2, ![1, 16]⟩
abbrev S1 : Shape := ⟨1, ![1]⟩
abbrev S_ : Shape := ⟨0, ![]⟩
abbrev S800000x1 : Shape := ⟨2, ![800000, 1]⟩
abbrev S800000x2 : Shape := ⟨2, ![800000, 2]⟩
abbrev S50000x1 : Shape := ⟨2, ![50000, 1]⟩
abbrev S50000x64 : Shape := ⟨2, ![50000, 64]⟩
abbrev S4x64x192 : Shape := ⟨3, ![4, 64, 192]⟩
abbrev S4x1x2 : Shape := ⟨3, ![4, 1, 2]⟩
abbrev S4x1x64 : Shape := ⟨3, ![4, 1, 64]⟩
abbrev S1x64x192 : Shape := ⟨3, ![1, 64, 192]⟩
abbrev S64x192 : Shape := ⟨2, ![64, 192]⟩
abbrev S50000x192 : Shape := ⟨2, ![50000, 192]⟩
abbrev S10000x64 : Shape := ⟨2, ![10000, 64]⟩
abbrev S10000x192 : Shape := ⟨2, ![10000, 192]⟩
abbrev S50000x3x64 : Shape := ⟨3, ![50000, 3, 64]⟩
abbrev S800000x3x64 : Shape := ⟨3, ![800000, 3, 64]⟩
abbrev S1x2x2 : Shape := ⟨3, ![1, 2, 2]⟩
abbrev S2x2 : Shape := ⟨2, ![2, 2]⟩
abbrev S1x1x2 : Shape := ⟨3, ![1, 1, 2]⟩
abbrev S1x2 : Shape := ⟨2, ![1, 2]⟩
abbrev S1x3x2 : Shape := ⟨3, ![1, 3, 2]⟩
abbrev S3x2 : Shape := ⟨2, ![3, 2]⟩
abbrev S2000x2 : Shape := ⟨2, ![2000, 2]⟩
abbrev S2000x3x64 : Shape := ⟨3, ![2000, 3, 64]⟩
abbrev S2000x1x2 : Shape := ⟨3, ![2000, 1, 2]⟩
abbrev S2000x3x2 : Shape := ⟨3, ![2000, 3, 2]⟩
abbrev S2000x3 : Shape := ⟨2, ![2000, 3]⟩
abbrev S2000x3x1 : Shape := ⟨3, ![2000, 3, 1]⟩
abbrev S1x1x64 : Shape := ⟨3, ![1, 1, 64]⟩
abbrev S1x64 : Shape := ⟨2, ![1, 64]⟩
abbrev S5000x64 : Shape := ⟨2, ![5000, 64]⟩
abbrev S64 : Shape := ⟨1, ![64]⟩
abbrev S256 : Shape := ⟨1, ![256]⟩
abbrev S256x64 : Shape := ⟨2, ![256, 64]⟩
abbrev S256x1 : Shape := ⟨2, ![256, 1]⟩
abbrev S64x32 : Shape := ⟨2, ![64, 32]⟩
abbrev S32x16 : Shape := ⟨2, ![32, 16]⟩
abbrev S16x1 : Shape := ⟨2, ![16, 1]⟩
abbrev S1x32 : Shape := ⟨2, ![1, 32]⟩
abbrev S1x1 : Shape := ⟨2, ![1, 1]⟩
abbrev S256x32 : Shape := ⟨2, ![256, 32]⟩
abbrev S256x16 : Shape := ⟨2, ![256, 16]⟩

abbrev nBuf : Space → Nat
  | .hbm => 235
  | .vmem => 124
  | .smem => 0
  | _ => 0

abbrev hbmTy0_0 (i : Nat) : BufTy := match i % 128 with
  | 0 => ⟨S50000, .i32⟩
  | 1 => ⟨S800000, .i32⟩
  | 2 => ⟨S800000, .i32⟩
  | 3 => ⟨S50000, .i32⟩
  | 4 => ⟨S28x64, .f32⟩
  | 5 => ⟨S4x192x64, .f32⟩
  | 6 => ⟨S4x3x2, .f32⟩
  | 7 => ⟨S4x3x2, .f32⟩
  | 8 => ⟨S4x64, .f32⟩
  | 9 => ⟨S4x64, .f32⟩
  | 10 => ⟨S4x2x2, .f32⟩
  | 11 => ⟨S4x2, .f32⟩
  | 12 => ⟨S32x64, .f32⟩
  | 13 => ⟨S32, .f32⟩
  | 14 => ⟨S16x32, .f32⟩
  | 15 => ⟨S16, .f32⟩
  | 16 => ⟨S1x16, .f32⟩
  | 17 => ⟨S1, .f32⟩
  | 18 => ⟨S_, .f32⟩
  | 19 => ⟨S800000, .f32⟩
  | 20 => ⟨S_, .f32⟩
  | 21 => ⟨S50000, .f32⟩
  | 22 => ⟨S800000x1, .i32⟩
  | 23 => ⟨S50000, .f32⟩
  | 24 => ⟨S_, .i32⟩
  | 25 => ⟨S800000, .i32⟩
  | 26 => ⟨S800000, .i1⟩
  | 27 => ⟨S_, .i32⟩
  | 28 => ⟨S800000, .i32⟩
  | 29 => ⟨S800000, .i32⟩
  | 30 => ⟨S800000, .i32⟩
  | 31 => ⟨S800000x1, .i32⟩
  | 32 => ⟨S800000, .f32⟩
  | 33 => ⟨S_, .f32⟩
  | 34 => ⟨S800000, .f32⟩
  | 35 => ⟨S800000, .f32⟩
  | 36 => ⟨S800000, .f32⟩
  | 37 => ⟨S_, .f32⟩
  | 38 => ⟨S800000, .f32⟩
  | 39 => ⟨S800000, .f32⟩
  | 40 => ⟨S_, .i32⟩
  | 41 => ⟨S800000, .i32⟩
  | 42 => ⟨S800000, .i1⟩
  | 43 => ⟨S_, .i32⟩
  | 44 => ⟨S800000, .i32⟩
  | 45 => ⟨S800000, .i32⟩
  | 46 => ⟨S800000, .i32⟩
  | 47 => ⟨S800000x1, .i32⟩
  | 48 => ⟨S800000, .f32⟩
  | 49 => ⟨S_, .f32⟩
  | 50 => ⟨S800000, .f32⟩
  | 51 => ⟨S800000, .f32⟩
  | 52 => ⟨S800000, .f32⟩
  | 53 => ⟨S_, .f32⟩
  | 54 => ⟨S800000, .f32⟩
  | 55 => ⟨S800000, .f32⟩
  | 56 => ⟨S800000x1, .f32⟩
  | 57 => ⟨S800000x1, .f32⟩
  | 58 => ⟨S800000x2, .f32⟩
  | 59 => ⟨S_, .i32⟩
  | 60 => ⟨S50000, .i32⟩
  | 61 => ⟨S50000, .i1⟩
  | 62 => ⟨S_, .i32⟩
  | 63 => ⟨S50000, .i32⟩
  | 64 => ⟨S50000, .i32⟩
  | 65 => ⟨S50000, .i32⟩
  | 66 => ⟨S50000x1, .i32⟩
  | 67 => ⟨S50000x64, .f32⟩
  | 68 => ⟨S4x64x192, .f32⟩
  | 69 => ⟨S4x1x2, .f32⟩
  | 70 => ⟨S4x1x64, .f32⟩
  | 71 => ⟨S4x1x64, .f32⟩
  | 72 => ⟨S1x64x192, .f32⟩
  | 73 => ⟨S64x192, .f32⟩
  | 74 => ⟨S50000x192, .bf16⟩
  | 75 => ⟨S50000x3x64, .bf16⟩
  | 76 => ⟨S_, .i32⟩
  | 77 => ⟨S800000, .i32⟩
  | 78 => ⟨S800000, .i1⟩
  | 79 => ⟨S_, .i32⟩
  | 80 => ⟨S800000, .i32⟩
  | 81 => ⟨S800000, .i32⟩
  | 82 => ⟨S800000, .i32⟩
  | 83 => ⟨S800000x1, .i32⟩
  | 84 => ⟨S800000x3x64, .bf16⟩
  | 85 => ⟨S1x2x2, .f32⟩
  | 86 => ⟨S2x2, .f32⟩
  | 87 => ⟨S1x1x2, .f32⟩
  | 88 => ⟨S1x2, .f32⟩
  | 89 => ⟨S1x3x2, .f32⟩
  | 90 => ⟨S3x2, .f32⟩
  | 91 => ⟨S1x3x2, .f32⟩
  | 92 => ⟨S3x2, .f32⟩
  | 93 => ⟨S800000x3x64, .f32⟩
  | 94 => ⟨S_, .f32⟩
  | 95 => ⟨S50000x3x64, .f32⟩
  | 96 => ⟨S800000x1, .i32⟩
  | 97 => ⟨S50000x3x64, .f32⟩
  | 98 => ⟨S_, .f32⟩
  | 99 => ⟨S50000x64, .f32⟩
  | 100 => ⟨S1x1x64, .f32⟩
  | 101 => ⟨S1x64, .f32⟩
  | 102 => ⟨S1x1x64, .f32⟩
  | 103 => ⟨S1x64, .f32⟩
  | 104 => ⟨S1x64, .f32⟩
  | 105 => ⟨S1x64, .f32⟩
  | 106 => ⟨S50000x64, .f32⟩
  | 107 => ⟨S1x64x192, .f32⟩
  | 108 => ⟨S64x192, .f32⟩
  | 109 => ⟨S50000x192, .bf16⟩
  | 110 => ⟨S50000x3x64, .bf16⟩
  | 111 => ⟨S_, .i32⟩
  | 112 => ⟨S800000, .i32⟩
  | 113 => ⟨S800000, .i1⟩
  | 114 => ⟨S_, .i32⟩
  | 115 => ⟨S800000, .i32⟩
  | 116 => ⟨S800000, .i32⟩
  | 117 => ⟨S800000, .i32⟩
  | 118 => ⟨S800000x1, .i32⟩
  | 119 => ⟨S800000x3x64, .bf16⟩
  | 120 => ⟨S1x2x2, .f32⟩
  | 121 => ⟨S2x2, .f32⟩
  | 122 => ⟨S1x1x2, .f32⟩
  | 123 => ⟨S1x2, .f32⟩
  | 124 => ⟨S1x3x2, .f32⟩
  | 125 => ⟨S3x2, .f32⟩
  | 126 => ⟨S1x3x2, .f32⟩
  | 127 => ⟨S3x2, .f32⟩
  | _ => ⟨S50000, .i32⟩

abbrev hbmTy0_1 (i : Nat) : BufTy := match i % 128 with
  | 0 => ⟨S800000x3x64, .f32⟩
  | 1 => ⟨S_, .f32⟩
  | 2 => ⟨S50000x3x64, .f32⟩
  | 3 => ⟨S800000x1, .i32⟩
  | 4 => ⟨S50000x3x64, .f32⟩
  | 5 => ⟨S_, .f32⟩
  | 6 => ⟨S50000x64, .f32⟩
  | 7 => ⟨S1x1x64, .f32⟩
  | 8 => ⟨S1x64, .f32⟩
  | 9 => ⟨S1x1x64, .f32⟩
  | 10 => ⟨S1x64, .f32⟩
  | 11 => ⟨S1x64, .f32⟩
  | 12 => ⟨S1x64, .f32⟩
  | 13 => ⟨S50000x64, .f32⟩
  | 14 => ⟨S1x64x192, .f32⟩
  | 15 => ⟨S64x192, .f32⟩
  | 16 => ⟨S50000x192, .bf16⟩
  | 17 => ⟨S50000x3x64, .bf16⟩
  | 18 => ⟨S_, .i32⟩
  | 19 => ⟨S800000, .i32⟩
  | 20 => ⟨S800000, .i1⟩
  | 21 => ⟨S_, .i32⟩
  | 22 => ⟨S800000, .i32⟩
  | 23 => ⟨S800000, .i32⟩
  | 24 => ⟨S800000, .i32⟩
  | 25 => ⟨S800000x1, .i32⟩
  | 26 => ⟨S800000x3x64, .bf16⟩
  | 27 => ⟨S1x2x2, .f32⟩
  | 28 => ⟨S2x2, .f32⟩
  | 29 => ⟨S1x1x2, .f32⟩
  | 30 => ⟨S1x2, .f32⟩
  | 31 => ⟨S1x3x2, .f32⟩
  | 32 => ⟨S3x2, .f32⟩
  | 33 => ⟨S1x3x2, .f32⟩
  | 34 => ⟨S3x2, .f32⟩
  | 35 => ⟨S800000x3x64, .f32⟩
  | 36 => ⟨S_, .f32⟩
  | 37 => ⟨S50000x3x64, .f32⟩
  | 38 => ⟨S800000x1, .i32⟩
  | 39 => ⟨S50000x3x64, .f32⟩
  | 40 => ⟨S_, .f32⟩
  | 41 => ⟨S50000x64, .f32⟩
  | 42 => ⟨S1x1x64, .f32⟩
  | 43 => ⟨S1x64, .f32⟩
  | 44 => ⟨S1x1x64, .f32⟩
  | 45 => ⟨S1x64, .f32⟩
  | 46 => ⟨S1x64, .f32⟩
  | 47 => ⟨S1x64, .f32⟩
  | 48 => ⟨S50000x64, .f32⟩
  | 49 => ⟨S1x64x192, .f32⟩
  | 50 => ⟨S64x192, .f32⟩
  | 51 => ⟨S50000x192, .bf16⟩
  | 52 => ⟨S50000x3x64, .bf16⟩
  | 53 => ⟨S_, .i32⟩
  | 54 => ⟨S800000, .i32⟩
  | 55 => ⟨S800000, .i1⟩
  | 56 => ⟨S_, .i32⟩
  | 57 => ⟨S800000, .i32⟩
  | 58 => ⟨S800000, .i32⟩
  | 59 => ⟨S800000, .i32⟩
  | 60 => ⟨S800000x1, .i32⟩
  | 61 => ⟨S800000x3x64, .bf16⟩
  | 62 => ⟨S1x2x2, .f32⟩
  | 63 => ⟨S2x2, .f32⟩
  | 64 => ⟨S1x1x2, .f32⟩
  | 65 => ⟨S1x2, .f32⟩
  | 66 => ⟨S1x3x2, .f32⟩
  | 67 => ⟨S3x2, .f32⟩
  | 68 => ⟨S1x3x2, .f32⟩
  | 69 => ⟨S3x2, .f32⟩
  | 70 => ⟨S800000x3x64, .f32⟩
  | 71 => ⟨S_, .f32⟩
  | 72 => ⟨S50000x3x64, .f32⟩
  | 73 => ⟨S800000x1, .i32⟩
  | 74 => ⟨S50000x3x64, .f32⟩
  | 75 => ⟨S_, .f32⟩
  | 76 => ⟨S50000x64, .f32⟩
  | 77 => ⟨S1x1x64, .f32⟩
  | 78 => ⟨S1x64, .f32⟩
  | 79 => ⟨S1x1x64, .f32⟩
  | 80 => ⟨S1x64, .f32⟩
  | 81 => ⟨S1x64, .f32⟩
  | 82 => ⟨S1x64, .f32⟩
  | 83 => ⟨S50000x64, .f32⟩
  | 84 => ⟨S_, .f32⟩
  | 85 => ⟨S50000, .f32⟩
  | 86 => ⟨S_, .f32⟩
  | 87 => ⟨S256, .f32⟩
  | 88 => ⟨S50000x1, .i32⟩
  | 89 => ⟨S256, .f32⟩
  | 90 => ⟨S_, .f32⟩
  | 91 => ⟨S256, .f32⟩
  | 92 => ⟨S256, .f32⟩
  | 93 => ⟨S_, .f32⟩
  | 94 => ⟨S256x64, .f32⟩
  | 95 => ⟨S50000x1, .i32⟩
  | 96 => ⟨S256x64, .f32⟩
  | 97 => ⟨S256x1, .f32⟩
  | 98 => ⟨S256x64, .f32⟩
  | 99 => ⟨S256x64, .f32⟩
  | 100 => ⟨S64x32, .f32⟩
  | 101 => ⟨S32x16, .f32⟩
  | 102 => ⟨S16x1, .f32⟩
  | 103 => ⟨S1x32, .f32⟩
  | 104 => ⟨S1x16, .f32⟩
  | 105 => ⟨S1x1, .f32⟩
  | 106 => ⟨S256x1, .f32⟩
  | _ => ⟨S50000, .i32⟩

abbrev hbmTy (i : Nat) : BufTy := match i / 128 with
  | 0 => hbmTy0_0 i
  | 1 => hbmTy0_1 i
  | _ => ⟨S50000, .i32⟩

abbrev bufTy : (tb : Table) → Fin (tcTables nBuf tb) → BufTy
  | .hbm, ⟨i, _⟩ => hbmTy i
  | .local _ .vmem, ⟨0, _⟩ => ⟨S10000x64, .f32⟩
  | .local _ .vmem, ⟨1, _⟩ => ⟨S10000x64, .f32⟩
  | .local _ .vmem, ⟨2, _⟩ => ⟨S64x192, .f32⟩
  | .local _ .vmem, ⟨3, _⟩ => ⟨S10000x192, .bf16⟩
  | .local _ .vmem, ⟨4, _⟩ => ⟨S10000x192, .bf16⟩
  | .local _ .vmem, ⟨5, _⟩ => ⟨S2000x2, .f32⟩
  | .local _ .vmem, ⟨6, _⟩ => ⟨S2000x2, .f32⟩
  | .local _ .vmem, ⟨7, _⟩ => ⟨S2000x3x64, .bf16⟩
  | .local _ .vmem, ⟨8, _⟩ => ⟨S2000x3x64, .bf16⟩
  | .local _ .vmem, ⟨9, _⟩ => ⟨S2x2, .f32⟩
  | .local _ .vmem, ⟨10, _⟩ => ⟨S1x2, .f32⟩
  | .local _ .vmem, ⟨11, _⟩ => ⟨S3x2, .f32⟩
  | .local _ .vmem, ⟨12, _⟩ => ⟨S3x2, .f32⟩
  | .local _ .vmem, ⟨13, _⟩ => ⟨S2000x3x64, .f32⟩
  | .local _ .vmem, ⟨14, _⟩ => ⟨S2000x3x64, .f32⟩
  | .local _ .vmem, ⟨15, _⟩ => ⟨S5000x64, .f32⟩
  | .local _ .vmem, ⟨16, _⟩ => ⟨S5000x64, .f32⟩
  | .local _ .vmem, ⟨17, _⟩ => ⟨S1x64, .f32⟩
  | .local _ .vmem, ⟨18, _⟩ => ⟨S1x64, .f32⟩
  | .local _ .vmem, ⟨19, _⟩ => ⟨S5000x64, .f32⟩
  | .local _ .vmem, ⟨20, _⟩ => ⟨S5000x64, .f32⟩
  | .local _ .vmem, ⟨21, _⟩ => ⟨S5000x64, .f32⟩
  | .local _ .vmem, ⟨22, _⟩ => ⟨S5000x64, .f32⟩
  | .local _ .vmem, ⟨23, _⟩ => ⟨S1x64, .f32⟩
  | .local _ .vmem, ⟨24, _⟩ => ⟨S1x64, .f32⟩
  | .local _ .vmem, ⟨25, _⟩ => ⟨S1x64, .f32⟩
  | .local _ .vmem, ⟨26, _⟩ => ⟨S1x64, .f32⟩
  | .local _ .vmem, ⟨27, _⟩ => ⟨S5000x64, .f32⟩
  | .local _ .vmem, ⟨28, _⟩ => ⟨S5000x64, .f32⟩
  | .local _ .vmem, ⟨29, _⟩ => ⟨S10000x64, .f32⟩
  | .local _ .vmem, ⟨30, _⟩ => ⟨S10000x64, .f32⟩
  | .local _ .vmem, ⟨31, _⟩ => ⟨S64x192, .f32⟩
  | .local _ .vmem, ⟨32, _⟩ => ⟨S10000x192, .bf16⟩
  | .local _ .vmem, ⟨33, _⟩ => ⟨S10000x192, .bf16⟩
  | .local _ .vmem, ⟨34, _⟩ => ⟨S2000x2, .f32⟩
  | .local _ .vmem, ⟨35, _⟩ => ⟨S2000x2, .f32⟩
  | .local _ .vmem, ⟨36, _⟩ => ⟨S2000x3x64, .bf16⟩
  | .local _ .vmem, ⟨37, _⟩ => ⟨S2000x3x64, .bf16⟩
  | .local _ .vmem, ⟨38, _⟩ => ⟨S2x2, .f32⟩
  | .local _ .vmem, ⟨39, _⟩ => ⟨S1x2, .f32⟩
  | .local _ .vmem, ⟨40, _⟩ => ⟨S3x2, .f32⟩
  | .local _ .vmem, ⟨41, _⟩ => ⟨S3x2, .f32⟩
  | .local _ .vmem, ⟨42, _⟩ => ⟨S2000x3x64, .f32⟩
  | .local _ .vmem, ⟨43, _⟩ => ⟨S2000x3x64, .f32⟩
  | .local _ .vmem, ⟨44, _⟩ => ⟨S5000x64, .f32⟩
  | .local _ .vmem, ⟨45, _⟩ => ⟨S5000x64, .f32⟩
  | .local _ .vmem, ⟨46, _⟩ => ⟨S1x64, .f32⟩
  | .local _ .vmem, ⟨47, _⟩ => ⟨S1x64, .f32⟩
  | .local _ .vmem, ⟨48, _⟩ => ⟨S5000x64, .f32⟩
  | .local _ .vmem, ⟨49, _⟩ => ⟨S5000x64, .f32⟩
  | .local _ .vmem, ⟨50, _⟩ => ⟨S5000x64, .f32⟩
  | .local _ .vmem, ⟨51, _⟩ => ⟨S5000x64, .f32⟩
  | .local _ .vmem, ⟨52, _⟩ => ⟨S1x64, .f32⟩
  | .local _ .vmem, ⟨53, _⟩ => ⟨S1x64, .f32⟩
  | .local _ .vmem, ⟨54, _⟩ => ⟨S1x64, .f32⟩
  | .local _ .vmem, ⟨55, _⟩ => ⟨S1x64, .f32⟩
  | .local _ .vmem, ⟨56, _⟩ => ⟨S5000x64, .f32⟩
  | .local _ .vmem, ⟨57, _⟩ => ⟨S5000x64, .f32⟩
  | .local _ .vmem, ⟨58, _⟩ => ⟨S10000x64, .f32⟩
  | .local _ .vmem, ⟨59, _⟩ => ⟨S10000x64, .f32⟩
  | .local _ .vmem, ⟨60, _⟩ => ⟨S64x192, .f32⟩
  | .local _ .vmem, ⟨61, _⟩ => ⟨S10000x192, .bf16⟩
  | .local _ .vmem, ⟨62, _⟩ => ⟨S10000x192, .bf16⟩
  | .local _ .vmem, ⟨63, _⟩ => ⟨S2000x2, .f32⟩
  | .local _ .vmem, ⟨64, _⟩ => ⟨S2000x2, .f32⟩
  | .local _ .vmem, ⟨65, _⟩ => ⟨S2000x3x64, .bf16⟩
  | .local _ .vmem, ⟨66, _⟩ => ⟨S2000x3x64, .bf16⟩
  | .local _ .vmem, ⟨67, _⟩ => ⟨S2x2, .f32⟩
  | .local _ .vmem, ⟨68, _⟩ => ⟨S1x2, .f32⟩
  | .local _ .vmem, ⟨69, _⟩ => ⟨S3x2, .f32⟩
  | .local _ .vmem, ⟨70, _⟩ => ⟨S3x2, .f32⟩
  | .local _ .vmem, ⟨71, _⟩ => ⟨S2000x3x64, .f32⟩
  | .local _ .vmem, ⟨72, _⟩ => ⟨S2000x3x64, .f32⟩
  | .local _ .vmem, ⟨73, _⟩ => ⟨S5000x64, .f32⟩
  | .local _ .vmem, ⟨74, _⟩ => ⟨S5000x64, .f32⟩
  | .local _ .vmem, ⟨75, _⟩ => ⟨S1x64, .f32⟩
  | .local _ .vmem, ⟨76, _⟩ => ⟨S1x64, .f32⟩
  | .local _ .vmem, ⟨77, _⟩ => ⟨S5000x64, .f32⟩
  | .local _ .vmem, ⟨78, _⟩ => ⟨S5000x64, .f32⟩
  | .local _ .vmem, ⟨79, _⟩ => ⟨S5000x64, .f32⟩
  | .local _ .vmem, ⟨80, _⟩ => ⟨S5000x64, .f32⟩
  | .local _ .vmem, ⟨81, _⟩ => ⟨S1x64, .f32⟩
  | .local _ .vmem, ⟨82, _⟩ => ⟨S1x64, .f32⟩
  | .local _ .vmem, ⟨83, _⟩ => ⟨S1x64, .f32⟩
  | .local _ .vmem, ⟨84, _⟩ => ⟨S1x64, .f32⟩
  | .local _ .vmem, ⟨85, _⟩ => ⟨S5000x64, .f32⟩
  | .local _ .vmem, ⟨86, _⟩ => ⟨S5000x64, .f32⟩
  | .local _ .vmem, ⟨87, _⟩ => ⟨S10000x64, .f32⟩
  | .local _ .vmem, ⟨88, _⟩ => ⟨S10000x64, .f32⟩
  | .local _ .vmem, ⟨89, _⟩ => ⟨S64x192, .f32⟩
  | .local _ .vmem, ⟨90, _⟩ => ⟨S10000x192, .bf16⟩
  | .local _ .vmem, ⟨91, _⟩ => ⟨S10000x192, .bf16⟩
  | .local _ .vmem, ⟨92, _⟩ => ⟨S2000x2, .f32⟩
  | .local _ .vmem, ⟨93, _⟩ => ⟨S2000x2, .f32⟩
  | .local _ .vmem, ⟨94, _⟩ => ⟨S2000x3x64, .bf16⟩
  | .local _ .vmem, ⟨95, _⟩ => ⟨S2000x3x64, .bf16⟩
  | .local _ .vmem, ⟨96, _⟩ => ⟨S2x2, .f32⟩
  | .local _ .vmem, ⟨97, _⟩ => ⟨S1x2, .f32⟩
  | .local _ .vmem, ⟨98, _⟩ => ⟨S3x2, .f32⟩
  | .local _ .vmem, ⟨99, _⟩ => ⟨S3x2, .f32⟩
  | .local _ .vmem, ⟨100, _⟩ => ⟨S2000x3x64, .f32⟩
  | .local _ .vmem, ⟨101, _⟩ => ⟨S2000x3x64, .f32⟩
  | .local _ .vmem, ⟨102, _⟩ => ⟨S5000x64, .f32⟩
  | .local _ .vmem, ⟨103, _⟩ => ⟨S5000x64, .f32⟩
  | .local _ .vmem, ⟨104, _⟩ => ⟨S1x64, .f32⟩
  | .local _ .vmem, ⟨105, _⟩ => ⟨S1x64, .f32⟩
  | .local _ .vmem, ⟨106, _⟩ => ⟨S5000x64, .f32⟩
  | .local _ .vmem, ⟨107, _⟩ => ⟨S5000x64, .f32⟩
  | .local _ .vmem, ⟨108, _⟩ => ⟨S5000x64, .f32⟩
  | .local _ .vmem, ⟨109, _⟩ => ⟨S5000x64, .f32⟩
  | .local _ .vmem, ⟨110, _⟩ => ⟨S1x64, .f32⟩
  | .local _ .vmem, ⟨111, _⟩ => ⟨S1x64, .f32⟩
  | .local _ .vmem, ⟨112, _⟩ => ⟨S1x64, .f32⟩
  | .local _ .vmem, ⟨113, _⟩ => ⟨S1x64, .f32⟩
  | .local _ .vmem, ⟨114, _⟩ => ⟨S5000x64, .f32⟩
  | .local _ .vmem, ⟨115, _⟩ => ⟨S5000x64, .f32⟩
  | .local _ .vmem, ⟨116, _⟩ => ⟨S256x64, .f32⟩
  | .local _ .vmem, ⟨117, _⟩ => ⟨S64x32, .f32⟩
  | .local _ .vmem, ⟨118, _⟩ => ⟨S1x32, .f32⟩
  | .local _ .vmem, ⟨119, _⟩ => ⟨S32x16, .f32⟩
  | .local _ .vmem, ⟨120, _⟩ => ⟨S1x16, .f32⟩
  | .local _ .vmem, ⟨121, _⟩ => ⟨S16x1, .f32⟩
  | .local _ .vmem, ⟨122, _⟩ => ⟨S1x1, .f32⟩
  | .local _ .vmem, ⟨123, _⟩ => ⟨S256x1, .f32⟩
  | _, _ => ⟨S50000, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | .vmem, ⟨71, _⟩ => true
  | .vmem, ⟨72, _⟩ => true
  | .vmem, ⟨73, _⟩ => true
  | .vmem, ⟨74, _⟩ => true
  | .vmem, ⟨75, _⟩ => true
  | .vmem, ⟨76, _⟩ => true
  | .vmem, ⟨77, _⟩ => true
  | .vmem, ⟨78, _⟩ => true
  | .vmem, ⟨79, _⟩ => true
  | .vmem, ⟨80, _⟩ => true
  | .vmem, ⟨81, _⟩ => true
  | .vmem, ⟨82, _⟩ => true
  | .vmem, ⟨83, _⟩ => true
  | .vmem, ⟨84, _⟩ => true
  | .vmem, ⟨85, _⟩ => true
  | .vmem, ⟨86, _⟩ => true
  | .vmem, ⟨87, _⟩ => true
  | .vmem, ⟨88, _⟩ => true
  | .vmem, ⟨89, _⟩ => true
  | .vmem, ⟨90, _⟩ => true
  | .vmem, ⟨91, _⟩ => true
  | .vmem, ⟨92, _⟩ => true
  | .vmem, ⟨93, _⟩ => true
  | .vmem, ⟨94, _⟩ => true
  | .vmem, ⟨95, _⟩ => true
  | .vmem, ⟨96, _⟩ => true
  | .vmem, ⟨97, _⟩ => true
  | .vmem, ⟨98, _⟩ => true
  | .vmem, ⟨99, _⟩ => true
  | .vmem, ⟨100, _⟩ => true
  | .vmem, ⟨101, _⟩ => true
  | .vmem, ⟨102, _⟩ => true
  | .vmem, ⟨103, _⟩ => true
  | .vmem, ⟨104, _⟩ => true
  | .vmem, ⟨105, _⟩ => true
  | .vmem, ⟨106, _⟩ => true
  | .vmem, ⟨107, _⟩ => true
  | .vmem, ⟨108, _⟩ => true
  | .vmem, ⟨109, _⟩ => true
  | .vmem, ⟨110, _⟩ => true
  | .vmem, ⟨111, _⟩ => true
  | .vmem, ⟨112, _⟩ => true
  | .vmem, ⟨113, _⟩ => true
  | .vmem, ⟨114, _⟩ => true
  | .vmem, ⟨115, _⟩ => true
  | .vmem, ⟨116, _⟩ => true
  | .vmem, ⟨117, _⟩ => true
  | .vmem, ⟨118, _⟩ => true
  | .vmem, ⟨119, _⟩ => true
  | .vmem, ⟨120, _⟩ => true
  | .vmem, ⟨121, _⟩ => true
  | .vmem, ⟨122, _⟩ => true
  | .vmem, ⟨123, _⟩ => true
  | _, _ => false

abbrev semScoped : Fin 0 → Bool
  | ⟨_, h⟩ => absurd h (Nat.not_lt_zero _)

abbrev dmaSemScoped : Fin 124 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | ⟨80, _⟩ => true
  | ⟨81, _⟩ => true
  | ⟨82, _⟩ => true
  | ⟨83, _⟩ => true
  | ⟨84, _⟩ => true
  | ⟨85, _⟩ => true
  | ⟨86, _⟩ => true
  | ⟨87, _⟩ => true
  | ⟨88, _⟩ => true
  | ⟨89, _⟩ => true
  | ⟨90, _⟩ => true
  | ⟨91, _⟩ => true
  | ⟨92, _⟩ => true
  | ⟨93, _⟩ => true
  | ⟨94, _⟩ => true
  | ⟨95, _⟩ => true
  | ⟨96, _⟩ => true
  | ⟨97, _⟩ => true
  | ⟨98, _⟩ => true
  | ⟨99, _⟩ => true
  | ⟨100, _⟩ => true
  | ⟨101, _⟩ => true
  | ⟨102, _⟩ => true
  | ⟨103, _⟩ => true
  | ⟨104, _⟩ => true
  | ⟨105, _⟩ => true
  | ⟨106, _⟩ => true
  | ⟨107, _⟩ => true
  | ⟨108, _⟩ => true
  | ⟨109, _⟩ => true
  | ⟨110, _⟩ => true
  | ⟨111, _⟩ => true
  | ⟨112, _⟩ => true
  | ⟨113, _⟩ => true
  | ⟨114, _⟩ => true
  | ⟨115, _⟩ => true
  | ⟨116, _⟩ => true
  | ⟨117, _⟩ => true
  | ⟨118, _⟩ => true
  | ⟨119, _⟩ => true
  | ⟨120, _⟩ => true
  | ⟨121, _⟩ => true
  | ⟨122, _⟩ => true
  | ⟨123, _⟩ => true
  | _ => false

abbrev sig : RefSig :=
  ofTc nBuf bufTy 0 124 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_cst : Ref sig .tc := ⟨.hbm, 18, rfl⟩
abbrev main_v0 : Ref sig .tc := ⟨.hbm, 19, rfl⟩
abbrev main_cst_0 : Ref sig .tc := ⟨.hbm, 20, rfl⟩
abbrev main_v1 : Ref sig .tc := ⟨.hbm, 21, rfl⟩
abbrev main_v2 : Ref sig .tc := ⟨.hbm, 22, rfl⟩
abbrev main_v3 : Ref sig .tc := ⟨.hbm, 23, rfl⟩
abbrev main_c : Ref sig .tc := ⟨.hbm, 24, rfl⟩
abbrev main_v4 : Ref sig .tc := ⟨.hbm, 25, rfl⟩
abbrev main_v5 : Ref sig .tc := ⟨.hbm, 26, rfl⟩
abbrev main_c_1 : Ref sig .tc := ⟨.hbm, 27, rfl⟩
abbrev main_v6 : Ref sig .tc := ⟨.hbm, 28, rfl⟩
abbrev main_v7 : Ref sig .tc := ⟨.hbm, 29, rfl⟩
abbrev main_v8 : Ref sig .tc := ⟨.hbm, 30, rfl⟩
abbrev main_v9 : Ref sig .tc := ⟨.hbm, 31, rfl⟩
abbrev main_v10 : Ref sig .tc := ⟨.hbm, 32, rfl⟩
abbrev main_cst_2 : Ref sig .tc := ⟨.hbm, 33, rfl⟩
abbrev main_v11 : Ref sig .tc := ⟨.hbm, 34, rfl⟩
abbrev main_v12 : Ref sig .tc := ⟨.hbm, 35, rfl⟩
abbrev main_v13 : Ref sig .tc := ⟨.hbm, 36, rfl⟩
abbrev main_cst_3 : Ref sig .tc := ⟨.hbm, 37, rfl⟩
abbrev main_v14 : Ref sig .tc := ⟨.hbm, 38, rfl⟩
abbrev main_v15 : Ref sig .tc := ⟨.hbm, 39, rfl⟩
abbrev main_c_4 : Ref sig .tc := ⟨.hbm, 40, rfl⟩
abbrev main_v16 : Ref sig .tc := ⟨.hbm, 41, rfl⟩
abbrev main_v17 : Ref sig .tc := ⟨.hbm, 42, rfl⟩
abbrev main_c_5 : Ref sig .tc := ⟨.hbm, 43, rfl⟩
abbrev main_v18 : Ref sig .tc := ⟨.hbm, 44, rfl⟩
abbrev main_v19 : Ref sig .tc := ⟨.hbm, 45, rfl⟩
abbrev main_v20 : Ref sig .tc := ⟨.hbm, 46, rfl⟩
abbrev main_v21 : Ref sig .tc := ⟨.hbm, 47, rfl⟩
abbrev main_v22 : Ref sig .tc := ⟨.hbm, 48, rfl⟩
abbrev main_cst_6 : Ref sig .tc := ⟨.hbm, 49, rfl⟩
abbrev main_v23 : Ref sig .tc := ⟨.hbm, 50, rfl⟩
abbrev main_v24 : Ref sig .tc := ⟨.hbm, 51, rfl⟩
abbrev main_v25 : Ref sig .tc := ⟨.hbm, 52, rfl⟩
abbrev main_cst_7 : Ref sig .tc := ⟨.hbm, 53, rfl⟩
abbrev main_v26 : Ref sig .tc := ⟨.hbm, 54, rfl⟩
abbrev main_v27 : Ref sig .tc := ⟨.hbm, 55, rfl⟩
abbrev main_v28 : Ref sig .tc := ⟨.hbm, 56, rfl⟩
abbrev main_v29 : Ref sig .tc := ⟨.hbm, 57, rfl⟩
abbrev main_v30 : Ref sig .tc := ⟨.hbm, 58, rfl⟩
abbrev main_c_8 : Ref sig .tc := ⟨.hbm, 59, rfl⟩
abbrev main_v31 : Ref sig .tc := ⟨.hbm, 60, rfl⟩
abbrev main_v32 : Ref sig .tc := ⟨.hbm, 61, rfl⟩
abbrev main_c_9 : Ref sig .tc := ⟨.hbm, 62, rfl⟩
abbrev main_v33 : Ref sig .tc := ⟨.hbm, 63, rfl⟩
abbrev main_v34 : Ref sig .tc := ⟨.hbm, 64, rfl⟩
abbrev main_v35 : Ref sig .tc := ⟨.hbm, 65, rfl⟩
abbrev main_v36 : Ref sig .tc := ⟨.hbm, 66, rfl⟩
abbrev main_v37 : Ref sig .tc := ⟨.hbm, 67, rfl⟩
abbrev main_v38 : Ref sig .tc := ⟨.hbm, 68, rfl⟩
abbrev main_v39 : Ref sig .tc := ⟨.hbm, 69, rfl⟩
abbrev main_v40 : Ref sig .tc := ⟨.hbm, 70, rfl⟩
abbrev main_v41 : Ref sig .tc := ⟨.hbm, 71, rfl⟩
abbrev main_v42 : Ref sig .tc := ⟨.hbm, 72, rfl⟩
abbrev main_v43 : Ref sig .tc := ⟨.hbm, 73, rfl⟩
abbrev main_v44 : Ref sig .tc := ⟨.hbm, 74, rfl⟩
abbrev main_v45 : Ref sig .tc := ⟨.hbm, 75, rfl⟩
abbrev main_c_10 : Ref sig .tc := ⟨.hbm, 76, rfl⟩
abbrev main_v46 : Ref sig .tc := ⟨.hbm, 77, rfl⟩
abbrev main_v47 : Ref sig .tc := ⟨.hbm, 78, rfl⟩
abbrev main_c_11 : Ref sig .tc := ⟨.hbm, 79, rfl⟩
abbrev main_v48 : Ref sig .tc := ⟨.hbm, 80, rfl⟩
abbrev main_v49 : Ref sig .tc := ⟨.hbm, 81, rfl⟩
abbrev main_v50 : Ref sig .tc := ⟨.hbm, 82, rfl⟩
abbrev main_v51 : Ref sig .tc := ⟨.hbm, 83, rfl⟩
abbrev main_v52 : Ref sig .tc := ⟨.hbm, 84, rfl⟩
abbrev main_v53 : Ref sig .tc := ⟨.hbm, 85, rfl⟩
abbrev main_v54 : Ref sig .tc := ⟨.hbm, 86, rfl⟩
abbrev main_v55 : Ref sig .tc := ⟨.hbm, 87, rfl⟩
abbrev main_v56 : Ref sig .tc := ⟨.hbm, 88, rfl⟩
abbrev main_v57 : Ref sig .tc := ⟨.hbm, 89, rfl⟩
abbrev main_v58 : Ref sig .tc := ⟨.hbm, 90, rfl⟩
abbrev main_v59 : Ref sig .tc := ⟨.hbm, 91, rfl⟩
abbrev main_v60 : Ref sig .tc := ⟨.hbm, 92, rfl⟩
abbrev main_v61 : Ref sig .tc := ⟨.hbm, 93, rfl⟩
abbrev main_cst_12 : Ref sig .tc := ⟨.hbm, 94, rfl⟩
abbrev main_v62 : Ref sig .tc := ⟨.hbm, 95, rfl⟩
abbrev main_v63 : Ref sig .tc := ⟨.hbm, 96, rfl⟩
abbrev main_v64 : Ref sig .tc := ⟨.hbm, 97, rfl⟩
abbrev main_cst_13 : Ref sig .tc := ⟨.hbm, 98, rfl⟩
abbrev main_v65 : Ref sig .tc := ⟨.hbm, 99, rfl⟩
abbrev main_v66 : Ref sig .tc := ⟨.hbm, 100, rfl⟩
abbrev main_v67 : Ref sig .tc := ⟨.hbm, 101, rfl⟩
abbrev main_v68 : Ref sig .tc := ⟨.hbm, 102, rfl⟩
abbrev main_v69 : Ref sig .tc := ⟨.hbm, 103, rfl⟩
abbrev main_v70_0 : Ref sig .tc := ⟨.hbm, 104, rfl⟩
abbrev main_v70_1 : Ref sig .tc := ⟨.hbm, 105, rfl⟩
abbrev main_v71 : Ref sig .tc := ⟨.hbm, 106, rfl⟩
abbrev main_v72 : Ref sig .tc := ⟨.hbm, 107, rfl⟩
abbrev main_v73 : Ref sig .tc := ⟨.hbm, 108, rfl⟩
abbrev main_v74 : Ref sig .tc := ⟨.hbm, 109, rfl⟩
abbrev main_v75 : Ref sig .tc := ⟨.hbm, 110, rfl⟩
abbrev main_c_14 : Ref sig .tc := ⟨.hbm, 111, rfl⟩
abbrev main_v76 : Ref sig .tc := ⟨.hbm, 112, rfl⟩
abbrev main_v77 : Ref sig .tc := ⟨.hbm, 113, rfl⟩
abbrev main_c_15 : Ref sig .tc := ⟨.hbm, 114, rfl⟩
abbrev main_v78 : Ref sig .tc := ⟨.hbm, 115, rfl⟩
abbrev main_v79 : Ref sig .tc := ⟨.hbm, 116, rfl⟩
abbrev main_v80 : Ref sig .tc := ⟨.hbm, 117, rfl⟩
abbrev main_v81 : Ref sig .tc := ⟨.hbm, 118, rfl⟩
abbrev main_v82 : Ref sig .tc := ⟨.hbm, 119, rfl⟩
abbrev main_v83 : Ref sig .tc := ⟨.hbm, 120, rfl⟩
abbrev main_v84 : Ref sig .tc := ⟨.hbm, 121, rfl⟩
abbrev main_v85 : Ref sig .tc := ⟨.hbm, 122, rfl⟩
abbrev main_v86 : Ref sig .tc := ⟨.hbm, 123, rfl⟩
abbrev main_v87 : Ref sig .tc := ⟨.hbm, 124, rfl⟩
abbrev main_v88 : Ref sig .tc := ⟨.hbm, 125, rfl⟩
abbrev main_v89 : Ref sig .tc := ⟨.hbm, 126, rfl⟩
abbrev main_v90 : Ref sig .tc := ⟨.hbm, 127, rfl⟩
abbrev main_v91 : Ref sig .tc := ⟨.hbm, 128, rfl⟩
abbrev main_cst_16 : Ref sig .tc := ⟨.hbm, 129, rfl⟩
abbrev main_v92 : Ref sig .tc := ⟨.hbm, 130, rfl⟩
abbrev main_v93 : Ref sig .tc := ⟨.hbm, 131, rfl⟩
abbrev main_v94 : Ref sig .tc := ⟨.hbm, 132, rfl⟩
abbrev main_cst_17 : Ref sig .tc := ⟨.hbm, 133, rfl⟩
abbrev main_v95 : Ref sig .tc := ⟨.hbm, 134, rfl⟩
abbrev main_v96 : Ref sig .tc := ⟨.hbm, 135, rfl⟩
abbrev main_v97 : Ref sig .tc := ⟨.hbm, 136, rfl⟩
abbrev main_v98 : Ref sig .tc := ⟨.hbm, 137, rfl⟩
abbrev main_v99 : Ref sig .tc := ⟨.hbm, 138, rfl⟩
abbrev main_v100_0 : Ref sig .tc := ⟨.hbm, 139, rfl⟩
abbrev main_v100_1 : Ref sig .tc := ⟨.hbm, 140, rfl⟩
abbrev main_v101 : Ref sig .tc := ⟨.hbm, 141, rfl⟩
abbrev main_v102 : Ref sig .tc := ⟨.hbm, 142, rfl⟩
abbrev main_v103 : Ref sig .tc := ⟨.hbm, 143, rfl⟩
abbrev main_v104 : Ref sig .tc := ⟨.hbm, 144, rfl⟩
abbrev main_v105 : Ref sig .tc := ⟨.hbm, 145, rfl⟩
abbrev main_c_18 : Ref sig .tc := ⟨.hbm, 146, rfl⟩
abbrev main_v106 : Ref sig .tc := ⟨.hbm, 147, rfl⟩
abbrev main_v107 : Ref sig .tc := ⟨.hbm, 148, rfl⟩
abbrev main_c_19 : Ref sig .tc := ⟨.hbm, 149, rfl⟩
abbrev main_v108 : Ref sig .tc := ⟨.hbm, 150, rfl⟩
abbrev main_v109 : Ref sig .tc := ⟨.hbm, 151, rfl⟩
abbrev main_v110 : Ref sig .tc := ⟨.hbm, 152, rfl⟩
abbrev main_v111 : Ref sig .tc := ⟨.hbm, 153, rfl⟩
abbrev main_v112 : Ref sig .tc := ⟨.hbm, 154, rfl⟩
abbrev main_v113 : Ref sig .tc := ⟨.hbm, 155, rfl⟩
abbrev main_v114 : Ref sig .tc := ⟨.hbm, 156, rfl⟩
abbrev main_v115 : Ref sig .tc := ⟨.hbm, 157, rfl⟩
abbrev main_v116 : Ref sig .tc := ⟨.hbm, 158, rfl⟩
abbrev main_v117 : Ref sig .tc := ⟨.hbm, 159, rfl⟩
abbrev main_v118 : Ref sig .tc := ⟨.hbm, 160, rfl⟩
abbrev main_v119 : Ref sig .tc := ⟨.hbm, 161, rfl⟩
abbrev main_v120 : Ref sig .tc := ⟨.hbm, 162, rfl⟩
abbrev main_v121 : Ref sig .tc := ⟨.hbm, 163, rfl⟩
abbrev main_cst_20 : Ref sig .tc := ⟨.hbm, 164, rfl⟩
abbrev main_v122 : Ref sig .tc := ⟨.hbm, 165, rfl⟩
abbrev main_v123 : Ref sig .tc := ⟨.hbm, 166, rfl⟩
abbrev main_v124 : Ref sig .tc := ⟨.hbm, 167, rfl⟩
abbrev main_cst_21 : Ref sig .tc := ⟨.hbm, 168, rfl⟩
abbrev main_v125 : Ref sig .tc := ⟨.hbm, 169, rfl⟩
abbrev main_v126 : Ref sig .tc := ⟨.hbm, 170, rfl⟩
abbrev main_v127 : Ref sig .tc := ⟨.hbm, 171, rfl⟩
abbrev main_v128 : Ref sig .tc := ⟨.hbm, 172, rfl⟩
abbrev main_v129 : Ref sig .tc := ⟨.hbm, 173, rfl⟩
abbrev main_v130_0 : Ref sig .tc := ⟨.hbm, 174, rfl⟩
abbrev main_v130_1 : Ref sig .tc := ⟨.hbm, 175, rfl⟩
abbrev main_v131 : Ref sig .tc := ⟨.hbm, 176, rfl⟩
abbrev main_v132 : Ref sig .tc := ⟨.hbm, 177, rfl⟩
abbrev main_v133 : Ref sig .tc := ⟨.hbm, 178, rfl⟩
abbrev main_v134 : Ref sig .tc := ⟨.hbm, 179, rfl⟩
abbrev main_v135 : Ref sig .tc := ⟨.hbm, 180, rfl⟩
abbrev main_c_22 : Ref sig .tc := ⟨.hbm, 181, rfl⟩
abbrev main_v136 : Ref sig .tc := ⟨.hbm, 182, rfl⟩
abbrev main_v137 : Ref sig .tc := ⟨.hbm, 183, rfl⟩
abbrev main_c_23 : Ref sig .tc := ⟨.hbm, 184, rfl⟩
abbrev main_v138 : Ref sig .tc := ⟨.hbm, 185, rfl⟩
abbrev main_v139 : Ref sig .tc := ⟨.hbm, 186, rfl⟩
abbrev main_v140 : Ref sig .tc := ⟨.hbm, 187, rfl⟩
abbrev main_v141 : Ref sig .tc := ⟨.hbm, 188, rfl⟩
abbrev main_v142 : Ref sig .tc := ⟨.hbm, 189, rfl⟩
abbrev main_v143 : Ref sig .tc := ⟨.hbm, 190, rfl⟩
abbrev main_v144 : Ref sig .tc := ⟨.hbm, 191, rfl⟩
abbrev main_v145 : Ref sig .tc := ⟨.hbm, 192, rfl⟩
abbrev main_v146 : Ref sig .tc := ⟨.hbm, 193, rfl⟩
abbrev main_v147 : Ref sig .tc := ⟨.hbm, 194, rfl⟩
abbrev main_v148 : Ref sig .tc := ⟨.hbm, 195, rfl⟩
abbrev main_v149 : Ref sig .tc := ⟨.hbm, 196, rfl⟩
abbrev main_v150 : Ref sig .tc := ⟨.hbm, 197, rfl⟩
abbrev main_v151 : Ref sig .tc := ⟨.hbm, 198, rfl⟩
abbrev main_cst_24 : Ref sig .tc := ⟨.hbm, 199, rfl⟩
abbrev main_v152 : Ref sig .tc := ⟨.hbm, 200, rfl⟩
abbrev main_v153 : Ref sig .tc := ⟨.hbm, 201, rfl⟩
abbrev main_v154 : Ref sig .tc := ⟨.hbm, 202, rfl⟩
abbrev main_cst_25 : Ref sig .tc := ⟨.hbm, 203, rfl⟩
abbrev main_v155 : Ref sig .tc := ⟨.hbm, 204, rfl⟩
abbrev main_v156 : Ref sig .tc := ⟨.hbm, 205, rfl⟩
abbrev main_v157 : Ref sig .tc := ⟨.hbm, 206, rfl⟩
abbrev main_v158 : Ref sig .tc := ⟨.hbm, 207, rfl⟩
abbrev main_v159 : Ref sig .tc := ⟨.hbm, 208, rfl⟩
abbrev main_v160_0 : Ref sig .tc := ⟨.hbm, 209, rfl⟩
abbrev main_v160_1 : Ref sig .tc := ⟨.hbm, 210, rfl⟩
abbrev main_v161 : Ref sig .tc := ⟨.hbm, 211, rfl⟩
abbrev main_cst_26 : Ref sig .tc := ⟨.hbm, 212, rfl⟩
abbrev main_v162 : Ref sig .tc := ⟨.hbm, 213, rfl⟩
abbrev main_cst_27 : Ref sig .tc := ⟨.hbm, 214, rfl⟩
abbrev main_v163 : Ref sig .tc := ⟨.hbm, 215, rfl⟩
abbrev main_v164 : Ref sig .tc := ⟨.hbm, 216, rfl⟩
abbrev main_v165 : Ref sig .tc := ⟨.hbm, 217, rfl⟩
abbrev main_cst_28 : Ref sig .tc := ⟨.hbm, 218, rfl⟩
abbrev main_v166 : Ref sig .tc := ⟨.hbm, 219, rfl⟩
abbrev main_v167 : Ref sig .tc := ⟨.hbm, 220, rfl⟩
abbrev main_cst_29 : Ref sig .tc := ⟨.hbm, 221, rfl⟩
abbrev main_v168 : Ref sig .tc := ⟨.hbm, 222, rfl⟩
abbrev main_v169 : Ref sig .tc := ⟨.hbm, 223, rfl⟩
abbrev main_v170 : Ref sig .tc := ⟨.hbm, 224, rfl⟩
abbrev main_v171 : Ref sig .tc := ⟨.hbm, 225, rfl⟩
abbrev main_v172 : Ref sig .tc := ⟨.hbm, 226, rfl⟩
abbrev main_v173 : Ref sig .tc := ⟨.hbm, 227, rfl⟩
abbrev main_v174 : Ref sig .tc := ⟨.hbm, 228, rfl⟩
abbrev main_v175 : Ref sig .tc := ⟨.hbm, 229, rfl⟩
abbrev main_v176 : Ref sig .tc := ⟨.hbm, 230, rfl⟩
abbrev main_v177 : Ref sig .tc := ⟨.hbm, 231, rfl⟩
abbrev main_v178 : Ref sig .tc := ⟨.hbm, 232, rfl⟩
abbrev main_v179 : Ref sig .tc := ⟨.hbm, 233, rfl⟩
abbrev main_v180 : Ref sig .tc := ⟨.hbm, 234, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg4_0 : Ref sig .tc := ⟨.vmem, 11, rfl⟩
abbrev cc1_stg5_0 : Ref sig .tc := ⟨.vmem, 12, rfl⟩
abbrev cc1_stg6_0 : Ref sig .tc := ⟨.vmem, 13, rfl⟩
abbrev cc1_stg6_1 : Ref sig .tc := ⟨.vmem, 14, rfl⟩
abbrev cc2_stg0_0 : Ref sig .tc := ⟨.vmem, 15, rfl⟩
abbrev cc2_stg0_1 : Ref sig .tc := ⟨.vmem, 16, rfl⟩
abbrev cc2_stg1_0 : Ref sig .tc := ⟨.vmem, 17, rfl⟩
abbrev cc2_stg2_0 : Ref sig .tc := ⟨.vmem, 18, rfl⟩
abbrev cc3_stg0_0 : Ref sig .tc := ⟨.vmem, 19, rfl⟩
abbrev cc3_stg0_1 : Ref sig .tc := ⟨.vmem, 20, rfl⟩
abbrev cc3_stg1_0 : Ref sig .tc := ⟨.vmem, 21, rfl⟩
abbrev cc3_stg1_1 : Ref sig .tc := ⟨.vmem, 22, rfl⟩
abbrev cc3_stg2_0 : Ref sig .tc := ⟨.vmem, 23, rfl⟩
abbrev cc3_stg3_0 : Ref sig .tc := ⟨.vmem, 24, rfl⟩
abbrev cc3_stg4_0 : Ref sig .tc := ⟨.vmem, 25, rfl⟩
abbrev cc3_stg5_0 : Ref sig .tc := ⟨.vmem, 26, rfl⟩
abbrev cc3_stg6_0 : Ref sig .tc := ⟨.vmem, 27, rfl⟩
abbrev cc3_stg6_1 : Ref sig .tc := ⟨.vmem, 28, rfl⟩
abbrev cc4_stg0_0 : Ref sig .tc := ⟨.vmem, 29, rfl⟩
abbrev cc4_stg0_1 : Ref sig .tc := ⟨.vmem, 30, rfl⟩
abbrev cc4_stg1_0 : Ref sig .tc := ⟨.vmem, 31, rfl⟩
abbrev cc4_stg2_0 : Ref sig .tc := ⟨.vmem, 32, rfl⟩
abbrev cc4_stg2_1 : Ref sig .tc := ⟨.vmem, 33, rfl⟩
abbrev cc5_stg0_0 : Ref sig .tc := ⟨.vmem, 34, rfl⟩
abbrev cc5_stg0_1 : Ref sig .tc := ⟨.vmem, 35, rfl⟩
abbrev cc5_stg1_0 : Ref sig .tc := ⟨.vmem, 36, rfl⟩
abbrev cc5_stg1_1 : Ref sig .tc := ⟨.vmem, 37, rfl⟩
abbrev cc5_stg2_0 : Ref sig .tc := ⟨.vmem, 38, rfl⟩
abbrev cc5_stg3_0 : Ref sig .tc := ⟨.vmem, 39, rfl⟩
abbrev cc5_stg4_0 : Ref sig .tc := ⟨.vmem, 40, rfl⟩
abbrev cc5_stg5_0 : Ref sig .tc := ⟨.vmem, 41, rfl⟩
abbrev cc5_stg6_0 : Ref sig .tc := ⟨.vmem, 42, rfl⟩
abbrev cc5_stg6_1 : Ref sig .tc := ⟨.vmem, 43, rfl⟩
abbrev cc6_stg0_0 : Ref sig .tc := ⟨.vmem, 44, rfl⟩
abbrev cc6_stg0_1 : Ref sig .tc := ⟨.vmem, 45, rfl⟩
abbrev cc6_stg1_0 : Ref sig .tc := ⟨.vmem, 46, rfl⟩
abbrev cc6_stg2_0 : Ref sig .tc := ⟨.vmem, 47, rfl⟩
abbrev cc7_stg0_0 : Ref sig .tc := ⟨.vmem, 48, rfl⟩
abbrev cc7_stg0_1 : Ref sig .tc := ⟨.vmem, 49, rfl⟩
abbrev cc7_stg1_0 : Ref sig .tc := ⟨.vmem, 50, rfl⟩
abbrev cc7_stg1_1 : Ref sig .tc := ⟨.vmem, 51, rfl⟩
abbrev cc7_stg2_0 : Ref sig .tc := ⟨.vmem, 52, rfl⟩
abbrev cc7_stg3_0 : Ref sig .tc := ⟨.vmem, 53, rfl⟩
abbrev cc7_stg4_0 : Ref sig .tc := ⟨.vmem, 54, rfl⟩
abbrev cc7_stg5_0 : Ref sig .tc := ⟨.vmem, 55, rfl⟩
abbrev cc7_stg6_0 : Ref sig .tc := ⟨.vmem, 56, rfl⟩
abbrev cc7_stg6_1 : Ref sig .tc := ⟨.vmem, 57, rfl⟩
abbrev cc8_stg0_0 : Ref sig .tc := ⟨.vmem, 58, rfl⟩
abbrev cc8_stg0_1 : Ref sig .tc := ⟨.vmem, 59, rfl⟩
abbrev cc8_stg1_0 : Ref sig .tc := ⟨.vmem, 60, rfl⟩
abbrev cc8_stg2_0 : Ref sig .tc := ⟨.vmem, 61, rfl⟩
abbrev cc8_stg2_1 : Ref sig .tc := ⟨.vmem, 62, rfl⟩
abbrev cc9_stg0_0 : Ref sig .tc := ⟨.vmem, 63, rfl⟩
abbrev cc9_stg0_1 : Ref sig .tc := ⟨.vmem, 64, rfl⟩
abbrev cc9_stg1_0 : Ref sig .tc := ⟨.vmem, 65, rfl⟩
abbrev cc9_stg1_1 : Ref sig .tc := ⟨.vmem, 66, rfl⟩
abbrev cc9_stg2_0 : Ref sig .tc := ⟨.vmem, 67, rfl⟩
abbrev cc9_stg3_0 : Ref sig .tc := ⟨.vmem, 68, rfl⟩
abbrev cc9_stg4_0 : Ref sig .tc := ⟨.vmem, 69, rfl⟩
abbrev cc9_stg5_0 : Ref sig .tc := ⟨.vmem, 70, rfl⟩
abbrev cc9_stg6_0 : Ref sig .tc := ⟨.vmem, 71, rfl⟩
abbrev cc9_stg6_1 : Ref sig .tc := ⟨.vmem, 72, rfl⟩
abbrev cc10_stg0_0 : Ref sig .tc := ⟨.vmem, 73, rfl⟩
abbrev cc10_stg0_1 : Ref sig .tc := ⟨.vmem, 74, rfl⟩
abbrev cc10_stg1_0 : Ref sig .tc := ⟨.vmem, 75, rfl⟩
abbrev cc10_stg2_0 : Ref sig .tc := ⟨.vmem, 76, rfl⟩
abbrev cc11_stg0_0 : Ref sig .tc := ⟨.vmem, 77, rfl⟩
abbrev cc11_stg0_1 : Ref sig .tc := ⟨.vmem, 78, rfl⟩
abbrev cc11_stg1_0 : Ref sig .tc := ⟨.vmem, 79, rfl⟩
abbrev cc11_stg1_1 : Ref sig .tc := ⟨.vmem, 80, rfl⟩
abbrev cc11_stg2_0 : Ref sig .tc := ⟨.vmem, 81, rfl⟩
abbrev cc11_stg3_0 : Ref sig .tc := ⟨.vmem, 82, rfl⟩
abbrev cc11_stg4_0 : Ref sig .tc := ⟨.vmem, 83, rfl⟩
abbrev cc11_stg5_0 : Ref sig .tc := ⟨.vmem, 84, rfl⟩
abbrev cc11_stg6_0 : Ref sig .tc := ⟨.vmem, 85, rfl⟩
abbrev cc11_stg6_1 : Ref sig .tc := ⟨.vmem, 86, rfl⟩
abbrev cc12_stg0_0 : Ref sig .tc := ⟨.vmem, 87, rfl⟩
abbrev cc12_stg0_1 : Ref sig .tc := ⟨.vmem, 88, rfl⟩
abbrev cc12_stg1_0 : Ref sig .tc := ⟨.vmem, 89, rfl⟩
abbrev cc12_stg2_0 : Ref sig .tc := ⟨.vmem, 90, rfl⟩
abbrev cc12_stg2_1 : Ref sig .tc := ⟨.vmem, 91, rfl⟩
abbrev cc13_stg0_0 : Ref sig .tc := ⟨.vmem, 92, rfl⟩
abbrev cc13_stg0_1 : Ref sig .tc := ⟨.vmem, 93, rfl⟩
abbrev cc13_stg1_0 : Ref sig .tc := ⟨.vmem, 94, rfl⟩
abbrev cc13_stg1_1 : Ref sig .tc := ⟨.vmem, 95, rfl⟩
abbrev cc13_stg2_0 : Ref sig .tc := ⟨.vmem, 96, rfl⟩
abbrev cc13_stg3_0 : Ref sig .tc := ⟨.vmem, 97, rfl⟩
abbrev cc13_stg4_0 : Ref sig .tc := ⟨.vmem, 98, rfl⟩
abbrev cc13_stg5_0 : Ref sig .tc := ⟨.vmem, 99, rfl⟩
abbrev cc13_stg6_0 : Ref sig .tc := ⟨.vmem, 100, rfl⟩
abbrev cc13_stg6_1 : Ref sig .tc := ⟨.vmem, 101, rfl⟩
abbrev cc14_stg0_0 : Ref sig .tc := ⟨.vmem, 102, rfl⟩
abbrev cc14_stg0_1 : Ref sig .tc := ⟨.vmem, 103, rfl⟩
abbrev cc14_stg1_0 : Ref sig .tc := ⟨.vmem, 104, rfl⟩
abbrev cc14_stg2_0 : Ref sig .tc := ⟨.vmem, 105, rfl⟩
abbrev cc15_stg0_0 : Ref sig .tc := ⟨.vmem, 106, rfl⟩
abbrev cc15_stg0_1 : Ref sig .tc := ⟨.vmem, 107, rfl⟩
abbrev cc15_stg1_0 : Ref sig .tc := ⟨.vmem, 108, rfl⟩
abbrev cc15_stg1_1 : Ref sig .tc := ⟨.vmem, 109, rfl⟩
abbrev cc15_stg2_0 : Ref sig .tc := ⟨.vmem, 110, rfl⟩
abbrev cc15_stg3_0 : Ref sig .tc := ⟨.vmem, 111, rfl⟩
abbrev cc15_stg4_0 : Ref sig .tc := ⟨.vmem, 112, rfl⟩
abbrev cc15_stg5_0 : Ref sig .tc := ⟨.vmem, 113, rfl⟩
abbrev cc15_stg6_0 : Ref sig .tc := ⟨.vmem, 114, rfl⟩
abbrev cc15_stg6_1 : Ref sig .tc := ⟨.vmem, 115, rfl⟩
abbrev cc16_stg0_0 : Ref sig .tc := ⟨.vmem, 116, rfl⟩
abbrev cc16_stg1_0 : Ref sig .tc := ⟨.vmem, 117, rfl⟩
abbrev cc16_stg2_0 : Ref sig .tc := ⟨.vmem, 118, rfl⟩
abbrev cc16_stg3_0 : Ref sig .tc := ⟨.vmem, 119, rfl⟩
abbrev cc16_stg4_0 : Ref sig .tc := ⟨.vmem, 120, rfl⟩
abbrev cc16_stg5_0 : Ref sig .tc := ⟨.vmem, 121, rfl⟩
abbrev cc16_stg6_0 : Ref sig .tc := ⟨.vmem, 122, rfl⟩
abbrev cc16_stg7_0 : Ref sig .tc := ⟨.vmem, 123, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem3_0 : DmaSem sig := 10
abbrev cc1_sem4_0 : DmaSem sig := 11
abbrev cc1_sem5_0 : DmaSem sig := 12
abbrev cc1_sem6_0 : DmaSem sig := 13
abbrev cc1_sem6_1 : DmaSem sig := 14
abbrev cc2_sem0_0 : DmaSem sig := 15
abbrev cc2_sem0_1 : DmaSem sig := 16
abbrev cc2_sem1_0 : DmaSem sig := 17
abbrev cc2_sem2_0 : DmaSem sig := 18
abbrev cc3_sem0_0 : DmaSem sig := 19
abbrev cc3_sem0_1 : DmaSem sig := 20
abbrev cc3_sem1_0 : DmaSem sig := 21
abbrev cc3_sem1_1 : DmaSem sig := 22
abbrev cc3_sem2_0 : DmaSem sig := 23
abbrev cc3_sem3_0 : DmaSem sig := 24
abbrev cc3_sem4_0 : DmaSem sig := 25
abbrev cc3_sem5_0 : DmaSem sig := 26
abbrev cc3_sem6_0 : DmaSem sig := 27
abbrev cc3_sem6_1 : DmaSem sig := 28
abbrev cc4_sem0_0 : DmaSem sig := 29
abbrev cc4_sem0_1 : DmaSem sig := 30
abbrev cc4_sem1_0 : DmaSem sig := 31
abbrev cc4_sem2_0 : DmaSem sig := 32
abbrev cc4_sem2_1 : DmaSem sig := 33
abbrev cc5_sem0_0 : DmaSem sig := 34
abbrev cc5_sem0_1 : DmaSem sig := 35
abbrev cc5_sem1_0 : DmaSem sig := 36
abbrev cc5_sem1_1 : DmaSem sig := 37
abbrev cc5_sem2_0 : DmaSem sig := 38
abbrev cc5_sem3_0 : DmaSem sig := 39
abbrev cc5_sem4_0 : DmaSem sig := 40
abbrev cc5_sem5_0 : DmaSem sig := 41
abbrev cc5_sem6_0 : DmaSem sig := 42
abbrev cc5_sem6_1 : DmaSem sig := 43
abbrev cc6_sem0_0 : DmaSem sig := 44
abbrev cc6_sem0_1 : DmaSem sig := 45
abbrev cc6_sem1_0 : DmaSem sig := 46
abbrev cc6_sem2_0 : DmaSem sig := 47
abbrev cc7_sem0_0 : DmaSem sig := 48
abbrev cc7_sem0_1 : DmaSem sig := 49
abbrev cc7_sem1_0 : DmaSem sig := 50
abbrev cc7_sem1_1 : DmaSem sig := 51
abbrev cc7_sem2_0 : DmaSem sig := 52
abbrev cc7_sem3_0 : DmaSem sig := 53
abbrev cc7_sem4_0 : DmaSem sig := 54
abbrev cc7_sem5_0 : DmaSem sig := 55
abbrev cc7_sem6_0 : DmaSem sig := 56
abbrev cc7_sem6_1 : DmaSem sig := 57
abbrev cc8_sem0_0 : DmaSem sig := 58
abbrev cc8_sem0_1 : DmaSem sig := 59
abbrev cc8_sem1_0 : DmaSem sig := 60
abbrev cc8_sem2_0 : DmaSem sig := 61
abbrev cc8_sem2_1 : DmaSem sig := 62
abbrev cc9_sem0_0 : DmaSem sig := 63
abbrev cc9_sem0_1 : DmaSem sig := 64
abbrev cc9_sem1_0 : DmaSem sig := 65
abbrev cc9_sem1_1 : DmaSem sig := 66
abbrev cc9_sem2_0 : DmaSem sig := 67
abbrev cc9_sem3_0 : DmaSem sig := 68
abbrev cc9_sem4_0 : DmaSem sig := 69
abbrev cc9_sem5_0 : DmaSem sig := 70
abbrev cc9_sem6_0 : DmaSem sig := 71
abbrev cc9_sem6_1 : DmaSem sig := 72
abbrev cc10_sem0_0 : DmaSem sig := 73
abbrev cc10_sem0_1 : DmaSem sig := 74
abbrev cc10_sem1_0 : DmaSem sig := 75
abbrev cc10_sem2_0 : DmaSem sig := 76
abbrev cc11_sem0_0 : DmaSem sig := 77
abbrev cc11_sem0_1 : DmaSem sig := 78
abbrev cc11_sem1_0 : DmaSem sig := 79
abbrev cc11_sem1_1 : DmaSem sig := 80
abbrev cc11_sem2_0 : DmaSem sig := 81
abbrev cc11_sem3_0 : DmaSem sig := 82
abbrev cc11_sem4_0 : DmaSem sig := 83
abbrev cc11_sem5_0 : DmaSem sig := 84
abbrev cc11_sem6_0 : DmaSem sig := 85
abbrev cc11_sem6_1 : DmaSem sig := 86
abbrev cc12_sem0_0 : DmaSem sig := 87
abbrev cc12_sem0_1 : DmaSem sig := 88
abbrev cc12_sem1_0 : DmaSem sig := 89
abbrev cc12_sem2_0 : DmaSem sig := 90
abbrev cc12_sem2_1 : DmaSem sig := 91
abbrev cc13_sem0_0 : DmaSem sig := 92
abbrev cc13_sem0_1 : DmaSem sig := 93
abbrev cc13_sem1_0 : DmaSem sig := 94
abbrev cc13_sem1_1 : DmaSem sig := 95
abbrev cc13_sem2_0 : DmaSem sig := 96
abbrev cc13_sem3_0 : DmaSem sig := 97
abbrev cc13_sem4_0 : DmaSem sig := 98
abbrev cc13_sem5_0 : DmaSem sig := 99
abbrev cc13_sem6_0 : DmaSem sig := 100
abbrev cc13_sem6_1 : DmaSem sig := 101
abbrev cc14_sem0_0 : DmaSem sig := 102
abbrev cc14_sem0_1 : DmaSem sig := 103
abbrev cc14_sem1_0 : DmaSem sig := 104
abbrev cc14_sem2_0 : DmaSem sig := 105
abbrev cc15_sem0_0 : DmaSem sig := 106
abbrev cc15_sem0_1 : DmaSem sig := 107
abbrev cc15_sem1_0 : DmaSem sig := 108
abbrev cc15_sem1_1 : DmaSem sig := 109
abbrev cc15_sem2_0 : DmaSem sig := 110
abbrev cc15_sem3_0 : DmaSem sig := 111
abbrev cc15_sem4_0 : DmaSem sig := 112
abbrev cc15_sem5_0 : DmaSem sig := 113
abbrev cc15_sem6_0 : DmaSem sig := 114
abbrev cc15_sem6_1 : DmaSem sig := 115
abbrev cc16_sem0_0 : DmaSem sig := 116
abbrev cc16_sem1_0 : DmaSem sig := 117
abbrev cc16_sem2_0 : DmaSem sig := 118
abbrev cc16_sem3_0 : DmaSem sig := 119
abbrev cc16_sem4_0 : DmaSem sig := 120
abbrev cc16_sem5_0 : DmaSem sig := 121
abbrev cc16_sem6_0 : DmaSem sig := 122
abbrev cc16_sem7_0 : DmaSem sig := 123

abbrev nD : Nat := 1
abbrev τ : Topo := Topo.v7x

variable {F : FTy → Type} [FloatOps F]

abbrev grid0 : Pipeline.Grid := ⟨1, ![5], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x192 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S10000x192 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![400], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S2000x2 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x3x64 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S2x2 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x2 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S3x2 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S3x2 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S2000x3x64 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage2_0 : Fin 2 → Memref sig .tc .vmem S5000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S5000x64 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S1x64 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x64 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x64 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S1x64 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 2 → Memref sig .tc .vmem S5000x64 .f32 := fun | 0 => Memref.whole cc3_stg6_0 | 1 => Memref.whole cc3_stg6_1 | ⟨_ + 2, h⟩ => absurd h (Nat.not_lt.2 (Nat.le_add_left _ _))
abbrev sem3_6 : Fin 2 → DmaSem sig := fun | 0 => cc3_sem6_0 | 1 => cc3_sem6_1 | ⟨_ + 2, h⟩ => absurd h (Nat.not_lt.2 (Nat.le_add_left _ _))
abbrev reads3_6 : Fin grid3.rank → Bool := ![true]

abbrev grid4 : Pipeline.Grid := ⟨1, ![5], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S10000x64 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S64x192 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 2 → Memref sig .tc .vmem S10000x192 .bf16 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev grid5 : Pipeline.Grid := ⟨1, ![400], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_5 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_6 (i : grid5.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage5_0 : Fin 2 → Memref sig .tc .vmem S2000x2 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S2000x3x64 .bf16 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 1 → Memref sig .tc .vmem S2x2 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 1 → Memref sig .tc .vmem S1x2 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 1 → Memref sig .tc .vmem S3x2 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false]

abbrev stage5_5 : Fin 1 → Memref sig .tc .vmem S3x2 .f32 := fun | 0 => Memref.whole cc5_stg5_0 | ⟨_ + 1, h⟩ => absurd h (Nat.not_lt.2 (Nat.le_add_left _ _))
abbrev sem5_5 : Fin 1 → DmaSem sig := fun | 0 => cc5_sem5_0 | ⟨_ + 1, h⟩ => absurd h (Nat.not_lt.2 (Nat.le_add_left _ _))
abbrev reads5_5 : Fin grid5.rank → Bool := ![false]

abbrev stage5_6 : Fin 2 → Memref sig .tc .vmem S2000x3x64 .f32 := fun | 0 => Memref.whole cc5_stg6_0 | 1 => Memref.whole cc5_stg6_1 | ⟨_ + 2, h⟩ => absurd h (Nat.not_lt.2 (Nat.le_add_left _ _))
abbrev sem5_6 : Fin 2 → DmaSem sig := fun | 0 => cc5_sem6_0 | 1 => cc5_sem6_1 | ⟨_ + 2, h⟩ => absurd h (Nat.not_lt.2 (Nat.le_add_left _ _))
abbrev reads5_6 : Fin grid5.rank → Bool := ![true]

abbrev grid6 : Pipeline.Grid := ⟨1, ![10], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage6_0 : Fin 2 → Memref sig .tc .vmem S5000x64 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 1 → Memref sig .tc .vmem S1x64 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 1 → Memref sig .tc .vmem S1x64 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev grid7 : Pipeline.Grid := ⟨1, ![10], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_2 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_3 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_4 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_5 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_6 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage7_0 : Fin 2 → Memref sig .tc .vmem S5000x64 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 2 → Memref sig .tc .vmem S5000x64 .f32 := fun | 0 => Memref.whole cc7_stg1_0 | 1 => Memref.whole cc7_stg1_1 | ⟨_ + 2, h⟩ => absurd h (Nat.not_lt.2 (Nat.le_add_left _ _))
abbrev sem7_1 : Fin 2 → DmaSem sig := fun | 0 => cc7_sem1_0 | 1 => cc7_sem1_1 | ⟨_ + 2, h⟩ => absurd h (Nat.not_lt.2 (Nat.le_add_left _ _))
abbrev reads7_1 : Fin grid7.rank → Bool := ![true]

abbrev stage7_2 : Fin 1 → Memref sig .tc .vmem S1x64 .f32 := fun | 0 => Memref.whole cc7_stg2_0 | ⟨_ + 1, h⟩ => absurd h (Nat.not_lt.2 (Nat.le_add_left _ _))
abbrev sem7_2 : Fin 1 → DmaSem sig := fun | 0 => cc7_sem2_0 | ⟨_ + 1, h⟩ => absurd h (Nat.not_lt.2 (Nat.le_add_left _ _))
abbrev reads7_2 : Fin grid7.rank → Bool := ![false]

abbrev stage7_3 : Fin 1 → Memref sig .tc .vmem S1x64 .f32 := fun | 0 => Memref.whole cc7_stg3_0 | ⟨_ + 1, h⟩ => absurd h (Nat.not_lt.2 (Nat.le_add_left _ _))
abbrev sem7_3 : Fin 1 → DmaSem sig := fun | 0 => cc7_sem3_0 | ⟨_ + 1, h⟩ => absurd h (Nat.not_lt.2 (Nat.le_add_left _ _))
abbrev reads7_3 : Fin grid7.rank → Bool := ![false]

abbrev stage7_4 : Fin 1 → Memref sig .tc .vmem S1x64 .f32 := fun | 0 => Memref.whole cc7_stg4_0 | ⟨_ + 1, h⟩ => absurd h (Nat.not_lt.2 (Nat.le_add_left _ _))
abbrev sem7_4 : Fin 1 → DmaSem sig := fun | 0 => cc7_sem4_0 | ⟨_ + 1, h⟩ => absurd h (Nat.not_lt.2 (Nat.le_add_left _ _))
abbrev reads7_4 : Fin grid7.rank → Bool := ![false]

abbrev stage7_5 : Fin 1 → Memref sig .tc .vmem S1x64 .f32 := fun | 0 => Memref.whole cc7_stg5_0 | ⟨_ + 1, h⟩ => absurd h (Nat.not_lt.2 (Nat.le_add_left _ _))
abbrev sem7_5 : Fin 1 → DmaSem sig := fun | 0 => cc7_sem5_0 | ⟨_ + 1, h⟩ => absurd h (Nat.not_lt.2 (Nat.le_add_left _ _))
abbrev reads7_5 : Fin grid7.rank → Bool := ![false]

abbrev stage7_6 : Fin 2 → Memref sig .tc .vmem S5000x64 .f32 := fun | 0 => Memref.whole cc7_stg6_0 | 1 => Memref.whole cc7_stg6_1 | ⟨_ + 2, h⟩ => absurd h (Nat.not_lt.2 (Nat.le_add_left _ _))
abbrev sem7_6 : Fin 2 → DmaSem sig := fun | 0 => cc7_sem6_0 | 1 => cc7_sem6_1 | ⟨_ + 2, h⟩ => absurd h (Nat.not_lt.2 (Nat.le_add_left _ _))
abbrev reads7_6 : Fin grid7.rank → Bool := ![true]

abbrev grid8 : Pipeline.Grid := ⟨1, ![5], ![false]⟩

def cc8_transform_0 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_1 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_2 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage8_0 : Fin 2 → Memref sig .tc .vmem S10000x64 .f32 := fun | 0 => Memref.whole cc8_stg0_0 | 1 => Memref.whole cc8_stg0_1 | ⟨_ + 2, h⟩ => absurd h (Nat.not_lt.2 (Nat.le_add_left _ _))
abbrev sem8_0 : Fin 2 → DmaSem sig := fun | 0 => cc8_sem0_0 | 1 => cc8_sem0_1 | ⟨_ + 2, h⟩ => absurd h (Nat.not_lt.2 (Nat.le_add_left _ _))
abbrev reads8_0 : Fin grid8.rank → Bool := ![true]

abbrev stage8_1 : Fin 1 → Memref sig .tc .vmem S64x192 .f32 := fun | 0 => Memref.whole cc8_stg1_0 | ⟨_ + 1, h⟩ => absurd h (Nat.not_lt.2 (Nat.le_add_left _ _))
abbrev sem8_1 : Fin 1 → DmaSem sig := fun | 0 => cc8_sem1_0 | ⟨_ + 1, h⟩ => absurd h (Nat.not_lt.2 (Nat.le_add_left _ _))
abbrev reads8_1 : Fin grid8.rank → Bool := ![false]

abbrev stage8_2 : Fin 2 → Memref sig .tc .vmem S10000x192 .bf16 := fun | 0 => Memref.whole cc8_stg2_0 | 1 => Memref.whole cc8_stg2_1 | ⟨_ + 2, h⟩ => absurd h (Nat.not_lt.2 (Nat.le_add_left _ _))
abbrev sem8_2 : Fin 2 → DmaSem sig := fun | 0 => cc8_sem2_0 | 1 => cc8_sem2_1 | ⟨_ + 2, h⟩ => absurd h (Nat.not_lt.2 (Nat.le_add_left _ _))
abbrev reads8_2 : Fin grid8.rank → Bool := ![true]

abbrev grid9 : Pipeline.Grid := ⟨1, ![400], ![false]⟩

def cc9_transform_0 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_1 (i : grid9.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc9_transform_2 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_3 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_4 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_5 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_6 (i : grid9.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage9_0 : Fin 2 → Memref sig .tc .vmem S2000x2 .f32 := fun | 0 => Memref.whole cc9_stg0_0 | 1 => Memref.whole cc9_stg0_1 | ⟨_ + 2, h⟩ => absurd h (Nat.not_lt.2 (Nat.le_add_left _ _))
abbrev sem9_0 : Fin 2 → DmaSem sig := fun | 0 => cc9_sem0_0 | 1 => cc9_sem0_1 | ⟨_ + 2, h⟩ => absurd h (Nat.not_lt.2 (Nat.le_add_left _ _))
abbrev reads9_0 : Fin grid9.rank → Bool := ![true]

abbrev stage9_1 : Fin 2 → Memref sig .tc .vmem S2000x3x64 .bf16 := fun | 0 => Memref.whole cc9_stg1_0 | 1 => Memref.whole cc9_stg1_1 | ⟨_ + 2, h⟩ => absurd h (Nat.not_lt.2 (Nat.le_add_left _ _))
abbrev sem9_1 : Fin 2 → DmaSem sig := fun | 0 => cc9_sem1_0 | 1 => cc9_sem1_1 | ⟨_ + 2, h⟩ => absurd h (Nat.not_lt.2 (Nat.le_add_left _ _))
abbrev reads9_1 : Fin grid9.rank → Bool := ![true]

abbrev stage9_2 : Fin 1 → Memref sig .tc .vmem S2x2 .f32 := fun | 0 => Memref.whole cc9_stg2_0 | ⟨_ + 1, h⟩ => absurd h (Nat.not_lt.2 (Nat.le_add_left _ _))
abbrev sem9_2 : Fin 1 → DmaSem sig := fun | 0 => cc9_sem2_0 | ⟨_ + 1, h⟩ => absurd h (Nat.not_lt.2 (Nat.le_add_left _ _))
abbrev reads9_2 : Fin grid9.rank → Bool := ![false]

abbrev stage9_3 : Fin 1 → Memref sig .tc .vmem S1x2 .f32 := fun | 0 => Memref.whole cc9_stg3_0 | ⟨_ + 1, h⟩ => absurd h (Nat.not_lt.2 (Nat.le_add_left _ _))
abbrev sem9_3 : Fin 1 → DmaSem sig := fun | 0 => cc9_sem3_0 | ⟨_ + 1, h⟩ => absurd h (Nat.not_lt.2 (Nat.le_add_left _ _))
abbrev reads9_3 : Fin grid9.rank → Bool := ![false]

abbrev stage9_4 : Fin 1 → Memref sig .tc .vmem S3x2 .f32 := fun | 0 => Memref.whole cc9_stg4_0 | ⟨_ + 1, h⟩ => absurd h (Nat.not_lt.2 (Nat.le_add_left _ _))
abbrev sem9_4 : Fin 1 → DmaSem sig := fun | 0 => cc9_sem4_0 | ⟨_ + 1, h⟩ => absurd h (Nat.not_lt.2 (Nat.le_add_left _ _))
abbrev reads9_4 : Fin grid9.rank → Bool := ![false]

abbrev stage9_5 : Fin 1 → Memref sig .tc .vmem S3x2 .f32 := fun | 0 => Memref.whole cc9_stg5_0 | ⟨_ + 1, h⟩ => absurd h (Nat.not_lt.2 (Nat.le_add_left _ _))
abbrev sem9_5 : Fin 1 → DmaSem sig := fun | 0 => cc9_sem5_0 | ⟨_ + 1, h⟩ => absurd h (Nat.not_lt.2 (Nat.le_add_left _ _))
abbrev reads9_5 : Fin grid9.rank → Bool := ![false]

abbrev stage9_6 : Fin 2 → Memref sig .tc .vmem S2000x3x64 .f32 := fun | 0 => Memref.whole cc9_stg6_0 | 1 => Memref.whole cc9_stg6_1 | ⟨_ + 2, h⟩ => absurd h (Nat.not_lt.2 (Nat.le_add_left _ _))
abbrev sem9_6 : Fin 2 → DmaSem sig := fun | 0 => cc9_sem6_0 | 1 => cc9_sem6_1 | ⟨_ + 2, h⟩ => absurd h (Nat.not_lt.2 (Nat.le_add_left _ _))
abbrev reads9_6 : Fin grid9.rank → Bool := ![true]

abbrev grid10 : Pipeline.Grid := ⟨1, ![10], ![false]⟩

def cc10_transform_0 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

def cc10_transform_1 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_2 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage10_0 : Fin 2 → Memref sig .tc .vmem S5000x64 .f32 := fun | 0 => Memref.whole cc10_stg0_0 | 1 => Memref.whole cc10_stg0_1 | ⟨_ + 2, h⟩ => absurd h (Nat.not_lt.2 (Nat.le_add_left _ _))
abbrev sem10_0 : Fin 2 → DmaSem sig := fun | 0 => cc10_sem0_0 | 1 => cc10_sem0_1 | ⟨_ + 2, h⟩ => absurd h (Nat.not_lt.2 (Nat.le_add_left _ _))
abbrev reads10_0 : Fin grid10.rank → Bool := ![true]

abbrev stage10_1 : Fin 1 → Memref sig .tc .vmem S1x64 .f32 := fun | 0 => Memref.whole cc10_stg1_0 | ⟨_ + 1, h⟩ => absurd h (Nat.not_lt.2 (Nat.le_add_left _ _))
abbrev sem10_1 : Fin 1 → DmaSem sig := fun | 0 => cc10_sem1_0 | ⟨_ + 1, h⟩ => absurd h (Nat.not_lt.2 (Nat.le_add_left _ _))
abbrev reads10_1 : Fin grid10.rank → Bool := ![false]

abbrev stage10_2 : Fin 1 → Memref sig .tc .vmem S1x64 .f32 := fun | 0 => Memref.whole cc10_stg2_0 | ⟨_ + 1, h⟩ => absurd h (Nat.not_lt.2 (Nat.le_add_left _ _))
abbrev sem10_2 : Fin 1 → DmaSem sig := fun | 0 => cc10_sem2_0 | ⟨_ + 1, h⟩ => absurd h (Nat.not_lt.2 (Nat.le_add_left _ _))
abbrev reads10_2 : Fin grid10.rank → Bool := ![false]

abbrev grid11 : Pipeline.Grid := ⟨1, ![10], ![false]⟩

def cc11_transform_0 (i : grid11.Coords) : Fin 2 → Nat :=
  let arg0 : BitVec 32 := BitVec.ofNat 32 (i 0).val
  let c0_i32 : BitVec 32 := 0#32
  let c0_i32_0 : BitVec 32 := 0#32
  ![arg0.toNat, c0_i32.toNat]

def cc11_transform_1 (i : grid11.Coords) : Fin 2 → Nat :=
  let arg0 : BitVec 32 := BitVec.ofNat 32 (i 0).val
  let c0_i32 : BitVec 32 := 0#32
  let c0_i32_0 : BitVec 32 := 0#32
  ![arg0.toNat, c0_i32.toNat]

def cc11_transform_2 (i : grid11.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc11_transform_3 (i : grid11.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc11_transform_4 (i : grid11.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc11_transform_5 (i : grid11.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc11_transform_6 (i : grid11.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage11_0 : Fin 2 → Memref sig .tc .vmem S5000x64 .f32 := fun | 0 => Memref.whole cc11_stg0_0 | 1 => Memref.whole cc11_stg0_1 | ⟨_ + 2, h⟩ => absurd h (Nat.not_lt.2 (Nat.le_add_left _ _))
abbrev sem11_0 : Fin 2 → DmaSem sig := fun | 0 => cc11_sem0_0 | 1 => cc11_sem0_1 | ⟨_ + 2, h⟩ => absurd h (Nat.not_lt.2 (Nat.le_add_left _ _))
abbrev reads11_0 : Fin grid11.rank → Bool := ![true]

abbrev stage11_1 : Fin 2 → Memref sig .tc .vmem S5000x64 .f32 := fun | 0 => Memref.whole cc11_stg1_0 | 1 => Memref.whole cc11_stg1_1 | ⟨_ + 2, h⟩ => absurd h (Nat.not_lt.2 (Nat.le_add_left _ _))
abbrev sem11_1 : Fin 2 → DmaSem sig := fun | 0 => cc11_sem1_0 | 1 => cc11_sem1_1 | ⟨_ + 2, h⟩ => absurd h (Nat.not_lt.2 (Nat.le_add_left _ _))
abbrev reads11_1 : Fin grid11.rank → Bool := ![true]

abbrev stage11_2 : Fin 1 → Memref sig .tc .vmem S1x64 .f32 := fun | 0 => Memref.whole cc11_stg2_0 | ⟨_ + 1, h⟩ => absurd h (Nat.not_lt.2 (Nat.le_add_left _ _))
abbrev sem11_2 : Fin 1 → DmaSem sig := fun | 0 => cc11_sem2_0 | ⟨_ + 1, h⟩ => absurd h (Nat.not_lt.2 (Nat.le_add_left _ _))
abbrev reads11_2 : Fin grid11.rank → Bool := ![false]

abbrev stage11_3 : Fin 1 → Memref sig .tc .vmem S1x64 .f32 := fun | 0 => Memref.whole cc11_stg3_0 | ⟨_ + 1, h⟩ => absurd h (Nat.not_lt.2 (Nat.le_add_left _ _))
abbrev sem11_3 : Fin 1 → DmaSem sig := fun | 0 => cc11_sem3_0 | ⟨_ + 1, h⟩ => absurd h (Nat.not_lt.2 (Nat.le_add_left _ _))
abbrev reads11_3 : Fin grid11.rank → Bool := ![false]

abbrev stage11_4 : Fin 1 → Memref sig .tc .vmem S1x64 .f32 := fun | 0 => Memref.whole cc11_stg4_0 | ⟨_ + 1, h⟩ => absurd h (Nat.not_lt.2 (Nat.le_add_left _ _))
abbrev sem11_4 : Fin 1 → DmaSem sig := fun | 0 => cc11_sem4_0 | ⟨_ + 1, h⟩ => absurd h (Nat.not_lt.2 (Nat.le_add_left _ _))
abbrev reads11_4 : Fin grid11.rank → Bool := ![false]

abbrev stage11_5 : Fin 1 → Memref sig .tc .vmem S1x64 .f32 := fun | 0 => Memref.whole cc11_stg5_0 | ⟨_ + 1, h⟩ => absurd h (Nat.not_lt.2 (Nat.le_add_left _ _))
abbrev sem11_5 : Fin 1 → DmaSem sig := fun | 0 => cc11_sem5_0 | ⟨_ + 1, h⟩ => absurd h (Nat.not_lt.2 (Nat.le_add_left _ _))
abbrev reads11_5 : Fin grid11.rank → Bool := ![false]

abbrev stage11_6 : Fin 2 → Memref sig .tc .vmem S5000x64 .f32 := fun | 0 => Memref.whole cc11_stg6_0 | 1 => Memref.whole cc11_stg6_1 | ⟨_ + 2, h⟩ => absurd h (Nat.not_lt.2 (Nat.le_add_left _ _))
abbrev sem11_6 : Fin 2 → DmaSem sig := fun | 0 => cc11_sem6_0 | 1 => cc11_sem6_1 | ⟨_ + 2, h⟩ => absurd h (Nat.not_lt.2 (Nat.le_add_left _ _))
abbrev reads11_6 : Fin grid11.rank → Bool := ![true]

abbrev grid12 : Pipeline.Grid := ⟨1, ![5], ![false]⟩

def cc12_transform_0 (i : grid12.Coords) : Fin 2 → Nat :=
  let arg0 : BitVec 32 := BitVec.ofNat 32 (i 0).val
  let c0_i32 : BitVec 32 := 0#32
  let c0_i32_0 : BitVec 32 := 0#32
  ![arg0.toNat, c0_i32.toNat]

def cc12_transform_1 (i : grid12.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc12_transform_2 (i : grid12.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage12_0 : Fin 2 → Memref sig .tc .vmem S10000x64 .f32 := fun | 0 => Memref.whole cc12_stg0_0 | 1 => Memref.whole cc12_stg0_1 | ⟨_ + 2, h⟩ => absurd h (Nat.not_lt.2 (Nat.le_add_left _ _))
abbrev sem12_0 : Fin 2 → DmaSem sig := fun | 0 => cc12_sem0_0 | 1 => cc12_sem0_1 | ⟨_ + 2, h⟩ => absurd h (Nat.not_lt.2 (Nat.le_add_left _ _))
abbrev reads12_0 : Fin grid12.rank → Bool := ![true]

abbrev stage12_1 : Fin 1 → Memref sig .tc .vmem S64x192 .f32 := fun | 0 => Memref.whole cc12_stg1_0 | ⟨_ + 1, h⟩ => absurd h (Nat.not_lt.2 (Nat.le_add_left _ _))
abbrev sem12_1 : Fin 1 → DmaSem sig := fun | 0 => cc12_sem1_0 | ⟨_ + 1, h⟩ => absurd h (Nat.not_lt.2 (Nat.le_add_left _ _))
abbrev reads12_1 : Fin grid12.rank → Bool := ![false]

abbrev stage12_2 : Fin 2 → Memref sig .tc .vmem S10000x192 .bf16 := fun | 0 => Memref.whole cc12_stg2_0 | 1 => Memref.whole cc12_stg2_1 | ⟨_ + 2, h⟩ => absurd h (Nat.not_lt.2 (Nat.le_add_left _ _))
abbrev sem12_2 : Fin 2 → DmaSem sig := fun | 0 => cc12_sem2_0 | 1 => cc12_sem2_1 | ⟨_ + 2, h⟩ => absurd h (Nat.not_lt.2 (Nat.le_add_left _ _))
abbrev reads12_2 : Fin grid12.rank → Bool := ![true]

abbrev grid13 : Pipeline.Grid := ⟨1, ![400], ![false]⟩

def cc13_transform_0 (i : grid13.Coords) : Fin 2 → Nat :=
  let arg0 : BitVec 32 := BitVec.ofNat 32 (i 0).val
  let c0_i32 : BitVec 32 := 0#32
  let c0_i32_0 : BitVec 32 := 0#32
  ![arg0.toNat, c0_i32.toNat]

def cc13_transform_1 (i : grid13.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc13_transform_2 (i : grid13.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc13_transform_3 (i : grid13.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc13_transform_4 (i : grid13.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc13_transform_5 (i : grid13.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc13_transform_6 (i : grid13.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage13_0 : Fin 2 → Memref sig .tc .vmem S2000x2 .f32 := fun | 0 => Memref.whole cc13_stg0_0 | 1 => Memref.whole cc13_stg0_1 | ⟨_ + 2, h⟩ => absurd h (Nat.not_lt.2 (Nat.le_add_left _ _))
abbrev sem13_0 : Fin 2 → DmaSem sig := fun | 0 => cc13_sem0_0 | 1 => cc13_sem0_1 | ⟨_ + 2, h⟩ => absurd h (Nat.not_lt.2 (Nat.le_add_left _ _))
abbrev reads13_0 : Fin grid13.rank → Bool := ![true]

abbrev stage13_1 : Fin 2 → Memref sig .tc .vmem S2000x3x64 .bf16 := fun | 0 => Memref.whole cc13_stg1_0 | 1 => Memref.whole cc13_stg1_1 | ⟨_ + 2, h⟩ => absurd h (Nat.not_lt.2 (Nat.le_add_left _ _))
abbrev sem13_1 : Fin 2 → DmaSem sig := fun | 0 => cc13_sem1_0 | 1 => cc13_sem1_1 | ⟨_ + 2, h⟩ => absurd h (Nat.not_lt.2 (Nat.le_add_left _ _))
abbrev reads13_1 : Fin grid13.rank → Bool := ![true]

abbrev stage13_2 : Fin 1 → Memref sig .tc .vmem S2x2 .f32 := fun | 0 => Memref.whole cc13_stg2_0 | ⟨_ + 1, h⟩ => absurd h (Nat.not_lt.2 (Nat.le_add_left _ _))
abbrev sem13_2 : Fin 1 → DmaSem sig := fun | 0 => cc13_sem2_0 | ⟨_ + 1, h⟩ => absurd h (Nat.not_lt.2 (Nat.le_add_left _ _))
abbrev reads13_2 : Fin grid13.rank → Bool := ![false]

abbrev stage13_3 : Fin 1 → Memref sig .tc .vmem S1x2 .f32 := fun | 0 => Memref.whole cc13_stg3_0 | ⟨_ + 1, h⟩ => absurd h (Nat.not_lt.2 (Nat.le_add_left _ _))
abbrev sem13_3 : Fin 1 → DmaSem sig := fun | 0 => cc13_sem3_0 | ⟨_ + 1, h⟩ => absurd h (Nat.not_lt.2 (Nat.le_add_left _ _))
abbrev reads13_3 : Fin grid13.rank → Bool := ![false]

abbrev stage13_4 : Fin 1 → Memref sig .tc .vmem S3x2 .f32 := fun | 0 => Memref.whole cc13_stg4_0 | ⟨_ + 1, h⟩ => absurd h (Nat.not_lt.2 (Nat.le_add_left _ _))
abbrev sem13_4 : Fin 1 → DmaSem sig := fun | 0 => cc13_sem4_0 | ⟨_ + 1, h⟩ => absurd h (Nat.not_lt.2 (Nat.le_add_left _ _))
abbrev reads13_4 : Fin grid13.rank → Bool := ![false]

abbrev stage13_5 : Fin 1 → Memref sig .tc .vmem S3x2 .f32 := fun | 0 => Memref.whole cc13_stg5_0 | ⟨_ + 1, h⟩ => absurd h (Nat.not_lt.2 (Nat.le_add_left _ _))
abbrev sem13_5 : Fin 1 → DmaSem sig := fun | 0 => cc13_sem5_0 | ⟨_ + 1, h⟩ => absurd h (Nat.not_lt.2 (Nat.le_add_left _ _))
abbrev reads13_5 : Fin grid13.rank → Bool := ![false]

abbrev stage13_6 : Fin 2 → Memref sig .tc .vmem S2000x3x64 .f32 := fun | 0 => Memref.whole cc13_stg6_0 | 1 => Memref.whole cc13_stg6_1 | ⟨_ + 2, h⟩ => absurd h (Nat.not_lt.2 (Nat.le_add_left _ _))
abbrev sem13_6 : Fin 2 → DmaSem sig := fun | 0 => cc13_sem6_0 | 1 => cc13_sem6_1 | ⟨_ + 2, h⟩ => absurd h (Nat.not_lt.2 (Nat.le_add_left _ _))
abbrev reads13_6 : Fin grid13.rank → Bool := ![true]

abbrev grid14 : Pipeline.Grid := ⟨1, ![10], ![false]⟩

def cc14_transform_0 (i : grid14.Coords) : Fin 2 → Nat :=
  let arg0 : BitVec 32 := BitVec.ofNat 32 (i 0).val
  let c0_i32 : BitVec 32 := 0#32
  let c0_i32_0 : BitVec 32 := 0#32
  ![arg0.toNat, c0_i32.toNat]

def cc14_transform_1 (i : grid14.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc14_transform_2 (i : grid14.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage14_0 : Fin 2 → Memref sig .tc .vmem S5000x64 .f32 := fun | 0 => Memref.whole cc14_stg0_0 | 1 => Memref.whole cc14_stg0_1 | ⟨_ + 2, h⟩ => absurd h (Nat.not_lt.2 (Nat.le_add_left _ _))
abbrev sem14_0 : Fin 2 → DmaSem sig := fun | 0 => cc14_sem0_0 | 1 => cc14_sem0_1 | ⟨_ + 2, h⟩ => absurd h (Nat.not_lt.2 (Nat.le_add_left _ _))
abbrev reads14_0 : Fin grid14.rank → Bool := ![true]

abbrev stage14_1 : Fin 1 → Memref sig .tc .vmem S1x64 .f32 := fun | 0 => Memref.whole cc14_stg1_0 | ⟨_ + 1, h⟩ => absurd h (Nat.not_lt.2 (Nat.le_add_left _ _))
abbrev sem14_1 : Fin 1 → DmaSem sig := fun | 0 => cc14_sem1_0 | ⟨_ + 1, h⟩ => absurd h (Nat.not_lt.2 (Nat.le_add_left _ _))
abbrev reads14_1 : Fin grid14.rank → Bool := ![false]

abbrev stage14_2 : Fin 1 → Memref sig .tc .vmem S1x64 .f32 := fun | 0 => Memref.whole cc14_stg2_0 | ⟨_ + 1, h⟩ => absurd h (Nat.not_lt.2 (Nat.le_add_left _ _))
abbrev sem14_2 : Fin 1 → DmaSem sig := fun | 0 => cc14_sem2_0 | ⟨_ + 1, h⟩ => absurd h (Nat.not_lt.2 (Nat.le_add_left _ _))
abbrev reads14_2 : Fin grid14.rank → Bool := ![false]

abbrev grid15 : Pipeline.Grid := ⟨1, ![10], ![false]⟩

def cc15_transform_0 (i : grid15.Coords) : Fin 2 → Nat :=
  let arg0 : BitVec 32 := BitVec.ofNat 32 (i 0).val
  let c0_i32 : BitVec 32 := 0#32
  let c0_i32_0 : BitVec 32 := 0#32
  ![arg0.toNat, c0_i32.toNat]

def cc15_transform_1 (i : grid15.Coords) : Fin 2 → Nat :=
  let arg0 : BitVec 32 := BitVec.ofNat 32 (i 0).val
  let c0_i32 : BitVec 32 := 0#32
  let c0_i32_0 : BitVec 32 := 0#32
  ![arg0.toNat, c0_i32.toNat]

def cc15_transform_2 (i : grid15.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc15_transform_3 (i : grid15.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc15_transform_4 (i : grid15.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc15_transform_5 (i : grid15.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc15_transform_6 (i : grid15.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage15_0 : Fin 2 → Memref sig .tc .vmem S5000x64 .f32 := fun | 0 => Memref.whole cc15_stg0_0 | 1 => Memref.whole cc15_stg0_1 | ⟨_ + 2, h⟩ => absurd h (Nat.not_lt.2 (Nat.le_add_left _ _))
abbrev sem15_0 : Fin 2 → DmaSem sig := fun | 0 => cc15_sem0_0 | 1 => cc15_sem0_1 | ⟨_ + 2, h⟩ => absurd h (Nat.not_lt.2 (Nat.le_add_left _ _))
abbrev reads15_0 : Fin grid15.rank → Bool := ![true]

abbrev stage15_1 : Fin 2 → Memref sig .tc .vmem S5000x64 .f32 := fun | 0 => Memref.whole cc15_stg1_0 | 1 => Memref.whole cc15_stg1_1 | ⟨_ + 2, h⟩ => absurd h (Nat.not_lt.2 (Nat.le_add_left _ _))
abbrev sem15_1 : Fin 2 → DmaSem sig := fun | 0 => cc15_sem1_0 | 1 => cc15_sem1_1 | ⟨_ + 2, h⟩ => absurd h (Nat.not_lt.2 (Nat.le_add_left _ _))
abbrev reads15_1 : Fin grid15.rank → Bool := ![true]

abbrev stage15_2 : Fin 1 → Memref sig .tc .vmem S1x64 .f32 := fun | 0 => Memref.whole cc15_stg2_0 | ⟨_ + 1, h⟩ => absurd h (Nat.not_lt.2 (Nat.le_add_left _ _))
abbrev sem15_2 : Fin 1 → DmaSem sig := fun | 0 => cc15_sem2_0 | ⟨_ + 1, h⟩ => absurd h (Nat.not_lt.2 (Nat.le_add_left _ _))
abbrev reads15_2 : Fin grid15.rank → Bool := ![false]

abbrev stage15_3 : Fin 1 → Memref sig .tc .vmem S1x64 .f32 := fun | 0 => Memref.whole cc15_stg3_0 | ⟨_ + 1, h⟩ => absurd h (Nat.not_lt.2 (Nat.le_add_left _ _))
abbrev sem15_3 : Fin 1 → DmaSem sig := fun | 0 => cc15_sem3_0 | ⟨_ + 1, h⟩ => absurd h (Nat.not_lt.2 (Nat.le_add_left _ _))
abbrev reads15_3 : Fin grid15.rank → Bool := ![false]

abbrev stage15_4 : Fin 1 → Memref sig .tc .vmem S1x64 .f32 := fun | 0 => Memref.whole cc15_stg4_0 | ⟨_ + 1, h⟩ => absurd h (Nat.not_lt.2 (Nat.le_add_left _ _))
abbrev sem15_4 : Fin 1 → DmaSem sig := fun | 0 => cc15_sem4_0 | ⟨_ + 1, h⟩ => absurd h (Nat.not_lt.2 (Nat.le_add_left _ _))
abbrev reads15_4 : Fin grid15.rank → Bool := ![false]

abbrev stage15_5 : Fin 1 → Memref sig .tc .vmem S1x64 .f32 := fun | 0 => Memref.whole cc15_stg5_0 | ⟨_ + 1, h⟩ => absurd h (Nat.not_lt.2 (Nat.le_add_left _ _))
abbrev sem15_5 : Fin 1 → DmaSem sig := fun | 0 => cc15_sem5_0 | ⟨_ + 1, h⟩ => absurd h (Nat.not_lt.2 (Nat.le_add_left _ _))
abbrev reads15_5 : Fin grid15.rank → Bool := ![false]

abbrev stage15_6 : Fin 2 → Memref sig .tc .vmem S5000x64 .f32 := fun | 0 => Memref.whole cc15_stg6_0 | 1 => Memref.whole cc15_stg6_1 | ⟨_ + 2, h⟩ => absurd h (Nat.not_lt.2 (Nat.le_add_left _ _))
abbrev sem15_6 : Fin 2 → DmaSem sig := fun | 0 => cc15_sem6_0 | 1 => cc15_sem6_1 | ⟨_ + 2, h⟩ => absurd h (Nat.not_lt.2 (Nat.le_add_left _ _))
abbrev reads15_6 : Fin grid15.rank → Bool := ![true]

abbrev grid16 : Pipeline.Grid := ⟨1, ![1], ![false]⟩

def cc16_transform_0 (i : grid16.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc16_transform_1 (i : grid16.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc16_transform_2 (i : grid16.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc16_transform_3 (i : grid16.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc16_transform_4 (i : grid16.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc16_transform_5 (i : grid16.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc16_transform_6 (i : grid16.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc16_transform_7 (i : grid16.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage16_0 : Fin 1 → Memref sig .tc .vmem S256x64 .f32 := fun | 0 => Memref.whole cc16_stg0_0 | ⟨_ + 1, h⟩ => absurd h (Nat.not_lt.2 (Nat.le_add_left _ _))
abbrev sem16_0 : Fin 1 → DmaSem sig := fun | 0 => cc16_sem0_0 | ⟨_ + 1, h⟩ => absurd h (Nat.not_lt.2 (Nat.le_add_left _ _))
abbrev reads16_0 : Fin grid16.rank → Bool := ![false]

abbrev stage16_1 : Fin 1 → Memref sig .tc .vmem S64x32 .f32 := fun | 0 => Memref.whole cc16_stg1_0 | ⟨_ + 1, h⟩ => absurd h (Nat.not_lt.2 (Nat.le_add_left _ _))
abbrev sem16_1 : Fin 1 → DmaSem sig := fun | 0 => cc16_sem1_0 | ⟨_ + 1, h⟩ => absurd h (Nat.not_lt.2 (Nat.le_add_left _ _))
abbrev reads16_1 : Fin grid16.rank → Bool := ![false]

abbrev stage16_2 : Fin 1 → Memref sig .tc .vmem S1x32 .f32 := fun | 0 => Memref.whole cc16_stg2_0 | ⟨_ + 1, h⟩ => absurd h (Nat.not_lt.2 (Nat.le_add_left _ _))
abbrev sem16_2 : Fin 1 → DmaSem sig := fun | 0 => cc16_sem2_0 | ⟨_ + 1, h⟩ => absurd h (Nat.not_lt.2 (Nat.le_add_left _ _))
abbrev reads16_2 : Fin grid16.rank → Bool := ![false]

abbrev stage16_3 : Fin 1 → Memref sig .tc .vmem S32x16 .f32 := fun | 0 => Memref.whole cc16_stg3_0 | ⟨_ + 1, h⟩ => absurd h (Nat.not_lt.2 (Nat.le_add_left _ _))
abbrev sem16_3 : Fin 1 → DmaSem sig := fun | 0 => cc16_sem3_0 | ⟨_ + 1, h⟩ => absurd h (Nat.not_lt.2 (Nat.le_add_left _ _))
abbrev reads16_3 : Fin grid16.rank → Bool := ![false]

abbrev stage16_4 : Fin 1 → Memref sig .tc .vmem S1x16 .f32 := fun | 0 => Memref.whole cc16_stg4_0 | ⟨_ + 1, h⟩ => absurd h (Nat.not_lt.2 (Nat.le_add_left _ _))
abbrev sem16_4 : Fin 1 → DmaSem sig := fun | 0 => cc16_sem4_0 | ⟨_ + 1, h⟩ => absurd h (Nat.not_lt.2 (Nat.le_add_left _ _))
abbrev reads16_4 : Fin grid16.rank → Bool := ![false]

abbrev stage16_5 : Fin 1 → Memref sig .tc .vmem S16x1 .f32 := fun | 0 => Memref.whole cc16_stg5_0 | ⟨_ + 1, h⟩ => absurd h (Nat.not_lt.2 (Nat.le_add_left _ _))
abbrev sem16_5 : Fin 1 → DmaSem sig := fun | 0 => cc16_sem5_0 | ⟨_ + 1, h⟩ => absurd h (Nat.not_lt.2 (Nat.le_add_left _ _))
abbrev reads16_5 : Fin grid16.rank → Bool := ![false]

abbrev stage16_6 : Fin 1 → Memref sig .tc .vmem S1x1 .f32 := fun | 0 => Memref.whole cc16_stg6_0 | ⟨_ + 1, h⟩ => absurd h (Nat.not_lt.2 (Nat.le_add_left _ _))
abbrev sem16_6 : Fin 1 → DmaSem sig := fun | 0 => cc16_sem6_0 | ⟨_ + 1, h⟩ => absurd h (Nat.not_lt.2 (Nat.le_add_left _ _))
abbrev reads16_6 : Fin grid16.rank → Bool := ![false]

abbrev stage16_7 : Fin 1 → Memref sig .tc .vmem S256x1 .f32 := fun | 0 => Memref.whole cc16_stg7_0 | ⟨_ + 1, h⟩ => absurd h (Nat.not_lt.2 (Nat.le_add_left _ _))
abbrev sem16_7 : Fin 1 → DmaSem sig := fun | 0 => cc16_sem7_0 | ⟨_ + 1, h⟩ => absurd h (Nat.not_lt.2 (Nat.le_add_left _ _))
abbrev reads16_7 : Fin grid16.rank → Bool := ![false]

class Facts₀ : Prop where
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  concatenates_S800000x1_S800000x1_S800000x2_d1 : Shape.Concatenates [S800000x1, S800000x1] S800000x2 1
  bcast_S50000_S50000x1_0 : S50000.BroadcastsInDim S50000x1 (![0] : Fin 1 → Fin S50000x1.rank)
  transposes_S4x192x64_S4x64x192_0_2_1 : S4x192x64.Transposes [0, 2, 1] S4x64x192
  shapeCasts_S4x2_S4x1x2 : S4x2.ShapeCasts S4x1x2
  shapeCasts_S4x64_S4x1x64 : S4x64.ShapeCasts S4x1x64
  slices_S4x64x192_S1x64x192_0_0_0 : S4x64x192.Slices ![0, 0, 0] S1x64x192
  shapeCasts_S1x64x192_S64x192 : S1x64x192.ShapeCasts S64x192
  inb_S10000x64_S10000x64_0_0 : ∀ a, (![0, 0] : Fin 2 → Nat) a + S10000x64.size a ≤ S10000x64.size a
  h_S10000x64 : 0 < S10000x64.numel
  shapeCasts_S10000x64_S10000x64 : S10000x64.ShapeCasts S10000x64
  bitsLt_bf16_f32 : FTy.bits .bf16 < FTy.bits .f32
  inb_S64x192_S64x192_0_0 : ∀ a, (![0, 0] : Fin 2 → Nat) a + S64x192.size a ≤ S64x192.size a
  h_S64x192 : 0 < S64x192.numel
  shapeCasts_S64x192_S64x192 : S64x192.ShapeCasts S64x192
  inb_S10000x192_S10000x192_0_0 : ∀ a, (![0, 0] : Fin 2 → Nat) a + S10000x192.size a ≤ S10000x192.size a
  h_S10000x192 : 0 < S10000x192.numel
  packedbf16_S10000x192_S10000x192_0_0 : (Rect.unit (s := S10000x192) ![0, 0] S10000x192.size inb_S10000x192_S10000x192_0_0).PackedRows (EltTy.packing .bf16)
  shapeCasts_S50000x192_S50000x3x64 : S50000x192.ShapeCasts S50000x3x64
  slices_S4x2x2_S1x2x2_0_0_0 : S4x2x2.Slices ![0, 0, 0] S1x2x2
  shapeCasts_S1x2x2_S2x2 : S1x2x2.ShapeCasts S2x2
  slices_S4x1x2_S1x1x2_0_0_0 : S4x1x2.Slices ![0, 0, 0] S1x1x2
  shapeCasts_S1x1x2_S1x2 : S1x1x2.ShapeCasts S1x2
  slices_S4x3x2_S1x3x2_0_0_0 : S4x3x2.Slices ![0, 0, 0] S1x3x2
  shapeCasts_S1x3x2_S3x2 : S1x3x2.ShapeCasts S3x2
  inb_S2000x2_S2000x2_0_0 : ∀ a, (![0, 0] : Fin 2 → Nat) a + S2000x2.size a ≤ S2000x2.size a
  h_S2000x2 : 0 < S2000x2.numel
  shapeCasts_S2000x2_S2000x2 : S2000x2.ShapeCasts S2000x2
  inb_S2x2_S2x2_0_0 : ∀ a, (![0, 0] : Fin 2 → Nat) a + S2x2.size a ≤ S2x2.size a
  h_S2x2 : 0 < S2x2.numel
  shapeCasts_S2x2_S2x2 : S2x2.ShapeCasts S2x2
  inb_S1x2_S1x2_0_0 : ∀ a, (![0, 0] : Fin 2 → Nat) a + S1x2.size a ≤ S1x2.size a
  h_S1x2 : 0 < S1x2.numel
  shapeCasts_S1x2_S1x2 : S1x2.ShapeCasts S1x2
  transposes_S2x2_p1_0_S2x2 : S2x2.Transposes [1, 0] S2x2
  broadcasts_S1x2_S2000x2 : S1x2.Broadcasts S2000x2
  inb_S3x2_S3x2_0_0 : ∀ a, (![0, 0] : Fin 2 → Nat) a + S3x2.size a ≤ S3x2.size a
  h_S3x2 : 0 < S3x2.numel
  shapeCasts_S3x2_S3x2 : S3x2.ShapeCasts S3x2
  shapeCasts_S3x2_S1x3x2 : S3x2.ShapeCasts S1x3x2
  shapeCasts_S2000x2_S2000x1x2 : S2000x2.ShapeCasts S2000x1x2
  broadcasts_S2000x1x2_S2000x3x2 : S2000x1x2.Broadcasts S2000x3x2
  broadcasts_S1x3x2_S2000x3x2 : S1x3x2.Broadcasts S2000x3x2
  reduces_S2000x3x2_S2000x3 : S2000x3x2.Reduces [2] S2000x3
  inb_S2000x3x64_S2000x3x64_0_0_0 : ∀ a, (![0, 0, 0] : Fin 3 → Nat) a + S2000x3x64.size a ≤ S2000x3x64.size a
  h_S2000x3x64 : 0 < S2000x3x64.numel
  shapeCasts_S2000x3x64_S2000x3x64 : S2000x3x64.ShapeCasts S2000x3x64
  shapeCasts_S2000x3_S2000x3x1 : S2000x3.ShapeCasts S2000x3x1
  broadcasts_S2000x3x1_S2000x3x64 : S2000x3x1.Broadcasts S2000x3x64
  bcast_S_S50000x3x64 : S_.BroadcastsInDim S50000x3x64 (![] : Fin 0 → Fin S50000x3x64.rank)
  reducesTo_S50000x3x64_S50000x64_d1 : S50000x3x64.ReducesTo [1] S50000x64
  h_S_ : 0 < S_.numel
  slices_S4x1x64_S1x1x64_0_0_0 : S4x1x64.Slices ![0, 0, 0] S1x1x64
  shapeCasts_S1x1x64_S1x64 : S1x1x64.ShapeCasts S1x64
  inb_S1x64_S1x64_0_0 : ∀ a, (![0, 0] : Fin 2 → Nat) a + S1x64.size a ≤ S1x64.size a
  h_S1x64 : 0 < S1x64.numel
  inb_S5000x64_S5000x64_0_0 : ∀ a, (![0, 0] : Fin 2 → Nat) a + S5000x64.size a ≤ S5000x64.size a
  h_S5000x64 : 0 < S5000x64.numel
  shapeCasts_S5000x64_S5000x64 : S5000x64.ShapeCasts S5000x64
  shapeCasts_S1x64_S1x64 : S1x64.ShapeCasts S1x64
  reduces_S5000x64_S64 : S5000x64.Reduces [0] S64
  shapeCasts_S64_S1x64 : S64.ShapeCasts S1x64
  broadcasts_S1x64_S5000x64 : S1x64.Broadcasts S5000x64
  slices_S4x64x192_S1x64x192_1_0_0 : S4x64x192.Slices ![1, 0, 0] S1x64x192
  slices_S4x2x2_S1x2x2_1_0_0 : S4x2x2.Slices ![1, 0, 0] S1x2x2
  slices_S4x1x2_S1x1x2_1_0_0 : S4x1x2.Slices ![1, 0, 0] S1x1x2
  slices_S4x3x2_S1x3x2_1_0_0 : S4x3x2.Slices ![1, 0, 0] S1x3x2
  slices_S4x1x64_S1x1x64_1_0_0 : S4x1x64.Slices ![1, 0, 0] S1x1x64
  slices_S4x64x192_S1x64x192_2_0_0 : S4x64x192.Slices ![2, 0, 0] S1x64x192
  slices_S4x2x2_S1x2x2_2_0_0 : S4x2x2.Slices ![2, 0, 0] S1x2x2
  slices_S4x1x2_S1x1x2_2_0_0 : S4x1x2.Slices ![2, 0, 0] S1x1x2
  slices_S4x3x2_S1x3x2_2_0_0 : S4x3x2.Slices ![2, 0, 0] S1x3x2
  slices_S4x1x64_S1x1x64_2_0_0 : S4x1x64.Slices ![2, 0, 0] S1x1x64
  slices_S4x64x192_S1x64x192_3_0_0 : S4x64x192.Slices ![3, 0, 0] S1x64x192
  slices_S4x2x2_S1x2x2_3_0_0 : S4x2x2.Slices ![3, 0, 0] S1x2x2
  slices_S4x1x2_S1x1x2_3_0_0 : S4x1x2.Slices ![3, 0, 0] S1x1x2
  slices_S4x3x2_S1x3x2_3_0_0 : S4x3x2.Slices ![3, 0, 0] S1x3x2
  slices_S4x1x64_S1x1x64_3_0_0 : S4x1x64.Slices ![3, 0, 0] S1x1x64
  bcast_S_S256 : S_.BroadcastsInDim S256 (![] : Fin 0 → Fin S256.rank)
  bcast_S_S256x64 : S_.BroadcastsInDim S256x64 (![] : Fin 0 → Fin S256x64.rank)
  bcast_S256_S256x1_0 : S256.BroadcastsInDim S256x1 (![0] : Fin 1 → Fin S256x1.rank)
  bcast_S256x1_S256x64_0_1 : S256x1.BroadcastsInDim S256x64 (![0, 1] : Fin 2 → Fin S256x64.rank)
  transposes_S32x64_S64x32_1_0 : S32x64.Transposes [1, 0] S64x32
  transposes_S16x32_S32x16_1_0 : S16x32.Transposes [1, 0] S32x16
  transposes_S1x16_S16x1_1_0 : S1x16.Transposes [1, 0] S16x1
  shapeCasts_S32_S1x32 : S32.ShapeCasts S1x32
  shapeCasts_S16_S1x16 : S16.ShapeCasts S1x16
  shapeCasts_S1_S1x1 : S1.ShapeCasts S1x1
  inb_S256x64_S256x64_0_0 : ∀ a, (![0, 0] : Fin 2 → Nat) a + S256x64.size a ≤ S256x64.size a
  h_S256x64 : 0 < S256x64.numel
  shapeCasts_S256x64_S256x64 : S256x64.ShapeCasts S256x64
  inb_S64x32_S64x32_0_0 : ∀ a, (![0, 0] : Fin 2 → Nat) a + S64x32.size a ≤ S64x32.size a
  h_S64x32 : 0 < S64x32.numel
  shapeCasts_S64x32_S64x32 : S64x32.ShapeCasts S64x32
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S256x32 : S1x32.Broadcasts S256x32
  inb_S32x16_S32x16_0_0 : ∀ a, (![0, 0] : Fin 2 → Nat) a + S32x16.size a ≤ S32x16.size a
  h_S32x16 : 0 < S32x16.numel
  shapeCasts_S32x16_S32x16 : S32x16.ShapeCasts S32x16
  inb_S1x16_S1x16_0_0 : ∀ a, (![0, 0] : Fin 2 → Nat) a + S1x16.size a ≤ S1x16.size a
  h_S1x16 : 0 < S1x16.numel
  shapeCasts_S1x16_S1x16 : S1x16.ShapeCasts S1x16
  broadcasts_S1x16_S256x16 : S1x16.Broadcasts S256x16
  inb_S16x1_S16x1_0_0 : ∀ a, (![0, 0] : Fin 2 → Nat) a + S16x1.size a ≤ S16x1.size a
  h_S16x1 : 0 < S16x1.numel
  shapeCasts_S16x1_S16x1 : S16x1.ShapeCasts S16x1
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S256x1 : S1x1.Broadcasts S256x1
  inb_S256x1_S256x1_0_0 : ∀ a, (![0, 0] : Fin 2 → Nat) a + S256x1.size a ≤ S256x1.size a
  h_S256x1 : 0 < S256x1.numel
  scatter_S50000_S800000x1_S800000_n_0_0_1_wf : ScatterDims.WF S50000 S800000x1 S800000 [] [0] [0] 1
  gather_S50000_S800000x1_S800000_n_0_n_n_0_1_1_wf : GatherDims.WF S50000 S800000x1 S800000 [] [0] [] [0] [] 1 ![1]
  gather_S28x64_S50000x1_S50000x64_1_0_n_n_0_1_164_wf : GatherDims.WF S28x64 S50000x1 S50000x64 [1] [0] [] [0] [] 1 ![1, 64]
  dot_S10000x64_S64x192_S10000x192_1_0_0_1_n_n_wf : DotDims.WF S10000x64 S64x192 S10000x192 [1] [0] [0] [1] [] []
  gather_S50000x3x64_S800000x1_S800000x3x64_12_0_n_n_0_1_1364_wf : GatherDims.WF S50000x3x64 S800000x1 S800000x3x64 [1, 2] [0] [] [0] [] 1 ![1, 3, 64]
  dot_S2000x2_S2x2_S2000x2_1_0_0_1_n_n_wf : DotDims.WF S2000x2 S2x2 S2000x2 [1] [0] [0] [1] [] []
  scatter_S50000x3x64_S800000x1_S800000x3x64_12_0_0_1_wf : ScatterDims.WF S50000x3x64 S800000x1 S800000x3x64 [1, 2] [0] [0] 1
  scatter_S256_S50000x1_S50000_n_0_0_1_wf : ScatterDims.WF S256 S50000x1 S50000 [] [0] [0] 1
  scatter_S256x64_S50000x1_S50000x64_1_0_0_1_wf : ScatterDims.WF S256x64 S50000x1 S50000x64 [1] [0] [0] 1
  dot_S256x64_S64x32_S256x32_1_0_0_1_n_n_wf : DotDims.WF S256x64 S64x32 S256x32 [1] [0] [0] [1] [] []
  dot_S256x32_S32x16_S256x16_1_0_0_1_n_n_wf : DotDims.WF S256x32 S32x16 S256x16 [1] [0] [0] [1] [] []
  dot_S256x16_S16x1_S256x1_1_0_0_1_n_n_wf : DotDims.WF S256x16 S16x1 S256x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x64.size a ≤ S50000x64.size a
  hwx0_0 : ∀ i : grid0.Coords, EltTy.bits .f32 = 32 ∨ (Rect.block (s := S50000x64) S10000x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x192.size a ≤ S64x192.size a
  hwx0_1 : ∀ i : grid0.Coords, EltTy.bits .f32 = 32 ∨ (Rect.block (s := S64x192) S64x192.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x192.size a ≤ S50000x192.size a
  hwx0_2 : ∀ i : grid0.Coords, EltTy.bits .bf16 = 32 ∨ (Rect.block (s := S50000x192) S10000x192.size (cc0_transform_2 i) (hinb0_2 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x2.size a ≤ S800000x2.size a
  hwx1_0 : ∀ i : grid1.Coords, EltTy.bits .f32 = 32 ∨ (Rect.block (s := S800000x2) S2000x2.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x3x64.size a ≤ S800000x3x64.size a
  hwx1_1 : ∀ i : grid1.Coords, EltTy.bits .bf16 = 32 ∨ (Rect.block (s := S800000x3x64) S2000x3x64.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S2x2.size a ≤ S2x2.size a
  hwx1_2 : ∀ i : grid1.Coords, EltTy.bits .f32 = 32 ∨ (Rect.block (s := S2x2) S2x2.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x2.size a ≤ S1x2.size a
  hwx1_3 : ∀ i : grid1.Coords, EltTy.bits .f32 = 32 ∨ (Rect.block (s := S1x2) S1x2.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S3x2.size a ≤ S3x2.size a
  hwx1_4 : ∀ i : grid1.Coords, EltTy.bits .f32 = 32 ∨ (Rect.block (s := S3x2) S3x2.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S3x2.size a ≤ S3x2.size a
  hwx1_5 : ∀ i : grid1.Coords, EltTy.bits .f32 = 32 ∨ (Rect.block (s := S3x2) S3x2.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S2000x3x64.size a ≤ S800000x3x64.size a
  hwx1_6 : ∀ i : grid1.Coords, EltTy.bits .f32 = 32 ∨ (Rect.block (s := S800000x3x64) S2000x3x64.size (cc1_transform_6 i) (hinb1_6 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x64.size a ≤ S50000x64.size a
  hwx2_0 : ∀ i : grid2.Coords, EltTy.bits .f32 = 32 ∨ (Rect.block (s := S50000x64) S5000x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x64.size a ≤ S1x64.size a
  hwx2_1 : ∀ i : grid2.Coords, EltTy.bits .f32 = 32 ∨ (Rect.block (s := S1x64) S1x64.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x64.size a ≤ S1x64.size a
  hwx2_2 : ∀ i : grid2.Coords, EltTy.bits .f32 = 32 ∨ (Rect.block (s := S1x64) S1x64.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x64.size a ≤ S50000x64.size a
  hwx3_0 : ∀ i : grid3.Coords, EltTy.bits .f32 = 32 ∨ (Rect.block (s := S50000x64) S5000x64.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S5000x64.size a ≤ S50000x64.size a
  hwx3_1 : ∀ i : grid3.Coords, EltTy.bits .f32 = 32 ∨ (Rect.block (s := S50000x64) S5000x64.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x64.size a ≤ S1x64.size a
  hwx3_2 : ∀ i : grid3.Coords, EltTy.bits .f32 = 32 ∨ (Rect.block (s := S1x64) S1x64.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x64.size a ≤ S1x64.size a
  hwx3_3 : ∀ i : grid3.Coords, EltTy.bits .f32 = 32 ∨ (Rect.block (s := S1x64) S1x64.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x64.size a ≤ S1x64.size a
  hwx3_4 : ∀ i : grid3.Coords, EltTy.bits .f32 = 32 ∨ (Rect.block (s := S1x64) S1x64.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S1x64.size a ≤ S1x64.size a
  hwx3_5 : ∀ i : grid3.Coords, EltTy.bits .f32 = 32 ∨ (Rect.block (s := S1x64) S1x64.size (cc3_transform_5 i) (hinb3_5 i)).WholeWords (EltTy.packing .f32)
  hstage3_6 : ∀ j, (stage3_6 j).IsWhole
  nbuf3_6 : grid3.bufCount reads3_6 false = 2
  hreads3_6 : ∀ i i' : grid3.Coords, (∀ a, reads3_6 a = true → i a = i' a) → cc3_transform_6 i = cc3_transform_6 i'
  hinb3_6 : ∀ (i : grid3.Coords) a, (cc3_transform_6 i a + 1) * S5000x64.size a ≤ S50000x64.size a
  hwx3_6 : ∀ i : grid3.Coords, EltTy.bits .f32 = 32 ∨ (Rect.block (s := S50000x64) S5000x64.size (cc3_transform_6 i) (hinb3_6 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S10000x64.size a ≤ S50000x64.size a
  hwx4_0 : ∀ i : grid4.Coords, EltTy.bits .f32 = 32 ∨ (Rect.block (s := S50000x64) S10000x64.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S64x192.size a ≤ S64x192.size a
  hwx4_1 : ∀ i : grid4.Coords, EltTy.bits .f32 = 32 ∨ (Rect.block (s := S64x192) S64x192.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S10000x192.size a ≤ S50000x192.size a
  hwx4_2 : ∀ i : grid4.Coords, EltTy.bits .bf16 = 32 ∨ (Rect.block (s := S50000x192) S10000x192.size (cc4_transform_2 i) (hinb4_2 i)).WholeWords (EltTy.packing .bf16)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S2000x2.size a ≤ S800000x2.size a
  hwx5_0 : ∀ i : grid5.Coords, EltTy.bits .f32 = 32 ∨ (Rect.block (s := S800000x2) S2000x2.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S2000x3x64.size a ≤ S800000x3x64.size a
  hwx5_1 : ∀ i : grid5.Coords, EltTy.bits .bf16 = 32 ∨ (Rect.block (s := S800000x3x64) S2000x3x64.size (cc5_transform_1 i) (hinb5_1 i)).WholeWords (EltTy.packing .bf16)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S2x2.size a ≤ S2x2.size a
  hwx5_2 : ∀ i : grid5.Coords, EltTy.bits .f32 = 32 ∨ (Rect.block (s := S2x2) S2x2.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S1x2.size a ≤ S1x2.size a
  hwx5_3 : ∀ i : grid5.Coords, EltTy.bits .f32 = 32 ∨ (Rect.block (s := S1x2) S1x2.size (cc5_transform_3 i) (hinb5_3 i)).WholeWords (EltTy.packing .f32)
  hstage5_4 : ∀ j, (stage5_4 j).IsWhole
  nbuf5_4 : grid5.bufCount reads5_4 true = 1
  hreads5_4 : ∀ i i' : grid5.Coords, (∀ a, reads5_4 a = true → i a = i' a) → cc5_transform_4 i = cc5_transform_4 i'
  hinb5_4 : ∀ (i : grid5.Coords) a, (cc5_transform_4 i a + 1) * S3x2.size a ≤ S3x2.size a
  hwx5_4 : ∀ i : grid5.Coords, EltTy.bits .f32 = 32 ∨ (Rect.block (s := S3x2) S3x2.size (cc5_transform_4 i) (hinb5_4 i)).WholeWords (EltTy.packing .f32)
  hstage5_5 : ∀ j, (stage5_5 j).IsWhole
  nbuf5_5 : grid5.bufCount reads5_5 true = 1
  hreads5_5 : ∀ i i' : grid5.Coords, (∀ a, reads5_5 a = true → i a = i' a) → cc5_transform_5 i = cc5_transform_5 i'
  hinb5_5 : ∀ (i : grid5.Coords) a, (cc5_transform_5 i a + 1) * S3x2.size a ≤ S3x2.size a
  hwx5_5 : ∀ i : grid5.Coords, EltTy.bits .f32 = 32 ∨ (Rect.block (s := S3x2) S3x2.size (cc5_transform_5 i) (hinb5_5 i)).WholeWords (EltTy.packing .f32)
  hstage5_6 : ∀ j, (stage5_6 j).IsWhole
  nbuf5_6 : grid5.bufCount reads5_6 false = 2
  hreads5_6 : ∀ i i' : grid5.Coords, (∀ a, reads5_6 a = true → i a = i' a) → cc5_transform_6 i = cc5_transform_6 i'
  hinb5_6 : ∀ (i : grid5.Coords) a, (cc5_transform_6 i a + 1) * S2000x3x64.size a ≤ S800000x3x64.size a
  hwx5_6 : ∀ i : grid5.Coords, EltTy.bits .f32 = 32 ∨ (Rect.block (s := S800000x3x64) S2000x3x64.size (cc5_transform_6 i) (hinb5_6 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S5000x64.size a ≤ S50000x64.size a
  hwx6_0 : ∀ i : grid6.Coords, EltTy.bits .f32 = 32 ∨ (Rect.block (s := S50000x64) S5000x64.size (cc6_transform_0 i) (hinb6_0 i)).WholeWords (EltTy.packing .f32)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S1x64.size a ≤ S1x64.size a
  hwx6_1 : ∀ i : grid6.Coords, EltTy.bits .f32 = 32 ∨ (Rect.block (s := S1x64) S1x64.size (cc6_transform_1 i) (hinb6_1 i)).WholeWords (EltTy.packing .f32)
  hstage6_2 : ∀ j, (stage6_2 j).IsWhole
  nbuf6_2 : grid6.bufCount reads6_2 true = 1
  hreads6_2 : ∀ i i' : grid6.Coords, (∀ a, reads6_2 a = true → i a = i' a) → cc6_transform_2 i = cc6_transform_2 i'
  hinb6_2 : ∀ (i : grid6.Coords) a, (cc6_transform_2 i a + 1) * S1x64.size a ≤ S1x64.size a
  hwx6_2 : ∀ i : grid6.Coords, EltTy.bits .f32 = 32 ∨ (Rect.block (s := S1x64) S1x64.size (cc6_transform_2 i) (hinb6_2 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S5000x64.size a ≤ S50000x64.size a
  hwx7_0 : ∀ i : grid7.Coords, EltTy.bits .f32 = 32 ∨ (Rect.block (s := S50000x64) S5000x64.size (cc7_transform_0 i) (hinb7_0 i)).WholeWords (EltTy.packing .f32)
  hstage7_1 : ∀ j, (stage7_1 j).IsWhole
  nbuf7_1 : grid7.bufCount reads7_1 false = 2
  hreads7_1 : ∀ i i' : grid7.Coords, (∀ a, reads7_1 a = true → i a = i' a) → cc7_transform_1 i = cc7_transform_1 i'
  hinb7_1 : ∀ (i : grid7.Coords) a, (cc7_transform_1 i a + 1) * S5000x64.size a ≤ S50000x64.size a
  hwx7_1 : ∀ i : grid7.Coords, EltTy.bits .f32 = 32 ∨ (Rect.block (s := S50000x64) S5000x64.size (cc7_transform_1 i) (hinb7_1 i)).WholeWords (EltTy.packing .f32)
  hstage7_2 : ∀ j, (stage7_2 j).IsWhole
  nbuf7_2 : grid7.bufCount reads7_2 true = 1
  hreads7_2 : ∀ i i' : grid7.Coords, (∀ a, reads7_2 a = true → i a = i' a) → cc7_transform_2 i = cc7_transform_2 i'
  hinb7_2 : ∀ (i : grid7.Coords) a, (cc7_transform_2 i a + 1) * S1x64.size a ≤ S1x64.size a
  hwx7_2 : ∀ i : grid7.Coords, EltTy.bits .f32 = 32 ∨ (Rect.block (s := S1x64) S1x64.size (cc7_transform_2 i) (hinb7_2 i)).WholeWords (EltTy.packing .f32)
  hstage7_3 : ∀ j, (stage7_3 j).IsWhole
  nbuf7_3 : grid7.bufCount reads7_3 true = 1
  hreads7_3 : ∀ i i' : grid7.Coords, (∀ a, reads7_3 a = true → i a = i' a) → cc7_transform_3 i = cc7_transform_3 i'
  hinb7_3 : ∀ (i : grid7.Coords) a, (cc7_transform_3 i a + 1) * S1x64.size a ≤ S1x64.size a
  hwx7_3 : ∀ i : grid7.Coords, EltTy.bits .f32 = 32 ∨ (Rect.block (s := S1x64) S1x64.size (cc7_transform_3 i) (hinb7_3 i)).WholeWords (EltTy.packing .f32)
  hstage7_4 : ∀ j, (stage7_4 j).IsWhole
  nbuf7_4 : grid7.bufCount reads7_4 true = 1
  hreads7_4 : ∀ i i' : grid7.Coords, (∀ a, reads7_4 a = true → i a = i' a) → cc7_transform_4 i = cc7_transform_4 i'
  hinb7_4 : ∀ (i : grid7.Coords) a, (cc7_transform_4 i a + 1) * S1x64.size a ≤ S1x64.size a
  hwx7_4 : ∀ i : grid7.Coords, EltTy.bits .f32 = 32 ∨ (Rect.block (s := S1x64) S1x64.size (cc7_transform_4 i) (hinb7_4 i)).WholeWords (EltTy.packing .f32)
  hstage7_5 : ∀ j, (stage7_5 j).IsWhole
  nbuf7_5 : grid7.bufCount reads7_5 true = 1
  hreads7_5 : ∀ i i' : grid7.Coords, (∀ a, reads7_5 a = true → i a = i' a) → cc7_transform_5 i = cc7_transform_5 i'
  hinb7_5 : ∀ (i : grid7.Coords) a, (cc7_transform_5 i a + 1) * S1x64.size a ≤ S1x64.size a
  hwx7_5 : ∀ i : grid7.Coords, EltTy.bits .f32 = 32 ∨ (Rect.block (s := S1x64) S1x64.size (cc7_transform_5 i) (hinb7_5 i)).WholeWords (EltTy.packing .f32)
  hstage7_6 : ∀ j, (stage7_6 j).IsWhole
  nbuf7_6 : grid7.bufCount reads7_6 false = 2
  hreads7_6 : ∀ i i' : grid7.Coords, (∀ a, reads7_6 a = true → i a = i' a) → cc7_transform_6 i = cc7_transform_6 i'
  hinb7_6 : ∀ (i : grid7.Coords) a, (cc7_transform_6 i a + 1) * S5000x64.size a ≤ S50000x64.size a
  hwx7_6 : ∀ i : grid7.Coords, EltTy.bits .f32 = 32 ∨ (Rect.block (s := S50000x64) S5000x64.size (cc7_transform_6 i) (hinb7_6 i)).WholeWords (EltTy.packing .f32)
  hrank8 : 0 < grid8.rank
  hstage8_0 : ∀ j, (stage8_0 j).IsWhole
  nbuf8_0 : grid8.bufCount reads8_0 false = 2
  hreads8_0 : ∀ i i' : grid8.Coords, (∀ a, reads8_0 a = true → i a = i' a) → cc8_transform_0 i = cc8_transform_0 i'
  hinb8_0 : ∀ (i : grid8.Coords) a, (cc8_transform_0 i a + 1) * S10000x64.size a ≤ S50000x64.size a
  hwx8_0 : ∀ i : grid8.Coords, EltTy.bits .f32 = 32 ∨ (Rect.block (s := S50000x64) S10000x64.size (cc8_transform_0 i) (hinb8_0 i)).WholeWords (EltTy.packing .f32)
  hstage8_1 : ∀ j, (stage8_1 j).IsWhole
  nbuf8_1 : grid8.bufCount reads8_1 true = 1
  hreads8_1 : ∀ i i' : grid8.Coords, (∀ a, reads8_1 a = true → i a = i' a) → cc8_transform_1 i = cc8_transform_1 i'
  hinb8_1 : ∀ (i : grid8.Coords) a, (cc8_transform_1 i a + 1) * S64x192.size a ≤ S64x192.size a
  hwx8_1 : ∀ i : grid8.Coords, EltTy.bits .f32 = 32 ∨ (Rect.block (s := S64x192) S64x192.size (cc8_transform_1 i) (hinb8_1 i)).WholeWords (EltTy.packing .f32)
  hstage8_2 : ∀ j, (stage8_2 j).IsWhole
  nbuf8_2 : grid8.bufCount reads8_2 false = 2
  hreads8_2 : ∀ i i' : grid8.Coords, (∀ a, reads8_2 a = true → i a = i' a) → cc8_transform_2 i = cc8_transform_2 i'
  hinb8_2 : ∀ (i : grid8.Coords) a, (cc8_transform_2 i a + 1) * S10000x192.size a ≤ S50000x192.size a
  hwx8_2 : ∀ i : grid8.Coords, EltTy.bits .bf16 = 32 ∨ (Rect.block (s := S50000x192) S10000x192.size (cc8_transform_2 i) (hinb8_2 i)).WholeWords (EltTy.packing .bf16)
  hrank9 : 0 < grid9.rank
  hstage9_0 : ∀ j, (stage9_0 j).IsWhole
  nbuf9_0 : grid9.bufCount reads9_0 false = 2
  hreads9_0 : ∀ i i' : grid9.Coords, (∀ a, reads9_0 a = true → i a = i' a) → cc9_transform_0 i = cc9_transform_0 i'
  hinb9_0 : ∀ (i : grid9.Coords) a, (cc9_transform_0 i a + 1) * S2000x2.size a ≤ S800000x2.size a
  hwx9_0 : ∀ i : grid9.Coords, EltTy.bits .f32 = 32 ∨ (Rect.block (s := S800000x2) S2000x2.size (cc9_transform_0 i) (hinb9_0 i)).WholeWords (EltTy.packing .f32)
  hstage9_1 : ∀ j, (stage9_1 j).IsWhole
  nbuf9_1 : grid9.bufCount reads9_1 false = 2
  hreads9_1 : ∀ i i' : grid9.Coords, (∀ a, reads9_1 a = true → i a = i' a) → cc9_transform_1 i = cc9_transform_1 i'
  hinb9_1 : ∀ (i : grid9.Coords) a, (cc9_transform_1 i a + 1) * S2000x3x64.size a ≤ S800000x3x64.size a
  hwx9_1 : ∀ i : grid9.Coords, EltTy.bits .bf16 = 32 ∨ (Rect.block (s := S800000x3x64) S2000x3x64.size (cc9_transform_1 i) (hinb9_1 i)).WholeWords (EltTy.packing .bf16)
  hstage9_2 : ∀ j, (stage9_2 j).IsWhole
  nbuf9_2 : grid9.bufCount reads9_2 true = 1
  hreads9_2 : ∀ i i' : grid9.Coords, (∀ a, reads9_2 a = true → i a = i' a) → cc9_transform_2 i = cc9_transform_2 i'
  hinb9_2 : ∀ (i : grid9.Coords) a, (cc9_transform_2 i a + 1) * S2x2.size a ≤ S2x2.size a
  hwx9_2 : ∀ i : grid9.Coords, EltTy.bits .f32 = 32 ∨ (Rect.block (s := S2x2) S2x2.size (cc9_transform_2 i) (hinb9_2 i)).WholeWords (EltTy.packing .f32)
  hstage9_3 : ∀ j, (stage9_3 j).IsWhole
  nbuf9_3 : grid9.bufCount reads9_3 true = 1
  hreads9_3 : ∀ i i' : grid9.Coords, (∀ a, reads9_3 a = true → i a = i' a) → cc9_transform_3 i = cc9_transform_3 i'
  hinb9_3 : ∀ (i : grid9.Coords) a, (cc9_transform_3 i a + 1) * S1x2.size a ≤ S1x2.size a
  hwx9_3 : ∀ i : grid9.Coords, EltTy.bits .f32 = 32 ∨ (Rect.block (s := S1x2) S1x2.size (cc9_transform_3 i) (hinb9_3 i)).WholeWords (EltTy.packing .f32)
  hstage9_4 : ∀ j, (stage9_4 j).IsWhole
  nbuf9_4 : grid9.bufCount reads9_4 true = 1
  hreads9_4 : ∀ i i' : grid9.Coords, (∀ a, reads9_4 a = true → i a = i' a) → cc9_transform_4 i = cc9_transform_4 i'
  hinb9_4 : ∀ (i : grid9.Coords) a, (cc9_transform_4 i a + 1) * S3x2.size a ≤ S3x2.size a
  hwx9_4 : ∀ i : grid9.Coords, EltTy.bits .f32 = 32 ∨ (Rect.block (s := S3x2) S3x2.size (cc9_transform_4 i) (hinb9_4 i)).WholeWords (EltTy.packing .f32)
  hstage9_5 : ∀ j, (stage9_5 j).IsWhole
  nbuf9_5 : grid9.bufCount reads9_5 true = 1
  hreads9_5 : ∀ i i' : grid9.Coords, (∀ a, reads9_5 a = true → i a = i' a) → cc9_transform_5 i = cc9_transform_5 i'
  hinb9_5 : ∀ (i : grid9.Coords) a, (cc9_transform_5 i a + 1) * S3x2.size a ≤ S3x2.size a
  hwx9_5 : ∀ i : grid9.Coords, EltTy.bits .f32 = 32 ∨ (Rect.block (s := S3x2) S3x2.size (cc9_transform_5 i) (hinb9_5 i)).WholeWords (EltTy.packing .f32)
  hstage9_6 : ∀ j, (stage9_6 j).IsWhole
  nbuf9_6 : grid9.bufCount reads9_6 false = 2
  hreads9_6 : ∀ i i' : grid9.Coords, (∀ a, reads9_6 a = true → i a = i' a) → cc9_transform_6 i = cc9_transform_6 i'
  hinb9_6 : ∀ (i : grid9.Coords) a, (cc9_transform_6 i a + 1) * S2000x3x64.size a ≤ S800000x3x64.size a
  hwx9_6 : ∀ i : grid9.Coords, EltTy.bits .f32 = 32 ∨ (Rect.block (s := S800000x3x64) S2000x3x64.size (cc9_transform_6 i) (hinb9_6 i)).WholeWords (EltTy.packing .f32)
  hrank10 : 0 < grid10.rank
  hstage10_0 : ∀ j, (stage10_0 j).IsWhole
  nbuf10_0 : grid10.bufCount reads10_0 false = 2
  hreads10_0 : ∀ i i' : grid10.Coords, (∀ a, reads10_0 a = true → i a = i' a) → cc10_transform_0 i = cc10_transform_0 i'
  hinb10_0 : ∀ (i : grid10.Coords) a, (cc10_transform_0 i a + 1) * S5000x64.size a ≤ S50000x64.size a
  hwx10_0 : ∀ i : grid10.Coords, EltTy.bits .f32 = 32 ∨ (Rect.block (s := S50000x64) S5000x64.size (cc10_transform_0 i) (hinb10_0 i)).WholeWords (EltTy.packing .f32)
  hstage10_1 : ∀ j, (stage10_1 j).IsWhole
  nbuf10_1 : grid10.bufCount reads10_1 true = 1
  hreads10_1 : ∀ i i' : grid10.Coords, (∀ a, reads10_1 a = true → i a = i' a) → cc10_transform_1 i = cc10_transform_1 i'
  hinb10_1 : ∀ (i : grid10.Coords) a, (cc10_transform_1 i a + 1) * S1x64.size a ≤ S1x64.size a
  hwx10_1 : ∀ i : grid10.Coords, EltTy.bits .f32 = 32 ∨ (Rect.block (s := S1x64) S1x64.size (cc10_transform_1 i) (hinb10_1 i)).WholeWords (EltTy.packing .f32)
  hstage10_2 : ∀ j, (stage10_2 j).IsWhole
  nbuf10_2 : grid10.bufCount reads10_2 true = 1
  hreads10_2 : ∀ i i' : grid10.Coords, (∀ a, reads10_2 a = true → i a = i' a) → cc10_transform_2 i = cc10_transform_2 i'
  hinb10_2 : ∀ (i : grid10.Coords) a, (cc10_transform_2 i a + 1) * S1x64.size a ≤ S1x64.size a
  hwx10_2 : ∀ i : grid10.Coords, EltTy.bits .f32 = 32 ∨ (Rect.block (s := S1x64) S1x64.size (cc10_transform_2 i) (hinb10_2 i)).WholeWords (EltTy.packing .f32)
  hrank11 : 0 < grid11.rank
  hstage11_0 : ∀ j, (stage11_0 j).IsWhole
  nbuf11_0 : grid11.bufCount reads11_0 false = 2
  hreads11_0 : ∀ i i' : grid11.Coords, (∀ a, reads11_0 a = true → i a = i' a) → cc11_transform_0 i = cc11_transform_0 i'
  hinb11_0 : ∀ (i : grid11.Coords) a, (cc11_transform_0 i a + 1) * S5000x64.size a ≤ S50000x64.size a
  hwx11_0 : ∀ i : grid11.Coords, EltTy.bits .f32 = 32 ∨ (Rect.block (s := S50000x64) S5000x64.size (cc11_transform_0 i) (hinb11_0 i)).WholeWords (EltTy.packing .f32)
  hstage11_1 : ∀ j, (stage11_1 j).IsWhole
  nbuf11_1 : grid11.bufCount reads11_1 false = 2
  hreads11_1 : ∀ i i' : grid11.Coords, (∀ a, reads11_1 a = true → i a = i' a) → cc11_transform_1 i = cc11_transform_1 i'
  hinb11_1 : ∀ (i : grid11.Coords) a, (cc11_transform_1 i a + 1) * S5000x64.size a ≤ S50000x64.size a
  hwx11_1 : ∀ i : grid11.Coords, EltTy.bits .f32 = 32 ∨ (Rect.block (s := S50000x64) S5000x64.size (cc11_transform_1 i) (hinb11_1 i)).WholeWords (EltTy.packing .f32)
  hstage11_2 : ∀ j, (stage11_2 j).IsWhole
  nbuf11_2 : grid11.bufCount reads11_2 true = 1
  hreads11_2 : ∀ i i' : grid11.Coords, (∀ a, reads11_2 a = true → i a = i' a) → cc11_transform_2 i = cc11_transform_2 i'
  hinb11_2 : ∀ (i : grid11.Coords) a, (cc11_transform_2 i a + 1) * S1x64.size a ≤ S1x64.size a
  hwx11_2 : ∀ i : grid11.Coords, EltTy.bits .f32 = 32 ∨ (Rect.block (s := S1x64) S1x64.size (cc11_transform_2 i) (hinb11_2 i)).WholeWords (EltTy.packing .f32)
  hstage11_3 : ∀ j, (stage11_3 j).IsWhole
  nbuf11_3 : grid11.bufCount reads11_3 true = 1
  hreads11_3 : ∀ i i' : grid11.Coords, (∀ a, reads11_3 a = true → i a = i' a) → cc11_transform_3 i = cc11_transform_3 i'
  hinb11_3 : ∀ (i : grid11.Coords) a, (cc11_transform_3 i a + 1) * S1x64.size a ≤ S1x64.size a
  hwx11_3 : ∀ i : grid11.Coords, EltTy.bits .f32 = 32 ∨ (Rect.block (s := S1x64) S1x64.size (cc11_transform_3 i) (hinb11_3 i)).WholeWords (EltTy.packing .f32)
  hstage11_4 : ∀ j, (stage11_4 j).IsWhole
  nbuf11_4 : grid11.bufCount reads11_4 true = 1
  hreads11_4 : ∀ i i' : grid11.Coords, (∀ a, reads11_4 a = true → i a = i' a) → cc11_transform_4 i = cc11_transform_4 i'
  hinb11_4 : ∀ (i : grid11.Coords) a, (cc11_transform_4 i a + 1) * S1x64.size a ≤ S1x64.size a
  hwx11_4 : ∀ i : grid11.Coords, EltTy.bits .f32 = 32 ∨ (Rect.block (s := S1x64) S1x64.size (cc11_transform_4 i) (hinb11_4 i)).WholeWords (EltTy.packing .f32)
  hstage11_5 : ∀ j, (stage11_5 j).IsWhole
  nbuf11_5 : grid11.bufCount reads11_5 true = 1
  hreads11_5 : ∀ i i' : grid11.Coords, (∀ a, reads11_5 a = true → i a = i' a) → cc11_transform_5 i = cc11_transform_5 i'
  hinb11_5 : ∀ (i : grid11.Coords) a, (cc11_transform_5 i a + 1) * S1x64.size a ≤ S1x64.size a
  hwx11_5 : ∀ i : grid11.Coords, EltTy.bits .f32 = 32 ∨ (Rect.block (s := S1x64) S1x64.size (cc11_transform_5 i) (hinb11_5 i)).WholeWords (EltTy.packing .f32)
  hstage11_6 : ∀ j, (stage11_6 j).IsWhole
  nbuf11_6 : grid11.bufCount reads11_6 false = 2
  hreads11_6 : ∀ i i' : grid11.Coords, (∀ a, reads11_6 a = true → i a = i' a) → cc11_transform_6 i = cc11_transform_6 i'
  hinb11_6 : ∀ (i : grid11.Coords) a, (cc11_transform_6 i a + 1) * S5000x64.size a ≤ S50000x64.size a
  hwx11_6 : ∀ i : grid11.Coords, EltTy.bits .f32 = 32 ∨ (Rect.block (s := S50000x64) S5000x64.size (cc11_transform_6 i) (hinb11_6 i)).WholeWords (EltTy.packing .f32)
  hrank12 : 0 < grid12.rank
  hstage12_0 : ∀ j, (stage12_0 j).IsWhole
  nbuf12_0 : grid12.bufCount reads12_0 false = 2
  hreads12_0 : ∀ i i' : grid12.Coords, (∀ a, reads12_0 a = true → i a = i' a) → cc12_transform_0 i = cc12_transform_0 i'
  hinb12_0 : ∀ (i : grid12.Coords) a, (cc12_transform_0 i a + 1) * S10000x64.size a ≤ S50000x64.size a
  hwx12_0 : ∀ i : grid12.Coords, EltTy.bits .f32 = 32 ∨ (Rect.block (s := S50000x64) S10000x64.size (cc12_transform_0 i) (hinb12_0 i)).WholeWords (EltTy.packing .f32)
  hstage12_1 : ∀ j, (stage12_1 j).IsWhole
  nbuf12_1 : grid12.bufCount reads12_1 true = 1
  hreads12_1 : ∀ i i' : grid12.Coords, (∀ a, reads12_1 a = true → i a = i' a) → cc12_transform_1 i = cc12_transform_1 i'
  hinb12_1 : ∀ (i : grid12.Coords) a, (cc12_transform_1 i a + 1) * S64x192.size a ≤ S64x192.size a
  hwx12_1 : ∀ i : grid12.Coords, EltTy.bits .f32 = 32 ∨ (Rect.block (s := S64x192) S64x192.size (cc12_transform_1 i) (hinb12_1 i)).WholeWords (EltTy.packing .f32)
  hstage12_2 : ∀ j, (stage12_2 j).IsWhole
  nbuf12_2 : grid12.bufCount reads12_2 false = 2
  hreads12_2 : ∀ i i' : grid12.Coords, (∀ a, reads12_2 a = true → i a = i' a) → cc12_transform_2 i = cc12_transform_2 i'
  hinb12_2 : ∀ (i : grid12.Coords) a, (cc12_transform_2 i a + 1) * S10000x192.size a ≤ S50000x192.size a
  hwx12_2 : ∀ i : grid12.Coords, EltTy.bits .bf16 = 32 ∨ (Rect.block (s := S50000x192) S10000x192.size (cc12_transform_2 i) (hinb12_2 i)).WholeWords (EltTy.packing .bf16)
  hrank13 : 0 < grid13.rank
  hstage13_0 : ∀ j, (stage13_0 j).IsWhole
  nbuf13_0 : grid13.bufCount reads13_0 false = 2
  hreads13_0 : ∀ i i' : grid13.Coords, (∀ a, reads13_0 a = true → i a = i' a) → cc13_transform_0 i = cc13_transform_0 i'
  hinb13_0 : ∀ (i : grid13.Coords) a, (cc13_transform_0 i a + 1) * S2000x2.size a ≤ S800000x2.size a
  hwx13_0 : ∀ i : grid13.Coords, EltTy.bits .f32 = 32 ∨ (Rect.block (s := S800000x2) S2000x2.size (cc13_transform_0 i) (hinb13_0 i)).WholeWords (EltTy.packing .f32)
  hstage13_1 : ∀ j, (stage13_1 j).IsWhole
  nbuf13_1 : grid13.bufCount reads13_1 false = 2
  hreads13_1 : ∀ i i' : grid13.Coords, (∀ a, reads13_1 a = true → i a = i' a) → cc13_transform_1 i = cc13_transform_1 i'
  hinb13_1 : ∀ (i : grid13.Coords) a, (cc13_transform_1 i a + 1) * S2000x3x64.size a ≤ S800000x3x64.size a
  hwx13_1 : ∀ i : grid13.Coords, EltTy.bits .bf16 = 32 ∨ (Rect.block (s := S800000x3x64) S2000x3x64.size (cc13_transform_1 i) (hinb13_1 i)).WholeWords (EltTy.packing .bf16)
  hstage13_2 : ∀ j, (stage13_2 j).IsWhole
  nbuf13_2 : grid13.bufCount reads13_2 true = 1
  hreads13_2 : ∀ i i' : grid13.Coords, (∀ a, reads13_2 a = true → i a = i' a) → cc13_transform_2 i = cc13_transform_2 i'
  hinb13_2 : ∀ (i : grid13.Coords) a, (cc13_transform_2 i a + 1) * S2x2.size a ≤ S2x2.size a
  hwx13_2 : ∀ i : grid13.Coords, EltTy.bits .f32 = 32 ∨ (Rect.block (s := S2x2) S2x2.size (cc13_transform_2 i) (hinb13_2 i)).WholeWords (EltTy.packing .f32)
  hstage13_3 : ∀ j, (stage13_3 j).IsWhole
  nbuf13_3 : grid13.bufCount reads13_3 true = 1
  hreads13_3 : ∀ i i' : grid13.Coords, (∀ a, reads13_3 a = true → i a = i' a) → cc13_transform_3 i = cc13_transform_3 i'
  hinb13_3 : ∀ (i : grid13.Coords) a, (cc13_transform_3 i a + 1) * S1x2.size a ≤ S1x2.size a
  hwx13_3 : ∀ i : grid13.Coords, EltTy.bits .f32 = 32 ∨ (Rect.block (s := S1x2) S1x2.size (cc13_transform_3 i) (hinb13_3 i)).WholeWords (EltTy.packing .f32)
  hstage13_4 : ∀ j, (stage13_4 j).IsWhole
  nbuf13_4 : grid13.bufCount reads13_4 true = 1
  hreads13_4 : ∀ i i' : grid13.Coords, (∀ a, reads13_4 a = true → i a = i' a) → cc13_transform_4 i = cc13_transform_4 i'
  hinb13_4 : ∀ (i : grid13.Coords) a, (cc13_transform_4 i a + 1) * S3x2.size a ≤ S3x2.size a
  hwx13_4 : ∀ i : grid13.Coords, EltTy.bits .f32 = 32 ∨ (Rect.block (s := S3x2) S3x2.size (cc13_transform_4 i) (hinb13_4 i)).WholeWords (EltTy.packing .f32)
  hstage13_5 : ∀ j, (stage13_5 j).IsWhole
  nbuf13_5 : grid13.bufCount reads13_5 true = 1
  hreads13_5 : ∀ i i' : grid13.Coords, (∀ a, reads13_5 a = true → i a = i' a) → cc13_transform_5 i = cc13_transform_5 i'
  hinb13_5 : ∀ (i : grid13.Coords) a, (cc13_transform_5 i a + 1) * S3x2.size a ≤ S3x2.size a
  hwx13_5 : ∀ i : grid13.Coords, EltTy.bits .f32 = 32 ∨ (Rect.block (s := S3x2) S3x2.size (cc13_transform_5 i) (hinb13_5 i)).WholeWords (EltTy.packing .f32)
  hstage13_6 : ∀ j, (stage13_6 j).IsWhole
  nbuf13_6 : grid13.bufCount reads13_6 false = 2
  hreads13_6 : ∀ i i' : grid13.Coords, (∀ a, reads13_6 a = true → i a = i' a) → cc13_transform_6 i = cc13_transform_6 i'
  hinb13_6 : ∀ (i : grid13.Coords) a, (cc13_transform_6 i a + 1) * S2000x3x64.size a ≤ S800000x3x64.size a
  hwx13_6 : ∀ i : grid13.Coords, EltTy.bits .f32 = 32 ∨ (Rect.block (s := S800000x3x64) S2000x3x64.size (cc13_transform_6 i) (hinb13_6 i)).WholeWords (EltTy.packing .f32)
  hrank14 : 0 < grid14.rank
  hstage14_0 : ∀ j, (stage14_0 j).IsWhole
  nbuf14_0 : grid14.bufCount reads14_0 false = 2
  hreads14_0 : ∀ i i' : grid14.Coords, (∀ a, reads14_0 a = true → i a = i' a) → cc14_transform_0 i = cc14_transform_0 i'
  hinb14_0 : ∀ (i : grid14.Coords) a, (cc14_transform_0 i a + 1) * S5000x64.size a ≤ S50000x64.size a
  hwx14_0 : ∀ i : grid14.Coords, EltTy.bits .f32 = 32 ∨ (Rect.block (s := S50000x64) S5000x64.size (cc14_transform_0 i) (hinb14_0 i)).WholeWords (EltTy.packing .f32)
  hstage14_1 : ∀ j, (stage14_1 j).IsWhole
  nbuf14_1 : grid14.bufCount reads14_1 true = 1
  hreads14_1 : ∀ i i' : grid14.Coords, (∀ a, reads14_1 a = true → i a = i' a) → cc14_transform_1 i = cc14_transform_1 i'
  hinb14_1 : ∀ (i : grid14.Coords) a, (cc14_transform_1 i a + 1) * S1x64.size a ≤ S1x64.size a
  hwx14_1 : ∀ i : grid14.Coords, EltTy.bits .f32 = 32 ∨ (Rect.block (s := S1x64) S1x64.size (cc14_transform_1 i) (hinb14_1 i)).WholeWords (EltTy.packing .f32)
  hstage14_2 : ∀ j, (stage14_2 j).IsWhole
  nbuf14_2 : grid14.bufCount reads14_2 true = 1
  hreads14_2 : ∀ i i' : grid14.Coords, (∀ a, reads14_2 a = true → i a = i' a) → cc14_transform_2 i = cc14_transform_2 i'
  hinb14_2 : ∀ (i : grid14.Coords) a, (cc14_transform_2 i a + 1) * S1x64.size a ≤ S1x64.size a
  hwx14_2 : ∀ i : grid14.Coords, EltTy.bits .f32 = 32 ∨ (Rect.block (s := S1x64) S1x64.size (cc14_transform_2 i) (hinb14_2 i)).WholeWords (EltTy.packing .f32)
  hrank15 : 0 < grid15.rank
  hstage15_0 : ∀ j, (stage15_0 j).IsWhole
  nbuf15_0 : grid15.bufCount reads15_0 false = 2
  hreads15_0 : ∀ i i' : grid15.Coords, (∀ a, reads15_0 a = true → i a = i' a) → cc15_transform_0 i = cc15_transform_0 i'
  hinb15_0 : ∀ (i : grid15.Coords) a, (cc15_transform_0 i a + 1) * S5000x64.size a ≤ S50000x64.size a
  hwx15_0 : ∀ i : grid15.Coords, EltTy.bits .f32 = 32 ∨ (Rect.block (s := S50000x64) S5000x64.size (cc15_transform_0 i) (hinb15_0 i)).WholeWords (EltTy.packing .f32)
  hstage15_1 : ∀ j, (stage15_1 j).IsWhole
  nbuf15_1 : grid15.bufCount reads15_1 false = 2
  hreads15_1 : ∀ i i' : grid15.Coords, (∀ a, reads15_1 a = true → i a = i' a) → cc15_transform_1 i = cc15_transform_1 i'
  hinb15_1 : ∀ (i : grid15.Coords) a, (cc15_transform_1 i a + 1) * S5000x64.size a ≤ S50000x64.size a
  hwx15_1 : ∀ i : grid15.Coords, EltTy.bits .f32 = 32 ∨ (Rect.block (s := S50000x64) S5000x64.size (cc15_transform_1 i) (hinb15_1 i)).WholeWords (EltTy.packing .f32)
  hstage15_2 : ∀ j, (stage15_2 j).IsWhole
  nbuf15_2 : grid15.bufCount reads15_2 true = 1
  hreads15_2 : ∀ i i' : grid15.Coords, (∀ a, reads15_2 a = true → i a = i' a) → cc15_transform_2 i = cc15_transform_2 i'
  hinb15_2 : ∀ (i : grid15.Coords) a, (cc15_transform_2 i a + 1) * S1x64.size a ≤ S1x64.size a
  hwx15_2 : ∀ i : grid15.Coords, EltTy.bits .f32 = 32 ∨ (Rect.block (s := S1x64) S1x64.size (cc15_transform_2 i) (hinb15_2 i)).WholeWords (EltTy.packing .f32)
  hstage15_3 : ∀ j, (stage15_3 j).IsWhole
  nbuf15_3 : grid15.bufCount reads15_3 true = 1
  hreads15_3 : ∀ i i' : grid15.Coords, (∀ a, reads15_3 a = true → i a = i' a) → cc15_transform_3 i = cc15_transform_3 i'
  hinb15_3 : ∀ (i : grid15.Coords) a, (cc15_transform_3 i a + 1) * S1x64.size a ≤ S1x64.size a
  hwx15_3 : ∀ i : grid15.Coords, EltTy.bits .f32 = 32 ∨ (Rect.block (s := S1x64) S1x64.size (cc15_transform_3 i) (hinb15_3 i)).WholeWords (EltTy.packing .f32)
  hstage15_4 : ∀ j, (stage15_4 j).IsWhole
  nbuf15_4 : grid15.bufCount reads15_4 true = 1
  hreads15_4 : ∀ i i' : grid15.Coords, (∀ a, reads15_4 a = true → i a = i' a) → cc15_transform_4 i = cc15_transform_4 i'
  hinb15_4 : ∀ (i : grid15.Coords) a, (cc15_transform_4 i a + 1) * S1x64.size a ≤ S1x64.size a
  hwx15_4 : ∀ i : grid15.Coords, EltTy.bits .f32 = 32 ∨ (Rect.block (s := S1x64) S1x64.size (cc15_transform_4 i) (hinb15_4 i)).WholeWords (EltTy.packing .f32)
  hstage15_5 : ∀ j, (stage15_5 j).IsWhole
  nbuf15_5 : grid15.bufCount reads15_5 true = 1
  hreads15_5 : ∀ i i' : grid15.Coords, (∀ a, reads15_5 a = true → i a = i' a) → cc15_transform_5 i = cc15_transform_5 i'
  hinb15_5 : ∀ (i : grid15.Coords) a, (cc15_transform_5 i a + 1) * S1x64.size a ≤ S1x64.size a
  hwx15_5 : ∀ i : grid15.Coords, EltTy.bits .f32 = 32 ∨ (Rect.block (s := S1x64) S1x64.size (cc15_transform_5 i) (hinb15_5 i)).WholeWords (EltTy.packing .f32)
  hstage15_6 : ∀ j, (stage15_6 j).IsWhole
  nbuf15_6 : grid15.bufCount reads15_6 false = 2
  hreads15_6 : ∀ i i' : grid15.Coords, (∀ a, reads15_6 a = true → i a = i' a) → cc15_transform_6 i = cc15_transform_6 i'
  hinb15_6 : ∀ (i : grid15.Coords) a, (cc15_transform_6 i a + 1) * S5000x64.size a ≤ S50000x64.size a
  hwx15_6 : ∀ i : grid15.Coords, EltTy.bits .f32 = 32 ∨ (Rect.block (s := S50000x64) S5000x64.size (cc15_transform_6 i) (hinb15_6 i)).WholeWords (EltTy.packing .f32)
  hrank16 : 0 < grid16.rank
  hstage16_0 : ∀ j, (stage16_0 j).IsWhole
  nbuf16_0 : grid16.bufCount reads16_0 true = 1
  hreads16_0 : ∀ i i' : grid16.Coords, (∀ a, reads16_0 a = true → i a = i' a) → cc16_transform_0 i = cc16_transform_0 i'
  hinb16_0 : ∀ (i : grid16.Coords) a, (cc16_transform_0 i a + 1) * S256x64.size a ≤ S256x64.size a
  hwx16_0 : ∀ i : grid16.Coords, EltTy.bits .f32 = 32 ∨ (Rect.block (s := S256x64) S256x64.size (cc16_transform_0 i) (hinb16_0 i)).WholeWords (EltTy.packing .f32)
  hstage16_1 : ∀ j, (stage16_1 j).IsWhole
  nbuf16_1 : grid16.bufCount reads16_1 true = 1
  hreads16_1 : ∀ i i' : grid16.Coords, (∀ a, reads16_1 a = true → i a = i' a) → cc16_transform_1 i = cc16_transform_1 i'
  hinb16_1 : ∀ (i : grid16.Coords) a, (cc16_transform_1 i a + 1) * S64x32.size a ≤ S64x32.size a
  hwx16_1 : ∀ i : grid16.Coords, EltTy.bits .f32 = 32 ∨ (Rect.block (s := S64x32) S64x32.size (cc16_transform_1 i) (hinb16_1 i)).WholeWords (EltTy.packing .f32)
  hstage16_2 : ∀ j, (stage16_2 j).IsWhole
  nbuf16_2 : grid16.bufCount reads16_2 true = 1
  hreads16_2 : ∀ i i' : grid16.Coords, (∀ a, reads16_2 a = true → i a = i' a) → cc16_transform_2 i = cc16_transform_2 i'
  hinb16_2 : ∀ (i : grid16.Coords) a, (cc16_transform_2 i a + 1) * S1x32.size a ≤ S1x32.size a
  hwx16_2 : ∀ i : grid16.Coords, EltTy.bits .f32 = 32 ∨ (Rect.block (s := S1x32) S1x32.size (cc16_transform_2 i) (hinb16_2 i)).WholeWords (EltTy.packing .f32)
  hstage16_3 : ∀ j, (stage16_3 j).IsWhole
  nbuf16_3 : grid16.bufCount reads16_3 true = 1
  hreads16_3 : ∀ i i' : grid16.Coords, (∀ a, reads16_3 a = true → i a = i' a) → cc16_transform_3 i = cc16_transform_3 i'
  hinb16_3 : ∀ (i : grid16.Coords) a, (cc16_transform_3 i a + 1) * S32x16.size a ≤ S32x16.size a
  hwx16_3 : ∀ i : grid16.Coords, EltTy.bits .f32 = 32 ∨ (Rect.block (s := S32x16) S32x16.size (cc16_transform_3 i) (hinb16_3 i)).WholeWords (EltTy.packing .f32)
  hstage16_4 : ∀ j, (stage16_4 j).IsWhole
  nbuf16_4 : grid16.bufCount reads16_4 true = 1
  hreads16_4 : ∀ i i' : grid16.Coords, (∀ a, reads16_4 a = true → i a = i' a) → cc16_transform_4 i = cc16_transform_4 i'
  hinb16_4 : ∀ (i : grid16.Coords) a, (cc16_transform_4 i a + 1) * S1x16.size a ≤ S1x16.size a
  hwx16_4 : ∀ i : grid16.Coords, EltTy.bits .f32 = 32 ∨ (Rect.block (s := S1x16) S1x16.size (cc16_transform_4 i) (hinb16_4 i)).WholeWords (EltTy.packing .f32)
  hstage16_5 : ∀ j, (stage16_5 j).IsWhole
  nbuf16_5 : grid16.bufCount reads16_5 true = 1
  hreads16_5 : ∀ i i' : grid16.Coords, (∀ a, reads16_5 a = true → i a = i' a) → cc16_transform_5 i = cc16_transform_5 i'
  hinb16_5 : ∀ (i : grid16.Coords) a, (cc16_transform_5 i a + 1) * S16x1.size a ≤ S16x1.size a
  hwx16_5 : ∀ i : grid16.Coords, EltTy.bits .f32 = 32 ∨ (Rect.block (s := S16x1) S16x1.size (cc16_transform_5 i) (hinb16_5 i)).WholeWords (EltTy.packing .f32)
  hstage16_6 : ∀ j, (stage16_6 j).IsWhole
  nbuf16_6 : grid16.bufCount reads16_6 true = 1
  hreads16_6 : ∀ i i' : grid16.Coords, (∀ a, reads16_6 a = true → i a = i' a) → cc16_transform_6 i = cc16_transform_6 i'
  hinb16_6 : ∀ (i : grid16.Coords) a, (cc16_transform_6 i a + 1) * S1x1.size a ≤ S1x1.size a
  hwx16_6 : ∀ i : grid16.Coords, EltTy.bits .f32 = 32 ∨ (Rect.block (s := S1x1) S1x1.size (cc16_transform_6 i) (hinb16_6 i)).WholeWords (EltTy.packing .f32)
  hstage16_7 : ∀ j, (stage16_7 j).IsWhole
  nbuf16_7 : grid16.bufCount reads16_7 true = 1
  hreads16_7 : ∀ i i' : grid16.Coords, (∀ a, reads16_7 a = true → i a = i' a) → cc16_transform_7 i = cc16_transform_7 i'
  hinb16_7 : ∀ (i : grid16.Coords) a, (cc16_transform_7 i a + 1) * S256x1.size a ≤ S256x1.size a
  hwx16_7 : ∀ i : grid16.Coords, EltTy.bits .f32 = 32 ∨ (Rect.block (s := S256x1) S256x1.size (cc16_transform_7 i) (hinb16_7 i)).WholeWords (EltTy.packing .f32)

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000_S800000x1_S800000_n_0_n_n_0_1_1 : GatherDims S50000 S800000x1 S800000 where
  offsetDims := []
  collapsedSliceDims := [0]
  operandBatchingDims := []
  startIndicesBatchingDims := []
  startIndexMap := [0]
  indexVectorDim := 1
  sliceSizes := ![1]
  wf := gather_S50000_S800000x1_S800000_n_0_n_n_0_1_1_wf
def gather_S28x64_S50000x1_S50000x64_1_0_n_n_0_1_164 : GatherDims S28x64 S50000x1 S50000x64 where
  offsetDims := [1]
  collapsedSliceDims := [0]
  operandBatchingDims := []
  startIndicesBatchingDims := []
  startIndexMap := [0]
  indexVectorDim := 1
  sliceSizes := ![1, 64]
  wf := gather_S28x64_S50000x1_S50000x64_1_0_n_n_0_1_164_wf
def dot_S10000x64_S64x192_S10000x192_1_0_0_1_n_n : DotDims S10000x64 S64x192 S10000x192 where
  lhsContracting := [1]
  rhsContracting := [0]
  lhsNonContracting := [0]
  rhsNonContracting := [1]
  lhsBatch := []
  rhsBatch := []
  wf := dot_S10000x64_S64x192_S10000x192_1_0_0_1_n_n_wf
def gather_S50000x3x64_S800000x1_S800000x3x64_12_0_n_n_0_1_1364 : GatherDims S50000x3x64 S800000x1 S800000x3x64 where
  offsetDims := [1, 2]
  collapsedSliceDims := [0]
  operandBatchingDims := []
  startIndicesBatchingDims := []
  startIndexMap := [0]
  indexVectorDim := 1
  sliceSizes := ![1, 3, 64]
  wf := gather_S50000x3x64_S800000x1_S800000x3x64_12_0_n_n_0_1_1364_wf
def dot_S2000x2_S2x2_S2000x2_1_0_0_1_n_n : DotDims S2000x2 S2x2 S2000x2 where
  lhsContracting := [1]
  rhsContracting := [0]
  lhsNonContracting := [0]
  rhsNonContracting := [1]
  lhsBatch := []
  rhsBatch := []
  wf := dot_S2000x2_S2x2_S2000x2_1_0_0_1_n_n_wf
def scatter_S50000x3x64_S800000x1_S800000x3x64_12_0_0_1 : ScatterDims S50000x3x64 S800000x1 S800000x3x64 where
  updateWindowDims := [1, 2]
  insertedWindowDims := [0]
  scatterDimsToOperandDims := [0]
  indexVectorDim := 1
  wf := scatter_S50000x3x64_S800000x1_S800000x3x64_12_0_0_1_wf
def scatter_S256_S50000x1_S50000_n_0_0_1 : ScatterDims S256 S50000x1 S50000 where
  updateWindowDims := []
  insertedWindowDims := [0]
  scatterDimsToOperandDims := [0]
  indexVectorDim := 1
  wf := scatter_S256_S50000x1_S50000_n_0_0_1_wf
def scatter_S256x64_S50000x1_S50000x64_1_0_0_1 : ScatterDims S256x64 S50000x1 S50000x64 where
  updateWindowDims := [1]
  insertedWindowDims := [0]
  scatterDimsToOperandDims := [0]
  indexVectorDim := 1
  wf := scatter_S256x64_S50000x1_S50000x64_1_0_0_1_wf
def dot_S256x64_S64x32_S256x32_1_0_0_1_n_n : DotDims S256x64 S64x32 S256x32 where
  lhsContracting := [1]
  rhsContracting := [0]
  lhsNonContracting := [0]
  rhsNonContracting := [1]
  lhsBatch := []
  rhsBatch := []
  wf := dot_S256x64_S64x32_S256x32_1_0_0_1_n_n_wf
def dot_S256x32_S32x16_S256x16_1_0_0_1_n_n : DotDims S256x32 S32x16 S256x16 where
  lhsContracting := [1]
  rhsContracting := [0]
  lhsNonContracting := [0]
  rhsNonContracting := [1]
  lhsBatch := []
  rhsBatch := []
  wf := dot_S256x32_S32x16_S256x16_1_0_0_1_n_n_wf
def dot_S256x16_S16x1_S256x1_1_0_0_1_n_n : DotDims S256x16 S16x1 S256x1 where
  lhsContracting := [1]
  rhsContracting := [0]
  lhsNonContracting := [0]
  rhsNonContracting := [1]
  lhsBatch := []
  rhsBatch := []
  wf := dot_S256x16_S16x1_S256x1_1_0_0_1_n_n_wf

abbrev win0_0 : Pipeline.Window sig grid0 :=
  Pipeline.Window.ofSpec (Memref.whole main_v37) S10000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v43) S64x192.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v44) S10000x192.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v30) S2000x2.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v52) S2000x3x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v54) S2x2.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v56) S1x2.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v58) S3x2.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v60) S3x2.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v61) S2000x3x64.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev win2_0 : Pipeline.Window sig grid2 :=
  Pipeline.Window.ofSpec (Memref.whole main_v65) S5000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v70_0) S1x64.size cc2_transform_1 reads2_1 true true 1 stage2_1 sem2_1
    hrank2 hreads2_1 hinb2_1 nbuf2_1 (Memref.isWhole_whole _) hwx2_1 hstage2_1

abbrev win2_2 : Pipeline.Window sig grid2 :=
  Pipeline.Window.ofSpec (Memref.whole main_v70_1) S1x64.size cc2_transform_2 reads2_2 true true 1 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v65) S5000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v37) S5000x64.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v70_0) S1x64.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v70_1) S1x64.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v67) S1x64.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v69) S1x64.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_v71) S5000x64.size cc3_transform_6 reads3_6 true false 2 stage3_6 sem3_6
    hrank3 hreads3_6 hinb3_6 nbuf3_6 (Memref.isWhole_whole _) hwx3_6 hstage3_6

abbrev win3 : Fin 7 → Pipeline.Window sig grid3 := fun | 0 => win3_0 | 1 => win3_1 | 2 => win3_2 | 3 => win3_3 | 4 => win3_4 | 5 => win3_5 | 6 => win3_6 | ⟨_ + 7, h⟩ => absurd h (Nat.not_lt.2 (Nat.le_add_left _ _))
abbrev spec3 : Fin 7 → Pipeline.WinSpec sig grid3.rank := fun w => (win3 w).toWinSpec

abbrev win4_0 : Pipeline.Window sig grid4 :=
  Pipeline.Window.ofSpec (Memref.whole main_v71) S10000x64.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v73) S64x192.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v74) S10000x192.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev win5_0 : Pipeline.Window sig grid5 :=
  Pipeline.Window.ofSpec (Memref.whole main_v30) S2000x2.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v82) S2000x3x64.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_v84) S2x2.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v86) S1x2.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v88) S3x2.size cc5_transform_4 reads5_4 false true 1 stage5_4 sem5_4
    hrank5 hreads5_4 hinb5_4 nbuf5_4 (Memref.isWhole_whole _) hwx5_4 hstage5_4

abbrev win5_5 : Pipeline.Window sig grid5 :=
  Pipeline.Window.ofSpec (Memref.whole main_v90) S3x2.size cc5_transform_5 reads5_5 false true 1 stage5_5 sem5_5
    hrank5 hreads5_5 hinb5_5 nbuf5_5 (Memref.isWhole_whole _) hwx5_5 hstage5_5

abbrev win5_6 : Pipeline.Window sig grid5 :=
  Pipeline.Window.ofSpec (Memref.whole main_v91) S2000x3x64.size cc5_transform_6 reads5_6 true false 2 stage5_6 sem5_6
    hrank5 hreads5_6 hinb5_6 nbuf5_6 (Memref.isWhole_whole _) hwx5_6 hstage5_6

abbrev win5 : Fin 7 → Pipeline.Window sig grid5 := fun | 0 => win5_0 | 1 => win5_1 | 2 => win5_2 | 3 => win5_3 | 4 => win5_4 | 5 => win5_5 | 6 => win5_6 | ⟨_ + 7, h⟩ => absurd h (Nat.not_lt.2 (Nat.le_add_left _ _))
abbrev spec5 : Fin 7 → Pipeline.WinSpec sig grid5.rank := fun w => (win5 w).toWinSpec

abbrev win6_0 : Pipeline.Window sig grid6 :=
  Pipeline.Window.ofSpec (Memref.whole main_v95) S5000x64.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v100_0) S1x64.size cc6_transform_1 reads6_1 true true 1 stage6_1 sem6_1
    hrank6 hreads6_1 hinb6_1 nbuf6_1 (Memref.isWhole_whole _) hwx6_1 hstage6_1

abbrev win6_2 : Pipeline.Window sig grid6 :=
  Pipeline.Window.ofSpec (Memref.whole main_v100_1) S1x64.size cc6_transform_2 reads6_2 true true 1 stage6_2 sem6_2
    hrank6 hreads6_2 hinb6_2 nbuf6_2 (Memref.isWhole_whole _) hwx6_2 hstage6_2

abbrev win6 : Fin 3 → Pipeline.Window sig grid6 := fun | 0 => win6_0 | 1 => win6_1 | 2 => win6_2 | ⟨_ + 3, h⟩ => absurd h (Nat.not_lt.2 (Nat.le_add_left _ _))
abbrev spec6 : Fin 3 → Pipeline.WinSpec sig grid6.rank := fun w => (win6 w).toWinSpec

abbrev win7_0 : Pipeline.Window sig grid7 :=
  Pipeline.Window.ofSpec (Memref.whole main_v95) S5000x64.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_v71) S5000x64.size cc7_transform_1 reads7_1 false false 2 stage7_1 sem7_1
    hrank7 hreads7_1 hinb7_1 nbuf7_1 (Memref.isWhole_whole _) hwx7_1 hstage7_1

abbrev win7_2 : Pipeline.Window sig grid7 :=
  Pipeline.Window.ofSpec (Memref.whole main_v100_0) S1x64.size cc7_transform_2 reads7_2 false true 1 stage7_2 sem7_2
    hrank7 hreads7_2 hinb7_2 nbuf7_2 (Memref.isWhole_whole _) hwx7_2 hstage7_2

abbrev win7_3 : Pipeline.Window sig grid7 :=
  Pipeline.Window.ofSpec (Memref.whole main_v100_1) S1x64.size cc7_transform_3 reads7_3 false true 1 stage7_3 sem7_3
    hrank7 hreads7_3 hinb7_3 nbuf7_3 (Memref.isWhole_whole _) hwx7_3 hstage7_3

abbrev win7_4 : Pipeline.Window sig grid7 :=
  Pipeline.Window.ofSpec (Memref.whole main_v97) S1x64.size cc7_transform_4 reads7_4 false true 1 stage7_4 sem7_4
    hrank7 hreads7_4 hinb7_4 nbuf7_4 (Memref.isWhole_whole _) hwx7_4 hstage7_4

abbrev win7_5 : Pipeline.Window sig grid7 :=
  Pipeline.Window.ofSpec (Memref.whole main_v99) S1x64.size cc7_transform_5 reads7_5 false true 1 stage7_5 sem7_5
    hrank7 hreads7_5 hinb7_5 nbuf7_5 (Memref.isWhole_whole _) hwx7_5 hstage7_5

abbrev win7_6 : Pipeline.Window sig grid7 :=
  Pipeline.Window.ofSpec (Memref.whole main_v101) S5000x64.size cc7_transform_6 reads7_6 true false 2 stage7_6 sem7_6
    hrank7 hreads7_6 hinb7_6 nbuf7_6 (Memref.isWhole_whole _) hwx7_6 hstage7_6

abbrev win7 : Fin 7 → Pipeline.Window sig grid7 := fun | 0 => win7_0 | 1 => win7_1 | 2 => win7_2 | 3 => win7_3 | 4 => win7_4 | 5 => win7_5 | 6 => win7_6 | ⟨_ + 7, h⟩ => absurd h (Nat.not_lt.2 (Nat.le_add_left _ _))
abbrev spec7 : Fin 7 → Pipeline.WinSpec sig grid7.rank := fun w => (win7 w).toWinSpec

abbrev win8_0 : Pipeline.Window sig grid8 :=
  Pipeline.Window.ofSpec (Memref.whole main_v101) S10000x64.size cc8_transform_0 reads8_0 false false 2 stage8_0 sem8_0
    hrank8 hreads8_0 hinb8_0 nbuf8_0 (Memref.isWhole_whole _) hwx8_0 hstage8_0

abbrev win8_1 : Pipeline.Window sig grid8 :=
  Pipeline.Window.ofSpec (Memref.whole main_v103) S64x192.size cc8_transform_1 reads8_1 false true 1 stage8_1 sem8_1
    hrank8 hreads8_1 hinb8_1 nbuf8_1 (Memref.isWhole_whole _) hwx8_1 hstage8_1

abbrev win8_2 : Pipeline.Window sig grid8 :=
  Pipeline.Window.ofSpec (Memref.whole main_v104) S10000x192.size cc8_transform_2 reads8_2 true false 2 stage8_2 sem8_2
    hrank8 hreads8_2 hinb8_2 nbuf8_2 (Memref.isWhole_whole _) hwx8_2 hstage8_2

abbrev win8 : Fin 3 → Pipeline.Window sig grid8 := fun | 0 => win8_0 | 1 => win8_1 | 2 => win8_2 | ⟨_ + 3, h⟩ => absurd h (Nat.not_lt.2 (Nat.le_add_left _ _))
abbrev spec8 : Fin 3 → Pipeline.WinSpec sig grid8.rank := fun w => (win8 w).toWinSpec

abbrev win9_0 : Pipeline.Window sig grid9 :=
  Pipeline.Window.ofSpec (Memref.whole main_v30) S2000x2.size cc9_transform_0 reads9_0 false false 2 stage9_0 sem9_0
    hrank9 hreads9_0 hinb9_0 nbuf9_0 (Memref.isWhole_whole _) hwx9_0 hstage9_0

abbrev win9_1 : Pipeline.Window sig grid9 :=
  Pipeline.Window.ofSpec (Memref.whole main_v112) S2000x3x64.size cc9_transform_1 reads9_1 false false 2 stage9_1 sem9_1
    hrank9 hreads9_1 hinb9_1 nbuf9_1 (Memref.isWhole_whole _) hwx9_1 hstage9_1

abbrev win9_2 : Pipeline.Window sig grid9 :=
  Pipeline.Window.ofSpec (Memref.whole main_v114) S2x2.size cc9_transform_2 reads9_2 false true 1 stage9_2 sem9_2
    hrank9 hreads9_2 hinb9_2 nbuf9_2 (Memref.isWhole_whole _) hwx9_2 hstage9_2

abbrev win9_3 : Pipeline.Window sig grid9 :=
  Pipeline.Window.ofSpec (Memref.whole main_v116) S1x2.size cc9_transform_3 reads9_3 false true 1 stage9_3 sem9_3
    hrank9 hreads9_3 hinb9_3 nbuf9_3 (Memref.isWhole_whole _) hwx9_3 hstage9_3

abbrev win9_4 : Pipeline.Window sig grid9 :=
  Pipeline.Window.ofSpec (Memref.whole main_v118) S3x2.size cc9_transform_4 reads9_4 false true 1 stage9_4 sem9_4
    hrank9 hreads9_4 hinb9_4 nbuf9_4 (Memref.isWhole_whole _) hwx9_4 hstage9_4

abbrev win9_5 : Pipeline.Window sig grid9 :=
  Pipeline.Window.ofSpec (Memref.whole main_v120) S3x2.size cc9_transform_5 reads9_5 false true 1 stage9_5 sem9_5
    hrank9 hreads9_5 hinb9_5 nbuf9_5 (Memref.isWhole_whole _) hwx9_5 hstage9_5

abbrev win9_6 : Pipeline.Window sig grid9 :=
  Pipeline.Window.ofSpec (Memref.whole main_v121) S2000x3x64.size cc9_transform_6 reads9_6 true false 2 stage9_6 sem9_6
    hrank9 hreads9_6 hinb9_6 nbuf9_6 (Memref.isWhole_whole _) hwx9_6 hstage9_6

abbrev win9 : Fin 7 → Pipeline.Window sig grid9 := fun | 0 => win9_0 | 1 => win9_1 | 2 => win9_2 | 3 => win9_3 | 4 => win9_4 | 5 => win9_5 | 6 => win9_6 | ⟨_ + 7, h⟩ => absurd h (Nat.not_lt.2 (Nat.le_add_left _ _))
abbrev spec9 : Fin 7 → Pipeline.WinSpec sig grid9.rank := fun w => (win9 w).toWinSpec

abbrev win10_0 : Pipeline.Window sig grid10 :=
  Pipeline.Window.ofSpec (Memref.whole main_v125) S5000x64.size cc10_transform_0 reads10_0 false false 2 stage10_0 sem10_0
    hrank10 hreads10_0 hinb10_0 nbuf10_0 (Memref.isWhole_whole _) hwx10_0 hstage10_0

abbrev win10_1 : Pipeline.Window sig grid10 :=
  Pipeline.Window.ofSpec (Memref.whole main_v130_0) S1x64.size cc10_transform_1 reads10_1 true true 1 stage10_1 sem10_1
    hrank10 hreads10_1 hinb10_1 nbuf10_1 (Memref.isWhole_whole _) hwx10_1 hstage10_1

abbrev win10_2 : Pipeline.Window sig grid10 :=
  Pipeline.Window.ofSpec (Memref.whole main_v130_1) S1x64.size cc10_transform_2 reads10_2 true true 1 stage10_2 sem10_2
    hrank10 hreads10_2 hinb10_2 nbuf10_2 (Memref.isWhole_whole _) hwx10_2 hstage10_2

abbrev win10 : Fin 3 → Pipeline.Window sig grid10 := fun | 0 => win10_0 | 1 => win10_1 | 2 => win10_2 | ⟨_ + 3, h⟩ => absurd h (Nat.not_lt.2 (Nat.le_add_left _ _))
abbrev spec10 : Fin 3 → Pipeline.WinSpec sig grid10.rank := fun w => (win10 w).toWinSpec

abbrev win11_0 : Pipeline.Window sig grid11 :=
  Pipeline.Window.ofSpec (Memref.whole main_v125) S5000x64.size cc11_transform_0 reads11_0 false false 2 stage11_0 sem11_0
    hrank11 hreads11_0 hinb11_0 nbuf11_0 (Memref.isWhole_whole _) hwx11_0 hstage11_0

abbrev win11_1 : Pipeline.Window sig grid11 :=
  Pipeline.Window.ofSpec (Memref.whole main_v101) S5000x64.size cc11_transform_1 reads11_1 false false 2 stage11_1 sem11_1
    hrank11 hreads11_1 hinb11_1 nbuf11_1 (Memref.isWhole_whole _) hwx11_1 hstage11_1

abbrev win11_2 : Pipeline.Window sig grid11 :=
  Pipeline.Window.ofSpec (Memref.whole main_v130_0) S1x64.size cc11_transform_2 reads11_2 false true 1 stage11_2 sem11_2
    hrank11 hreads11_2 hinb11_2 nbuf11_2 (Memref.isWhole_whole _) hwx11_2 hstage11_2

abbrev win11_3 : Pipeline.Window sig grid11 :=
  Pipeline.Window.ofSpec (Memref.whole main_v130_1) S1x64.size cc11_transform_3 reads11_3 false true 1 stage11_3 sem11_3
    hrank11 hreads11_3 hinb11_3 nbuf11_3 (Memref.isWhole_whole _) hwx11_3 hstage11_3

abbrev win11_4 : Pipeline.Window sig grid11 :=
  Pipeline.Window.ofSpec (Memref.whole main_v127) S1x64.size cc11_transform_4 reads11_4 false true 1 stage11_4 sem11_4
    hrank11 hreads11_4 hinb11_4 nbuf11_4 (Memref.isWhole_whole _) hwx11_4 hstage11_4

abbrev win11_5 : Pipeline.Window sig grid11 :=
  Pipeline.Window.ofSpec (Memref.whole main_v129) S1x64.size cc11_transform_5 reads11_5 false true 1 stage11_5 sem11_5
    hrank11 hreads11_5 hinb11_5 nbuf11_5 (Memref.isWhole_whole _) hwx11_5 hstage11_5

abbrev win11_6 : Pipeline.Window sig grid11 :=
  Pipeline.Window.ofSpec (Memref.whole main_v131) S5000x64.size cc11_transform_6 reads11_6 true false 2 stage11_6 sem11_6
    hrank11 hreads11_6 hinb11_6 nbuf11_6 (Memref.isWhole_whole _) hwx11_6 hstage11_6

abbrev win11 : Fin 7 → Pipeline.Window sig grid11 := fun | 0 => win11_0 | 1 => win11_1 | 2 => win11_2 | 3 => win11_3 | 4 => win11_4 | 5 => win11_5 | 6 => win11_6 | ⟨_ + 7, h⟩ => absurd h (Nat.not_lt.2 (Nat.le_add_left _ _))
abbrev spec11 : Fin 7 → Pipeline.WinSpec sig grid11.rank := fun w => (win11 w).toWinSpec

abbrev win12_0 : Pipeline.Window sig grid12 :=
  Pipeline.Window.ofSpec (Memref.whole main_v131) S10000x64.size cc12_transform_0 reads12_0 false false 2 stage12_0 sem12_0
    hrank12 hreads12_0 hinb12_0 nbuf12_0 (Memref.isWhole_whole _) hwx12_0 hstage12_0

abbrev win12_1 : Pipeline.Window sig grid12 :=
  Pipeline.Window.ofSpec (Memref.whole main_v133) S64x192.size cc12_transform_1 reads12_1 false true 1 stage12_1 sem12_1
    hrank12 hreads12_1 hinb12_1 nbuf12_1 (Memref.isWhole_whole _) hwx12_1 hstage12_1

abbrev win12_2 : Pipeline.Window sig grid12 :=
  Pipeline.Window.ofSpec (Memref.whole main_v134) S10000x192.size cc12_transform_2 reads12_2 true false 2 stage12_2 sem12_2
    hrank12 hreads12_2 hinb12_2 nbuf12_2 (Memref.isWhole_whole _) hwx12_2 hstage12_2

abbrev win12 : Fin 3 → Pipeline.Window sig grid12 := fun | 0 => win12_0 | 1 => win12_1 | 2 => win12_2 | ⟨_ + 3, h⟩ => absurd h (Nat.not_lt.2 (Nat.le_add_left _ _))
abbrev spec12 : Fin 3 → Pipeline.WinSpec sig grid12.rank := fun w => (win12 w).toWinSpec

abbrev win13_0 : Pipeline.Window sig grid13 :=
  Pipeline.Window.ofSpec (Memref.whole main_v30) S2000x2.size cc13_transform_0 reads13_0 false false 2 stage13_0 sem13_0
    hrank13 hreads13_0 hinb13_0 nbuf13_0 (Memref.isWhole_whole _) hwx13_0 hstage13_0

abbrev win13_1 : Pipeline.Window sig grid13 :=
  Pipeline.Window.ofSpec (Memref.whole main_v142) S2000x3x64.size cc13_transform_1 reads13_1 false false 2 stage13_1 sem13_1
    hrank13 hreads13_1 hinb13_1 nbuf13_1 (Memref.isWhole_whole _) hwx13_1 hstage13_1

abbrev win13_2 : Pipeline.Window sig grid13 :=
  Pipeline.Window.ofSpec (Memref.whole main_v144) S2x2.size cc13_transform_2 reads13_2 false true 1 stage13_2 sem13_2
    hrank13 hreads13_2 hinb13_2 nbuf13_2 (Memref.isWhole_whole _) hwx13_2 hstage13_2

abbrev win13_3 : Pipeline.Window sig grid13 :=
  Pipeline.Window.ofSpec (Memref.whole main_v146) S1x2.size cc13_transform_3 reads13_3 false true 1 stage13_3 sem13_3
    hrank13 hreads13_3 hinb13_3 nbuf13_3 (Memref.isWhole_whole _) hwx13_3 hstage13_3

abbrev win13_4 : Pipeline.Window sig grid13 :=
  Pipeline.Window.ofSpec (Memref.whole main_v148) S3x2.size cc13_transform_4 reads13_4 false true 1 stage13_4 sem13_4
    hrank13 hreads13_4 hinb13_4 nbuf13_4 (Memref.isWhole_whole _) hwx13_4 hstage13_4

abbrev win13_5 : Pipeline.Window sig grid13 :=
  Pipeline.Window.ofSpec (Memref.whole main_v150) S3x2.size cc13_transform_5 reads13_5 false true 1 stage13_5 sem13_5
    hrank13 hreads13_5 hinb13_5 nbuf13_5 (Memref.isWhole_whole _) hwx13_5 hstage13_5

abbrev win13_6 : Pipeline.Window sig grid13 :=
  Pipeline.Window.ofSpec (Memref.whole main_v151) S2000x3x64.size cc13_transform_6 reads13_6 true false 2 stage13_6 sem13_6
    hrank13 hreads13_6 hinb13_6 nbuf13_6 (Memref.isWhole_whole _) hwx13_6 hstage13_6

abbrev win13 : Fin 7 → Pipeline.Window sig grid13 := fun | 0 => win13_0 | 1 => win13_1 | 2 => win13_2 | 3 => win13_3 | 4 => win13_4 | 5 => win13_5 | 6 => win13_6 | ⟨_ + 7, h⟩ => absurd h (Nat.not_lt.2 (Nat.le_add_left _ _))
abbrev spec13 : Fin 7 → Pipeline.WinSpec sig grid13.rank := fun w => (win13 w).toWinSpec

abbrev win14_0 : Pipeline.Window sig grid14 :=
  Pipeline.Window.ofSpec (Memref.whole main_v155) S5000x64.size cc14_transform_0 reads14_0 false false 2 stage14_0 sem14_0
    hrank14 hreads14_0 hinb14_0 nbuf14_0 (Memref.isWhole_whole _) hwx14_0 hstage14_0

abbrev win14_1 : Pipeline.Window sig grid14 :=
  Pipeline.Window.ofSpec (Memref.whole main_v160_0) S1x64.size cc14_transform_1 reads14_1 true true 1 stage14_1 sem14_1
    hrank14 hreads14_1 hinb14_1 nbuf14_1 (Memref.isWhole_whole _) hwx14_1 hstage14_1

abbrev win14_2 : Pipeline.Window sig grid14 :=
  Pipeline.Window.ofSpec (Memref.whole main_v160_1) S1x64.size cc14_transform_2 reads14_2 true true 1 stage14_2 sem14_2
    hrank14 hreads14_2 hinb14_2 nbuf14_2 (Memref.isWhole_whole _) hwx14_2 hstage14_2

abbrev win14 : Fin 3 → Pipeline.Window sig grid14 := fun | 0 => win14_0 | 1 => win14_1 | 2 => win14_2 | ⟨_ + 3, h⟩ => absurd h (Nat.not_lt.2 (Nat.le_add_left _ _))
abbrev spec14 : Fin 3 → Pipeline.WinSpec sig grid14.rank := fun w => (win14 w).toWinSpec

abbrev win15_0 : Pipeline.Window sig grid15 :=
  Pipeline.Window.ofSpec (Memref.whole main_v155) S5000x64.size cc15_transform_0 reads15_0 false false 2 stage15_0 sem15_0
    hrank15 hreads15_0 hinb15_0 nbuf15_0 (Memref.isWhole_whole _) hwx15_0 hstage15_0

abbrev win15_1 : Pipeline.Window sig grid15 :=
  Pipeline.Window.ofSpec (Memref.whole main_v131) S5000x64.size cc15_transform_1 reads15_1 false false 2 stage15_1 sem15_1
    hrank15 hreads15_1 hinb15_1 nbuf15_1 (Memref.isWhole_whole _) hwx15_1 hstage15_1

abbrev win15_2 : Pipeline.Window sig grid15 :=
  Pipeline.Window.ofSpec (Memref.whole main_v160_0) S1x64.size cc15_transform_2 reads15_2 false true 1 stage15_2 sem15_2
    hrank15 hreads15_2 hinb15_2 nbuf15_2 (Memref.isWhole_whole _) hwx15_2 hstage15_2

abbrev win15_3 : Pipeline.Window sig grid15 :=
  Pipeline.Window.ofSpec (Memref.whole main_v160_1) S1x64.size cc15_transform_3 reads15_3 false true 1 stage15_3 sem15_3
    hrank15 hreads15_3 hinb15_3 nbuf15_3 (Memref.isWhole_whole _) hwx15_3 hstage15_3

abbrev win15_4 : Pipeline.Window sig grid15 :=
  Pipeline.Window.ofSpec (Memref.whole main_v157) S1x64.size cc15_transform_4 reads15_4 false true 1 stage15_4 sem15_4
    hrank15 hreads15_4 hinb15_4 nbuf15_4 (Memref.isWhole_whole _) hwx15_4 hstage15_4

abbrev win15_5 : Pipeline.Window sig grid15 :=
  Pipeline.Window.ofSpec (Memref.whole main_v159) S1x64.size cc15_transform_5 reads15_5 false true 1 stage15_5 sem15_5
    hrank15 hreads15_5 hinb15_5 nbuf15_5 (Memref.isWhole_whole _) hwx15_5 hstage15_5

abbrev win15_6 : Pipeline.Window sig grid15 :=
  Pipeline.Window.ofSpec (Memref.whole main_v161) S5000x64.size cc15_transform_6 reads15_6 true false 2 stage15_6 sem15_6
    hrank15 hreads15_6 hinb15_6 nbuf15_6 (Memref.isWhole_whole _) hwx15_6 hstage15_6

abbrev win15 : Fin 7 → Pipeline.Window sig grid15 := fun | 0 => win15_0 | 1 => win15_1 | 2 => win15_2 | 3 => win15_3 | 4 => win15_4 | 5 => win15_5 | 6 => win15_6 | ⟨_ + 7, h⟩ => absurd h (Nat.not_lt.2 (Nat.le_add_left _ _))
abbrev spec15 : Fin 7 → Pipeline.WinSpec sig grid15.rank := fun w => (win15 w).toWinSpec

abbrev win16_0 : Pipeline.Window sig grid16 :=
  Pipeline.Window.ofSpec (Memref.whole main_v173) S256x64.size cc16_transform_0 reads16_0 false true 1 stage16_0 sem16_0
    hrank16 hreads16_0 hinb16_0 nbuf16_0 (Memref.isWhole_whole _) hwx16_0 hstage16_0

abbrev win16_1 : Pipeline.Window sig grid16 :=
  Pipeline.Window.ofSpec (Memref.whole main_v174) S64x32.size cc16_transform_1 reads16_1 false true 1 stage16_1 sem16_1
    hrank16 hreads16_1 hinb16_1 nbuf16_1 (Memref.isWhole_whole _) hwx16_1 hstage16_1

abbrev win16_2 : Pipeline.Window sig grid16 :=
  Pipeline.Window.ofSpec (Memref.whole main_v177) S1x32.size cc16_transform_2 reads16_2 false true 1 stage16_2 sem16_2
    hrank16 hreads16_2 hinb16_2 nbuf16_2 (Memref.isWhole_whole _) hwx16_2 hstage16_2

abbrev win16_3 : Pipeline.Window sig grid16 :=
  Pipeline.Window.ofSpec (Memref.whole main_v175) S32x16.size cc16_transform_3 reads16_3 false true 1 stage16_3 sem16_3
    hrank16 hreads16_3 hinb16_3 nbuf16_3 (Memref.isWhole_whole _) hwx16_3 hstage16_3

abbrev win16_4 : Pipeline.Window sig grid16 :=
  Pipeline.Window.ofSpec (Memref.whole main_v178) S1x16.size cc16_transform_4 reads16_4 false true 1 stage16_4 sem16_4
    hrank16 hreads16_4 hinb16_4 nbuf16_4 (Memref.isWhole_whole _) hwx16_4 hstage16_4

abbrev win16_5 : Pipeline.Window sig grid16 :=
  Pipeline.Window.ofSpec (Memref.whole main_v176) S16x1.size cc16_transform_5 reads16_5 false true 1 stage16_5 sem16_5
    hrank16 hreads16_5 hinb16_5 nbuf16_5 (Memref.isWhole_whole _) hwx16_5 hstage16_5

abbrev win16_6 : Pipeline.Window sig grid16 :=
  Pipeline.Window.ofSpec (Memref.whole main_v179) S1x1.size cc16_transform_6 reads16_6 false true 1 stage16_6 sem16_6
    hrank16 hreads16_6 hinb16_6 nbuf16_6 (Memref.isWhole_whole _) hwx16_6 hstage16_6

abbrev win16_7 : Pipeline.Window sig grid16 :=
  Pipeline.Window.ofSpec (Memref.whole main_v180) S256x1.size cc16_transform_7 reads16_7 true true 1 stage16_7 sem16_7
    hrank16 hreads16_7 hinb16_7 nbuf16_7 (Memref.isWhole_whole _) hwx16_7 hstage16_7

abbrev win16 : Fin 8 → Pipeline.Window sig grid16 := fun | 0 => win16_0 | 1 => win16_1 | 2 => win16_2 | 3 => win16_3 | 4 => win16_4 | 5 => win16_5 | 6 => win16_6 | 7 => win16_7 | ⟨_ + 8, h⟩ => absurd h (Nat.not_lt.2 (Nat.le_add_left _ _))
abbrev spec16 : Fin 8 → Pipeline.WinSpec sig grid16.rank := fun w => (win16 w).toWinSpec

class Facts : Prop extends Facts₀ where

variable [Facts]
-- ==== ReferenceIdeal.lean ====
abbrev S50000 : Shape := ⟨1, ![50000]⟩
abbrev S800000 : Shape := ⟨1, ![800000]⟩
abbrev S28x64 : Shape := ⟨2, ![28, 64]⟩
abbrev S4x192x64 : Shape := ⟨3, ![4, 192, 64]⟩
abbrev S4x3x2 : Shape := ⟨3, ![4, 3, 2]⟩
abbrev S4x64 : Shape := ⟨2, ![4, 64]⟩
abbrev S4x2x2 : Shape := ⟨3, ![4, 2, 2]⟩
abbrev S4x2 : Shape := ⟨2, ![4, 2]⟩
abbrev S32x64 : Shape := ⟨2, ![32, 64]⟩
abbrev S32 : Shape := ⟨1, ![32]⟩
abbrev S16x32 : Shape := ⟨2, ![16, 32]⟩
abbrev S16 : Shape := ⟨1, ![16]⟩
abbrev S1x16 : Shape := ⟨2, ![1, 16]⟩
abbrev S1 : Shape := ⟨1, ![1]⟩
abbrev S_ : Shape := ⟨0, ![]⟩
abbrev S800000x1 : Shape := ⟨2, ![800000, 1]⟩
abbrev S800000x2 : Shape := ⟨2, ![800000, 2]⟩
abbrev S50000x1 : Shape := ⟨2, ![50000, 1]⟩
abbrev S50000x64 : Shape := ⟨2, ![50000, 64]⟩
abbrev S1x2x2 : Shape := ⟨3, ![1, 2, 2]⟩
abbrev S2x2 : Shape := ⟨2, ![2, 2]⟩
abbrev S1x2 : Shape := ⟨2, ![1, 2]⟩
abbrev S2 : Shape := ⟨1, ![2]⟩
abbrev S800000x1x2 : Shape := ⟨3, ![800000, 1, 2]⟩
abbrev S1x3x2 : Shape := ⟨3, ![1, 3, 2]⟩
abbrev S3x2 : Shape := ⟨2, ![3, 2]⟩
abbrev S800000x3x2 : Shape := ⟨3, ![800000, 3, 2]⟩
abbrev S800000x3 : Shape := ⟨2, ![800000, 3]⟩
abbrev S1x192x64 : Shape := ⟨3, ![1, 192, 64]⟩
abbrev S192x64 : Shape := ⟨2, ![192, 64]⟩
abbrev S64x192 : Shape := ⟨2, ![64, 192]⟩
abbrev S50000x192 : Shape := ⟨2, ![50000, 192]⟩
abbrev S50000x3x64 : Shape := ⟨3, ![50000, 3, 64]⟩
abbrev S800000x3x64 : Shape := ⟨3, ![800000, 3, 64]⟩
abbrev S800000x3x1 : Shape := ⟨3, ![800000, 3, 1]⟩
abbrev S64 : Shape := ⟨1, ![64]⟩
abbrev S1x64 : Shape := ⟨2, ![1, 64]⟩
abbrev S256 : Shape := ⟨1, ![256]⟩
abbrev S256x64 : Shape := ⟨2, ![256, 64]⟩
abbrev S256x1 : Shape := ⟨2, ![256, 1]⟩
abbrev S64x32 : Shape := ⟨2, ![64, 32]⟩
abbrev S256x32 : Shape := ⟨2, ![256, 32]⟩
abbrev S1x32 : Shape := ⟨2, ![1, 32]⟩
abbrev S32x16 : Shape := ⟨2, ![32, 16]⟩
abbrev S256x16 : Shape := ⟨2, ![256, 16]⟩
abbrev S16x1 : Shape := ⟨2, ![16, 1]⟩
abbrev S1x1 : Shape := ⟨2, ![1, 1]⟩

abbrev nBuf : Space → Nat
  | .hbm => 521
  | .vmem => 0
  | .smem => 0
  | _ => 0

abbrev hbmTy0_0 (i : Nat) : BufTy := match i % 128 with
  | 0 => ⟨S50000, .i32⟩
  | 1 => ⟨S800000, .i32⟩
  | 2 => ⟨S800000, .i32⟩
  | 3 => ⟨S50000, .i32⟩
  | 4 => ⟨S28x64, .f32⟩
  | 5 => ⟨S4x192x64, .f32⟩
  | 6 => ⟨S4x3x2, .f32⟩
  | 7 => ⟨S4x3x2, .f32⟩
  | 8 => ⟨S4x64, .f32⟩
  | 9 => ⟨S4x64, .f32⟩
  | 10 => ⟨S4x2x2, .f32⟩
  | 11 => ⟨S4x2, .f32⟩
  | 12 => ⟨S32x64, .f32⟩
  | 13 => ⟨S32, .f32⟩
  | 14 => ⟨S16x32, .f32⟩
  | 15 => ⟨S16, .f32⟩
  | 16 => ⟨S1x16, .f32⟩
  | 17 => ⟨S1, .f32⟩
  | 18 => ⟨S_, .f32⟩
  | 19 => ⟨S800000, .f32⟩
  | 20 => ⟨S_, .f32⟩
  | 21 => ⟨S50000, .f32⟩
  | 22 => ⟨S800000x1, .i32⟩
  | 23 => ⟨S50000, .f32⟩
  | 24 => ⟨S_, .i32⟩
  | 25 => ⟨S800000, .i32⟩
  | 26 => ⟨S800000, .i1⟩
  | 27 => ⟨S_, .i32⟩
  | 28 => ⟨S800000, .i32⟩
  | 29 => ⟨S800000, .i32⟩
  | 30 => ⟨S800000, .i32⟩
  | 31 => ⟨S800000x1, .i32⟩
  | 32 => ⟨S800000, .f32⟩
  | 33 => ⟨S_, .f32⟩
  | 34 => ⟨S800000, .f32⟩
  | 35 => ⟨S800000, .f32⟩
  | 36 => ⟨S800000, .f32⟩
  | 37 => ⟨S_, .f32⟩
  | 38 => ⟨S800000, .f32⟩
  | 39 => ⟨S800000, .f32⟩
  | 40 => ⟨S_, .i32⟩
  | 41 => ⟨S800000, .i32⟩
  | 42 => ⟨S800000, .i1⟩
  | 43 => ⟨S_, .i32⟩
  | 44 => ⟨S800000, .i32⟩
  | 45 => ⟨S800000, .i32⟩
  | 46 => ⟨S800000, .i32⟩
  | 47 => ⟨S800000x1, .i32⟩
  | 48 => ⟨S800000, .f32⟩
  | 49 => ⟨S_, .f32⟩
  | 50 => ⟨S800000, .f32⟩
  | 51 => ⟨S800000, .f32⟩
  | 52 => ⟨S800000, .f32⟩
  | 53 => ⟨S_, .f32⟩
  | 54 => ⟨S800000, .f32⟩
  | 55 => ⟨S800000, .f32⟩
  | 56 => ⟨S800000x1, .f32⟩
  | 57 => ⟨S800000x1, .f32⟩
  | 58 => ⟨S800000x2, .f32⟩
  | 59 => ⟨S_, .i32⟩
  | 60 => ⟨S50000, .i32⟩
  | 61 => ⟨S50000, .i1⟩
  | 62 => ⟨S_, .i32⟩
  | 63 => ⟨S50000, .i32⟩
  | 64 => ⟨S50000, .i32⟩
  | 65 => ⟨S50000, .i32⟩
  | 66 => ⟨S50000x1, .i32⟩
  | 67 => ⟨S50000x64, .f32⟩
  | 68 => ⟨S1x2x2, .f32⟩
  | 69 => ⟨S2x2, .f32⟩
  | 70 => ⟨S2x2, .f32⟩
  | 71 => ⟨S800000x2, .f32⟩
  | 72 => ⟨S1x2, .f32⟩
  | 73 => ⟨S2, .f32⟩
  | 74 => ⟨S1x2, .f32⟩
  | 75 => ⟨S800000x2, .f32⟩
  | 76 => ⟨S800000x2, .f32⟩
  | 77 => ⟨S800000x2, .f32⟩
  | 78 => ⟨S800000x1x2, .f32⟩
  | 79 => ⟨S1x3x2, .f32⟩
  | 80 => ⟨S3x2, .f32⟩
  | 81 => ⟨S1x3x2, .f32⟩
  | 82 => ⟨S800000x3x2, .f32⟩
  | 83 => ⟨S800000x3x2, .f32⟩
  | 84 => ⟨S800000x3x2, .f32⟩
  | 85 => ⟨S1x3x2, .f32⟩
  | 86 => ⟨S3x2, .f32⟩
  | 87 => ⟨S1x3x2, .f32⟩
  | 88 => ⟨S800000x3x2, .f32⟩
  | 89 => ⟨S800000x3x2, .f32⟩
  | 90 => ⟨S800000x3x2, .f32⟩
  | 91 => ⟨S_, .f32⟩
  | 92 => ⟨S800000x3, .f32⟩
  | 93 => ⟨S_, .f32⟩
  | 94 => ⟨S800000x3, .f32⟩
  | 95 => ⟨S800000x3, .f32⟩
  | 96 => ⟨S800000x3, .f32⟩
  | 97 => ⟨S1x192x64, .f32⟩
  | 98 => ⟨S192x64, .f32⟩
  | 99 => ⟨S64x192, .f32⟩
  | 100 => ⟨S50000x192, .f32⟩
  | 101 => ⟨S50000x3x64, .f32⟩
  | 102 => ⟨S_, .i32⟩
  | 103 => ⟨S800000, .i32⟩
  | 104 => ⟨S800000, .i1⟩
  | 105 => ⟨S_, .i32⟩
  | 106 => ⟨S800000, .i32⟩
  | 107 => ⟨S800000, .i32⟩
  | 108 => ⟨S800000, .i32⟩
  | 109 => ⟨S800000x1, .i32⟩
  | 110 => ⟨S800000x3x64, .f32⟩
  | 111 => ⟨S800000x3x1, .f32⟩
  | 112 => ⟨S800000x3x64, .f32⟩
  | 113 => ⟨S800000x3x64, .f32⟩
  | 114 => ⟨S_, .f32⟩
  | 115 => ⟨S50000x3x64, .f32⟩
  | 116 => ⟨S800000x1, .i32⟩
  | 117 => ⟨S50000x3x64, .f32⟩
  | 118 => ⟨S_, .f32⟩
  | 119 => ⟨S50000x64, .f32⟩
  | 120 => ⟨S_, .f32⟩
  | 121 => ⟨S64, .f32⟩
  | 122 => ⟨S_, .f32⟩
  | 123 => ⟨S64, .f32⟩
  | 124 => ⟨S64, .f32⟩
  | 125 => ⟨S_, .i32⟩
  | 126 => ⟨S_, .f32⟩
  | 127 => ⟨S64, .f32⟩
  | _ => ⟨S50000, .i32⟩

abbrev hbmTy0_1 (i : Nat) : BufTy := match i % 128 with
  | 0 => ⟨S1x64, .f32⟩
  | 1 => ⟨S_, .f32⟩
  | 2 => ⟨S1x64, .f32⟩
  | 3 => ⟨S1x64, .f32⟩
  | 4 => ⟨S50000x64, .f32⟩
  | 5 => ⟨S50000x64, .f32⟩
  | 6 => ⟨S50000x64, .f32⟩
  | 7 => ⟨S_, .f32⟩
  | 8 => ⟨S_, .f32⟩
  | 9 => ⟨S_, .f32⟩
  | 10 => ⟨S_, .f32⟩
  | 11 => ⟨S64, .f32⟩
  | 12 => ⟨S64, .f32⟩
  | 13 => ⟨S64, .f32⟩
  | 14 => ⟨S_, .f32⟩
  | 15 => ⟨S_, .i1⟩
  | 16 => ⟨S_, .f32⟩
  | 17 => ⟨S_, .f32⟩
  | 18 => ⟨S64, .f32⟩
  | 19 => ⟨S64, .f32⟩
  | 20 => ⟨S1x64, .f32⟩
  | 21 => ⟨S50000x64, .f32⟩
  | 22 => ⟨S50000x64, .f32⟩
  | 23 => ⟨S_, .f32⟩
  | 24 => ⟨S64, .f32⟩
  | 25 => ⟨S64, .f32⟩
  | 26 => ⟨S64, .f32⟩
  | 27 => ⟨S1x64, .f32⟩
  | 28 => ⟨S50000x64, .f32⟩
  | 29 => ⟨S50000x64, .f32⟩
  | 30 => ⟨S1x64, .f32⟩
  | 31 => ⟨S64, .f32⟩
  | 32 => ⟨S1x64, .f32⟩
  | 33 => ⟨S50000x64, .f32⟩
  | 34 => ⟨S50000x64, .f32⟩
  | 35 => ⟨S1x64, .f32⟩
  | 36 => ⟨S64, .f32⟩
  | 37 => ⟨S1x64, .f32⟩
  | 38 => ⟨S50000x64, .f32⟩
  | 39 => ⟨S50000x64, .f32⟩
  | 40 => ⟨S_, .f32⟩
  | 41 => ⟨S50000x64, .f32⟩
  | 42 => ⟨S50000x64, .f32⟩
  | 43 => ⟨S50000x64, .f32⟩
  | 44 => ⟨S1x2x2, .f32⟩
  | 45 => ⟨S2x2, .f32⟩
  | 46 => ⟨S2x2, .f32⟩
  | 47 => ⟨S800000x2, .f32⟩
  | 48 => ⟨S1x2, .f32⟩
  | 49 => ⟨S2, .f32⟩
  | 50 => ⟨S1x2, .f32⟩
  | 51 => ⟨S800000x2, .f32⟩
  | 52 => ⟨S800000x2, .f32⟩
  | 53 => ⟨S800000x2, .f32⟩
  | 54 => ⟨S800000x1x2, .f32⟩
  | 55 => ⟨S1x3x2, .f32⟩
  | 56 => ⟨S3x2, .f32⟩
  | 57 => ⟨S1x3x2, .f32⟩
  | 58 => ⟨S800000x3x2, .f32⟩
  | 59 => ⟨S800000x3x2, .f32⟩
  | 60 => ⟨S800000x3x2, .f32⟩
  | 61 => ⟨S1x3x2, .f32⟩
  | 62 => ⟨S3x2, .f32⟩
  | 63 => ⟨S1x3x2, .f32⟩
  | 64 => ⟨S800000x3x2, .f32⟩
  | 65 => ⟨S800000x3x2, .f32⟩
  | 66 => ⟨S800000x3x2, .f32⟩
  | 67 => ⟨S_, .f32⟩
  | 68 => ⟨S800000x3, .f32⟩
  | 69 => ⟨S_, .f32⟩
  | 70 => ⟨S800000x3, .f32⟩
  | 71 => ⟨S800000x3, .f32⟩
  | 72 => ⟨S800000x3, .f32⟩
  | 73 => ⟨S1x192x64, .f32⟩
  | 74 => ⟨S192x64, .f32⟩
  | 75 => ⟨S64x192, .f32⟩
  | 76 => ⟨S50000x192, .f32⟩
  | 77 => ⟨S50000x3x64, .f32⟩
  | 78 => ⟨S_, .i32⟩
  | 79 => ⟨S800000, .i32⟩
  | 80 => ⟨S800000, .i1⟩
  | 81 => ⟨S_, .i32⟩
  | 82 => ⟨S800000, .i32⟩
  | 83 => ⟨S800000, .i32⟩
  | 84 => ⟨S800000, .i32⟩
  | 85 => ⟨S800000x1, .i32⟩
  | 86 => ⟨S800000x3x64, .f32⟩
  | 87 => ⟨S800000x3x1, .f32⟩
  | 88 => ⟨S800000x3x64, .f32⟩
  | 89 => ⟨S800000x3x64, .f32⟩
  | 90 => ⟨S_, .f32⟩
  | 91 => ⟨S50000x3x64, .f32⟩
  | 92 => ⟨S800000x1, .i32⟩
  | 93 => ⟨S50000x3x64, .f32⟩
  | 94 => ⟨S_, .f32⟩
  | 95 => ⟨S50000x64, .f32⟩
  | 96 => ⟨S_, .f32⟩
  | 97 => ⟨S64, .f32⟩
  | 98 => ⟨S_, .f32⟩
  | 99 => ⟨S64, .f32⟩
  | 100 => ⟨S64, .f32⟩
  | 101 => ⟨S_, .i32⟩
  | 102 => ⟨S_, .f32⟩
  | 103 => ⟨S64, .f32⟩
  | 104 => ⟨S1x64, .f32⟩
  | 105 => ⟨S_, .f32⟩
  | 106 => ⟨S1x64, .f32⟩
  | 107 => ⟨S1x64, .f32⟩
  | 108 => ⟨S50000x64, .f32⟩
  | 109 => ⟨S50000x64, .f32⟩
  | 110 => ⟨S50000x64, .f32⟩
  | 111 => ⟨S_, .f32⟩
  | 112 => ⟨S_, .f32⟩
  | 113 => ⟨S_, .f32⟩
  | 114 => ⟨S_, .f32⟩
  | 115 => ⟨S64, .f32⟩
  | 116 => ⟨S64, .f32⟩
  | 117 => ⟨S64, .f32⟩
  | 118 => ⟨S_, .f32⟩
  | 119 => ⟨S_, .i1⟩
  | 120 => ⟨S_, .f32⟩
  | 121 => ⟨S_, .f32⟩
  | 122 => ⟨S64, .f32⟩
  | 123 => ⟨S64, .f32⟩
  | 124 => ⟨S1x64, .f32⟩
  | 125 => ⟨S50000x64, .f32⟩
  | 126 => ⟨S50000x64, .f32⟩
  | 127 => ⟨S_, .f32⟩
  | _ => ⟨S50000, .i32⟩

abbrev hbmTy0_2 (i : Nat) : BufTy := match i % 128 with
  | 0 => ⟨S64, .f32⟩
  | 1 => ⟨S64, .f32⟩
  | 2 => ⟨S64, .f32⟩
  | 3 => ⟨S1x64, .f32⟩
  | 4 => ⟨S50000x64, .f32⟩
  | 5 => ⟨S50000x64, .f32⟩
  | 6 => ⟨S1x64, .f32⟩
  | 7 => ⟨S64, .f32⟩
  | 8 => ⟨S1x64, .f32⟩
  | 9 => ⟨S50000x64, .f32⟩
  | 10 => ⟨S50000x64, .f32⟩
  | 11 => ⟨S1x64, .f32⟩
  | 12 => ⟨S64, .f32⟩
  | 13 => ⟨S1x64, .f32⟩
  | 14 => ⟨S50000x64, .f32⟩
  | 15 => ⟨S50000x64, .f32⟩
  | 16 => ⟨S_, .f32⟩
  | 17 => ⟨S50000x64, .f32⟩
  | 18 => ⟨S50000x64, .f32⟩
  | 19 => ⟨S50000x64, .f32⟩
  | 20 => ⟨S1x2x2, .f32⟩
  | 21 => ⟨S2x2, .f32⟩
  | 22 => ⟨S2x2, .f32⟩
  | 23 => ⟨S800000x2, .f32⟩
  | 24 => ⟨S1x2, .f32⟩
  | 25 => ⟨S2, .f32⟩
  | 26 => ⟨S1x2, .f32⟩
  | 27 => ⟨S800000x2, .f32⟩
  | 28 => ⟨S800000x2, .f32⟩
  | 29 => ⟨S800000x2, .f32⟩
  | 30 => ⟨S800000x1x2, .f32⟩
  | 31 => ⟨S1x3x2, .f32⟩
  | 32 => ⟨S3x2, .f32⟩
  | 33 => ⟨S1x3x2, .f32⟩
  | 34 => ⟨S800000x3x2, .f32⟩
  | 35 => ⟨S800000x3x2, .f32⟩
  | 36 => ⟨S800000x3x2, .f32⟩
  | 37 => ⟨S1x3x2, .f32⟩
  | 38 => ⟨S3x2, .f32⟩
  | 39 => ⟨S1x3x2, .f32⟩
  | 40 => ⟨S800000x3x2, .f32⟩
  | 41 => ⟨S800000x3x2, .f32⟩
  | 42 => ⟨S800000x3x2, .f32⟩
  | 43 => ⟨S_, .f32⟩
  | 44 => ⟨S800000x3, .f32⟩
  | 45 => ⟨S_, .f32⟩
  | 46 => ⟨S800000x3, .f32⟩
  | 47 => ⟨S800000x3, .f32⟩
  | 48 => ⟨S800000x3, .f32⟩
  | 49 => ⟨S1x192x64, .f32⟩
  | 50 => ⟨S192x64, .f32⟩
  | 51 => ⟨S64x192, .f32⟩
  | 52 => ⟨S50000x192, .f32⟩
  | 53 => ⟨S50000x3x64, .f32⟩
  | 54 => ⟨S_, .i32⟩
  | 55 => ⟨S800000, .i32⟩
  | 56 => ⟨S800000, .i1⟩
  | 57 => ⟨S_, .i32⟩
  | 58 => ⟨S800000, .i32⟩
  | 59 => ⟨S800000, .i32⟩
  | 60 => ⟨S800000, .i32⟩
  | 61 => ⟨S800000x1, .i32⟩
  | 62 => ⟨S800000x3x64, .f32⟩
  | 63 => ⟨S800000x3x1, .f32⟩
  | 64 => ⟨S800000x3x64, .f32⟩
  | 65 => ⟨S800000x3x64, .f32⟩
  | 66 => ⟨S_, .f32⟩
  | 67 => ⟨S50000x3x64, .f32⟩
  | 68 => ⟨S800000x1, .i32⟩
  | 69 => ⟨S50000x3x64, .f32⟩
  | 70 => ⟨S_, .f32⟩
  | 71 => ⟨S50000x64, .f32⟩
  | 72 => ⟨S_, .f32⟩
  | 73 => ⟨S64, .f32⟩
  | 74 => ⟨S_, .f32⟩
  | 75 => ⟨S64, .f32⟩
  | 76 => ⟨S64, .f32⟩
  | 77 => ⟨S_, .i32⟩
  | 78 => ⟨S_, .f32⟩
  | 79 => ⟨S64, .f32⟩
  | 80 => ⟨S1x64, .f32⟩
  | 81 => ⟨S_, .f32⟩
  | 82 => ⟨S1x64, .f32⟩
  | 83 => ⟨S1x64, .f32⟩
  | 84 => ⟨S50000x64, .f32⟩
  | 85 => ⟨S50000x64, .f32⟩
  | 86 => ⟨S50000x64, .f32⟩
  | 87 => ⟨S_, .f32⟩
  | 88 => ⟨S_, .f32⟩
  | 89 => ⟨S_, .f32⟩
  | 90 => ⟨S_, .f32⟩
  | 91 => ⟨S64, .f32⟩
  | 92 => ⟨S64, .f32⟩
  | 93 => ⟨S64, .f32⟩
  | 94 => ⟨S_, .f32⟩
  | 95 => ⟨S_, .i1⟩
  | 96 => ⟨S_, .f32⟩
  | 97 => ⟨S_, .f32⟩
  | 98 => ⟨S64, .f32⟩
  | 99 => ⟨S64, .f32⟩
  | 100 => ⟨S1x64, .f32⟩
  | 101 => ⟨S50000x64, .f32⟩
  | 102 => ⟨S50000x64, .f32⟩
  | 103 => ⟨S_, .f32⟩
  | 104 => ⟨S64, .f32⟩
  | 105 => ⟨S64, .f32⟩
  | 106 => ⟨S64, .f32⟩
  | 107 => ⟨S1x64, .f32⟩
  | 108 => ⟨S50000x64, .f32⟩
  | 109 => ⟨S50000x64, .f32⟩
  | 110 => ⟨S1x64, .f32⟩
  | 111 => ⟨S64, .f32⟩
  | 112 => ⟨S1x64, .f32⟩
  | 113 => ⟨S50000x64, .f32⟩
  | 114 => ⟨S50000x64, .f32⟩
  | 115 => ⟨S1x64, .f32⟩
  | 116 => ⟨S64, .f32⟩
  | 117 => ⟨S1x64, .f32⟩
  | 118 => ⟨S50000x64, .f32⟩
  | 119 => ⟨S50000x64, .f32⟩
  | 120 => ⟨S_, .f32⟩
  | 121 => ⟨S50000x64, .f32⟩
  | 122 => ⟨S50000x64, .f32⟩
  | 123 => ⟨S50000x64, .f32⟩
  | 124 => ⟨S1x2x2, .f32⟩
  | 125 => ⟨S2x2, .f32⟩
  | 126 => ⟨S2x2, .f32⟩
  | 127 => ⟨S800000x2, .f32⟩
  | _ => ⟨S50000, .i32⟩

abbrev hbmTy0_3 (i : Nat) : BufTy := match i % 128 with
  | 0 => ⟨S1x2, .f32⟩
  | 1 => ⟨S2, .f32⟩
  | 2 => ⟨S1x2, .f32⟩
  | 3 => ⟨S800000x2, .f32⟩
  | 4 => ⟨S800000x2, .f32⟩
  | 5 => ⟨S800000x2, .f32⟩
  | 6 => ⟨S800000x1x2, .f32⟩
  | 7 => ⟨S1x3x2, .f32⟩
  | 8 => ⟨S3x2, .f32⟩
  | 9 => ⟨S1x3x2, .f32⟩
  | 10 => ⟨S800000x3x2, .f32⟩
  | 11 => ⟨S800000x3x2, .f32⟩
  | 12 => ⟨S800000x3x2, .f32⟩
  | 13 => ⟨S1x3x2, .f32⟩
  | 14 => ⟨S3x2, .f32⟩
  | 15 => ⟨S1x3x2, .f32⟩
  | 16 => ⟨S800000x3x2, .f32⟩
  | 17 => ⟨S800000x3x2, .f32⟩
  | 18 => ⟨S800000x3x2, .f32⟩
  | 19 => ⟨S_, .f32⟩
  | 20 => ⟨S800000x3, .f32⟩
  | 21 => ⟨S_, .f32⟩
  | 22 => ⟨S800000x3, .f32⟩
  | 23 => ⟨S800000x3, .f32⟩
  | 24 => ⟨S800000x3, .f32⟩
  | 25 => ⟨S1x192x64, .f32⟩
  | 26 => ⟨S192x64, .f32⟩
  | 27 => ⟨S64x192, .f32⟩
  | 28 => ⟨S50000x192, .f32⟩
  | 29 => ⟨S50000x3x64, .f32⟩
  | 30 => ⟨S_, .i32⟩
  | 31 => ⟨S800000, .i32⟩
  | 32 => ⟨S800000, .i1⟩
  | 33 => ⟨S_, .i32⟩
  | 34 => ⟨S800000, .i32⟩
  | 35 => ⟨S800000, .i32⟩
  | 36 => ⟨S800000, .i32⟩
  | 37 => ⟨S800000x1, .i32⟩
  | 38 => ⟨S800000x3x64, .f32⟩
  | 39 => ⟨S800000x3x1, .f32⟩
  | 40 => ⟨S800000x3x64, .f32⟩
  | 41 => ⟨S800000x3x64, .f32⟩
  | 42 => ⟨S_, .f32⟩
  | 43 => ⟨S50000x3x64, .f32⟩
  | 44 => ⟨S800000x1, .i32⟩
  | 45 => ⟨S50000x3x64, .f32⟩
  | 46 => ⟨S_, .f32⟩
  | 47 => ⟨S50000x64, .f32⟩
  | 48 => ⟨S_, .f32⟩
  | 49 => ⟨S64, .f32⟩
  | 50 => ⟨S_, .f32⟩
  | 51 => ⟨S64, .f32⟩
  | 52 => ⟨S64, .f32⟩
  | 53 => ⟨S_, .i32⟩
  | 54 => ⟨S_, .f32⟩
  | 55 => ⟨S64, .f32⟩
  | 56 => ⟨S1x64, .f32⟩
  | 57 => ⟨S_, .f32⟩
  | 58 => ⟨S1x64, .f32⟩
  | 59 => ⟨S1x64, .f32⟩
  | 60 => ⟨S50000x64, .f32⟩
  | 61 => ⟨S50000x64, .f32⟩
  | 62 => ⟨S50000x64, .f32⟩
  | 63 => ⟨S_, .f32⟩
  | 64 => ⟨S_, .f32⟩
  | 65 => ⟨S_, .f32⟩
  | 66 => ⟨S_, .f32⟩
  | 67 => ⟨S64, .f32⟩
  | 68 => ⟨S64, .f32⟩
  | 69 => ⟨S64, .f32⟩
  | 70 => ⟨S_, .f32⟩
  | 71 => ⟨S_, .i1⟩
  | 72 => ⟨S_, .f32⟩
  | 73 => ⟨S_, .f32⟩
  | 74 => ⟨S64, .f32⟩
  | 75 => ⟨S64, .f32⟩
  | 76 => ⟨S1x64, .f32⟩
  | 77 => ⟨S50000x64, .f32⟩
  | 78 => ⟨S50000x64, .f32⟩
  | 79 => ⟨S_, .f32⟩
  | 80 => ⟨S64, .f32⟩
  | 81 => ⟨S64, .f32⟩
  | 82 => ⟨S64, .f32⟩
  | 83 => ⟨S1x64, .f32⟩
  | 84 => ⟨S50000x64, .f32⟩
  | 85 => ⟨S50000x64, .f32⟩
  | 86 => ⟨S1x64, .f32⟩
  | 87 => ⟨S64, .f32⟩
  | 88 => ⟨S1x64, .f32⟩
  | 89 => ⟨S50000x64, .f32⟩
  | 90 => ⟨S50000x64, .f32⟩
  | 91 => ⟨S1x64, .f32⟩
  | 92 => ⟨S64, .f32⟩
  | 93 => ⟨S1x64, .f32⟩
  | 94 => ⟨S50000x64, .f32⟩
  | 95 => ⟨S50000x64, .f32⟩
  | 96 => ⟨S_, .f32⟩
  | 97 => ⟨S50000x64, .f32⟩
  | 98 => ⟨S50000x64, .f32⟩
  | 99 => ⟨S50000x64, .f32⟩
  | 100 => ⟨S_, .f32⟩
  | 101 => ⟨S50000, .f32⟩
  | 102 => ⟨S_, .f32⟩
  | 103 => ⟨S256, .f32⟩
  | 104 => ⟨S50000x1, .i32⟩
  | 105 => ⟨S256, .f32⟩
  | 106 => ⟨S_, .f32⟩
  | 107 => ⟨S256, .f32⟩
  | 108 => ⟨S256, .f32⟩
  | 109 => ⟨S_, .f32⟩
  | 110 => ⟨S256x64, .f32⟩
  | 111 => ⟨S50000x1, .i32⟩
  | 112 => ⟨S256x64, .f32⟩
  | 113 => ⟨S256x1, .f32⟩
  | 114 => ⟨S256x64, .f32⟩
  | 115 => ⟨S256x64, .f32⟩
  | 116 => ⟨S64x32, .f32⟩
  | 117 => ⟨S256x32, .f32⟩
  | 118 => ⟨S1x32, .f32⟩
  | 119 => ⟨S256x32, .f32⟩
  | 120 => ⟨S256x32, .f32⟩
  | 121 => ⟨S_, .f32⟩
  | 122 => ⟨S256x32, .f32⟩
  | 123 => ⟨S256x32, .f32⟩
  | 124 => ⟨S32x16, .f32⟩
  | 125 => ⟨S256x16, .f32⟩
  | 126 => ⟨S1x16, .f32⟩
  | 127 => ⟨S256x16, .f32⟩
  | _ => ⟨S50000, .i32⟩

abbrev hbmTy0_4 (i : Nat) : BufTy := match i % 128 with
  | 0 => ⟨S256x16, .f32⟩
  | 1 => ⟨S_, .f32⟩
  | 2 => ⟨S256x16, .f32⟩
  | 3 => ⟨S256x16, .f32⟩
  | 4 => ⟨S16x1, .f32⟩
  | 5 => ⟨S256x1, .f32⟩
  | 6 => ⟨S1x1, .f32⟩
  | 7 => ⟨S256x1, .f32⟩
  | 8 => ⟨S256x1, .f32⟩
  | _ => ⟨S50000, .i32⟩

abbrev hbmTy (i : Nat) : BufTy := match i / 128 with
  | 0 => hbmTy0_0 i
  | 1 => hbmTy0_1 i
  | 2 => hbmTy0_2 i
  | 3 => hbmTy0_3 i
  | 4 => hbmTy0_4 i
  | _ => ⟨S50000, .i32⟩

abbrev bufTy : (tb : Table) → Fin (tcTables nBuf tb) → BufTy
  | .hbm, ⟨i, _⟩ => hbmTy i
  | _, _ => ⟨S50000, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_cst : Ref sig .tc := ⟨.hbm, 18, rfl⟩
abbrev main_v0 : Ref sig .tc := ⟨.hbm, 19, rfl⟩
abbrev main_cst_0 : Ref sig .tc := ⟨.hbm, 20, rfl⟩
abbrev main_v1 : Ref sig .tc := ⟨.hbm, 21, rfl⟩
abbrev main_v2 : Ref sig .tc := ⟨.hbm, 22, rfl⟩
abbrev main_v3 : Ref sig .tc := ⟨.hbm, 23, rfl⟩
abbrev main_c : Ref sig .tc := ⟨.hbm, 24, rfl⟩
abbrev main_v4 : Ref sig .tc := ⟨.hbm, 25, rfl⟩
abbrev main_v5 : Ref sig .tc := ⟨.hbm, 26, rfl⟩
abbrev main_c_1 : Ref sig .tc := ⟨.hbm, 27, rfl⟩
abbrev main_v6 : Ref sig .tc := ⟨.hbm, 28, rfl⟩
abbrev main_v7 : Ref sig .tc := ⟨.hbm, 29, rfl⟩
abbrev main_v8 : Ref sig .tc := ⟨.hbm, 30, rfl⟩
abbrev main_v9 : Ref sig .tc := ⟨.hbm, 31, rfl⟩
abbrev main_v10 : Ref sig .tc := ⟨.hbm, 32, rfl⟩
abbrev main_cst_2 : Ref sig .tc := ⟨.hbm, 33, rfl⟩
abbrev main_v11 : Ref sig .tc := ⟨.hbm, 34, rfl⟩
abbrev main_v12 : Ref sig .tc := ⟨.hbm, 35, rfl⟩
abbrev main_v13 : Ref sig .tc := ⟨.hbm, 36, rfl⟩
abbrev main_cst_3 : Ref sig .tc := ⟨.hbm, 37, rfl⟩
abbrev main_v14 : Ref sig .tc := ⟨.hbm, 38, rfl⟩
abbrev main_v15 : Ref sig .tc := ⟨.hbm, 39, rfl⟩
abbrev main_c_4 : Ref sig .tc := ⟨.hbm, 40, rfl⟩
abbrev main_v16 : Ref sig .tc := ⟨.hbm, 41, rfl⟩
abbrev main_v17 : Ref sig .tc := ⟨.hbm, 42, rfl⟩
abbrev main_c_5 : Ref sig .tc := ⟨.hbm, 43, rfl⟩
abbrev main_v18 : Ref sig .tc := ⟨.hbm, 44, rfl⟩
abbrev main_v19 : Ref sig .tc := ⟨.hbm, 45, rfl⟩
abbrev main_v20 : Ref sig .tc := ⟨.hbm, 46, rfl⟩
abbrev main_v21 : Ref sig .tc := ⟨.hbm, 47, rfl⟩
abbrev main_v22 : Ref sig .tc := ⟨.hbm, 48, rfl⟩
abbrev main_cst_6 : Ref sig .tc := ⟨.hbm, 49, rfl⟩
abbrev main_v23 : Ref sig .tc := ⟨.hbm, 50, rfl⟩
abbrev main_v24 : Ref sig .tc := ⟨.hbm, 51, rfl⟩
abbrev main_v25 : Ref sig .tc := ⟨.hbm, 52, rfl⟩
abbrev main_cst_7 : Ref sig .tc := ⟨.hbm, 53, rfl⟩
abbrev main_v26 : Ref sig .tc := ⟨.hbm, 54, rfl⟩
abbrev main_v27 : Ref sig .tc := ⟨.hbm, 55, rfl⟩
abbrev main_v28 : Ref sig .tc := ⟨.hbm, 56, rfl⟩
abbrev main_v29 : Ref sig .tc := ⟨.hbm, 57, rfl⟩
abbrev main_v30 : Ref sig .tc := ⟨.hbm, 58, rfl⟩
abbrev main_c_8 : Ref sig .tc := ⟨.hbm, 59, rfl⟩
abbrev main_v31 : Ref sig .tc := ⟨.hbm, 60, rfl⟩
abbrev main_v32 : Ref sig .tc := ⟨.hbm, 61, rfl⟩
abbrev main_c_9 : Ref sig .tc := ⟨.hbm, 62, rfl⟩
abbrev main_v33 : Ref sig .tc := ⟨.hbm, 63, rfl⟩
abbrev main_v34 : Ref sig .tc := ⟨.hbm, 64, rfl⟩
abbrev main_v35 : Ref sig .tc := ⟨.hbm, 65, rfl⟩
abbrev main_v36 : Ref sig .tc := ⟨.hbm, 66, rfl⟩
abbrev main_v37 : Ref sig .tc := ⟨.hbm, 67, rfl⟩
abbrev main_v38 : Ref sig .tc := ⟨.hbm, 68, rfl⟩
abbrev main_v39 : Ref sig .tc := ⟨.hbm, 69, rfl⟩
abbrev main_v40 : Ref sig .tc := ⟨.hbm, 70, rfl⟩
abbrev main_v41 : Ref sig .tc := ⟨.hbm, 71, rfl⟩
abbrev main_v42 : Ref sig .tc := ⟨.hbm, 72, rfl⟩
abbrev main_v43 : Ref sig .tc := ⟨.hbm, 73, rfl⟩
abbrev main_v44 : Ref sig .tc := ⟨.hbm, 74, rfl⟩
abbrev main_v45 : Ref sig .tc := ⟨.hbm, 75, rfl⟩
abbrev main_v46 : Ref sig .tc := ⟨.hbm, 76, rfl⟩
abbrev main_v47 : Ref sig .tc := ⟨.hbm, 77, rfl⟩
abbrev main_v48 : Ref sig .tc := ⟨.hbm, 78, rfl⟩
abbrev main_v49 : Ref sig .tc := ⟨.hbm, 79, rfl⟩
abbrev main_v50 : Ref sig .tc := ⟨.hbm, 80, rfl⟩
abbrev main_v51 : Ref sig .tc := ⟨.hbm, 81, rfl⟩
abbrev main_v52 : Ref sig .tc := ⟨.hbm, 82, rfl⟩
abbrev main_v53 : Ref sig .tc := ⟨.hbm, 83, rfl⟩
abbrev main_v54 : Ref sig .tc := ⟨.hbm, 84, rfl⟩
abbrev main_v55 : Ref sig .tc := ⟨.hbm, 85, rfl⟩
abbrev main_v56 : Ref sig .tc := ⟨.hbm, 86, rfl⟩
abbrev main_v57 : Ref sig .tc := ⟨.hbm, 87, rfl⟩
abbrev main_v58 : Ref sig .tc := ⟨.hbm, 88, rfl⟩
abbrev main_v59 : Ref sig .tc := ⟨.hbm, 89, rfl⟩
abbrev main_v60 : Ref sig .tc := ⟨.hbm, 90, rfl⟩
abbrev main_cst_10 : Ref sig .tc := ⟨.hbm, 91, rfl⟩
abbrev main_v61 : Ref sig .tc := ⟨.hbm, 92, rfl⟩
abbrev main_cst_11 : Ref sig .tc := ⟨.hbm, 93, rfl⟩
abbrev main_v62 : Ref sig .tc := ⟨.hbm, 94, rfl⟩
abbrev main_v63 : Ref sig .tc := ⟨.hbm, 95, rfl⟩
abbrev main_v64 : Ref sig .tc := ⟨.hbm, 96, rfl⟩
abbrev main_v65 : Ref sig .tc := ⟨.hbm, 97, rfl⟩
abbrev main_v66 : Ref sig .tc := ⟨.hbm, 98, rfl⟩
abbrev main_v67 : Ref sig .tc := ⟨.hbm, 99, rfl⟩
abbrev main_v68 : Ref sig .tc := ⟨.hbm, 100, rfl⟩
abbrev main_v69 : Ref sig .tc := ⟨.hbm, 101, rfl⟩
abbrev main_c_12 : Ref sig .tc := ⟨.hbm, 102, rfl⟩
abbrev main_v70 : Ref sig .tc := ⟨.hbm, 103, rfl⟩
abbrev main_v71 : Ref sig .tc := ⟨.hbm, 104, rfl⟩
abbrev main_c_13 : Ref sig .tc := ⟨.hbm, 105, rfl⟩
abbrev main_v72 : Ref sig .tc := ⟨.hbm, 106, rfl⟩
abbrev main_v73 : Ref sig .tc := ⟨.hbm, 107, rfl⟩
abbrev main_v74 : Ref sig .tc := ⟨.hbm, 108, rfl⟩
abbrev main_v75 : Ref sig .tc := ⟨.hbm, 109, rfl⟩
abbrev main_v76 : Ref sig .tc := ⟨.hbm, 110, rfl⟩
abbrev main_v77 : Ref sig .tc := ⟨.hbm, 111, rfl⟩
abbrev main_v78 : Ref sig .tc := ⟨.hbm, 112, rfl⟩
abbrev main_v79 : Ref sig .tc := ⟨.hbm, 113, rfl⟩
abbrev main_cst_14 : Ref sig .tc := ⟨.hbm, 114, rfl⟩
abbrev main_v80 : Ref sig .tc := ⟨.hbm, 115, rfl⟩
abbrev main_v81 : Ref sig .tc := ⟨.hbm, 116, rfl⟩
abbrev main_v82 : Ref sig .tc := ⟨.hbm, 117, rfl⟩
abbrev main_cst_15 : Ref sig .tc := ⟨.hbm, 118, rfl⟩
abbrev main_v83 : Ref sig .tc := ⟨.hbm, 119, rfl⟩
abbrev main_cst_16 : Ref sig .tc := ⟨.hbm, 120, rfl⟩
abbrev main_v84 : Ref sig .tc := ⟨.hbm, 121, rfl⟩
abbrev main_cst_17 : Ref sig .tc := ⟨.hbm, 122, rfl⟩
abbrev main_v85 : Ref sig .tc := ⟨.hbm, 123, rfl⟩
abbrev main_v86 : Ref sig .tc := ⟨.hbm, 124, rfl⟩
abbrev main_c_18 : Ref sig .tc := ⟨.hbm, 125, rfl⟩
abbrev main_call0_cst : Ref sig .tc := ⟨.hbm, 126, rfl⟩
abbrev main_call0_v0 : Ref sig .tc := ⟨.hbm, 127, rfl⟩
abbrev main_call0_v1 : Ref sig .tc := ⟨.hbm, 128, rfl⟩
abbrev main_call0_cst_0 : Ref sig .tc := ⟨.hbm, 129, rfl⟩
abbrev main_call0_v2 : Ref sig .tc := ⟨.hbm, 130, rfl⟩
abbrev main_call0_v3 : Ref sig .tc := ⟨.hbm, 131, rfl⟩
abbrev main_call0_v4 : Ref sig .tc := ⟨.hbm, 132, rfl⟩
abbrev main_call0_v5 : Ref sig .tc := ⟨.hbm, 133, rfl⟩
abbrev main_call0_v6 : Ref sig .tc := ⟨.hbm, 134, rfl⟩
abbrev main_call0_v7 : Ref sig .tc := ⟨.hbm, 135, rfl⟩
abbrev main_call0_cst_1 : Ref sig .tc := ⟨.hbm, 136, rfl⟩
abbrev main_call0_v8 : Ref sig .tc := ⟨.hbm, 137, rfl⟩
abbrev main_call0_cst_2 : Ref sig .tc := ⟨.hbm, 138, rfl⟩
abbrev main_call0_v9 : Ref sig .tc := ⟨.hbm, 139, rfl⟩
abbrev main_call0_v10 : Ref sig .tc := ⟨.hbm, 140, rfl⟩
abbrev main_call0_v11 : Ref sig .tc := ⟨.hbm, 141, rfl⟩
abbrev main_call0_cst_3 : Ref sig .tc := ⟨.hbm, 142, rfl⟩
abbrev main_call0_v12 : Ref sig .tc := ⟨.hbm, 143, rfl⟩
abbrev main_call0_cst_4 : Ref sig .tc := ⟨.hbm, 144, rfl⟩
abbrev main_call0_call0_v0 : Ref sig .tc := ⟨.hbm, 145, rfl⟩
abbrev main_call0_call0_v1 : Ref sig .tc := ⟨.hbm, 146, rfl⟩
abbrev main_v87 : Ref sig .tc := ⟨.hbm, 147, rfl⟩
abbrev main_v88 : Ref sig .tc := ⟨.hbm, 148, rfl⟩
abbrev main_v89 : Ref sig .tc := ⟨.hbm, 149, rfl⟩
abbrev main_v90 : Ref sig .tc := ⟨.hbm, 150, rfl⟩
abbrev main_cst_19 : Ref sig .tc := ⟨.hbm, 151, rfl⟩
abbrev main_v91 : Ref sig .tc := ⟨.hbm, 152, rfl⟩
abbrev main_v92 : Ref sig .tc := ⟨.hbm, 153, rfl⟩
abbrev main_v93 : Ref sig .tc := ⟨.hbm, 154, rfl⟩
abbrev main_v94 : Ref sig .tc := ⟨.hbm, 155, rfl⟩
abbrev main_v95 : Ref sig .tc := ⟨.hbm, 156, rfl⟩
abbrev main_v96 : Ref sig .tc := ⟨.hbm, 157, rfl⟩
abbrev main_v97 : Ref sig .tc := ⟨.hbm, 158, rfl⟩
abbrev main_v98 : Ref sig .tc := ⟨.hbm, 159, rfl⟩
abbrev main_v99 : Ref sig .tc := ⟨.hbm, 160, rfl⟩
abbrev main_v100 : Ref sig .tc := ⟨.hbm, 161, rfl⟩
abbrev main_v101 : Ref sig .tc := ⟨.hbm, 162, rfl⟩
abbrev main_v102 : Ref sig .tc := ⟨.hbm, 163, rfl⟩
abbrev main_v103 : Ref sig .tc := ⟨.hbm, 164, rfl⟩
abbrev main_v104 : Ref sig .tc := ⟨.hbm, 165, rfl⟩
abbrev main_v105 : Ref sig .tc := ⟨.hbm, 166, rfl⟩
abbrev main_v106 : Ref sig .tc := ⟨.hbm, 167, rfl⟩
abbrev main_call1_cst : Ref sig .tc := ⟨.hbm, 168, rfl⟩
abbrev main_call1_v0 : Ref sig .tc := ⟨.hbm, 169, rfl⟩
abbrev main_v107 : Ref sig .tc := ⟨.hbm, 170, rfl⟩
abbrev main_v108 : Ref sig .tc := ⟨.hbm, 171, rfl⟩
abbrev main_v109 : Ref sig .tc := ⟨.hbm, 172, rfl⟩
abbrev main_v110 : Ref sig .tc := ⟨.hbm, 173, rfl⟩
abbrev main_v111 : Ref sig .tc := ⟨.hbm, 174, rfl⟩
abbrev main_v112 : Ref sig .tc := ⟨.hbm, 175, rfl⟩
abbrev main_v113 : Ref sig .tc := ⟨.hbm, 176, rfl⟩
abbrev main_v114 : Ref sig .tc := ⟨.hbm, 177, rfl⟩
abbrev main_v115 : Ref sig .tc := ⟨.hbm, 178, rfl⟩
abbrev main_v116 : Ref sig .tc := ⟨.hbm, 179, rfl⟩
abbrev main_v117 : Ref sig .tc := ⟨.hbm, 180, rfl⟩
abbrev main_v118 : Ref sig .tc := ⟨.hbm, 181, rfl⟩
abbrev main_v119 : Ref sig .tc := ⟨.hbm, 182, rfl⟩
abbrev main_v120 : Ref sig .tc := ⟨.hbm, 183, rfl⟩
abbrev main_v121 : Ref sig .tc := ⟨.hbm, 184, rfl⟩
abbrev main_v122 : Ref sig .tc := ⟨.hbm, 185, rfl⟩
abbrev main_v123 : Ref sig .tc := ⟨.hbm, 186, rfl⟩
abbrev main_v124 : Ref sig .tc := ⟨.hbm, 187, rfl⟩
abbrev main_v125 : Ref sig .tc := ⟨.hbm, 188, rfl⟩
abbrev main_v126 : Ref sig .tc := ⟨.hbm, 189, rfl⟩
abbrev main_v127 : Ref sig .tc := ⟨.hbm, 190, rfl⟩
abbrev main_v128 : Ref sig .tc := ⟨.hbm, 191, rfl⟩
abbrev main_v129 : Ref sig .tc := ⟨.hbm, 192, rfl⟩
abbrev main_v130 : Ref sig .tc := ⟨.hbm, 193, rfl⟩
abbrev main_v131 : Ref sig .tc := ⟨.hbm, 194, rfl⟩
abbrev main_cst_20 : Ref sig .tc := ⟨.hbm, 195, rfl⟩
abbrev main_v132 : Ref sig .tc := ⟨.hbm, 196, rfl⟩
abbrev main_cst_21 : Ref sig .tc := ⟨.hbm, 197, rfl⟩
abbrev main_v133 : Ref sig .tc := ⟨.hbm, 198, rfl⟩
abbrev main_v134 : Ref sig .tc := ⟨.hbm, 199, rfl⟩
abbrev main_v135 : Ref sig .tc := ⟨.hbm, 200, rfl⟩
abbrev main_v136 : Ref sig .tc := ⟨.hbm, 201, rfl⟩
abbrev main_v137 : Ref sig .tc := ⟨.hbm, 202, rfl⟩
abbrev main_v138 : Ref sig .tc := ⟨.hbm, 203, rfl⟩
abbrev main_v139 : Ref sig .tc := ⟨.hbm, 204, rfl⟩
abbrev main_v140 : Ref sig .tc := ⟨.hbm, 205, rfl⟩
abbrev main_c_22 : Ref sig .tc := ⟨.hbm, 206, rfl⟩
abbrev main_v141 : Ref sig .tc := ⟨.hbm, 207, rfl⟩
abbrev main_v142 : Ref sig .tc := ⟨.hbm, 208, rfl⟩
abbrev main_c_23 : Ref sig .tc := ⟨.hbm, 209, rfl⟩
abbrev main_v143 : Ref sig .tc := ⟨.hbm, 210, rfl⟩
abbrev main_v144 : Ref sig .tc := ⟨.hbm, 211, rfl⟩
abbrev main_v145 : Ref sig .tc := ⟨.hbm, 212, rfl⟩
abbrev main_v146 : Ref sig .tc := ⟨.hbm, 213, rfl⟩
abbrev main_v147 : Ref sig .tc := ⟨.hbm, 214, rfl⟩
abbrev main_v148 : Ref sig .tc := ⟨.hbm, 215, rfl⟩
abbrev main_v149 : Ref sig .tc := ⟨.hbm, 216, rfl⟩
abbrev main_v150 : Ref sig .tc := ⟨.hbm, 217, rfl⟩
abbrev main_cst_24 : Ref sig .tc := ⟨.hbm, 218, rfl⟩
abbrev main_v151 : Ref sig .tc := ⟨.hbm, 219, rfl⟩
abbrev main_v152 : Ref sig .tc := ⟨.hbm, 220, rfl⟩
abbrev main_v153 : Ref sig .tc := ⟨.hbm, 221, rfl⟩
abbrev main_cst_25 : Ref sig .tc := ⟨.hbm, 222, rfl⟩
abbrev main_v154 : Ref sig .tc := ⟨.hbm, 223, rfl⟩
abbrev main_cst_26 : Ref sig .tc := ⟨.hbm, 224, rfl⟩
abbrev main_v155 : Ref sig .tc := ⟨.hbm, 225, rfl⟩
abbrev main_cst_27 : Ref sig .tc := ⟨.hbm, 226, rfl⟩
abbrev main_v156 : Ref sig .tc := ⟨.hbm, 227, rfl⟩
abbrev main_v157 : Ref sig .tc := ⟨.hbm, 228, rfl⟩
abbrev main_c_28 : Ref sig .tc := ⟨.hbm, 229, rfl⟩
abbrev main_call2_cst : Ref sig .tc := ⟨.hbm, 230, rfl⟩
abbrev main_call2_v0 : Ref sig .tc := ⟨.hbm, 231, rfl⟩
abbrev main_call2_v1 : Ref sig .tc := ⟨.hbm, 232, rfl⟩
abbrev main_call2_cst_0 : Ref sig .tc := ⟨.hbm, 233, rfl⟩
abbrev main_call2_v2 : Ref sig .tc := ⟨.hbm, 234, rfl⟩
abbrev main_call2_v3 : Ref sig .tc := ⟨.hbm, 235, rfl⟩
abbrev main_call2_v4 : Ref sig .tc := ⟨.hbm, 236, rfl⟩
abbrev main_call2_v5 : Ref sig .tc := ⟨.hbm, 237, rfl⟩
abbrev main_call2_v6 : Ref sig .tc := ⟨.hbm, 238, rfl⟩
abbrev main_call2_v7 : Ref sig .tc := ⟨.hbm, 239, rfl⟩
abbrev main_call2_cst_1 : Ref sig .tc := ⟨.hbm, 240, rfl⟩
abbrev main_call2_v8 : Ref sig .tc := ⟨.hbm, 241, rfl⟩
abbrev main_call2_cst_2 : Ref sig .tc := ⟨.hbm, 242, rfl⟩
abbrev main_call2_v9 : Ref sig .tc := ⟨.hbm, 243, rfl⟩
abbrev main_call2_v10 : Ref sig .tc := ⟨.hbm, 244, rfl⟩
abbrev main_call2_v11 : Ref sig .tc := ⟨.hbm, 245, rfl⟩
abbrev main_call2_cst_3 : Ref sig .tc := ⟨.hbm, 246, rfl⟩
abbrev main_call2_v12 : Ref sig .tc := ⟨.hbm, 247, rfl⟩
abbrev main_call2_cst_4 : Ref sig .tc := ⟨.hbm, 248, rfl⟩
abbrev main_call2_call0_v0 : Ref sig .tc := ⟨.hbm, 249, rfl⟩
abbrev main_call2_call0_v1 : Ref sig .tc := ⟨.hbm, 250, rfl⟩
abbrev main_v158 : Ref sig .tc := ⟨.hbm, 251, rfl⟩
abbrev main_v159 : Ref sig .tc := ⟨.hbm, 252, rfl⟩
abbrev main_v160 : Ref sig .tc := ⟨.hbm, 253, rfl⟩
abbrev main_v161 : Ref sig .tc := ⟨.hbm, 254, rfl⟩
abbrev main_cst_29 : Ref sig .tc := ⟨.hbm, 255, rfl⟩
abbrev main_v162 : Ref sig .tc := ⟨.hbm, 256, rfl⟩
abbrev main_v163 : Ref sig .tc := ⟨.hbm, 257, rfl⟩
abbrev main_v164 : Ref sig .tc := ⟨.hbm, 258, rfl⟩
abbrev main_v165 : Ref sig .tc := ⟨.hbm, 259, rfl⟩
abbrev main_v166 : Ref sig .tc := ⟨.hbm, 260, rfl⟩
abbrev main_v167 : Ref sig .tc := ⟨.hbm, 261, rfl⟩
abbrev main_v168 : Ref sig .tc := ⟨.hbm, 262, rfl⟩
abbrev main_v169 : Ref sig .tc := ⟨.hbm, 263, rfl⟩
abbrev main_v170 : Ref sig .tc := ⟨.hbm, 264, rfl⟩
abbrev main_v171 : Ref sig .tc := ⟨.hbm, 265, rfl⟩
abbrev main_v172 : Ref sig .tc := ⟨.hbm, 266, rfl⟩
abbrev main_v173 : Ref sig .tc := ⟨.hbm, 267, rfl⟩
abbrev main_v174 : Ref sig .tc := ⟨.hbm, 268, rfl⟩
abbrev main_v175 : Ref sig .tc := ⟨.hbm, 269, rfl⟩
abbrev main_v176 : Ref sig .tc := ⟨.hbm, 270, rfl⟩
abbrev main_v177 : Ref sig .tc := ⟨.hbm, 271, rfl⟩
abbrev main_call3_cst : Ref sig .tc := ⟨.hbm, 272, rfl⟩
abbrev main_call3_v0 : Ref sig .tc := ⟨.hbm, 273, rfl⟩
abbrev main_v178 : Ref sig .tc := ⟨.hbm, 274, rfl⟩
abbrev main_v179 : Ref sig .tc := ⟨.hbm, 275, rfl⟩
abbrev main_v180 : Ref sig .tc := ⟨.hbm, 276, rfl⟩
abbrev main_v181 : Ref sig .tc := ⟨.hbm, 277, rfl⟩
abbrev main_v182 : Ref sig .tc := ⟨.hbm, 278, rfl⟩
abbrev main_v183 : Ref sig .tc := ⟨.hbm, 279, rfl⟩
abbrev main_v184 : Ref sig .tc := ⟨.hbm, 280, rfl⟩
abbrev main_v185 : Ref sig .tc := ⟨.hbm, 281, rfl⟩
abbrev main_v186 : Ref sig .tc := ⟨.hbm, 282, rfl⟩
abbrev main_v187 : Ref sig .tc := ⟨.hbm, 283, rfl⟩
abbrev main_v188 : Ref sig .tc := ⟨.hbm, 284, rfl⟩
abbrev main_v189 : Ref sig .tc := ⟨.hbm, 285, rfl⟩
abbrev main_v190 : Ref sig .tc := ⟨.hbm, 286, rfl⟩
abbrev main_v191 : Ref sig .tc := ⟨.hbm, 287, rfl⟩
abbrev main_v192 : Ref sig .tc := ⟨.hbm, 288, rfl⟩
abbrev main_v193 : Ref sig .tc := ⟨.hbm, 289, rfl⟩
abbrev main_v194 : Ref sig .tc := ⟨.hbm, 290, rfl⟩
abbrev main_v195 : Ref sig .tc := ⟨.hbm, 291, rfl⟩
abbrev main_v196 : Ref sig .tc := ⟨.hbm, 292, rfl⟩
abbrev main_v197 : Ref sig .tc := ⟨.hbm, 293, rfl⟩
abbrev main_v198 : Ref sig .tc := ⟨.hbm, 294, rfl⟩
abbrev main_v199 : Ref sig .tc := ⟨.hbm, 295, rfl⟩
abbrev main_v200 : Ref sig .tc := ⟨.hbm, 296, rfl⟩
abbrev main_v201 : Ref sig .tc := ⟨.hbm, 297, rfl⟩
abbrev main_v202 : Ref sig .tc := ⟨.hbm, 298, rfl⟩
abbrev main_cst_30 : Ref sig .tc := ⟨.hbm, 299, rfl⟩
abbrev main_v203 : Ref sig .tc := ⟨.hbm, 300, rfl⟩
abbrev main_cst_31 : Ref sig .tc := ⟨.hbm, 301, rfl⟩
abbrev main_v204 : Ref sig .tc := ⟨.hbm, 302, rfl⟩
abbrev main_v205 : Ref sig .tc := ⟨.hbm, 303, rfl⟩
abbrev main_v206 : Ref sig .tc := ⟨.hbm, 304, rfl⟩
abbrev main_v207 : Ref sig .tc := ⟨.hbm, 305, rfl⟩
abbrev main_v208 : Ref sig .tc := ⟨.hbm, 306, rfl⟩
abbrev main_v209 : Ref sig .tc := ⟨.hbm, 307, rfl⟩
abbrev main_v210 : Ref sig .tc := ⟨.hbm, 308, rfl⟩
abbrev main_v211 : Ref sig .tc := ⟨.hbm, 309, rfl⟩
abbrev main_c_32 : Ref sig .tc := ⟨.hbm, 310, rfl⟩
abbrev main_v212 : Ref sig .tc := ⟨.hbm, 311, rfl⟩
abbrev main_v213 : Ref sig .tc := ⟨.hbm, 312, rfl⟩
abbrev main_c_33 : Ref sig .tc := ⟨.hbm, 313, rfl⟩
abbrev main_v214 : Ref sig .tc := ⟨.hbm, 314, rfl⟩
abbrev main_v215 : Ref sig .tc := ⟨.hbm, 315, rfl⟩
abbrev main_v216 : Ref sig .tc := ⟨.hbm, 316, rfl⟩
abbrev main_v217 : Ref sig .tc := ⟨.hbm, 317, rfl⟩
abbrev main_v218 : Ref sig .tc := ⟨.hbm, 318, rfl⟩
abbrev main_v219 : Ref sig .tc := ⟨.hbm, 319, rfl⟩
abbrev main_v220 : Ref sig .tc := ⟨.hbm, 320, rfl⟩
abbrev main_v221 : Ref sig .tc := ⟨.hbm, 321, rfl⟩
abbrev main_cst_34 : Ref sig .tc := ⟨.hbm, 322, rfl⟩
abbrev main_v222 : Ref sig .tc := ⟨.hbm, 323, rfl⟩
abbrev main_v223 : Ref sig .tc := ⟨.hbm, 324, rfl⟩
abbrev main_v224 : Ref sig .tc := ⟨.hbm, 325, rfl⟩
abbrev main_cst_35 : Ref sig .tc := ⟨.hbm, 326, rfl⟩
abbrev main_v225 : Ref sig .tc := ⟨.hbm, 327, rfl⟩
abbrev main_cst_36 : Ref sig .tc := ⟨.hbm, 328, rfl⟩
abbrev main_v226 : Ref sig .tc := ⟨.hbm, 329, rfl⟩
abbrev main_cst_37 : Ref sig .tc := ⟨.hbm, 330, rfl⟩
abbrev main_v227 : Ref sig .tc := ⟨.hbm, 331, rfl⟩
abbrev main_v228 : Ref sig .tc := ⟨.hbm, 332, rfl⟩
abbrev main_c_38 : Ref sig .tc := ⟨.hbm, 333, rfl⟩
abbrev main_call4_cst : Ref sig .tc := ⟨.hbm, 334, rfl⟩
abbrev main_call4_v0 : Ref sig .tc := ⟨.hbm, 335, rfl⟩
abbrev main_call4_v1 : Ref sig .tc := ⟨.hbm, 336, rfl⟩
abbrev main_call4_cst_0 : Ref sig .tc := ⟨.hbm, 337, rfl⟩
abbrev main_call4_v2 : Ref sig .tc := ⟨.hbm, 338, rfl⟩
abbrev main_call4_v3 : Ref sig .tc := ⟨.hbm, 339, rfl⟩
abbrev main_call4_v4 : Ref sig .tc := ⟨.hbm, 340, rfl⟩
abbrev main_call4_v5 : Ref sig .tc := ⟨.hbm, 341, rfl⟩
abbrev main_call4_v6 : Ref sig .tc := ⟨.hbm, 342, rfl⟩
abbrev main_call4_v7 : Ref sig .tc := ⟨.hbm, 343, rfl⟩
abbrev main_call4_cst_1 : Ref sig .tc := ⟨.hbm, 344, rfl⟩
abbrev main_call4_v8 : Ref sig .tc := ⟨.hbm, 345, rfl⟩
abbrev main_call4_cst_2 : Ref sig .tc := ⟨.hbm, 346, rfl⟩
abbrev main_call4_v9 : Ref sig .tc := ⟨.hbm, 347, rfl⟩
abbrev main_call4_v10 : Ref sig .tc := ⟨.hbm, 348, rfl⟩
abbrev main_call4_v11 : Ref sig .tc := ⟨.hbm, 349, rfl⟩
abbrev main_call4_cst_3 : Ref sig .tc := ⟨.hbm, 350, rfl⟩
abbrev main_call4_v12 : Ref sig .tc := ⟨.hbm, 351, rfl⟩
abbrev main_call4_cst_4 : Ref sig .tc := ⟨.hbm, 352, rfl⟩
abbrev main_call4_call0_v0 : Ref sig .tc := ⟨.hbm, 353, rfl⟩
abbrev main_call4_call0_v1 : Ref sig .tc := ⟨.hbm, 354, rfl⟩
abbrev main_v229 : Ref sig .tc := ⟨.hbm, 355, rfl⟩
abbrev main_v230 : Ref sig .tc := ⟨.hbm, 356, rfl⟩
abbrev main_v231 : Ref sig .tc := ⟨.hbm, 357, rfl⟩
abbrev main_v232 : Ref sig .tc := ⟨.hbm, 358, rfl⟩
abbrev main_cst_39 : Ref sig .tc := ⟨.hbm, 359, rfl⟩
abbrev main_v233 : Ref sig .tc := ⟨.hbm, 360, rfl⟩
abbrev main_v234 : Ref sig .tc := ⟨.hbm, 361, rfl⟩
abbrev main_v235 : Ref sig .tc := ⟨.hbm, 362, rfl⟩
abbrev main_v236 : Ref sig .tc := ⟨.hbm, 363, rfl⟩
abbrev main_v237 : Ref sig .tc := ⟨.hbm, 364, rfl⟩
abbrev main_v238 : Ref sig .tc := ⟨.hbm, 365, rfl⟩
abbrev main_v239 : Ref sig .tc := ⟨.hbm, 366, rfl⟩
abbrev main_v240 : Ref sig .tc := ⟨.hbm, 367, rfl⟩
abbrev main_v241 : Ref sig .tc := ⟨.hbm, 368, rfl⟩
abbrev main_v242 : Ref sig .tc := ⟨.hbm, 369, rfl⟩
abbrev main_v243 : Ref sig .tc := ⟨.hbm, 370, rfl⟩
abbrev main_v244 : Ref sig .tc := ⟨.hbm, 371, rfl⟩
abbrev main_v245 : Ref sig .tc := ⟨.hbm, 372, rfl⟩
abbrev main_v246 : Ref sig .tc := ⟨.hbm, 373, rfl⟩
abbrev main_v247 : Ref sig .tc := ⟨.hbm, 374, rfl⟩
abbrev main_v248 : Ref sig .tc := ⟨.hbm, 375, rfl⟩
abbrev main_call5_cst : Ref sig .tc := ⟨.hbm, 376, rfl⟩
abbrev main_call5_v0 : Ref sig .tc := ⟨.hbm, 377, rfl⟩
abbrev main_v249 : Ref sig .tc := ⟨.hbm, 378, rfl⟩
abbrev main_v250 : Ref sig .tc := ⟨.hbm, 379, rfl⟩
abbrev main_v251 : Ref sig .tc := ⟨.hbm, 380, rfl⟩
abbrev main_v252 : Ref sig .tc := ⟨.hbm, 381, rfl⟩
abbrev main_v253 : Ref sig .tc := ⟨.hbm, 382, rfl⟩
abbrev main_v254 : Ref sig .tc := ⟨.hbm, 383, rfl⟩
abbrev main_v255 : Ref sig .tc := ⟨.hbm, 384, rfl⟩
abbrev main_v256 : Ref sig .tc := ⟨.hbm, 385, rfl⟩
abbrev main_v257 : Ref sig .tc := ⟨.hbm, 386, rfl⟩
abbrev main_v258 : Ref sig .tc := ⟨.hbm, 387, rfl⟩
abbrev main_v259 : Ref sig .tc := ⟨.hbm, 388, rfl⟩
abbrev main_v260 : Ref sig .tc := ⟨.hbm, 389, rfl⟩
abbrev main_v261 : Ref sig .tc := ⟨.hbm, 390, rfl⟩
abbrev main_v262 : Ref sig .tc := ⟨.hbm, 391, rfl⟩
abbrev main_v263 : Ref sig .tc := ⟨.hbm, 392, rfl⟩
abbrev main_v264 : Ref sig .tc := ⟨.hbm, 393, rfl⟩
abbrev main_v265 : Ref sig .tc := ⟨.hbm, 394, rfl⟩
abbrev main_v266 : Ref sig .tc := ⟨.hbm, 395, rfl⟩
abbrev main_v267 : Ref sig .tc := ⟨.hbm, 396, rfl⟩
abbrev main_v268 : Ref sig .tc := ⟨.hbm, 397, rfl⟩
abbrev main_v269 : Ref sig .tc := ⟨.hbm, 398, rfl⟩
abbrev main_v270 : Ref sig .tc := ⟨.hbm, 399, rfl⟩
abbrev main_v271 : Ref sig .tc := ⟨.hbm, 400, rfl⟩
abbrev main_v272 : Ref sig .tc := ⟨.hbm, 401, rfl⟩
abbrev main_v273 : Ref sig .tc := ⟨.hbm, 402, rfl⟩
abbrev main_cst_40 : Ref sig .tc := ⟨.hbm, 403, rfl⟩
abbrev main_v274 : Ref sig .tc := ⟨.hbm, 404, rfl⟩
abbrev main_cst_41 : Ref sig .tc := ⟨.hbm, 405, rfl⟩
abbrev main_v275 : Ref sig .tc := ⟨.hbm, 406, rfl⟩
abbrev main_v276 : Ref sig .tc := ⟨.hbm, 407, rfl⟩
abbrev main_v277 : Ref sig .tc := ⟨.hbm, 408, rfl⟩
abbrev main_v278 : Ref sig .tc := ⟨.hbm, 409, rfl⟩
abbrev main_v279 : Ref sig .tc := ⟨.hbm, 410, rfl⟩
abbrev main_v280 : Ref sig .tc := ⟨.hbm, 411, rfl⟩
abbrev main_v281 : Ref sig .tc := ⟨.hbm, 412, rfl⟩
abbrev main_v282 : Ref sig .tc := ⟨.hbm, 413, rfl⟩
abbrev main_c_42 : Ref sig .tc := ⟨.hbm, 414, rfl⟩
abbrev main_v283 : Ref sig .tc := ⟨.hbm, 415, rfl⟩
abbrev main_v284 : Ref sig .tc := ⟨.hbm, 416, rfl⟩
abbrev main_c_43 : Ref sig .tc := ⟨.hbm, 417, rfl⟩
abbrev main_v285 : Ref sig .tc := ⟨.hbm, 418, rfl⟩
abbrev main_v286 : Ref sig .tc := ⟨.hbm, 419, rfl⟩
abbrev main_v287 : Ref sig .tc := ⟨.hbm, 420, rfl⟩
abbrev main_v288 : Ref sig .tc := ⟨.hbm, 421, rfl⟩
abbrev main_v289 : Ref sig .tc := ⟨.hbm, 422, rfl⟩
abbrev main_v290 : Ref sig .tc := ⟨.hbm, 423, rfl⟩
abbrev main_v291 : Ref sig .tc := ⟨.hbm, 424, rfl⟩
abbrev main_v292 : Ref sig .tc := ⟨.hbm, 425, rfl⟩
abbrev main_cst_44 : Ref sig .tc := ⟨.hbm, 426, rfl⟩
abbrev main_v293 : Ref sig .tc := ⟨.hbm, 427, rfl⟩
abbrev main_v294 : Ref sig .tc := ⟨.hbm, 428, rfl⟩
abbrev main_v295 : Ref sig .tc := ⟨.hbm, 429, rfl⟩
abbrev main_cst_45 : Ref sig .tc := ⟨.hbm, 430, rfl⟩
abbrev main_v296 : Ref sig .tc := ⟨.hbm, 431, rfl⟩
abbrev main_cst_46 : Ref sig .tc := ⟨.hbm, 432, rfl⟩
abbrev main_v297 : Ref sig .tc := ⟨.hbm, 433, rfl⟩
abbrev main_cst_47 : Ref sig .tc := ⟨.hbm, 434, rfl⟩
abbrev main_v298 : Ref sig .tc := ⟨.hbm, 435, rfl⟩
abbrev main_v299 : Ref sig .tc := ⟨.hbm, 436, rfl⟩
abbrev main_c_48 : Ref sig .tc := ⟨.hbm, 437, rfl⟩
abbrev main_call6_cst : Ref sig .tc := ⟨.hbm, 438, rfl⟩
abbrev main_call6_v0 : Ref sig .tc := ⟨.hbm, 439, rfl⟩
abbrev main_call6_v1 : Ref sig .tc := ⟨.hbm, 440, rfl⟩
abbrev main_call6_cst_0 : Ref sig .tc := ⟨.hbm, 441, rfl⟩
abbrev main_call6_v2 : Ref sig .tc := ⟨.hbm, 442, rfl⟩
abbrev main_call6_v3 : Ref sig .tc := ⟨.hbm, 443, rfl⟩
abbrev main_call6_v4 : Ref sig .tc := ⟨.hbm, 444, rfl⟩
abbrev main_call6_v5 : Ref sig .tc := ⟨.hbm, 445, rfl⟩
abbrev main_call6_v6 : Ref sig .tc := ⟨.hbm, 446, rfl⟩
abbrev main_call6_v7 : Ref sig .tc := ⟨.hbm, 447, rfl⟩
abbrev main_call6_cst_1 : Ref sig .tc := ⟨.hbm, 448, rfl⟩
abbrev main_call6_v8 : Ref sig .tc := ⟨.hbm, 449, rfl⟩
abbrev main_call6_cst_2 : Ref sig .tc := ⟨.hbm, 450, rfl⟩
abbrev main_call6_v9 : Ref sig .tc := ⟨.hbm, 451, rfl⟩
abbrev main_call6_v10 : Ref sig .tc := ⟨.hbm, 452, rfl⟩
abbrev main_call6_v11 : Ref sig .tc := ⟨.hbm, 453, rfl⟩
abbrev main_call6_cst_3 : Ref sig .tc := ⟨.hbm, 454, rfl⟩
abbrev main_call6_v12 : Ref sig .tc := ⟨.hbm, 455, rfl⟩
abbrev main_call6_cst_4 : Ref sig .tc := ⟨.hbm, 456, rfl⟩
abbrev main_call6_call0_v0 : Ref sig .tc := ⟨.hbm, 457, rfl⟩
abbrev main_call6_call0_v1 : Ref sig .tc := ⟨.hbm, 458, rfl⟩
abbrev main_v300 : Ref sig .tc := ⟨.hbm, 459, rfl⟩
abbrev main_v301 : Ref sig .tc := ⟨.hbm, 460, rfl⟩
abbrev main_v302 : Ref sig .tc := ⟨.hbm, 461, rfl⟩
abbrev main_v303 : Ref sig .tc := ⟨.hbm, 462, rfl⟩
abbrev main_cst_49 : Ref sig .tc := ⟨.hbm, 463, rfl⟩
abbrev main_v304 : Ref sig .tc := ⟨.hbm, 464, rfl⟩
abbrev main_v305 : Ref sig .tc := ⟨.hbm, 465, rfl⟩
abbrev main_v306 : Ref sig .tc := ⟨.hbm, 466, rfl⟩
abbrev main_v307 : Ref sig .tc := ⟨.hbm, 467, rfl⟩
abbrev main_v308 : Ref sig .tc := ⟨.hbm, 468, rfl⟩
abbrev main_v309 : Ref sig .tc := ⟨.hbm, 469, rfl⟩
abbrev main_v310 : Ref sig .tc := ⟨.hbm, 470, rfl⟩
abbrev main_v311 : Ref sig .tc := ⟨.hbm, 471, rfl⟩
abbrev main_v312 : Ref sig .tc := ⟨.hbm, 472, rfl⟩
abbrev main_v313 : Ref sig .tc := ⟨.hbm, 473, rfl⟩
abbrev main_v314 : Ref sig .tc := ⟨.hbm, 474, rfl⟩
abbrev main_v315 : Ref sig .tc := ⟨.hbm, 475, rfl⟩
abbrev main_v316 : Ref sig .tc := ⟨.hbm, 476, rfl⟩
abbrev main_v317 : Ref sig .tc := ⟨.hbm, 477, rfl⟩
abbrev main_v318 : Ref sig .tc := ⟨.hbm, 478, rfl⟩
abbrev main_v319 : Ref sig .tc := ⟨.hbm, 479, rfl⟩
abbrev main_call7_cst : Ref sig .tc := ⟨.hbm, 480, rfl⟩
abbrev main_call7_v0 : Ref sig .tc := ⟨.hbm, 481, rfl⟩
abbrev main_v320 : Ref sig .tc := ⟨.hbm, 482, rfl⟩
abbrev main_v321 : Ref sig .tc := ⟨.hbm, 483, rfl⟩
abbrev main_cst_50 : Ref sig .tc := ⟨.hbm, 484, rfl⟩
abbrev main_v322 : Ref sig .tc := ⟨.hbm, 485, rfl⟩
abbrev main_cst_51 : Ref sig .tc := ⟨.hbm, 486, rfl⟩
abbrev main_v323 : Ref sig .tc := ⟨.hbm, 487, rfl⟩
abbrev main_v324 : Ref sig .tc := ⟨.hbm, 488, rfl⟩
abbrev main_v325 : Ref sig .tc := ⟨.hbm, 489, rfl⟩
abbrev main_cst_52 : Ref sig .tc := ⟨.hbm, 490, rfl⟩
abbrev main_v326 : Ref sig .tc := ⟨.hbm, 491, rfl⟩
abbrev main_v327 : Ref sig .tc := ⟨.hbm, 492, rfl⟩
abbrev main_cst_53 : Ref sig .tc := ⟨.hbm, 493, rfl⟩
abbrev main_v328 : Ref sig .tc := ⟨.hbm, 494, rfl⟩
abbrev main_v329 : Ref sig .tc := ⟨.hbm, 495, rfl⟩
abbrev main_v330 : Ref sig .tc := ⟨.hbm, 496, rfl⟩
abbrev main_v331 : Ref sig .tc := ⟨.hbm, 497, rfl⟩
abbrev main_v332 : Ref sig .tc := ⟨.hbm, 498, rfl⟩
abbrev main_v333 : Ref sig .tc := ⟨.hbm, 499, rfl⟩
abbrev main_v334 : Ref sig .tc := ⟨.hbm, 500, rfl⟩
abbrev main_v335 : Ref sig .tc := ⟨.hbm, 501, rfl⟩
abbrev main_v336 : Ref sig .tc := ⟨.hbm, 502, rfl⟩
abbrev main_v337 : Ref sig .tc := ⟨.hbm, 503, rfl⟩
abbrev main_v338 : Ref sig .tc := ⟨.hbm, 504, rfl⟩
abbrev main_call8_cst : Ref sig .tc := ⟨.hbm, 505, rfl⟩
abbrev main_call8_v0 : Ref sig .tc := ⟨.hbm, 506, rfl⟩
abbrev main_v339 : Ref sig .tc := ⟨.hbm, 507, rfl⟩
abbrev main_v340 : Ref sig .tc := ⟨.hbm, 508, rfl⟩
abbrev main_v341 : Ref sig .tc := ⟨.hbm, 509, rfl⟩
abbrev main_v342 : Ref sig .tc := ⟨.hbm, 510, rfl⟩
abbrev main_v343 : Ref sig .tc := ⟨.hbm, 511, rfl⟩
abbrev main_v344 : Ref sig .tc := ⟨.hbm, 512, rfl⟩
abbrev main_call9_cst : Ref sig .tc := ⟨.hbm, 513, rfl⟩
abbrev main_call9_v0 : Ref sig .tc := ⟨.hbm, 514, rfl⟩
abbrev main_v345 : Ref sig .tc := ⟨.hbm, 515, rfl⟩
abbrev main_v346 : Ref sig .tc := ⟨.hbm, 516, rfl⟩
abbrev main_v347 : Ref sig .tc := ⟨.hbm, 517, rfl⟩
abbrev main_v348 : Ref sig .tc := ⟨.hbm, 518, rfl⟩
abbrev main_v349 : Ref sig .tc := ⟨.hbm, 519, rfl⟩
abbrev main_v350 : Ref sig .tc := ⟨.hbm, 520, rfl⟩

abbrev nD : Nat := 1
abbrev τ : Topo := Topo.v7x

variable {F : FTy → Type} [FloatOps F]

class Facts₀ : Prop where
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  concatenates_S800000x1_S800000x1_S800000x2_d1 : Shape.Concatenates [S800000x1, S800000x1] S800000x2 1
  bcast_S50000_S50000x1_0 : S50000.BroadcastsInDim S50000x1 (![0] : Fin 1 → Fin S50000x1.rank)
  slices_S4x2x2_S1x2x2_0_0_0 : S4x2x2.Slices ![0, 0, 0] S1x2x2
  shapeCasts_S1x2x2_S2x2 : S1x2x2.ShapeCasts S2x2
  transposes_S2x2_S2x2_1_0 : S2x2.Transposes [1, 0] S2x2
  slices_S4x2_S1x2_0_0 : S4x2.Slices ![0, 0] S1x2
  shapeCasts_S1x2_S2 : S1x2.ShapeCasts S2
  bcast_S2_S1x2_1 : S2.BroadcastsInDim S1x2 (![1] : Fin 1 → Fin S1x2.rank)
  bcast_S1x2_S800000x2_0_1 : S1x2.BroadcastsInDim S800000x2 (![0, 1] : Fin 2 → Fin S800000x2.rank)
  bcast_S800000x2_S800000x1x2_0_2 : S800000x2.BroadcastsInDim S800000x1x2 (![0, 2] : Fin 2 → Fin S800000x1x2.rank)
  slices_S4x3x2_S1x3x2_0_0_0 : S4x3x2.Slices ![0, 0, 0] S1x3x2
  shapeCasts_S1x3x2_S3x2 : S1x3x2.ShapeCasts S3x2
  bcast_S3x2_S1x3x2_1_2 : S3x2.BroadcastsInDim S1x3x2 (![1, 2] : Fin 2 → Fin S1x3x2.rank)
  bcast_S800000x1x2_S800000x3x2_0_1_2 : S800000x1x2.BroadcastsInDim S800000x3x2 (![0, 1, 2] : Fin 3 → Fin S800000x3x2.rank)
  bcast_S1x3x2_S800000x3x2_0_1_2 : S1x3x2.BroadcastsInDim S800000x3x2 (![0, 1, 2] : Fin 3 → Fin S800000x3x2.rank)
  reducesTo_S800000x3x2_S800000x3_d2 : S800000x3x2.ReducesTo [2] S800000x3
  h_S_ : 0 < S_.numel
  bcast_S_S800000x3 : S_.BroadcastsInDim S800000x3 (![] : Fin 0 → Fin S800000x3.rank)
  slices_S4x192x64_S1x192x64_0_0_0 : S4x192x64.Slices ![0, 0, 0] S1x192x64
  shapeCasts_S1x192x64_S192x64 : S1x192x64.ShapeCasts S192x64
  transposes_S192x64_S64x192_1_0 : S192x64.Transposes [1, 0] S64x192
  shapeCasts_S50000x192_S50000x3x64 : S50000x192.ShapeCasts S50000x3x64
  bcast_S800000x3_S800000x3x1_0_1 : S800000x3.BroadcastsInDim S800000x3x1 (![0, 1] : Fin 2 → Fin S800000x3x1.rank)
  bcast_S800000x3x1_S800000x3x64_0_1_2 : S800000x3x1.BroadcastsInDim S800000x3x64 (![0, 1, 2] : Fin 3 → Fin S800000x3x64.rank)
  bcast_S_S50000x3x64 : S_.BroadcastsInDim S50000x3x64 (![] : Fin 0 → Fin S50000x3x64.rank)
  reducesTo_S50000x3x64_S50000x64_d1 : S50000x3x64.ReducesTo [1] S50000x64
  reducesTo_S50000x64_S64_d0 : S50000x64.ReducesTo [0] S64
  bcast_S_S64 : S_.BroadcastsInDim S64 (![] : Fin 0 → Fin S64.rank)
  bcast_S64_S1x64_1 : S64.BroadcastsInDim S1x64 (![1] : Fin 1 → Fin S1x64.rank)
  bcast_S_S1x64 : S_.BroadcastsInDim S1x64 (![] : Fin 0 → Fin S1x64.rank)
  bcast_S1x64_S50000x64_0_1 : S1x64.BroadcastsInDim S50000x64 (![0, 1] : Fin 2 → Fin S50000x64.rank)
  slices_S4x64_S1x64_0_0 : S4x64.Slices ![0, 0] S1x64
  shapeCasts_S1x64_S64 : S1x64.ShapeCasts S64
  bcast_S_S50000x64 : S_.BroadcastsInDim S50000x64 (![] : Fin 0 → Fin S50000x64.rank)
  slices_S4x2x2_S1x2x2_1_0_0 : S4x2x2.Slices ![1, 0, 0] S1x2x2
  slices_S4x2_S1x2_1_0 : S4x2.Slices ![1, 0] S1x2
  slices_S4x3x2_S1x3x2_1_0_0 : S4x3x2.Slices ![1, 0, 0] S1x3x2
  slices_S4x192x64_S1x192x64_1_0_0 : S4x192x64.Slices ![1, 0, 0] S1x192x64
  slices_S4x64_S1x64_1_0 : S4x64.Slices ![1, 0] S1x64
  slices_S4x2x2_S1x2x2_2_0_0 : S4x2x2.Slices ![2, 0, 0] S1x2x2
  slices_S4x2_S1x2_2_0 : S4x2.Slices ![2, 0] S1x2
  slices_S4x3x2_S1x3x2_2_0_0 : S4x3x2.Slices ![2, 0, 0] S1x3x2
  slices_S4x192x64_S1x192x64_2_0_0 : S4x192x64.Slices ![2, 0, 0] S1x192x64
  slices_S4x64_S1x64_2_0 : S4x64.Slices ![2, 0] S1x64
  slices_S4x2x2_S1x2x2_3_0_0 : S4x2x2.Slices ![3, 0, 0] S1x2x2
  slices_S4x2_S1x2_3_0 : S4x2.Slices ![3, 0] S1x2
  slices_S4x3x2_S1x3x2_3_0_0 : S4x3x2.Slices ![3, 0, 0] S1x3x2
  slices_S4x192x64_S1x192x64_3_0_0 : S4x192x64.Slices ![3, 0, 0] S1x192x64
  slices_S4x64_S1x64_3_0 : S4x64.Slices ![3, 0] S1x64
  bcast_S_S256 : S_.BroadcastsInDim S256 (![] : Fin 0 → Fin S256.rank)
  bcast_S_S256x64 : S_.BroadcastsInDim S256x64 (![] : Fin 0 → Fin S256x64.rank)
  bcast_S256_S256x1_0 : S256.BroadcastsInDim S256x1 (![0] : Fin 1 → Fin S256x1.rank)
  bcast_S256x1_S256x64_0_1 : S256x1.BroadcastsInDim S256x64 (![0, 1] : Fin 2 → Fin S256x64.rank)
  transposes_S32x64_S64x32_1_0 : S32x64.Transposes [1, 0] S64x32
  bcast_S32_S1x32_1 : S32.BroadcastsInDim S1x32 (![1] : Fin 1 → Fin S1x32.rank)
  bcast_S1x32_S256x32_0_1 : S1x32.BroadcastsInDim S256x32 (![0, 1] : Fin 2 → Fin S256x32.rank)
  bcast_S_S256x32 : S_.BroadcastsInDim S256x32 (![] : Fin 0 → Fin S256x32.rank)
  transposes_S16x32_S32x16_1_0 : S16x32.Transposes [1, 0] S32x16
  bcast_S16_S1x16_1 : S16.BroadcastsInDim S1x16 (![1] : Fin 1 → Fin S1x16.rank)
  bcast_S1x16_S256x16_0_1 : S1x16.BroadcastsInDim S256x16 (![0, 1] : Fin 2 → Fin S256x16.rank)
  bcast_S_S256x16 : S_.BroadcastsInDim S256x16 (![] : Fin 0 → Fin S256x16.rank)
  transposes_S1x16_S16x1_1_0 : S1x16.Transposes [1, 0] S16x1
  bcast_S1_S1x1_1 : S1.BroadcastsInDim S1x1 (![1] : Fin 1 → Fin S1x1.rank)
  bcast_S1x1_S256x1_0_1 : S1x1.BroadcastsInDim S256x1 (![0, 1] : Fin 2 → Fin S256x1.rank)
  scatter_S50000_S800000x1_S800000_n_0_0_1_wf : ScatterDims.WF S50000 S800000x1 S800000 [] [0] [0] 1
  gather_S50000_S800000x1_S800000_n_0_n_n_0_1_1_wf : GatherDims.WF S50000 S800000x1 S800000 [] [0] [] [0] [] 1 ![1]
  gather_S28x64_S50000x1_S50000x64_1_0_n_n_0_1_164_wf : GatherDims.WF S28x64 S50000x1 S50000x64 [1] [0] [] [0] [] 1 ![1, 64]
  dot_S800000x2_S2x2_S800000x2_1_0_0_1_n_n_wf : DotDims.WF S800000x2 S2x2 S800000x2 [1] [0] [0] [1] [] []
  dot_S50000x64_S64x192_S50000x192_1_0_0_1_n_n_wf : DotDims.WF S50000x64 S64x192 S50000x192 [1] [0] [0] [1] [] []
  gather_S50000x3x64_S800000x1_S800000x3x64_12_0_n_n_0_1_1364_wf : GatherDims.WF S50000x3x64 S800000x1 S800000x3x64 [1, 2] [0] [] [0] [] 1 ![1, 3, 64]
  scatter_S50000x3x64_S800000x1_S800000x3x64_12_0_0_1_wf : ScatterDims.WF S50000x3x64 S800000x1 S800000x3x64 [1, 2] [0] [0] 1
  scatter_S256_S50000x1_S50000_n_0_0_1_wf : ScatterDims.WF S256 S50000x1 S50000 [] [0] [0] 1
  scatter_S256x64_S50000x1_S50000x64_1_0_0_1_wf : ScatterDims.WF S256x64 S50000x1 S50000x64 [1] [0] [0] 1
  dot_S256x64_S64x32_S256x32_1_0_0_1_n_n_wf : DotDims.WF S256x64 S64x32 S256x32 [1] [0] [0] [1] [] []
  dot_S256x32_S32x16_S256x16_1_0_0_1_n_n_wf : DotDims.WF S256x32 S32x16 S256x16 [1] [0] [0] [1] [] []
  dot_S256x16_S16x1_S256x1_1_0_0_1_n_n_wf : DotDims.WF S256x16 S16x1 S256x1 [1] [0] [0] [1] [] []

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000_S800000x1_S800000_n_0_n_n_0_1_1 : GatherDims S50000 S800000x1 S800000 where
  offsetDims := []
  collapsedSliceDims := [0]
  operandBatchingDims := []
  startIndicesBatchingDims := []
  startIndexMap := [0]
  indexVectorDim := 1
  sliceSizes := ![1]
  wf := gather_S50000_S800000x1_S800000_n_0_n_n_0_1_1_wf
def gather_S28x64_S50000x1_S50000x64_1_0_n_n_0_1_164 : GatherDims S28x64 S50000x1 S50000x64 where
  offsetDims := [1]
  collapsedSliceDims := [0]
  operandBatchingDims := []
  startIndicesBatchingDims := []
  startIndexMap := [0]
  indexVectorDim := 1
  sliceSizes := ![1, 64]
  wf := gather_S28x64_S50000x1_S50000x64_1_0_n_n_0_1_164_wf
def dot_S800000x2_S2x2_S800000x2_1_0_0_1_n_n : DotDims S800000x2 S2x2 S800000x2 where
  lhsContracting := [1]
  rhsContracting := [0]
  lhsNonContracting := [0]
  rhsNonContracting := [1]
  lhsBatch := []
  rhsBatch := []
  wf := dot_S800000x2_S2x2_S800000x2_1_0_0_1_n_n_wf
def dot_S50000x64_S64x192_S50000x192_1_0_0_1_n_n : DotDims S50000x64 S64x192 S50000x192 where
  lhsContracting := [1]
  rhsContracting := [0]
  lhsNonContracting := [0]
  rhsNonContracting := [1]
  lhsBatch := []
  rhsBatch := []
  wf := dot_S50000x64_S64x192_S50000x192_1_0_0_1_n_n_wf
def gather_S50000x3x64_S800000x1_S800000x3x64_12_0_n_n_0_1_1364 : GatherDims S50000x3x64 S800000x1 S800000x3x64 where
  offsetDims := [1, 2]
  collapsedSliceDims := [0]
  operandBatchingDims := []
  startIndicesBatchingDims := []
  startIndexMap := [0]
  indexVectorDim := 1
  sliceSizes := ![1, 3, 64]
  wf := gather_S50000x3x64_S800000x1_S800000x3x64_12_0_n_n_0_1_1364_wf
def scatter_S50000x3x64_S800000x1_S800000x3x64_12_0_0_1 : ScatterDims S50000x3x64 S800000x1 S800000x3x64 where
  updateWindowDims := [1, 2]
  insertedWindowDims := [0]
  scatterDimsToOperandDims := [0]
  indexVectorDim := 1
  wf := scatter_S50000x3x64_S800000x1_S800000x3x64_12_0_0_1_wf
def scatter_S256_S50000x1_S50000_n_0_0_1 : ScatterDims S256 S50000x1 S50000 where
  updateWindowDims := []
  insertedWindowDims := [0]
  scatterDimsToOperandDims := [0]
  indexVectorDim := 1
  wf := scatter_S256_S50000x1_S50000_n_0_0_1_wf
def scatter_S256x64_S50000x1_S50000x64_1_0_0_1 : ScatterDims S256x64 S50000x1 S50000x64 where
  updateWindowDims := [1]
  insertedWindowDims := [0]
  scatterDimsToOperandDims := [0]
  indexVectorDim := 1
  wf := scatter_S256x64_S50000x1_S50000x64_1_0_0_1_wf
def dot_S256x64_S64x32_S256x32_1_0_0_1_n_n : DotDims S256x64 S64x32 S256x32 where
  lhsContracting := [1]
  rhsContracting := [0]
  lhsNonContracting := [0]
  rhsNonContracting := [1]
  lhsBatch := []
  rhsBatch := []
  wf := dot_S256x64_S64x32_S256x32_1_0_0_1_n_n_wf
def dot_S256x32_S32x16_S256x16_1_0_0_1_n_n : DotDims S256x32 S32x16 S256x16 where
  lhsContracting := [1]
  rhsContracting := [0]
  lhsNonContracting := [0]
  rhsNonContracting := [1]
  lhsBatch := []
  rhsBatch := []
  wf := dot_S256x32_S32x16_S256x16_1_0_0_1_n_n_wf
def dot_S256x16_S16x1_S256x1_1_0_0_1_n_n : DotDims S256x16 S16x1 S256x1 where
  lhsContracting := [1]
  rhsContracting := [0]
  lhsNonContracting := [0]
  rhsNonContracting := [1]
  lhsBatch := []
  rhsBatch := []
  wf := dot_S256x16_S16x1_S256x1_1_0_0_1_n_n_wf

class Facts : Prop extends Facts₀ where

variable [Facts]
-- ==== Proof.RefRun.lean ====
/- The reference program's run. @main's operations are written as a list: seven lists, one per window of
   @main, a called function's operations standing in its call's place over that call's record of buffers (a
   call of the variance function holds a call of the select function: both are unfolded where they stand).
   Each window is its list run in order, @main is the seven in a row, and from any memory with zero counters
   every weakly fair execution of @main terminates with every buffer of every core at the fold of the
   operations' results over the core's launch contents. That fold is the seven windows' folds composed. -/
import proofs.«111449_j80633716015168_2_alg».proof.Proof.Gen.ReferenceIdeal
import Idealize.ShloMosaic.Lib.StableHlo.Run
import Idealize.ShloMosaic.Lib.Pipeline.Frame

set_option Elab.async false

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The operations 1 … 60 of 503 of @main (its window `main_part0`). -/
abbrev ops_part0 : List (HloOp τ sig (Elt F)) :=
  [ StableHlo.nullary main_cst (constant S_ .f32 0x3F800000#32),
    StableHlo.unary main_cst main_v0 (broadcastInDim S800000 ![] bcast_S_S800000 : (⟨S_, .f32⟩ : BufTy).Contents (Elt F) → (⟨S800000, .f32⟩ : BufTy).Contents (Elt F)),
    StableHlo.nullary main_cst_0 (constant S_ .f32 0x00000000#32),
    StableHlo.unary main_cst_0 main_v1 (broadcastInDim S50000 ![] bcast_S_S50000 : (⟨S_, .f32⟩ : BufTy).Contents (Elt F) → (⟨S50000, .f32⟩ : BufTy).Contents (Elt F)),
    StableHlo.unary main_arg2 main_v2 (broadcastInDim S800000x1 ![0] bcast_S800000_S800000x1_0 : (⟨S800000, .i32⟩ : BufTy).Contents (Elt F) → (⟨S800000x1, .i32⟩ : BufTy).Contents (Elt F)),
    StableHlo.ternary main_v1 main_v2 main_v0 main_v3 ((fun x i u => Host.scatterAdd scatter_S50000_S800000x1_S800000_n_0_0_1 x i u) : (⟨S50000, .f32⟩ : BufTy).Contents (Elt F) → (⟨S800000x1, .i32⟩ : BufTy).Contents (Elt F) → (⟨S800000, .f32⟩ : BufTy).Contents (Elt F) → (⟨S50000, .f32⟩ : BufTy).Contents (Elt F)),
    StableHlo.nullary main_c (constantI S_ 32 0#32),
    StableHlo.unary main_c main_v4 (broadcastInDim S800000 ![] bcast_S_S800000 : (⟨S_, .i32⟩ : BufTy).Contents (Elt F) → (⟨S800000, .i32⟩ : BufTy).Contents (Elt F)),
    StableHlo.binary main_arg1 main_v4 main_v5 (cmpi .slt : (⟨S800000, .i32⟩ : BufTy).Contents (Elt F) → (⟨S800000, .i32⟩ : BufTy).Contents (Elt F) → (⟨S800000, .i1⟩ : BufTy).Contents (Elt F)),
    StableHlo.nullary main_c_1 (constantI S_ 32 50000#32),
    StableHlo.unary main_c_1 main_v6 (broadcastInDim S800000 ![] bcast_S_S800000 : (⟨S_, .i32⟩ : BufTy).Contents (Elt F) → (⟨S800000, .i32⟩ : BufTy).Contents (Elt F)),
    StableHlo.binary main_arg1 main_v6 main_v7 (addi : (⟨S800000, .i32⟩ : BufTy).Contents (Elt F) → (⟨S800000, .i32⟩ : BufTy).Contents (Elt F) → (⟨S800000, .i32⟩ : BufTy).Contents (Elt F)),
    StableHlo.ternary main_v5 main_v7 main_arg1 main_v8 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v8 main_v9 (broadcastInDim S800000x1 ![0] bcast_S800000_S800000x1_0 : (⟨S800000, .i32⟩ : BufTy).Contents (Elt F) → (⟨S800000x1, .i32⟩ : BufTy).Contents (Elt F)),
    StableHlo.binary main_v3 main_v9 main_v10 ((fun x i => Host.gather gather_S50000_S800000x1_S800000_n_0_n_n_0_1_1 x i) : (⟨S50000, .f32⟩ : BufTy).Contents (Elt F) → (⟨S800000x1, .i32⟩ : BufTy).Contents (Elt F) → (⟨S800000, .f32⟩ : BufTy).Contents (Elt F)),
    StableHlo.nullary main_cst_2 (constant S_ .f32 0x3F800000#32),
    StableHlo.unary main_cst_2 main_v11 (broadcastInDim S800000 ![] bcast_S_S800000 : (⟨S_, .f32⟩ : BufTy).Contents (Elt F) → (⟨S800000, .f32⟩ : BufTy).Contents (Elt F)),
    StableHlo.binary main_v10 main_v11 main_v12 (addf : (⟨S800000, .f32⟩ : BufTy).Contents (Elt F) → (⟨S800000, .f32⟩ : BufTy).Contents (Elt F) → (⟨S800000, .f32⟩ : BufTy).Contents (Elt F)),
    StableHlo.unary main_v12 main_v13 (Host.sqrt : (⟨S800000, .f32⟩ : BufTy).Contents (Elt F) → (⟨S800000, .f32⟩ : BufTy).Contents (Elt F)),
    StableHlo.nullary main_cst_3 (constant S_ .f32 0x3F800000#32),
    StableHlo.unary main_cst_3 main_v14 (broadcastInDim S800000 ![] bcast_S_S800000 : (⟨S_, .f32⟩ : BufTy).Contents (Elt F) → (⟨S800000, .f32⟩ : BufTy).Contents (Elt F)),
    StableHlo.binary main_v14 main_v13 main_v15 (Host.divf : (⟨S800000, .f32⟩ : BufTy).Contents (Elt F) → (⟨S800000, .f32⟩ : BufTy).Contents (Elt F) → (⟨S800000, .f32⟩ : BufTy).Contents (Elt F)),
    StableHlo.nullary main_c_4 (constantI S_ 32 0#32),
    StableHlo.unary main_c_4 main_v16 (broadcastInDim S800000 ![] bcast_S_S800000 : (⟨S_, .i32⟩ : BufTy).Contents (Elt F) → (⟨S800000, .i32⟩ : BufTy).Contents (Elt F)),
    StableHlo.binary main_arg2 main_v16 main_v17 (cmpi .slt : (⟨S800000, .i32⟩ : BufTy).Contents (Elt F) → (⟨S800000, .i32⟩ : BufTy).Contents (Elt F) → (⟨S800000, .i1⟩ : BufTy).Contents (Elt F)),
    StableHlo.nullary main_c_5 (constantI S_ 32 50000#32),
    StableHlo.unary main_c_5 main_v18 (broadcastInDim S800000 ![] bcast_S_S800000 : (⟨S_, .i32⟩ : BufTy).Contents (Elt F) → (⟨S800000, .i32⟩ : BufTy).Contents (Elt F)),
    StableHlo.binary main_arg2 main_v18 main_v19 (addi : (⟨S800000, .i32⟩ : BufTy).Contents (Elt F) → (⟨S800000, .i32⟩ : BufTy).Contents (Elt F) → (⟨S800000, .i32⟩ : BufTy).Contents (Elt F)),
    StableHlo.ternary main_v17 main_v19 main_arg2 main_v20 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v20 main_v21 (broadcastInDim S800000x1 ![0] bcast_S800000_S800000x1_0 : (⟨S800000, .i32⟩ : BufTy).Contents (Elt F) → (⟨S800000x1, .i32⟩ : BufTy).Contents (Elt F)),
    StableHlo.binary main_v3 main_v21 main_v22 ((fun x i => Host.gather gather_S50000_S800000x1_S800000_n_0_n_n_0_1_1 x i) : (⟨S50000, .f32⟩ : BufTy).Contents (Elt F) → (⟨S800000x1, .i32⟩ : BufTy).Contents (Elt F) → (⟨S800000, .f32⟩ : BufTy).Contents (Elt F)),
    StableHlo.nullary main_cst_6 (constant S_ .f32 0x3F800000#32),
    StableHlo.unary main_cst_6 main_v23 (broadcastInDim S800000 ![] bcast_S_S800000 : (⟨S_, .f32⟩ : BufTy).Contents (Elt F) → (⟨S800000, .f32⟩ : BufTy).Contents (Elt F)),
    StableHlo.binary main_v22 main_v23 main_v24 (addf : (⟨S800000, .f32⟩ : BufTy).Contents (Elt F) → (⟨S800000, .f32⟩ : BufTy).Contents (Elt F) → (⟨S800000, .f32⟩ : BufTy).Contents (Elt F)),
    StableHlo.unary main_v24 main_v25 (Host.sqrt : (⟨S800000, .f32⟩ : BufTy).Contents (Elt F) → (⟨S800000, .f32⟩ : BufTy).Contents (Elt F)),
    StableHlo.nullary main_cst_7 (constant S_ .f32 0x3F800000#32),
    StableHlo.unary main_cst_7 main_v26 (broadcastInDim S800000 ![] bcast_S_S800000 : (⟨S_, .f32⟩ : BufTy).Contents (Elt F) → (⟨S800000, .f32⟩ : BufTy).Contents (Elt F)),
    StableHlo.binary main_v26 main_v25 main_v27 (Host.divf : (⟨S800000, .f32⟩ : BufTy).Contents (Elt F) → (⟨S800000, .f32⟩ : BufTy).Contents (Elt F) → (⟨S800000, .f32⟩ : BufTy).Contents (Elt F)),
    StableHlo.unary main_v15 main_v28 (broadcastInDim S800000x1 ![0] bcast_S800000_S800000x1_0 : (⟨S800000, .f32⟩ : BufTy).Contents (Elt F) → (⟨S800000x1, .f32⟩ : BufTy).Contents (Elt F)),
    StableHlo.unary main_v27 main_v29 (broadcastInDim S800000x1 ![0] bcast_S800000_S800000x1_0 : (⟨S800000, .f32⟩ : BufTy).Contents (Elt F) → (⟨S800000x1, .f32⟩ : BufTy).Contents (Elt F)),
    StableHlo.binary main_v28 main_v29 main_v30 ((fun a b => concatenate S800000x2 1 [⟨S800000x1, a⟩, ⟨S800000x1, b⟩] concatenates_S800000x1_S800000x1_S800000x2_d1) : (⟨S800000x1, .f32⟩ : BufTy).Contents (Elt F) → (⟨S800000x1, .f32⟩ : BufTy).Contents (Elt F) → (⟨S800000x2, .f32⟩ : BufTy).Contents (Elt F)),
    StableHlo.nullary main_c_8 (constantI S_ 32 0#32),
    StableHlo.unary main_c_8 main_v31 (broadcastInDim S50000 ![] bcast_S_S50000 : (⟨S_, .i32⟩ : BufTy).Contents (Elt F) → (⟨S50000, .i32⟩ : BufTy).Contents (Elt F)),
    StableHlo.binary main_arg0 main_v31 main_v32 (cmpi .slt : (⟨S50000, .i32⟩ : BufTy).Contents (Elt F) → (⟨S50000, .i32⟩ : BufTy).Contents (Elt F) → (⟨S50000, .i1⟩ : BufTy).Contents (Elt F)),
    StableHlo.nullary main_c_9 (constantI S_ 32 28#32),
    StableHlo.unary main_c_9 main_v33 (broadcastInDim S50000 ![] bcast_S_S50000 : (⟨S_, .i32⟩ : BufTy).Contents (Elt F) → (⟨S50000, .i32⟩ : BufTy).Contents (Elt F)),
    StableHlo.binary main_arg0 main_v33 main_v34 (addi : (⟨S50000, .i32⟩ : BufTy).Contents (Elt F) → (⟨S50000, .i32⟩ : BufTy).Contents (Elt F) → (⟨S50000, .i32⟩ : BufTy).Contents (Elt F)),
    StableHlo.ternary main_v32 main_v34 main_arg0 main_v35 (select : (⟨S50000, .i1⟩ : BufTy).Contents (Elt F) → (⟨S50000, .i32⟩ : BufTy).Contents (Elt F) → (⟨S50000, .i32⟩ : BufTy).Contents (Elt F) → (⟨S50000, .i32⟩ : BufTy).Contents (Elt F)),
    StableHlo.unary main_v35 main_v36 (broadcastInDim S50000x1 ![0] bcast_S50000_S50000x1_0 : (⟨S50000, .i32⟩ : BufTy).Contents (Elt F) → (⟨S50000x1, .i32⟩ : BufTy).Contents (Elt F)),
    StableHlo.binary main_arg4 main_v36 main_v37 ((fun x i => Host.gather gather_S28x64_S50000x1_S50000x64_1_0_n_n_0_1_164 x i) : (⟨S28x64, .f32⟩ : BufTy).Contents (Elt F) → (⟨S50000x1, .i32⟩ : BufTy).Contents (Elt F) → (⟨S50000x64, .f32⟩ : BufTy).Contents (Elt F)),
    StableHlo.unary main_arg10 main_v38 ((extractStridedSlice S1x2x2 ![0, 0, 0] · slices_S4x2x2_S1x2x2_0_0_0) : (⟨S4x2x2, .f32⟩ : BufTy).Contents (Elt F) → (⟨S1x2x2, .f32⟩ : BufTy).Contents (Elt F)),
    StableHlo.reshape main_v38 main_v39 rfl shapeCasts_S1x2x2_S2x2,
    StableHlo.unary main_v39 main_v40 ((transpose S2x2 [1, 0] · transposes_S2x2_S2x2_1_0) : (⟨S2x2, .f32⟩ : BufTy).Contents (Elt F) → (⟨S2x2, .f32⟩ : BufTy).Contents (Elt F)),
    StableHlo.binary main_v30 main_v40 main_v41 ((fun l r => Host.dotGeneral dot_S800000x2_S2x2_S800000x2_1_0_0_1_n_n none l r) : (⟨S800000x2, .f32⟩ : BufTy).Contents (Elt F) → (⟨S2x2, .f32⟩ : BufTy).Contents (Elt F) → (⟨S800000x2, .f32⟩ : BufTy).Contents (Elt F)),
    StableHlo.unary main_arg11 main_v42 ((extractStridedSlice S1x2 ![0, 0] · slices_S4x2_S1x2_0_0) : (⟨S4x2, .f32⟩ : BufTy).Contents (Elt F) → (⟨S1x2, .f32⟩ : BufTy).Contents (Elt F)),
    StableHlo.reshape main_v42 main_v43 rfl shapeCasts_S1x2_S2,
    StableHlo.unary main_v43 main_v44 (broadcastInDim S1x2 ![1] bcast_S2_S1x2_1 : (⟨S2, .f32⟩ : BufTy).Contents (Elt F) → (⟨S1x2, .f32⟩ : BufTy).Contents (Elt F)),
    StableHlo.unary main_v44 main_v45 (broadcastInDim S800000x2 ![0, 1] bcast_S1x2_S800000x2_0_1 : (⟨S1x2, .f32⟩ : BufTy).Contents (Elt F) → (⟨S800000x2, .f32⟩ : BufTy).Contents (Elt F)),
    StableHlo.binary main_v41 main_v45 main_v46 (addf : (⟨S800000x2, .f32⟩ : BufTy).Contents (Elt F) → (⟨S800000x2, .f32⟩ : BufTy).Contents (Elt F) → (⟨S800000x2, .f32⟩ : BufTy).Contents (Elt F)),
    StableHlo.unary main_v46 main_v47 (Host.tanh : (⟨S800000x2, .f32⟩ : BufTy).Contents (Elt F) → (⟨S800000x2, .f32⟩ : BufTy).Contents (Elt F)) ]

set_option maxRecDepth 8192 in
theorem main_part0_eq (c : Dev nD) : main_part0 (F := F) c = seq ops_part0 := rfl

set_option maxRecDepth 8192 in
theorem ops_part0_sub : (ops_part0 : List (HloOp τ sig (Elt F))).Forall fun op => op.bufs ⊆ tcRefs τ sig :=
  ⟨nullary_bufs_sub .., unary_bufs_sub .., nullary_bufs_sub .., unary_bufs_sub .., unary_bufs_sub .., ternary_bufs_sub ..,
    nullary_bufs_sub .., unary_bufs_sub .., binary_bufs_sub .., nullary_bufs_sub .., unary_bufs_sub .., binary_bufs_sub ..,
    ternary_bufs_sub .., unary_bufs_sub .., binary_bufs_sub .., nullary_bufs_sub .., unary_bufs_sub .., binary_bufs_sub ..,
    unary_bufs_sub .., nullary_bufs_sub .., unary_bufs_sub .., binary_bufs_sub .., nullary_bufs_sub .., unary_bufs_sub ..,
    binary_bufs_sub .., nullary_bufs_sub .., unary_bufs_sub .., binary_bufs_sub .., ternary_bufs_sub .., unary_bufs_sub ..,
    binary_bufs_sub .., nullary_bufs_sub .., unary_bufs_sub .., binary_bufs_sub .., unary_bufs_sub .., nullary_bufs_sub ..,
    unary_bufs_sub .., binary_bufs_sub .., unary_bufs_sub .., unary_bufs_sub .., binary_bufs_sub .., nullary_bufs_sub ..,
    unary_bufs_sub .., binary_bufs_sub .., nullary_bufs_sub .., unary_bufs_sub .., binary_bufs_sub .., ternary_bufs_sub ..,
    unary_bufs_sub .., binary_bufs_sub .., unary_bufs_sub .., reshape_bufs_sub .., unary_bufs_sub .., binary_bufs_sub ..,
    unary_bufs_sub .., reshape_bufs_sub .., unary_bufs_sub .., unary_bufs_sub .., binary_bufs_sub .., unary_bufs_sub ..⟩

set_option maxRecDepth 8192 in
theorem ops_part0_fresh : (ops_part0 : List (HloOp τ sig (Elt F))).Forall fun op => op.fresh = ∅ :=
  ⟨rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl⟩

/-- The operations 61 … 141 of 503 of @main (its window `main_part1`), each called function's operations in its call's place over that call's record of buffers. -/
abbrev ops_part1 : List (HloOp τ sig (Elt F)) :=
  [ StableHlo.unary main_v47 main_v48 (broadcastInDim S800000x1x2 ![0, 2] bcast_S800000x2_S800000x1x2_0_2 : (⟨S800000x2, .f32⟩ : BufTy).Contents (Elt F) → (⟨S800000x1x2, .f32⟩ : BufTy).Contents (Elt F)),
    StableHlo.unary main_arg6 main_v49 ((extractStridedSlice S1x3x2 ![0, 0, 0] · slices_S4x3x2_S1x3x2_0_0_0) : (⟨S4x3x2, .f32⟩ : BufTy).Contents (Elt F) → (⟨S1x3x2, .f32⟩ : BufTy).Contents (Elt F)),
    StableHlo.reshape main_v49 main_v50 rfl shapeCasts_S1x3x2_S3x2,
    StableHlo.unary main_v50 main_v51 (broadcastInDim S1x3x2 ![1, 2] bcast_S3x2_S1x3x2_1_2 : (⟨S3x2, .f32⟩ : BufTy).Contents (Elt F) → (⟨S1x3x2, .f32⟩ : BufTy).Contents (Elt F)),
    StableHlo.unary main_v48 main_v52 (broadcastInDim S800000x3x2 ![0, 1, 2] bcast_S800000x1x2_S800000x3x2_0_1_2 : (⟨S800000x1x2, .f32⟩ : BufTy).Contents (Elt F) → (⟨S800000x3x2, .f32⟩ : BufTy).Contents (Elt F)),
    StableHlo.unary main_v51 main_v53 (broadcastInDim S800000x3x2 ![0, 1, 2] bcast_S1x3x2_S800000x3x2_0_1_2 : (⟨S1x3x2, .f32⟩ : BufTy).Contents (Elt F) → (⟨S800000x3x2, .f32⟩ : BufTy).Contents (Elt F)),
    StableHlo.binary main_v52 main_v53 main_v54 (subf : (⟨S800000x3x2, .f32⟩ : BufTy).Contents (Elt F) → (⟨S800000x3x2, .f32⟩ : BufTy).Contents (Elt F) → (⟨S800000x3x2, .f32⟩ : BufTy).Contents (Elt F)),
    StableHlo.unary main_arg7 main_v55 ((extractStridedSlice S1x3x2 ![0, 0, 0] · slices_S4x3x2_S1x3x2_0_0_0) : (⟨S4x3x2, .f32⟩ : BufTy).Contents (Elt F) → (⟨S1x3x2, .f32⟩ : BufTy).Contents (Elt F)),
    StableHlo.reshape main_v55 main_v56 rfl shapeCasts_S1x3x2_S3x2,
    StableHlo.unary main_v56 main_v57 (broadcastInDim S1x3x2 ![1, 2] bcast_S3x2_S1x3x2_1_2 : (⟨S3x2, .f32⟩ : BufTy).Contents (Elt F) → (⟨S1x3x2, .f32⟩ : BufTy).Contents (Elt F)),
    StableHlo.unary main_v57 main_v58 (broadcastInDim S800000x3x2 ![0, 1, 2] bcast_S1x3x2_S800000x3x2_0_1_2 : (⟨S1x3x2, .f32⟩ : BufTy).Contents (Elt F) → (⟨S800000x3x2, .f32⟩ : BufTy).Contents (Elt F)),
    StableHlo.binary main_v54 main_v58 main_v59 (mulf : (⟨S800000x3x2, .f32⟩ : BufTy).Contents (Elt F) → (⟨S800000x3x2, .f32⟩ : BufTy).Contents (Elt F) → (⟨S800000x3x2, .f32⟩ : BufTy).Contents (Elt F)),
    StableHlo.binary main_v59 main_v59 main_v60 (mulf : (⟨S800000x3x2, .f32⟩ : BufTy).Contents (Elt F) → (⟨S800000x3x2, .f32⟩ : BufTy).Contents (Elt F) → (⟨S800000x3x2, .f32⟩ : BufTy).Contents (Elt F)),
    StableHlo.nullary main_cst_10 (constant S_ .f32 0x00000000#32),
    StableHlo.binary main_v60 main_cst_10 main_v61 ((fun x v => Host.reduceAdd x v reducesTo_S800000x3x2_S800000x3_d2 h_S_) : (⟨S800000x3x2, .f32⟩ : BufTy).Contents (Elt F) → (⟨S_, .f32⟩ : BufTy).Contents (Elt F) → (⟨S800000x3, .f32⟩ : BufTy).Contents (Elt F)),
    StableHlo.nullary main_cst_11 (constant S_ .f32 0xBF000000#32),
    StableHlo.unary main_cst_11 main_v62 (broadcastInDim S800000x3 ![] bcast_S_S800000x3 : (⟨S_, .f32⟩ : BufTy).Contents (Elt F) → (⟨S800000x3, .f32⟩ : BufTy).Contents (Elt F)),
    StableHlo.binary main_v62 main_v61 main_v63 (mulf : (⟨S800000x3, .f32⟩ : BufTy).Contents (Elt F) → (⟨S800000x3, .f32⟩ : BufTy).Contents (Elt F) → (⟨S800000x3, .f32⟩ : BufTy).Contents (Elt F)),
    StableHlo.unary main_v63 main_v64 (Host.exp : (⟨S800000x3, .f32⟩ : BufTy).Contents (Elt F) → (⟨S800000x3, .f32⟩ : BufTy).Contents (Elt F)),
    StableHlo.unary main_arg5 main_v65 ((extractStridedSlice S1x192x64 ![0, 0, 0] · slices_S4x192x64_S1x192x64_0_0_0) : (⟨S4x192x64, .f32⟩ : BufTy).Contents (Elt F) → (⟨S1x192x64, .f32⟩ : BufTy).Contents (Elt F)),
    StableHlo.reshape main_v65 main_v66 rfl shapeCasts_S1x192x64_S192x64,
    StableHlo.unary main_v66 main_v67 ((transpose S64x192 [1, 0] · transposes_S192x64_S64x192_1_0) : (⟨S192x64, .f32⟩ : BufTy).Contents (Elt F) → (⟨S64x192, .f32⟩ : BufTy).Contents (Elt F)),
    StableHlo.binary main_v37 main_v67 main_v68 ((fun l r => Host.dotGeneral dot_S50000x64_S64x192_S50000x192_1_0_0_1_n_n none l r) : (⟨S50000x64, .f32⟩ : BufTy).Contents (Elt F) → (⟨S64x192, .f32⟩ : BufTy).Contents (Elt F) → (⟨S50000x192, .f32⟩ : BufTy).Contents (Elt F)),
    StableHlo.reshape main_v68 main_v69 rfl shapeCasts_S50000x192_S50000x3x64,
    StableHlo.nullary main_c_12 (constantI S_ 32 0#32),
    StableHlo.unary main_c_12 main_v70 (broadcastInDim S800000 ![] bcast_S_S800000 : (⟨S_, .i32⟩ : BufTy).Contents (Elt F) → (⟨S800000, .i32⟩ : BufTy).Contents (Elt F)),
    StableHlo.binary main_arg1 main_v70 main_v71 (cmpi .slt : (⟨S800000, .i32⟩ : BufTy).Contents (Elt F) → (⟨S800000, .i32⟩ : BufTy).Contents (Elt F) → (⟨S800000, .i1⟩ : BufTy).Contents (Elt F)),
    StableHlo.nullary main_c_13 (constantI S_ 32 50000#32),
    StableHlo.unary main_c_13 main_v72 (broadcastInDim S800000 ![] bcast_S_S800000 : (⟨S_, .i32⟩ : BufTy).Contents (Elt F) → (⟨S800000, .i32⟩ : BufTy).Contents (Elt F)),
    StableHlo.binary main_arg1 main_v72 main_v73 (addi : (⟨S800000, .i32⟩ : BufTy).Contents (Elt F) → (⟨S800000, .i32⟩ : BufTy).Contents (Elt F) → (⟨S800000, .i32⟩ : BufTy).Contents (Elt F)),
    StableHlo.ternary main_v71 main_v73 main_arg1 main_v74 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v74 main_v75 (broadcastInDim S800000x1 ![0] bcast_S800000_S800000x1_0 : (⟨S800000, .i32⟩ : BufTy).Contents (Elt F) → (⟨S800000x1, .i32⟩ : BufTy).Contents (Elt F)),
    StableHlo.binary main_v69 main_v75 main_v76 ((fun x i => Host.gather gather_S50000x3x64_S800000x1_S800000x3x64_12_0_n_n_0_1_1364 x i) : (⟨S50000x3x64, .f32⟩ : BufTy).Contents (Elt F) → (⟨S800000x1, .i32⟩ : BufTy).Contents (Elt F) → (⟨S800000x3x64, .f32⟩ : BufTy).Contents (Elt F)),
    StableHlo.unary main_v64 main_v77 (broadcastInDim S800000x3x1 ![0, 1] bcast_S800000x3_S800000x3x1_0_1 : (⟨S800000x3, .f32⟩ : BufTy).Contents (Elt F) → (⟨S800000x3x1, .f32⟩ : BufTy).Contents (Elt F)),
    StableHlo.unary main_v77 main_v78 (broadcastInDim S800000x3x64 ![0, 1, 2] bcast_S800000x3x1_S800000x3x64_0_1_2 : (⟨S800000x3x1, .f32⟩ : BufTy).Contents (Elt F) → (⟨S800000x3x64, .f32⟩ : BufTy).Contents (Elt F)),
    StableHlo.binary main_v76 main_v78 main_v79 (mulf : (⟨S800000x3x64, .f32⟩ : BufTy).Contents (Elt F) → (⟨S800000x3x64, .f32⟩ : BufTy).Contents (Elt F) → (⟨S800000x3x64, .f32⟩ : BufTy).Contents (Elt F)),
    StableHlo.nullary main_cst_14 (constant S_ .f32 0x00000000#32),
    StableHlo.unary main_cst_14 main_v80 (broadcastInDim S50000x3x64 ![] bcast_S_S50000x3x64 : (⟨S_, .f32⟩ : BufTy).Contents (Elt F) → (⟨S50000x3x64, .f32⟩ : BufTy).Contents (Elt F)),
    StableHlo.unary main_arg2 main_v81 (broadcastInDim S800000x1 ![0] bcast_S800000_S800000x1_0 : (⟨S800000, .i32⟩ : BufTy).Contents (Elt F) → (⟨S800000x1, .i32⟩ : BufTy).Contents (Elt F)),
    StableHlo.ternary main_v80 main_v81 main_v79 main_v82 ((fun x i u => Host.scatterAdd scatter_S50000x3x64_S800000x1_S800000x3x64_12_0_0_1 x i u) : (⟨S50000x3x64, .f32⟩ : BufTy).Contents (Elt F) → (⟨S800000x1, .i32⟩ : BufTy).Contents (Elt F) → (⟨S800000x3x64, .f32⟩ : BufTy).Contents (Elt F) → (⟨S50000x3x64, .f32⟩ : BufTy).Contents (Elt F)),
    StableHlo.nullary main_cst_15 (constant S_ .f32 0x00000000#32),
    StableHlo.binary main_v82 main_cst_15 main_v83 ((fun x v => Host.reduceAdd x v reducesTo_S50000x3x64_S50000x64_d1 h_S_) : (⟨S50000x3x64, .f32⟩ : BufTy).Contents (Elt F) → (⟨S_, .f32⟩ : BufTy).Contents (Elt F) → (⟨S50000x64, .f32⟩ : BufTy).Contents (Elt F)),
    StableHlo.nullary main_cst_16 (constant S_ .f32 0x00000000#32),
    StableHlo.binary main_v83 main_cst_16 main_v84 ((fun x v => Host.reduceAdd x v reducesTo_S50000x64_S64_d0 h_S_) : (⟨S50000x64, .f32⟩ : BufTy).Contents (Elt F) → (⟨S_, .f32⟩ : BufTy).Contents (Elt F) → (⟨S64, .f32⟩ : BufTy).Contents (Elt F)),
    StableHlo.nullary main_cst_17 (constant S_ .f32 0x47435000#32),
    StableHlo.unary main_cst_17 main_v85 (broadcastInDim S64 ![] bcast_S_S64 : (⟨S_, .f32⟩ : BufTy).Contents (Elt F) → (⟨S64, .f32⟩ : BufTy).Contents (Elt F)),
    StableHlo.binary main_v84 main_v85 main_v86 (Host.divf : (⟨S64, .f32⟩ : BufTy).Contents (Elt F) → (⟨S64, .f32⟩ : BufTy).Contents (Elt F) → (⟨S64, .f32⟩ : BufTy).Contents (Elt F)),
    StableHlo.nullary main_c_18 (constantI S_ 32 0#32),
    StableHlo.TRef.nullary main_call0.cst (constant S_ .f32 0x00000000#32),
    StableHlo.TRef.binary (StableHlo.TRef.of (T := ⟨S50000x64, .f32⟩) main_v83) main_call0.cst main_call0.v0 (fun x v => Host.reduceAdd x v reducesTo_S50000x64_S64_d0 h_S_),
    StableHlo.TRef.unary main_call0.v0 main_call0.v1 (broadcastInDim S1x64 ![1] bcast_S64_S1x64_1),
    StableHlo.TRef.nullary main_call0.cst_0 (constant S_ .f32 0x47435000#32),
    StableHlo.TRef.unary main_call0.cst_0 main_call0.v2 (broadcastInDim S1x64 ![] bcast_S_S1x64),
    StableHlo.TRef.binary main_call0.v1 main_call0.v2 main_call0.v3 Host.divf,
    StableHlo.TRef.unary main_call0.v3 main_call0.v4 (broadcastInDim S50000x64 ![0, 1] bcast_S1x64_S50000x64_0_1),
    StableHlo.TRef.binary (StableHlo.TRef.of (T := ⟨S50000x64, .f32⟩) main_v83) main_call0.v4 main_call0.v5 subf,
    StableHlo.TRef.binary main_call0.v5 main_call0.v5 main_call0.v6 mulf,
    StableHlo.TRef.unary (StableHlo.TRef.of (T := ⟨S_, .i32⟩) main_c_18) main_call0.v7 (sitofp .f32),
    StableHlo.TRef.nullary main_call0.cst_1 (constant S_ .f32 0x47435000#32),
    StableHlo.TRef.binary main_call0.cst_1 main_call0.v7 main_call0.v8 subf,
    StableHlo.TRef.nullary main_call0.cst_2 (constant S_ .f32 0x00000000#32),
    StableHlo.TRef.binary main_call0.v6 main_call0.cst_2 main_call0.v9 (fun x v => Host.reduceAdd x v reducesTo_S50000x64_S64_d0 h_S_),
    StableHlo.TRef.unary main_call0.v8 main_call0.v10 (broadcastInDim S64 ![] bcast_S_S64),
    StableHlo.TRef.binary main_call0.v9 main_call0.v10 main_call0.v11 Host.divf,
    StableHlo.TRef.nullary main_call0.cst_3 (constant S_ .f32 0x00000000#32),
    StableHlo.TRef.binary main_call0.v8 main_call0.cst_3 main_call0.v12 (cmpf .ogt),
    StableHlo.TRef.nullary main_call0.cst_4 (constant S_ .f32 0x7FC00000#32),
    StableHlo.TRef.unary main_call0.cst_4 main_call0.call0.v0 id,
    StableHlo.TRef.unary main_call0.call0.v0 main_call0.call0.v1 (broadcastInDim S64 ![] bcast_S_S64),
    StableHlo.TRef.ternary main_call0.v12 main_call0.v11 main_call0.call0.v1 main_call0.call0.v2 (fun p a b => select (broadcastInDim S64 ![] bcast_S_S64 p) a b),
    StableHlo.unary main_v86 main_v88 (broadcastInDim S1x64 ![1] bcast_S64_S1x64_1 : (⟨S64, .f32⟩ : BufTy).Contents (Elt F) → (⟨S1x64, .f32⟩ : BufTy).Contents (Elt F)),
    StableHlo.unary main_v88 main_v89 (broadcastInDim S50000x64 ![0, 1] bcast_S1x64_S50000x64_0_1 : (⟨S1x64, .f32⟩ : BufTy).Contents (Elt F) → (⟨S50000x64, .f32⟩ : BufTy).Contents (Elt F)),
    StableHlo.binary main_v83 main_v89 main_v90 (subf : (⟨S50000x64, .f32⟩ : BufTy).Contents (Elt F) → (⟨S50000x64, .f32⟩ : BufTy).Contents (Elt F) → (⟨S50000x64, .f32⟩ : BufTy).Contents (Elt F)),
    StableHlo.nullary main_cst_19 (constant S_ .f32 0x3727C5AC#32),
    StableHlo.unary main_cst_19 main_v91 (broadcastInDim S64 ![] bcast_S_S64 : (⟨S_, .f32⟩ : BufTy).Contents (Elt F) → (⟨S64, .f32⟩ : BufTy).Contents (Elt F)),
    StableHlo.binary main_v87 main_v91 main_v92 (addf : (⟨S64, .f32⟩ : BufTy).Contents (Elt F) → (⟨S64, .f32⟩ : BufTy).Contents (Elt F) → (⟨S64, .f32⟩ : BufTy).Contents (Elt F)),
    StableHlo.unary main_v92 main_v93 (Host.rsqrt : (⟨S64, .f32⟩ : BufTy).Contents (Elt F) → (⟨S64, .f32⟩ : BufTy).Contents (Elt F)),
    StableHlo.unary main_v93 main_v94 (broadcastInDim S1x64 ![1] bcast_S64_S1x64_1 : (⟨S64, .f32⟩ : BufTy).Contents (Elt F) → (⟨S1x64, .f32⟩ : BufTy).Contents (Elt F)),
    StableHlo.unary main_v94 main_v95 (broadcastInDim S50000x64 ![0, 1] bcast_S1x64_S50000x64_0_1 : (⟨S1x64, .f32⟩ : BufTy).Contents (Elt F) → (⟨S50000x64, .f32⟩ : BufTy).Contents (Elt F)),
    StableHlo.binary main_v90 main_v95 main_v96 (mulf : (⟨S50000x64, .f32⟩ : BufTy).Contents (Elt F) → (⟨S50000x64, .f32⟩ : BufTy).Contents (Elt F) → (⟨S50000x64, .f32⟩ : BufTy).Contents (Elt F)),
    StableHlo.unary main_arg8 main_v97 ((extractStridedSlice S1x64 ![0, 0] · slices_S4x64_S1x64_0_0) : (⟨S4x64, .f32⟩ : BufTy).Contents (Elt F) → (⟨S1x64, .f32⟩ : BufTy).Contents (Elt F)) ]

set_option maxRecDepth 8192 in
theorem main_part1_eq (c : Dev nD) : main_part1 (F := F) c = seq ops_part1 := rfl

set_option maxRecDepth 8192 in
theorem ops_part1_sub : (ops_part1 : List (HloOp τ sig (Elt F))).Forall fun op => op.bufs ⊆ tcRefs τ sig :=
  ⟨unary_bufs_sub .., unary_bufs_sub .., reshape_bufs_sub .., unary_bufs_sub .., unary_bufs_sub .., unary_bufs_sub ..,
    binary_bufs_sub .., unary_bufs_sub .., reshape_bufs_sub .., unary_bufs_sub .., unary_bufs_sub .., binary_bufs_sub ..,
    binary_bufs_sub .., nullary_bufs_sub .., binary_bufs_sub .., nullary_bufs_sub .., unary_bufs_sub .., binary_bufs_sub ..,
    unary_bufs_sub .., unary_bufs_sub .., reshape_bufs_sub .., unary_bufs_sub .., binary_bufs_sub .., reshape_bufs_sub ..,
    nullary_bufs_sub .., unary_bufs_sub .., binary_bufs_sub .., nullary_bufs_sub .., unary_bufs_sub .., binary_bufs_sub ..,
    ternary_bufs_sub .., unary_bufs_sub .., binary_bufs_sub .., unary_bufs_sub .., unary_bufs_sub .., binary_bufs_sub ..,
    nullary_bufs_sub .., unary_bufs_sub .., unary_bufs_sub .., ternary_bufs_sub .., nullary_bufs_sub .., binary_bufs_sub ..,
    nullary_bufs_sub .., binary_bufs_sub .., nullary_bufs_sub .., unary_bufs_sub .., binary_bufs_sub .., nullary_bufs_sub ..,
    nullary_bufs_sub .., binary_bufs_sub .., unary_bufs_sub .., nullary_bufs_sub .., unary_bufs_sub .., binary_bufs_sub ..,
    unary_bufs_sub .., binary_bufs_sub .., binary_bufs_sub .., unary_bufs_sub .., nullary_bufs_sub .., binary_bufs_sub ..,
    nullary_bufs_sub .., binary_bufs_sub .., unary_bufs_sub .., binary_bufs_sub .., nullary_bufs_sub .., binary_bufs_sub ..,
    nullary_bufs_sub .., unary_bufs_sub .., unary_bufs_sub .., ternary_bufs_sub .., unary_bufs_sub .., unary_bufs_sub ..,
    binary_bufs_sub .., nullary_bufs_sub .., unary_bufs_sub .., binary_bufs_sub .., unary_bufs_sub .., unary_bufs_sub ..,
    unary_bufs_sub .., binary_bufs_sub .., unary_bufs_sub ..⟩

set_option maxRecDepth 8192 in
theorem ops_part1_fresh : (ops_part1 : List (HloOp τ sig (Elt F))).Forall fun op => op.fresh = ∅ :=
  ⟨rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl,
    rfl⟩

/-- The operations 142 … 203 of 503 of @main (its window `main_part2`), each called function's operations in its call's place over that call's record of buffers. -/
abbrev ops_part2 : List (HloOp τ sig (Elt F)) :=
  [ StableHlo.reshape main_v97 main_v98 rfl shapeCasts_S1x64_S64,
    StableHlo.unary main_v98 main_v99 (broadcastInDim S1x64 ![1] bcast_S64_S1x64_1 : (⟨S64, .f32⟩ : BufTy).Contents (Elt F) → (⟨S1x64, .f32⟩ : BufTy).Contents (Elt F)),
    StableHlo.unary main_v99 main_v100 (broadcastInDim S50000x64 ![0, 1] bcast_S1x64_S50000x64_0_1 : (⟨S1x64, .f32⟩ : BufTy).Contents (Elt F) → (⟨S50000x64, .f32⟩ : BufTy).Contents (Elt F)),
    StableHlo.binary main_v96 main_v100 main_v101 (mulf : (⟨S50000x64, .f32⟩ : BufTy).Contents (Elt F) → (⟨S50000x64, .f32⟩ : BufTy).Contents (Elt F) → (⟨S50000x64, .f32⟩ : BufTy).Contents (Elt F)),
    StableHlo.unary main_arg9 main_v102 ((extractStridedSlice S1x64 ![0, 0] · slices_S4x64_S1x64_0_0) : (⟨S4x64, .f32⟩ : BufTy).Contents (Elt F) → (⟨S1x64, .f32⟩ : BufTy).Contents (Elt F)),
    StableHlo.reshape main_v102 main_v103 rfl shapeCasts_S1x64_S64,
    StableHlo.unary main_v103 main_v104 (broadcastInDim S1x64 ![1] bcast_S64_S1x64_1 : (⟨S64, .f32⟩ : BufTy).Contents (Elt F) → (⟨S1x64, .f32⟩ : BufTy).Contents (Elt F)),
    StableHlo.unary main_v104 main_v105 (broadcastInDim S50000x64 ![0, 1] bcast_S1x64_S50000x64_0_1 : (⟨S1x64, .f32⟩ : BufTy).Contents (Elt F) → (⟨S50000x64, .f32⟩ : BufTy).Contents (Elt F)),
    StableHlo.binary main_v101 main_v105 main_v106 (addf : (⟨S50000x64, .f32⟩ : BufTy).Contents (Elt F) → (⟨S50000x64, .f32⟩ : BufTy).Contents (Elt F) → (⟨S50000x64, .f32⟩ : BufTy).Contents (Elt F)),
    StableHlo.TRef.nullary main_call1.cst (constant S_ .f32 0x00000000#32),
    StableHlo.TRef.unary main_call1.cst main_call1.v0 (broadcastInDim S50000x64 ![] bcast_S_S50000x64),
    StableHlo.TRef.binary (StableHlo.TRef.of (T := ⟨S50000x64, .f32⟩) main_v106) main_call1.v0 main_call1.v1 maximumf,
    StableHlo.binary main_v37 main_v107 main_v108 (addf : (⟨S50000x64, .f32⟩ : BufTy).Contents (Elt F) → (⟨S50000x64, .f32⟩ : BufTy).Contents (Elt F) → (⟨S50000x64, .f32⟩ : BufTy).Contents (Elt F)),
    StableHlo.unary main_arg10 main_v109 ((extractStridedSlice S1x2x2 ![1, 0, 0] · slices_S4x2x2_S1x2x2_1_0_0) : (⟨S4x2x2, .f32⟩ : BufTy).Contents (Elt F) → (⟨S1x2x2, .f32⟩ : BufTy).Contents (Elt F)),
    StableHlo.reshape main_v109 main_v110 rfl shapeCasts_S1x2x2_S2x2,
    StableHlo.unary main_v110 main_v111 ((transpose S2x2 [1, 0] · transposes_S2x2_S2x2_1_0) : (⟨S2x2, .f32⟩ : BufTy).Contents (Elt F) → (⟨S2x2, .f32⟩ : BufTy).Contents (Elt F)),
    StableHlo.binary main_v30 main_v111 main_v112 ((fun l r => Host.dotGeneral dot_S800000x2_S2x2_S800000x2_1_0_0_1_n_n none l r) : (⟨S800000x2, .f32⟩ : BufTy).Contents (Elt F) → (⟨S2x2, .f32⟩ : BufTy).Contents (Elt F) → (⟨S800000x2, .f32⟩ : BufTy).Contents (Elt F)),
    StableHlo.unary main_arg11 main_v113 ((extractStridedSlice S1x2 ![1, 0] · slices_S4x2_S1x2_1_0) : (⟨S4x2, .f32⟩ : BufTy).Contents (Elt F) → (⟨S1x2, .f32⟩ : BufTy).Contents (Elt F)),
    StableHlo.reshape main_v113 main_v114 rfl shapeCasts_S1x2_S2,
    StableHlo.unary main_v114 main_v115 (broadcastInDim S1x2 ![1] bcast_S2_S1x2_1 : (⟨S2, .f32⟩ : BufTy).Contents (Elt F) → (⟨S1x2, .f32⟩ : BufTy).Contents (Elt F)),
    StableHlo.unary main_v115 main_v116 (broadcastInDim S800000x2 ![0, 1] bcast_S1x2_S800000x2_0_1 : (⟨S1x2, .f32⟩ : BufTy).Contents (Elt F) → (⟨S800000x2, .f32⟩ : BufTy).Contents (Elt F)),
    StableHlo.binary main_v112 main_v116 main_v117 (addf : (⟨S800000x2, .f32⟩ : BufTy).Contents (Elt F) → (⟨S800000x2, .f32⟩ : BufTy).Contents (Elt F) → (⟨S800000x2, .f32⟩ : BufTy).Contents (Elt F)),
    StableHlo.unary main_v117 main_v118 (Host.tanh : (⟨S800000x2, .f32⟩ : BufTy).Contents (Elt F) → (⟨S800000x2, .f32⟩ : BufTy).Contents (Elt F)),
    StableHlo.unary main_v118 main_v119 (broadcastInDim S800000x1x2 ![0, 2] bcast_S800000x2_S800000x1x2_0_2 : (⟨S800000x2, .f32⟩ : BufTy).Contents (Elt F) → (⟨S800000x1x2, .f32⟩ : BufTy).Contents (Elt F)),
    StableHlo.unary main_arg6 main_v120 ((extractStridedSlice S1x3x2 ![1, 0, 0] · slices_S4x3x2_S1x3x2_1_0_0) : (⟨S4x3x2, .f32⟩ : BufTy).Contents (Elt F) → (⟨S1x3x2, .f32⟩ : BufTy).Contents (Elt F)),
    StableHlo.reshape main_v120 main_v121 rfl shapeCasts_S1x3x2_S3x2,
    StableHlo.unary main_v121 main_v122 (broadcastInDim S1x3x2 ![1, 2] bcast_S3x2_S1x3x2_1_2 : (⟨S3x2, .f32⟩ : BufTy).Contents (Elt F) → (⟨S1x3x2, .f32⟩ : BufTy).Contents (Elt F)),
    StableHlo.unary main_v119 main_v123 (broadcastInDim S800000x3x2 ![0, 1, 2] bcast_S800000x1x2_S800000x3x2_0_1_2 : (⟨S800000x1x2, .f32⟩ : BufTy).Contents (Elt F) → (⟨S800000x3x2, .f32⟩ : BufTy).Contents (Elt F)),
    StableHlo.unary main_v122 main_v124 (broadcastInDim S800000x3x2 ![0, 1, 2] bcast_S1x3x2_S800000x3x2_0_1_2 : (⟨S1x3x2, .f32⟩ : BufTy).Contents (Elt F) → (⟨S800000x3x2, .f32⟩ : BufTy).Contents (Elt F)),
    StableHlo.binary main_v123 main_v124 main_v125 (subf : (⟨S800000x3x2, .f32⟩ : BufTy).Contents (Elt F) → (⟨S800000x3x2, .f32⟩ : BufTy).Contents (Elt F) → (⟨S800000x3x2, .f32⟩ : BufTy).Contents (Elt F)),
    StableHlo.unary main_arg7 main_v126 ((extractStridedSlice S1x3x2 ![1, 0, 0] · slices_S4x3x2_S1x3x2_1_0_0) : (⟨S4x3x2, .f32⟩ : BufTy).Contents (Elt F) → (⟨S1x3x2, .f32⟩ : BufTy).Contents (Elt F)),
    StableHlo.reshape main_v126 main_v127 rfl shapeCasts_S1x3x2_S3x2,
    StableHlo.unary main_v127 main_v128 (broadcastInDim S1x3x2 ![1, 2] bcast_S3x2_S1x3x2_1_2 : (⟨S3x2, .f32⟩ : BufTy).Contents (Elt F) → (⟨S1x3x2, .f32⟩ : BufTy).Contents (Elt F)),
    StableHlo.unary main_v128 main_v129 (broadcastInDim S800000x3x2 ![0, 1, 2] bcast_S1x3x2_S800000x3x2_0_1_2 : (⟨S1x3x2, .f32⟩ : BufTy).Contents (Elt F) → (⟨S800000x3x2, .f32⟩ : BufTy).Contents (Elt F)),
    StableHlo.binary main_v125 main_v129 main_v130 (mulf : (⟨S800000x3x2, .f32⟩ : BufTy).Contents (Elt F) → (⟨S800000x3x2, .f32⟩ : BufTy).Contents (Elt F) → (⟨S800000x3x2, .f32⟩ : BufTy).Contents (Elt F)),
    StableHlo.binary main_v130 main_v130 main_v131 (mulf : (⟨S800000x3x2, .f32⟩ : BufTy).Contents (Elt F) → (⟨S800000x3x2, .f32⟩ : BufTy).Contents (Elt F) → (⟨S800000x3x2, .f32⟩ : BufTy).Contents (Elt F)),
    StableHlo.nullary main_cst_20 (constant S_ .f32 0x00000000#32),
    StableHlo.binary main_v131 main_cst_20 main_v132 ((fun x v => Host.reduceAdd x v reducesTo_S800000x3x2_S800000x3_d2 h_S_) : (⟨S800000x3x2, .f32⟩ : BufTy).Contents (Elt F) → (⟨S_, .f32⟩ : BufTy).Contents (Elt F) → (⟨S800000x3, .f32⟩ : BufTy).Contents (Elt F)),
    StableHlo.nullary main_cst_21 (constant S_ .f32 0xBF000000#32),
    StableHlo.unary main_cst_21 main_v133 (broadcastInDim S800000x3 ![] bcast_S_S800000x3 : (⟨S_, .f32⟩ : BufTy).Contents (Elt F) → (⟨S800000x3, .f32⟩ : BufTy).Contents (Elt F)),
    StableHlo.binary main_v133 main_v132 main_v134 (mulf : (⟨S800000x3, .f32⟩ : BufTy).Contents (Elt F) → (⟨S800000x3, .f32⟩ : BufTy).Contents (Elt F) → (⟨S800000x3, .f32⟩ : BufTy).Contents (Elt F)),
    StableHlo.unary main_v134 main_v135 (Host.exp : (⟨S800000x3, .f32⟩ : BufTy).Contents (Elt F) → (⟨S800000x3, .f32⟩ : BufTy).Contents (Elt F)),
    StableHlo.unary main_arg5 main_v136 ((extractStridedSlice S1x192x64 ![1, 0, 0] · slices_S4x192x64_S1x192x64_1_0_0) : (⟨S4x192x64, .f32⟩ : BufTy).Contents (Elt F) → (⟨S1x192x64, .f32⟩ : BufTy).Contents (Elt F)),
    StableHlo.reshape main_v136 main_v137 rfl shapeCasts_S1x192x64_S192x64,
    StableHlo.unary main_v137 main_v138 ((transpose S64x192 [1, 0] · transposes_S192x64_S64x192_1_0) : (⟨S192x64, .f32⟩ : BufTy).Contents (Elt F) → (⟨S64x192, .f32⟩ : BufTy).Contents (Elt F)),
    StableHlo.binary main_v108 main_v138 main_v139 ((fun l r => Host.dotGeneral dot_S50000x64_S64x192_S50000x192_1_0_0_1_n_n none l r) : (⟨S50000x64, .f32⟩ : BufTy).Contents (Elt F) → (⟨S64x192, .f32⟩ : BufTy).Contents (Elt F) → (⟨S50000x192, .f32⟩ : BufTy).Contents (Elt F)),
    StableHlo.reshape main_v139 main_v140 rfl shapeCasts_S50000x192_S50000x3x64,
    StableHlo.nullary main_c_22 (constantI S_ 32 0#32),
    StableHlo.unary main_c_22 main_v141 (broadcastInDim S800000 ![] bcast_S_S800000 : (⟨S_, .i32⟩ : BufTy).Contents (Elt F) → (⟨S800000, .i32⟩ : BufTy).Contents (Elt F)),
    StableHlo.binary main_arg1 main_v141 main_v142 (cmpi .slt : (⟨S800000, .i32⟩ : BufTy).Contents (Elt F) → (⟨S800000, .i32⟩ : BufTy).Contents (Elt F) → (⟨S800000, .i1⟩ : BufTy).Contents (Elt F)),
    StableHlo.nullary main_c_23 (constantI S_ 32 50000#32),
    StableHlo.unary main_c_23 main_v143 (broadcastInDim S800000 ![] bcast_S_S800000 : (⟨S_, .i32⟩ : BufTy).Contents (Elt F) → (⟨S800000, .i32⟩ : BufTy).Contents (Elt F)),
    StableHlo.binary main_arg1 main_v143 main_v144 (addi : (⟨S800000, .i32⟩ : BufTy).Contents (Elt F) → (⟨S800000, .i32⟩ : BufTy).Contents (Elt F) → (⟨S800000, .i32⟩ : BufTy).Contents (Elt F)),
    StableHlo.ternary main_v142 main_v144 main_arg1 main_v145 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v145 main_v146 (broadcastInDim S800000x1 ![0] bcast_S800000_S800000x1_0 : (⟨S800000, .i32⟩ : BufTy).Contents (Elt F) → (⟨S800000x1, .i32⟩ : BufTy).Contents (Elt F)),
    StableHlo.binary main_v140 main_v146 main_v147 ((fun x i => Host.gather gather_S50000x3x64_S800000x1_S800000x3x64_12_0_n_n_0_1_1364 x i) : (⟨S50000x3x64, .f32⟩ : BufTy).Contents (Elt F) → (⟨S800000x1, .i32⟩ : BufTy).Contents (Elt F) → (⟨S800000x3x64, .f32⟩ : BufTy).Contents (Elt F)),
    StableHlo.unary main_v135 main_v148 (broadcastInDim S800000x3x1 ![0, 1] bcast_S800000x3_S800000x3x1_0_1 : (⟨S800000x3, .f32⟩ : BufTy).Contents (Elt F) → (⟨S800000x3x1, .f32⟩ : BufTy).Contents (Elt F)),
    StableHlo.unary main_v148 main_v149 (broadcastInDim S800000x3x64 ![0, 1, 2] bcast_S800000x3x1_S800000x3x64_0_1_2 : (⟨S800000x3x1, .f32⟩ : BufTy).Contents (Elt F) → (⟨S800000x3x64, .f32⟩ : BufTy).Contents (Elt F)),
    StableHlo.binary main_v147 main_v149 main_v150 (mulf : (⟨S800000x3x64, .f32⟩ : BufTy).Contents (Elt F) → (⟨S800000x3x64, .f32⟩ : BufTy).Contents (Elt F) → (⟨S800000x3x64, .f32⟩ : BufTy).Contents (Elt F)),
    StableHlo.nullary main_cst_24 (constant S_ .f32 0x00000000#32),
    StableHlo.unary main_cst_24 main_v151 (broadcastInDim S50000x3x64 ![] bcast_S_S50000x3x64 : (⟨S_, .f32⟩ : BufTy).Contents (Elt F) → (⟨S50000x3x64, .f32⟩ : BufTy).Contents (Elt F)),
    StableHlo.unary main_arg2 main_v152 (broadcastInDim S800000x1 ![0] bcast_S800000_S800000x1_0 : (⟨S800000, .i32⟩ : BufTy).Contents (Elt F) → (⟨S800000x1, .i32⟩ : BufTy).Contents (Elt F)) ]

set_option maxRecDepth 8192 in
theorem main_part2_eq (c : Dev nD) : main_part2 (F := F) c = seq ops_part2 := rfl

set_option maxRecDepth 8192 in
theorem ops_part2_sub : (ops_part2 : List (HloOp τ sig (Elt F))).Forall fun op => op.bufs ⊆ tcRefs τ sig :=
  ⟨reshape_bufs_sub .., unary_bufs_sub .., unary_bufs_sub .., binary_bufs_sub .., unary_bufs_sub .., reshape_bufs_sub ..,
    unary_bufs_sub .., unary_bufs_sub .., binary_bufs_sub .., nullary_bufs_sub .., unary_bufs_sub .., binary_bufs_sub ..,
    binary_bufs_sub .., unary_bufs_sub .., reshape_bufs_sub .., unary_bufs_sub .., binary_bufs_sub .., unary_bufs_sub ..,
    reshape_bufs_sub .., unary_bufs_sub .., unary_bufs_sub .., binary_bufs_sub .., unary_bufs_sub .., unary_bufs_sub ..,
    unary_bufs_sub .., reshape_bufs_sub .., unary_bufs_sub .., unary_bufs_sub .., unary_bufs_sub .., binary_bufs_sub ..,
    unary_bufs_sub .., reshape_bufs_sub .., unary_bufs_sub .., unary_bufs_sub .., binary_bufs_sub .., binary_bufs_sub ..,
    nullary_bufs_sub .., binary_bufs_sub .., nullary_bufs_sub .., unary_bufs_sub .., binary_bufs_sub .., unary_bufs_sub ..,
    unary_bufs_sub .., reshape_bufs_sub .., unary_bufs_sub .., binary_bufs_sub .., reshape_bufs_sub .., nullary_bufs_sub ..,
    unary_bufs_sub .., binary_bufs_sub .., nullary_bufs_sub .., unary_bufs_sub .., binary_bufs_sub .., ternary_bufs_sub ..,
    unary_bufs_sub .., binary_bufs_sub .., unary_bufs_sub .., unary_bufs_sub .., binary_bufs_sub .., nullary_bufs_sub ..,
    unary_bufs_sub .., unary_bufs_sub ..⟩

set_option maxRecDepth 8192 in
theorem ops_part2_fresh : (ops_part2 : List (HloOp τ sig (Elt F))).Forall fun op => op.fresh = ∅ :=
  ⟨rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl,
    rfl, rfl⟩

/-- The operations 204 … 286 of 503 of @main (its window `main_part3`), each called function's operations in its call's place over that call's record of buffers. -/
abbrev ops_part3 : List (HloOp τ sig (Elt F)) :=
  [ StableHlo.ternary main_v151 main_v152 main_v150 main_v153 ((fun x i u => Host.scatterAdd scatter_S50000x3x64_S800000x1_S800000x3x64_12_0_0_1 x i u) : (⟨S50000x3x64, .f32⟩ : BufTy).Contents (Elt F) → (⟨S800000x1, .i32⟩ : BufTy).Contents (Elt F) → (⟨S800000x3x64, .f32⟩ : BufTy).Contents (Elt F) → (⟨S50000x3x64, .f32⟩ : BufTy).Contents (Elt F)),
    StableHlo.nullary main_cst_25 (constant S_ .f32 0x00000000#32),
    StableHlo.binary main_v153 main_cst_25 main_v154 ((fun x v => Host.reduceAdd x v reducesTo_S50000x3x64_S50000x64_d1 h_S_) : (⟨S50000x3x64, .f32⟩ : BufTy).Contents (Elt F) → (⟨S_, .f32⟩ : BufTy).Contents (Elt F) → (⟨S50000x64, .f32⟩ : BufTy).Contents (Elt F)),
    StableHlo.nullary main_cst_26 (constant S_ .f32 0x00000000#32),
    StableHlo.binary main_v154 main_cst_26 main_v155 ((fun x v => Host.reduceAdd x v reducesTo_S50000x64_S64_d0 h_S_) : (⟨S50000x64, .f32⟩ : BufTy).Contents (Elt F) → (⟨S_, .f32⟩ : BufTy).Contents (Elt F) → (⟨S64, .f32⟩ : BufTy).Contents (Elt F)),
    StableHlo.nullary main_cst_27 (constant S_ .f32 0x47435000#32),
    StableHlo.unary main_cst_27 main_v156 (broadcastInDim S64 ![] bcast_S_S64 : (⟨S_, .f32⟩ : BufTy).Contents (Elt F) → (⟨S64, .f32⟩ : BufTy).Contents (Elt F)),
    StableHlo.binary main_v155 main_v156 main_v157 (Host.divf : (⟨S64, .f32⟩ : BufTy).Contents (Elt F) → (⟨S64, .f32⟩ : BufTy).Contents (Elt F) → (⟨S64, .f32⟩ : BufTy).Contents (Elt F)),
    StableHlo.nullary main_c_28 (constantI S_ 32 0#32),
    StableHlo.TRef.nullary main_call2.cst (constant S_ .f32 0x00000000#32),
    StableHlo.TRef.binary (StableHlo.TRef.of (T := ⟨S50000x64, .f32⟩) main_v154) main_call2.cst main_call2.v0 (fun x v => Host.reduceAdd x v reducesTo_S50000x64_S64_d0 h_S_),
    StableHlo.TRef.unary main_call2.v0 main_call2.v1 (broadcastInDim S1x64 ![1] bcast_S64_S1x64_1),
    StableHlo.TRef.nullary main_call2.cst_0 (constant S_ .f32 0x47435000#32),
    StableHlo.TRef.unary main_call2.cst_0 main_call2.v2 (broadcastInDim S1x64 ![] bcast_S_S1x64),
    StableHlo.TRef.binary main_call2.v1 main_call2.v2 main_call2.v3 Host.divf,
    StableHlo.TRef.unary main_call2.v3 main_call2.v4 (broadcastInDim S50000x64 ![0, 1] bcast_S1x64_S50000x64_0_1),
    StableHlo.TRef.binary (StableHlo.TRef.of (T := ⟨S50000x64, .f32⟩) main_v154) main_call2.v4 main_call2.v5 subf,
    StableHlo.TRef.binary main_call2.v5 main_call2.v5 main_call2.v6 mulf,
    StableHlo.TRef.unary (StableHlo.TRef.of (T := ⟨S_, .i32⟩) main_c_28) main_call2.v7 (sitofp .f32),
    StableHlo.TRef.nullary main_call2.cst_1 (constant S_ .f32 0x47435000#32),
    StableHlo.TRef.binary main_call2.cst_1 main_call2.v7 main_call2.v8 subf,
    StableHlo.TRef.nullary main_call2.cst_2 (constant S_ .f32 0x00000000#32),
    StableHlo.TRef.binary main_call2.v6 main_call2.cst_2 main_call2.v9 (fun x v => Host.reduceAdd x v reducesTo_S50000x64_S64_d0 h_S_),
    StableHlo.TRef.unary main_call2.v8 main_call2.v10 (broadcastInDim S64 ![] bcast_S_S64),
    StableHlo.TRef.binary main_call2.v9 main_call2.v10 main_call2.v11 Host.divf,
    StableHlo.TRef.nullary main_call2.cst_3 (constant S_ .f32 0x00000000#32),
    StableHlo.TRef.binary main_call2.v8 main_call2.cst_3 main_call2.v12 (cmpf .ogt),
    StableHlo.TRef.nullary main_call2.cst_4 (constant S_ .f32 0x7FC00000#32),
    StableHlo.TRef.unary main_call2.cst_4 main_call2.call0.v0 id,
    StableHlo.TRef.unary main_call2.call0.v0 main_call2.call0.v1 (broadcastInDim S64 ![] bcast_S_S64),
    StableHlo.TRef.ternary main_call2.v12 main_call2.v11 main_call2.call0.v1 main_call2.call0.v2 (fun p a b => select (broadcastInDim S64 ![] bcast_S_S64 p) a b),
    StableHlo.unary main_v157 main_v159 (broadcastInDim S1x64 ![1] bcast_S64_S1x64_1 : (⟨S64, .f32⟩ : BufTy).Contents (Elt F) → (⟨S1x64, .f32⟩ : BufTy).Contents (Elt F)),
    StableHlo.unary main_v159 main_v160 (broadcastInDim S50000x64 ![0, 1] bcast_S1x64_S50000x64_0_1 : (⟨S1x64, .f32⟩ : BufTy).Contents (Elt F) → (⟨S50000x64, .f32⟩ : BufTy).Contents (Elt F)),
    StableHlo.binary main_v154 main_v160 main_v161 (subf : (⟨S50000x64, .f32⟩ : BufTy).Contents (Elt F) → (⟨S50000x64, .f32⟩ : BufTy).Contents (Elt F) → (⟨S50000x64, .f32⟩ : BufTy).Contents (Elt F)),
    StableHlo.nullary main_cst_29 (constant S_ .f32 0x3727C5AC#32),
    StableHlo.unary main_cst_29 main_v162 (broadcastInDim S64 ![] bcast_S_S64 : (⟨S_, .f32⟩ : BufTy).Contents (Elt F) → (⟨S64, .f32⟩ : BufTy).Contents (Elt F)),
    StableHlo.binary main_v158 main_v162 main_v163 (addf : (⟨S64, .f32⟩ : BufTy).Contents (Elt F) → (⟨S64, .f32⟩ : BufTy).Contents (Elt F) → (⟨S64, .f32⟩ : BufTy).Contents (Elt F)),
    StableHlo.unary main_v163 main_v164 (Host.rsqrt : (⟨S64, .f32⟩ : BufTy).Contents (Elt F) → (⟨S64, .f32⟩ : BufTy).Contents (Elt F)),
    StableHlo.unary main_v164 main_v165 (broadcastInDim S1x64 ![1] bcast_S64_S1x64_1 : (⟨S64, .f32⟩ : BufTy).Contents (Elt F) → (⟨S1x64, .f32⟩ : BufTy).Contents (Elt F)),
    StableHlo.unary main_v165 main_v166 (broadcastInDim S50000x64 ![0, 1] bcast_S1x64_S50000x64_0_1 : (⟨S1x64, .f32⟩ : BufTy).Contents (Elt F) → (⟨S50000x64, .f32⟩ : BufTy).Contents (Elt F)),
    StableHlo.binary main_v161 main_v166 main_v167 (mulf : (⟨S50000x64, .f32⟩ : BufTy).Contents (Elt F) → (⟨S50000x64, .f32⟩ : BufTy).Contents (Elt F) → (⟨S50000x64, .f32⟩ : BufTy).Contents (Elt F)),
    StableHlo.unary main_arg8 main_v168 ((extractStridedSlice S1x64 ![1, 0] · slices_S4x64_S1x64_1_0) : (⟨S4x64, .f32⟩ : BufTy).Contents (Elt F) → (⟨S1x64, .f32⟩ : BufTy).Contents (Elt F)),
    StableHlo.reshape main_v168 main_v169 rfl shapeCasts_S1x64_S64,
    StableHlo.unary main_v169 main_v170 (broadcastInDim S1x64 ![1] bcast_S64_S1x64_1 : (⟨S64, .f32⟩ : BufTy).Contents (Elt F) → (⟨S1x64, .f32⟩ : BufTy).Contents (Elt F)),
    StableHlo.unary main_v170 main_v171 (broadcastInDim S50000x64 ![0, 1] bcast_S1x64_S50000x64_0_1 : (⟨S1x64, .f32⟩ : BufTy).Contents (Elt F) → (⟨S50000x64, .f32⟩ : BufTy).Contents (Elt F)),
    StableHlo.binary main_v167 main_v171 main_v172 (mulf : (⟨S50000x64, .f32⟩ : BufTy).Contents (Elt F) → (⟨S50000x64, .f32⟩ : BufTy).Contents (Elt F) → (⟨S50000x64, .f32⟩ : BufTy).Contents (Elt F)),
    StableHlo.unary main_arg9 main_v173 ((extractStridedSlice S1x64 ![1, 0] · slices_S4x64_S1x64_1_0) : (⟨S4x64, .f32⟩ : BufTy).Contents (Elt F) → (⟨S1x64, .f32⟩ : BufTy).Contents (Elt F)),
    StableHlo.reshape main_v173 main_v174 rfl shapeCasts_S1x64_S64,
    StableHlo.unary main_v174 main_v175 (broadcastInDim S1x64 ![1] bcast_S64_S1x64_1 : (⟨S64, .f32⟩ : BufTy).Contents (Elt F) → (⟨S1x64, .f32⟩ : BufTy).Contents (Elt F)),
    StableHlo.unary main_v175 main_v176 (broadcastInDim S50000x64 ![0, 1] bcast_S1x64_S50000x64_0_1 : (⟨S1x64, .f32⟩ : BufTy).Contents (Elt F) → (⟨S50000x64, .f32⟩ : BufTy).Contents (Elt F)),
    StableHlo.binary main_v172 main_v176 main_v177 (addf : (⟨S50000x64, .f32⟩ : BufTy).Contents (Elt F) → (⟨S50000x64, .f32⟩ : BufTy).Contents (Elt F) → (⟨S50000x64, .f32⟩ : BufTy).Contents (Elt F)),
    StableHlo.TRef.nullary main_call3.cst (constant S_ .f32 0x00000000#32),
    StableHlo.TRef.unary main_call3.cst main_call3.v0 (broadcastInDim S50000x64 ![] bcast_S_S50000x64),
    StableHlo.TRef.binary (StableHlo.TRef.of (T := ⟨S50000x64, .f32⟩) main_v177) main_call3.v0 main_call3.v1 maximumf,
    StableHlo.binary main_v108 main_v178 main_v179 (addf : (⟨S50000x64, .f32⟩ : BufTy).Contents (Elt F) → (⟨S50000x64, .f32⟩ : BufTy).Contents (Elt F) → (⟨S50000x64, .f32⟩ : BufTy).Contents (Elt F)),
    StableHlo.unary main_arg10 main_v180 ((extractStridedSlice S1x2x2 ![2, 0, 0] · slices_S4x2x2_S1x2x2_2_0_0) : (⟨S4x2x2, .f32⟩ : BufTy).Contents (Elt F) → (⟨S1x2x2, .f32⟩ : BufTy).Contents (Elt F)),
    StableHlo.reshape main_v180 main_v181 rfl shapeCasts_S1x2x2_S2x2,
    StableHlo.unary main_v181 main_v182 ((transpose S2x2 [1, 0] · transposes_S2x2_S2x2_1_0) : (⟨S2x2, .f32⟩ : BufTy).Contents (Elt F) → (⟨S2x2, .f32⟩ : BufTy).Contents (Elt F)),
    StableHlo.binary main_v30 main_v182 main_v183 ((fun l r => Host.dotGeneral dot_S800000x2_S2x2_S800000x2_1_0_0_1_n_n none l r) : (⟨S800000x2, .f32⟩ : BufTy).Contents (Elt F) → (⟨S2x2, .f32⟩ : BufTy).Contents (Elt F) → (⟨S800000x2, .f32⟩ : BufTy).Contents (Elt F)),
    StableHlo.unary main_arg11 main_v184 ((extractStridedSlice S1x2 ![2, 0] · slices_S4x2_S1x2_2_0) : (⟨S4x2, .f32⟩ : BufTy).Contents (Elt F) → (⟨S1x2, .f32⟩ : BufTy).Contents (Elt F)),
    StableHlo.reshape main_v184 main_v185 rfl shapeCasts_S1x2_S2,
    StableHlo.unary main_v185 main_v186 (broadcastInDim S1x2 ![1] bcast_S2_S1x2_1 : (⟨S2, .f32⟩ : BufTy).Contents (Elt F) → (⟨S1x2, .f32⟩ : BufTy).Contents (Elt F)),
    StableHlo.unary main_v186 main_v187 (broadcastInDim S800000x2 ![0, 1] bcast_S1x2_S800000x2_0_1 : (⟨S1x2, .f32⟩ : BufTy).Contents (Elt F) → (⟨S800000x2, .f32⟩ : BufTy).Contents (Elt F)),
    StableHlo.binary main_v183 main_v187 main_v188 (addf : (⟨S800000x2, .f32⟩ : BufTy).Contents (Elt F) → (⟨S800000x2, .f32⟩ : BufTy).Contents (Elt F) → (⟨S800000x2, .f32⟩ : BufTy).Contents (Elt F)),
    StableHlo.unary main_v188 main_v189 (Host.tanh : (⟨S800000x2, .f32⟩ : BufTy).Contents (Elt F) → (⟨S800000x2, .f32⟩ : BufTy).Contents (Elt F)),
    StableHlo.unary main_v189 main_v190 (broadcastInDim S800000x1x2 ![0, 2] bcast_S800000x2_S800000x1x2_0_2 : (⟨S800000x2, .f32⟩ : BufTy).Contents (Elt F) → (⟨S800000x1x2, .f32⟩ : BufTy).Contents (Elt F)),
    StableHlo.unary main_arg6 main_v191 ((extractStridedSlice S1x3x2 ![2, 0, 0] · slices_S4x3x2_S1x3x2_2_0_0) : (⟨S4x3x2, .f32⟩ : BufTy).Contents (Elt F) → (⟨S1x3x2, .f32⟩ : BufTy).Contents (Elt F)),
    StableHlo.reshape main_v191 main_v192 rfl shapeCasts_S1x3x2_S3x2,
    StableHlo.unary main_v192 main_v193 (broadcastInDim S1x3x2 ![1, 2] bcast_S3x2_S1x3x2_1_2 : (⟨S3x2, .f32⟩ : BufTy).Contents (Elt F) → (⟨S1x3x2, .f32⟩ : BufTy).Contents (Elt F)),
    StableHlo.unary main_v190 main_v194 (broadcastInDim S800000x3x2 ![0, 1, 2] bcast_S800000x1x2_S800000x3x2_0_1_2 : (⟨S800000x1x2, .f32⟩ : BufTy).Contents (Elt F) → (⟨S800000x3x2, .f32⟩ : BufTy).Contents (Elt F)),
    StableHlo.unary main_v193 main_v195 (broadcastInDim S800000x3x2 ![0, 1, 2] bcast_S1x3x2_S800000x3x2_0_1_2 : (⟨S1x3x2, .f32⟩ : BufTy).Contents (Elt F) → (⟨S800000x3x2, .f32⟩ : BufTy).Contents (Elt F)),
    StableHlo.binary main_v194 main_v195 main_v196 (subf : (⟨S800000x3x2, .f32⟩ : BufTy).Contents (Elt F) → (⟨S800000x3x2, .f32⟩ : BufTy).Contents (Elt F) → (⟨S800000x3x2, .f32⟩ : BufTy).Contents (Elt F)),
    StableHlo.unary main_arg7 main_v197 ((extractStridedSlice S1x3x2 ![2, 0, 0] · slices_S4x3x2_S1x3x2_2_0_0) : (⟨S4x3x2, .f32⟩ : BufTy).Contents (Elt F) → (⟨S1x3x2, .f32⟩ : BufTy).Contents (Elt F)),
    StableHlo.reshape main_v197 main_v198 rfl shapeCasts_S1x3x2_S3x2,
    StableHlo.unary main_v198 main_v199 (broadcastInDim S1x3x2 ![1, 2] bcast_S3x2_S1x3x2_1_2 : (⟨S3x2, .f32⟩ : BufTy).Contents (Elt F) → (⟨S1x3x2, .f32⟩ : BufTy).Contents (Elt F)),
    StableHlo.unary main_v199 main_v200 (broadcastInDim S800000x3x2 ![0, 1, 2] bcast_S1x3x2_S800000x3x2_0_1_2 : (⟨S1x3x2, .f32⟩ : BufTy).Contents (Elt F) → (⟨S800000x3x2, .f32⟩ : BufTy).Contents (Elt F)),
    StableHlo.binary main_v196 main_v200 main_v201 (mulf : (⟨S800000x3x2, .f32⟩ : BufTy).Contents (Elt F) → (⟨S800000x3x2, .f32⟩ : BufTy).Contents (Elt F) → (⟨S800000x3x2, .f32⟩ : BufTy).Contents (Elt F)),
    StableHlo.binary main_v201 main_v201 main_v202 (mulf : (⟨S800000x3x2, .f32⟩ : BufTy).Contents (Elt F) → (⟨S800000x3x2, .f32⟩ : BufTy).Contents (Elt F) → (⟨S800000x3x2, .f32⟩ : BufTy).Contents (Elt F)),
    StableHlo.nullary main_cst_30 (constant S_ .f32 0x00000000#32),
    StableHlo.binary main_v202 main_cst_30 main_v203 ((fun x v => Host.reduceAdd x v reducesTo_S800000x3x2_S800000x3_d2 h_S_) : (⟨S800000x3x2, .f32⟩ : BufTy).Contents (Elt F) → (⟨S_, .f32⟩ : BufTy).Contents (Elt F) → (⟨S800000x3, .f32⟩ : BufTy).Contents (Elt F)),
    StableHlo.nullary main_cst_31 (constant S_ .f32 0xBF000000#32),
    StableHlo.unary main_cst_31 main_v204 (broadcastInDim S800000x3 ![] bcast_S_S800000x3 : (⟨S_, .f32⟩ : BufTy).Contents (Elt F) → (⟨S800000x3, .f32⟩ : BufTy).Contents (Elt F)),
    StableHlo.binary main_v204 main_v203 main_v205 (mulf : (⟨S800000x3, .f32⟩ : BufTy).Contents (Elt F) → (⟨S800000x3, .f32⟩ : BufTy).Contents (Elt F) → (⟨S800000x3, .f32⟩ : BufTy).Contents (Elt F)) ]

set_option maxRecDepth 8192 in
theorem main_part3_eq (c : Dev nD) : main_part3 (F := F) c = seq ops_part3 := rfl

set_option maxRecDepth 8192 in
theorem ops_part3_sub : (ops_part3 : List (HloOp τ sig (Elt F))).Forall fun op => op.bufs ⊆ tcRefs τ sig :=
  ⟨ternary_bufs_sub .., nullary_bufs_sub .., binary_bufs_sub .., nullary_bufs_sub .., binary_bufs_sub .., nullary_bufs_sub ..,
    unary_bufs_sub .., binary_bufs_sub .., nullary_bufs_sub .., nullary_bufs_sub .., binary_bufs_sub .., unary_bufs_sub ..,
    nullary_bufs_sub .., unary_bufs_sub .., binary_bufs_sub .., unary_bufs_sub .., binary_bufs_sub .., binary_bufs_sub ..,
    unary_bufs_sub .., nullary_bufs_sub .., binary_bufs_sub .., nullary_bufs_sub .., binary_bufs_sub .., unary_bufs_sub ..,
    binary_bufs_sub .., nullary_bufs_sub .., binary_bufs_sub .., nullary_bufs_sub .., unary_bufs_sub .., unary_bufs_sub ..,
    ternary_bufs_sub .., unary_bufs_sub .., unary_bufs_sub .., binary_bufs_sub .., nullary_bufs_sub .., unary_bufs_sub ..,
    binary_bufs_sub .., unary_bufs_sub .., unary_bufs_sub .., unary_bufs_sub .., binary_bufs_sub .., unary_bufs_sub ..,
    reshape_bufs_sub .., unary_bufs_sub .., unary_bufs_sub .., binary_bufs_sub .., unary_bufs_sub .., reshape_bufs_sub ..,
    unary_bufs_sub .., unary_bufs_sub .., binary_bufs_sub .., nullary_bufs_sub .., unary_bufs_sub .., binary_bufs_sub ..,
    binary_bufs_sub .., unary_bufs_sub .., reshape_bufs_sub .., unary_bufs_sub .., binary_bufs_sub .., unary_bufs_sub ..,
    reshape_bufs_sub .., unary_bufs_sub .., unary_bufs_sub .., binary_bufs_sub .., unary_bufs_sub .., unary_bufs_sub ..,
    unary_bufs_sub .., reshape_bufs_sub .., unary_bufs_sub .., unary_bufs_sub .., unary_bufs_sub .., binary_bufs_sub ..,
    unary_bufs_sub .., reshape_bufs_sub .., unary_bufs_sub .., unary_bufs_sub .., binary_bufs_sub .., binary_bufs_sub ..,
    nullary_bufs_sub .., binary_bufs_sub .., nullary_bufs_sub .., unary_bufs_sub .., binary_bufs_sub ..⟩

set_option maxRecDepth 8192 in
theorem ops_part3_fresh : (ops_part3 : List (HloOp τ sig (Elt F))).Forall fun op => op.fresh = ∅ :=
  ⟨rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl,
    rfl, rfl, rfl⟩

/-- The operations 287 … 369 of 503 of @main (its window `main_part4`), each called function's operations in its call's place over that call's record of buffers. -/
abbrev ops_part4 : List (HloOp τ sig (Elt F)) :=
  [ StableHlo.unary main_v205 main_v206 (Host.exp : (⟨S800000x3, .f32⟩ : BufTy).Contents (Elt F) → (⟨S800000x3, .f32⟩ : BufTy).Contents (Elt F)),
    StableHlo.unary main_arg5 main_v207 ((extractStridedSlice S1x192x64 ![2, 0, 0] · slices_S4x192x64_S1x192x64_2_0_0) : (⟨S4x192x64, .f32⟩ : BufTy).Contents (Elt F) → (⟨S1x192x64, .f32⟩ : BufTy).Contents (Elt F)),
    StableHlo.reshape main_v207 main_v208 rfl shapeCasts_S1x192x64_S192x64,
    StableHlo.unary main_v208 main_v209 ((transpose S64x192 [1, 0] · transposes_S192x64_S64x192_1_0) : (⟨S192x64, .f32⟩ : BufTy).Contents (Elt F) → (⟨S64x192, .f32⟩ : BufTy).Contents (Elt F)),
    StableHlo.binary main_v179 main_v209 main_v210 ((fun l r => Host.dotGeneral dot_S50000x64_S64x192_S50000x192_1_0_0_1_n_n none l r) : (⟨S50000x64, .f32⟩ : BufTy).Contents (Elt F) → (⟨S64x192, .f32⟩ : BufTy).Contents (Elt F) → (⟨S50000x192, .f32⟩ : BufTy).Contents (Elt F)),
    StableHlo.reshape main_v210 main_v211 rfl shapeCasts_S50000x192_S50000x3x64,
    StableHlo.nullary main_c_32 (constantI S_ 32 0#32),
    StableHlo.unary main_c_32 main_v212 (broadcastInDim S800000 ![] bcast_S_S800000 : (⟨S_, .i32⟩ : BufTy).Contents (Elt F) → (⟨S800000, .i32⟩ : BufTy).Contents (Elt F)),
    StableHlo.binary main_arg1 main_v212 main_v213 (cmpi .slt : (⟨S800000, .i32⟩ : BufTy).Contents (Elt F) → (⟨S800000, .i32⟩ : BufTy).Contents (Elt F) → (⟨S800000, .i1⟩ : BufTy).Contents (Elt F)),
    StableHlo.nullary main_c_33 (constantI S_ 32 50000#32),
    StableHlo.unary main_c_33 main_v214 (broadcastInDim S800000 ![] bcast_S_S800000 : (⟨S_, .i32⟩ : BufTy).Contents (Elt F) → (⟨S800000, .i32⟩ : BufTy).Contents (Elt F)),
    StableHlo.binary main_arg1 main_v214 main_v215 (addi : (⟨S800000, .i32⟩ : BufTy).Contents (Elt F) → (⟨S800000, .i32⟩ : BufTy).Contents (Elt F) → (⟨S800000, .i32⟩ : BufTy).Contents (Elt F)),
    StableHlo.ternary main_v213 main_v215 main_arg1 main_v216 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v216 main_v217 (broadcastInDim S800000x1 ![0] bcast_S800000_S800000x1_0 : (⟨S800000, .i32⟩ : BufTy).Contents (Elt F) → (⟨S800000x1, .i32⟩ : BufTy).Contents (Elt F)),
    StableHlo.binary main_v211 main_v217 main_v218 ((fun x i => Host.gather gather_S50000x3x64_S800000x1_S800000x3x64_12_0_n_n_0_1_1364 x i) : (⟨S50000x3x64, .f32⟩ : BufTy).Contents (Elt F) → (⟨S800000x1, .i32⟩ : BufTy).Contents (Elt F) → (⟨S800000x3x64, .f32⟩ : BufTy).Contents (Elt F)),
    StableHlo.unary main_v206 main_v219 (broadcastInDim S800000x3x1 ![0, 1] bcast_S800000x3_S800000x3x1_0_1 : (⟨S800000x3, .f32⟩ : BufTy).Contents (Elt F) → (⟨S800000x3x1, .f32⟩ : BufTy).Contents (Elt F)),
    StableHlo.unary main_v219 main_v220 (broadcastInDim S800000x3x64 ![0, 1, 2] bcast_S800000x3x1_S800000x3x64_0_1_2 : (⟨S800000x3x1, .f32⟩ : BufTy).Contents (Elt F) → (⟨S800000x3x64, .f32⟩ : BufTy).Contents (Elt F)),
    StableHlo.binary main_v218 main_v220 main_v221 (mulf : (⟨S800000x3x64, .f32⟩ : BufTy).Contents (Elt F) → (⟨S800000x3x64, .f32⟩ : BufTy).Contents (Elt F) → (⟨S800000x3x64, .f32⟩ : BufTy).Contents (Elt F)),
    StableHlo.nullary main_cst_34 (constant S_ .f32 0x00000000#32),
    StableHlo.unary main_cst_34 main_v222 (broadcastInDim S50000x3x64 ![] bcast_S_S50000x3x64 : (⟨S_, .f32⟩ : BufTy).Contents (Elt F) → (⟨S50000x3x64, .f32⟩ : BufTy).Contents (Elt F)),
    StableHlo.unary main_arg2 main_v223 (broadcastInDim S800000x1 ![0] bcast_S800000_S800000x1_0 : (⟨S800000, .i32⟩ : BufTy).Contents (Elt F) → (⟨S800000x1, .i32⟩ : BufTy).Contents (Elt F)),
    StableHlo.ternary main_v222 main_v223 main_v221 main_v224 ((fun x i u => Host.scatterAdd scatter_S50000x3x64_S800000x1_S800000x3x64_12_0_0_1 x i u) : (⟨S50000x3x64, .f32⟩ : BufTy).Contents (Elt F) → (⟨S800000x1, .i32⟩ : BufTy).Contents (Elt F) → (⟨S800000x3x64, .f32⟩ : BufTy).Contents (Elt F) → (⟨S50000x3x64, .f32⟩ : BufTy).Contents (Elt F)),
    StableHlo.nullary main_cst_35 (constant S_ .f32 0x00000000#32),
    StableHlo.binary main_v224 main_cst_35 main_v225 ((fun x v => Host.reduceAdd x v reducesTo_S50000x3x64_S50000x64_d1 h_S_) : (⟨S50000x3x64, .f32⟩ : BufTy).Contents (Elt F) → (⟨S_, .f32⟩ : BufTy).Contents (Elt F) → (⟨S50000x64, .f32⟩ : BufTy).Contents (Elt F)),
    StableHlo.nullary main_cst_36 (constant S_ .f32 0x00000000#32),
    StableHlo.binary main_v225 main_cst_36 main_v226 ((fun x v => Host.reduceAdd x v reducesTo_S50000x64_S64_d0 h_S_) : (⟨S50000x64, .f32⟩ : BufTy).Contents (Elt F) → (⟨S_, .f32⟩ : BufTy).Contents (Elt F) → (⟨S64, .f32⟩ : BufTy).Contents (Elt F)),
    StableHlo.nullary main_cst_37 (constant S_ .f32 0x47435000#32),
    StableHlo.unary main_cst_37 main_v227 (broadcastInDim S64 ![] bcast_S_S64 : (⟨S_, .f32⟩ : BufTy).Contents (Elt F) → (⟨S64, .f32⟩ : BufTy).Contents (Elt F)),
    StableHlo.binary main_v226 main_v227 main_v228 (Host.divf : (⟨S64, .f32⟩ : BufTy).Contents (Elt F) → (⟨S64, .f32⟩ : BufTy).Contents (Elt F) → (⟨S64, .f32⟩ : BufTy).Contents (Elt F)),
    StableHlo.nullary main_c_38 (constantI S_ 32 0#32),
    StableHlo.TRef.nullary main_call4.cst (constant S_ .f32 0x00000000#32),
    StableHlo.TRef.binary (StableHlo.TRef.of (T := ⟨S50000x64, .f32⟩) main_v225) main_call4.cst main_call4.v0 (fun x v => Host.reduceAdd x v reducesTo_S50000x64_S64_d0 h_S_),
    StableHlo.TRef.unary main_call4.v0 main_call4.v1 (broadcastInDim S1x64 ![1] bcast_S64_S1x64_1),
    StableHlo.TRef.nullary main_call4.cst_0 (constant S_ .f32 0x47435000#32),
    StableHlo.TRef.unary main_call4.cst_0 main_call4.v2 (broadcastInDim S1x64 ![] bcast_S_S1x64),
    StableHlo.TRef.binary main_call4.v1 main_call4.v2 main_call4.v3 Host.divf,
    StableHlo.TRef.unary main_call4.v3 main_call4.v4 (broadcastInDim S50000x64 ![0, 1] bcast_S1x64_S50000x64_0_1),
    StableHlo.TRef.binary (StableHlo.TRef.of (T := ⟨S50000x64, .f32⟩) main_v225) main_call4.v4 main_call4.v5 subf,
    StableHlo.TRef.binary main_call4.v5 main_call4.v5 main_call4.v6 mulf,
    StableHlo.TRef.unary (StableHlo.TRef.of (T := ⟨S_, .i32⟩) main_c_38) main_call4.v7 (sitofp .f32),
    StableHlo.TRef.nullary main_call4.cst_1 (constant S_ .f32 0x47435000#32),
    StableHlo.TRef.binary main_call4.cst_1 main_call4.v7 main_call4.v8 subf,
    StableHlo.TRef.nullary main_call4.cst_2 (constant S_ .f32 0x00000000#32),
    StableHlo.TRef.binary main_call4.v6 main_call4.cst_2 main_call4.v9 (fun x v => Host.reduceAdd x v reducesTo_S50000x64_S64_d0 h_S_),
    StableHlo.TRef.unary main_call4.v8 main_call4.v10 (broadcastInDim S64 ![] bcast_S_S64),
    StableHlo.TRef.binary main_call4.v9 main_call4.v10 main_call4.v11 Host.divf,
    StableHlo.TRef.nullary main_call4.cst_3 (constant S_ .f32 0x00000000#32),
    StableHlo.TRef.binary main_call4.v8 main_call4.cst_3 main_call4.v12 (cmpf .ogt),
    StableHlo.TRef.nullary main_call4.cst_4 (constant S_ .f32 0x7FC00000#32),
    StableHlo.TRef.unary main_call4.cst_4 main_call4.call0.v0 id,
    StableHlo.TRef.unary main_call4.call0.v0 main_call4.call0.v1 (broadcastInDim S64 ![] bcast_S_S64),
    StableHlo.TRef.ternary main_call4.v12 main_call4.v11 main_call4.call0.v1 main_call4.call0.v2 (fun p a b => select (broadcastInDim S64 ![] bcast_S_S64 p) a b),
    StableHlo.unary main_v228 main_v230 (broadcastInDim S1x64 ![1] bcast_S64_S1x64_1 : (⟨S64, .f32⟩ : BufTy).Contents (Elt F) → (⟨S1x64, .f32⟩ : BufTy).Contents (Elt F)),
    StableHlo.unary main_v230 main_v231 (broadcastInDim S50000x64 ![0, 1] bcast_S1x64_S50000x64_0_1 : (⟨S1x64, .f32⟩ : BufTy).Contents (Elt F) → (⟨S50000x64, .f32⟩ : BufTy).Contents (Elt F)),
    StableHlo.binary main_v225 main_v231 main_v232 (subf : (⟨S50000x64, .f32⟩ : BufTy).Contents (Elt F) → (⟨S50000x64, .f32⟩ : BufTy).Contents (Elt F) → (⟨S50000x64, .f32⟩ : BufTy).Contents (Elt F)),
    StableHlo.nullary main_cst_39 (constant S_ .f32 0x3727C5AC#32),
    StableHlo.unary main_cst_39 main_v233 (broadcastInDim S64 ![] bcast_S_S64 : (⟨S_, .f32⟩ : BufTy).Contents (Elt F) → (⟨S64, .f32⟩ : BufTy).Contents (Elt F)),
    StableHlo.binary main_v229 main_v233 main_v234 (addf : (⟨S64, .f32⟩ : BufTy).Contents (Elt F) → (⟨S64, .f32⟩ : BufTy).Contents (Elt F) → (⟨S64, .f32⟩ : BufTy).Contents (Elt F)),
    StableHlo.unary main_v234 main_v235 (Host.rsqrt : (⟨S64, .f32⟩ : BufTy).Contents (Elt F) → (⟨S64, .f32⟩ : BufTy).Contents (Elt F)),
    StableHlo.unary main_v235 main_v236 (broadcastInDim S1x64 ![1] bcast_S64_S1x64_1 : (⟨S64, .f32⟩ : BufTy).Contents (Elt F) → (⟨S1x64, .f32⟩ : BufTy).Contents (Elt F)),
    StableHlo.unary main_v236 main_v237 (broadcastInDim S50000x64 ![0, 1] bcast_S1x64_S50000x64_0_1 : (⟨S1x64, .f32⟩ : BufTy).Contents (Elt F) → (⟨S50000x64, .f32⟩ : BufTy).Contents (Elt F)),
    StableHlo.binary main_v232 main_v237 main_v238 (mulf : (⟨S50000x64, .f32⟩ : BufTy).Contents (Elt F) → (⟨S50000x64, .f32⟩ : BufTy).Contents (Elt F) → (⟨S50000x64, .f32⟩ : BufTy).Contents (Elt F)),
    StableHlo.unary main_arg8 main_v239 ((extractStridedSlice S1x64 ![2, 0] · slices_S4x64_S1x64_2_0) : (⟨S4x64, .f32⟩ : BufTy).Contents (Elt F) → (⟨S1x64, .f32⟩ : BufTy).Contents (Elt F)),
    StableHlo.reshape main_v239 main_v240 rfl shapeCasts_S1x64_S64,
    StableHlo.unary main_v240 main_v241 (broadcastInDim S1x64 ![1] bcast_S64_S1x64_1 : (⟨S64, .f32⟩ : BufTy).Contents (Elt F) → (⟨S1x64, .f32⟩ : BufTy).Contents (Elt F)),
    StableHlo.unary main_v241 main_v242 (broadcastInDim S50000x64 ![0, 1] bcast_S1x64_S50000x64_0_1 : (⟨S1x64, .f32⟩ : BufTy).Contents (Elt F) → (⟨S50000x64, .f32⟩ : BufTy).Contents (Elt F)),
    StableHlo.binary main_v238 main_v242 main_v243 (mulf : (⟨S50000x64, .f32⟩ : BufTy).Contents (Elt F) → (⟨S50000x64, .f32⟩ : BufTy).Contents (Elt F) → (⟨S50000x64, .f32⟩ : BufTy).Contents (Elt F)),
    StableHlo.unary main_arg9 main_v244 ((extractStridedSlice S1x64 ![2, 0] · slices_S4x64_S1x64_2_0) : (⟨S4x64, .f32⟩ : BufTy).Contents (Elt F) → (⟨S1x64, .f32⟩ : BufTy).Contents (Elt F)),
    StableHlo.reshape main_v244 main_v245 rfl shapeCasts_S1x64_S64,
    StableHlo.unary main_v245 main_v246 (broadcastInDim S1x64 ![1] bcast_S64_S1x64_1 : (⟨S64, .f32⟩ : BufTy).Contents (Elt F) → (⟨S1x64, .f32⟩ : BufTy).Contents (Elt F)),
    StableHlo.unary main_v246 main_v247 (broadcastInDim S50000x64 ![0, 1] bcast_S1x64_S50000x64_0_1 : (⟨S1x64, .f32⟩ : BufTy).Contents (Elt F) → (⟨S50000x64, .f32⟩ : BufTy).Contents (Elt F)),
    StableHlo.binary main_v243 main_v247 main_v248 (addf : (⟨S50000x64, .f32⟩ : BufTy).Contents (Elt F) → (⟨S50000x64, .f32⟩ : BufTy).Contents (Elt F) → (⟨S50000x64, .f32⟩ : BufTy).Contents (Elt F)),
    StableHlo.TRef.nullary main_call5.cst (constant S_ .f32 0x00000000#32),
    StableHlo.TRef.unary main_call5.cst main_call5.v0 (broadcastInDim S50000x64 ![] bcast_S_S50000x64),
    StableHlo.TRef.binary (StableHlo.TRef.of (T := ⟨S50000x64, .f32⟩) main_v248) main_call5.v0 main_call5.v1 maximumf,
    StableHlo.binary main_v179 main_v249 main_v250 (addf : (⟨S50000x64, .f32⟩ : BufTy).Contents (Elt F) → (⟨S50000x64, .f32⟩ : BufTy).Contents (Elt F) → (⟨S50000x64, .f32⟩ : BufTy).Contents (Elt F)),
    StableHlo.unary main_arg10 main_v251 ((extractStridedSlice S1x2x2 ![3, 0, 0] · slices_S4x2x2_S1x2x2_3_0_0) : (⟨S4x2x2, .f32⟩ : BufTy).Contents (Elt F) → (⟨S1x2x2, .f32⟩ : BufTy).Contents (Elt F)),
    StableHlo.reshape main_v251 main_v252 rfl shapeCasts_S1x2x2_S2x2,
    StableHlo.unary main_v252 main_v253 ((transpose S2x2 [1, 0] · transposes_S2x2_S2x2_1_0) : (⟨S2x2, .f32⟩ : BufTy).Contents (Elt F) → (⟨S2x2, .f32⟩ : BufTy).Contents (Elt F)),
    StableHlo.binary main_v30 main_v253 main_v254 ((fun l r => Host.dotGeneral dot_S800000x2_S2x2_S800000x2_1_0_0_1_n_n none l r) : (⟨S800000x2, .f32⟩ : BufTy).Contents (Elt F) → (⟨S2x2, .f32⟩ : BufTy).Contents (Elt F) → (⟨S800000x2, .f32⟩ : BufTy).Contents (Elt F)),
    StableHlo.unary main_arg11 main_v255 ((extractStridedSlice S1x2 ![3, 0] · slices_S4x2_S1x2_3_0) : (⟨S4x2, .f32⟩ : BufTy).Contents (Elt F) → (⟨S1x2, .f32⟩ : BufTy).Contents (Elt F)),
    StableHlo.reshape main_v255 main_v256 rfl shapeCasts_S1x2_S2,
    StableHlo.unary main_v256 main_v257 (broadcastInDim S1x2 ![1] bcast_S2_S1x2_1 : (⟨S2, .f32⟩ : BufTy).Contents (Elt F) → (⟨S1x2, .f32⟩ : BufTy).Contents (Elt F)) ]

set_option maxRecDepth 8192 in
theorem main_part4_eq (c : Dev nD) : main_part4 (F := F) c = seq ops_part4 := rfl

set_option maxRecDepth 8192 in
theorem ops_part4_sub : (ops_part4 : List (HloOp τ sig (Elt F))).Forall fun op => op.bufs ⊆ tcRefs τ sig :=
  ⟨unary_bufs_sub .., unary_bufs_sub .., reshape_bufs_sub .., unary_bufs_sub .., binary_bufs_sub .., reshape_bufs_sub ..,
    nullary_bufs_sub .., unary_bufs_sub .., binary_bufs_sub .., nullary_bufs_sub .., unary_bufs_sub .., binary_bufs_sub ..,
    ternary_bufs_sub .., unary_bufs_sub .., binary_bufs_sub .., unary_bufs_sub .., unary_bufs_sub .., binary_bufs_sub ..,
    nullary_bufs_sub .., unary_bufs_sub .., unary_bufs_sub .., ternary_bufs_sub .., nullary_bufs_sub .., binary_bufs_sub ..,
    nullary_bufs_sub .., binary_bufs_sub .., nullary_bufs_sub .., unary_bufs_sub .., binary_bufs_sub .., nullary_bufs_sub ..,
    nullary_bufs_sub .., binary_bufs_sub .., unary_bufs_sub .., nullary_bufs_sub .., unary_bufs_sub .., binary_bufs_sub ..,
    unary_bufs_sub .., binary_bufs_sub .., binary_bufs_sub .., unary_bufs_sub .., nullary_bufs_sub .., binary_bufs_sub ..,
    nullary_bufs_sub .., binary_bufs_sub .., unary_bufs_sub .., binary_bufs_sub .., nullary_bufs_sub .., binary_bufs_sub ..,
    nullary_bufs_sub .., unary_bufs_sub .., unary_bufs_sub .., ternary_bufs_sub .., unary_bufs_sub .., unary_bufs_sub ..,
    binary_bufs_sub .., nullary_bufs_sub .., unary_bufs_sub .., binary_bufs_sub .., unary_bufs_sub .., unary_bufs_sub ..,
    unary_bufs_sub .., binary_bufs_sub .., unary_bufs_sub .., reshape_bufs_sub .., unary_bufs_sub .., unary_bufs_sub ..,
    binary_bufs_sub .., unary_bufs_sub .., reshape_bufs_sub .., unary_bufs_sub .., unary_bufs_sub .., binary_bufs_sub ..,
    nullary_bufs_sub .., unary_bufs_sub .., binary_bufs_sub .., binary_bufs_sub .., unary_bufs_sub .., reshape_bufs_sub ..,
    unary_bufs_sub .., binary_bufs_sub .., unary_bufs_sub .., reshape_bufs_sub .., unary_bufs_sub ..⟩

set_option maxRecDepth 8192 in
theorem ops_part4_fresh : (ops_part4 : List (HloOp τ sig (Elt F))).Forall fun op => op.fresh = ∅ :=
  ⟨rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl,
    rfl, rfl, rfl⟩

/-- The operations 370 … 450 of 503 of @main (its window `main_part5`), each called function's operations in its call's place over that call's record of buffers. -/
abbrev ops_part5 : List (HloOp τ sig (Elt F)) :=
  [ StableHlo.unary main_v257 main_v258 (broadcastInDim S800000x2 ![0, 1] bcast_S1x2_S800000x2_0_1 : (⟨S1x2, .f32⟩ : BufTy).Contents (Elt F) → (⟨S800000x2, .f32⟩ : BufTy).Contents (Elt F)),
    StableHlo.binary main_v254 main_v258 main_v259 (addf : (⟨S800000x2, .f32⟩ : BufTy).Contents (Elt F) → (⟨S800000x2, .f32⟩ : BufTy).Contents (Elt F) → (⟨S800000x2, .f32⟩ : BufTy).Contents (Elt F)),
    StableHlo.unary main_v259 main_v260 (Host.tanh : (⟨S800000x2, .f32⟩ : BufTy).Contents (Elt F) → (⟨S800000x2, .f32⟩ : BufTy).Contents (Elt F)),
    StableHlo.unary main_v260 main_v261 (broadcastInDim S800000x1x2 ![0, 2] bcast_S800000x2_S800000x1x2_0_2 : (⟨S800000x2, .f32⟩ : BufTy).Contents (Elt F) → (⟨S800000x1x2, .f32⟩ : BufTy).Contents (Elt F)),
    StableHlo.unary main_arg6 main_v262 ((extractStridedSlice S1x3x2 ![3, 0, 0] · slices_S4x3x2_S1x3x2_3_0_0) : (⟨S4x3x2, .f32⟩ : BufTy).Contents (Elt F) → (⟨S1x3x2, .f32⟩ : BufTy).Contents (Elt F)),
    StableHlo.reshape main_v262 main_v263 rfl shapeCasts_S1x3x2_S3x2,
    StableHlo.unary main_v263 main_v264 (broadcastInDim S1x3x2 ![1, 2] bcast_S3x2_S1x3x2_1_2 : (⟨S3x2, .f32⟩ : BufTy).Contents (Elt F) → (⟨S1x3x2, .f32⟩ : BufTy).Contents (Elt F)),
    StableHlo.unary main_v261 main_v265 (broadcastInDim S800000x3x2 ![0, 1, 2] bcast_S800000x1x2_S800000x3x2_0_1_2 : (⟨S800000x1x2, .f32⟩ : BufTy).Contents (Elt F) → (⟨S800000x3x2, .f32⟩ : BufTy).Contents (Elt F)),
    StableHlo.unary main_v264 main_v266 (broadcastInDim S800000x3x2 ![0, 1, 2] bcast_S1x3x2_S800000x3x2_0_1_2 : (⟨S1x3x2, .f32⟩ : BufTy).Contents (Elt F) → (⟨S800000x3x2, .f32⟩ : BufTy).Contents (Elt F)),
    StableHlo.binary main_v265 main_v266 main_v267 (subf : (⟨S800000x3x2, .f32⟩ : BufTy).Contents (Elt F) → (⟨S800000x3x2, .f32⟩ : BufTy).Contents (Elt F) → (⟨S800000x3x2, .f32⟩ : BufTy).Contents (Elt F)),
    StableHlo.unary main_arg7 main_v268 ((extractStridedSlice S1x3x2 ![3, 0, 0] · slices_S4x3x2_S1x3x2_3_0_0) : (⟨S4x3x2, .f32⟩ : BufTy).Contents (Elt F) → (⟨S1x3x2, .f32⟩ : BufTy).Contents (Elt F)),
    StableHlo.reshape main_v268 main_v269 rfl shapeCasts_S1x3x2_S3x2,
    StableHlo.unary main_v269 main_v270 (broadcastInDim S1x3x2 ![1, 2] bcast_S3x2_S1x3x2_1_2 : (⟨S3x2, .f32⟩ : BufTy).Contents (Elt F) → (⟨S1x3x2, .f32⟩ : BufTy).Contents (Elt F)),
    StableHlo.unary main_v270 main_v271 (broadcastInDim S800000x3x2 ![0, 1, 2] bcast_S1x3x2_S800000x3x2_0_1_2 : (⟨S1x3x2, .f32⟩ : BufTy).Contents (Elt F) → (⟨S800000x3x2, .f32⟩ : BufTy).Contents (Elt F)),
    StableHlo.binary main_v267 main_v271 main_v272 (mulf : (⟨S800000x3x2, .f32⟩ : BufTy).Contents (Elt F) → (⟨S800000x3x2, .f32⟩ : BufTy).Contents (Elt F) → (⟨S800000x3x2, .f32⟩ : BufTy).Contents (Elt F)),
    StableHlo.binary main_v272 main_v272 main_v273 (mulf : (⟨S800000x3x2, .f32⟩ : BufTy).Contents (Elt F) → (⟨S800000x3x2, .f32⟩ : BufTy).Contents (Elt F) → (⟨S800000x3x2, .f32⟩ : BufTy).Contents (Elt F)),
    StableHlo.nullary main_cst_40 (constant S_ .f32 0x00000000#32),
    StableHlo.binary main_v273 main_cst_40 main_v274 ((fun x v => Host.reduceAdd x v reducesTo_S800000x3x2_S800000x3_d2 h_S_) : (⟨S800000x3x2, .f32⟩ : BufTy).Contents (Elt F) → (⟨S_, .f32⟩ : BufTy).Contents (Elt F) → (⟨S800000x3, .f32⟩ : BufTy).Contents (Elt F)),
    StableHlo.nullary main_cst_41 (constant S_ .f32 0xBF000000#32),
    StableHlo.unary main_cst_41 main_v275 (broadcastInDim S800000x3 ![] bcast_S_S800000x3 : (⟨S_, .f32⟩ : BufTy).Contents (Elt F) → (⟨S800000x3, .f32⟩ : BufTy).Contents (Elt F)),
    StableHlo.binary main_v275 main_v274 main_v276 (mulf : (⟨S800000x3, .f32⟩ : BufTy).Contents (Elt F) → (⟨S800000x3, .f32⟩ : BufTy).Contents (Elt F) → (⟨S800000x3, .f32⟩ : BufTy).Contents (Elt F)),
    StableHlo.unary main_v276 main_v277 (Host.exp : (⟨S800000x3, .f32⟩ : BufTy).Contents (Elt F) → (⟨S800000x3, .f32⟩ : BufTy).Contents (Elt F)),
    StableHlo.unary main_arg5 main_v278 ((extractStridedSlice S1x192x64 ![3, 0, 0] · slices_S4x192x64_S1x192x64_3_0_0) : (⟨S4x192x64, .f32⟩ : BufTy).Contents (Elt F) → (⟨S1x192x64, .f32⟩ : BufTy).Contents (Elt F)),
    StableHlo.reshape main_v278 main_v279 rfl shapeCasts_S1x192x64_S192x64,
    StableHlo.unary main_v279 main_v280 ((transpose S64x192 [1, 0] · transposes_S192x64_S64x192_1_0) : (⟨S192x64, .f32⟩ : BufTy).Contents (Elt F) → (⟨S64x192, .f32⟩ : BufTy).Contents (Elt F)),
    StableHlo.binary main_v250 main_v280 main_v281 ((fun l r => Host.dotGeneral dot_S50000x64_S64x192_S50000x192_1_0_0_1_n_n none l r) : (⟨S50000x64, .f32⟩ : BufTy).Contents (Elt F) → (⟨S64x192, .f32⟩ : BufTy).Contents (Elt F) → (⟨S50000x192, .f32⟩ : BufTy).Contents (Elt F)),
    StableHlo.reshape main_v281 main_v282 rfl shapeCasts_S50000x192_S50000x3x64,
    StableHlo.nullary main_c_42 (constantI S_ 32 0#32),
    StableHlo.unary main_c_42 main_v283 (broadcastInDim S800000 ![] bcast_S_S800000 : (⟨S_, .i32⟩ : BufTy).Contents (Elt F) → (⟨S800000, .i32⟩ : BufTy).Contents (Elt F)),
    StableHlo.binary main_arg1 main_v283 main_v284 (cmpi .slt : (⟨S800000, .i32⟩ : BufTy).Contents (Elt F) → (⟨S800000, .i32⟩ : BufTy).Contents (Elt F) → (⟨S800000, .i1⟩ : BufTy).Contents (Elt F)),
    StableHlo.nullary main_c_43 (constantI S_ 32 50000#32),
    StableHlo.unary main_c_43 main_v285 (broadcastInDim S800000 ![] bcast_S_S800000 : (⟨S_, .i32⟩ : BufTy).Contents (Elt F) → (⟨S800000, .i32⟩ : BufTy).Contents (Elt F)),
    StableHlo.binary main_arg1 main_v285 main_v286 (addi : (⟨S800000, .i32⟩ : BufTy).Contents (Elt F) → (⟨S800000, .i32⟩ : BufTy).Contents (Elt F) → (⟨S800000, .i32⟩ : BufTy).Contents (Elt F)),
    StableHlo.ternary main_v284 main_v286 main_arg1 main_v287 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v287 main_v288 (broadcastInDim S800000x1 ![0] bcast_S800000_S800000x1_0 : (⟨S800000, .i32⟩ : BufTy).Contents (Elt F) → (⟨S800000x1, .i32⟩ : BufTy).Contents (Elt F)),
    StableHlo.binary main_v282 main_v288 main_v289 ((fun x i => Host.gather gather_S50000x3x64_S800000x1_S800000x3x64_12_0_n_n_0_1_1364 x i) : (⟨S50000x3x64, .f32⟩ : BufTy).Contents (Elt F) → (⟨S800000x1, .i32⟩ : BufTy).Contents (Elt F) → (⟨S800000x3x64, .f32⟩ : BufTy).Contents (Elt F)),
    StableHlo.unary main_v277 main_v290 (broadcastInDim S800000x3x1 ![0, 1] bcast_S800000x3_S800000x3x1_0_1 : (⟨S800000x3, .f32⟩ : BufTy).Contents (Elt F) → (⟨S800000x3x1, .f32⟩ : BufTy).Contents (Elt F)),
    StableHlo.unary main_v290 main_v291 (broadcastInDim S800000x3x64 ![0, 1, 2] bcast_S800000x3x1_S800000x3x64_0_1_2 : (⟨S800000x3x1, .f32⟩ : BufTy).Contents (Elt F) → (⟨S800000x3x64, .f32⟩ : BufTy).Contents (Elt F)),
    StableHlo.binary main_v289 main_v291 main_v292 (mulf : (⟨S800000x3x64, .f32⟩ : BufTy).Contents (Elt F) → (⟨S800000x3x64, .f32⟩ : BufTy).Contents (Elt F) → (⟨S800000x3x64, .f32⟩ : BufTy).Contents (Elt F)),
    StableHlo.nullary main_cst_44 (constant S_ .f32 0x00000000#32),
    StableHlo.unary main_cst_44 main_v293 (broadcastInDim S50000x3x64 ![] bcast_S_S50000x3x64 : (⟨S_, .f32⟩ : BufTy).Contents (Elt F) → (⟨S50000x3x64, .f32⟩ : BufTy).Contents (Elt F)),
    StableHlo.unary main_arg2 main_v294 (broadcastInDim S800000x1 ![0] bcast_S800000_S800000x1_0 : (⟨S800000, .i32⟩ : BufTy).Contents (Elt F) → (⟨S800000x1, .i32⟩ : BufTy).Contents (Elt F)),
    StableHlo.ternary main_v293 main_v294 main_v292 main_v295 ((fun x i u => Host.scatterAdd scatter_S50000x3x64_S800000x1_S800000x3x64_12_0_0_1 x i u) : (⟨S50000x3x64, .f32⟩ : BufTy).Contents (Elt F) → (⟨S800000x1, .i32⟩ : BufTy).Contents (Elt F) → (⟨S800000x3x64, .f32⟩ : BufTy).Contents (Elt F) → (⟨S50000x3x64, .f32⟩ : BufTy).Contents (Elt F)),
    StableHlo.nullary main_cst_45 (constant S_ .f32 0x00000000#32),
    StableHlo.binary main_v295 main_cst_45 main_v296 ((fun x v => Host.reduceAdd x v reducesTo_S50000x3x64_S50000x64_d1 h_S_) : (⟨S50000x3x64, .f32⟩ : BufTy).Contents (Elt F) → (⟨S_, .f32⟩ : BufTy).Contents (Elt F) → (⟨S50000x64, .f32⟩ : BufTy).Contents (Elt F)),
    StableHlo.nullary main_cst_46 (constant S_ .f32 0x00000000#32),
    StableHlo.binary main_v296 main_cst_46 main_v297 ((fun x v => Host.reduceAdd x v reducesTo_S50000x64_S64_d0 h_S_) : (⟨S50000x64, .f32⟩ : BufTy).Contents (Elt F) → (⟨S_, .f32⟩ : BufTy).Contents (Elt F) → (⟨S64, .f32⟩ : BufTy).Contents (Elt F)),
    StableHlo.nullary main_cst_47 (constant S_ .f32 0x47435000#32),
    StableHlo.unary main_cst_47 main_v298 (broadcastInDim S64 ![] bcast_S_S64 : (⟨S_, .f32⟩ : BufTy).Contents (Elt F) → (⟨S64, .f32⟩ : BufTy).Contents (Elt F)),
    StableHlo.binary main_v297 main_v298 main_v299 (Host.divf : (⟨S64, .f32⟩ : BufTy).Contents (Elt F) → (⟨S64, .f32⟩ : BufTy).Contents (Elt F) → (⟨S64, .f32⟩ : BufTy).Contents (Elt F)),
    StableHlo.nullary main_c_48 (constantI S_ 32 0#32),
    StableHlo.TRef.nullary main_call6.cst (constant S_ .f32 0x00000000#32),
    StableHlo.TRef.binary (StableHlo.TRef.of (T := ⟨S50000x64, .f32⟩) main_v296) main_call6.cst main_call6.v0 (fun x v => Host.reduceAdd x v reducesTo_S50000x64_S64_d0 h_S_),
    StableHlo.TRef.unary main_call6.v0 main_call6.v1 (broadcastInDim S1x64 ![1] bcast_S64_S1x64_1),
    StableHlo.TRef.nullary main_call6.cst_0 (constant S_ .f32 0x47435000#32),
    StableHlo.TRef.unary main_call6.cst_0 main_call6.v2 (broadcastInDim S1x64 ![] bcast_S_S1x64),
    StableHlo.TRef.binary main_call6.v1 main_call6.v2 main_call6.v3 Host.divf,
    StableHlo.TRef.unary main_call6.v3 main_call6.v4 (broadcastInDim S50000x64 ![0, 1] bcast_S1x64_S50000x64_0_1),
    StableHlo.TRef.binary (StableHlo.TRef.of (T := ⟨S50000x64, .f32⟩) main_v296) main_call6.v4 main_call6.v5 subf,
    StableHlo.TRef.binary main_call6.v5 main_call6.v5 main_call6.v6 mulf,
    StableHlo.TRef.unary (StableHlo.TRef.of (T := ⟨S_, .i32⟩) main_c_48) main_call6.v7 (sitofp .f32),
    StableHlo.TRef.nullary main_call6.cst_1 (constant S_ .f32 0x47435000#32),
    StableHlo.TRef.binary main_call6.cst_1 main_call6.v7 main_call6.v8 subf,
    StableHlo.TRef.nullary main_call6.cst_2 (constant S_ .f32 0x00000000#32),
    StableHlo.TRef.binary main_call6.v6 main_call6.cst_2 main_call6.v9 (fun x v => Host.reduceAdd x v reducesTo_S50000x64_S64_d0 h_S_),
    StableHlo.TRef.unary main_call6.v8 main_call6.v10 (broadcastInDim S64 ![] bcast_S_S64),
    StableHlo.TRef.binary main_call6.v9 main_call6.v10 main_call6.v11 Host.divf,
    StableHlo.TRef.nullary main_call6.cst_3 (constant S_ .f32 0x00000000#32),
    StableHlo.TRef.binary main_call6.v8 main_call6.cst_3 main_call6.v12 (cmpf .ogt),
    StableHlo.TRef.nullary main_call6.cst_4 (constant S_ .f32 0x7FC00000#32),
    StableHlo.TRef.unary main_call6.cst_4 main_call6.call0.v0 id,
    StableHlo.TRef.unary main_call6.call0.v0 main_call6.call0.v1 (broadcastInDim S64 ![] bcast_S_S64),
    StableHlo.TRef.ternary main_call6.v12 main_call6.v11 main_call6.call0.v1 main_call6.call0.v2 (fun p a b => select (broadcastInDim S64 ![] bcast_S_S64 p) a b),
    StableHlo.unary main_v299 main_v301 (broadcastInDim S1x64 ![1] bcast_S64_S1x64_1 : (⟨S64, .f32⟩ : BufTy).Contents (Elt F) → (⟨S1x64, .f32⟩ : BufTy).Contents (Elt F)),
    StableHlo.unary main_v301 main_v302 (broadcastInDim S50000x64 ![0, 1] bcast_S1x64_S50000x64_0_1 : (⟨S1x64, .f32⟩ : BufTy).Contents (Elt F) → (⟨S50000x64, .f32⟩ : BufTy).Contents (Elt F)),
    StableHlo.binary main_v296 main_v302 main_v303 (subf : (⟨S50000x64, .f32⟩ : BufTy).Contents (Elt F) → (⟨S50000x64, .f32⟩ : BufTy).Contents (Elt F) → (⟨S50000x64, .f32⟩ : BufTy).Contents (Elt F)),
    StableHlo.nullary main_cst_49 (constant S_ .f32 0x3727C5AC#32),
    StableHlo.unary main_cst_49 main_v304 (broadcastInDim S64 ![] bcast_S_S64 : (⟨S_, .f32⟩ : BufTy).Contents (Elt F) → (⟨S64, .f32⟩ : BufTy).Contents (Elt F)),
    StableHlo.binary main_v300 main_v304 main_v305 (addf : (⟨S64, .f32⟩ : BufTy).Contents (Elt F) → (⟨S64, .f32⟩ : BufTy).Contents (Elt F) → (⟨S64, .f32⟩ : BufTy).Contents (Elt F)),
    StableHlo.unary main_v305 main_v306 (Host.rsqrt : (⟨S64, .f32⟩ : BufTy).Contents (Elt F) → (⟨S64, .f32⟩ : BufTy).Contents (Elt F)),
    StableHlo.unary main_v306 main_v307 (broadcastInDim S1x64 ![1] bcast_S64_S1x64_1 : (⟨S64, .f32⟩ : BufTy).Contents (Elt F) → (⟨S1x64, .f32⟩ : BufTy).Contents (Elt F)) ]

set_option maxRecDepth 8192 in
theorem main_part5_eq (c : Dev nD) : main_part5 (F := F) c = seq ops_part5 := rfl

set_option maxRecDepth 8192 in
theorem ops_part5_sub : (ops_part5 : List (HloOp τ sig (Elt F))).Forall fun op => op.bufs ⊆ tcRefs τ sig :=
  ⟨unary_bufs_sub .., binary_bufs_sub .., unary_bufs_sub .., unary_bufs_sub .., unary_bufs_sub .., reshape_bufs_sub ..,
    unary_bufs_sub .., unary_bufs_sub .., unary_bufs_sub .., binary_bufs_sub .., unary_bufs_sub .., reshape_bufs_sub ..,
    unary_bufs_sub .., unary_bufs_sub .., binary_bufs_sub .., binary_bufs_sub .., nullary_bufs_sub .., binary_bufs_sub ..,
    nullary_bufs_sub .., unary_bufs_sub .., binary_bufs_sub .., unary_bufs_sub .., unary_bufs_sub .., reshape_bufs_sub ..,
    unary_bufs_sub .., binary_bufs_sub .., reshape_bufs_sub .., nullary_bufs_sub .., unary_bufs_sub .., binary_bufs_sub ..,
    nullary_bufs_sub .., unary_bufs_sub .., binary_bufs_sub .., ternary_bufs_sub .., unary_bufs_sub .., binary_bufs_sub ..,
    unary_bufs_sub .., unary_bufs_sub .., binary_bufs_sub .., nullary_bufs_sub .., unary_bufs_sub .., unary_bufs_sub ..,
    ternary_bufs_sub .., nullary_bufs_sub .., binary_bufs_sub .., nullary_bufs_sub .., binary_bufs_sub .., nullary_bufs_sub ..,
    unary_bufs_sub .., binary_bufs_sub .., nullary_bufs_sub .., nullary_bufs_sub .., binary_bufs_sub .., unary_bufs_sub ..,
    nullary_bufs_sub .., unary_bufs_sub .., binary_bufs_sub .., unary_bufs_sub .., binary_bufs_sub .., binary_bufs_sub ..,
    unary_bufs_sub .., nullary_bufs_sub .., binary_bufs_sub .., nullary_bufs_sub .., binary_bufs_sub .., unary_bufs_sub ..,
    binary_bufs_sub .., nullary_bufs_sub .., binary_bufs_sub .., nullary_bufs_sub .., unary_bufs_sub .., unary_bufs_sub ..,
    ternary_bufs_sub .., unary_bufs_sub .., unary_bufs_sub .., binary_bufs_sub .., nullary_bufs_sub .., unary_bufs_sub ..,
    binary_bufs_sub .., unary_bufs_sub .., unary_bufs_sub ..⟩

set_option maxRecDepth 8192 in
theorem ops_part5_fresh : (ops_part5 : List (HloOp τ sig (Elt F))).Forall fun op => op.fresh = ∅ :=
  ⟨rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl,
    rfl⟩

/-- The operations 451 … 503 of 503 of @main (its window `main_part6`), each called function's operations in its call's place over that call's record of buffers. -/
abbrev ops_part6 : List (HloOp τ sig (Elt F)) :=
  [ StableHlo.unary main_v307 main_v308 (broadcastInDim S50000x64 ![0, 1] bcast_S1x64_S50000x64_0_1 : (⟨S1x64, .f32⟩ : BufTy).Contents (Elt F) → (⟨S50000x64, .f32⟩ : BufTy).Contents (Elt F)),
    StableHlo.binary main_v303 main_v308 main_v309 (mulf : (⟨S50000x64, .f32⟩ : BufTy).Contents (Elt F) → (⟨S50000x64, .f32⟩ : BufTy).Contents (Elt F) → (⟨S50000x64, .f32⟩ : BufTy).Contents (Elt F)),
    StableHlo.unary main_arg8 main_v310 ((extractStridedSlice S1x64 ![3, 0] · slices_S4x64_S1x64_3_0) : (⟨S4x64, .f32⟩ : BufTy).Contents (Elt F) → (⟨S1x64, .f32⟩ : BufTy).Contents (Elt F)),
    StableHlo.reshape main_v310 main_v311 rfl shapeCasts_S1x64_S64,
    StableHlo.unary main_v311 main_v312 (broadcastInDim S1x64 ![1] bcast_S64_S1x64_1 : (⟨S64, .f32⟩ : BufTy).Contents (Elt F) → (⟨S1x64, .f32⟩ : BufTy).Contents (Elt F)),
    StableHlo.unary main_v312 main_v313 (broadcastInDim S50000x64 ![0, 1] bcast_S1x64_S50000x64_0_1 : (⟨S1x64, .f32⟩ : BufTy).Contents (Elt F) → (⟨S50000x64, .f32⟩ : BufTy).Contents (Elt F)),
    StableHlo.binary main_v309 main_v313 main_v314 (mulf : (⟨S50000x64, .f32⟩ : BufTy).Contents (Elt F) → (⟨S50000x64, .f32⟩ : BufTy).Contents (Elt F) → (⟨S50000x64, .f32⟩ : BufTy).Contents (Elt F)),
    StableHlo.unary main_arg9 main_v315 ((extractStridedSlice S1x64 ![3, 0] · slices_S4x64_S1x64_3_0) : (⟨S4x64, .f32⟩ : BufTy).Contents (Elt F) → (⟨S1x64, .f32⟩ : BufTy).Contents (Elt F)),
    StableHlo.reshape main_v315 main_v316 rfl shapeCasts_S1x64_S64,
    StableHlo.unary main_v316 main_v317 (broadcastInDim S1x64 ![1] bcast_S64_S1x64_1 : (⟨S64, .f32⟩ : BufTy).Contents (Elt F) → (⟨S1x64, .f32⟩ : BufTy).Contents (Elt F)),
    StableHlo.unary main_v317 main_v318 (broadcastInDim S50000x64 ![0, 1] bcast_S1x64_S50000x64_0_1 : (⟨S1x64, .f32⟩ : BufTy).Contents (Elt F) → (⟨S50000x64, .f32⟩ : BufTy).Contents (Elt F)),
    StableHlo.binary main_v314 main_v318 main_v319 (addf : (⟨S50000x64, .f32⟩ : BufTy).Contents (Elt F) → (⟨S50000x64, .f32⟩ : BufTy).Contents (Elt F) → (⟨S50000x64, .f32⟩ : BufTy).Contents (Elt F)),
    StableHlo.TRef.nullary main_call7.cst (constant S_ .f32 0x00000000#32),
    StableHlo.TRef.unary main_call7.cst main_call7.v0 (broadcastInDim S50000x64 ![] bcast_S_S50000x64),
    StableHlo.TRef.binary (StableHlo.TRef.of (T := ⟨S50000x64, .f32⟩) main_v319) main_call7.v0 main_call7.v1 maximumf,
    StableHlo.binary main_v250 main_v320 main_v321 (addf : (⟨S50000x64, .f32⟩ : BufTy).Contents (Elt F) → (⟨S50000x64, .f32⟩ : BufTy).Contents (Elt F) → (⟨S50000x64, .f32⟩ : BufTy).Contents (Elt F)),
    StableHlo.nullary main_cst_50 (constant S_ .f32 0x3F800000#32),
    StableHlo.unary main_cst_50 main_v322 (broadcastInDim S50000 ![] bcast_S_S50000 : (⟨S_, .f32⟩ : BufTy).Contents (Elt F) → (⟨S50000, .f32⟩ : BufTy).Contents (Elt F)),
    StableHlo.nullary main_cst_51 (constant S_ .f32 0x00000000#32),
    StableHlo.unary main_cst_51 main_v323 (broadcastInDim S256 ![] bcast_S_S256 : (⟨S_, .f32⟩ : BufTy).Contents (Elt F) → (⟨S256, .f32⟩ : BufTy).Contents (Elt F)),
    StableHlo.unary main_arg3 main_v324 (broadcastInDim S50000x1 ![0] bcast_S50000_S50000x1_0 : (⟨S50000, .i32⟩ : BufTy).Contents (Elt F) → (⟨S50000x1, .i32⟩ : BufTy).Contents (Elt F)),
    StableHlo.ternary main_v323 main_v324 main_v322 main_v325 ((fun x i u => Host.scatterAdd scatter_S256_S50000x1_S50000_n_0_0_1 x i u) : (⟨S256, .f32⟩ : BufTy).Contents (Elt F) → (⟨S50000x1, .i32⟩ : BufTy).Contents (Elt F) → (⟨S50000, .f32⟩ : BufTy).Contents (Elt F) → (⟨S256, .f32⟩ : BufTy).Contents (Elt F)),
    StableHlo.nullary main_cst_52 (constant S_ .f32 0x3F800000#32),
    StableHlo.unary main_cst_52 main_v326 (broadcastInDim S256 ![] bcast_S_S256 : (⟨S_, .f32⟩ : BufTy).Contents (Elt F) → (⟨S256, .f32⟩ : BufTy).Contents (Elt F)),
    StableHlo.binary main_v325 main_v326 main_v327 (maximumf : (⟨S256, .f32⟩ : BufTy).Contents (Elt F) → (⟨S256, .f32⟩ : BufTy).Contents (Elt F) → (⟨S256, .f32⟩ : BufTy).Contents (Elt F)),
    StableHlo.nullary main_cst_53 (constant S_ .f32 0x00000000#32),
    StableHlo.unary main_cst_53 main_v328 (broadcastInDim S256x64 ![] bcast_S_S256x64 : (⟨S_, .f32⟩ : BufTy).Contents (Elt F) → (⟨S256x64, .f32⟩ : BufTy).Contents (Elt F)),
    StableHlo.unary main_arg3 main_v329 (broadcastInDim S50000x1 ![0] bcast_S50000_S50000x1_0 : (⟨S50000, .i32⟩ : BufTy).Contents (Elt F) → (⟨S50000x1, .i32⟩ : BufTy).Contents (Elt F)),
    StableHlo.ternary main_v328 main_v329 main_v321 main_v330 ((fun x i u => Host.scatterAdd scatter_S256x64_S50000x1_S50000x64_1_0_0_1 x i u) : (⟨S256x64, .f32⟩ : BufTy).Contents (Elt F) → (⟨S50000x1, .i32⟩ : BufTy).Contents (Elt F) → (⟨S50000x64, .f32⟩ : BufTy).Contents (Elt F) → (⟨S256x64, .f32⟩ : BufTy).Contents (Elt F)),
    StableHlo.unary main_v327 main_v331 (broadcastInDim S256x1 ![0] bcast_S256_S256x1_0 : (⟨S256, .f32⟩ : BufTy).Contents (Elt F) → (⟨S256x1, .f32⟩ : BufTy).Contents (Elt F)),
    StableHlo.unary main_v331 main_v332 (broadcastInDim S256x64 ![0, 1] bcast_S256x1_S256x64_0_1 : (⟨S256x1, .f32⟩ : BufTy).Contents (Elt F) → (⟨S256x64, .f32⟩ : BufTy).Contents (Elt F)),
    StableHlo.binary main_v330 main_v332 main_v333 (Host.divf : (⟨S256x64, .f32⟩ : BufTy).Contents (Elt F) → (⟨S256x64, .f32⟩ : BufTy).Contents (Elt F) → (⟨S256x64, .f32⟩ : BufTy).Contents (Elt F)),
    StableHlo.unary main_arg12 main_v334 ((transpose S64x32 [1, 0] · transposes_S32x64_S64x32_1_0) : (⟨S32x64, .f32⟩ : BufTy).Contents (Elt F) → (⟨S64x32, .f32⟩ : BufTy).Contents (Elt F)),
    StableHlo.binary main_v333 main_v334 main_v335 ((fun l r => Host.dotGeneral dot_S256x64_S64x32_S256x32_1_0_0_1_n_n none l r) : (⟨S256x64, .f32⟩ : BufTy).Contents (Elt F) → (⟨S64x32, .f32⟩ : BufTy).Contents (Elt F) → (⟨S256x32, .f32⟩ : BufTy).Contents (Elt F)),
    StableHlo.unary main_arg13 main_v336 (broadcastInDim S1x32 ![1] bcast_S32_S1x32_1 : (⟨S32, .f32⟩ : BufTy).Contents (Elt F) → (⟨S1x32, .f32⟩ : BufTy).Contents (Elt F)),
    StableHlo.unary main_v336 main_v337 (broadcastInDim S256x32 ![0, 1] bcast_S1x32_S256x32_0_1 : (⟨S1x32, .f32⟩ : BufTy).Contents (Elt F) → (⟨S256x32, .f32⟩ : BufTy).Contents (Elt F)),
    StableHlo.binary main_v335 main_v337 main_v338 (addf : (⟨S256x32, .f32⟩ : BufTy).Contents (Elt F) → (⟨S256x32, .f32⟩ : BufTy).Contents (Elt F) → (⟨S256x32, .f32⟩ : BufTy).Contents (Elt F)),
    StableHlo.TRef.nullary main_call8.cst (constant S_ .f32 0x00000000#32),
    StableHlo.TRef.unary main_call8.cst main_call8.v0 (broadcastInDim S256x32 ![] bcast_S_S256x32),
    StableHlo.TRef.binary (StableHlo.TRef.of (T := ⟨S256x32, .f32⟩) main_v338) main_call8.v0 main_call8.v1 maximumf,
    StableHlo.unary main_arg14 main_v340 ((transpose S32x16 [1, 0] · transposes_S16x32_S32x16_1_0) : (⟨S16x32, .f32⟩ : BufTy).Contents (Elt F) → (⟨S32x16, .f32⟩ : BufTy).Contents (Elt F)),
    StableHlo.binary main_v339 main_v340 main_v341 ((fun l r => Host.dotGeneral dot_S256x32_S32x16_S256x16_1_0_0_1_n_n none l r) : (⟨S256x32, .f32⟩ : BufTy).Contents (Elt F) → (⟨S32x16, .f32⟩ : BufTy).Contents (Elt F) → (⟨S256x16, .f32⟩ : BufTy).Contents (Elt F)),
    StableHlo.unary main_arg15 main_v342 (broadcastInDim S1x16 ![1] bcast_S16_S1x16_1 : (⟨S16, .f32⟩ : BufTy).Contents (Elt F) → (⟨S1x16, .f32⟩ : BufTy).Contents (Elt F)),
    StableHlo.unary main_v342 main_v343 (broadcastInDim S256x16 ![0, 1] bcast_S1x16_S256x16_0_1 : (⟨S1x16, .f32⟩ : BufTy).Contents (Elt F) → (⟨S256x16, .f32⟩ : BufTy).Contents (Elt F)),
    StableHlo.binary main_v341 main_v343 main_v344 (addf : (⟨S256x16, .f32⟩ : BufTy).Contents (Elt F) → (⟨S256x16, .f32⟩ : BufTy).Contents (Elt F) → (⟨S256x16, .f32⟩ : BufTy).Contents (Elt F)),
    StableHlo.TRef.nullary main_call9.cst (constant S_ .f32 0x00000000#32),
    StableHlo.TRef.unary main_call9.cst main_call9.v0 (broadcastInDim S256x16 ![] bcast_S_S256x16),
    StableHlo.TRef.binary (StableHlo.TRef.of (T := ⟨S256x16, .f32⟩) main_v344) main_call9.v0 main_call9.v1 maximumf,
    StableHlo.unary main_arg16 main_v346 ((transpose S16x1 [1, 0] · transposes_S1x16_S16x1_1_0) : (⟨S1x16, .f32⟩ : BufTy).Contents (Elt F) → (⟨S16x1, .f32⟩ : BufTy).Contents (Elt F)),
    StableHlo.binary main_v345 main_v346 main_v347 ((fun l r => Host.dotGeneral dot_S256x16_S16x1_S256x1_1_0_0_1_n_n none l r) : (⟨S256x16, .f32⟩ : BufTy).Contents (Elt F) → (⟨S16x1, .f32⟩ : BufTy).Contents (Elt F) → (⟨S256x1, .f32⟩ : BufTy).Contents (Elt F)),
    StableHlo.unary main_arg17 main_v348 (broadcastInDim S1x1 ![1] bcast_S1_S1x1_1 : (⟨S1, .f32⟩ : BufTy).Contents (Elt F) → (⟨S1x1, .f32⟩ : BufTy).Contents (Elt F)),
    StableHlo.unary main_v348 main_v349 (broadcastInDim S256x1 ![0, 1] bcast_S1x1_S256x1_0_1 : (⟨S1x1, .f32⟩ : BufTy).Contents (Elt F) → (⟨S256x1, .f32⟩ : BufTy).Contents (Elt F)),
    StableHlo.binary main_v347 main_v349 main_v350 (addf : (⟨S256x1, .f32⟩ : BufTy).Contents (Elt F) → (⟨S256x1, .f32⟩ : BufTy).Contents (Elt F) → (⟨S256x1, .f32⟩ : BufTy).Contents (Elt F)) ]

set_option maxRecDepth 8192 in
theorem main_part6_eq (c : Dev nD) : main_part6 (F := F) c = seq ops_part6 := rfl

set_option maxRecDepth 8192 in
theorem ops_part6_sub : (ops_part6 : List (HloOp τ sig (Elt F))).Forall fun op => op.bufs ⊆ tcRefs τ sig :=
  ⟨unary_bufs_sub .., binary_bufs_sub .., unary_bufs_sub .., reshape_bufs_sub .., unary_bufs_sub .., unary_bufs_sub ..,
    binary_bufs_sub .., unary_bufs_sub .., reshape_bufs_sub .., unary_bufs_sub .., unary_bufs_sub .., binary_bufs_sub ..,
    nullary_bufs_sub .., unary_bufs_sub .., binary_bufs_sub .., binary_bufs_sub .., nullary_bufs_sub .., unary_bufs_sub ..,
    nullary_bufs_sub .., unary_bufs_sub .., unary_bufs_sub .., ternary_bufs_sub .., nullary_bufs_sub .., unary_bufs_sub ..,
    binary_bufs_sub .., nullary_bufs_sub .., unary_bufs_sub .., unary_bufs_sub .., ternary_bufs_sub .., unary_bufs_sub ..,
    unary_bufs_sub .., binary_bufs_sub .., unary_bufs_sub .., binary_bufs_sub .., unary_bufs_sub .., unary_bufs_sub ..,
    binary_bufs_sub .., nullary_bufs_sub .., unary_bufs_sub .., binary_bufs_sub .., unary_bufs_sub .., binary_bufs_sub ..,
    unary_bufs_sub .., unary_bufs_sub .., binary_bufs_sub .., nullary_bufs_sub .., unary_bufs_sub .., binary_bufs_sub ..,
    unary_bufs_sub .., binary_bufs_sub .., unary_bufs_sub .., unary_bufs_sub .., binary_bufs_sub ..⟩

set_option maxRecDepth 8192 in
theorem ops_part6_fresh : (ops_part6 : List (HloOp τ sig (Elt F))).Forall fun op => op.fresh = ∅ :=
  ⟨rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl⟩

/-- @main's 503 operations in order: the windows' lists in a row. -/
abbrev ops : List (HloOp τ sig (Elt F)) :=
  ops_part0 ++ (ops_part1 ++ (ops_part2 ++ (ops_part3 ++ (ops_part4 ++ (ops_part5 ++ ops_part6)))))

/-- @main is the straight line of its operations: each window is its own list, and lists run one after the
    other are their concatenation run as one. -/
theorem main_eq (c : Dev nD) : main (F := F) c = seq ops := by
  simp only [ops, seq_append, ← main_part0_eq c, ← main_part1_eq c, ← main_part2_eq c, ← main_part3_eq c, ← main_part4_eq c, ← main_part5_eq c, ← main_part6_eq c]
  rfl

theorem scopedRefs_eq : (Finset.univ.filter fun b : Ref sig .tc => b.isScoped) = ∅ := by decide
theorem scopedSems_eq : (Finset.univ.filter fun sm : SemLoc sig => sm.isScoped .tc) = ∅ := by decide

/-- Every operation touches TensorCore references only: window by window. -/
theorem ops_sub : (ops : List (HloOp τ sig (Elt F))).Forall fun op => op.bufs ⊆ tcRefs τ sig :=
  List.forall_iff_forall_mem.mpr fun op h => by
    simp only [ops, List.mem_append] at h
    rcases h with h | h | h | h | h | h | h
    exacts [List.forall_iff_forall_mem.mp ops_part0_sub op h,
      List.forall_iff_forall_mem.mp ops_part1_sub op h,
      List.forall_iff_forall_mem.mp ops_part2_sub op h,
      List.forall_iff_forall_mem.mp ops_part3_sub op h,
      List.forall_iff_forall_mem.mp ops_part4_sub op h,
      List.forall_iff_forall_mem.mp ops_part5_sub op h,
      List.forall_iff_forall_mem.mp ops_part6_sub op h]

/-- Every operation determines its results (none allocates): window by window. -/
theorem ops_fresh : ∀ op ∈ (ops : List (HloOp τ sig (Elt F))), op.fresh = ∅ := fun op h => by
    simp only [ops, List.mem_append] at h
    rcases h with h | h | h | h | h | h | h
    exacts [List.forall_iff_forall_mem.mp ops_part0_fresh op h,
      List.forall_iff_forall_mem.mp ops_part1_fresh op h,
      List.forall_iff_forall_mem.mp ops_part2_fresh op h,
      List.forall_iff_forall_mem.mp ops_part3_fresh op h,
      List.forall_iff_forall_mem.mp ops_part4_fresh op h,
      List.forall_iff_forall_mem.mp ops_part5_fresh op h,
      List.forall_iff_forall_mem.mp ops_part6_fresh op h]

/-- The fold over the whole line is the windows' folds composed, the first window's innermost. -/
theorem after_ops (V : Valuation τ sig (Elt F)) :
    after ops V = after ops_part6 (after ops_part5 (after ops_part4 (after ops_part3 (after ops_part2 (after ops_part1 (after ops_part0 V)))))) := by
  simp only [ops, after_append]

/-- On every mesh, for any float values, from any memory with zero counters: every weakly fair execution of @main
    terminates, and every final state has each buffer of each core at the fold of the operations' results over the
    core's launch contents. -/
theorem run_all (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc),
        r.2.mem ((c.tc : Thread nD τ).loc b) = after ops (launchContents m c) (Proc.devRef .tc b) :=
  run_seq scopedRefs_eq scopedSems_eq defs main (fun _ => ops) main_eq (fun _ => ops_sub) m ρ (fun _ => ops_fresh)

/-- The same with the fold read window by window. -/
theorem run_all_parts (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc),
        r.2.mem ((c.tc : Thread nD τ).loc b)
          = after ops_part6 (after ops_part5 (after ops_part4 (after ops_part3 (after ops_part2 (after ops_part1 (after ops_part0 (launchContents m c))))))) (Proc.devRef .tc b) :=
  (θ_run defs _ _).mono (fun _ h c b => (h c b).trans (congrFun (after_ops (launchContents m c)) (Proc.devRef .tc b))) (run_all m ρ)

end Cert.ReferenceIdeal.RefRun

end
-- ==== Proof.RefStages.lean ====
/- The reference program's stages as functions of arrays. Each is the composition of the program's own operations
   from the stage's inputs to its result, with the inputs as variables: the edges' pseudo-coordinates, the nodes'
   first features, each layer's parameters cut out of the stacked ones, the seven steps of a layer, and the readout.
   They hold for any float values; nothing here mentions a buffer. -/
import proofs.«111449_j80633716015168_2_alg».proof.Proof.Gen.ReferenceIdeal

set_option Elab.async false

noncomputable section

namespace Cert.ReferenceIdeal.RefSpec

open Cert.ReferenceIdeal Cert.ReferenceIdeal.Gen Idealize.ShloMosaic Idealize.SL.Sem

variable {F : FTy → Type} [FloatOps F]

/-- The edges' pseudo-coordinates: the in-degree of every node (ones added at the target indices), read at each edge's source and target (a negative index wrapped by the node count), one added, the square root, the reciprocal, the two columns side by side. -/
noncomputable def pseudoS (src : (⟨S800000, .i32⟩ : BufTy).Contents (Elt F)) (dst : (⟨S800000, .i32⟩ : BufTy).Contents (Elt F)) :
    (⟨S800000x2, .f32⟩ : BufTy).Contents (Elt F) :=
  (((fun a b => concatenate S800000x2 1 [⟨S800000x1, a⟩, ⟨S800000x1, b⟩] concatenates_S800000x1_S800000x1_S800000x2_d1) : (⟨S800000x1, .f32⟩ : BufTy).Contents (Elt F) → (⟨S800000x1, .f32⟩ : BufTy).Contents (Elt F) → (⟨S800000x2, .f32⟩ : BufTy).Contents (Elt F)) ((broadcastInDim S800000x1 ![0] bcast_S800000_S800000x1_0 : (⟨S800000, .f32⟩ : BufTy).Contents (Elt F) → (⟨S800000x1, .f32⟩ : BufTy).Contents (Elt F)) ((Host.divf : (⟨S800000, .f32⟩ : BufTy).Contents (Elt F) → (⟨S800000, .f32⟩ : BufTy).Contents (Elt F) → (⟨S800000, .f32⟩ : BufTy).Contents (Elt F)) ((broadcastInDim S800000 ![] bcast_S_S800000 : (⟨S_, .f32⟩ : BufTy).Contents (Elt F) → (⟨S800000, .f32⟩ : BufTy).Contents (Elt F)) (constant S_ .f32 0x3F800000#32 : (⟨S_, .f32⟩ : BufTy).Contents (Elt F))) ((Host.sqrt : (⟨S800000, .f32⟩ : BufTy).Contents (Elt F) → (⟨S800000, .f32⟩ : BufTy).Contents (Elt F)) ((addf : (⟨S800000, .f32⟩ : BufTy).Contents (Elt F) → (⟨S800000, .f32⟩ : BufTy).Contents (Elt F) → (⟨S800000, .f32⟩ : BufTy).Contents (Elt F)) (((fun x i => Host.gather gather_S50000_S800000x1_S800000_n_0_n_n_0_1_1 x i) : (⟨S50000, .f32⟩ : BufTy).Contents (Elt F) → (⟨S800000x1, .i32⟩ : BufTy).Contents (Elt F) → (⟨S800000, .f32⟩ : BufTy).Contents (Elt F)) (((fun x i u => Host.scatterAdd scatter_S50000_S800000x1_S800000_n_0_0_1 x i u) : (⟨S50000, .f32⟩ : BufTy).Contents (Elt F) → (⟨S800000x1, .i32⟩ : BufTy).Contents (Elt F) → (⟨S800000, .f32⟩ : BufTy).Contents (Elt F) → (⟨S50000, .f32⟩ : BufTy).Contents (Elt F)) ((broadcastInDim S50000 ![] bcast_S_S50000 : (⟨S_, .f32⟩ : BufTy).Contents (Elt F) → (⟨S50000, .f32⟩ : BufTy).Contents (Elt F)) (constant S_ .f32 0x00000000#32 : (⟨S_, .f32⟩ : BufTy).Contents (Elt F))) ((broadcastInDim S800000x1 ![0] bcast_S800000_S800000x1_0 : (⟨S800000, .i32⟩ : BufTy).Contents (Elt F) → (⟨S800000x1, .i32⟩ : BufTy).Contents (Elt F)) dst) ((broadcastInDim S800000 ![] bcast_S_S800000 : (⟨S_, .f32⟩ : BufTy).Contents (Elt F) → (⟨S800000, .f32⟩ : BufTy).Contents (Elt F)) (constant S_ .f32 0x3F800000#32 : (⟨S_, .f32⟩ : BufTy).Contents (Elt F)))) ((broadcastInDim S800000x1 ![0] bcast_S800000_S800000x1_0 : (⟨S800000, .i32⟩ : BufTy).Contents (Elt F) → (⟨S800000x1, .i32⟩ : BufTy).Contents (Elt F)) ((select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)) ((cmpi .slt : (⟨S800000, .i32⟩ : BufTy).Contents (Elt F) → (⟨S800000, .i32⟩ : BufTy).Contents (Elt F) → (⟨S800000, .i1⟩ : BufTy).Contents (Elt F)) src ((broadcastInDim S800000 ![] bcast_S_S800000 : (⟨S_, .i32⟩ : BufTy).Contents (Elt F) → (⟨S800000, .i32⟩ : BufTy).Contents (Elt F)) (constantI S_ 32 0#32 : (⟨S_, .i32⟩ : BufTy).Contents (Elt F)))) ((addi : (⟨S800000, .i32⟩ : BufTy).Contents (Elt F) → (⟨S800000, .i32⟩ : BufTy).Contents (Elt F) → (⟨S800000, .i32⟩ : BufTy).Contents (Elt F)) src ((broadcastInDim S800000 ![] bcast_S_S800000 : (⟨S_, .i32⟩ : BufTy).Contents (Elt F) → (⟨S800000, .i32⟩ : BufTy).Contents (Elt F)) (constantI S_ 32 50000#32 : (⟨S_, .i32⟩ : BufTy).Contents (Elt F)))) src))) ((broadcastInDim S800000 ![] bcast_S_S800000 : (⟨S_, .f32⟩ : BufTy).Contents (Elt F) → (⟨S800000, .f32⟩ : BufTy).Contents (Elt F)) (constant S_ .f32 0x3F800000#32 : (⟨S_, .f32⟩ : BufTy).Contents (Elt F))))))) ((broadcastInDim S800000x1 ![0] bcast_S800000_S800000x1_0 : (⟨S800000, .f32⟩ : BufTy).Contents (Elt F) → (⟨S800000x1, .f32⟩ : BufTy).Contents (Elt F)) ((Host.divf : (⟨S800000, .f32⟩ : BufTy).Contents (Elt F) → (⟨S800000, .f32⟩ : BufTy).Contents (Elt F) → (⟨S800000, .f32⟩ : BufTy).Contents (Elt F)) ((broadcastInDim S800000 ![] bcast_S_S800000 : (⟨S_, .f32⟩ : BufTy).Contents (Elt F) → (⟨S800000, .f32⟩ : BufTy).Contents (Elt F)) (constant S_ .f32 0x3F800000#32 : (⟨S_, .f32⟩ : BufTy).Contents (Elt F))) ((Host.sqrt : (⟨S800000, .f32⟩ : BufTy).Contents (Elt F) → (⟨S800000, .f32⟩ : BufTy).Contents (Elt F)) ((addf : (⟨S800000, .f32⟩ : BufTy).Contents (Elt F) → (⟨S800000, .f32⟩ : BufTy).Contents (Elt F) → (⟨S800000, .f32⟩ : BufTy).Contents (Elt F)) (((fun x i => Host.gather gather_S50000_S800000x1_S800000_n_0_n_n_0_1_1 x i) : (⟨S50000, .f32⟩ : BufTy).Contents (Elt F) → (⟨S800000x1, .i32⟩ : BufTy).Contents (Elt F) → (⟨S800000, .f32⟩ : BufTy).Contents (Elt F)) (((fun x i u => Host.scatterAdd scatter_S50000_S800000x1_S800000_n_0_0_1 x i u) : (⟨S50000, .f32⟩ : BufTy).Contents (Elt F) → (⟨S800000x1, .i32⟩ : BufTy).Contents (Elt F) → (⟨S800000, .f32⟩ : BufTy).Contents (Elt F) → (⟨S50000, .f32⟩ : BufTy).Contents (Elt F)) ((broadcastInDim S50000 ![] bcast_S_S50000 : (⟨S_, .f32⟩ : BufTy).Contents (Elt F) → (⟨S50000, .f32⟩ : BufTy).Contents (Elt F)) (constant S_ .f32 0x00000000#32 : (⟨S_, .f32⟩ : BufTy).Contents (Elt F))) ((broadcastInDim S800000x1 ![0] bcast_S800000_S800000x1_0 : (⟨S800000, .i32⟩ : BufTy).Contents (Elt F) → (⟨S800000x1, .i32⟩ : BufTy).Contents (Elt F)) dst) ((broadcastInDim S800000 ![] bcast_S_S800000 : (⟨S_, .f32⟩ : BufTy).Contents (Elt F) → (⟨S800000, .f32⟩ : BufTy).Contents (Elt F)) (constant S_ .f32 0x3F800000#32 : (⟨S_, .f32⟩ : BufTy).Contents (Elt F)))) ((broadcastInDim S800000x1 ![0] bcast_S800000_S800000x1_0 : (⟨S800000, .i32⟩ : BufTy).Contents (Elt F) → (⟨S800000x1, .i32⟩ : BufTy).Contents (Elt F)) ((select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)) ((cmpi .slt : (⟨S800000, .i32⟩ : BufTy).Contents (Elt F) → (⟨S800000, .i32⟩ : BufTy).Contents (Elt F) → (⟨S800000, .i1⟩ : BufTy).Contents (Elt F)) dst ((broadcastInDim S800000 ![] bcast_S_S800000 : (⟨S_, .i32⟩ : BufTy).Contents (Elt F) → (⟨S800000, .i32⟩ : BufTy).Contents (Elt F)) (constantI S_ 32 0#32 : (⟨S_, .i32⟩ : BufTy).Contents (Elt F)))) ((addi : (⟨S800000, .i32⟩ : BufTy).Contents (Elt F) → (⟨S800000, .i32⟩ : BufTy).Contents (Elt F) → (⟨S800000, .i32⟩ : BufTy).Contents (Elt F)) dst ((broadcastInDim S800000 ![] bcast_S_S800000 : (⟨S_, .i32⟩ : BufTy).Contents (Elt F) → (⟨S800000, .i32⟩ : BufTy).Contents (Elt F)) (constantI S_ 32 50000#32 : (⟨S_, .i32⟩ : BufTy).Contents (Elt F)))) dst))) ((broadcastInDim S800000 ![] bcast_S_S800000 : (⟨S_, .f32⟩ : BufTy).Contents (Elt F) → (⟨S800000, .f32⟩ : BufTy).Contents (Elt F)) (constant S_ .f32 0x3F800000#32 : (⟨S_, .f32⟩ : BufTy).Contents (Elt F))))))))

/-- The nodes' first features: the embedding table's rows at the nodes' indices (a negative index wrapped by the table's height). -/
noncomputable def h0S (emb : (⟨S28x64, .f32⟩ : BufTy).Contents (Elt F)) (hidx : (⟨S50000, .i32⟩ : BufTy).Contents (Elt F)) :
    (⟨S50000x64, .f32⟩ : BufTy).Contents (Elt F) :=
  (((fun x i => Host.gather gather_S28x64_S50000x1_S50000x64_1_0_n_n_0_1_164 x i) : (⟨S28x64, .f32⟩ : BufTy).Contents (Elt F) → (⟨S50000x1, .i32⟩ : BufTy).Contents (Elt F) → (⟨S50000x64, .f32⟩ : BufTy).Contents (Elt F)) emb ((broadcastInDim S50000x1 ![0] bcast_S50000_S50000x1_0 : (⟨S50000, .i32⟩ : BufTy).Contents (Elt F) → (⟨S50000x1, .i32⟩ : BufTy).Contents (Elt F)) ((select : (⟨S50000, .i1⟩ : BufTy).Contents (Elt F) → (⟨S50000, .i32⟩ : BufTy).Contents (Elt F) → (⟨S50000, .i32⟩ : BufTy).Contents (Elt F) → (⟨S50000, .i32⟩ : BufTy).Contents (Elt F)) ((cmpi .slt : (⟨S50000, .i32⟩ : BufTy).Contents (Elt F) → (⟨S50000, .i32⟩ : BufTy).Contents (Elt F) → (⟨S50000, .i1⟩ : BufTy).Contents (Elt F)) hidx ((broadcastInDim S50000 ![] bcast_S_S50000 : (⟨S_, .i32⟩ : BufTy).Contents (Elt F) → (⟨S50000, .i32⟩ : BufTy).Contents (Elt F)) (constantI S_ 32 0#32 : (⟨S_, .i32⟩ : BufTy).Contents (Elt F)))) ((addi : (⟨S50000, .i32⟩ : BufTy).Contents (Elt F) → (⟨S50000, .i32⟩ : BufTy).Contents (Elt F) → (⟨S50000, .i32⟩ : BufTy).Contents (Elt F)) hidx ((broadcastInDim S50000 ![] bcast_S_S50000 : (⟨S_, .i32⟩ : BufTy).Contents (Elt F) → (⟨S50000, .i32⟩ : BufTy).Contents (Elt F)) (constantI S_ 32 28#32 : (⟨S_, .i32⟩ : BufTy).Contents (Elt F)))) hidx)))

/-- Layer 0's projection matrix: block 0 of the stacked parameter, its leading axis dropped. -/
noncomputable def A_0 (a : (⟨S4x2x2, .f32⟩ : BufTy).Contents (Elt F)) :
    (⟨S2x2, .f32⟩ : BufTy).Contents (Elt F) :=
  (shapeCast S2x2 (((extractStridedSlice S1x2x2 ![0, 0, 0] · slices_S4x2x2_S1x2x2_0_0_0) : (⟨S4x2x2, .f32⟩ : BufTy).Contents (Elt F) → (⟨S1x2x2, .f32⟩ : BufTy).Contents (Elt F)) a) shapeCasts_S1x2x2_S2x2)

/-- Layer 0's projection offset: block 0 of the stacked parameter, its leading axis dropped. -/
noncomputable def bvec_0 (a : (⟨S4x2, .f32⟩ : BufTy).Contents (Elt F)) :
    (⟨S2, .f32⟩ : BufTy).Contents (Elt F) :=
  (shapeCast S2 (((extractStridedSlice S1x2 ![0, 0] · slices_S4x2_S1x2_0_0) : (⟨S4x2, .f32⟩ : BufTy).Contents (Elt F) → (⟨S1x2, .f32⟩ : BufTy).Contents (Elt F)) a) shapeCasts_S1x2_S2)

/-- Layer 0's mixture means: block 0 of the stacked parameter, its leading axis dropped. -/
noncomputable def mu_0 (a : (⟨S4x3x2, .f32⟩ : BufTy).Contents (Elt F)) :
    (⟨S3x2, .f32⟩ : BufTy).Contents (Elt F) :=
  (shapeCast S3x2 (((extractStridedSlice S1x3x2 ![0, 0, 0] · slices_S4x3x2_S1x3x2_0_0_0) : (⟨S4x3x2, .f32⟩ : BufTy).Contents (Elt F) → (⟨S1x3x2, .f32⟩ : BufTy).Contents (Elt F)) a) shapeCasts_S1x3x2_S3x2)

/-- Layer 0's mixture scales: block 0 of the stacked parameter, its leading axis dropped. -/
noncomputable def sg_0 (a : (⟨S4x3x2, .f32⟩ : BufTy).Contents (Elt F)) :
    (⟨S3x2, .f32⟩ : BufTy).Contents (Elt F) :=
  (shapeCast S3x2 (((extractStridedSlice S1x3x2 ![0, 0, 0] · slices_S4x3x2_S1x3x2_0_0_0) : (⟨S4x3x2, .f32⟩ : BufTy).Contents (Elt F) → (⟨S1x3x2, .f32⟩ : BufTy).Contents (Elt F)) a) shapeCasts_S1x3x2_S3x2)

/-- Layer 0's weight matrix: block 0 of the stacked parameter, its leading axis dropped. -/
noncomputable def W_0 (a : (⟨S4x192x64, .f32⟩ : BufTy).Contents (Elt F)) :
    (⟨S192x64, .f32⟩ : BufTy).Contents (Elt F) :=
  (shapeCast S192x64 (((extractStridedSlice S1x192x64 ![0, 0, 0] · slices_S4x192x64_S1x192x64_0_0_0) : (⟨S4x192x64, .f32⟩ : BufTy).Contents (Elt F) → (⟨S1x192x64, .f32⟩ : BufTy).Contents (Elt F)) a) shapeCasts_S1x192x64_S192x64)

/-- Layer 0's normalization scale: block 0 of the stacked parameter, its leading axis dropped. -/
noncomputable def gamma_0 (a : (⟨S4x64, .f32⟩ : BufTy).Contents (Elt F)) :
    (⟨S64, .f32⟩ : BufTy).Contents (Elt F) :=
  (shapeCast S64 (((extractStridedSlice S1x64 ![0, 0] · slices_S4x64_S1x64_0_0) : (⟨S4x64, .f32⟩ : BufTy).Contents (Elt F) → (⟨S1x64, .f32⟩ : BufTy).Contents (Elt F)) a) shapeCasts_S1x64_S64)

/-- Layer 0's normalization shift: block 0 of the stacked parameter, its leading axis dropped. -/
noncomputable def beta_0 (a : (⟨S4x64, .f32⟩ : BufTy).Contents (Elt F)) :
    (⟨S64, .f32⟩ : BufTy).Contents (Elt F) :=
  (shapeCast S64 (((extractStridedSlice S1x64 ![0, 0] · slices_S4x64_S1x64_0_0) : (⟨S4x64, .f32⟩ : BufTy).Contents (Elt F) → (⟨S1x64, .f32⟩ : BufTy).Contents (Elt F)) a) shapeCasts_S1x64_S64)

/-- Layer 1's projection matrix: block 1 of the stacked parameter, its leading axis dropped. -/
noncomputable def A_1 (a : (⟨S4x2x2, .f32⟩ : BufTy).Contents (Elt F)) :
    (⟨S2x2, .f32⟩ : BufTy).Contents (Elt F) :=
  (shapeCast S2x2 (((extractStridedSlice S1x2x2 ![1, 0, 0] · slices_S4x2x2_S1x2x2_1_0_0) : (⟨S4x2x2, .f32⟩ : BufTy).Contents (Elt F) → (⟨S1x2x2, .f32⟩ : BufTy).Contents (Elt F)) a) shapeCasts_S1x2x2_S2x2)

/-- Layer 1's projection offset: block 1 of the stacked parameter, its leading axis dropped. -/
noncomputable def bvec_1 (a : (⟨S4x2, .f32⟩ : BufTy).Contents (Elt F)) :
    (⟨S2, .f32⟩ : BufTy).Contents (Elt F) :=
  (shapeCast S2 (((extractStridedSlice S1x2 ![1, 0] · slices_S4x2_S1x2_1_0) : (⟨S4x2, .f32⟩ : BufTy).Contents (Elt F) → (⟨S1x2, .f32⟩ : BufTy).Contents (Elt F)) a) shapeCasts_S1x2_S2)

/-- Layer 1's mixture means: block 1 of the stacked parameter, its leading axis dropped. -/
noncomputable def mu_1 (a : (⟨S4x3x2, .f32⟩ : BufTy).Contents (Elt F)) :
    (⟨S3x2, .f32⟩ : BufTy).Contents (Elt F) :=
  (shapeCast S3x2 (((extractStridedSlice S1x3x2 ![1, 0, 0] · slices_S4x3x2_S1x3x2_1_0_0) : (⟨S4x3x2, .f32⟩ : BufTy).Contents (Elt F) → (⟨S1x3x2, .f32⟩ : BufTy).Contents (Elt F)) a) shapeCasts_S1x3x2_S3x2)

/-- Layer 1's mixture scales: block 1 of the stacked parameter, its leading axis dropped. -/
noncomputable def sg_1 (a : (⟨S4x3x2, .f32⟩ : BufTy).Contents (Elt F)) :
    (⟨S3x2, .f32⟩ : BufTy).Contents (Elt F) :=
  (shapeCast S3x2 (((extractStridedSlice S1x3x2 ![1, 0, 0] · slices_S4x3x2_S1x3x2_1_0_0) : (⟨S4x3x2, .f32⟩ : BufTy).Contents (Elt F) → (⟨S1x3x2, .f32⟩ : BufTy).Contents (Elt F)) a) shapeCasts_S1x3x2_S3x2)

/-- Layer 1's weight matrix: block 1 of the stacked parameter, its leading axis dropped. -/
noncomputable def W_1 (a : (⟨S4x192x64, .f32⟩ : BufTy).Contents (Elt F)) :
    (⟨S192x64, .f32⟩ : BufTy).Contents (Elt F) :=
  (shapeCast S192x64 (((extractStridedSlice S1x192x64 ![1, 0, 0] · slices_S4x192x64_S1x192x64_1_0_0) : (⟨S4x192x64, .f32⟩ : BufTy).Contents (Elt F) → (⟨S1x192x64, .f32⟩ : BufTy).Contents (Elt F)) a) shapeCasts_S1x192x64_S192x64)

/-- Layer 1's normalization scale: block 1 of the stacked parameter, its leading axis dropped. -/
noncomputable def gamma_1 (a : (⟨S4x64, .f32⟩ : BufTy).Contents (Elt F)) :
    (⟨S64, .f32⟩ : BufTy).Contents (Elt F) :=
  (shapeCast S64 (((extractStridedSlice S1x64 ![1, 0] · slices_S4x64_S1x64_1_0) : (⟨S4x64, .f32⟩ : BufTy).Contents (Elt F) → (⟨S1x64, .f32⟩ : BufTy).Contents (Elt F)) a) shapeCasts_S1x64_S64)

/-- Layer 1's normalization shift: block 1 of the stacked parameter, its leading axis dropped. -/
noncomputable def beta_1 (a : (⟨S4x64, .f32⟩ : BufTy).Contents (Elt F)) :
    (⟨S64, .f32⟩ : BufTy).Contents (Elt F) :=
  (shapeCast S64 (((extractStridedSlice S1x64 ![1, 0] · slices_S4x64_S1x64_1_0) : (⟨S4x64, .f32⟩ : BufTy).Contents (Elt F) → (⟨S1x64, .f32⟩ : BufTy).Contents (Elt F)) a) shapeCasts_S1x64_S64)

/-- Layer 2's projection matrix: block 2 of the stacked parameter, its leading axis dropped. -/
noncomputable def A_2 (a : (⟨S4x2x2, .f32⟩ : BufTy).Contents (Elt F)) :
    (⟨S2x2, .f32⟩ : BufTy).Contents (Elt F) :=
  (shapeCast S2x2 (((extractStridedSlice S1x2x2 ![2, 0, 0] · slices_S4x2x2_S1x2x2_2_0_0) : (⟨S4x2x2, .f32⟩ : BufTy).Contents (Elt F) → (⟨S1x2x2, .f32⟩ : BufTy).Contents (Elt F)) a) shapeCasts_S1x2x2_S2x2)

/-- Layer 2's projection offset: block 2 of the stacked parameter, its leading axis dropped. -/
noncomputable def bvec_2 (a : (⟨S4x2, .f32⟩ : BufTy).Contents (Elt F)) :
    (⟨S2, .f32⟩ : BufTy).Contents (Elt F) :=
  (shapeCast S2 (((extractStridedSlice S1x2 ![2, 0] · slices_S4x2_S1x2_2_0) : (⟨S4x2, .f32⟩ : BufTy).Contents (Elt F) → (⟨S1x2, .f32⟩ : BufTy).Contents (Elt F)) a) shapeCasts_S1x2_S2)

/-- Layer 2's mixture means: block 2 of the stacked parameter, its leading axis dropped. -/
noncomputable def mu_2 (a : (⟨S4x3x2, .f32⟩ : BufTy).Contents (Elt F)) :
    (⟨S3x2, .f32⟩ : BufTy).Contents (Elt F) :=
  (shapeCast S3x2 (((extractStridedSlice S1x3x2 ![2, 0, 0] · slices_S4x3x2_S1x3x2_2_0_0) : (⟨S4x3x2, .f32⟩ : BufTy).Contents (Elt F) → (⟨S1x3x2, .f32⟩ : BufTy).Contents (Elt F)) a) shapeCasts_S1x3x2_S3x2)

/-- Layer 2's mixture scales: block 2 of the stacked parameter, its leading axis dropped. -/
noncomputable def sg_2 (a : (⟨S4x3x2, .f32⟩ : BufTy).Contents (Elt F)) :
    (⟨S3x2, .f32⟩ : BufTy).Contents (Elt F) :=
  (shapeCast S3x2 (((extractStridedSlice S1x3x2 ![2, 0, 0] · slices_S4x3x2_S1x3x2_2_0_0) : (⟨S4x3x2, .f32⟩ : BufTy).Contents (Elt F) → (⟨S1x3x2, .f32⟩ : BufTy).Contents (Elt F)) a) shapeCasts_S1x3x2_S3x2)

/-- Layer 2's weight matrix: block 2 of the stacked parameter, its leading axis dropped. -/
noncomputable def W_2 (a : (⟨S4x192x64, .f32⟩ : BufTy).Contents (Elt F)) :
    (⟨S192x64, .f32⟩ : BufTy).Contents (Elt F) :=
  (shapeCast S192x64 (((extractStridedSlice S1x192x64 ![2, 0, 0] · slices_S4x192x64_S1x192x64_2_0_0) : (⟨S4x192x64, .f32⟩ : BufTy).Contents (Elt F) → (⟨S1x192x64, .f32⟩ : BufTy).Contents (Elt F)) a) shapeCasts_S1x192x64_S192x64)

/-- Layer 2's normalization scale: block 2 of the stacked parameter, its leading axis dropped. -/
noncomputable def gamma_2 (a : (⟨S4x64, .f32⟩ : BufTy).Contents (Elt F)) :
    (⟨S64, .f32⟩ : BufTy).Contents (Elt F) :=
  (shapeCast S64 (((extractStridedSlice S1x64 ![2, 0] · slices_S4x64_S1x64_2_0) : (⟨S4x64, .f32⟩ : BufTy).Contents (Elt F) → (⟨S1x64, .f32⟩ : BufTy).Contents (Elt F)) a) shapeCasts_S1x64_S64)

/-- Layer 2's normalization shift: block 2 of the stacked parameter, its leading axis dropped. -/
noncomputable def beta_2 (a : (⟨S4x64, .f32⟩ : BufTy).Contents (Elt F)) :
    (⟨S64, .f32⟩ : BufTy).Contents (Elt F) :=
  (shapeCast S64 (((extractStridedSlice S1x64 ![2, 0] · slices_S4x64_S1x64_2_0) : (⟨S4x64, .f32⟩ : BufTy).Contents (Elt F) → (⟨S1x64, .f32⟩ : BufTy).Contents (Elt F)) a) shapeCasts_S1x64_S64)

/-- Layer 3's projection matrix: block 3 of the stacked parameter, its leading axis dropped. -/
noncomputable def A_3 (a : (⟨S4x2x2, .f32⟩ : BufTy).Contents (Elt F)) :
    (⟨S2x2, .f32⟩ : BufTy).Contents (Elt F) :=
  (shapeCast S2x2 (((extractStridedSlice S1x2x2 ![3, 0, 0] · slices_S4x2x2_S1x2x2_3_0_0) : (⟨S4x2x2, .f32⟩ : BufTy).Contents (Elt F) → (⟨S1x2x2, .f32⟩ : BufTy).Contents (Elt F)) a) shapeCasts_S1x2x2_S2x2)

/-- Layer 3's projection offset: block 3 of the stacked parameter, its leading axis dropped. -/
noncomputable def bvec_3 (a : (⟨S4x2, .f32⟩ : BufTy).Contents (Elt F)) :
    (⟨S2, .f32⟩ : BufTy).Contents (Elt F) :=
  (shapeCast S2 (((extractStridedSlice S1x2 ![3, 0] · slices_S4x2_S1x2_3_0) : (⟨S4x2, .f32⟩ : BufTy).Contents (Elt F) → (⟨S1x2, .f32⟩ : BufTy).Contents (Elt F)) a) shapeCasts_S1x2_S2)

/-- Layer 3's mixture means: block 3 of the stacked parameter, its leading axis dropped. -/
noncomputable def mu_3 (a : (⟨S4x3x2, .f32⟩ : BufTy).Contents (Elt F)) :
    (⟨S3x2, .f32⟩ : BufTy).Contents (Elt F) :=
  (shapeCast S3x2 (((extractStridedSlice S1x3x2 ![3, 0, 0] · slices_S4x3x2_S1x3x2_3_0_0) : (⟨S4x3x2, .f32⟩ : BufTy).Contents (Elt F) → (⟨S1x3x2, .f32⟩ : BufTy).Contents (Elt F)) a) shapeCasts_S1x3x2_S3x2)

/-- Layer 3's mixture scales: block 3 of the stacked parameter, its leading axis dropped. -/
noncomputable def sg_3 (a : (⟨S4x3x2, .f32⟩ : BufTy).Contents (Elt F)) :
    (⟨S3x2, .f32⟩ : BufTy).Contents (Elt F) :=
  (shapeCast S3x2 (((extractStridedSlice S1x3x2 ![3, 0, 0] · slices_S4x3x2_S1x3x2_3_0_0) : (⟨S4x3x2, .f32⟩ : BufTy).Contents (Elt F) → (⟨S1x3x2, .f32⟩ : BufTy).Contents (Elt F)) a) shapeCasts_S1x3x2_S3x2)

/-- Layer 3's weight matrix: block 3 of the stacked parameter, its leading axis dropped. -/
noncomputable def W_3 (a : (⟨S4x192x64, .f32⟩ : BufTy).Contents (Elt F)) :
    (⟨S192x64, .f32⟩ : BufTy).Contents (Elt F) :=
  (shapeCast S192x64 (((extractStridedSlice S1x192x64 ![3, 0, 0] · slices_S4x192x64_S1x192x64_3_0_0) : (⟨S4x192x64, .f32⟩ : BufTy).Contents (Elt F) → (⟨S1x192x64, .f32⟩ : BufTy).Contents (Elt F)) a) shapeCasts_S1x192x64_S192x64)

/-- Layer 3's normalization scale: block 3 of the stacked parameter, its leading axis dropped. -/
noncomputable def gamma_3 (a : (⟨S4x64, .f32⟩ : BufTy).Contents (Elt F)) :
    (⟨S64, .f32⟩ : BufTy).Contents (Elt F) :=
  (shapeCast S64 (((extractStridedSlice S1x64 ![3, 0] · slices_S4x64_S1x64_3_0) : (⟨S4x64, .f32⟩ : BufTy).Contents (Elt F) → (⟨S1x64, .f32⟩ : BufTy).Contents (Elt F)) a) shapeCasts_S1x64_S64)

/-- Layer 3's normalization shift: block 3 of the stacked parameter, its leading axis dropped. -/
noncomputable def beta_3 (a : (⟨S4x64, .f32⟩ : BufTy).Contents (Elt F)) :
    (⟨S64, .f32⟩ : BufTy).Contents (Elt F) :=
  (shapeCast S64 (((extractStridedSlice S1x64 ![3, 0] · slices_S4x64_S1x64_3_0) : (⟨S4x64, .f32⟩ : BufTy).Contents (Elt F) → (⟨S1x64, .f32⟩ : BufTy).Contents (Elt F)) a) shapeCasts_S1x64_S64)

/-- The projected pseudo-coordinates of every edge: the coordinates against the transposed matrix, the offset added along the rows, the hyperbolic tangent. -/
noncomputable def uS (pseudo : (⟨S800000x2, .f32⟩ : BufTy).Contents (Elt F)) (A : (⟨S2x2, .f32⟩ : BufTy).Contents (Elt F)) (bvec : (⟨S2, .f32⟩ : BufTy).Contents (Elt F)) :
    (⟨S800000x2, .f32⟩ : BufTy).Contents (Elt F) :=
  ((Host.tanh : (⟨S800000x2, .f32⟩ : BufTy).Contents (Elt F) → (⟨S800000x2, .f32⟩ : BufTy).Contents (Elt F)) ((addf : (⟨S800000x2, .f32⟩ : BufTy).Contents (Elt F) → (⟨S800000x2, .f32⟩ : BufTy).Contents (Elt F) → (⟨S800000x2, .f32⟩ : BufTy).Contents (Elt F)) (((fun l r => Host.dotGeneral dot_S800000x2_S2x2_S800000x2_1_0_0_1_n_n none l r) : (⟨S800000x2, .f32⟩ : BufTy).Contents (Elt F) → (⟨S2x2, .f32⟩ : BufTy).Contents (Elt F) → (⟨S800000x2, .f32⟩ : BufTy).Contents (Elt F)) pseudo (((transpose S2x2 [1, 0] · transposes_S2x2_S2x2_1_0) : (⟨S2x2, .f32⟩ : BufTy).Contents (Elt F) → (⟨S2x2, .f32⟩ : BufTy).Contents (Elt F)) A)) ((broadcastInDim S800000x2 ![0, 1] bcast_S1x2_S800000x2_0_1 : (⟨S1x2, .f32⟩ : BufTy).Contents (Elt F) → (⟨S800000x2, .f32⟩ : BufTy).Contents (Elt F)) ((broadcastInDim S1x2 ![1] bcast_S2_S1x2_1 : (⟨S2, .f32⟩ : BufTy).Contents (Elt F) → (⟨S1x2, .f32⟩ : BufTy).Contents (Elt F)) bvec))))

/-- The Gaussian weight of every edge and mixture component: the scaled deviation from the component's mean, squared, summed over the two coordinates, times minus one half, exponentiated. -/
noncomputable def gaussS (u : (⟨S800000x2, .f32⟩ : BufTy).Contents (Elt F)) (mu : (⟨S3x2, .f32⟩ : BufTy).Contents (Elt F)) (sg : (⟨S3x2, .f32⟩ : BufTy).Contents (Elt F)) :
    (⟨S800000x3, .f32⟩ : BufTy).Contents (Elt F) :=
  ((Host.exp : (⟨S800000x3, .f32⟩ : BufTy).Contents (Elt F) → (⟨S800000x3, .f32⟩ : BufTy).Contents (Elt F)) ((mulf : (⟨S800000x3, .f32⟩ : BufTy).Contents (Elt F) → (⟨S800000x3, .f32⟩ : BufTy).Contents (Elt F) → (⟨S800000x3, .f32⟩ : BufTy).Contents (Elt F)) ((broadcastInDim S800000x3 ![] bcast_S_S800000x3 : (⟨S_, .f32⟩ : BufTy).Contents (Elt F) → (⟨S800000x3, .f32⟩ : BufTy).Contents (Elt F)) (constant S_ .f32 0xBF000000#32 : (⟨S_, .f32⟩ : BufTy).Contents (Elt F))) (((fun x v => Host.reduceAdd x v reducesTo_S800000x3x2_S800000x3_d2 h_S_) : (⟨S800000x3x2, .f32⟩ : BufTy).Contents (Elt F) → (⟨S_, .f32⟩ : BufTy).Contents (Elt F) → (⟨S800000x3, .f32⟩ : BufTy).Contents (Elt F)) ((mulf : (⟨S800000x3x2, .f32⟩ : BufTy).Contents (Elt F) → (⟨S800000x3x2, .f32⟩ : BufTy).Contents (Elt F) → (⟨S800000x3x2, .f32⟩ : BufTy).Contents (Elt F)) ((mulf : (⟨S800000x3x2, .f32⟩ : BufTy).Contents (Elt F) → (⟨S800000x3x2, .f32⟩ : BufTy).Contents (Elt F) → (⟨S800000x3x2, .f32⟩ : BufTy).Contents (Elt F)) ((subf : (⟨S800000x3x2, .f32⟩ : BufTy).Contents (Elt F) → (⟨S800000x3x2, .f32⟩ : BufTy).Contents (Elt F) → (⟨S800000x3x2, .f32⟩ : BufTy).Contents (Elt F)) ((broadcastInDim S800000x3x2 ![0, 1, 2] bcast_S800000x1x2_S800000x3x2_0_1_2 : (⟨S800000x1x2, .f32⟩ : BufTy).Contents (Elt F) → (⟨S800000x3x2, .f32⟩ : BufTy).Contents (Elt F)) ((broadcastInDim S800000x1x2 ![0, 2] bcast_S800000x2_S800000x1x2_0_2 : (⟨S800000x2, .f32⟩ : BufTy).Contents (Elt F) → (⟨S800000x1x2, .f32⟩ : BufTy).Contents (Elt F)) u)) ((broadcastInDim S800000x3x2 ![0, 1, 2] bcast_S1x3x2_S800000x3x2_0_1_2 : (⟨S1x3x2, .f32⟩ : BufTy).Contents (Elt F) → (⟨S800000x3x2, .f32⟩ : BufTy).Contents (Elt F)) ((broadcastInDim S1x3x2 ![1, 2] bcast_S3x2_S1x3x2_1_2 : (⟨S3x2, .f32⟩ : BufTy).Contents (Elt F) → (⟨S1x3x2, .f32⟩ : BufTy).Contents (Elt F)) mu))) ((broadcastInDim S800000x3x2 ![0, 1, 2] bcast_S1x3x2_S800000x3x2_0_1_2 : (⟨S1x3x2, .f32⟩ : BufTy).Contents (Elt F) → (⟨S800000x3x2, .f32⟩ : BufTy).Contents (Elt F)) ((broadcastInDim S1x3x2 ![1, 2] bcast_S3x2_S1x3x2_1_2 : (⟨S3x2, .f32⟩ : BufTy).Contents (Elt F) → (⟨S1x3x2, .f32⟩ : BufTy).Contents (Elt F)) sg))) ((mulf : (⟨S800000x3x2, .f32⟩ : BufTy).Contents (Elt F) → (⟨S800000x3x2, .f32⟩ : BufTy).Contents (Elt F) → (⟨S800000x3x2, .f32⟩ : BufTy).Contents (Elt F)) ((subf : (⟨S800000x3x2, .f32⟩ : BufTy).Contents (Elt F) → (⟨S800000x3x2, .f32⟩ : BufTy).Contents (Elt F) → (⟨S800000x3x2, .f32⟩ : BufTy).Contents (Elt F)) ((broadcastInDim S800000x3x2 ![0, 1, 2] bcast_S800000x1x2_S800000x3x2_0_1_2 : (⟨S800000x1x2, .f32⟩ : BufTy).Contents (Elt F) → (⟨S800000x3x2, .f32⟩ : BufTy).Contents (Elt F)) ((broadcastInDim S800000x1x2 ![0, 2] bcast_S800000x2_S800000x1x2_0_2 : (⟨S800000x2, .f32⟩ : BufTy).Contents (Elt F) → (⟨S800000x1x2, .f32⟩ : BufTy).Contents (Elt F)) u)) ((broadcastInDim S800000x3x2 ![0, 1, 2] bcast_S1x3x2_S800000x3x2_0_1_2 : (⟨S1x3x2, .f32⟩ : BufTy).Contents (Elt F) → (⟨S800000x3x2, .f32⟩ : BufTy).Contents (Elt F)) ((broadcastInDim S1x3x2 ![1, 2] bcast_S3x2_S1x3x2_1_2 : (⟨S3x2, .f32⟩ : BufTy).Contents (Elt F) → (⟨S1x3x2, .f32⟩ : BufTy).Contents (Elt F)) mu))) ((broadcastInDim S800000x3x2 ![0, 1, 2] bcast_S1x3x2_S800000x3x2_0_1_2 : (⟨S1x3x2, .f32⟩ : BufTy).Contents (Elt F) → (⟨S800000x3x2, .f32⟩ : BufTy).Contents (Elt F)) ((broadcastInDim S1x3x2 ![1, 2] bcast_S3x2_S1x3x2_1_2 : (⟨S3x2, .f32⟩ : BufTy).Contents (Elt F) → (⟨S1x3x2, .f32⟩ : BufTy).Contents (Elt F)) sg)))) (constant S_ .f32 0x00000000#32 : (⟨S_, .f32⟩ : BufTy).Contents (Elt F)))))

/-- The transformed node features: the features against the transposed weight matrix, the 192 columns read as three blocks of 64. -/
noncomputable def hkS (h : (⟨S50000x64, .f32⟩ : BufTy).Contents (Elt F)) (W : (⟨S192x64, .f32⟩ : BufTy).Contents (Elt F)) :
    (⟨S50000x3x64, .f32⟩ : BufTy).Contents (Elt F) :=
  (shapeCast S50000x3x64 (((fun l r => Host.dotGeneral dot_S50000x64_S64x192_S50000x192_1_0_0_1_n_n none l r) : (⟨S50000x64, .f32⟩ : BufTy).Contents (Elt F) → (⟨S64x192, .f32⟩ : BufTy).Contents (Elt F) → (⟨S50000x192, .f32⟩ : BufTy).Contents (Elt F)) h (((transpose S64x192 [1, 0] · transposes_S192x64_S64x192_1_0) : (⟨S192x64, .f32⟩ : BufTy).Contents (Elt F) → (⟨S64x192, .f32⟩ : BufTy).Contents (Elt F)) W)) shapeCasts_S50000x192_S50000x3x64)

/-- The transformed features at each edge's source node (a negative index wrapped by the node count). -/
noncomputable def hkSrcS (hk : (⟨S50000x3x64, .f32⟩ : BufTy).Contents (Elt F)) (src : (⟨S800000, .i32⟩ : BufTy).Contents (Elt F)) :
    (⟨S800000x3x64, .f32⟩ : BufTy).Contents (Elt F) :=
  (((fun x i => Host.gather gather_S50000x3x64_S800000x1_S800000x3x64_12_0_n_n_0_1_1364 x i) : (⟨S50000x3x64, .f32⟩ : BufTy).Contents (Elt F) → (⟨S800000x1, .i32⟩ : BufTy).Contents (Elt F) → (⟨S800000x3x64, .f32⟩ : BufTy).Contents (Elt F)) hk ((broadcastInDim S800000x1 ![0] bcast_S800000_S800000x1_0 : (⟨S800000, .i32⟩ : BufTy).Contents (Elt F) → (⟨S800000x1, .i32⟩ : BufTy).Contents (Elt F)) ((select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)) ((cmpi .slt : (⟨S800000, .i32⟩ : BufTy).Contents (Elt F) → (⟨S800000, .i32⟩ : BufTy).Contents (Elt F) → (⟨S800000, .i1⟩ : BufTy).Contents (Elt F)) src ((broadcastInDim S800000 ![] bcast_S_S800000 : (⟨S_, .i32⟩ : BufTy).Contents (Elt F) → (⟨S800000, .i32⟩ : BufTy).Contents (Elt F)) (constantI S_ 32 0#32 : (⟨S_, .i32⟩ : BufTy).Contents (Elt F)))) ((addi : (⟨S800000, .i32⟩ : BufTy).Contents (Elt F) → (⟨S800000, .i32⟩ : BufTy).Contents (Elt F) → (⟨S800000, .i32⟩ : BufTy).Contents (Elt F)) src ((broadcastInDim S800000 ![] bcast_S_S800000 : (⟨S_, .i32⟩ : BufTy).Contents (Elt F) → (⟨S800000, .i32⟩ : BufTy).Contents (Elt F)) (constantI S_ 32 50000#32 : (⟨S_, .i32⟩ : BufTy).Contents (Elt F)))) src)))

/-- The messages: the source's transformed features times the edge's Gaussian weight, along the 64 features. -/
noncomputable def msgS (hkSrc : (⟨S800000x3x64, .f32⟩ : BufTy).Contents (Elt F)) (gauss : (⟨S800000x3, .f32⟩ : BufTy).Contents (Elt F)) :
    (⟨S800000x3x64, .f32⟩ : BufTy).Contents (Elt F) :=
  ((mulf : (⟨S800000x3x64, .f32⟩ : BufTy).Contents (Elt F) → (⟨S800000x3x64, .f32⟩ : BufTy).Contents (Elt F) → (⟨S800000x3x64, .f32⟩ : BufTy).Contents (Elt F)) hkSrc ((broadcastInDim S800000x3x64 ![0, 1, 2] bcast_S800000x3x1_S800000x3x64_0_1_2 : (⟨S800000x3x1, .f32⟩ : BufTy).Contents (Elt F) → (⟨S800000x3x64, .f32⟩ : BufTy).Contents (Elt F)) ((broadcastInDim S800000x3x1 ![0, 1] bcast_S800000x3_S800000x3x1_0_1 : (⟨S800000x3, .f32⟩ : BufTy).Contents (Elt F) → (⟨S800000x3x1, .f32⟩ : BufTy).Contents (Elt F)) gauss)))

/-- The aggregate: the messages added at the target nodes from zero, then summed over the three components. -/
noncomputable def aggS (msg : (⟨S800000x3x64, .f32⟩ : BufTy).Contents (Elt F)) (dst : (⟨S800000, .i32⟩ : BufTy).Contents (Elt F)) :
    (⟨S50000x64, .f32⟩ : BufTy).Contents (Elt F) :=
  (((fun x v => Host.reduceAdd x v reducesTo_S50000x3x64_S50000x64_d1 h_S_) : (⟨S50000x3x64, .f32⟩ : BufTy).Contents (Elt F) → (⟨S_, .f32⟩ : BufTy).Contents (Elt F) → (⟨S50000x64, .f32⟩ : BufTy).Contents (Elt F)) (((fun x i u => Host.scatterAdd scatter_S50000x3x64_S800000x1_S800000x3x64_12_0_0_1 x i u) : (⟨S50000x3x64, .f32⟩ : BufTy).Contents (Elt F) → (⟨S800000x1, .i32⟩ : BufTy).Contents (Elt F) → (⟨S800000x3x64, .f32⟩ : BufTy).Contents (Elt F) → (⟨S50000x3x64, .f32⟩ : BufTy).Contents (Elt F)) ((broadcastInDim S50000x3x64 ![] bcast_S_S50000x3x64 : (⟨S_, .f32⟩ : BufTy).Contents (Elt F) → (⟨S50000x3x64, .f32⟩ : BufTy).Contents (Elt F)) (constant S_ .f32 0x00000000#32 : (⟨S_, .f32⟩ : BufTy).Contents (Elt F))) ((broadcastInDim S800000x1 ![0] bcast_S800000_S800000x1_0 : (⟨S800000, .i32⟩ : BufTy).Contents (Elt F) → (⟨S800000x1, .i32⟩ : BufTy).Contents (Elt F)) dst) msg) (constant S_ .f32 0x00000000#32 : (⟨S_, .f32⟩ : BufTy).Contents (Elt F)))

/-- Normalization over the 50000 nodes with batch statistics (the mean, the variance as the mean squared deviation, chosen by the comparison of the count against zero), scale and shift, the maximum with zero, the layer's input added. -/
noncomputable def bnS (agg : (⟨S50000x64, .f32⟩ : BufTy).Contents (Elt F)) (h : (⟨S50000x64, .f32⟩ : BufTy).Contents (Elt F)) (gamma : (⟨S64, .f32⟩ : BufTy).Contents (Elt F)) (beta : (⟨S64, .f32⟩ : BufTy).Contents (Elt F)) :
    (⟨S50000x64, .f32⟩ : BufTy).Contents (Elt F) :=
  ((addf : (⟨S50000x64, .f32⟩ : BufTy).Contents (Elt F) → (⟨S50000x64, .f32⟩ : BufTy).Contents (Elt F) → (⟨S50000x64, .f32⟩ : BufTy).Contents (Elt F)) h (maximumf ((addf : (⟨S50000x64, .f32⟩ : BufTy).Contents (Elt F) → (⟨S50000x64, .f32⟩ : BufTy).Contents (Elt F) → (⟨S50000x64, .f32⟩ : BufTy).Contents (Elt F)) ((mulf : (⟨S50000x64, .f32⟩ : BufTy).Contents (Elt F) → (⟨S50000x64, .f32⟩ : BufTy).Contents (Elt F) → (⟨S50000x64, .f32⟩ : BufTy).Contents (Elt F)) ((mulf : (⟨S50000x64, .f32⟩ : BufTy).Contents (Elt F) → (⟨S50000x64, .f32⟩ : BufTy).Contents (Elt F) → (⟨S50000x64, .f32⟩ : BufTy).Contents (Elt F)) ((subf : (⟨S50000x64, .f32⟩ : BufTy).Contents (Elt F) → (⟨S50000x64, .f32⟩ : BufTy).Contents (Elt F) → (⟨S50000x64, .f32⟩ : BufTy).Contents (Elt F)) agg ((broadcastInDim S50000x64 ![0, 1] bcast_S1x64_S50000x64_0_1 : (⟨S1x64, .f32⟩ : BufTy).Contents (Elt F) → (⟨S50000x64, .f32⟩ : BufTy).Contents (Elt F)) ((broadcastInDim S1x64 ![1] bcast_S64_S1x64_1 : (⟨S64, .f32⟩ : BufTy).Contents (Elt F) → (⟨S1x64, .f32⟩ : BufTy).Contents (Elt F)) ((Host.divf : (⟨S64, .f32⟩ : BufTy).Contents (Elt F) → (⟨S64, .f32⟩ : BufTy).Contents (Elt F) → (⟨S64, .f32⟩ : BufTy).Contents (Elt F)) (((fun x v => Host.reduceAdd x v reducesTo_S50000x64_S64_d0 h_S_) : (⟨S50000x64, .f32⟩ : BufTy).Contents (Elt F) → (⟨S_, .f32⟩ : BufTy).Contents (Elt F) → (⟨S64, .f32⟩ : BufTy).Contents (Elt F)) agg (constant S_ .f32 0x00000000#32 : (⟨S_, .f32⟩ : BufTy).Contents (Elt F))) ((broadcastInDim S64 ![] bcast_S_S64 : (⟨S_, .f32⟩ : BufTy).Contents (Elt F) → (⟨S64, .f32⟩ : BufTy).Contents (Elt F)) (constant S_ .f32 0x47435000#32 : (⟨S_, .f32⟩ : BufTy).Contents (Elt F))))))) ((broadcastInDim S50000x64 ![0, 1] bcast_S1x64_S50000x64_0_1 : (⟨S1x64, .f32⟩ : BufTy).Contents (Elt F) → (⟨S50000x64, .f32⟩ : BufTy).Contents (Elt F)) ((broadcastInDim S1x64 ![1] bcast_S64_S1x64_1 : (⟨S64, .f32⟩ : BufTy).Contents (Elt F) → (⟨S1x64, .f32⟩ : BufTy).Contents (Elt F)) ((Host.rsqrt : (⟨S64, .f32⟩ : BufTy).Contents (Elt F) → (⟨S64, .f32⟩ : BufTy).Contents (Elt F)) ((addf : (⟨S64, .f32⟩ : BufTy).Contents (Elt F) → (⟨S64, .f32⟩ : BufTy).Contents (Elt F) → (⟨S64, .f32⟩ : BufTy).Contents (Elt F)) ((fun p a b => select (broadcastInDim S64 ![] bcast_S_S64 p) a b) ((cmpf .ogt) (subf (constant S_ .f32 0x47435000#32 : (⟨S_, .f32⟩ : BufTy).Contents (Elt F)) ((sitofp .f32) (constantI S_ 32 0#32 : (⟨S_, .i32⟩ : BufTy).Contents (Elt F)))) (constant S_ .f32 0x00000000#32 : (⟨S_, .f32⟩ : BufTy).Contents (Elt F))) (Host.divf ((fun x v => Host.reduceAdd x v reducesTo_S50000x64_S64_d0 h_S_) (mulf (subf agg ((broadcastInDim S50000x64 ![0, 1] bcast_S1x64_S50000x64_0_1) (Host.divf ((broadcastInDim S1x64 ![1] bcast_S64_S1x64_1) ((fun x v => Host.reduceAdd x v reducesTo_S50000x64_S64_d0 h_S_) agg (constant S_ .f32 0x00000000#32 : (⟨S_, .f32⟩ : BufTy).Contents (Elt F)))) ((broadcastInDim S1x64 ![] bcast_S_S1x64) (constant S_ .f32 0x47435000#32 : (⟨S_, .f32⟩ : BufTy).Contents (Elt F)))))) (subf agg ((broadcastInDim S50000x64 ![0, 1] bcast_S1x64_S50000x64_0_1) (Host.divf ((broadcastInDim S1x64 ![1] bcast_S64_S1x64_1) ((fun x v => Host.reduceAdd x v reducesTo_S50000x64_S64_d0 h_S_) agg (constant S_ .f32 0x00000000#32 : (⟨S_, .f32⟩ : BufTy).Contents (Elt F)))) ((broadcastInDim S1x64 ![] bcast_S_S1x64) (constant S_ .f32 0x47435000#32 : (⟨S_, .f32⟩ : BufTy).Contents (Elt F))))))) (constant S_ .f32 0x00000000#32 : (⟨S_, .f32⟩ : BufTy).Contents (Elt F))) ((broadcastInDim S64 ![] bcast_S_S64) (subf (constant S_ .f32 0x47435000#32 : (⟨S_, .f32⟩ : BufTy).Contents (Elt F)) ((sitofp .f32) (constantI S_ 32 0#32 : (⟨S_, .i32⟩ : BufTy).Contents (Elt F)))))) ((broadcastInDim S64 ![] bcast_S_S64) (id (constant S_ .f32 0x7FC00000#32 : (⟨S_, .f32⟩ : BufTy).Contents (Elt F))))) ((broadcastInDim S64 ![] bcast_S_S64 : (⟨S_, .f32⟩ : BufTy).Contents (Elt F) → (⟨S64, .f32⟩ : BufTy).Contents (Elt F)) (constant S_ .f32 0x3727C5AC#32 : (⟨S_, .f32⟩ : BufTy).Contents (Elt F)))))))) ((broadcastInDim S50000x64 ![0, 1] bcast_S1x64_S50000x64_0_1 : (⟨S1x64, .f32⟩ : BufTy).Contents (Elt F) → (⟨S50000x64, .f32⟩ : BufTy).Contents (Elt F)) ((broadcastInDim S1x64 ![1] bcast_S64_S1x64_1 : (⟨S64, .f32⟩ : BufTy).Contents (Elt F) → (⟨S1x64, .f32⟩ : BufTy).Contents (Elt F)) gamma))) ((broadcastInDim S50000x64 ![0, 1] bcast_S1x64_S50000x64_0_1 : (⟨S1x64, .f32⟩ : BufTy).Contents (Elt F) → (⟨S50000x64, .f32⟩ : BufTy).Contents (Elt F)) ((broadcastInDim S1x64 ![1] bcast_S64_S1x64_1 : (⟨S64, .f32⟩ : BufTy).Contents (Elt F) → (⟨S1x64, .f32⟩ : BufTy).Contents (Elt F)) beta))) ((broadcastInDim S50000x64 ![] bcast_S_S50000x64) (constant S_ .f32 0x00000000#32 : (⟨S_, .f32⟩ : BufTy).Contents (Elt F)))))

/-- The readout: the nodes' features averaged per graph (added at the graph indices from zero, divided by the node count of the graph, at least one), then three dense layers, the first two followed by the maximum with zero. -/
noncomputable def readoutS (h : (⟨S50000x64, .f32⟩ : BufTy).Contents (Elt F)) (gid : (⟨S50000, .i32⟩ : BufTy).Contents (Elt F)) (w1 : (⟨S32x64, .f32⟩ : BufTy).Contents (Elt F)) (b1 : (⟨S32, .f32⟩ : BufTy).Contents (Elt F)) (w2 : (⟨S16x32, .f32⟩ : BufTy).Contents (Elt F)) (b2 : (⟨S16, .f32⟩ : BufTy).Contents (Elt F)) (w3 : (⟨S1x16, .f32⟩ : BufTy).Contents (Elt F)) (b3 : (⟨S1, .f32⟩ : BufTy).Contents (Elt F)) :
    (⟨S256x1, .f32⟩ : BufTy).Contents (Elt F) :=
  ((addf : (⟨S256x1, .f32⟩ : BufTy).Contents (Elt F) → (⟨S256x1, .f32⟩ : BufTy).Contents (Elt F) → (⟨S256x1, .f32⟩ : BufTy).Contents (Elt F)) (((fun l r => Host.dotGeneral dot_S256x16_S16x1_S256x1_1_0_0_1_n_n none l r) : (⟨S256x16, .f32⟩ : BufTy).Contents (Elt F) → (⟨S16x1, .f32⟩ : BufTy).Contents (Elt F) → (⟨S256x1, .f32⟩ : BufTy).Contents (Elt F)) (maximumf ((addf : (⟨S256x16, .f32⟩ : BufTy).Contents (Elt F) → (⟨S256x16, .f32⟩ : BufTy).Contents (Elt F) → (⟨S256x16, .f32⟩ : BufTy).Contents (Elt F)) (((fun l r => Host.dotGeneral dot_S256x32_S32x16_S256x16_1_0_0_1_n_n none l r) : (⟨S256x32, .f32⟩ : BufTy).Contents (Elt F) → (⟨S32x16, .f32⟩ : BufTy).Contents (Elt F) → (⟨S256x16, .f32⟩ : BufTy).Contents (Elt F)) (maximumf ((addf : (⟨S256x32, .f32⟩ : BufTy).Contents (Elt F) → (⟨S256x32, .f32⟩ : BufTy).Contents (Elt F) → (⟨S256x32, .f32⟩ : BufTy).Contents (Elt F)) (((fun l r => Host.dotGeneral dot_S256x64_S64x32_S256x32_1_0_0_1_n_n none l r) : (⟨S256x64, .f32⟩ : BufTy).Contents (Elt F) → (⟨S64x32, .f32⟩ : BufTy).Contents (Elt F) → (⟨S256x32, .f32⟩ : BufTy).Contents (Elt F)) ((Host.divf : (⟨S256x64, .f32⟩ : BufTy).Contents (Elt F) → (⟨S256x64, .f32⟩ : BufTy).Contents (Elt F) → (⟨S256x64, .f32⟩ : BufTy).Contents (Elt F)) (((fun x i u => Host.scatterAdd scatter_S256x64_S50000x1_S50000x64_1_0_0_1 x i u) : (⟨S256x64, .f32⟩ : BufTy).Contents (Elt F) → (⟨S50000x1, .i32⟩ : BufTy).Contents (Elt F) → (⟨S50000x64, .f32⟩ : BufTy).Contents (Elt F) → (⟨S256x64, .f32⟩ : BufTy).Contents (Elt F)) ((broadcastInDim S256x64 ![] bcast_S_S256x64 : (⟨S_, .f32⟩ : BufTy).Contents (Elt F) → (⟨S256x64, .f32⟩ : BufTy).Contents (Elt F)) (constant S_ .f32 0x00000000#32 : (⟨S_, .f32⟩ : BufTy).Contents (Elt F))) ((broadcastInDim S50000x1 ![0] bcast_S50000_S50000x1_0 : (⟨S50000, .i32⟩ : BufTy).Contents (Elt F) → (⟨S50000x1, .i32⟩ : BufTy).Contents (Elt F)) gid) h) ((broadcastInDim S256x64 ![0, 1] bcast_S256x1_S256x64_0_1 : (⟨S256x1, .f32⟩ : BufTy).Contents (Elt F) → (⟨S256x64, .f32⟩ : BufTy).Contents (Elt F)) ((broadcastInDim S256x1 ![0] bcast_S256_S256x1_0 : (⟨S256, .f32⟩ : BufTy).Contents (Elt F) → (⟨S256x1, .f32⟩ : BufTy).Contents (Elt F)) ((maximumf : (⟨S256, .f32⟩ : BufTy).Contents (Elt F) → (⟨S256, .f32⟩ : BufTy).Contents (Elt F) → (⟨S256, .f32⟩ : BufTy).Contents (Elt F)) (((fun x i u => Host.scatterAdd scatter_S256_S50000x1_S50000_n_0_0_1 x i u) : (⟨S256, .f32⟩ : BufTy).Contents (Elt F) → (⟨S50000x1, .i32⟩ : BufTy).Contents (Elt F) → (⟨S50000, .f32⟩ : BufTy).Contents (Elt F) → (⟨S256, .f32⟩ : BufTy).Contents (Elt F)) ((broadcastInDim S256 ![] bcast_S_S256 : (⟨S_, .f32⟩ : BufTy).Contents (Elt F) → (⟨S256, .f32⟩ : BufTy).Contents (Elt F)) (constant S_ .f32 0x00000000#32 : (⟨S_, .f32⟩ : BufTy).Contents (Elt F))) ((broadcastInDim S50000x1 ![0] bcast_S50000_S50000x1_0 : (⟨S50000, .i32⟩ : BufTy).Contents (Elt F) → (⟨S50000x1, .i32⟩ : BufTy).Contents (Elt F)) gid) ((broadcastInDim S50000 ![] bcast_S_S50000 : (⟨S_, .f32⟩ : BufTy).Contents (Elt F) → (⟨S50000, .f32⟩ : BufTy).Contents (Elt F)) (constant S_ .f32 0x3F800000#32 : (⟨S_, .f32⟩ : BufTy).Contents (Elt F)))) ((broadcastInDim S256 ![] bcast_S_S256 : (⟨S_, .f32⟩ : BufTy).Contents (Elt F) → (⟨S256, .f32⟩ : BufTy).Contents (Elt F)) (constant S_ .f32 0x3F800000#32 : (⟨S_, .f32⟩ : BufTy).Contents (Elt F))))))) (((transpose S64x32 [1, 0] · transposes_S32x64_S64x32_1_0) : (⟨S32x64, .f32⟩ : BufTy).Contents (Elt F) → (⟨S64x32, .f32⟩ : BufTy).Contents (Elt F)) w1)) ((broadcastInDim S256x32 ![0, 1] bcast_S1x32_S256x32_0_1 : (⟨S1x32, .f32⟩ : BufTy).Contents (Elt F) → (⟨S256x32, .f32⟩ : BufTy).Contents (Elt F)) ((broadcastInDim S1x32 ![1] bcast_S32_S1x32_1 : (⟨S32, .f32⟩ : BufTy).Contents (Elt F) → (⟨S1x32, .f32⟩ : BufTy).Contents (Elt F)) b1))) ((broadcastInDim S256x32 ![] bcast_S_S256x32) (constant S_ .f32 0x00000000#32 : (⟨S_, .f32⟩ : BufTy).Contents (Elt F)))) (((transpose S32x16 [1, 0] · transposes_S16x32_S32x16_1_0) : (⟨S16x32, .f32⟩ : BufTy).Contents (Elt F) → (⟨S32x16, .f32⟩ : BufTy).Contents (Elt F)) w2)) ((broadcastInDim S256x16 ![0, 1] bcast_S1x16_S256x16_0_1 : (⟨S1x16, .f32⟩ : BufTy).Contents (Elt F) → (⟨S256x16, .f32⟩ : BufTy).Contents (Elt F)) ((broadcastInDim S1x16 ![1] bcast_S16_S1x16_1 : (⟨S16, .f32⟩ : BufTy).Contents (Elt F) → (⟨S1x16, .f32⟩ : BufTy).Contents (Elt F)) b2))) ((broadcastInDim S256x16 ![] bcast_S_S256x16) (constant S_ .f32 0x00000000#32 : (⟨S_, .f32⟩ : BufTy).Contents (Elt F)))) (((transpose S16x1 [1, 0] · transposes_S1x16_S16x1_1_0) : (⟨S1x16, .f32⟩ : BufTy).Contents (Elt F) → (⟨S16x1, .f32⟩ : BufTy).Contents (Elt F)) w3)) ((broadcastInDim S256x1 ![0, 1] bcast_S1x1_S256x1_0_1 : (⟨S1x1, .f32⟩ : BufTy).Contents (Elt F) → (⟨S256x1, .f32⟩ : BufTy).Contents (Elt F)) ((broadcastInDim S1x1 ![1] bcast_S1_S1x1_1 : (⟨S1, .f32⟩ : BufTy).Contents (Elt F) → (⟨S1x1, .f32⟩ : BufTy).Contents (Elt F)) b3)))

/-- One layer over its parameters already cut out: the aggregate of the weighted messages, normalized, rectified and added to the layer's input. -/
noncomputable def layerS (h : (⟨S50000x64, .f32⟩ : BufTy).Contents (Elt F)) (pseudo : (⟨S800000x2, .f32⟩ : BufTy).Contents (Elt F)) (src dst : (⟨S800000, .i32⟩ : BufTy).Contents (Elt F))
    (A : (⟨S2x2, .f32⟩ : BufTy).Contents (Elt F)) (bvec : (⟨S2, .f32⟩ : BufTy).Contents (Elt F)) (mu sg : (⟨S3x2, .f32⟩ : BufTy).Contents (Elt F)) (W : (⟨S192x64, .f32⟩ : BufTy).Contents (Elt F)) (gamma beta : (⟨S64, .f32⟩ : BufTy).Contents (Elt F)) :
    (⟨S50000x64, .f32⟩ : BufTy).Contents (Elt F) :=
  bnS (aggS (msgS (hkSrcS (hkS h W) src) (gaussS (uS pseudo A bvec) mu sg)) dst) h gamma beta

end Cert.ReferenceIdeal.RefSpec

end
-- ==== Proof.RefSpec.lean ====
/- The reference program's value. @main's operations, cut into ten stretches that end where a stage ends (the
   prologue, each layer's messages and aggregate, each layer's normalization, the readout), are read stretch by
   stretch from any contents: the buffer a stage ends in holds that stage's function of what the buffers it reads
   held before, and a buffer a stretch does not write keeps its contents. Chained from the arguments' contents, the
   result buffer holds the readout of the fourth layer's features, every layer the layer function at its block of the
   stacked parameters. -/
import proofs.«111449_j80633716015168_2_alg».proof.Proof.RefRun
import proofs.«111449_j80633716015168_2_alg».proof.Proof.RefStages

set_option Elab.async false

noncomputable section

namespace Cert.ReferenceIdeal.RefSpec

open Cert.ReferenceIdeal Cert.ReferenceIdeal.Gen Idealize.ShloMosaic Idealize.ShloMosaic.TcCoe Idealize.SL.Sem Idealize.ShloMosaic.StableHlo

variable {F : FTy → Type} [FloatOps F]

/-! ## The operations in stretches that end where a stage ends, and each stretch read from any contents -/

/-- The operations 1 … 50 of @main's 503. -/
abbrev cP : List (HloOp τ sig (Elt F)) :=
  [ StableHlo.nullary main_cst (constant S_ .f32 0x3F800000#32),
    StableHlo.unary main_cst main_v0 (broadcastInDim S800000 ![] bcast_S_S800000 : (⟨S_, .f32⟩ : BufTy).Contents (Elt F) → (⟨S800000, .f32⟩ : BufTy).Contents (Elt F)),
    StableHlo.nullary main_cst_0 (constant S_ .f32 0x00000000#32),
    StableHlo.unary main_cst_0 main_v1 (broadcastInDim S50000 ![] bcast_S_S50000 : (⟨S_, .f32⟩ : BufTy).Contents (Elt F) → (⟨S50000, .f32⟩ : BufTy).Contents (Elt F)),
    StableHlo.unary main_arg2 main_v2 (broadcastInDim S800000x1 ![0] bcast_S800000_S800000x1_0 : (⟨S800000, .i32⟩ : BufTy).Contents (Elt F) → (⟨S800000x1, .i32⟩ : BufTy).Contents (Elt F)),
    StableHlo.ternary main_v1 main_v2 main_v0 main_v3 ((fun x i u => Host.scatterAdd scatter_S50000_S800000x1_S800000_n_0_0_1 x i u) : (⟨S50000, .f32⟩ : BufTy).Contents (Elt F) → (⟨S800000x1, .i32⟩ : BufTy).Contents (Elt F) → (⟨S800000, .f32⟩ : BufTy).Contents (Elt F) → (⟨S50000, .f32⟩ : BufTy).Contents (Elt F)),
    StableHlo.nullary main_c (constantI S_ 32 0#32),
    StableHlo.unary main_c main_v4 (broadcastInDim S800000 ![] bcast_S_S800000 : (⟨S_, .i32⟩ : BufTy).Contents (Elt F) → (⟨S800000, .i32⟩ : BufTy).Contents (Elt F)),
    StableHlo.binary main_arg1 main_v4 main_v5 (cmpi .slt : (⟨S800000, .i32⟩ : BufTy).Contents (Elt F) → (⟨S800000, .i32⟩ : BufTy).Contents (Elt F) → (⟨S800000, .i1⟩ : BufTy).Contents (Elt F)),
    StableHlo.nullary main_c_1 (constantI S_ 32 50000#32),
    StableHlo.unary main_c_1 main_v6 (broadcastInDim S800000 ![] bcast_S_S800000 : (⟨S_, .i32⟩ : BufTy).Contents (Elt F) → (⟨S800000, .i32⟩ : BufTy).Contents (Elt F)),
    StableHlo.binary main_arg1 main_v6 main_v7 (addi : (⟨S800000, .i32⟩ : BufTy).Contents (Elt F) → (⟨S800000, .i32⟩ : BufTy).Contents (Elt F) → (⟨S800000, .i32⟩ : BufTy).Contents (Elt F)),
    StableHlo.ternary main_v5 main_v7 main_arg1 main_v8 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v8 main_v9 (broadcastInDim S800000x1 ![0] bcast_S800000_S800000x1_0 : (⟨S800000, .i32⟩ : BufTy).Contents (Elt F) → (⟨S800000x1, .i32⟩ : BufTy).Contents (Elt F)),
    StableHlo.binary main_v3 main_v9 main_v10 ((fun x i => Host.gather gather_S50000_S800000x1_S800000_n_0_n_n_0_1_1 x i) : (⟨S50000, .f32⟩ : BufTy).Contents (Elt F) → (⟨S800000x1, .i32⟩ : BufTy).Contents (Elt F) → (⟨S800000, .f32⟩ : BufTy).Contents (Elt F)),
    StableHlo.nullary main_cst_2 (constant S_ .f32 0x3F800000#32),
    StableHlo.unary main_cst_2 main_v11 (broadcastInDim S800000 ![] bcast_S_S800000 : (⟨S_, .f32⟩ : BufTy).Contents (Elt F) → (⟨S800000, .f32⟩ : BufTy).Contents (Elt F)),
    StableHlo.binary main_v10 main_v11 main_v12 (addf : (⟨S800000, .f32⟩ : BufTy).Contents (Elt F) → (⟨S800000, .f32⟩ : BufTy).Contents (Elt F) → (⟨S800000, .f32⟩ : BufTy).Contents (Elt F)),
    StableHlo.unary main_v12 main_v13 (Host.sqrt : (⟨S800000, .f32⟩ : BufTy).Contents (Elt F) → (⟨S800000, .f32⟩ : BufTy).Contents (Elt F)),
    StableHlo.nullary main_cst_3 (constant S_ .f32 0x3F800000#32),
    StableHlo.unary main_cst_3 main_v14 (broadcastInDim S800000 ![] bcast_S_S800000 : (⟨S_, .f32⟩ : BufTy).Contents (Elt F) → (⟨S800000, .f32⟩ : BufTy).Contents (Elt F)),
    StableHlo.binary main_v14 main_v13 main_v15 (Host.divf : (⟨S800000, .f32⟩ : BufTy).Contents (Elt F) → (⟨S800000, .f32⟩ : BufTy).Contents (Elt F) → (⟨S800000, .f32⟩ : BufTy).Contents (Elt F)),
    StableHlo.nullary main_c_4 (constantI S_ 32 0#32),
    StableHlo.unary main_c_4 main_v16 (broadcastInDim S800000 ![] bcast_S_S800000 : (⟨S_, .i32⟩ : BufTy).Contents (Elt F) → (⟨S800000, .i32⟩ : BufTy).Contents (Elt F)),
    StableHlo.binary main_arg2 main_v16 main_v17 (cmpi .slt : (⟨S800000, .i32⟩ : BufTy).Contents (Elt F) → (⟨S800000, .i32⟩ : BufTy).Contents (Elt F) → (⟨S800000, .i1⟩ : BufTy).Contents (Elt F)),
    StableHlo.nullary main_c_5 (constantI S_ 32 50000#32),
    StableHlo.unary main_c_5 main_v18 (broadcastInDim S800000 ![] bcast_S_S800000 : (⟨S_, .i32⟩ : BufTy).Contents (Elt F) → (⟨S800000, .i32⟩ : BufTy).Contents (Elt F)),
    StableHlo.binary main_arg2 main_v18 main_v19 (addi : (⟨S800000, .i32⟩ : BufTy).Contents (Elt F) → (⟨S800000, .i32⟩ : BufTy).Contents (Elt F) → (⟨S800000, .i32⟩ : BufTy).Contents (Elt F)),
    StableHlo.ternary main_v17 main_v19 main_arg2 main_v20 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v20 main_v21 (broadcastInDim S800000x1 ![0] bcast_S800000_S800000x1_0 : (⟨S800000, .i32⟩ : BufTy).Contents (Elt F) → (⟨S800000x1, .i32⟩ : BufTy).Contents (Elt F)),
    StableHlo.binary main_v3 main_v21 main_v22 ((fun x i => Host.gather gather_S50000_S800000x1_S800000_n_0_n_n_0_1_1 x i) : (⟨S50000, .f32⟩ : BufTy).Contents (Elt F) → (⟨S800000x1, .i32⟩ : BufTy).Contents (Elt F) → (⟨S800000, .f32⟩ : BufTy).Contents (Elt F)),
    StableHlo.nullary main_cst_6 (constant S_ .f32 0x3F800000#32),
    StableHlo.unary main_cst_6 main_v23 (broadcastInDim S800000 ![] bcast_S_S800000 : (⟨S_, .f32⟩ : BufTy).Contents (Elt F) → (⟨S800000, .f32⟩ : BufTy).Contents (Elt F)),
    StableHlo.binary main_v22 main_v23 main_v24 (addf : (⟨S800000, .f32⟩ : BufTy).Contents (Elt F) → (⟨S800000, .f32⟩ : BufTy).Contents (Elt F) → (⟨S800000, .f32⟩ : BufTy).Contents (Elt F)),
    StableHlo.unary main_v24 main_v25 (Host.sqrt : (⟨S800000, .f32⟩ : BufTy).Contents (Elt F) → (⟨S800000, .f32⟩ : BufTy).Contents (Elt F)),
    StableHlo.nullary main_cst_7 (constant S_ .f32 0x3F800000#32),
    StableHlo.unary main_cst_7 main_v26 (broadcastInDim S800000 ![] bcast_S_S800000 : (⟨S_, .f32⟩ : BufTy).Contents (Elt F) → (⟨S800000, .f32⟩ : BufTy).Contents (Elt F)),
    StableHlo.binary main_v26 main_v25 main_v27 (Host.divf : (⟨S800000, .f32⟩ : BufTy).Contents (Elt F) → (⟨S800000, .f32⟩ : BufTy).Contents (Elt F) → (⟨S800000, .f32⟩ : BufTy).Contents (Elt F)),
    StableHlo.unary main_v15 main_v28 (broadcastInDim S800000x1 ![0] bcast_S800000_S800000x1_0 : (⟨S800000, .f32⟩ : BufTy).Contents (Elt F) → (⟨S800000x1, .f32⟩ : BufTy).Contents (Elt F)),
    StableHlo.unary main_v27 main_v29 (broadcastInDim S800000x1 ![0] bcast_S800000_S800000x1_0 : (⟨S800000, .f32⟩ : BufTy).Contents (Elt F) → (⟨S800000x1, .f32⟩ : BufTy).Contents (Elt F)),
    StableHlo.binary main_v28 main_v29 main_v30 ((fun a b => concatenate S800000x2 1 [⟨S800000x1, a⟩, ⟨S800000x1, b⟩] concatenates_S800000x1_S800000x1_S800000x2_d1) : (⟨S800000x1, .f32⟩ : BufTy).Contents (Elt F) → (⟨S800000x1, .f32⟩ : BufTy).Contents (Elt F) → (⟨S800000x2, .f32⟩ : BufTy).Contents (Elt F)),
    StableHlo.nullary main_c_8 (constantI S_ 32 0#32),
    StableHlo.unary main_c_8 main_v31 (broadcastInDim S50000 ![] bcast_S_S50000 : (⟨S_, .i32⟩ : BufTy).Contents (Elt F) → (⟨S50000, .i32⟩ : BufTy).Contents (Elt F)),
    StableHlo.binary main_arg0 main_v31 main_v32 (cmpi .slt : (⟨S50000, .i32⟩ : BufTy).Contents (Elt F) → (⟨S50000, .i32⟩ : BufTy).Contents (Elt F) → (⟨S50000, .i1⟩ : BufTy).Contents (Elt F)),
    StableHlo.nullary main_c_9 (constantI S_ 32 28#32),
    StableHlo.unary main_c_9 main_v33 (broadcastInDim S50000 ![] bcast_S_S50000 : (⟨S_, .i32⟩ : BufTy).Contents (Elt F) → (⟨S50000, .i32⟩ : BufTy).Contents (Elt F)),
    StableHlo.binary main_arg0 main_v33 main_v34 (addi : (⟨S50000, .i32⟩ : BufTy).Contents (Elt F) → (⟨S50000, .i32⟩ : BufTy).Contents (Elt F) → (⟨S50000, .i32⟩ : BufTy).Contents (Elt F)),
    StableHlo.ternary main_v32 main_v34 main_arg0 main_v35 (select : (⟨S50000, .i1⟩ : BufTy).Contents (Elt F) → (⟨S50000, .i32⟩ : BufTy).Contents (Elt F) → (⟨S50000, .i32⟩ : BufTy).Contents (Elt F) → (⟨S50000, .i32⟩ : BufTy).Contents (Elt F)),
    StableHlo.unary main_v35 main_v36 (broadcastInDim S50000x1 ![0] bcast_S50000_S50000x1_0 : (⟨S50000, .i32⟩ : BufTy).Contents (Elt F) → (⟨S50000x1, .i32⟩ : BufTy).Contents (Elt F)),
    StableHlo.binary main_arg4 main_v36 main_v37 ((fun x i => Host.gather gather_S28x64_S50000x1_S50000x64_1_0_n_n_0_1_164 x i) : (⟨S28x64, .f32⟩ : BufTy).Contents (Elt F) → (⟨S50000x1, .i32⟩ : BufTy).Contents (Elt F) → (⟨S50000x64, .f32⟩ : BufTy).Contents (Elt F)) ]

/-- The buffers those operations write. -/
abbrev cP_W : List (Ref sig .tc) :=
  [main_cst, main_v0, main_cst_0, main_v1, main_v2, main_v3, main_c, main_v4, main_v5, main_c_1, main_v6, main_v7, main_v8, main_v9, main_v10, main_cst_2, main_v11, main_v12, main_v13, main_cst_3, main_v14, main_v15, main_c_4, main_v16, main_v17, main_c_5, main_v18, main_v19, main_v20, main_v21, main_v22, main_cst_6, main_v23, main_v24, main_v25, main_cst_7, main_v26, main_v27, main_v28, main_v29, main_v30, main_c_8, main_v31, main_v32, main_c_9, main_v33, main_v34, main_v35, main_v36, main_v37]

set_option maxRecDepth 8192 in
theorem cP_writes : (cP : List (HloOp τ sig (Elt F))).Forall fun op =>
    op.writes ⊆ (cP_W.map (Proc.devRef (τ := τ) .tc)).toFinset :=
  ⟨Finset.singleton_subset_iff.mpr (List.mem_toFinset.mpr (List.mem_map_of_mem (f := Proc.devRef (τ := τ) .tc) (a := main_cst) (by decide))),
   Finset.singleton_subset_iff.mpr (List.mem_toFinset.mpr (List.mem_map_of_mem (f := Proc.devRef (τ := τ) .tc) (a := main_v0) (by decide))),
   Finset.singleton_subset_iff.mpr (List.mem_toFinset.mpr (List.mem_map_of_mem (f := Proc.devRef (τ := τ) .tc) (a := main_cst_0) (by decide))),
   Finset.singleton_subset_iff.mpr (List.mem_toFinset.mpr (List.mem_map_of_mem (f := Proc.devRef (τ := τ) .tc) (a := main_v1) (by decide))),
   Finset.singleton_subset_iff.mpr (List.mem_toFinset.mpr (List.mem_map_of_mem (f := Proc.devRef (τ := τ) .tc) (a := main_v2) (by decide))),
   Finset.singleton_subset_iff.mpr (List.mem_toFinset.mpr (List.mem_map_of_mem (f := Proc.devRef (τ := τ) .tc) (a := main_v3) (by decide))),
   Finset.singleton_subset_iff.mpr (List.mem_toFinset.mpr (List.mem_map_of_mem (f := Proc.devRef (τ := τ) .tc) (a := main_c) (by decide))),
   Finset.singleton_subset_iff.mpr (List.mem_toFinset.mpr (List.mem_map_of_mem (f := Proc.devRef (τ := τ) .tc) (a := main_v4) (by decide))),
   Finset.singleton_subset_iff.mpr (List.mem_toFinset.mpr (List.mem_map_of_mem (f := Proc.devRef (τ := τ) .tc) (a := main_v5) (by decide))),
   Finset.singleton_subset_iff.mpr (List.mem_toFinset.mpr (List.mem_map_of_mem (f := Proc.devRef (τ := τ) .tc) (a := main_c_1) (by decide))),
   Finset.singleton_subset_iff.mpr (List.mem_toFinset.mpr (List.mem_map_of_mem (f := Proc.devRef (τ := τ) .tc) (a := main_v6) (by decide))),
   Finset.singleton_subset_iff.mpr (List.mem_toFinset.mpr (List.mem_map_of_mem (f := Proc.devRef (τ := τ) .tc) (a := main_v7) (by decide))),
   Finset.singleton_subset_iff.mpr (List.mem_toFinset.mpr (List.mem_map_of_mem (f := Proc.devRef (τ := τ) .tc) (a := main_v8) (by decide))),
   Finset.singleton_subset_iff.mpr (List.mem_toFinset.mpr (List.mem_map_of_mem (f := Proc.devRef (τ := τ) .tc) (a := main_v9) (by decide))),
   Finset.singleton_subset_iff.mpr (List.mem_toFinset.mpr (List.mem_map_of_mem (f := Proc.devRef (τ := τ) .tc) (a := main_v10) (by decide))),
   Finset.singleton_subset_iff.mpr (List.mem_toFinset.mpr (List.mem_map_of_mem (f := Proc.devRef (τ := τ) .tc) (a := main_cst_2) (by decide))),
   Finset.singleton_subset_iff.mpr (List.mem_toFinset.mpr (List.mem_map_of_mem (f := Proc.devRef (τ := τ) .tc) (a := main_v11) (by decide))),
   Finset.singleton_subset_iff.mpr (List.mem_toFinset.mpr (List.mem_map_of_mem (f := Proc.devRef (τ := τ) .tc) (a := main_v12) (by decide))),
   Finset.singleton_subset_iff.mpr (List.mem_toFinset.mpr (List.mem_map_of_mem (f := Proc.devRef (τ := τ) .tc) (a := main_v13) (by decide))),
   Finset.singleton_subset_iff.mpr (List.mem_toFinset.mpr (List.mem_map_of_mem (f := Proc.devRef (τ := τ) .tc) (a := main_cst_3) (by decide))),
   Finset.singleton_subset_iff.mpr (List.mem_toFinset.mpr (List.mem_map_of_mem (f := Proc.devRef (τ := τ) .tc) (a := main_v14) (by decide))),
   Finset.singleton_subset_iff.mpr (List.mem_toFinset.mpr (List.mem_map_of_mem (f := Proc.devRef (τ := τ) .tc) (a := main_v15) (by decide))),
   Finset.singleton_subset_iff.mpr (List.mem_toFinset.mpr (List.mem_map_of_mem (f := Proc.devRef (τ := τ) .tc) (a := main_c_4) (by decide))),
   Finset.singleton_subset_iff.mpr (List.mem_toFinset.mpr (List.mem_map_of_mem (f := Proc.devRef (τ := τ) .tc) (a := main_v16) (by decide))),
   Finset.singleton_subset_iff.mpr (List.mem_toFinset.mpr (List.mem_map_of_mem (f := Proc.devRef (τ := τ) .tc) (a := main_v17) (by decide))),
   Finset.singleton_subset_iff.mpr (List.mem_toFinset.mpr (List.mem_map_of_mem (f := Proc.devRef (τ := τ) .tc) (a := main_c_5) (by decide))),
   Finset.singleton_subset_iff.mpr (List.mem_toFinset.mpr (List.mem_map_of_mem (f := Proc.devRef (τ := τ) .tc) (a := main_v18) (by decide))),
   Finset.singleton_subset_iff.mpr (List.mem_toFinset.mpr (List.mem_map_of_mem (f := Proc.devRef (τ := τ) .tc) (a := main_v19) (by decide))),
   Finset.singleton_subset_iff.mpr (List.mem_toFinset.mpr (List.mem_map_of_mem (f := Proc.devRef (τ := τ) .tc) (a := main_v20) (by decide))),
   Finset.singleton_subset_iff.mpr (List.mem_toFinset.mpr (List.mem_map_of_mem (f := Proc.devRef (τ := τ) .tc) (a := main_v21) (by decide))),
   Finset.singleton_subset_iff.mpr (List.mem_toFinset.mpr (List.mem_map_of_mem (f := Proc.devRef (τ := τ) .tc) (a := main_v22) (by decide))),
   Finset.singleton_subset_iff.mpr (List.mem_toFinset.mpr (List.mem_map_of_mem (f := Proc.devRef (τ := τ) .tc) (a := main_cst_6) (by decide))),
   Finset.singleton_subset_iff.mpr (List.mem_toFinset.mpr (List.mem_map_of_mem (f := Proc.devRef (τ := τ) .tc) (a := main_v23) (by decide))),
   Finset.singleton_subset_iff.mpr (List.mem_toFinset.mpr (List.mem_map_of_mem (f := Proc.devRef (τ := τ) .tc) (a := main_v24) (by decide))),
   Finset.singleton_subset_iff.mpr (List.mem_toFinset.mpr (List.mem_map_of_mem (f := Proc.devRef (τ := τ) .tc) (a := main_v25) (by decide))),
   Finset.singleton_subset_iff.mpr (List.mem_toFinset.mpr (List.mem_map_of_mem (f := Proc.devRef (τ := τ) .tc) (a := main_cst_7) (by decide))),
   Finset.singleton_subset_iff.mpr (List.mem_toFinset.mpr (List.mem_map_of_mem (f := Proc.devRef (τ := τ) .tc) (a := main_v26) (by decide))),
   Finset.singleton_subset_iff.mpr (List.mem_toFinset.mpr (List.mem_map_of_mem (f := Proc.devRef (τ := τ) .tc) (a := main_v27) (by decide))),
   Finset.singleton_subset_iff.mpr (List.mem_toFinset.mpr (List.mem_map_of_mem (f := Proc.devRef (τ := τ) .tc) (a := main_v28) (by decide))),
   Finset.singleton_subset_iff.mpr (List.mem_toFinset.mpr (List.mem_map_of_mem (f := Proc.devRef (τ := τ) .tc) (a := main_v29) (by decide))),
   Finset.singleton_subset_iff.mpr (List.mem_toFinset.mpr (List.mem_map_of_mem (f := Proc.devRef (τ := τ) .tc) (a := main_v30) (by decide))),
   Finset.singleton_subset_iff.mpr (List.mem_toFinset.mpr (List.mem_map_of_mem (f := Proc.devRef (τ := τ) .tc) (a := main_c_8) (by decide))),
   Finset.singleton_subset_iff.mpr (List.mem_toFinset.mpr (List.mem_map_of_mem (f := Proc.devRef (τ := τ) .tc) (a := main_v31) (by decide))),
   Finset.singleton_subset_iff.mpr (List.mem_toFinset.mpr (List.mem_map_of_mem (f := Proc.devRef (τ := τ) .tc) (a := main_v32) (by decide))),
   Finset.singleton_subset_iff.mpr (List.mem_toFinset.mpr (List.mem_map_of_mem (f := Proc.devRef (τ := τ) .tc) (a := main_c_9) (by decide))),
   Finset.singleton_subset_iff.mpr (List.mem_toFinset.mpr (List.mem_map_of_mem (f := Proc.devRef (τ := τ) .tc) (a := main_v33) (by decide))),
   Finset.singleton_subset_iff.mpr (List.mem_toFinset.mpr (List.mem_map_of_mem (f := Proc.devRef (τ := τ) .tc) (a := main_v34) (by decide))),
   Finset.singleton_subset_iff.mpr (List.mem_toFinset.mpr (List.mem_map_of_mem (f := Proc.devRef (τ := τ) .tc) (a := main_v35) (by decide))),
   Finset.singleton_subset_iff.mpr (List.mem_toFinset.mpr (List.mem_map_of_mem (f := Proc.devRef (τ := τ) .tc) (a := main_v36) (by decide))),
   Finset.singleton_subset_iff.mpr (List.mem_toFinset.mpr (List.mem_map_of_mem (f := Proc.devRef (τ := τ) .tc) (a := main_v37) (by decide)))⟩

/-- A buffer those operations do not write keeps its contents through them. -/
theorem cP_keep (W : Valuation τ sig (Elt F)) (r : Ref sig .tc) (h : r ∉ cP_W) :
    after cP W (Proc.devRef .tc r) = W (Proc.devRef .tc r) :=
  after_of_writes_sub cP W cP_writes h

set_option maxRecDepth 8192 in
set_option maxHeartbeats 4000000 in
/-- The pseudo-coordinates after the first stretch. -/
theorem cP_v30 (W : Valuation τ sig (Elt F)) :
    after cP W (Proc.devRef .tc main_v30)
      = pseudoS (W (Proc.devRef .tc main_arg1)) (W (Proc.devRef .tc main_arg2)) := by
  simp only [cP]
  after_results_simp
  rfl

set_option maxRecDepth 8192 in
set_option maxHeartbeats 4000000 in
/-- The first features after the first stretch. -/
theorem cP_v37 (W : Valuation τ sig (Elt F)) :
    after cP W (Proc.devRef .tc main_v37)
      = h0S (W (Proc.devRef .tc main_arg4)) (W (Proc.devRef .tc main_arg0)) := by
  simp only [cP]
  after_results_simp
  rfl

/-- The operations 51 … 102 of @main's 503. -/
abbrev cM0 : List (HloOp τ sig (Elt F)) :=
  [ StableHlo.unary main_arg10 main_v38 ((extractStridedSlice S1x2x2 ![0, 0, 0] · slices_S4x2x2_S1x2x2_0_0_0) : (⟨S4x2x2, .f32⟩ : BufTy).Contents (Elt F) → (⟨S1x2x2, .f32⟩ : BufTy).Contents (Elt F)),
    StableHlo.reshape main_v38 main_v39 rfl shapeCasts_S1x2x2_S2x2,
    StableHlo.unary main_v39 main_v40 ((transpose S2x2 [1, 0] · transposes_S2x2_S2x2_1_0) : (⟨S2x2, .f32⟩ : BufTy).Contents (Elt F) → (⟨S2x2, .f32⟩ : BufTy).Contents (Elt F)),
    StableHlo.binary main_v30 main_v40 main_v41 ((fun l r => Host.dotGeneral dot_S800000x2_S2x2_S800000x2_1_0_0_1_n_n none l r) : (⟨S800000x2, .f32⟩ : BufTy).Contents (Elt F) → (⟨S2x2, .f32⟩ : BufTy).Contents (Elt F) → (⟨S800000x2, .f32⟩ : BufTy).Contents (Elt F)),
    StableHlo.unary main_arg11 main_v42 ((extractStridedSlice S1x2 ![0, 0] · slices_S4x2_S1x2_0_0) : (⟨S4x2, .f32⟩ : BufTy).Contents (Elt F) → (⟨S1x2, .f32⟩ : BufTy).Contents (Elt F)),
    StableHlo.reshape main_v42 main_v43 rfl shapeCasts_S1x2_S2,
    StableHlo.unary main_v43 main_v44 (broadcastInDim S1x2 ![1] bcast_S2_S1x2_1 : (⟨S2, .f32⟩ : BufTy).Contents (Elt F) → (⟨S1x2, .f32⟩ : BufTy).Contents (Elt F)),
    StableHlo.unary main_v44 main_v45 (broadcastInDim S800000x2 ![0, 1] bcast_S1x2_S800000x2_0_1 : (⟨S1x2, .f32⟩ : BufTy).Contents (Elt F) → (⟨S800000x2, .f32⟩ : BufTy).Contents (Elt F)),
    StableHlo.binary main_v41 main_v45 main_v46 (addf : (⟨S800000x2, .f32⟩ : BufTy).Contents (Elt F) → (⟨S800000x2, .f32⟩ : BufTy).Contents (Elt F) → (⟨S800000x2, .f32⟩ : BufTy).Contents (Elt F)),
    StableHlo.unary main_v46 main_v47 (Host.tanh : (⟨S800000x2, .f32⟩ : BufTy).Contents (Elt F) → (⟨S800000x2, .f32⟩ : BufTy).Contents (Elt F)),
    StableHlo.unary main_v47 main_v48 (broadcastInDim S800000x1x2 ![0, 2] bcast_S800000x2_S800000x1x2_0_2 : (⟨S800000x2, .f32⟩ : BufTy).Contents (Elt F) → (⟨S800000x1x2, .f32⟩ : BufTy).Contents (Elt F)),
    StableHlo.unary main_arg6 main_v49 ((extractStridedSlice S1x3x2 ![0, 0, 0] · slices_S4x3x2_S1x3x2_0_0_0) : (⟨S4x3x2, .f32⟩ : BufTy).Contents (Elt F) → (⟨S1x3x2, .f32⟩ : BufTy).Contents (Elt F)),
    StableHlo.reshape main_v49 main_v50 rfl shapeCasts_S1x3x2_S3x2,
    StableHlo.unary main_v50 main_v51 (broadcastInDim S1x3x2 ![1, 2] bcast_S3x2_S1x3x2_1_2 : (⟨S3x2, .f32⟩ : BufTy).Contents (Elt F) → (⟨S1x3x2, .f32⟩ : BufTy).Contents (Elt F)),
    StableHlo.unary main_v48 main_v52 (broadcastInDim S800000x3x2 ![0, 1, 2] bcast_S800000x1x2_S800000x3x2_0_1_2 : (⟨S800000x1x2, .f32⟩ : BufTy).Contents (Elt F) → (⟨S800000x3x2, .f32⟩ : BufTy).Contents (Elt F)),
    StableHlo.unary main_v51 main_v53 (broadcastInDim S800000x3x2 ![0, 1, 2] bcast_S1x3x2_S800000x3x2_0_1_2 : (⟨S1x3x2, .f32⟩ : BufTy).Contents (Elt F) → (⟨S800000x3x2, .f32⟩ : BufTy).Contents (Elt F)),
    StableHlo.binary main_v52 main_v53 main_v54 (subf : (⟨S800000x3x2, .f32⟩ : BufTy).Contents (Elt F) → (⟨S800000x3x2, .f32⟩ : BufTy).Contents (Elt F) → (⟨S800000x3x2, .f32⟩ : BufTy).Contents (Elt F)),
    StableHlo.unary main_arg7 main_v55 ((extractStridedSlice S1x3x2 ![0, 0, 0] · slices_S4x3x2_S1x3x2_0_0_0) : (⟨S4x3x2, .f32⟩ : BufTy).Contents (Elt F) → (⟨S1x3x2, .f32⟩ : BufTy).Contents (Elt F)),
    StableHlo.reshape main_v55 main_v56 rfl shapeCasts_S1x3x2_S3x2,
    StableHlo.unary main_v56 main_v57 (broadcastInDim S1x3x2 ![1, 2] bcast_S3x2_S1x3x2_1_2 : (⟨S3x2, .f32⟩ : BufTy).Contents (Elt F) → (⟨S1x3x2, .f32⟩ : BufTy).Contents (Elt F)),
    StableHlo.unary main_v57 main_v58 (broadcastInDim S800000x3x2 ![0, 1, 2] bcast_S1x3x2_S800000x3x2_0_1_2 : (⟨S1x3x2, .f32⟩ : BufTy).Contents (Elt F) → (⟨S800000x3x2, .f32⟩ : BufTy).Contents (Elt F)),
    StableHlo.binary main_v54 main_v58 main_v59 (mulf : (⟨S800000x3x2, .f32⟩ : BufTy).Contents (Elt F) → (⟨S800000x3x2, .f32⟩ : BufTy).Contents (Elt F) → (⟨S800000x3x2, .f32⟩ : BufTy).Contents (Elt F)),
    StableHlo.binary main_v59 main_v59 main_v60 (mulf : (⟨S800000x3x2, .f32⟩ : BufTy).Contents (Elt F) → (⟨S800000x3x2, .f32⟩ : BufTy).Contents (Elt F) → (⟨S800000x3x2, .f32⟩ : BufTy).Contents (Elt F)),
    StableHlo.nullary main_cst_10 (constant S_ .f32 0x00000000#32),
    StableHlo.binary main_v60 main_cst_10 main_v61 ((fun x v => Host.reduceAdd x v reducesTo_S800000x3x2_S800000x3_d2 h_S_) : (⟨S800000x3x2, .f32⟩ : BufTy).Contents (Elt F) → (⟨S_, .f32⟩ : BufTy).Contents (Elt F) → (⟨S800000x3, .f32⟩ : BufTy).Contents (Elt F)),
    StableHlo.nullary main_cst_11 (constant S_ .f32 0xBF000000#32),
    StableHlo.unary main_cst_11 main_v62 (broadcastInDim S800000x3 ![] bcast_S_S800000x3 : (⟨S_, .f32⟩ : BufTy).Contents (Elt F) → (⟨S800000x3, .f32⟩ : BufTy).Contents (Elt F)),
    StableHlo.binary main_v62 main_v61 main_v63 (mulf : (⟨S800000x3, .f32⟩ : BufTy).Contents (Elt F) → (⟨S800000x3, .f32⟩ : BufTy).Contents (Elt F) → (⟨S800000x3, .f32⟩ : BufTy).Contents (Elt F)),
    StableHlo.unary main_v63 main_v64 (Host.exp : (⟨S800000x3, .f32⟩ : BufTy).Contents (Elt F) → (⟨S800000x3, .f32⟩ : BufTy).Contents (Elt F)),
    StableHlo.unary main_arg5 main_v65 ((extractStridedSlice S1x192x64 ![0, 0, 0] · slices_S4x192x64_S1x192x64_0_0_0) : (⟨S4x192x64, .f32⟩ : BufTy).Contents (Elt F) → (⟨S1x192x64, .f32⟩ : BufTy).Contents (Elt F)),
    StableHlo.reshape main_v65 main_v66 rfl shapeCasts_S1x192x64_S192x64,
    StableHlo.unary main_v66 main_v67 ((transpose S64x192 [1, 0] · transposes_S192x64_S64x192_1_0) : (⟨S192x64, .f32⟩ : BufTy).Contents (Elt F) → (⟨S64x192, .f32⟩ : BufTy).Contents (Elt F)),
    StableHlo.binary main_v37 main_v67 main_v68 ((fun l r => Host.dotGeneral dot_S50000x64_S64x192_S50000x192_1_0_0_1_n_n none l r) : (⟨S50000x64, .f32⟩ : BufTy).Contents (Elt F) → (⟨S64x192, .f32⟩ : BufTy).Contents (Elt F) → (⟨S50000x192, .f32⟩ : BufTy).Contents (Elt F)),
    StableHlo.reshape main_v68 main_v69 rfl shapeCasts_S50000x192_S50000x3x64,
    StableHlo.nullary main_c_12 (constantI S_ 32 0#32),
    StableHlo.unary main_c_12 main_v70 (broadcastInDim S800000 ![] bcast_S_S800000 : (⟨S_, .i32⟩ : BufTy).Contents (Elt F) → (⟨S800000, .i32⟩ : BufTy).Contents (Elt F)),
    StableHlo.binary main_arg1 main_v70 main_v71 (cmpi .slt : (⟨S800000, .i32⟩ : BufTy).Contents (Elt F) → (⟨S800000, .i32⟩ : BufTy).Contents (Elt F) → (⟨S800000, .i1⟩ : BufTy).Contents (Elt F)),
    StableHlo.nullary main_c_13 (constantI S_ 32 50000#32),
    StableHlo.unary main_c_13 main_v72 (broadcastInDim S800000 ![] bcast_S_S800000 : (⟨S_, .i32⟩ : BufTy).Contents (Elt F) → (⟨S800000, .i32⟩ : BufTy).Contents (Elt F)),
    StableHlo.binary main_arg1 main_v72 main_v73 (addi : (⟨S800000, .i32⟩ : BufTy).Contents (Elt F) → (⟨S800000, .i32⟩ : BufTy).Contents (Elt F) → (⟨S800000, .i32⟩ : BufTy).Contents (Elt F)),
    StableHlo.ternary main_v71 main_v73 main_arg1 main_v74 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v74 main_v75 (broadcastInDim S800000x1 ![0] bcast_S800000_S800000x1_0 : (⟨S800000, .i32⟩ : BufTy).Contents (Elt F) → (⟨S800000x1, .i32⟩ : BufTy).Contents (Elt F)),
    StableHlo.binary main_v69 main_v75 main_v76 ((fun x i => Host.gather gather_S50000x3x64_S800000x1_S800000x3x64_12_0_n_n_0_1_1364 x i) : (⟨S50000x3x64, .f32⟩ : BufTy).Contents (Elt F) → (⟨S800000x1, .i32⟩ : BufTy).Contents (Elt F) → (⟨S800000x3x64, .f32⟩ : BufTy).Contents (Elt F)),
    StableHlo.unary main_v64 main_v77 (broadcastInDim S800000x3x1 ![0, 1] bcast_S800000x3_S800000x3x1_0_1 : (⟨S800000x3, .f32⟩ : BufTy).Contents (Elt F) → (⟨S800000x3x1, .f32⟩ : BufTy).Contents (Elt F)),
    StableHlo.unary main_v77 main_v78 (broadcastInDim S800000x3x64 ![0, 1, 2] bcast_S800000x3x1_S800000x3x64_0_1_2 : (⟨S800000x3x1, .f32⟩ : BufTy).Contents (Elt F) → (⟨S800000x3x64, .f32⟩ : BufTy).Contents (Elt F)),
    StableHlo.binary main_v76 main_v78 main_v79 (mulf : (⟨S800000x3x64, .f32⟩ : BufTy).Contents (Elt F) → (⟨S800000x3x64, .f32⟩ : BufTy).Contents (Elt F) → (⟨S800000x3x64, .f32⟩ : BufTy).Contents (Elt F)),
    StableHlo.nullary main_cst_14 (constant S_ .f32 0x00000000#32),
    StableHlo.unary main_cst_14 main_v80 (broadcastInDim S50000x3x64 ![] bcast_S_S50000x3x64 : (⟨S_, .f32⟩ : BufTy).Contents (Elt F) → (⟨S50000x3x64, .f32⟩ : BufTy).Contents (Elt F)),
    StableHlo.unary main_arg2 main_v81 (broadcastInDim S800000x1 ![0] bcast_S800000_S800000x1_0 : (⟨S800000, .i32⟩ : BufTy).Contents (Elt F) → (⟨S800000x1, .i32⟩ : BufTy).Contents (Elt F)),
    StableHlo.ternary main_v80 main_v81 main_v79 main_v82 ((fun x i u => Host.scatterAdd scatter_S50000x3x64_S800000x1_S800000x3x64_12_0_0_1 x i u) : (⟨S50000x3x64, .f32⟩ : BufTy).Contents (Elt F) → (⟨S800000x1, .i32⟩ : BufTy).Contents (Elt F) → (⟨S800000x3x64, .f32⟩ : BufTy).Contents (Elt F) → (⟨S50000x3x64, .f32⟩ : BufTy).Contents (Elt F)),
    StableHlo.nullary main_cst_15 (constant S_ .f32 0x00000000#32),
    StableHlo.binary main_v82 main_cst_15 main_v83 ((fun x v => Host.reduceAdd x v reducesTo_S50000x3x64_S50000x64_d1 h_S_) : (⟨S50000x3x64, .f32⟩ : BufTy).Contents (Elt F) → (⟨S_, .f32⟩ : BufTy).Contents (Elt F) → (⟨S50000x64, .f32⟩ : BufTy).Contents (Elt F)) ]

/-- The buffers those operations write. -/
abbrev cM0_W : List (Ref sig .tc) :=
  [main_v38, main_v39, main_v40, main_v41, main_v42, main_v43, main_v44, main_v45, main_v46, main_v47, main_v48, main_v49, main_v50, main_v51, main_v52, main_v53, main_v54, main_v55, main_v56, main_v57, main_v58, main_v59, main_v60, main_cst_10, main_v61, main_cst_11, main_v62, main_v63, main_v64, main_v65, main_v66, main_v67, main_v68, main_v69, main_c_12, main_v70, main_v71, main_c_13, main_v72, main_v73, main_v74, main_v75, main_v76, main_v77, main_v78, main_v79, main_cst_14, main_v80, main_v81, main_v82, main_cst_15, main_v83]

set_option maxRecDepth 8192 in
theorem cM0_writes : (cM0 : List (HloOp τ sig (Elt F))).Forall fun op =>
    op.writes ⊆ (cM0_W.map (Proc.devRef (τ := τ) .tc)).toFinset :=
  ⟨Finset.singleton_subset_iff.mpr (List.mem_toFinset.mpr (List.mem_map_of_mem (f := Proc.devRef (τ := τ) .tc) (a := main_v38) (by decide))),
   Finset.singleton_subset_iff.mpr (List.mem_toFinset.mpr (List.mem_map_of_mem (f := Proc.devRef (τ := τ) .tc) (a := main_v39) (by decide))),
   Finset.singleton_subset_iff.mpr (List.mem_toFinset.mpr (List.mem_map_of_mem (f := Proc.devRef (τ := τ) .tc) (a := main_v40) (by decide))),
   Finset.singleton_subset_iff.mpr (List.mem_toFinset.mpr (List.mem_map_of_mem (f := Proc.devRef (τ := τ) .tc) (a := main_v41) (by decide))),
   Finset.singleton_subset_iff.mpr (List.mem_toFinset.mpr (List.mem_map_of_mem (f := Proc.devRef (τ := τ) .tc) (a := main_v42) (by decide))),
   Finset.singleton_subset_iff.mpr (List.mem_toFinset.mpr (List.mem_map_of_mem (f := Proc.devRef (τ := τ) .tc) (a := main_v43) (by decide))),
   Finset.singleton_subset_iff.mpr (List.mem_toFinset.mpr (List.mem_map_of_mem (f := Proc.devRef (τ := τ) .tc) (a := main_v44) (by decide))),
   Finset.singleton_subset_iff.mpr (List.mem_toFinset.mpr (List.mem_map_of_mem (f := Proc.devRef (τ := τ) .tc) (a := main_v45) (by decide))),
   Finset.singleton_subset_iff.mpr (List.mem_toFinset.mpr (List.mem_map_of_mem (f := Proc.devRef (τ := τ) .tc) (a := main_v46) (by decide))),
   Finset.singleton_subset_iff.mpr (List.mem_toFinset.mpr (List.mem_map_of_mem (f := Proc.devRef (τ := τ) .tc) (a := main_v47) (by decide))),
   Finset.singleton_subset_iff.mpr (List.mem_toFinset.mpr (List.mem_map_of_mem (f := Proc.devRef (τ := τ) .tc) (a := main_v48) (by decide))),
   Finset.singleton_subset_iff.mpr (List.mem_toFinset.mpr (List.mem_map_of_mem (f := Proc.devRef (τ := τ) .tc) (a := main_v49) (by decide))),
   Finset.singleton_subset_iff.mpr (List.mem_toFinset.mpr (List.mem_map_of_mem (f := Proc.devRef (τ := τ) .tc) (a := main_v50) (by decide))),
   Finset.singleton_subset_iff.mpr (List.mem_toFinset.mpr (List.mem_map_of_mem (f := Proc.devRef (τ := τ) .tc) (a := main_v51) (by decide))),
   Finset.singleton_subset_iff.mpr (List.mem_toFinset.mpr (List.mem_map_of_mem (f := Proc.devRef (τ := τ) .tc) (a := main_v52) (by decide))),
   Finset.singleton_subset_iff.mpr (List.mem_toFinset.mpr (List.mem_map_of_mem (f := Proc.devRef (τ := τ) .tc) (a := main_v53) (by decide))),
   Finset.singleton_subset_iff.mpr (List.mem_toFinset.mpr (List.mem_map_of_mem (f := Proc.devRef (τ := τ) .tc) (a := main_v54) (by decide))),
   Finset.singleton_subset_iff.mpr (List.mem_toFinset.mpr (List.mem_map_of_mem (f := Proc.devRef (τ := τ) .tc) (a := main_v55) (by decide))),
   Finset.singleton_subset_iff.mpr (List.mem_toFinset.mpr (List.mem_map_of_mem (f := Proc.devRef (τ := τ) .tc) (a := main_v56) (by decide))),
   Finset.singleton_subset_iff.mpr (List.mem_toFinset.mpr (List.mem_map_of_mem (f := Proc.devRef (τ := τ) .tc) (a := main_v57) (by decide))),
   Finset.singleton_subset_iff.mpr (List.mem_toFinset.mpr (List.mem_map_of_mem (f := Proc.devRef (τ := τ) .tc) (a := main_v58) (by decide))),
   Finset.singleton_subset_iff.mpr (List.mem_toFinset.mpr (List.mem_map_of_mem (f := Proc.devRef (τ := τ) .tc) (a := main_v59) (by decide))),
   Finset.singleton_subset_iff.mpr (List.mem_toFinset.mpr (List.mem_map_of_mem (f := Proc.devRef (τ := τ) .tc) (a := main_v60) (by decide))),
   Finset.singleton_subset_iff.mpr (List.mem_toFinset.mpr (List.mem_map_of_mem (f := Proc.devRef (τ := τ) .tc) (a := main_cst_10) (by decide))),
   Finset.singleton_subset_iff.mpr (List.mem_toFinset.mpr (List.mem_map_of_mem (f := Proc.devRef (τ := τ) .tc) (a := main_v61) (by decide))),
   Finset.singleton_subset_iff.mpr (List.mem_toFinset.mpr (List.mem_map_of_mem (f := Proc.devRef (τ := τ) .tc) (a := main_cst_11) (by decide))),
   Finset.singleton_subset_iff.mpr (List.mem_toFinset.mpr (List.mem_map_of_mem (f := Proc.devRef (τ := τ) .tc) (a := main_v62) (by decide))),
   Finset.singleton_subset_iff.mpr (List.mem_toFinset.mpr (List.mem_map_of_mem (f := Proc.devRef (τ := τ) .tc) (a := main_v63) (by decide))),
   Finset.singleton_subset_iff.mpr (List.mem_toFinset.mpr (List.mem_map_of_mem (f := Proc.devRef (τ := τ) .tc) (a := main_v64) (by decide))),
   Finset.singleton_subset_iff.mpr (List.mem_toFinset.mpr (List.mem_map_of_mem (f := Proc.devRef (τ := τ) .tc) (a := main_v65) (by decide))),
   Finset.singleton_subset_iff.mpr (List.mem_toFinset.mpr (List.mem_map_of_mem (f := Proc.devRef (τ := τ) .tc) (a := main_v66) (by decide))),
   Finset.singleton_subset_iff.mpr (List.mem_toFinset.mpr (List.mem_map_of_mem (f := Proc.devRef (τ := τ) .tc) (a := main_v67) (by decide))),
   Finset.singleton_subset_iff.mpr (List.mem_toFinset.mpr (List.mem_map_of_mem (f := Proc.devRef (τ := τ) .tc) (a := main_v68) (by decide))),
   Finset.singleton_subset_iff.mpr (List.mem_toFinset.mpr (List.mem_map_of_mem (f := Proc.devRef (τ := τ) .tc) (a := main_v69) (by decide))),
   Finset.singleton_subset_iff.mpr (List.mem_toFinset.mpr (List.mem_map_of_mem (f := Proc.devRef (τ := τ) .tc) (a := main_c_12) (by decide))),
   Finset.singleton_subset_iff.mpr (List.mem_toFinset.mpr (List.mem_map_of_mem (f := Proc.devRef (τ := τ) .tc) (a := main_v70) (by decide))),
   Finset.singleton_subset_iff.mpr (List.mem_toFinset.mpr (List.mem_map_of_mem (f := Proc.devRef (τ := τ) .tc) (a := main_v71) (by decide))),
   Finset.singleton_subset_iff.mpr (List.mem_toFinset.mpr (List.mem_map_of_mem (f := Proc.devRef (τ := τ) .tc) (a := main_c_13) (by decide))),
   Finset.singleton_subset_iff.mpr (List.mem_toFinset.mpr (List.mem_map_of_mem (f := Proc.devRef (τ := τ) .tc) (a := main_v72) (by decide))),
   Finset.singleton_subset_iff.mpr (List.mem_toFinset.mpr (List.mem_map_of_mem (f := Proc.devRef (τ := τ) .tc) (a := main_v73) (by decide))),
   Finset.singleton_subset_iff.mpr (List.mem_toFinset.mpr (List.mem_map_of_mem (f := Proc.devRef (τ := τ) .tc) (a := main_v74) (by decide))),
   Finset.singleton_subset_iff.mpr (List.mem_toFinset.mpr (List.mem_map_of_mem (f := Proc.devRef (τ := τ) .tc) (a := main_v75) (by decide))),
   Finset.singleton_subset_iff.mpr (List.mem_toFinset.mpr (List.mem_map_of_mem (f := Proc.devRef (τ := τ) .tc) (a := main_v76) (by decide))),
   Finset.singleton_subset_iff.mpr (List.mem_toFinset.mpr (List.mem_map_of_mem (f := Proc.devRef (τ := τ) .tc) (a := main_v77) (by decide))),
   Finset.singleton_subset_iff.mpr (List.mem_toFinset.mpr (List.mem_map_of_mem (f := Proc.devRef (τ := τ) .tc) (a := main_v78) (by decide))),
   Finset.singleton_subset_iff.mpr (List.mem_toFinset.mpr (List.mem_map_of_mem (f := Proc.devRef (τ := τ) .tc) (a := main_v79) (by decide))),
   Finset.singleton_subset_iff.mpr (List.mem_toFinset.mpr (List.mem_map_of_mem (f := Proc.devRef (τ := τ) .tc) (a := main_cst_14) (by decide))),
   Finset.singleton_subset_iff.mpr (List.mem_toFinset.mpr (List.mem_map_of_mem (f := Proc.devRef (τ := τ) .tc) (a := main_v80) (by decide))),
   Finset.singleton_subset_iff.mpr (List.mem_toFinset.mpr (List.mem_map_of_mem (f := Proc.devRef (τ := τ) .tc) (a := main_v81) (by decide))),
   Finset.singleton_subset_iff.mpr (List.mem_toFinset.mpr (List.mem_map_of_mem (f := Proc.devRef (τ := τ) .tc) (a := main_v82) (by decide))),
   Finset.singleton_subset_iff.mpr (List.mem_toFinset.mpr (List.mem_map_of_mem (f := Proc.devRef (τ := τ) .tc) (a := main_cst_15) (by decide))),
   Finset.singleton_subset_iff.mpr (List.mem_toFinset.mpr (List.mem_map_of_mem (f := Proc.devRef (τ := τ) .tc) (a := main_v83) (by decide)))⟩

/-- A buffer those operations do not write keeps its contents through them. -/
theorem cM0_keep (W : Valuation τ sig (Elt F)) (r : Ref sig .tc) (h : r ∉ cM0_W) :
    after cM0 W (Proc.devRef .tc r) = W (Proc.devRef .tc r) :=
  after_of_writes_sub cM0 W cM0_writes h

set_option maxRecDepth 8192 in
set_option maxHeartbeats 4000000 in
/-- Layer 0's aggregate from the contents before its operations. -/
theorem cM0_v83 (W : Valuation τ sig (Elt F)) :
    after cM0 W (Proc.devRef .tc main_v83)
      = aggS (msgS (hkSrcS (hkS (W (Proc.devRef .tc main_v37)) (W_0 (W (Proc.devRef .tc main_arg5)))) (W (Proc.devRef .tc main_arg1))) (gaussS (uS (W (Proc.devRef .tc main_v30)) (A_0 (W (Proc.devRef .tc main_arg10))) (bvec_0 (W (Proc.devRef .tc main_arg11)))) (mu_0 (W (Proc.devRef .tc main_arg6))) (sg_0 (W (Proc.devRef .tc main_arg7))))) (W (Proc.devRef .tc main_arg2)) := by
  simp only [cM0]
  after_results_simp
  rfl

/-- The operations 103 … 154 of @main's 503. -/
abbrev cB0 : List (HloOp τ sig (Elt F)) :=
  [ StableHlo.nullary main_cst_16 (constant S_ .f32 0x00000000#32),
    StableHlo.binary main_v83 main_cst_16 main_v84 ((fun x v => Host.reduceAdd x v reducesTo_S50000x64_S64_d0 h_S_) : (⟨S50000x64, .f32⟩ : BufTy).Contents (Elt F) → (⟨S_, .f32⟩ : BufTy).Contents (Elt F) → (⟨S64, .f32⟩ : BufTy).Contents (Elt F)),
    StableHlo.nullary main_cst_17 (constant S_ .f32 0x47435000#32),
    StableHlo.unary main_cst_17 main_v85 (broadcastInDim S64 ![] bcast_S_S64 : (⟨S_, .f32⟩ : BufTy).Contents (Elt F) → (⟨S64, .f32⟩ : BufTy).Contents (Elt F)),
    StableHlo.binary main_v84 main_v85 main_v86 (Host.divf : (⟨S64, .f32⟩ : BufTy).Contents (Elt F) → (⟨S64, .f32⟩ : BufTy).Contents (Elt F) → (⟨S64, .f32⟩ : BufTy).Contents (Elt F)),
    StableHlo.nullary main_c_18 (constantI S_ 32 0#32),
    StableHlo.TRef.nullary main_call0.cst (constant S_ .f32 0x00000000#32),
    StableHlo.TRef.binary (StableHlo.TRef.of (T := ⟨S50000x64, .f32⟩) main_v83) main_call0.cst main_call0.v0 (fun x v => Host.reduceAdd x v reducesTo_S50000x64_S64_d0 h_S_),
    StableHlo.TRef.unary main_call0.v0 main_call0.v1 (broadcastInDim S1x64 ![1] bcast_S64_S1x64_1),
    StableHlo.TRef.nullary main_call0.cst_0 (constant S_ .f32 0x47435000#32),
    StableHlo.TRef.unary main_call0.cst_0 main_call0.v2 (broadcastInDim S1x64 ![] bcast_S_S1x64),
    StableHlo.TRef.binary main_call0.v1 main_call0.v2 main_call0.v3 Host.divf,
    StableHlo.TRef.unary main_call0.v3 main_call0.v4 (broadcastInDim S50000x64 ![0, 1] bcast_S1x64_S50000x64_0_1),
    StableHlo.TRef.binary (StableHlo.TRef.of (T := ⟨S50000x64, .f32⟩) main_v83) main_call0.v4 main_call0.v5 subf,
    StableHlo.TRef.binary main_call0.v5 main_call0.v5 main_call0.v6 mulf,
    StableHlo.TRef.unary (StableHlo.TRef.of (T := ⟨S_, .i32⟩) main_c_18) main_call0.v7 (sitofp .f32),
    StableHlo.TRef.nullary main_call0.cst_1 (constant S_ .f32 0x47435000#32),
    StableHlo.TRef.binary main_call0.cst_1 main_call0.v7 main_call0.v8 subf,
    StableHlo.TRef.nullary main_call0.cst_2 (constant S_ .f32 0x00000000#32),
    StableHlo.TRef.binary main_call0.v6 main_call0.cst_2 main_call0.v9 (fun x v => Host.reduceAdd x v reducesTo_S50000x64_S64_d0 h_S_),
    StableHlo.TRef.unary main_call0.v8 main_call0.v10 (broadcastInDim S64 ![] bcast_S_S64),
    StableHlo.TRef.binary main_call0.v9 main_call0.v10 main_call0.v11 Host.divf,
    StableHlo.TRef.nullary main_call0.cst_3 (constant S_ .f32 0x00000000#32),
    StableHlo.TRef.binary main_call0.v8 main_call0.cst_3 main_call0.v12 (cmpf .ogt),
    StableHlo.TRef.nullary main_call0.cst_4 (constant S_ .f32 0x7FC00000#32),
    StableHlo.TRef.unary main_call0.cst_4 main_call0.call0.v0 id,
    StableHlo.TRef.unary main_call0.call0.v0 main_call0.call0.v1 (broadcastInDim S64 ![] bcast_S_S64),
    StableHlo.TRef.ternary main_call0.v12 main_call0.v11 main_call0.call0.v1 main_call0.call0.v2 (fun p a b => select (broadcastInDim S64 ![] bcast_S_S64 p) a b),
    StableHlo.unary main_v86 main_v88 (broadcastInDim S1x64 ![1] bcast_S64_S1x64_1 : (⟨S64, .f32⟩ : BufTy).Contents (Elt F) → (⟨S1x64, .f32⟩ : BufTy).Contents (Elt F)),
    StableHlo.unary main_v88 main_v89 (broadcastInDim S50000x64 ![0, 1] bcast_S1x64_S50000x64_0_1 : (⟨S1x64, .f32⟩ : BufTy).Contents (Elt F) → (⟨S50000x64, .f32⟩ : BufTy).Contents (Elt F)),
    StableHlo.binary main_v83 main_v89 main_v90 (subf : (⟨S50000x64, .f32⟩ : BufTy).Contents (Elt F) → (⟨S50000x64, .f32⟩ : BufTy).Contents (Elt F) → (⟨S50000x64, .f32⟩ : BufTy).Contents (Elt F)),
    StableHlo.nullary main_cst_19 (constant S_ .f32 0x3727C5AC#32),
    StableHlo.unary main_cst_19 main_v91 (broadcastInDim S64 ![] bcast_S_S64 : (⟨S_, .f32⟩ : BufTy).Contents (Elt F) → (⟨S64, .f32⟩ : BufTy).Contents (Elt F)),
    StableHlo.binary main_v87 main_v91 main_v92 (addf : (⟨S64, .f32⟩ : BufTy).Contents (Elt F) → (⟨S64, .f32⟩ : BufTy).Contents (Elt F) → (⟨S64, .f32⟩ : BufTy).Contents (Elt F)),
    StableHlo.unary main_v92 main_v93 (Host.rsqrt : (⟨S64, .f32⟩ : BufTy).Contents (Elt F) → (⟨S64, .f32⟩ : BufTy).Contents (Elt F)),
    StableHlo.unary main_v93 main_v94 (broadcastInDim S1x64 ![1] bcast_S64_S1x64_1 : (⟨S64, .f32⟩ : BufTy).Contents (Elt F) → (⟨S1x64, .f32⟩ : BufTy).Contents (Elt F)),
    StableHlo.unary main_v94 main_v95 (broadcastInDim S50000x64 ![0, 1] bcast_S1x64_S50000x64_0_1 : (⟨S1x64, .f32⟩ : BufTy).Contents (Elt F) → (⟨S50000x64, .f32⟩ : BufTy).Contents (Elt F)),
    StableHlo.binary main_v90 main_v95 main_v96 (mulf : (⟨S50000x64, .f32⟩ : BufTy).Contents (Elt F) → (⟨S50000x64, .f32⟩ : BufTy).Contents (Elt F) → (⟨S50000x64, .f32⟩ : BufTy).Contents (Elt F)),
    StableHlo.unary main_arg8 main_v97 ((extractStridedSlice S1x64 ![0, 0] · slices_S4x64_S1x64_0_0) : (⟨S4x64, .f32⟩ : BufTy).Contents (Elt F) → (⟨S1x64, .f32⟩ : BufTy).Contents (Elt F)),
    StableHlo.reshape main_v97 main_v98 rfl shapeCasts_S1x64_S64,
    StableHlo.unary main_v98 main_v99 (broadcastInDim S1x64 ![1] bcast_S64_S1x64_1 : (⟨S64, .f32⟩ : BufTy).Contents (Elt F) → (⟨S1x64, .f32⟩ : BufTy).Contents (Elt F)),
    StableHlo.unary main_v99 main_v100 (broadcastInDim S50000x64 ![0, 1] bcast_S1x64_S50000x64_0_1 : (⟨S1x64, .f32⟩ : BufTy).Contents (Elt F) → (⟨S50000x64, .f32⟩ : BufTy).Contents (Elt F)),
    StableHlo.binary main_v96 main_v100 main_v101 (mulf : (⟨S50000x64, .f32⟩ : BufTy).Contents (Elt F) → (⟨S50000x64, .f32⟩ : BufTy).Contents (Elt F) → (⟨S50000x64, .f32⟩ : BufTy).Contents (Elt F)),
    StableHlo.unary main_arg9 main_v102 ((extractStridedSlice S1x64 ![0, 0] · slices_S4x64_S1x64_0_0) : (⟨S4x64, .f32⟩ : BufTy).Contents (Elt F) → (⟨S1x64, .f32⟩ : BufTy).Contents (Elt F)),
    StableHlo.reshape main_v102 main_v103 rfl shapeCasts_S1x64_S64,
    StableHlo.unary main_v103 main_v104 (broadcastInDim S1x64 ![1] bcast_S64_S1x64_1 : (⟨S64, .f32⟩ : BufTy).Contents (Elt F) → (⟨S1x64, .f32⟩ : BufTy).Contents (Elt F)),
    StableHlo.unary main_v104 main_v105 (broadcastInDim S50000x64 ![0, 1] bcast_S1x64_S50000x64_0_1 : (⟨S1x64, .f32⟩ : BufTy).Contents (Elt F) → (⟨S50000x64, .f32⟩ : BufTy).Contents (Elt F)),
    StableHlo.binary main_v101 main_v105 main_v106 (addf : (⟨S50000x64, .f32⟩ : BufTy).Contents (Elt F) → (⟨S50000x64, .f32⟩ : BufTy).Contents (Elt F) → (⟨S50000x64, .f32⟩ : BufTy).Contents (Elt F)),
    StableHlo.TRef.nullary main_call1.cst (constant S_ .f32 0x00000000#32),
    StableHlo.TRef.unary main_call1.cst main_call1.v0 (broadcastInDim S50000x64 ![] bcast_S_S50000x64),
    StableHlo.TRef.binary (StableHlo.TRef.of (T := ⟨S50000x64, .f32⟩) main_v106) main_call1.v0 main_call1.v1 maximumf,
    StableHlo.binary main_v37 main_v107 main_v108 (addf : (⟨S50000x64, .f32⟩ : BufTy).Contents (Elt F) → (⟨S50000x64, .f32⟩ : BufTy).Contents (Elt F) → (⟨S50000x64, .f32⟩ : BufTy).Contents (Elt F)) ]

/-- The buffers those operations write. -/
abbrev cB0_W : List (Ref sig .tc) :=
  [main_cst_16, main_v84, main_cst_17, main_v85, main_v86, main_c_18, main_call0_cst, main_call0_v0, main_call0_v1, main_call0_cst_0, main_call0_v2, main_call0_v3, main_call0_v4, main_call0_v5, main_call0_v6, main_call0_v7, main_call0_cst_1, main_call0_v8, main_call0_cst_2, main_call0_v9, main_call0_v10, main_call0_v11, main_call0_cst_3, main_call0_v12, main_call0_cst_4, main_call0_call0_v0, main_call0_call0_v1, main_v87, main_v88, main_v89, main_v90, main_cst_19, main_v91, main_v92, main_v93, main_v94, main_v95, main_v96, main_v97, main_v98, main_v99, main_v100, main_v101, main_v102, main_v103, main_v104, main_v105, main_v106, main_call1_cst, main_call1_v0, main_v107, main_v108]

set_option maxRecDepth 8192 in
theorem cB0_writes : (cB0 : List (HloOp τ sig (Elt F))).Forall fun op =>
    op.writes ⊆ (cB0_W.map (Proc.devRef (τ := τ) .tc)).toFinset :=
  ⟨Finset.singleton_subset_iff.mpr (List.mem_toFinset.mpr (List.mem_map_of_mem (f := Proc.devRef (τ := τ) .tc) (a := main_cst_16) (by decide))),
   Finset.singleton_subset_iff.mpr (List.mem_toFinset.mpr (List.mem_map_of_mem (f := Proc.devRef (τ := τ) .tc) (a := main_v84) (by decide))),
   Finset.singleton_subset_iff.mpr (List.mem_toFinset.mpr (List.mem_map_of_mem (f := Proc.devRef (τ := τ) .tc) (a := main_cst_17) (by decide))),
   Finset.singleton_subset_iff.mpr (List.mem_toFinset.mpr (List.mem_map_of_mem (f := Proc.devRef (τ := τ) .tc) (a := main_v85) (by decide))),
   Finset.singleton_subset_iff.mpr (List.mem_toFinset.mpr (List.mem_map_of_mem (f := Proc.devRef (τ := τ) .tc) (a := main_v86) (by decide))),
   Finset.singleton_subset_iff.mpr (List.mem_toFinset.mpr (List.mem_map_of_mem (f := Proc.devRef (τ := τ) .tc) (a := main_c_18) (by decide))),
   Finset.singleton_subset_iff.mpr (List.mem_toFinset.mpr (List.mem_map_of_mem (f := Proc.devRef (τ := τ) .tc) (a := main_call0_cst) (by decide))),
   Finset.singleton_subset_iff.mpr (List.mem_toFinset.mpr (List.mem_map_of_mem (f := Proc.devRef (τ := τ) .tc) (a := main_call0_v0) (by decide))),
   Finset.singleton_subset_iff.mpr (List.mem_toFinset.mpr (List.mem_map_of_mem (f := Proc.devRef (τ := τ) .tc) (a := main_call0_v1) (by decide))),
   Finset.singleton_subset_iff.mpr (List.mem_toFinset.mpr (List.mem_map_of_mem (f := Proc.devRef (τ := τ) .tc) (a := main_call0_cst_0) (by decide))),
   Finset.singleton_subset_iff.mpr (List.mem_toFinset.mpr (List.mem_map_of_mem (f := Proc.devRef (τ := τ) .tc) (a := main_call0_v2) (by decide))),
   Finset.singleton_subset_iff.mpr (List.mem_toFinset.mpr (List.mem_map_of_mem (f := Proc.devRef (τ := τ) .tc) (a := main_call0_v3) (by decide))),
   Finset.singleton_subset_iff.mpr (List.mem_toFinset.mpr (List.mem_map_of_mem (f := Proc.devRef (τ := τ) .tc) (a := main_call0_v4) (by decide))),
   Finset.singleton_subset_iff.mpr (List.mem_toFinset.mpr (List.mem_map_of_mem (f := Proc.devRef (τ := τ) .tc) (a := main_call0_v5) (by decide))),
   Finset.singleton_subset_iff.mpr (List.mem_toFinset.mpr (List.mem_map_of_mem (f := Proc.devRef (τ := τ) .tc) (a := main_call0_v6) (by decide))),
   Finset.singleton_subset_iff.mpr (List.mem_toFinset.mpr (List.mem_map_of_mem (f := Proc.devRef (τ := τ) .tc) (a := main_call0_v7) (by decide))),
   Finset.singleton_subset_iff.mpr (List.mem_toFinset.mpr (List.mem_map_of_mem (f := Proc.devRef (τ := τ) .tc) (a := main_call0_cst_1) (by decide))),
   Finset.singleton_subset_iff.mpr (List.mem_toFinset.mpr (List.mem_map_of_mem (f := Proc.devRef (τ := τ) .tc) (a := main_call0_v8) (by decide))),
   Finset.singleton_subset_iff.mpr (List.mem_toFinset.mpr (List.mem_map_of_mem (f := Proc.devRef (τ := τ) .tc) (a := main_call0_cst_2) (by decide))),
   Finset.singleton_subset_iff.mpr (List.mem_toFinset.mpr (List.mem_map_of_mem (f := Proc.devRef (τ := τ) .tc) (a := main_call0_v9) (by decide))),
   Finset.singleton_subset_iff.mpr (List.mem_toFinset.mpr (List.mem_map_of_mem (f := Proc.devRef (τ := τ) .tc) (a := main_call0_v10) (by decide))),
   Finset.singleton_subset_iff.mpr (List.mem_toFinset.mpr (List.mem_map_of_mem (f := Proc.devRef (τ := τ) .tc) (a := main_call0_v11) (by decide))),
   Finset.singleton_subset_iff.mpr (List.mem_toFinset.mpr (List.mem_map_of_mem (f := Proc.devRef (τ := τ) .tc) (a := main_call0_cst_3) (by decide))),
   Finset.singleton_subset_iff.mpr (List.mem_toFinset.mpr (List.mem_map_of_mem (f := Proc.devRef (τ := τ) .tc) (a := main_call0_v12) (by decide))),
   Finset.singleton_subset_iff.mpr (List.mem_toFinset.mpr (List.mem_map_of_mem (f := Proc.devRef (τ := τ) .tc) (a := main_call0_cst_4) (by decide))),
   Finset.singleton_subset_iff.mpr (List.mem_toFinset.mpr (List.mem_map_of_mem (f := Proc.devRef (τ := τ) .tc) (a := main_call0_call0_v0) (by decide))),
   Finset.singleton_subset_iff.mpr (List.mem_toFinset.mpr (List.mem_map_of_mem (f := Proc.devRef (τ := τ) .tc) (a := main_call0_call0_v1) (by decide))),
   Finset.singleton_subset_iff.mpr (List.mem_toFinset.mpr (List.mem_map_of_mem (f := Proc.devRef (τ := τ) .tc) (a := main_v87) (by decide))),
   Finset.singleton_subset_iff.mpr (List.mem_toFinset.mpr (List.mem_map_of_mem (f := Proc.devRef (τ := τ) .tc) (a := main_v88) (by decide))),
   Finset.singleton_subset_iff.mpr (List.mem_toFinset.mpr (List.mem_map_of_mem (f := Proc.devRef (τ := τ) .tc) (a := main_v89) (by decide))),
   Finset.singleton_subset_iff.mpr (List.mem_toFinset.mpr (List.mem_map_of_mem (f := Proc.devRef (τ := τ) .tc) (a := main_v90) (by decide))),
   Finset.singleton_subset_iff.mpr (List.mem_toFinset.mpr (List.mem_map_of_mem (f := Proc.devRef (τ := τ) .tc) (a := main_cst_19) (by decide))),
   Finset.singleton_subset_iff.mpr (List.mem_toFinset.mpr (List.mem_map_of_mem (f := Proc.devRef (τ := τ) .tc) (a := main_v91) (by decide))),
   Finset.singleton_subset_iff.mpr (List.mem_toFinset.mpr (List.mem_map_of_mem (f := Proc.devRef (τ := τ) .tc) (a := main_v92) (by decide))),
   Finset.singleton_subset_iff.mpr (List.mem_toFinset.mpr (List.mem_map_of_mem (f := Proc.devRef (τ := τ) .tc) (a := main_v93) (by decide))),
   Finset.singleton_subset_iff.mpr (List.mem_toFinset.mpr (List.mem_map_of_mem (f := Proc.devRef (τ := τ) .tc) (a := main_v94) (by decide))),
   Finset.singleton_subset_iff.mpr (List.mem_toFinset.mpr (List.mem_map_of_mem (f := Proc.devRef (τ := τ) .tc) (a := main_v95) (by decide))),
   Finset.singleton_subset_iff.mpr (List.mem_toFinset.mpr (List.mem_map_of_mem (f := Proc.devRef (τ := τ) .tc) (a := main_v96) (by decide))),
   Finset.singleton_subset_iff.mpr (List.mem_toFinset.mpr (List.mem_map_of_mem (f := Proc.devRef (τ := τ) .tc) (a := main_v97) (by decide))),
   Finset.singleton_subset_iff.mpr (List.mem_toFinset.mpr (List.mem_map_of_mem (f := Proc.devRef (τ := τ) .tc) (a := main_v98) (by decide))),
   Finset.singleton_subset_iff.mpr (List.mem_toFinset.mpr (List.mem_map_of_mem (f := Proc.devRef (τ := τ) .tc) (a := main_v99) (by decide))),
   Finset.singleton_subset_iff.mpr (List.mem_toFinset.mpr (List.mem_map_of_mem (f := Proc.devRef (τ := τ) .tc) (a := main_v100) (by decide))),
   Finset.singleton_subset_iff.mpr (List.mem_toFinset.mpr (List.mem_map_of_mem (f := Proc.devRef (τ := τ) .tc) (a := main_v101) (by decide))),
   Finset.singleton_subset_iff.mpr (List.mem_toFinset.mpr (List.mem_map_of_mem (f := Proc.devRef (τ := τ) .tc) (a := main_v102) (by decide))),
   Finset.singleton_subset_iff.mpr (List.mem_toFinset.mpr (List.mem_map_of_mem (f := Proc.devRef (τ := τ) .tc) (a := main_v103) (by decide))),
   Finset.singleton_subset_iff.mpr (List.mem_toFinset.mpr (List.mem_map_of_mem (f := Proc.devRef (τ := τ) .tc) (a := main_v104) (by decide))),
   Finset.singleton_subset_iff.mpr (List.mem_toFinset.mpr (List.mem_map_of_mem (f := Proc.devRef (τ := τ) .tc) (a := main_v105) (by decide))),
   Finset.singleton_subset_iff.mpr (List.mem_toFinset.mpr (List.mem_map_of_mem (f := Proc.devRef (τ := τ) .tc) (a := main_v106) (by decide))),
   Finset.singleton_subset_iff.mpr (List.mem_toFinset.mpr (List.mem_map_of_mem (f := Proc.devRef (τ := τ) .tc) (a := main_call1_cst) (by decide))),
   Finset.singleton_subset_iff.mpr (List.mem_toFinset.mpr (List.mem_map_of_mem (f := Proc.devRef (τ := τ) .tc) (a := main_call1_v0) (by decide))),
   Finset.singleton_subset_iff.mpr (List.mem_toFinset.mpr (List.mem_map_of_mem (f := Proc.devRef (τ := τ) .tc) (a := main_v107) (by decide))),
   Finset.singleton_subset_iff.mpr (List.mem_toFinset.mpr (List.mem_map_of_mem (f := Proc.devRef (τ := τ) .tc) (a := main_v108) (by decide)))⟩

/-- A buffer those operations do not write keeps its contents through them. -/
theorem cB0_keep (W : Valuation τ sig (Elt F)) (r : Ref sig .tc) (h : r ∉ cB0_W) :
    after cB0 W (Proc.devRef .tc r) = W (Proc.devRef .tc r) :=
  after_of_writes_sub cB0 W cB0_writes h

set_option maxRecDepth 8192 in
set_option maxHeartbeats 4000000 in
/-- Layer 0's result from the contents before its normalization. -/
theorem cB0_v108 (W : Valuation τ sig (Elt F)) :
    after cB0 W (Proc.devRef .tc main_v108)
      = bnS (W (Proc.devRef .tc main_v83)) (W (Proc.devRef .tc main_v37)) (gamma_0 (W (Proc.devRef .tc main_arg8))) (beta_0 (W (Proc.devRef .tc main_arg9))) := by
  simp only [cB0]
  after_results_simp
  rfl

/-- The operations 155 … 206 of @main's 503. -/
abbrev cM1 : List (HloOp τ sig (Elt F)) :=
  [ StableHlo.unary main_arg10 main_v109 ((extractStridedSlice S1x2x2 ![1, 0, 0] · slices_S4x2x2_S1x2x2_1_0_0) : (⟨S4x2x2, .f32⟩ : BufTy).Contents (Elt F) → (⟨S1x2x2, .f32⟩ : BufTy).Contents (Elt F)),
    StableHlo.reshape main_v109 main_v110 rfl shapeCasts_S1x2x2_S2x2,
    StableHlo.unary main_v110 main_v111 ((transpose S2x2 [1, 0] · transposes_S2x2_S2x2_1_0) : (⟨S2x2, .f32⟩ : BufTy).Contents (Elt F) → (⟨S2x2, .f32⟩ : BufTy).Contents (Elt F)),
    StableHlo.binary main_v30 main_v111 main_v112 ((fun l r => Host.dotGeneral dot_S800000x2_S2x2_S800000x2_1_0_0_1_n_n none l r) : (⟨S800000x2, .f32⟩ : BufTy).Contents (Elt F) → (⟨S2x2, .f32⟩ : BufTy).Contents (Elt F) → (⟨S800000x2, .f32⟩ : BufTy).Contents (Elt F)),
    StableHlo.unary main_arg11 main_v113 ((extractStridedSlice S1x2 ![1, 0] · slices_S4x2_S1x2_1_0) : (⟨S4x2, .f32⟩ : BufTy).Contents (Elt F) → (⟨S1x2, .f32⟩ : BufTy).Contents (Elt F)),
    StableHlo.reshape main_v113 main_v114 rfl shapeCasts_S1x2_S2,
    StableHlo.unary main_v114 main_v115 (broadcastInDim S1x2 ![1] bcast_S2_S1x2_1 : (⟨S2, .f32⟩ : BufTy).Contents (Elt F) → (⟨S1x2, .f32⟩ : BufTy).Contents (Elt F)),
    StableHlo.unary main_v115 main_v116 (broadcastInDim S800000x2 ![0, 1] bcast_S1x2_S800000x2_0_1 : (⟨S1x2, .f32⟩ : BufTy).Contents (Elt F) → (⟨S800000x2, .f32⟩ : BufTy).Contents (Elt F)),
    StableHlo.binary main_v112 main_v116 main_v117 (addf : (⟨S800000x2, .f32⟩ : BufTy).Contents (Elt F) → (⟨S800000x2, .f32⟩ : BufTy).Contents (Elt F) → (⟨S800000x2, .f32⟩ : BufTy).Contents (Elt F)),
    StableHlo.unary main_v117 main_v118 (Host.tanh : (⟨S800000x2, .f32⟩ : BufTy).Contents (Elt F) → (⟨S800000x2, .f32⟩ : BufTy).Contents (Elt F)),
    StableHlo.unary main_v118 main_v119 (broadcastInDim S800000x1x2 ![0, 2] bcast_S800000x2_S800000x1x2_0_2 : (⟨S800000x2, .f32⟩ : BufTy).Contents (Elt F) → (⟨S800000x1x2, .f32⟩ : BufTy).Contents (Elt F)),
    StableHlo.unary main_arg6 main_v120 ((extractStridedSlice S1x3x2 ![1, 0, 0] · slices_S4x3x2_S1x3x2_1_0_0) : (⟨S4x3x2, .f32⟩ : BufTy).Contents (Elt F) → (⟨S1x3x2, .f32⟩ : BufTy).Contents (Elt F)),
    StableHlo.reshape main_v120 main_v121 rfl shapeCasts_S1x3x2_S3x2,
    StableHlo.unary main_v121 main_v122 (broadcastInDim S1x3x2 ![1, 2] bcast_S3x2_S1x3x2_1_2 : (⟨S3x2, .f32⟩ : BufTy).Contents (Elt F) → (⟨S1x3x2, .f32⟩ : BufTy).Contents (Elt F)),
    StableHlo.unary main_v119 main_v123 (broadcastInDim S800000x3x2 ![0, 1, 2] bcast_S800000x1x2_S800000x3x2_0_1_2 : (⟨S800000x1x2, .f32⟩ : BufTy).Contents (Elt F) → (⟨S800000x3x2, .f32⟩ : BufTy).Contents (Elt F)),
    StableHlo.unary main_v122 main_v124 (broadcastInDim S800000x3x2 ![0, 1, 2] bcast_S1x3x2_S800000x3x2_0_1_2 : (⟨S1x3x2, .f32⟩ : BufTy).Contents (Elt F) → (⟨S800000x3x2, .f32⟩ : BufTy).Contents (Elt F)),
    StableHlo.binary main_v123 main_v124 main_v125 (subf : (⟨S800000x3x2, .f32⟩ : BufTy).Contents (Elt F) → (⟨S800000x3x2, .f32⟩ : BufTy).Contents (Elt F) → (⟨S800000x3x2, .f32⟩ : BufTy).Contents (Elt F)),
    StableHlo.unary main_arg7 main_v126 ((extractStridedSlice S1x3x2 ![1, 0, 0] · slices_S4x3x2_S1x3x2_1_0_0) : (⟨S4x3x2, .f32⟩ : BufTy).Contents (Elt F) → (⟨S1x3x2, .f32⟩ : BufTy).Contents (Elt F)),
    StableHlo.reshape main_v126 main_v127 rfl shapeCasts_S1x3x2_S3x2,
    StableHlo.unary main_v127 main_v128 (broadcastInDim S1x3x2 ![1, 2] bcast_S3x2_S1x3x2_1_2 : (⟨S3x2, .f32⟩ : BufTy).Contents (Elt F) → (⟨S1x3x2, .f32⟩ : BufTy).Contents (Elt F)),
    StableHlo.unary main_v128 main_v129 (broadcastInDim S800000x3x2 ![0, 1, 2] bcast_S1x3x2_S800000x3x2_0_1_2 : (⟨S1x3x2, .f32⟩ : BufTy).Contents (Elt F) → (⟨S800000x3x2, .f32⟩ : BufTy).Contents (Elt F)),
    StableHlo.binary main_v125 main_v129 main_v130 (mulf : (⟨S800000x3x2, .f32⟩ : BufTy).Contents (Elt F) → (⟨S800000x3x2, .f32⟩ : BufTy).Contents (Elt F) → (⟨S800000x3x2, .f32⟩ : BufTy).Contents (Elt F)),
    StableHlo.binary main_v130 main_v130 main_v131 (mulf : (⟨S800000x3x2, .f32⟩ : BufTy).Contents (Elt F) → (⟨S800000x3x2, .f32⟩ : BufTy).Contents (Elt F) → (⟨S800000x3x2, .f32⟩ : BufTy).Contents (Elt F)),
    StableHlo.nullary main_cst_20 (constant S_ .f32 0x00000000#32),
    StableHlo.binary main_v131 main_cst_20 main_v132 ((fun x v => Host.reduceAdd x v reducesTo_S800000x3x2_S800000x3_d2 h_S_) : (⟨S800000x3x2, .f32⟩ : BufTy).Contents (Elt F) → (⟨S_, .f32⟩ : BufTy).Contents (Elt F) → (⟨S800000x3, .f32⟩ : BufTy).Contents (Elt F)),
    StableHlo.nullary main_cst_21 (constant S_ .f32 0xBF000000#32),
    StableHlo.unary main_cst_21 main_v133 (broadcastInDim S800000x3 ![] bcast_S_S800000x3 : (⟨S_, .f32⟩ : BufTy).Contents (Elt F) → (⟨S800000x3, .f32⟩ : BufTy).Contents (Elt F)),
    StableHlo.binary main_v133 main_v132 main_v134 (mulf : (⟨S800000x3, .f32⟩ : BufTy).Contents (Elt F) → (⟨S800000x3, .f32⟩ : BufTy).Contents (Elt F) → (⟨S800000x3, .f32⟩ : BufTy).Contents (Elt F)),
    StableHlo.unary main_v134 main_v135 (Host.exp : (⟨S800000x3, .f32⟩ : BufTy).Contents (Elt F) → (⟨S800000x3, .f32⟩ : BufTy).Contents (Elt F)),
    StableHlo.unary main_arg5 main_v136 ((extractStridedSlice S1x192x64 ![1, 0, 0] · slices_S4x192x64_S1x192x64_1_0_0) : (⟨S4x192x64, .f32⟩ : BufTy).Contents (Elt F) → (⟨S1x192x64, .f32⟩ : BufTy).Contents (Elt F)),
    StableHlo.reshape main_v136 main_v137 rfl shapeCasts_S1x192x64_S192x64,
    StableHlo.unary main_v137 main_v138 ((transpose S64x192 [1, 0] · transposes_S192x64_S64x192_1_0) : (⟨S192x64, .f32⟩ : BufTy).Contents (Elt F) → (⟨S64x192, .f32⟩ : BufTy).Contents (Elt F)),
    StableHlo.binary main_v108 main_v138 main_v139 ((fun l r => Host.dotGeneral dot_S50000x64_S64x192_S50000x192_1_0_0_1_n_n none l r) : (⟨S50000x64, .f32⟩ : BufTy).Contents (Elt F) → (⟨S64x192, .f32⟩ : BufTy).Contents (Elt F) → (⟨S50000x192, .f32⟩ : BufTy).Contents (Elt F)),
    StableHlo.reshape main_v139 main_v140 rfl shapeCasts_S50000x192_S50000x3x64,
    StableHlo.nullary main_c_22 (constantI S_ 32 0#32),
    StableHlo.unary main_c_22 main_v141 (broadcastInDim S800000 ![] bcast_S_S800000 : (⟨S_, .i32⟩ : BufTy).Contents (Elt F) → (⟨S800000, .i32⟩ : BufTy).Contents (Elt F)),
    StableHlo.binary main_arg1 main_v141 main_v142 (cmpi .slt : (⟨S800000, .i32⟩ : BufTy).Contents (Elt F) → (⟨S800000, .i32⟩ : BufTy).Contents (Elt F) → (⟨S800000, .i1⟩ : BufTy).Contents (Elt F)),
    StableHlo.nullary main_c_23 (constantI S_ 32 50000#32),
    StableHlo.unary main_c_23 main_v143 (broadcastInDim S800000 ![] bcast_S_S800000 : (⟨S_, .i32⟩ : BufTy).Contents (Elt F) → (⟨S800000, .i32⟩ : BufTy).Contents (Elt F)),
    StableHlo.binary main_arg1 main_v143 main_v144 (addi : (⟨S800000, .i32⟩ : BufTy).Contents (Elt F) → (⟨S800000, .i32⟩ : BufTy).Contents (Elt F) → (⟨S800000, .i32⟩ : BufTy).Contents (Elt F)),
    StableHlo.ternary main_v142 main_v144 main_arg1 main_v145 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v145 main_v146 (broadcastInDim S800000x1 ![0] bcast_S800000_S800000x1_0 : (⟨S800000, .i32⟩ : BufTy).Contents (Elt F) → (⟨S800000x1, .i32⟩ : BufTy).Contents (Elt F)),
    StableHlo.binary main_v140 main_v146 main_v147 ((fun x i => Host.gather gather_S50000x3x64_S800000x1_S800000x3x64_12_0_n_n_0_1_1364 x i) : (⟨S50000x3x64, .f32⟩ : BufTy).Contents (Elt F) → (⟨S800000x1, .i32⟩ : BufTy).Contents (Elt F) → (⟨S800000x3x64, .f32⟩ : BufTy).Contents (Elt F)),
    StableHlo.unary main_v135 main_v148 (broadcastInDim S800000x3x1 ![0, 1] bcast_S800000x3_S800000x3x1_0_1 : (⟨S800000x3, .f32⟩ : BufTy).Contents (Elt F) → (⟨S800000x3x1, .f32⟩ : BufTy).Contents (Elt F)),
    StableHlo.unary main_v148 main_v149 (broadcastInDim S800000x3x64 ![0, 1, 2] bcast_S800000x3x1_S800000x3x64_0_1_2 : (⟨S800000x3x1, .f32⟩ : BufTy).Contents (Elt F) → (⟨S800000x3x64, .f32⟩ : BufTy).Contents (Elt F)),
    StableHlo.binary main_v147 main_v149 main_v150 (mulf : (⟨S800000x3x64, .f32⟩ : BufTy).Contents (Elt F) → (⟨S800000x3x64, .f32⟩ : BufTy).Contents (Elt F) → (⟨S800000x3x64, .f32⟩ : BufTy).Contents (Elt F)),
    StableHlo.nullary main_cst_24 (constant S_ .f32 0x00000000#32),
    StableHlo.unary main_cst_24 main_v151 (broadcastInDim S50000x3x64 ![] bcast_S_S50000x3x64 : (⟨S_, .f32⟩ : BufTy).Contents (Elt F) → (⟨S50000x3x64, .f32⟩ : BufTy).Contents (Elt F)),
    StableHlo.unary main_arg2 main_v152 (broadcastInDim S800000x1 ![0] bcast_S800000_S800000x1_0 : (⟨S800000, .i32⟩ : BufTy).Contents (Elt F) → (⟨S800000x1, .i32⟩ : BufTy).Contents (Elt F)),
    StableHlo.ternary main_v151 main_v152 main_v150 main_v153 ((fun x i u => Host.scatterAdd scatter_S50000x3x64_S800000x1_S800000x3x64_12_0_0_1 x i u) : (⟨S50000x3x64, .f32⟩ : BufTy).Contents (Elt F) → (⟨S800000x1, .i32⟩ : BufTy).Contents (Elt F) → (⟨S800000x3x64, .f32⟩ : BufTy).Contents (Elt F) → (⟨S50000x3x64, .f32⟩ : BufTy).Contents (Elt F)),
    StableHlo.nullary main_cst_25 (constant S_ .f32 0x00000000#32),
    StableHlo.binary main_v153 main_cst_25 main_v154 ((fun x v => Host.reduceAdd x v reducesTo_S50000x3x64_S50000x64_d1 h_S_) : (⟨S50000x3x64, .f32⟩ : BufTy).Contents (Elt F) → (⟨S_, .f32⟩ : BufTy).Contents (Elt F) → (⟨S50000x64, .f32⟩ : BufTy).Contents (Elt F)) ]

/-- The buffers those operations write. -/
abbrev cM1_W : List (Ref sig .tc) :=
  [main_v109, main_v110, main_v111, main_v112, main_v113, main_v114, main_v115, main_v116, main_v117, main_v118, main_v119, main_v120, main_v121, main_v122, main_v123, main_v124, main_v125, main_v126, main_v127, main_v128, main_v129, main_v130, main_v131, main_cst_20, main_v132, main_cst_21, main_v133, main_v134, main_v135, main_v136, main_v137, main_v138, main_v139, main_v140, main_c_22, main_v141, main_v142, main_c_23, main_v143, main_v144, main_v145, main_v146, main_v147, main_v148, main_v149, main_v150, main_cst_24, main_v151, main_v152, main_v153, main_cst_25, main_v154]

set_option maxRecDepth 8192 in
theorem cM1_writes : (cM1 : List (HloOp τ sig (Elt F))).Forall fun op =>
    op.writes ⊆ (cM1_W.map (Proc.devRef (τ := τ) .tc)).toFinset :=
  ⟨Finset.singleton_subset_iff.mpr (List.mem_toFinset.mpr (List.mem_map_of_mem (f := Proc.devRef (τ := τ) .tc) (a := main_v109) (by decide))),
   Finset.singleton_subset_iff.mpr (List.mem_toFinset.mpr (List.mem_map_of_mem (f := Proc.devRef (τ := τ) .tc) (a := main_v110) (by decide))),
   Finset.singleton_subset_iff.mpr (List.mem_toFinset.mpr (List.mem_map_of_mem (f := Proc.devRef (τ := τ) .tc) (a := main_v111) (by decide))),
   Finset.singleton_subset_iff.mpr (List.mem_toFinset.mpr (List.mem_map_of_mem (f := Proc.devRef (τ := τ) .tc) (a := main_v112) (by decide))),
   Finset.singleton_subset_iff.mpr (List.mem_toFinset.mpr (List.mem_map_of_mem (f := Proc.devRef (τ := τ) .tc) (a := main_v113) (by decide))),
   Finset.singleton_subset_iff.mpr (List.mem_toFinset.mpr (List.mem_map_of_mem (f := Proc.devRef (τ := τ) .tc) (a := main_v114) (by decide))),
   Finset.singleton_subset_iff.mpr (List.mem_toFinset.mpr (List.mem_map_of_mem (f := Proc.devRef (τ := τ) .tc) (a := main_v115) (by decide))),
   Finset.singleton_subset_iff.mpr (List.mem_toFinset.mpr (List.mem_map_of_mem (f := Proc.devRef (τ := τ) .tc) (a := main_v116) (by decide))),
   Finset.singleton_subset_iff.mpr (List.mem_toFinset.mpr (List.mem_map_of_mem (f := Proc.devRef (τ := τ) .tc) (a := main_v117) (by decide))),
   Finset.singleton_subset_iff.mpr (List.mem_toFinset.mpr (List.mem_map_of_mem (f := Proc.devRef (τ := τ) .tc) (a := main_v118) (by decide))),
   Finset.singleton_subset_iff.mpr (List.mem_toFinset.mpr (List.mem_map_of_mem (f := Proc.devRef (τ := τ) .tc) (a := main_v119) (by decide))),
   Finset.singleton_subset_iff.mpr (List.mem_toFinset.mpr (List.mem_map_of_mem (f := Proc.devRef (τ := τ) .tc) (a := main_v120) (by decide))),
   Finset.singleton_subset_iff.mpr (List.mem_toFinset.mpr (List.mem_map_of_mem (f := Proc.devRef (τ := τ) .tc) (a := main_v121) (by decide))),
   Finset.singleton_subset_iff.mpr (List.mem_toFinset.mpr (List.mem_map_of_mem (f := Proc.devRef (τ := τ) .tc) (a := main_v122) (by decide))),
   Finset.singleton_subset_iff.mpr (List.mem_toFinset.mpr (List.mem_map_of_mem (f := Proc.devRef (τ := τ) .tc) (a := main_v123) (by decide))),
   Finset.singleton_subset_iff.mpr (List.mem_toFinset.mpr (List.mem_map_of_mem (f := Proc.devRef (τ := τ) .tc) (a := main_v124) (by decide))),
   Finset.singleton_subset_iff.mpr (List.mem_toFinset.mpr (List.mem_map_of_mem (f := Proc.devRef (τ := τ) .tc) (a := main_v125) (by decide))),
   Finset.singleton_subset_iff.mpr (List.mem_toFinset.mpr (List.mem_map_of_mem (f := Proc.devRef (τ := τ) .tc) (a := main_v126) (by decide))),
   Finset.singleton_subset_iff.mpr (List.mem_toFinset.mpr (List.mem_map_of_mem (f := Proc.devRef (τ := τ) .tc) (a := main_v127) (by decide))),
   Finset.singleton_subset_iff.mpr (List.mem_toFinset.mpr (List.mem_map_of_mem (f := Proc.devRef (τ := τ) .tc) (a := main_v128) (by decide))),
   Finset.singleton_subset_iff.mpr (List.mem_toFinset.mpr (List.mem_map_of_mem (f := Proc.devRef (τ := τ) .tc) (a := main_v129) (by decide))),
   Finset.singleton_subset_iff.mpr (List.mem_toFinset.mpr (List.mem_map_of_mem (f := Proc.devRef (τ := τ) .tc) (a := main_v130) (by decide))),
   Finset.singleton_subset_iff.mpr (List.mem_toFinset.mpr (List.mem_map_of_mem (f := Proc.devRef (τ := τ) .tc) (a := main_v131) (by decide))),
   Finset.singleton_subset_iff.mpr (List.mem_toFinset.mpr (List.mem_map_of_mem (f := Proc.devRef (τ := τ) .tc) (a := main_cst_20) (by decide))),
   Finset.singleton_subset_iff.mpr (List.mem_toFinset.mpr (List.mem_map_of_mem (f := Proc.devRef (τ := τ) .tc) (a := main_v132) (by decide))),
   Finset.singleton_subset_iff.mpr (List.mem_toFinset.mpr (List.mem_map_of_mem (f := Proc.devRef (τ := τ) .tc) (a := main_cst_21) (by decide))),
   Finset.singleton_subset_iff.mpr (List.mem_toFinset.mpr (List.mem_map_of_mem (f := Proc.devRef (τ := τ) .tc) (a := main_v133) (by decide))),
   Finset.singleton_subset_iff.mpr (List.mem_toFinset.mpr (List.mem_map_of_mem (f := Proc.devRef (τ := τ) .tc) (a := main_v134) (by decide))),
   Finset.singleton_subset_iff.mpr (List.mem_toFinset.mpr (List.mem_map_of_mem (f := Proc.devRef (τ := τ) .tc) (a := main_v135) (by decide))),
   Finset.singleton_subset_iff.mpr (List.mem_toFinset.mpr (List.mem_map_of_mem (f := Proc.devRef (τ := τ) .tc) (a := main_v136) (by decide))),
   Finset.singleton_subset_iff.mpr (List.mem_toFinset.mpr (List.mem_map_of_mem (f := Proc.devRef (τ := τ) .tc) (a := main_v137) (by decide))),
   Finset.singleton_subset_iff.mpr (List.mem_toFinset.mpr (List.mem_map_of_mem (f := Proc.devRef (τ := τ) .tc) (a := main_v138) (by decide))),
   Finset.singleton_subset_iff.mpr (List.mem_toFinset.mpr (List.mem_map_of_mem (f := Proc.devRef (τ := τ) .tc) (a := main_v139) (by decide))),
   Finset.singleton_subset_iff.mpr (List.mem_toFinset.mpr (List.mem_map_of_mem (f := Proc.devRef (τ := τ) .tc) (a := main_v140) (by decide))),
   Finset.singleton_subset_iff.mpr (List.mem_toFinset.mpr (List.mem_map_of_mem (f := Proc.devRef (τ := τ) .tc) (a := main_c_22) (by decide))),
   Finset.singleton_subset_iff.mpr (List.mem_toFinset.mpr (List.mem_map_of_mem (f := Proc.devRef (τ := τ) .tc) (a := main_v141) (by decide))),
   Finset.singleton_subset_iff.mpr (List.mem_toFinset.mpr (List.mem_map_of_mem (f := Proc.devRef (τ := τ) .tc) (a := main_v142) (by decide))),
   Finset.singleton_subset_iff.mpr (List.mem_toFinset.mpr (List.mem_map_of_mem (f := Proc.devRef (τ := τ) .tc) (a := main_c_23) (by decide))),
   Finset.singleton_subset_iff.mpr (List.mem_toFinset.mpr (List.mem_map_of_mem (f := Proc.devRef (τ := τ) .tc) (a := main_v143) (by decide))),
   Finset.singleton_subset_iff.mpr (List.mem_toFinset.mpr (List.mem_map_of_mem (f := Proc.devRef (τ := τ) .tc) (a := main_v144) (by decide))),
   Finset.singleton_subset_iff.mpr (List.mem_toFinset.mpr (List.mem_map_of_mem (f := Proc.devRef (τ := τ) .tc) (a := main_v145) (by decide))),
   Finset.singleton_subset_iff.mpr (List.mem_toFinset.mpr (List.mem_map_of_mem (f := Proc.devRef (τ := τ) .tc) (a := main_v146) (by decide))),
   Finset.singleton_subset_iff.mpr (List.mem_toFinset.mpr (List.mem_map_of_mem (f := Proc.devRef (τ := τ) .tc) (a := main_v147) (by decide))),
   Finset.singleton_subset_iff.mpr (List.mem_toFinset.mpr (List.mem_map_of_mem (f := Proc.devRef (τ := τ) .tc) (a := main_v148) (by decide))),
   Finset.singleton_subset_iff.mpr (List.mem_toFinset.mpr (List.mem_map_of_mem (f := Proc.devRef (τ := τ) .tc) (a := main_v149) (by decide))),
   Finset.singleton_subset_iff.mpr (List.mem_toFinset.mpr (List.mem_map_of_mem (f := Proc.devRef (τ := τ) .tc) (a := main_v150) (by decide))),
   Finset.singleton_subset_iff.mpr (List.mem_toFinset.mpr (List.mem_map_of_mem (f := Proc.devRef (τ := τ) .tc) (a := main_cst_24) (by decide))),
   Finset.singleton_subset_iff.mpr (List.mem_toFinset.mpr (List.mem_map_of_mem (f := Proc.devRef (τ := τ) .tc) (a := main_v151) (by decide))),
   Finset.singleton_subset_iff.mpr (List.mem_toFinset.mpr (List.mem_map_of_mem (f := Proc.devRef (τ := τ) .tc) (a := main_v152) (by decide))),
   Finset.singleton_subset_iff.mpr (List.mem_toFinset.mpr (List.mem_map_of_mem (f := Proc.devRef (τ := τ) .tc) (a := main_v153) (by decide))),
   Finset.singleton_subset_iff.mpr (List.mem_toFinset.mpr (List.mem_map_of_mem (f := Proc.devRef (τ := τ) .tc) (a := main_cst_25) (by decide))),
   Finset.singleton_subset_iff.mpr (List.mem_toFinset.mpr (List.mem_map_of_mem (f := Proc.devRef (τ := τ) .tc) (a := main_v154) (by decide)))⟩

/-- A buffer those operations do not write keeps its contents through them. -/
theorem cM1_keep (W : Valuation τ sig (Elt F)) (r : Ref sig .tc) (h : r ∉ cM1_W) :
    after cM1 W (Proc.devRef .tc r) = W (Proc.devRef .tc r) :=
  after_of_writes_sub cM1 W cM1_writes h

set_option maxRecDepth 8192 in
set_option maxHeartbeats 4000000 in
/-- Layer 1's aggregate from the contents before its operations. -/
theorem cM1_v154 (W : Valuation τ sig (Elt F)) :
    after cM1 W (Proc.devRef .tc main_v154)
      = aggS (msgS (hkSrcS (hkS (W (Proc.devRef .tc main_v108)) (W_1 (W (Proc.devRef .tc main_arg5)))) (W (Proc.devRef .tc main_arg1))) (gaussS (uS (W (Proc.devRef .tc main_v30)) (A_1 (W (Proc.devRef .tc main_arg10))) (bvec_1 (W (Proc.devRef .tc main_arg11)))) (mu_1 (W (Proc.devRef .tc main_arg6))) (sg_1 (W (Proc.devRef .tc main_arg7))))) (W (Proc.devRef .tc main_arg2)) := by
  simp only [cM1]
  after_results_simp
  rfl

/-- The operations 207 … 258 of @main's 503. -/
abbrev cB1 : List (HloOp τ sig (Elt F)) :=
  [ StableHlo.nullary main_cst_26 (constant S_ .f32 0x00000000#32),
    StableHlo.binary main_v154 main_cst_26 main_v155 ((fun x v => Host.reduceAdd x v reducesTo_S50000x64_S64_d0 h_S_) : (⟨S50000x64, .f32⟩ : BufTy).Contents (Elt F) → (⟨S_, .f32⟩ : BufTy).Contents (Elt F) → (⟨S64, .f32⟩ : BufTy).Contents (Elt F)),
    StableHlo.nullary main_cst_27 (constant S_ .f32 0x47435000#32),
    StableHlo.unary main_cst_27 main_v156 (broadcastInDim S64 ![] bcast_S_S64 : (⟨S_, .f32⟩ : BufTy).Contents (Elt F) → (⟨S64, .f32⟩ : BufTy).Contents (Elt F)),
    StableHlo.binary main_v155 main_v156 main_v157 (Host.divf : (⟨S64, .f32⟩ : BufTy).Contents (Elt F) → (⟨S64, .f32⟩ : BufTy).Contents (Elt F) → (⟨S64, .f32⟩ : BufTy).Contents (Elt F)),
    StableHlo.nullary main_c_28 (constantI S_ 32 0#32),
    StableHlo.TRef.nullary main_call2.cst (constant S_ .f32 0x00000000#32),
    StableHlo.TRef.binary (StableHlo.TRef.of (T := ⟨S50000x64, .f32⟩) main_v154) main_call2.cst main_call2.v0 (fun x v => Host.reduceAdd x v reducesTo_S50000x64_S64_d0 h_S_),
    StableHlo.TRef.unary main_call2.v0 main_call2.v1 (broadcastInDim S1x64 ![1] bcast_S64_S1x64_1),
    StableHlo.TRef.nullary main_call2.cst_0 (constant S_ .f32 0x47435000#32),
    StableHlo.TRef.unary main_call2.cst_0 main_call2.v2 (broadcastInDim S1x64 ![] bcast_S_S1x64),
    StableHlo.TRef.binary main_call2.v1 main_call2.v2 main_call2.v3 Host.divf,
    StableHlo.TRef.unary main_call2.v3 main_call2.v4 (broadcastInDim S50000x64 ![0, 1] bcast_S1x64_S50000x64_0_1),
    StableHlo.TRef.binary (StableHlo.TRef.of (T := ⟨S50000x64, .f32⟩) main_v154) main_call2.v4 main_call2.v5 subf,
    StableHlo.TRef.binary main_call2.v5 main_call2.v5 main_call2.v6 mulf,
    StableHlo.TRef.unary (StableHlo.TRef.of (T := ⟨S_, .i32⟩) main_c_28) main_call2.v7 (sitofp .f32),
    StableHlo.TRef.nullary main_call2.cst_1 (constant S_ .f32 0x47435000#32),
    StableHlo.TRef.binary main_call2.cst_1 main_call2.v7 main_call2.v8 subf,
    StableHlo.TRef.nullary main_call2.cst_2 (constant S_ .f32 0x00000000#32),
    StableHlo.TRef.binary main_call2.v6 main_call2.cst_2 main_call2.v9 (fun x v => Host.reduceAdd x v reducesTo_S50000x64_S64_d0 h_S_),
    StableHlo.TRef.unary main_call2.v8 main_call2.v10 (broadcastInDim S64 ![] bcast_S_S64),
    StableHlo.TRef.binary main_call2.v9 main_call2.v10 main_call2.v11 Host.divf,
    StableHlo.TRef.nullary main_call2.cst_3 (constant S_ .f32 0x00000000#32),
    StableHlo.TRef.binary main_call2.v8 main_call2.cst_3 main_call2.v12 (cmpf .ogt),
    StableHlo.TRef.nullary main_call2.cst_4 (constant S_ .f32 0x7FC00000#32),
    StableHlo.TRef.unary main_call2.cst_4 main_call2.call0.v0 id,
    StableHlo.TRef.unary main_call2.call0.v0 main_call2.call0.v1 (broadcastInDim S64 ![] bcast_S_S64),
    StableHlo.TRef.ternary main_call2.v12 main_call2.v11 main_call2.call0.v1 main_call2.call0.v2 (fun p a b => select (broadcastInDim S64 ![] bcast_S_S64 p) a b),
    StableHlo.unary main_v157 main_v159 (broadcastInDim S1x64 ![1] bcast_S64_S1x64_1 : (⟨S64, .f32⟩ : BufTy).Contents (Elt F) → (⟨S1x64, .f32⟩ : BufTy).Contents (Elt F)),
    StableHlo.unary main_v159 main_v160 (broadcastInDim S50000x64 ![0, 1] bcast_S1x64_S50000x64_0_1 : (⟨S1x64, .f32⟩ : BufTy).Contents (Elt F) → (⟨S50000x64, .f32⟩ : BufTy).Contents (Elt F)),
    StableHlo.binary main_v154 main_v160 main_v161 (subf : (⟨S50000x64, .f32⟩ : BufTy).Contents (Elt F) → (⟨S50000x64, .f32⟩ : BufTy).Contents (Elt F) → (⟨S50000x64, .f32⟩ : BufTy).Contents (Elt F)),
    StableHlo.nullary main_cst_29 (constant S_ .f32 0x3727C5AC#32),
    StableHlo.unary main_cst_29 main_v162 (broadcastInDim S64 ![] bcast_S_S64 : (⟨S_, .f32⟩ : BufTy).Contents (Elt F) → (⟨S64, .f32⟩ : BufTy).Contents (Elt F)),
    StableHlo.binary main_v158 main_v162 main_v163 (addf : (⟨S64, .f32⟩ : BufTy).Contents (Elt F) → (⟨S64, .f32⟩ : BufTy).Contents (Elt F) → (⟨S64, .f32⟩ : BufTy).Contents (Elt F)),
    StableHlo.unary main_v163 main_v164 (Host.rsqrt : (⟨S64, .f32⟩ : BufTy).Contents (Elt F) → (⟨S64, .f32⟩ : BufTy).Contents (Elt F)),
    StableHlo.unary main_v164 main_v165 (broadcastInDim S1x64 ![1] bcast_S64_S1x64_1 : (⟨S64, .f32⟩ : BufTy).Contents (Elt F) → (⟨S1x64, .f32⟩ : BufTy).Contents (Elt F)),
    StableHlo.unary main_v165 main_v166 (broadcastInDim S50000x64 ![0, 1] bcast_S1x64_S50000x64_0_1 : (⟨S1x64, .f32⟩ : BufTy).Contents (Elt F) → (⟨S50000x64, .f32⟩ : BufTy).Contents (Elt F)),
    StableHlo.binary main_v161 main_v166 main_v167 (mulf : (⟨S50000x64, .f32⟩ : BufTy).Contents (Elt F) → (⟨S50000x64, .f32⟩ : BufTy).Contents (Elt F) → (⟨S50000x64, .f32⟩ : BufTy).Contents (Elt F)),
    StableHlo.unary main_arg8 main_v168 ((extractStridedSlice S1x64 ![1, 0] · slices_S4x64_S1x64_1_0) : (⟨S4x64, .f32⟩ : BufTy).Contents (Elt F) → (⟨S1x64, .f32⟩ : BufTy).Contents (Elt F)),
    StableHlo.reshape main_v168 main_v169 rfl shapeCasts_S1x64_S64,
    StableHlo.unary main_v169 main_v170 (broadcastInDim S1x64 ![1] bcast_S64_S1x64_1 : (⟨S64, .f32⟩ : BufTy).Contents (Elt F) → (⟨S1x64, .f32⟩ : BufTy).Contents (Elt F)),
    StableHlo.unary main_v170 main_v171 (broadcastInDim S50000x64 ![0, 1] bcast_S1x64_S50000x64_0_1 : (⟨S1x64, .f32⟩ : BufTy).Contents (Elt F) → (⟨S50000x64, .f32⟩ : BufTy).Contents (Elt F)),
    StableHlo.binary main_v167 main_v171 main_v172 (mulf : (⟨S50000x64, .f32⟩ : BufTy).Contents (Elt F) → (⟨S50000x64, .f32⟩ : BufTy).Contents (Elt F) → (⟨S50000x64, .f32⟩ : BufTy).Contents (Elt F)),
    StableHlo.unary main_arg9 main_v173 ((extractStridedSlice S1x64 ![1, 0] · slices_S4x64_S1x64_1_0) : (⟨S4x64, .f32⟩ : BufTy).Contents (Elt F) → (⟨S1x64, .f32⟩ : BufTy).Contents (Elt F)),
    StableHlo.reshape main_v173 main_v174 rfl shapeCasts_S1x64_S64,
    StableHlo.unary main_v174 main_v175 (broadcastInDim S1x64 ![1] bcast_S64_S1x64_1 : (⟨S64, .f32⟩ : BufTy).Contents (Elt F) → (⟨S1x64, .f32⟩ : BufTy).Contents (Elt F)),
    StableHlo.unary main_v175 main_v176 (broadcastInDim S50000x64 ![0, 1] bcast_S1x64_S50000x64_0_1 : (⟨S1x64, .f32⟩ : BufTy).Contents (Elt F) → (⟨S50000x64, .f32⟩ : BufTy).Contents (Elt F)),
    StableHlo.binary main_v172 main_v176 main_v177 (addf : (⟨S50000x64, .f32⟩ : BufTy).Contents (Elt F) → (⟨S50000x64, .f32⟩ : BufTy).Contents (Elt F) → (⟨S50000x64, .f32⟩ : BufTy).Contents (Elt F)),
    StableHlo.TRef.nullary main_call3.cst (constant S_ .f32 0x00000000#32),
    StableHlo.TRef.unary main_call3.cst main_call3.v0 (broadcastInDim S50000x64 ![] bcast_S_S50000x64),
    StableHlo.TRef.binary (StableHlo.TRef.of (T := ⟨S50000x64, .f32⟩) main_v177) main_call3.v0 main_call3.v1 maximumf,
    StableHlo.binary main_v108 main_v178 main_v179 (addf : (⟨S50000x64, .f32⟩ : BufTy).Contents (Elt F) → (⟨S50000x64, .f32⟩ : BufTy).Contents (Elt F) → (⟨S50000x64, .f32⟩ : BufTy).Contents (Elt F)) ]

/-- The buffers those operations write. -/
abbrev cB1_W : List (Ref sig .tc) :=
  [main_cst_26, main_v155, main_cst_27, main_v156, main_v157, main_c_28, main_call2_cst, main_call2_v0, main_call2_v1, main_call2_cst_0, main_call2_v2, main_call2_v3, main_call2_v4, main_call2_v5, main_call2_v6, main_call2_v7, main_call2_cst_1, main_call2_v8, main_call2_cst_2, main_call2_v9, main_call2_v10, main_call2_v11, main_call2_cst_3, main_call2_v12, main_call2_cst_4, main_call2_call0_v0, main_call2_call0_v1, main_v158, main_v159, main_v160, main_v161, main_cst_29, main_v162, main_v163, main_v164, main_v165, main_v166, main_v167, main_v168, main_v169, main_v170, main_v171, main_v172, main_v173, main_v174, main_v175, main_v176, main_v177, main_call3_cst, main_call3_v0, main_v178, main_v179]

set_option maxRecDepth 8192 in
theorem cB1_writes : (cB1 : List (HloOp τ sig (Elt F))).Forall fun op =>
    op.writes ⊆ (cB1_W.map (Proc.devRef (τ := τ) .tc)).toFinset :=
  ⟨Finset.singleton_subset_iff.mpr (List.mem_toFinset.mpr (List.mem_map_of_mem (f := Proc.devRef (τ := τ) .tc) (a := main_cst_26) (by decide))),
   Finset.singleton_subset_iff.mpr (List.mem_toFinset.mpr (List.mem_map_of_mem (f := Proc.devRef (τ := τ) .tc) (a := main_v155) (by decide))),
   Finset.singleton_subset_iff.mpr (List.mem_toFinset.mpr (List.mem_map_of_mem (f := Proc.devRef (τ := τ) .tc) (a := main_cst_27) (by decide))),
   Finset.singleton_subset_iff.mpr (List.mem_toFinset.mpr (List.mem_map_of_mem (f := Proc.devRef (τ := τ) .tc) (a := main_v156) (by decide))),
   Finset.singleton_subset_iff.mpr (List.mem_toFinset.mpr (List.mem_map_of_mem (f := Proc.devRef (τ := τ) .tc) (a := main_v157) (by decide))),
   Finset.singleton_subset_iff.mpr (List.mem_toFinset.mpr (List.mem_map_of_mem (f := Proc.devRef (τ := τ) .tc) (a := main_c_28) (by decide))),
   Finset.singleton_subset_iff.mpr (List.mem_toFinset.mpr (List.mem_map_of_mem (f := Proc.devRef (τ := τ) .tc) (a := main_call2_cst) (by decide))),
   Finset.singleton_subset_iff.mpr (List.mem_toFinset.mpr (List.mem_map_of_mem (f := Proc.devRef (τ := τ) .tc) (a := main_call2_v0) (by decide))),
   Finset.singleton_subset_iff.mpr (List.mem_toFinset.mpr (List.mem_map_of_mem (f := Proc.devRef (τ := τ) .tc) (a := main_call2_v1) (by decide))),
   Finset.singleton_subset_iff.mpr (List.mem_toFinset.mpr (List.mem_map_of_mem (f := Proc.devRef (τ := τ) .tc) (a := main_call2_cst_0) (by decide))),
   Finset.singleton_subset_iff.mpr (List.mem_toFinset.mpr (List.mem_map_of_mem (f := Proc.devRef (τ := τ) .tc) (a := main_call2_v2) (by decide))),
   Finset.singleton_subset_iff.mpr (List.mem_toFinset.mpr (List.mem_map_of_mem (f := Proc.devRef (τ := τ) .tc) (a := main_call2_v3) (by decide))),
   Finset.singleton_subset_iff.mpr (List.mem_toFinset.mpr (List.mem_map_of_mem (f := Proc.devRef (τ := τ) .tc) (a := main_call2_v4) (by decide))),
   Finset.singleton_subset_iff.mpr (List.mem_toFinset.mpr (List.mem_map_of_mem (f := Proc.devRef (τ := τ) .tc) (a := main_call2_v5) (by decide))),
   Finset.singleton_subset_iff.mpr (List.mem_toFinset.mpr (List.mem_map_of_mem (f := Proc.devRef (τ := τ) .tc) (a := main_call2_v6) (by decide))),
   Finset.singleton_subset_iff.mpr (List.mem_toFinset.mpr (List.mem_map_of_mem (f := Proc.devRef (τ := τ) .tc) (a := main_call2_v7) (by decide))),
   Finset.singleton_subset_iff.mpr (List.mem_toFinset.mpr (List.mem_map_of_mem (f := Proc.devRef (τ := τ) .tc) (a := main_call2_cst_1) (by decide))),
   Finset.singleton_subset_iff.mpr (List.mem_toFinset.mpr (List.mem_map_of_mem (f := Proc.devRef (τ := τ) .tc) (a := main_call2_v8) (by decide))),
   Finset.singleton_subset_iff.mpr (List.mem_toFinset.mpr (List.mem_map_of_mem (f := Proc.devRef (τ := τ) .tc) (a := main_call2_cst_2) (by decide))),
   Finset.singleton_subset_iff.mpr (List.mem_toFinset.mpr (List.mem_map_of_mem (f := Proc.devRef (τ := τ) .tc) (a := main_call2_v9) (by decide))),
   Finset.singleton_subset_iff.mpr (List.mem_toFinset.mpr (List.mem_map_of_mem (f := Proc.devRef (τ := τ) .tc) (a := main_call2_v10) (by decide))),
   Finset.singleton_subset_iff.mpr (List.mem_toFinset.mpr (List.mem_map_of_mem (f := Proc.devRef (τ := τ) .tc) (a := main_call2_v11) (by decide))),
   Finset.singleton_subset_iff.mpr (List.mem_toFinset.mpr (List.mem_map_of_mem (f := Proc.devRef (τ := τ) .tc) (a := main_call2_cst_3) (by decide))),
   Finset.singleton_subset_iff.mpr (List.mem_toFinset.mpr (List.mem_map_of_mem (f := Proc.devRef (τ := τ) .tc) (a := main_call2_v12) (by decide))),
   Finset.singleton_subset_iff.mpr (List.mem_toFinset.mpr (List.mem_map_of_mem (f := Proc.devRef (τ := τ) .tc) (a := main_call2_cst_4) (by decide))),
   Finset.singleton_subset_iff.mpr (List.mem_toFinset.mpr (List.mem_map_of_mem (f := Proc.devRef (τ := τ) .tc) (a := main_call2_call0_v0) (by decide))),
   Finset.singleton_subset_iff.mpr (List.mem_toFinset.mpr (List.mem_map_of_mem (f := Proc.devRef (τ := τ) .tc) (a := main_call2_call0_v1) (by decide))),
   Finset.singleton_subset_iff.mpr (List.mem_toFinset.mpr (List.mem_map_of_mem (f := Proc.devRef (τ := τ) .tc) (a := main_v158) (by decide))),
   Finset.singleton_subset_iff.mpr (List.mem_toFinset.mpr (List.mem_map_of_mem (f := Proc.devRef (τ := τ) .tc) (a := main_v159) (by decide))),
   Finset.singleton_subset_iff.mpr (List.mem_toFinset.mpr (List.mem_map_of_mem (f := Proc.devRef (τ := τ) .tc) (a := main_v160) (by decide))),
   Finset.singleton_subset_iff.mpr (List.mem_toFinset.mpr (List.mem_map_of_mem (f := Proc.devRef (τ := τ) .tc) (a := main_v161) (by decide))),
   Finset.singleton_subset_iff.mpr (List.mem_toFinset.mpr (List.mem_map_of_mem (f := Proc.devRef (τ := τ) .tc) (a := main_cst_29) (by decide))),
   Finset.singleton_subset_iff.mpr (List.mem_toFinset.mpr (List.mem_map_of_mem (f := Proc.devRef (τ := τ) .tc) (a := main_v162) (by decide))),
   Finset.singleton_subset_iff.mpr (List.mem_toFinset.mpr (List.mem_map_of_mem (f := Proc.devRef (τ := τ) .tc) (a := main_v163) (by decide))),
   Finset.singleton_subset_iff.mpr (List.mem_toFinset.mpr (List.mem_map_of_mem (f := Proc.devRef (τ := τ) .tc) (a := main_v164) (by decide))),
   Finset.singleton_subset_iff.mpr (List.mem_toFinset.mpr (List.mem_map_of_mem (f := Proc.devRef (τ := τ) .tc) (a := main_v165) (by decide))),
   Finset.singleton_subset_iff.mpr (List.mem_toFinset.mpr (List.mem_map_of_mem (f := Proc.devRef (τ := τ) .tc) (a := main_v166) (by decide))),
   Finset.singleton_subset_iff.mpr (List.mem_toFinset.mpr (List.mem_map_of_mem (f := Proc.devRef (τ := τ) .tc) (a := main_v167) (by decide))),
   Finset.singleton_subset_iff.mpr (List.mem_toFinset.mpr (List.mem_map_of_mem (f := Proc.devRef (τ := τ) .tc) (a := main_v168) (by decide))),
   Finset.singleton_subset_iff.mpr (List.mem_toFinset.mpr (List.mem_map_of_mem (f := Proc.devRef (τ := τ) .tc) (a := main_v169) (by decide))),
   Finset.singleton_subset_iff.mpr (List.mem_toFinset.mpr (List.mem_map_of_mem (f := Proc.devRef (τ := τ) .tc) (a := main_v170) (by decide))),
   Finset.singleton_subset_iff.mpr (List.mem_toFinset.mpr (List.mem_map_of_mem (f := Proc.devRef (τ := τ) .tc) (a := main_v171) (by decide))),
   Finset.singleton_subset_iff.mpr (List.mem_toFinset.mpr (List.mem_map_of_mem (f := Proc.devRef (τ := τ) .tc) (a := main_v172) (by decide))),
   Finset.singleton_subset_iff.mpr (List.mem_toFinset.mpr (List.mem_map_of_mem (f := Proc.devRef (τ := τ) .tc) (a := main_v173) (by decide))),
   Finset.singleton_subset_iff.mpr (List.mem_toFinset.mpr (List.mem_map_of_mem (f := Proc.devRef (τ := τ) .tc) (a := main_v174) (by decide))),
   Finset.singleton_subset_iff.mpr (List.mem_toFinset.mpr (List.mem_map_of_mem (f := Proc.devRef (τ := τ) .tc) (a := main_v175) (by decide))),
   Finset.singleton_subset_iff.mpr (List.mem_toFinset.mpr (List.mem_map_of_mem (f := Proc.devRef (τ := τ) .tc) (a := main_v176) (by decide))),
   Finset.singleton_subset_iff.mpr (List.mem_toFinset.mpr (List.mem_map_of_mem (f := Proc.devRef (τ := τ) .tc) (a := main_v177) (by decide))),
   Finset.singleton_subset_iff.mpr (List.mem_toFinset.mpr (List.mem_map_of_mem (f := Proc.devRef (τ := τ) .tc) (a := main_call3_cst) (by decide))),
   Finset.singleton_subset_iff.mpr (List.mem_toFinset.mpr (List.mem_map_of_mem (f := Proc.devRef (τ := τ) .tc) (a := main_call3_v0) (by decide))),
   Finset.singleton_subset_iff.mpr (List.mem_toFinset.mpr (List.mem_map_of_mem (f := Proc.devRef (τ := τ) .tc) (a := main_v178) (by decide))),
   Finset.singleton_subset_iff.mpr (List.mem_toFinset.mpr (List.mem_map_of_mem (f := Proc.devRef (τ := τ) .tc) (a := main_v179) (by decide)))⟩

/-- A buffer those operations do not write keeps its contents through them. -/
theorem cB1_keep (W : Valuation τ sig (Elt F)) (r : Ref sig .tc) (h : r ∉ cB1_W) :
    after cB1 W (Proc.devRef .tc r) = W (Proc.devRef .tc r) :=
  after_of_writes_sub cB1 W cB1_writes h

set_option maxRecDepth 8192 in
set_option maxHeartbeats 4000000 in
/-- Layer 1's result from the contents before its normalization. -/
theorem cB1_v179 (W : Valuation τ sig (Elt F)) :
    after cB1 W (Proc.devRef .tc main_v179)
      = bnS (W (Proc.devRef .tc main_v154)) (W (Proc.devRef .tc main_v108)) (gamma_1 (W (Proc.devRef .tc main_arg8))) (beta_1 (W (Proc.devRef .tc main_arg9))) := by
  simp only [cB1]
  after_results_simp
  rfl

/-- The operations 259 … 310 of @main's 503. -/
abbrev cM2 : List (HloOp τ sig (Elt F)) :=
  [ StableHlo.unary main_arg10 main_v180 ((extractStridedSlice S1x2x2 ![2, 0, 0] · slices_S4x2x2_S1x2x2_2_0_0) : (⟨S4x2x2, .f32⟩ : BufTy).Contents (Elt F) → (⟨S1x2x2, .f32⟩ : BufTy).Contents (Elt F)),
    StableHlo.reshape main_v180 main_v181 rfl shapeCasts_S1x2x2_S2x2,
    StableHlo.unary main_v181 main_v182 ((transpose S2x2 [1, 0] · transposes_S2x2_S2x2_1_0) : (⟨S2x2, .f32⟩ : BufTy).Contents (Elt F) → (⟨S2x2, .f32⟩ : BufTy).Contents (Elt F)),
    StableHlo.binary main_v30 main_v182 main_v183 ((fun l r => Host.dotGeneral dot_S800000x2_S2x2_S800000x2_1_0_0_1_n_n none l r) : (⟨S800000x2, .f32⟩ : BufTy).Contents (Elt F) → (⟨S2x2, .f32⟩ : BufTy).Contents (Elt F) → (⟨S800000x2, .f32⟩ : BufTy).Contents (Elt F)),
    StableHlo.unary main_arg11 main_v184 ((extractStridedSlice S1x2 ![2, 0] · slices_S4x2_S1x2_2_0) : (⟨S4x2, .f32⟩ : BufTy).Contents (Elt F) → (⟨S1x2, .f32⟩ : BufTy).Contents (Elt F)),
    StableHlo.reshape main_v184 main_v185 rfl shapeCasts_S1x2_S2,
    StableHlo.unary main_v185 main_v186 (broadcastInDim S1x2 ![1] bcast_S2_S1x2_1 : (⟨S2, .f32⟩ : BufTy).Contents (Elt F) → (⟨S1x2, .f32⟩ : BufTy).Contents (Elt F)),
    StableHlo.unary main_v186 main_v187 (broadcastInDim S800000x2 ![0, 1] bcast_S1x2_S800000x2_0_1 : (⟨S1x2, .f32⟩ : BufTy).Contents (Elt F) → (⟨S800000x2, .f32⟩ : BufTy).Contents (Elt F)),
    StableHlo.binary main_v183 main_v187 main_v188 (addf : (⟨S800000x2, .f32⟩ : BufTy).Contents (Elt F) → (⟨S800000x2, .f32⟩ : BufTy).Contents (Elt F) → (⟨S800000x2, .f32⟩ : BufTy).Contents (Elt F)),
    StableHlo.unary main_v188 main_v189 (Host.tanh : (⟨S800000x2, .f32⟩ : BufTy).Contents (Elt F) → (⟨S800000x2, .f32⟩ : BufTy).Contents (Elt F)),
    StableHlo.unary main_v189 main_v190 (broadcastInDim S800000x1x2 ![0, 2] bcast_S800000x2_S800000x1x2_0_2 : (⟨S800000x2, .f32⟩ : BufTy).Contents (Elt F) → (⟨S800000x1x2, .f32⟩ : BufTy).Contents (Elt F)),
    StableHlo.unary main_arg6 main_v191 ((extractStridedSlice S1x3x2 ![2, 0, 0] · slices_S4x3x2_S1x3x2_2_0_0) : (⟨S4x3x2, .f32⟩ : BufTy).Contents (Elt F) → (⟨S1x3x2, .f32⟩ : BufTy).Contents (Elt F)),
    StableHlo.reshape main_v191 main_v192 rfl shapeCasts_S1x3x2_S3x2,
    StableHlo.unary main_v192 main_v193 (broadcastInDim S1x3x2 ![1, 2] bcast_S3x2_S1x3x2_1_2 : (⟨S3x2, .f32⟩ : BufTy).Contents (Elt F) → (⟨S1x3x2, .f32⟩ : BufTy).Contents (Elt F)),
    StableHlo.unary main_v190 main_v194 (broadcastInDim S800000x3x2 ![0, 1, 2] bcast_S800000x1x2_S800000x3x2_0_1_2 : (⟨S800000x1x2, .f32⟩ : BufTy).Contents (Elt F) → (⟨S800000x3x2, .f32⟩ : BufTy).Contents (Elt F)),
    StableHlo.unary main_v193 main_v195 (broadcastInDim S800000x3x2 ![0, 1, 2] bcast_S1x3x2_S800000x3x2_0_1_2 : (⟨S1x3x2, .f32⟩ : BufTy).Contents (Elt F) → (⟨S800000x3x2, .f32⟩ : BufTy).Contents (Elt F)),
    StableHlo.binary main_v194 main_v195 main_v196 (subf : (⟨S800000x3x2, .f32⟩ : BufTy).Contents (Elt F) → (⟨S800000x3x2, .f32⟩ : BufTy).Contents (Elt F) → (⟨S800000x3x2, .f32⟩ : BufTy).Contents (Elt F)),
    StableHlo.unary main_arg7 main_v197 ((extractStridedSlice S1x3x2 ![2, 0, 0] · slices_S4x3x2_S1x3x2_2_0_0) : (⟨S4x3x2, .f32⟩ : BufTy).Contents (Elt F) → (⟨S1x3x2, .f32⟩ : BufTy).Contents (Elt F)),
    StableHlo.reshape main_v197 main_v198 rfl shapeCasts_S1x3x2_S3x2,
    StableHlo.unary main_v198 main_v199 (broadcastInDim S1x3x2 ![1, 2] bcast_S3x2_S1x3x2_1_2 : (⟨S3x2, .f32⟩ : BufTy).Contents (Elt F) → (⟨S1x3x2, .f32⟩ : BufTy).Contents (Elt F)),
    StableHlo.unary main_v199 main_v200 (broadcastInDim S800000x3x2 ![0, 1, 2] bcast_S1x3x2_S800000x3x2_0_1_2 : (⟨S1x3x2, .f32⟩ : BufTy).Contents (Elt F) → (⟨S800000x3x2, .f32⟩ : BufTy).Contents (Elt F)),
    StableHlo.binary main_v196 main_v200 main_v201 (mulf : (⟨S800000x3x2, .f32⟩ : BufTy).Contents (Elt F) → (⟨S800000x3x2, .f32⟩ : BufTy).Contents (Elt F) → (⟨S800000x3x2, .f32⟩ : BufTy).Contents (Elt F)),
    StableHlo.binary main_v201 main_v201 main_v202 (mulf : (⟨S800000x3x2, .f32⟩ : BufTy).Contents (Elt F) → (⟨S800000x3x2, .f32⟩ : BufTy).Contents (Elt F) → (⟨S800000x3x2, .f32⟩ : BufTy).Contents (Elt F)),
    StableHlo.nullary main_cst_30 (constant S_ .f32 0x00000000#32),
    StableHlo.binary main_v202 main_cst_30 main_v203 ((fun x v => Host.reduceAdd x v reducesTo_S800000x3x2_S800000x3_d2 h_S_) : (⟨S800000x3x2, .f32⟩ : BufTy).Contents (Elt F) → (⟨S_, .f32⟩ : BufTy).Contents (Elt F) → (⟨S800000x3, .f32⟩ : BufTy).Contents (Elt F)),
    StableHlo.nullary main_cst_31 (constant S_ .f32 0xBF000000#32),
    StableHlo.unary main_cst_31 main_v204 (broadcastInDim S800000x3 ![] bcast_S_S800000x3 : (⟨S_, .f32⟩ : BufTy).Contents (Elt F) → (⟨S800000x3, .f32⟩ : BufTy).Contents (Elt F)),
    StableHlo.binary main_v204 main_v203 main_v205 (mulf : (⟨S800000x3, .f32⟩ : BufTy).Contents (Elt F) → (⟨S800000x3, .f32⟩ : BufTy).Contents (Elt F) → (⟨S800000x3, .f32⟩ : BufTy).Contents (Elt F)),
    StableHlo.unary main_v205 main_v206 (Host.exp : (⟨S800000x3, .f32⟩ : BufTy).Contents (Elt F) → (⟨S800000x3, .f32⟩ : BufTy).Contents (Elt F)),
    StableHlo.unary main_arg5 main_v207 ((extractStridedSlice S1x192x64 ![2, 0, 0] · slices_S4x192x64_S1x192x64_2_0_0) : (⟨S4x192x64, .f32⟩ : BufTy).Contents (Elt F) → (⟨S1x192x64, .f32⟩ : BufTy).Contents (Elt F)),
    StableHlo.reshape main_v207 main_v208 rfl shapeCasts_S1x192x64_S192x64,
    StableHlo.unary main_v208 main_v209 ((transpose S64x192 [1, 0] · transposes_S192x64_S64x192_1_0) : (⟨S192x64, .f32⟩ : BufTy).Contents (Elt F) → (⟨S64x192, .f32⟩ : BufTy).Contents (Elt F)),
    StableHlo.binary main_v179 main_v209 main_v210 ((fun l r => Host.dotGeneral dot_S50000x64_S64x192_S50000x192_1_0_0_1_n_n none l r) : (⟨S50000x64, .f32⟩ : BufTy).Contents (Elt F) → (⟨S64x192, .f32⟩ : BufTy).Contents (Elt F) → (⟨S50000x192, .f32⟩ : BufTy).Contents (Elt F)),
    StableHlo.reshape main_v210 main_v211 rfl shapeCasts_S50000x192_S50000x3x64,
    StableHlo.nullary main_c_32 (constantI S_ 32 0#32),
    StableHlo.unary main_c_32 main_v212 (broadcastInDim S800000 ![] bcast_S_S800000 : (⟨S_, .i32⟩ : BufTy).Contents (Elt F) → (⟨S800000, .i32⟩ : BufTy).Contents (Elt F)),
    StableHlo.binary main_arg1 main_v212 main_v213 (cmpi .slt : (⟨S800000, .i32⟩ : BufTy).Contents (Elt F) → (⟨S800000, .i32⟩ : BufTy).Contents (Elt F) → (⟨S800000, .i1⟩ : BufTy).Contents (Elt F)),
    StableHlo.nullary main_c_33 (constantI S_ 32 50000#32),
    StableHlo.unary main_c_33 main_v214 (broadcastInDim S800000 ![] bcast_S_S800000 : (⟨S_, .i32⟩ : BufTy).Contents (Elt F) → (⟨S800000, .i32⟩ : BufTy).Contents (Elt F)),
    StableHlo.binary main_arg1 main_v214 main_v215 (addi : (⟨S800000, .i32⟩ : BufTy).Contents (Elt F) → (⟨S800000, .i32⟩ : BufTy).Contents (Elt F) → (⟨S800000, .i32⟩ : BufTy).Contents (Elt F)),
    StableHlo.ternary main_v213 main_v215 main_arg1 main_v216 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v216 main_v217 (broadcastInDim S800000x1 ![0] bcast_S800000_S800000x1_0 : (⟨S800000, .i32⟩ : BufTy).Contents (Elt F) → (⟨S800000x1, .i32⟩ : BufTy).Contents (Elt F)),
    StableHlo.binary main_v211 main_v217 main_v218 ((fun x i => Host.gather gather_S50000x3x64_S800000x1_S800000x3x64_12_0_n_n_0_1_1364 x i) : (⟨S50000x3x64, .f32⟩ : BufTy).Contents (Elt F) → (⟨S800000x1, .i32⟩ : BufTy).Contents (Elt F) → (⟨S800000x3x64, .f32⟩ : BufTy).Contents (Elt F)),
    StableHlo.unary main_v206 main_v219 (broadcastInDim S800000x3x1 ![0, 1] bcast_S800000x3_S800000x3x1_0_1 : (⟨S800000x3, .f32⟩ : BufTy).Contents (Elt F) → (⟨S800000x3x1, .f32⟩ : BufTy).Contents (Elt F)),
    StableHlo.unary main_v219 main_v220 (broadcastInDim S800000x3x64 ![0, 1, 2] bcast_S800000x3x1_S800000x3x64_0_1_2 : (⟨S800000x3x1, .f32⟩ : BufTy).Contents (Elt F) → (⟨S800000x3x64, .f32⟩ : BufTy).Contents (Elt F)),
    StableHlo.binary main_v218 main_v220 main_v221 (mulf : (⟨S800000x3x64, .f32⟩ : BufTy).Contents (Elt F) → (⟨S800000x3x64, .f32⟩ : BufTy).Contents (Elt F) → (⟨S800000x3x64, .f32⟩ : BufTy).Contents (Elt F)),
    StableHlo.nullary main_cst_34 (constant S_ .f32 0x00000000#32),
    StableHlo.unary main_cst_34 main_v222 (broadcastInDim S50000x3x64 ![] bcast_S_S50000x3x64 : (⟨S_, .f32⟩ : BufTy).Contents (Elt F) → (⟨S50000x3x64, .f32⟩ : BufTy).Contents (Elt F)),
    StableHlo.unary main_arg2 main_v223 (broadcastInDim S800000x1 ![0] bcast_S800000_S800000x1_0 : (⟨S800000, .i32⟩ : BufTy).Contents (Elt F) → (⟨S800000x1, .i32⟩ : BufTy).Contents (Elt F)),
    StableHlo.ternary main_v222 main_v223 main_v221 main_v224 ((fun x i u => Host.scatterAdd scatter_S50000x3x64_S800000x1_S800000x3x64_12_0_0_1 x i u) : (⟨S50000x3x64, .f32⟩ : BufTy).Contents (Elt F) → (⟨S800000x1, .i32⟩ : BufTy).Contents (Elt F) → (⟨S800000x3x64, .f32⟩ : BufTy).Contents (Elt F) → (⟨S50000x3x64, .f32⟩ : BufTy).Contents (Elt F)),
    StableHlo.nullary main_cst_35 (constant S_ .f32 0x00000000#32),
    StableHlo.binary main_v224 main_cst_35 main_v225 ((fun x v => Host.reduceAdd x v reducesTo_S50000x3x64_S50000x64_d1 h_S_) : (⟨S50000x3x64, .f32⟩ : BufTy).Contents (Elt F) → (⟨S_, .f32⟩ : BufTy).Contents (Elt F) → (⟨S50000x64, .f32⟩ : BufTy).Contents (Elt F)) ]

/-- The buffers those operations write. -/
abbrev cM2_W : List (Ref sig .tc) :=
  [main_v180, main_v181, main_v182, main_v183, main_v184, main_v185, main_v186, main_v187, main_v188, main_v189, main_v190, main_v191, main_v192, main_v193, main_v194, main_v195, main_v196, main_v197, main_v198, main_v199, main_v200, main_v201, main_v202, main_cst_30, main_v203, main_cst_31, main_v204, main_v205, main_v206, main_v207, main_v208, main_v209, main_v210, main_v211, main_c_32, main_v212, main_v213, main_c_33, main_v214, main_v215, main_v216, main_v217, main_v218, main_v219, main_v220, main_v221, main_cst_34, main_v222, main_v223, main_v224, main_cst_35, main_v225]

set_option maxRecDepth 8192 in
theorem cM2_writes : (cM2 : List (HloOp τ sig (Elt F))).Forall fun op =>
    op.writes ⊆ (cM2_W.map (Proc.devRef (τ := τ) .tc)).toFinset :=
  ⟨Finset.singleton_subset_iff.mpr (List.mem_toFinset.mpr (List.mem_map_of_mem (f := Proc.devRef (τ := τ) .tc) (a := main_v180) (by decide))),
   Finset.singleton_subset_iff.mpr (List.mem_toFinset.mpr (List.mem_map_of_mem (f := Proc.devRef (τ := τ) .tc) (a := main_v181) (by decide))),
   Finset.singleton_subset_iff.mpr (List.mem_toFinset.mpr (List.mem_map_of_mem (f := Proc.devRef (τ := τ) .tc) (a := main_v182) (by decide))),
   Finset.singleton_subset_iff.mpr (List.mem_toFinset.mpr (List.mem_map_of_mem (f := Proc.devRef (τ := τ) .tc) (a := main_v183) (by decide))),
   Finset.singleton_subset_iff.mpr (List.mem_toFinset.mpr (List.mem_map_of_mem (f := Proc.devRef (τ := τ) .tc) (a := main_v184) (by decide))),
   Finset.singleton_subset_iff.mpr (List.mem_toFinset.mpr (List.mem_map_of_mem (f := Proc.devRef (τ := τ) .tc) (a := main_v185) (by decide))),
   Finset.singleton_subset_iff.mpr (List.mem_toFinset.mpr (List.mem_map_of_mem (f := Proc.devRef (τ := τ) .tc) (a := main_v186) (by decide))),
   Finset.singleton_subset_iff.mpr (List.mem_toFinset.mpr (List.mem_map_of_mem (f := Proc.devRef (τ := τ) .tc) (a := main_v187) (by decide))),
   Finset.singleton_subset_iff.mpr (List.mem_toFinset.mpr (List.mem_map_of_mem (f := Proc.devRef (τ := τ) .tc) (a := main_v188) (by decide))),
   Finset.singleton_subset_iff.mpr (List.mem_toFinset.mpr (List.mem_map_of_mem (f := Proc.devRef (τ := τ) .tc) (a := main_v189) (by decide))),
   Finset.singleton_subset_iff.mpr (List.mem_toFinset.mpr (List.mem_map_of_mem (f := Proc.devRef (τ := τ) .tc) (a := main_v190) (by decide))),
   Finset.singleton_subset_iff.mpr (List.mem_toFinset.mpr (List.mem_map_of_mem (f := Proc.devRef (τ := τ) .tc) (a := main_v191) (by decide))),
   Finset.singleton_subset_iff.mpr (List.mem_toFinset.mpr (List.mem_map_of_mem (f := Proc.devRef (τ := τ) .tc) (a := main_v192) (by decide))),
   Finset.singleton_subset_iff.mpr (List.mem_toFinset.mpr (List.mem_map_of_mem (f := Proc.devRef (τ := τ) .tc) (a := main_v193) (by decide))),
   Finset.singleton_subset_iff.mpr (List.mem_toFinset.mpr (List.mem_map_of_mem (f := Proc.devRef (τ := τ) .tc) (a := main_v194) (by decide))),
   Finset.singleton_subset_iff.mpr (List.mem_toFinset.mpr (List.mem_map_of_mem (f := Proc.devRef (τ := τ) .tc) (a := main_v195) (by decide))),
   Finset.singleton_subset_iff.mpr (List.mem_toFinset.mpr (List.mem_map_of_mem (f := Proc.devRef (τ := τ) .tc) (a := main_v196) (by decide))),
   Finset.singleton_subset_iff.mpr (List.mem_toFinset.mpr (List.mem_map_of_mem (f := Proc.devRef (τ := τ) .tc) (a := main_v197) (by decide))),
   Finset.singleton_subset_iff.mpr (List.mem_toFinset.mpr (List.mem_map_of_mem (f := Proc.devRef (τ := τ) .tc) (a := main_v198) (by decide))),
   Finset.singleton_subset_iff.mpr (List.mem_toFinset.mpr (List.mem_map_of_mem (f := Proc.devRef (τ := τ) .tc) (a := main_v199) (by decide))),
   Finset.singleton_subset_iff.mpr (List.mem_toFinset.mpr (List.mem_map_of_mem (f := Proc.devRef (τ := τ) .tc) (a := main_v200) (by decide))),
   Finset.singleton_subset_iff.mpr (List.mem_toFinset.mpr (List.mem_map_of_mem (f := Proc.devRef (τ := τ) .tc) (a := main_v201) (by decide))),
   Finset.singleton_subset_iff.mpr (List.mem_toFinset.mpr (List.mem_map_of_mem (f := Proc.devRef (τ := τ) .tc) (a := main_v202) (by decide))),
   Finset.singleton_subset_iff.mpr (List.mem_toFinset.mpr (List.mem_map_of_mem (f := Proc.devRef (τ := τ) .tc) (a := main_cst_30) (by decide))),
   Finset.singleton_subset_iff.mpr (List.mem_toFinset.mpr (List.mem_map_of_mem (f := Proc.devRef (τ := τ) .tc) (a := main_v203) (by decide))),
   Finset.singleton_subset_iff.mpr (List.mem_toFinset.mpr (List.mem_map_of_mem (f := Proc.devRef (τ := τ) .tc) (a := main_cst_31) (by decide))),
   Finset.singleton_subset_iff.mpr (List.mem_toFinset.mpr (List.mem_map_of_mem (f := Proc.devRef (τ := τ) .tc) (a := main_v204) (by decide))),
   Finset.singleton_subset_iff.mpr (List.mem_toFinset.mpr (List.mem_map_of_mem (f := Proc.devRef (τ := τ) .tc) (a := main_v205) (by decide))),
   Finset.singleton_subset_iff.mpr (List.mem_toFinset.mpr (List.mem_map_of_mem (f := Proc.devRef (τ := τ) .tc) (a := main_v206) (by decide))),
   Finset.singleton_subset_iff.mpr (List.mem_toFinset.mpr (List.mem_map_of_mem (f := Proc.devRef (τ := τ) .tc) (a := main_v207) (by decide))),
   Finset.singleton_subset_iff.mpr (List.mem_toFinset.mpr (List.mem_map_of_mem (f := Proc.devRef (τ := τ) .tc) (a := main_v208) (by decide))),
   Finset.singleton_subset_iff.mpr (List.mem_toFinset.mpr (List.mem_map_of_mem (f := Proc.devRef (τ := τ) .tc) (a := main_v209) (by decide))),
   Finset.singleton_subset_iff.mpr (List.mem_toFinset.mpr (List.mem_map_of_mem (f := Proc.devRef (τ := τ) .tc) (a := main_v210) (by decide))),
   Finset.singleton_subset_iff.mpr (List.mem_toFinset.mpr (List.mem_map_of_mem (f := Proc.devRef (τ := τ) .tc) (a := main_v211) (by decide))),
   Finset.singleton_subset_iff.mpr (List.mem_toFinset.mpr (List.mem_map_of_mem (f := Proc.devRef (τ := τ) .tc) (a := main_c_32) (by decide))),
   Finset.singleton_subset_iff.mpr (List.mem_toFinset.mpr (List.mem_map_of_mem (f := Proc.devRef (τ := τ) .tc) (a := main_v212) (by decide))),
   Finset.singleton_subset_iff.mpr (List.mem_toFinset.mpr (List.mem_map_of_mem (f := Proc.devRef (τ := τ) .tc) (a := main_v213) (by decide))),
   Finset.singleton_subset_iff.mpr (List.mem_toFinset.mpr (List.mem_map_of_mem (f := Proc.devRef (τ := τ) .tc) (a := main_c_33) (by decide))),
   Finset.singleton_subset_iff.mpr (List.mem_toFinset.mpr (List.mem_map_of_mem (f := Proc.devRef (τ := τ) .tc) (a := main_v214) (by decide))),
   Finset.singleton_subset_iff.mpr (List.mem_toFinset.mpr (List.mem_map_of_mem (f := Proc.devRef (τ := τ) .tc) (a := main_v215) (by decide))),
   Finset.singleton_subset_iff.mpr (List.mem_toFinset.mpr (List.mem_map_of_mem (f := Proc.devRef (τ := τ) .tc) (a := main_v216) (by decide))),
   Finset.singleton_subset_iff.mpr (List.mem_toFinset.mpr (List.mem_map_of_mem (f := Proc.devRef (τ := τ) .tc) (a := main_v217) (by decide))),
   Finset.singleton_subset_iff.mpr (List.mem_toFinset.mpr (List.mem_map_of_mem (f := Proc.devRef (τ := τ) .tc) (a := main_v218) (by decide))),
   Finset.singleton_subset_iff.mpr (List.mem_toFinset.mpr (List.mem_map_of_mem (f := Proc.devRef (τ := τ) .tc) (a := main_v219) (by decide))),
   Finset.singleton_subset_iff.mpr (List.mem_toFinset.mpr (List.mem_map_of_mem (f := Proc.devRef (τ := τ) .tc) (a := main_v220) (by decide))),
   Finset.singleton_subset_iff.mpr (List.mem_toFinset.mpr (List.mem_map_of_mem (f := Proc.devRef (τ := τ) .tc) (a := main_v221) (by decide))),
   Finset.singleton_subset_iff.mpr (List.mem_toFinset.mpr (List.mem_map_of_mem (f := Proc.devRef (τ := τ) .tc) (a := main_cst_34) (by decide))),
   Finset.singleton_subset_iff.mpr (List.mem_toFinset.mpr (List.mem_map_of_mem (f := Proc.devRef (τ := τ) .tc) (a := main_v222) (by decide))),
   Finset.singleton_subset_iff.mpr (List.mem_toFinset.mpr (List.mem_map_of_mem (f := Proc.devRef (τ := τ) .tc) (a := main_v223) (by decide))),
   Finset.singleton_subset_iff.mpr (List.mem_toFinset.mpr (List.mem_map_of_mem (f := Proc.devRef (τ := τ) .tc) (a := main_v224) (by decide))),
   Finset.singleton_subset_iff.mpr (List.mem_toFinset.mpr (List.mem_map_of_mem (f := Proc.devRef (τ := τ) .tc) (a := main_cst_35) (by decide))),
   Finset.singleton_subset_iff.mpr (List.mem_toFinset.mpr (List.mem_map_of_mem (f := Proc.devRef (τ := τ) .tc) (a := main_v225) (by decide)))⟩

/-- A buffer those operations do not write keeps its contents through them. -/
theorem cM2_keep (W : Valuation τ sig (Elt F)) (r : Ref sig .tc) (h : r ∉ cM2_W) :
    after cM2 W (Proc.devRef .tc r) = W (Proc.devRef .tc r) :=
  after_of_writes_sub cM2 W cM2_writes h

set_option maxRecDepth 8192 in
set_option maxHeartbeats 4000000 in
/-- Layer 2's aggregate from the contents before its operations. -/
theorem cM2_v225 (W : Valuation τ sig (Elt F)) :
    after cM2 W (Proc.devRef .tc main_v225)
      = aggS (msgS (hkSrcS (hkS (W (Proc.devRef .tc main_v179)) (W_2 (W (Proc.devRef .tc main_arg5)))) (W (Proc.devRef .tc main_arg1))) (gaussS (uS (W (Proc.devRef .tc main_v30)) (A_2 (W (Proc.devRef .tc main_arg10))) (bvec_2 (W (Proc.devRef .tc main_arg11)))) (mu_2 (W (Proc.devRef .tc main_arg6))) (sg_2 (W (Proc.devRef .tc main_arg7))))) (W (Proc.devRef .tc main_arg2)) := by
  simp only [cM2]
  after_results_simp
  rfl

/-- The operations 311 … 362 of @main's 503. -/
abbrev cB2 : List (HloOp τ sig (Elt F)) :=
  [ StableHlo.nullary main_cst_36 (constant S_ .f32 0x00000000#32),
    StableHlo.binary main_v225 main_cst_36 main_v226 ((fun x v => Host.reduceAdd x v reducesTo_S50000x64_S64_d0 h_S_) : (⟨S50000x64, .f32⟩ : BufTy).Contents (Elt F) → (⟨S_, .f32⟩ : BufTy).Contents (Elt F) → (⟨S64, .f32⟩ : BufTy).Contents (Elt F)),
    StableHlo.nullary main_cst_37 (constant S_ .f32 0x47435000#32),
    StableHlo.unary main_cst_37 main_v227 (broadcastInDim S64 ![] bcast_S_S64 : (⟨S_, .f32⟩ : BufTy).Contents (Elt F) → (⟨S64, .f32⟩ : BufTy).Contents (Elt F)),
    StableHlo.binary main_v226 main_v227 main_v228 (Host.divf : (⟨S64, .f32⟩ : BufTy).Contents (Elt F) → (⟨S64, .f32⟩ : BufTy).Contents (Elt F) → (⟨S64, .f32⟩ : BufTy).Contents (Elt F)),
    StableHlo.nullary main_c_38 (constantI S_ 32 0#32),
    StableHlo.TRef.nullary main_call4.cst (constant S_ .f32 0x00000000#32),
    StableHlo.TRef.binary (StableHlo.TRef.of (T := ⟨S50000x64, .f32⟩) main_v225) main_call4.cst main_call4.v0 (fun x v => Host.reduceAdd x v reducesTo_S50000x64_S64_d0 h_S_),
    StableHlo.TRef.unary main_call4.v0 main_call4.v1 (broadcastInDim S1x64 ![1] bcast_S64_S1x64_1),
    StableHlo.TRef.nullary main_call4.cst_0 (constant S_ .f32 0x47435000#32),
    StableHlo.TRef.unary main_call4.cst_0 main_call4.v2 (broadcastInDim S1x64 ![] bcast_S_S1x64),
    StableHlo.TRef.binary main_call4.v1 main_call4.v2 main_call4.v3 Host.divf,
    StableHlo.TRef.unary main_call4.v3 main_call4.v4 (broadcastInDim S50000x64 ![0, 1] bcast_S1x64_S50000x64_0_1),
    StableHlo.TRef.binary (StableHlo.TRef.of (T := ⟨S50000x64, .f32⟩) main_v225) main_call4.v4 main_call4.v5 subf,
    StableHlo.TRef.binary main_call4.v5 main_call4.v5 main_call4.v6 mulf,
    StableHlo.TRef.unary (StableHlo.TRef.of (T := ⟨S_, .i32⟩) main_c_38) main_call4.v7 (sitofp .f32),
    StableHlo.TRef.nullary main_call4.cst_1 (constant S_ .f32 0x47435000#32),
    StableHlo.TRef.binary main_call4.cst_1 main_call4.v7 main_call4.v8 subf,
    StableHlo.TRef.nullary main_call4.cst_2 (constant S_ .f32 0x00000000#32),
    StableHlo.TRef.binary main_call4.v6 main_call4.cst_2 main_call4.v9 (fun x v => Host.reduceAdd x v reducesTo_S50000x64_S64_d0 h_S_),
    StableHlo.TRef.unary main_call4.v8 main_call4.v10 (broadcastInDim S64 ![] bcast_S_S64),
    StableHlo.TRef.binary main_call4.v9 main_call4.v10 main_call4.v11 Host.divf,
    StableHlo.TRef.nullary main_call4.cst_3 (constant S_ .f32 0x00000000#32),
    StableHlo.TRef.binary main_call4.v8 main_call4.cst_3 main_call4.v12 (cmpf .ogt),
    StableHlo.TRef.nullary main_call4.cst_4 (constant S_ .f32 0x7FC00000#32),
    StableHlo.TRef.unary main_call4.cst_4 main_call4.call0.v0 id,
    StableHlo.TRef.unary main_call4.call0.v0 main_call4.call0.v1 (broadcastInDim S64 ![] bcast_S_S64),
    StableHlo.TRef.ternary main_call4.v12 main_call4.v11 main_call4.call0.v1 main_call4.call0.v2 (fun p a b => select (broadcastInDim S64 ![] bcast_S_S64 p) a b),
    StableHlo.unary main_v228 main_v230 (broadcastInDim S1x64 ![1] bcast_S64_S1x64_1 : (⟨S64, .f32⟩ : BufTy).Contents (Elt F) → (⟨S1x64, .f32⟩ : BufTy).Contents (Elt F)),
    StableHlo.unary main_v230 main_v231 (broadcastInDim S50000x64 ![0, 1] bcast_S1x64_S50000x64_0_1 : (⟨S1x64, .f32⟩ : BufTy).Contents (Elt F) → (⟨S50000x64, .f32⟩ : BufTy).Contents (Elt F)),
    StableHlo.binary main_v225 main_v231 main_v232 (subf : (⟨S50000x64, .f32⟩ : BufTy).Contents (Elt F) → (⟨S50000x64, .f32⟩ : BufTy).Contents (Elt F) → (⟨S50000x64, .f32⟩ : BufTy).Contents (Elt F)),
    StableHlo.nullary main_cst_39 (constant S_ .f32 0x3727C5AC#32),
    StableHlo.unary main_cst_39 main_v233 (broadcastInDim S64 ![] bcast_S_S64 : (⟨S_, .f32⟩ : BufTy).Contents (Elt F) → (⟨S64, .f32⟩ : BufTy).Contents (Elt F)),
    StableHlo.binary main_v229 main_v233 main_v234 (addf : (⟨S64, .f32⟩ : BufTy).Contents (Elt F) → (⟨S64, .f32⟩ : BufTy).Contents (Elt F) → (⟨S64, .f32⟩ : BufTy).Contents (Elt F)),
    StableHlo.unary main_v234 main_v235 (Host.rsqrt : (⟨S64, .f32⟩ : BufTy).Contents (Elt F) → (⟨S64, .f32⟩ : BufTy).Contents (Elt F)),
    StableHlo.unary main_v235 main_v236 (broadcastInDim S1x64 ![1] bcast_S64_S1x64_1 : (⟨S64, .f32⟩ : BufTy).Contents (Elt F) → (⟨S1x64, .f32⟩ : BufTy).Contents (Elt F)),
    StableHlo.unary main_v236 main_v237 (broadcastInDim S50000x64 ![0, 1] bcast_S1x64_S50000x64_0_1 : (⟨S1x64, .f32⟩ : BufTy).Contents (Elt F) → (⟨S50000x64, .f32⟩ : BufTy).Contents (Elt F)),
    StableHlo.binary main_v232 main_v237 main_v238 (mulf : (⟨S50000x64, .f32⟩ : BufTy).Contents (Elt F) → (⟨S50000x64, .f32⟩ : BufTy).Contents (Elt F) → (⟨S50000x64, .f32⟩ : BufTy).Contents (Elt F)),
    StableHlo.unary main_arg8 main_v239 ((extractStridedSlice S1x64 ![2, 0] · slices_S4x64_S1x64_2_0) : (⟨S4x64, .f32⟩ : BufTy).Contents (Elt F) → (⟨S1x64, .f32⟩ : BufTy).Contents (Elt F)),
    StableHlo.reshape main_v239 main_v240 rfl shapeCasts_S1x64_S64,
    StableHlo.unary main_v240 main_v241 (broadcastInDim S1x64 ![1] bcast_S64_S1x64_1 : (⟨S64, .f32⟩ : BufTy).Contents (Elt F) → (⟨S1x64, .f32⟩ : BufTy).Contents (Elt F)),
    StableHlo.unary main_v241 main_v242 (broadcastInDim S50000x64 ![0, 1] bcast_S1x64_S50000x64_0_1 : (⟨S1x64, .f32⟩ : BufTy).Contents (Elt F) → (⟨S50000x64, .f32⟩ : BufTy).Contents (Elt F)),
    StableHlo.binary main_v238 main_v242 main_v243 (mulf : (⟨S50000x64, .f32⟩ : BufTy).Contents (Elt F) → (⟨S50000x64, .f32⟩ : BufTy).Contents (Elt F) → (⟨S50000x64, .f32⟩ : BufTy).Contents (Elt F)),
    StableHlo.unary main_arg9 main_v244 ((extractStridedSlice S1x64 ![2, 0] · slices_S4x64_S1x64_2_0) : (⟨S4x64, .f32⟩ : BufTy).Contents (Elt F) → (⟨S1x64, .f32⟩ : BufTy).Contents (Elt F)),
    StableHlo.reshape main_v244 main_v245 rfl shapeCasts_S1x64_S64,
    StableHlo.unary main_v245 main_v246 (broadcastInDim S1x64 ![1] bcast_S64_S1x64_1 : (⟨S64, .f32⟩ : BufTy).Contents (Elt F) → (⟨S1x64, .f32⟩ : BufTy).Contents (Elt F)),
    StableHlo.unary main_v246 main_v247 (broadcastInDim S50000x64 ![0, 1] bcast_S1x64_S50000x64_0_1 : (⟨S1x64, .f32⟩ : BufTy).Contents (Elt F) → (⟨S50000x64, .f32⟩ : BufTy).Contents (Elt F)),
    StableHlo.binary main_v243 main_v247 main_v248 (addf : (⟨S50000x64, .f32⟩ : BufTy).Contents (Elt F) → (⟨S50000x64, .f32⟩ : BufTy).Contents (Elt F) → (⟨S50000x64, .f32⟩ : BufTy).Contents (Elt F)),
    StableHlo.TRef.nullary main_call5.cst (constant S_ .f32 0x00000000#32),
    StableHlo.TRef.unary main_call5.cst main_call5.v0 (broadcastInDim S50000x64 ![] bcast_S_S50000x64),
    StableHlo.TRef.binary (StableHlo.TRef.of (T := ⟨S50000x64, .f32⟩) main_v248) main_call5.v0 main_call5.v1 maximumf,
    StableHlo.binary main_v179 main_v249 main_v250 (addf : (⟨S50000x64, .f32⟩ : BufTy).Contents (Elt F) → (⟨S50000x64, .f32⟩ : BufTy).Contents (Elt F) → (⟨S50000x64, .f32⟩ : BufTy).Contents (Elt F)) ]

/-- The buffers those operations write. -/
abbrev cB2_W : List (Ref sig .tc) :=
  [main_cst_36, main_v226, main_cst_37, main_v227, main_v228, main_c_38, main_call4_cst, main_call4_v0, main_call4_v1, main_call4_cst_0, main_call4_v2, main_call4_v3, main_call4_v4, main_call4_v5, main_call4_v6, main_call4_v7, main_call4_cst_1, main_call4_v8, main_call4_cst_2, main_call4_v9, main_call4_v10, main_call4_v11, main_call4_cst_3, main_call4_v12, main_call4_cst_4, main_call4_call0_v0, main_call4_call0_v1, main_v229, main_v230, main_v231, main_v232, main_cst_39, main_v233, main_v234, main_v235, main_v236, main_v237, main_v238, main_v239, main_v240, main_v241, main_v242, main_v243, main_v244, main_v245, main_v246, main_v247, main_v248, main_call5_cst, main_call5_v0, main_v249, main_v250]

set_option maxRecDepth 8192 in
theorem cB2_writes : (cB2 : List (HloOp τ sig (Elt F))).Forall fun op =>
    op.writes ⊆ (cB2_W.map (Proc.devRef (τ := τ) .tc)).toFinset :=
  ⟨Finset.singleton_subset_iff.mpr (List.mem_toFinset.mpr (List.mem_map_of_mem (f := Proc.devRef (τ := τ) .tc) (a := main_cst_36) (by decide))),
   Finset.singleton_subset_iff.mpr (List.mem_toFinset.mpr (List.mem_map_of_mem (f := Proc.devRef (τ := τ) .tc) (a := main_v226) (by decide))),
   Finset.singleton_subset_iff.mpr (List.mem_toFinset.mpr (List.mem_map_of_mem (f := Proc.devRef (τ := τ) .tc) (a := main_cst_37) (by decide))),
   Finset.singleton_subset_iff.mpr (List.mem_toFinset.mpr (List.mem_map_of_mem (f := Proc.devRef (τ := τ) .tc) (a := main_v227) (by decide))),
   Finset.singleton_subset_iff.mpr (List.mem_toFinset.mpr (List.mem_map_of_mem (f := Proc.devRef (τ := τ) .tc) (a := main_v228) (by decide))),
   Finset.singleton_subset_iff.mpr (List.mem_toFinset.mpr (List.mem_map_of_mem (f := Proc.devRef (τ := τ) .tc) (a := main_c_38) (by decide))),
   Finset.singleton_subset_iff.mpr (List.mem_toFinset.mpr (List.mem_map_of_mem (f := Proc.devRef (τ := τ) .tc) (a := main_call4_cst) (by decide))),
   Finset.singleton_subset_iff.mpr (List.mem_toFinset.mpr (List.mem_map_of_mem (f := Proc.devRef (τ := τ) .tc) (a := main_call4_v0) (by decide))),
   Finset.singleton_subset_iff.mpr (List.mem_toFinset.mpr (List.mem_map_of_mem (f := Proc.devRef (τ := τ) .tc) (a := main_call4_v1) (by decide))),
   Finset.singleton_subset_iff.mpr (List.mem_toFinset.mpr (List.mem_map_of_mem (f := Proc.devRef (τ := τ) .tc) (a := main_call4_cst_0) (by decide))),
   Finset.singleton_subset_iff.mpr (List.mem_toFinset.mpr (List.mem_map_of_mem (f := Proc.devRef (τ := τ) .tc) (a := main_call4_v2) (by decide))),
   Finset.singleton_subset_iff.mpr (List.mem_toFinset.mpr (List.mem_map_of_mem (f := Proc.devRef (τ := τ) .tc) (a := main_call4_v3) (by decide))),
   Finset.singleton_subset_iff.mpr (List.mem_toFinset.mpr (List.mem_map_of_mem (f := Proc.devRef (τ := τ) .tc) (a := main_call4_v4) (by decide))),
   Finset.singleton_subset_iff.mpr (List.mem_toFinset.mpr (List.mem_map_of_mem (f := Proc.devRef (τ := τ) .tc) (a := main_call4_v5) (by decide))),
   Finset.singleton_subset_iff.mpr (List.mem_toFinset.mpr (List.mem_map_of_mem (f := Proc.devRef (τ := τ) .tc) (a := main_call4_v6) (by decide))),
   Finset.singleton_subset_iff.mpr (List.mem_toFinset.mpr (List.mem_map_of_mem (f := Proc.devRef (τ := τ) .tc) (a := main_call4_v7) (by decide))),
   Finset.singleton_subset_iff.mpr (List.mem_toFinset.mpr (List.mem_map_of_mem (f := Proc.devRef (τ := τ) .tc) (a := main_call4_cst_1) (by decide))),
   Finset.singleton_subset_iff.mpr (List.mem_toFinset.mpr (List.mem_map_of_mem (f := Proc.devRef (τ := τ) .tc) (a := main_call4_v8) (by decide))),
   Finset.singleton_subset_iff.mpr (List.mem_toFinset.mpr (List.mem_map_of_mem (f := Proc.devRef (τ := τ) .tc) (a := main_call4_cst_2) (by decide))),
   Finset.singleton_subset_iff.mpr (List.mem_toFinset.mpr (List.mem_map_of_mem (f := Proc.devRef (τ := τ) .tc) (a := main_call4_v9) (by decide))),
   Finset.singleton_subset_iff.mpr (List.mem_toFinset.mpr (List.mem_map_of_mem (f := Proc.devRef (τ := τ) .tc) (a := main_call4_v10) (by decide))),
   Finset.singleton_subset_iff.mpr (List.mem_toFinset.mpr (List.mem_map_of_mem (f := Proc.devRef (τ := τ) .tc) (a := main_call4_v11) (by decide))),
   Finset.singleton_subset_iff.mpr (List.mem_toFinset.mpr (List.mem_map_of_mem (f := Proc.devRef (τ := τ) .tc) (a := main_call4_cst_3) (by decide))),
   Finset.singleton_subset_iff.mpr (List.mem_toFinset.mpr (List.mem_map_of_mem (f := Proc.devRef (τ := τ) .tc) (a := main_call4_v12) (by decide))),
   Finset.singleton_subset_iff.mpr (List.mem_toFinset.mpr (List.mem_map_of_mem (f := Proc.devRef (τ := τ) .tc) (a := main_call4_cst_4) (by decide))),
   Finset.singleton_subset_iff.mpr (List.mem_toFinset.mpr (List.mem_map_of_mem (f := Proc.devRef (τ := τ) .tc) (a := main_call4_call0_v0) (by decide))),
   Finset.singleton_subset_iff.mpr (List.mem_toFinset.mpr (List.mem_map_of_mem (f := Proc.devRef (τ := τ) .tc) (a := main_call4_call0_v1) (by decide))),
   Finset.singleton_subset_iff.mpr (List.mem_toFinset.mpr (List.mem_map_of_mem (f := Proc.devRef (τ := τ) .tc) (a := main_v229) (by decide))),
   Finset.singleton_subset_iff.mpr (List.mem_toFinset.mpr (List.mem_map_of_mem (f := Proc.devRef (τ := τ) .tc) (a := main_v230) (by decide))),
   Finset.singleton_subset_iff.mpr (List.mem_toFinset.mpr (List.mem_map_of_mem (f := Proc.devRef (τ := τ) .tc) (a := main_v231) (by decide))),
   Finset.singleton_subset_iff.mpr (List.mem_toFinset.mpr (List.mem_map_of_mem (f := Proc.devRef (τ := τ) .tc) (a := main_v232) (by decide))),
   Finset.singleton_subset_iff.mpr (List.mem_toFinset.mpr (List.mem_map_of_mem (f := Proc.devRef (τ := τ) .tc) (a := main_cst_39) (by decide))),
   Finset.singleton_subset_iff.mpr (List.mem_toFinset.mpr (List.mem_map_of_mem (f := Proc.devRef (τ := τ) .tc) (a := main_v233) (by decide))),
   Finset.singleton_subset_iff.mpr (List.mem_toFinset.mpr (List.mem_map_of_mem (f := Proc.devRef (τ := τ) .tc) (a := main_v234) (by decide))),
   Finset.singleton_subset_iff.mpr (List.mem_toFinset.mpr (List.mem_map_of_mem (f := Proc.devRef (τ := τ) .tc) (a := main_v235) (by decide))),
   Finset.singleton_subset_iff.mpr (List.mem_toFinset.mpr (List.mem_map_of_mem (f := Proc.devRef (τ := τ) .tc) (a := main_v236) (by decide))),
   Finset.singleton_subset_iff.mpr (List.mem_toFinset.mpr (List.mem_map_of_mem (f := Proc.devRef (τ := τ) .tc) (a := main_v237) (by decide))),
   Finset.singleton_subset_iff.mpr (List.mem_toFinset.mpr (List.mem_map_of_mem (f := Proc.devRef (τ := τ) .tc) (a := main_v238) (by decide))),
   Finset.singleton_subset_iff.mpr (List.mem_toFinset.mpr (List.mem_map_of_mem (f := Proc.devRef (τ := τ) .tc) (a := main_v239) (by decide))),
   Finset.singleton_subset_iff.mpr (List.mem_toFinset.mpr (List.mem_map_of_mem (f := Proc.devRef (τ := τ) .tc) (a := main_v240) (by decide))),
   Finset.singleton_subset_iff.mpr (List.mem_toFinset.mpr (List.mem_map_of_mem (f := Proc.devRef (τ := τ) .tc) (a := main_v241) (by decide))),
   Finset.singleton_subset_iff.mpr (List.mem_toFinset.mpr (List.mem_map_of_mem (f := Proc.devRef (τ := τ) .tc) (a := main_v242) (by decide))),
   Finset.singleton_subset_iff.mpr (List.mem_toFinset.mpr (List.mem_map_of_mem (f := Proc.devRef (τ := τ) .tc) (a := main_v243) (by decide))),
   Finset.singleton_subset_iff.mpr (List.mem_toFinset.mpr (List.mem_map_of_mem (f := Proc.devRef (τ := τ) .tc) (a := main_v244) (by decide))),
   Finset.singleton_subset_iff.mpr (List.mem_toFinset.mpr (List.mem_map_of_mem (f := Proc.devRef (τ := τ) .tc) (a := main_v245) (by decide))),
   Finset.singleton_subset_iff.mpr (List.mem_toFinset.mpr (List.mem_map_of_mem (f := Proc.devRef (τ := τ) .tc) (a := main_v246) (by decide))),
   Finset.singleton_subset_iff.mpr (List.mem_toFinset.mpr (List.mem_map_of_mem (f := Proc.devRef (τ := τ) .tc) (a := main_v247) (by decide))),
   Finset.singleton_subset_iff.mpr (List.mem_toFinset.mpr (List.mem_map_of_mem (f := Proc.devRef (τ := τ) .tc) (a := main_v248) (by decide))),
   Finset.singleton_subset_iff.mpr (List.mem_toFinset.mpr (List.mem_map_of_mem (f := Proc.devRef (τ := τ) .tc) (a := main_call5_cst) (by decide))),
   Finset.singleton_subset_iff.mpr (List.mem_toFinset.mpr (List.mem_map_of_mem (f := Proc.devRef (τ := τ) .tc) (a := main_call5_v0) (by decide))),
   Finset.singleton_subset_iff.mpr (List.mem_toFinset.mpr (List.mem_map_of_mem (f := Proc.devRef (τ := τ) .tc) (a := main_v249) (by decide))),
   Finset.singleton_subset_iff.mpr (List.mem_toFinset.mpr (List.mem_map_of_mem (f := Proc.devRef (τ := τ) .tc) (a := main_v250) (by decide)))⟩

/-- A buffer those operations do not write keeps its contents through them. -/
theorem cB2_keep (W : Valuation τ sig (Elt F)) (r : Ref sig .tc) (h : r ∉ cB2_W) :
    after cB2 W (Proc.devRef .tc r) = W (Proc.devRef .tc r) :=
  after_of_writes_sub cB2 W cB2_writes h

set_option maxRecDepth 8192 in
set_option maxHeartbeats 4000000 in
/-- Layer 2's result from the contents before its normalization. -/
theorem cB2_v250 (W : Valuation τ sig (Elt F)) :
    after cB2 W (Proc.devRef .tc main_v250)
      = bnS (W (Proc.devRef .tc main_v225)) (W (Proc.devRef .tc main_v179)) (gamma_2 (W (Proc.devRef .tc main_arg8))) (beta_2 (W (Proc.devRef .tc main_arg9))) := by
  simp only [cB2]
  after_results_simp
  rfl

/-- The operations 363 … 414 of @main's 503. -/
abbrev cM3 : List (HloOp τ sig (Elt F)) :=
  [ StableHlo.unary main_arg10 main_v251 ((extractStridedSlice S1x2x2 ![3, 0, 0] · slices_S4x2x2_S1x2x2_3_0_0) : (⟨S4x2x2, .f32⟩ : BufTy).Contents (Elt F) → (⟨S1x2x2, .f32⟩ : BufTy).Contents (Elt F)),
    StableHlo.reshape main_v251 main_v252 rfl shapeCasts_S1x2x2_S2x2,
    StableHlo.unary main_v252 main_v253 ((transpose S2x2 [1, 0] · transposes_S2x2_S2x2_1_0) : (⟨S2x2, .f32⟩ : BufTy).Contents (Elt F) → (⟨S2x2, .f32⟩ : BufTy).Contents (Elt F)),
    StableHlo.binary main_v30 main_v253 main_v254 ((fun l r => Host.dotGeneral dot_S800000x2_S2x2_S800000x2_1_0_0_1_n_n none l r) : (⟨S800000x2, .f32⟩ : BufTy).Contents (Elt F) → (⟨S2x2, .f32⟩ : BufTy).Contents (Elt F) → (⟨S800000x2, .f32⟩ : BufTy).Contents (Elt F)),
    StableHlo.unary main_arg11 main_v255 ((extractStridedSlice S1x2 ![3, 0] · slices_S4x2_S1x2_3_0) : (⟨S4x2, .f32⟩ : BufTy).Contents (Elt F) → (⟨S1x2, .f32⟩ : BufTy).Contents (Elt F)),
    StableHlo.reshape main_v255 main_v256 rfl shapeCasts_S1x2_S2,
    StableHlo.unary main_v256 main_v257 (broadcastInDim S1x2 ![1] bcast_S2_S1x2_1 : (⟨S2, .f32⟩ : BufTy).Contents (Elt F) → (⟨S1x2, .f32⟩ : BufTy).Contents (Elt F)),
    StableHlo.unary main_v257 main_v258 (broadcastInDim S800000x2 ![0, 1] bcast_S1x2_S800000x2_0_1 : (⟨S1x2, .f32⟩ : BufTy).Contents (Elt F) → (⟨S800000x2, .f32⟩ : BufTy).Contents (Elt F)),
    StableHlo.binary main_v254 main_v258 main_v259 (addf : (⟨S800000x2, .f32⟩ : BufTy).Contents (Elt F) → (⟨S800000x2, .f32⟩ : BufTy).Contents (Elt F) → (⟨S800000x2, .f32⟩ : BufTy).Contents (Elt F)),
    StableHlo.unary main_v259 main_v260 (Host.tanh : (⟨S800000x2, .f32⟩ : BufTy).Contents (Elt F) → (⟨S800000x2, .f32⟩ : BufTy).Contents (Elt F)),
    StableHlo.unary main_v260 main_v261 (broadcastInDim S800000x1x2 ![0, 2] bcast_S800000x2_S800000x1x2_0_2 : (⟨S800000x2, .f32⟩ : BufTy).Contents (Elt F) → (⟨S800000x1x2, .f32⟩ : BufTy).Contents (Elt F)),
    StableHlo.unary main_arg6 main_v262 ((extractStridedSlice S1x3x2 ![3, 0, 0] · slices_S4x3x2_S1x3x2_3_0_0) : (⟨S4x3x2, .f32⟩ : BufTy).Contents (Elt F) → (⟨S1x3x2, .f32⟩ : BufTy).Contents (Elt F)),
    StableHlo.reshape main_v262 main_v263 rfl shapeCasts_S1x3x2_S3x2,
    StableHlo.unary main_v263 main_v264 (broadcastInDim S1x3x2 ![1, 2] bcast_S3x2_S1x3x2_1_2 : (⟨S3x2, .f32⟩ : BufTy).Contents (Elt F) → (⟨S1x3x2, .f32⟩ : BufTy).Contents (Elt F)),
    StableHlo.unary main_v261 main_v265 (broadcastInDim S800000x3x2 ![0, 1, 2] bcast_S800000x1x2_S800000x3x2_0_1_2 : (⟨S800000x1x2, .f32⟩ : BufTy).Contents (Elt F) → (⟨S800000x3x2, .f32⟩ : BufTy).Contents (Elt F)),
    StableHlo.unary main_v264 main_v266 (broadcastInDim S800000x3x2 ![0, 1, 2] bcast_S1x3x2_S800000x3x2_0_1_2 : (⟨S1x3x2, .f32⟩ : BufTy).Contents (Elt F) → (⟨S800000x3x2, .f32⟩ : BufTy).Contents (Elt F)),
    StableHlo.binary main_v265 main_v266 main_v267 (subf : (⟨S800000x3x2, .f32⟩ : BufTy).Contents (Elt F) → (⟨S800000x3x2, .f32⟩ : BufTy).Contents (Elt F) → (⟨S800000x3x2, .f32⟩ : BufTy).Contents (Elt F)),
    StableHlo.unary main_arg7 main_v268 ((extractStridedSlice S1x3x2 ![3, 0, 0] · slices_S4x3x2_S1x3x2_3_0_0) : (⟨S4x3x2, .f32⟩ : BufTy).Contents (Elt F) → (⟨S1x3x2, .f32⟩ : BufTy).Contents (Elt F)),
    StableHlo.reshape main_v268 main_v269 rfl shapeCasts_S1x3x2_S3x2,
    StableHlo.unary main_v269 main_v270 (broadcastInDim S1x3x2 ![1, 2] bcast_S3x2_S1x3x2_1_2 : (⟨S3x2, .f32⟩ : BufTy).Contents (Elt F) → (⟨S1x3x2, .f32⟩ : BufTy).Contents (Elt F)),
    StableHlo.unary main_v270 main_v271 (broadcastInDim S800000x3x2 ![0, 1, 2] bcast_S1x3x2_S800000x3x2_0_1_2 : (⟨S1x3x2, .f32⟩ : BufTy).Contents (Elt F) → (⟨S800000x3x2, .f32⟩ : BufTy).Contents (Elt F)),
    StableHlo.binary main_v267 main_v271 main_v272 (mulf : (⟨S800000x3x2, .f32⟩ : BufTy).Contents (Elt F) → (⟨S800000x3x2, .f32⟩ : BufTy).Contents (Elt F) → (⟨S800000x3x2, .f32⟩ : BufTy).Contents (Elt F)),
    StableHlo.binary main_v272 main_v272 main_v273 (mulf : (⟨S800000x3x2, .f32⟩ : BufTy).Contents (Elt F) → (⟨S800000x3x2, .f32⟩ : BufTy).Contents (Elt F) → (⟨S800000x3x2, .f32⟩ : BufTy).Contents (Elt F)),
    StableHlo.nullary main_cst_40 (constant S_ .f32 0x00000000#32),
    StableHlo.binary main_v273 main_cst_40 main_v274 ((fun x v => Host.reduceAdd x v reducesTo_S800000x3x2_S800000x3_d2 h_S_) : (⟨S800000x3x2, .f32⟩ : BufTy).Contents (Elt F) → (⟨S_, .f32⟩ : BufTy).Contents (Elt F) → (⟨S800000x3, .f32⟩ : BufTy).Contents (Elt F)),
    StableHlo.nullary main_cst_41 (constant S_ .f32 0xBF000000#32),
    StableHlo.unary main_cst_41 main_v275 (broadcastInDim S800000x3 ![] bcast_S_S800000x3 : (⟨S_, .f32⟩ : BufTy).Contents (Elt F) → (⟨S800000x3, .f32⟩ : BufTy).Contents (Elt F)),
    StableHlo.binary main_v275 main_v274 main_v276 (mulf : (⟨S800000x3, .f32⟩ : BufTy).Contents (Elt F) → (⟨S800000x3, .f32⟩ : BufTy).Contents (Elt F) → (⟨S800000x3, .f32⟩ : BufTy).Contents (Elt F)),
    StableHlo.unary main_v276 main_v277 (Host.exp : (⟨S800000x3, .f32⟩ : BufTy).Contents (Elt F) → (⟨S800000x3, .f32⟩ : BufTy).Contents (Elt F)),
    StableHlo.unary main_arg5 main_v278 ((extractStridedSlice S1x192x64 ![3, 0, 0] · slices_S4x192x64_S1x192x64_3_0_0) : (⟨S4x192x64, .f32⟩ : BufTy).Contents (Elt F) → (⟨S1x192x64, .f32⟩ : BufTy).Contents (Elt F)),
    StableHlo.reshape main_v278 main_v279 rfl shapeCasts_S1x192x64_S192x64,
    StableHlo.unary main_v279 main_v280 ((transpose S64x192 [1, 0] · transposes_S192x64_S64x192_1_0) : (⟨S192x64, .f32⟩ : BufTy).Contents (Elt F) → (⟨S64x192, .f32⟩ : BufTy).Contents (Elt F)),
    StableHlo.binary main_v250 main_v280 main_v281 ((fun l r => Host.dotGeneral dot_S50000x64_S64x192_S50000x192_1_0_0_1_n_n none l r) : (⟨S50000x64, .f32⟩ : BufTy).Contents (Elt F) → (⟨S64x192, .f32⟩ : BufTy).Contents (Elt F) → (⟨S50000x192, .f32⟩ : BufTy).Contents (Elt F)),
    StableHlo.reshape main_v281 main_v282 rfl shapeCasts_S50000x192_S50000x3x64,
    StableHlo.nullary main_c_42 (constantI S_ 32 0#32),
    StableHlo.unary main_c_42 main_v283 (broadcastInDim S800000 ![] bcast_S_S800000 : (⟨S_, .i32⟩ : BufTy).Contents (Elt F) → (⟨S800000, .i32⟩ : BufTy).Contents (Elt F)),
    StableHlo.binary main_arg1 main_v283 main_v284 (cmpi .slt : (⟨S800000, .i32⟩ : BufTy).Contents (Elt F) → (⟨S800000, .i32⟩ : BufTy).Contents (Elt F) → (⟨S800000, .i1⟩ : BufTy).Contents (Elt F)),
    StableHlo.nullary main_c_43 (constantI S_ 32 50000#32),
    StableHlo.unary main_c_43 main_v285 (broadcastInDim S800000 ![] bcast_S_S800000 : (⟨S_, .i32⟩ : BufTy).Contents (Elt F) → (⟨S800000, .i32⟩ : BufTy).Contents (Elt F)),
    StableHlo.binary main_arg1 main_v285 main_v286 (addi : (⟨S800000, .i32⟩ : BufTy).Contents (Elt F) → (⟨S800000, .i32⟩ : BufTy).Contents (Elt F) → (⟨S800000, .i32⟩ : BufTy).Contents (Elt F)),
    StableHlo.ternary main_v284 main_v286 main_arg1 main_v287 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v287 main_v288 (broadcastInDim S800000x1 ![0] bcast_S800000_S800000x1_0 : (⟨S800000, .i32⟩ : BufTy).Contents (Elt F) → (⟨S800000x1, .i32⟩ : BufTy).Contents (Elt F)),
    StableHlo.binary main_v282 main_v288 main_v289 ((fun x i => Host.gather gather_S50000x3x64_S800000x1_S800000x3x64_12_0_n_n_0_1_1364 x i) : (⟨S50000x3x64, .f32⟩ : BufTy).Contents (Elt F) → (⟨S800000x1, .i32⟩ : BufTy).Contents (Elt F) → (⟨S800000x3x64, .f32⟩ : BufTy).Contents (Elt F)),
    StableHlo.unary main_v277 main_v290 (broadcastInDim S800000x3x1 ![0, 1] bcast_S800000x3_S800000x3x1_0_1 : (⟨S800000x3, .f32⟩ : BufTy).Contents (Elt F) → (⟨S800000x3x1, .f32⟩ : BufTy).Contents (Elt F)),
    StableHlo.unary main_v290 main_v291 (broadcastInDim S800000x3x64 ![0, 1, 2] bcast_S800000x3x1_S800000x3x64_0_1_2 : (⟨S800000x3x1, .f32⟩ : BufTy).Contents (Elt F) → (⟨S800000x3x64, .f32⟩ : BufTy).Contents (Elt F)),
    StableHlo.binary main_v289 main_v291 main_v292 (mulf : (⟨S800000x3x64, .f32⟩ : BufTy).Contents (Elt F) → (⟨S800000x3x64, .f32⟩ : BufTy).Contents (Elt F) → (⟨S800000x3x64, .f32⟩ : BufTy).Contents (Elt F)),
    StableHlo.nullary main_cst_44 (constant S_ .f32 0x00000000#32),
    StableHlo.unary main_cst_44 main_v293 (broadcastInDim S50000x3x64 ![] bcast_S_S50000x3x64 : (⟨S_, .f32⟩ : BufTy).Contents (Elt F) → (⟨S50000x3x64, .f32⟩ : BufTy).Contents (Elt F)),
    StableHlo.unary main_arg2 main_v294 (broadcastInDim S800000x1 ![0] bcast_S800000_S800000x1_0 : (⟨S800000, .i32⟩ : BufTy).Contents (Elt F) → (⟨S800000x1, .i32⟩ : BufTy).Contents (Elt F)),
    StableHlo.ternary main_v293 main_v294 main_v292 main_v295 ((fun x i u => Host.scatterAdd scatter_S50000x3x64_S800000x1_S800000x3x64_12_0_0_1 x i u) : (⟨S50000x3x64, .f32⟩ : BufTy).Contents (Elt F) → (⟨S800000x1, .i32⟩ : BufTy).Contents (Elt F) → (⟨S800000x3x64, .f32⟩ : BufTy).Contents (Elt F) → (⟨S50000x3x64, .f32⟩ : BufTy).Contents (Elt F)),
    StableHlo.nullary main_cst_45 (constant S_ .f32 0x00000000#32),
    StableHlo.binary main_v295 main_cst_45 main_v296 ((fun x v => Host.reduceAdd x v reducesTo_S50000x3x64_S50000x64_d1 h_S_) : (⟨S50000x3x64, .f32⟩ : BufTy).Contents (Elt F) → (⟨S_, .f32⟩ : BufTy).Contents (Elt F) → (⟨S50000x64, .f32⟩ : BufTy).Contents (Elt F)) ]

/-- The buffers those operations write. -/
abbrev cM3_W : List (Ref sig .tc) :=
  [main_v251, main_v252, main_v253, main_v254, main_v255, main_v256, main_v257, main_v258, main_v259, main_v260, main_v261, main_v262, main_v263, main_v264, main_v265, main_v266, main_v267, main_v268, main_v269, main_v270, main_v271, main_v272, main_v273, main_cst_40, main_v274, main_cst_41, main_v275, main_v276, main_v277, main_v278, main_v279, main_v280, main_v281, main_v282, main_c_42, main_v283, main_v284, main_c_43, main_v285, main_v286, main_v287, main_v288, main_v289, main_v290, main_v291, main_v292, main_cst_44, main_v293, main_v294, main_v295, main_cst_45, main_v296]

set_option maxRecDepth 8192 in
theorem cM3_writes : (cM3 : List (HloOp τ sig (Elt F))).Forall fun op =>
    op.writes ⊆ (cM3_W.map (Proc.devRef (τ := τ) .tc)).toFinset :=
  ⟨Finset.singleton_subset_iff.mpr (List.mem_toFinset.mpr (List.mem_map_of_mem (f := Proc.devRef (τ := τ) .tc) (a := main_v251) (by decide))),
   Finset.singleton_subset_iff.mpr (List.mem_toFinset.mpr (List.mem_map_of_mem (f := Proc.devRef (τ := τ) .tc) (a := main_v252) (by decide))),
   Finset.singleton_subset_iff.mpr (List.mem_toFinset.mpr (List.mem_map_of_mem (f := Proc.devRef (τ := τ) .tc) (a := main_v253) (by decide))),
   Finset.singleton_subset_iff.mpr (List.mem_toFinset.mpr (List.mem_map_of_mem (f := Proc.devRef (τ := τ) .tc) (a := main_v254) (by decide))),
   Finset.singleton_subset_iff.mpr (List.mem_toFinset.mpr (List.mem_map_of_mem (f := Proc.devRef (τ := τ) .tc) (a := main_v255) (by decide))),
   Finset.singleton_subset_iff.mpr (List.mem_toFinset.mpr (List.mem_map_of_mem (f := Proc.devRef (τ := τ) .tc) (a := main_v256) (by decide))),
   Finset.singleton_subset_iff.mpr (List.mem_toFinset.mpr (List.mem_map_of_mem (f := Proc.devRef (τ := τ) .tc) (a := main_v257) (by decide))),
   Finset.singleton_subset_iff.mpr (List.mem_toFinset.mpr (List.mem_map_of_mem (f := Proc.devRef (τ := τ) .tc) (a := main_v258) (by decide))),
   Finset.singleton_subset_iff.mpr (List.mem_toFinset.mpr (List.mem_map_of_mem (f := Proc.devRef (τ := τ) .tc) (a := main_v259) (by decide))),
   Finset.singleton_subset_iff.mpr (List.mem_toFinset.mpr (List.mem_map_of_mem (f := Proc.devRef (τ := τ) .tc) (a := main_v260) (by decide))),
   Finset.singleton_subset_iff.mpr (List.mem_toFinset.mpr (List.mem_map_of_mem (f := Proc.devRef (τ := τ) .tc) (a := main_v261) (by decide))),
   Finset.singleton_subset_iff.mpr (List.mem_toFinset.mpr (List.mem_map_of_mem (f := Proc.devRef (τ := τ) .tc) (a := main_v262) (by decide))),
   Finset.singleton_subset_iff.mpr (List.mem_toFinset.mpr (List.mem_map_of_mem (f := Proc.devRef (τ := τ) .tc) (a := main_v263) (by decide))),
   Finset.singleton_subset_iff.mpr (List.mem_toFinset.mpr (List.mem_map_of_mem (f := Proc.devRef (τ := τ) .tc) (a := main_v264) (by decide))),
   Finset.singleton_subset_iff.mpr (List.mem_toFinset.mpr (List.mem_map_of_mem (f := Proc.devRef (τ := τ) .tc) (a := main_v265) (by decide))),
   Finset.singleton_subset_iff.mpr (List.mem_toFinset.mpr (List.mem_map_of_mem (f := Proc.devRef (τ := τ) .tc) (a := main_v266) (by decide))),
   Finset.singleton_subset_iff.mpr (List.mem_toFinset.mpr (List.mem_map_of_mem (f := Proc.devRef (τ := τ) .tc) (a := main_v267) (by decide))),
   Finset.singleton_subset_iff.mpr (List.mem_toFinset.mpr (List.mem_map_of_mem (f := Proc.devRef (τ := τ) .tc) (a := main_v268) (by decide))),
   Finset.singleton_subset_iff.mpr (List.mem_toFinset.mpr (List.mem_map_of_mem (f := Proc.devRef (τ := τ) .tc) (a := main_v269) (by decide))),
   Finset.singleton_subset_iff.mpr (List.mem_toFinset.mpr (List.mem_map_of_mem (f := Proc.devRef (τ := τ) .tc) (a := main_v270) (by decide))),
   Finset.singleton_subset_iff.mpr (List.mem_toFinset.mpr (List.mem_map_of_mem (f := Proc.devRef (τ := τ) .tc) (a := main_v271) (by decide))),
   Finset.singleton_subset_iff.mpr (List.mem_toFinset.mpr (List.mem_map_of_mem (f := Proc.devRef (τ := τ) .tc) (a := main_v272) (by decide))),
   Finset.singleton_subset_iff.mpr (List.mem_toFinset.mpr (List.mem_map_of_mem (f := Proc.devRef (τ := τ) .tc) (a := main_v273) (by decide))),
   Finset.singleton_subset_iff.mpr (List.mem_toFinset.mpr (List.mem_map_of_mem (f := Proc.devRef (τ := τ) .tc) (a := main_cst_40) (by decide))),
   Finset.singleton_subset_iff.mpr (List.mem_toFinset.mpr (List.mem_map_of_mem (f := Proc.devRef (τ := τ) .tc) (a := main_v274) (by decide))),
   Finset.singleton_subset_iff.mpr (List.mem_toFinset.mpr (List.mem_map_of_mem (f := Proc.devRef (τ := τ) .tc) (a := main_cst_41) (by decide))),
   Finset.singleton_subset_iff.mpr (List.mem_toFinset.mpr (List.mem_map_of_mem (f := Proc.devRef (τ := τ) .tc) (a := main_v275) (by decide))),
   Finset.singleton_subset_iff.mpr (List.mem_toFinset.mpr (List.mem_map_of_mem (f := Proc.devRef (τ := τ) .tc) (a := main_v276) (by decide))),
   Finset.singleton_subset_iff.mpr (List.mem_toFinset.mpr (List.mem_map_of_mem (f := Proc.devRef (τ := τ) .tc) (a := main_v277) (by decide))),
   Finset.singleton_subset_iff.mpr (List.mem_toFinset.mpr (List.mem_map_of_mem (f := Proc.devRef (τ := τ) .tc) (a := main_v278) (by decide))),
   Finset.singleton_subset_iff.mpr (List.mem_toFinset.mpr (List.mem_map_of_mem (f := Proc.devRef (τ := τ) .tc) (a := main_v279) (by decide))),
   Finset.singleton_subset_iff.mpr (List.mem_toFinset.mpr (List.mem_map_of_mem (f := Proc.devRef (τ := τ) .tc) (a := main_v280) (by decide))),
   Finset.singleton_subset_iff.mpr (List.mem_toFinset.mpr (List.mem_map_of_mem (f := Proc.devRef (τ := τ) .tc) (a := main_v281) (by decide))),
   Finset.singleton_subset_iff.mpr (List.mem_toFinset.mpr (List.mem_map_of_mem (f := Proc.devRef (τ := τ) .tc) (a := main_v282) (by decide))),
   Finset.singleton_subset_iff.mpr (List.mem_toFinset.mpr (List.mem_map_of_mem (f := Proc.devRef (τ := τ) .tc) (a := main_c_42) (by decide))),
   Finset.singleton_subset_iff.mpr (List.mem_toFinset.mpr (List.mem_map_of_mem (f := Proc.devRef (τ := τ) .tc) (a := main_v283) (by decide))),
   Finset.singleton_subset_iff.mpr (List.mem_toFinset.mpr (List.mem_map_of_mem (f := Proc.devRef (τ := τ) .tc) (a := main_v284) (by decide))),
   Finset.singleton_subset_iff.mpr (List.mem_toFinset.mpr (List.mem_map_of_mem (f := Proc.devRef (τ := τ) .tc) (a := main_c_43) (by decide))),
   Finset.singleton_subset_iff.mpr (List.mem_toFinset.mpr (List.mem_map_of_mem (f := Proc.devRef (τ := τ) .tc) (a := main_v285) (by decide))),
   Finset.singleton_subset_iff.mpr (List.mem_toFinset.mpr (List.mem_map_of_mem (f := Proc.devRef (τ := τ) .tc) (a := main_v286) (by decide))),
   Finset.singleton_subset_iff.mpr (List.mem_toFinset.mpr (List.mem_map_of_mem (f := Proc.devRef (τ := τ) .tc) (a := main_v287) (by decide))),
   Finset.singleton_subset_iff.mpr (List.mem_toFinset.mpr (List.mem_map_of_mem (f := Proc.devRef (τ := τ) .tc) (a := main_v288) (by decide))),
   Finset.singleton_subset_iff.mpr (List.mem_toFinset.mpr (List.mem_map_of_mem (f := Proc.devRef (τ := τ) .tc) (a := main_v289) (by decide))),
   Finset.singleton_subset_iff.mpr (List.mem_toFinset.mpr (List.mem_map_of_mem (f := Proc.devRef (τ := τ) .tc) (a := main_v290) (by decide))),
   Finset.singleton_subset_iff.mpr (List.mem_toFinset.mpr (List.mem_map_of_mem (f := Proc.devRef (τ := τ) .tc) (a := main_v291) (by decide))),
   Finset.singleton_subset_iff.mpr (List.mem_toFinset.mpr (List.mem_map_of_mem (f := Proc.devRef (τ := τ) .tc) (a := main_v292) (by decide))),
   Finset.singleton_subset_iff.mpr (List.mem_toFinset.mpr (List.mem_map_of_mem (f := Proc.devRef (τ := τ) .tc) (a := main_cst_44) (by decide))),
   Finset.singleton_subset_iff.mpr (List.mem_toFinset.mpr (List.mem_map_of_mem (f := Proc.devRef (τ := τ) .tc) (a := main_v293) (by decide))),
   Finset.singleton_subset_iff.mpr (List.mem_toFinset.mpr (List.mem_map_of_mem (f := Proc.devRef (τ := τ) .tc) (a := main_v294) (by decide))),
   Finset.singleton_subset_iff.mpr (List.mem_toFinset.mpr (List.mem_map_of_mem (f := Proc.devRef (τ := τ) .tc) (a := main_v295) (by decide))),
   Finset.singleton_subset_iff.mpr (List.mem_toFinset.mpr (List.mem_map_of_mem (f := Proc.devRef (τ := τ) .tc) (a := main_cst_45) (by decide))),
   Finset.singleton_subset_iff.mpr (List.mem_toFinset.mpr (List.mem_map_of_mem (f := Proc.devRef (τ := τ) .tc) (a := main_v296) (by decide)))⟩

/-- A buffer those operations do not write keeps its contents through them. -/
theorem cM3_keep (W : Valuation τ sig (Elt F)) (r : Ref sig .tc) (h : r ∉ cM3_W) :
    after cM3 W (Proc.devRef .tc r) = W (Proc.devRef .tc r) :=
  after_of_writes_sub cM3 W cM3_writes h

set_option maxRecDepth 8192 in
set_option maxHeartbeats 4000000 in
/-- Layer 3's aggregate from the contents before its operations. -/
theorem cM3_v296 (W : Valuation τ sig (Elt F)) :
    after cM3 W (Proc.devRef .tc main_v296)
      = aggS (msgS (hkSrcS (hkS (W (Proc.devRef .tc main_v250)) (W_3 (W (Proc.devRef .tc main_arg5)))) (W (Proc.devRef .tc main_arg1))) (gaussS (uS (W (Proc.devRef .tc main_v30)) (A_3 (W (Proc.devRef .tc main_arg10))) (bvec_3 (W (Proc.devRef .tc main_arg11)))) (mu_3 (W (Proc.devRef .tc main_arg6))) (sg_3 (W (Proc.devRef .tc main_arg7))))) (W (Proc.devRef .tc main_arg2)) := by
  simp only [cM3]
  after_results_simp
  rfl

/-- The operations 415 … 466 of @main's 503. -/
abbrev cB3 : List (HloOp τ sig (Elt F)) :=
  [ StableHlo.nullary main_cst_46 (constant S_ .f32 0x00000000#32),
    StableHlo.binary main_v296 main_cst_46 main_v297 ((fun x v => Host.reduceAdd x v reducesTo_S50000x64_S64_d0 h_S_) : (⟨S50000x64, .f32⟩ : BufTy).Contents (Elt F) → (⟨S_, .f32⟩ : BufTy).Contents (Elt F) → (⟨S64, .f32⟩ : BufTy).Contents (Elt F)),
    StableHlo.nullary main_cst_47 (constant S_ .f32 0x47435000#32),
    StableHlo.unary main_cst_47 main_v298 (broadcastInDim S64 ![] bcast_S_S64 : (⟨S_, .f32⟩ : BufTy).Contents (Elt F) → (⟨S64, .f32⟩ : BufTy).Contents (Elt F)),
    StableHlo.binary main_v297 main_v298 main_v299 (Host.divf : (⟨S64, .f32⟩ : BufTy).Contents (Elt F) → (⟨S64, .f32⟩ : BufTy).Contents (Elt F) → (⟨S64, .f32⟩ : BufTy).Contents (Elt F)),
    StableHlo.nullary main_c_48 (constantI S_ 32 0#32),
    StableHlo.TRef.nullary main_call6.cst (constant S_ .f32 0x00000000#32),
    StableHlo.TRef.binary (StableHlo.TRef.of (T := ⟨S50000x64, .f32⟩) main_v296) main_call6.cst main_call6.v0 (fun x v => Host.reduceAdd x v reducesTo_S50000x64_S64_d0 h_S_),
    StableHlo.TRef.unary main_call6.v0 main_call6.v1 (broadcastInDim S1x64 ![1] bcast_S64_S1x64_1),
    StableHlo.TRef.nullary main_call6.cst_0 (constant S_ .f32 0x47435000#32),
    StableHlo.TRef.unary main_call6.cst_0 main_call6.v2 (broadcastInDim S1x64 ![] bcast_S_S1x64),
    StableHlo.TRef.binary main_call6.v1 main_call6.v2 main_call6.v3 Host.divf,
    StableHlo.TRef.unary main_call6.v3 main_call6.v4 (broadcastInDim S50000x64 ![0, 1] bcast_S1x64_S50000x64_0_1),
    StableHlo.TRef.binary (StableHlo.TRef.of (T := ⟨S50000x64, .f32⟩) main_v296) main_call6.v4 main_call6.v5 subf,
    StableHlo.TRef.binary main_call6.v5 main_call6.v5 main_call6.v6 mulf,
    StableHlo.TRef.unary (StableHlo.TRef.of (T := ⟨S_, .i32⟩) main_c_48) main_call6.v7 (sitofp .f32),
    StableHlo.TRef.nullary main_call6.cst_1 (constant S_ .f32 0x47435000#32),
    StableHlo.TRef.binary main_call6.cst_1 main_call6.v7 main_call6.v8 subf,
    StableHlo.TRef.nullary main_call6.cst_2 (constant S_ .f32 0x00000000#32),
    StableHlo.TRef.binary main_call6.v6 main_call6.cst_2 main_call6.v9 (fun x v => Host.reduceAdd x v reducesTo_S50000x64_S64_d0 h_S_),
    StableHlo.TRef.unary main_call6.v8 main_call6.v10 (broadcastInDim S64 ![] bcast_S_S64),
    StableHlo.TRef.binary main_call6.v9 main_call6.v10 main_call6.v11 Host.divf,
    StableHlo.TRef.nullary main_call6.cst_3 (constant S_ .f32 0x00000000#32),
    StableHlo.TRef.binary main_call6.v8 main_call6.cst_3 main_call6.v12 (cmpf .ogt),
    StableHlo.TRef.nullary main_call6.cst_4 (constant S_ .f32 0x7FC00000#32),
    StableHlo.TRef.unary main_call6.cst_4 main_call6.call0.v0 id,
    StableHlo.TRef.unary main_call6.call0.v0 main_call6.call0.v1 (broadcastInDim S64 ![] bcast_S_S64),
    StableHlo.TRef.ternary main_call6.v12 main_call6.v11 main_call6.call0.v1 main_call6.call0.v2 (fun p a b => select (broadcastInDim S64 ![] bcast_S_S64 p) a b),
    StableHlo.unary main_v299 main_v301 (broadcastInDim S1x64 ![1] bcast_S64_S1x64_1 : (⟨S64, .f32⟩ : BufTy).Contents (Elt F) → (⟨S1x64, .f32⟩ : BufTy).Contents (Elt F)),
    StableHlo.unary main_v301 main_v302 (broadcastInDim S50000x64 ![0, 1] bcast_S1x64_S50000x64_0_1 : (⟨S1x64, .f32⟩ : BufTy).Contents (Elt F) → (⟨S50000x64, .f32⟩ : BufTy).Contents (Elt F)),
    StableHlo.binary main_v296 main_v302 main_v303 (subf : (⟨S50000x64, .f32⟩ : BufTy).Contents (Elt F) → (⟨S50000x64, .f32⟩ : BufTy).Contents (Elt F) → (⟨S50000x64, .f32⟩ : BufTy).Contents (Elt F)),
    StableHlo.nullary main_cst_49 (constant S_ .f32 0x3727C5AC#32),
    StableHlo.unary main_cst_49 main_v304 (broadcastInDim S64 ![] bcast_S_S64 : (⟨S_, .f32⟩ : BufTy).Contents (Elt F) → (⟨S64, .f32⟩ : BufTy).Contents (Elt F)),
    StableHlo.binary main_v300 main_v304 main_v305 (addf : (⟨S64, .f32⟩ : BufTy).Contents (Elt F) → (⟨S64, .f32⟩ : BufTy).Contents (Elt F) → (⟨S64, .f32⟩ : BufTy).Contents (Elt F)),
    StableHlo.unary main_v305 main_v306 (Host.rsqrt : (⟨S64, .f32⟩ : BufTy).Contents (Elt F) → (⟨S64, .f32⟩ : BufTy).Contents (Elt F)),
    StableHlo.unary main_v306 main_v307 (broadcastInDim S1x64 ![1] bcast_S64_S1x64_1 : (⟨S64, .f32⟩ : BufTy).Contents (Elt F) → (⟨S1x64, .f32⟩ : BufTy).Contents (Elt F)),
    StableHlo.unary main_v307 main_v308 (broadcastInDim S50000x64 ![0, 1] bcast_S1x64_S50000x64_0_1 : (⟨S1x64, .f32⟩ : BufTy).Contents (Elt F) → (⟨S50000x64, .f32⟩ : BufTy).Contents (Elt F)),
    StableHlo.binary main_v303 main_v308 main_v309 (mulf : (⟨S50000x64, .f32⟩ : BufTy).Contents (Elt F) → (⟨S50000x64, .f32⟩ : BufTy).Contents (Elt F) → (⟨S50000x64, .f32⟩ : BufTy).Contents (Elt F)),
    StableHlo.unary main_arg8 main_v310 ((extractStridedSlice S1x64 ![3, 0] · slices_S4x64_S1x64_3_0) : (⟨S4x64, .f32⟩ : BufTy).Contents (Elt F) → (⟨S1x64, .f32⟩ : BufTy).Contents (Elt F)),
    StableHlo.reshape main_v310 main_v311 rfl shapeCasts_S1x64_S64,
    StableHlo.unary main_v311 main_v312 (broadcastInDim S1x64 ![1] bcast_S64_S1x64_1 : (⟨S64, .f32⟩ : BufTy).Contents (Elt F) → (⟨S1x64, .f32⟩ : BufTy).Contents (Elt F)),
    StableHlo.unary main_v312 main_v313 (broadcastInDim S50000x64 ![0, 1] bcast_S1x64_S50000x64_0_1 : (⟨S1x64, .f32⟩ : BufTy).Contents (Elt F) → (⟨S50000x64, .f32⟩ : BufTy).Contents (Elt F)),
    StableHlo.binary main_v309 main_v313 main_v314 (mulf : (⟨S50000x64, .f32⟩ : BufTy).Contents (Elt F) → (⟨S50000x64, .f32⟩ : BufTy).Contents (Elt F) → (⟨S50000x64, .f32⟩ : BufTy).Contents (Elt F)),
    StableHlo.unary main_arg9 main_v315 ((extractStridedSlice S1x64 ![3, 0] · slices_S4x64_S1x64_3_0) : (⟨S4x64, .f32⟩ : BufTy).Contents (Elt F) → (⟨S1x64, .f32⟩ : BufTy).Contents (Elt F)),
    StableHlo.reshape main_v315 main_v316 rfl shapeCasts_S1x64_S64,
    StableHlo.unary main_v316 main_v317 (broadcastInDim S1x64 ![1] bcast_S64_S1x64_1 : (⟨S64, .f32⟩ : BufTy).Contents (Elt F) → (⟨S1x64, .f32⟩ : BufTy).Contents (Elt F)),
    StableHlo.unary main_v317 main_v318 (broadcastInDim S50000x64 ![0, 1] bcast_S1x64_S50000x64_0_1 : (⟨S1x64, .f32⟩ : BufTy).Contents (Elt F) → (⟨S50000x64, .f32⟩ : BufTy).Contents (Elt F)),
    StableHlo.binary main_v314 main_v318 main_v319 (addf : (⟨S50000x64, .f32⟩ : BufTy).Contents (Elt F) → (⟨S50000x64, .f32⟩ : BufTy).Contents (Elt F) → (⟨S50000x64, .f32⟩ : BufTy).Contents (Elt F)),
    StableHlo.TRef.nullary main_call7.cst (constant S_ .f32 0x00000000#32),
    StableHlo.TRef.unary main_call7.cst main_call7.v0 (broadcastInDim S50000x64 ![] bcast_S_S50000x64),
    StableHlo.TRef.binary (StableHlo.TRef.of (T := ⟨S50000x64, .f32⟩) main_v319) main_call7.v0 main_call7.v1 maximumf,
    StableHlo.binary main_v250 main_v320 main_v321 (addf : (⟨S50000x64, .f32⟩ : BufTy).Contents (Elt F) → (⟨S50000x64, .f32⟩ : BufTy).Contents (Elt F) → (⟨S50000x64, .f32⟩ : BufTy).Contents (Elt F)) ]

/-- The buffers those operations write. -/
abbrev cB3_W : List (Ref sig .tc) :=
  [main_cst_46, main_v297, main_cst_47, main_v298, main_v299, main_c_48, main_call6_cst, main_call6_v0, main_call6_v1, main_call6_cst_0, main_call6_v2, main_call6_v3, main_call6_v4, main_call6_v5, main_call6_v6, main_call6_v7, main_call6_cst_1, main_call6_v8, main_call6_cst_2, main_call6_v9, main_call6_v10, main_call6_v11, main_call6_cst_3, main_call6_v12, main_call6_cst_4, main_call6_call0_v0, main_call6_call0_v1, main_v300, main_v301, main_v302, main_v303, main_cst_49, main_v304, main_v305, main_v306, main_v307, main_v308, main_v309, main_v310, main_v311, main_v312, main_v313, main_v314, main_v315, main_v316, main_v317, main_v318, main_v319, main_call7_cst, main_call7_v0, main_v320, main_v321]

set_option maxRecDepth 8192 in
theorem cB3_writes : (cB3 : List (HloOp τ sig (Elt F))).Forall fun op =>
    op.writes ⊆ (cB3_W.map (Proc.devRef (τ := τ) .tc)).toFinset :=
  ⟨Finset.singleton_subset_iff.mpr (List.mem_toFinset.mpr (List.mem_map_of_mem (f := Proc.devRef (τ := τ) .tc) (a := main_cst_46) (by decide))),
   Finset.singleton_subset_iff.mpr (List.mem_toFinset.mpr (List.mem_map_of_mem (f := Proc.devRef (τ := τ) .tc) (a := main_v297) (by decide))),
   Finset.singleton_subset_iff.mpr (List.mem_toFinset.mpr (List.mem_map_of_mem (f := Proc.devRef (τ := τ) .tc) (a := main_cst_47) (by decide))),
   Finset.singleton_subset_iff.mpr (List.mem_toFinset.mpr (List.mem_map_of_mem (f := Proc.devRef (τ := τ) .tc) (a := main_v298) (by decide))),
   Finset.singleton_subset_iff.mpr (List.mem_toFinset.mpr (List.mem_map_of_mem (f := Proc.devRef (τ := τ) .tc) (a := main_v299) (by decide))),
   Finset.singleton_subset_iff.mpr (List.mem_toFinset.mpr (List.mem_map_of_mem (f := Proc.devRef (τ := τ) .tc) (a := main_c_48) (by decide))),
   Finset.singleton_subset_iff.mpr (List.mem_toFinset.mpr (List.mem_map_of_mem (f := Proc.devRef (τ := τ) .tc) (a := main_call6_cst) (by decide))),
   Finset.singleton_subset_iff.mpr (List.mem_toFinset.mpr (List.mem_map_of_mem (f := Proc.devRef (τ := τ) .tc) (a := main_call6_v0) (by decide))),
   Finset.singleton_subset_iff.mpr (List.mem_toFinset.mpr (List.mem_map_of_mem (f := Proc.devRef (τ := τ) .tc) (a := main_call6_v1) (by decide))),
   Finset.singleton_subset_iff.mpr (List.mem_toFinset.mpr (List.mem_map_of_mem (f := Proc.devRef (τ := τ) .tc) (a := main_call6_cst_0) (by decide))),
   Finset.singleton_subset_iff.mpr (List.mem_toFinset.mpr (List.mem_map_of_mem (f := Proc.devRef (τ := τ) .tc) (a := main_call6_v2) (by decide))),
   Finset.singleton_subset_iff.mpr (List.mem_toFinset.mpr (List.mem_map_of_mem (f := Proc.devRef (τ := τ) .tc) (a := main_call6_v3) (by decide))),
   Finset.singleton_subset_iff.mpr (List.mem_toFinset.mpr (List.mem_map_of_mem (f := Proc.devRef (τ := τ) .tc) (a := main_call6_v4) (by decide))),
   Finset.singleton_subset_iff.mpr (List.mem_toFinset.mpr (List.mem_map_of_mem (f := Proc.devRef (τ := τ) .tc) (a := main_call6_v5) (by decide))),
   Finset.singleton_subset_iff.mpr (List.mem_toFinset.mpr (List.mem_map_of_mem (f := Proc.devRef (τ := τ) .tc) (a := main_call6_v6) (by decide))),
   Finset.singleton_subset_iff.mpr (List.mem_toFinset.mpr (List.mem_map_of_mem (f := Proc.devRef (τ := τ) .tc) (a := main_call6_v7) (by decide))),
   Finset.singleton_subset_iff.mpr (List.mem_toFinset.mpr (List.mem_map_of_mem (f := Proc.devRef (τ := τ) .tc) (a := main_call6_cst_1) (by decide))),
   Finset.singleton_subset_iff.mpr (List.mem_toFinset.mpr (List.mem_map_of_mem (f := Proc.devRef (τ := τ) .tc) (a := main_call6_v8) (by decide))),
   Finset.singleton_subset_iff.mpr (List.mem_toFinset.mpr (List.mem_map_of_mem (f := Proc.devRef (τ := τ) .tc) (a := main_call6_cst_2) (by decide))),
   Finset.singleton_subset_iff.mpr (List.mem_toFinset.mpr (List.mem_map_of_mem (f := Proc.devRef (τ := τ) .tc) (a := main_call6_v9) (by decide))),
   Finset.singleton_subset_iff.mpr (List.mem_toFinset.mpr (List.mem_map_of_mem (f := Proc.devRef (τ := τ) .tc) (a := main_call6_v10) (by decide))),
   Finset.singleton_subset_iff.mpr (List.mem_toFinset.mpr (List.mem_map_of_mem (f := Proc.devRef (τ := τ) .tc) (a := main_call6_v11) (by decide))),
   Finset.singleton_subset_iff.mpr (List.mem_toFinset.mpr (List.mem_map_of_mem (f := Proc.devRef (τ := τ) .tc) (a := main_call6_cst_3) (by decide))),
   Finset.singleton_subset_iff.mpr (List.mem_toFinset.mpr (List.mem_map_of_mem (f := Proc.devRef (τ := τ) .tc) (a := main_call6_v12) (by decide))),
   Finset.singleton_subset_iff.mpr (List.mem_toFinset.mpr (List.mem_map_of_mem (f := Proc.devRef (τ := τ) .tc) (a := main_call6_cst_4) (by decide))),
   Finset.singleton_subset_iff.mpr (List.mem_toFinset.mpr (List.mem_map_of_mem (f := Proc.devRef (τ := τ) .tc) (a := main_call6_call0_v0) (by decide))),
   Finset.singleton_subset_iff.mpr (List.mem_toFinset.mpr (List.mem_map_of_mem (f := Proc.devRef (τ := τ) .tc) (a := main_call6_call0_v1) (by decide))),
   Finset.singleton_subset_iff.mpr (List.mem_toFinset.mpr (List.mem_map_of_mem (f := Proc.devRef (τ := τ) .tc) (a := main_v300) (by decide))),
   Finset.singleton_subset_iff.mpr (List.mem_toFinset.mpr (List.mem_map_of_mem (f := Proc.devRef (τ := τ) .tc) (a := main_v301) (by decide))),
   Finset.singleton_subset_iff.mpr (List.mem_toFinset.mpr (List.mem_map_of_mem (f := Proc.devRef (τ := τ) .tc) (a := main_v302) (by decide))),
   Finset.singleton_subset_iff.mpr (List.mem_toFinset.mpr (List.mem_map_of_mem (f := Proc.devRef (τ := τ) .tc) (a := main_v303) (by decide))),
   Finset.singleton_subset_iff.mpr (List.mem_toFinset.mpr (List.mem_map_of_mem (f := Proc.devRef (τ := τ) .tc) (a := main_cst_49) (by decide))),
   Finset.singleton_subset_iff.mpr (List.mem_toFinset.mpr (List.mem_map_of_mem (f := Proc.devRef (τ := τ) .tc) (a := main_v304) (by decide))),
   Finset.singleton_subset_iff.mpr (List.mem_toFinset.mpr (List.mem_map_of_mem (f := Proc.devRef (τ := τ) .tc) (a := main_v305) (by decide))),
   Finset.singleton_subset_iff.mpr (List.mem_toFinset.mpr (List.mem_map_of_mem (f := Proc.devRef (τ := τ) .tc) (a := main_v306) (by decide))),
   Finset.singleton_subset_iff.mpr (List.mem_toFinset.mpr (List.mem_map_of_mem (f := Proc.devRef (τ := τ) .tc) (a := main_v307) (by decide))),
   Finset.singleton_subset_iff.mpr (List.mem_toFinset.mpr (List.mem_map_of_mem (f := Proc.devRef (τ := τ) .tc) (a := main_v308) (by decide))),
   Finset.singleton_subset_iff.mpr (List.mem_toFinset.mpr (List.mem_map_of_mem (f := Proc.devRef (τ := τ) .tc) (a := main_v309) (by decide))),
   Finset.singleton_subset_iff.mpr (List.mem_toFinset.mpr (List.mem_map_of_mem (f := Proc.devRef (τ := τ) .tc) (a := main_v310) (by decide))),
   Finset.singleton_subset_iff.mpr (List.mem_toFinset.mpr (List.mem_map_of_mem (f := Proc.devRef (τ := τ) .tc) (a := main_v311) (by decide))),
   Finset.singleton_subset_iff.mpr (List.mem_toFinset.mpr (List.mem_map_of_mem (f := Proc.devRef (τ := τ) .tc) (a := main_v312) (by decide))),
   Finset.singleton_subset_iff.mpr (List.mem_toFinset.mpr (List.mem_map_of_mem (f := Proc.devRef (τ := τ) .tc) (a := main_v313) (by decide))),
   Finset.singleton_subset_iff.mpr (List.mem_toFinset.mpr (List.mem_map_of_mem (f := Proc.devRef (τ := τ) .tc) (a := main_v314) (by decide))),
   Finset.singleton_subset_iff.mpr (List.mem_toFinset.mpr (List.mem_map_of_mem (f := Proc.devRef (τ := τ) .tc) (a := main_v315) (by decide))),
   Finset.singleton_subset_iff.mpr (List.mem_toFinset.mpr (List.mem_map_of_mem (f := Proc.devRef (τ := τ) .tc) (a := main_v316) (by decide))),
   Finset.singleton_subset_iff.mpr (List.mem_toFinset.mpr (List.mem_map_of_mem (f := Proc.devRef (τ := τ) .tc) (a := main_v317) (by decide))),
   Finset.singleton_subset_iff.mpr (List.mem_toFinset.mpr (List.mem_map_of_mem (f := Proc.devRef (τ := τ) .tc) (a := main_v318) (by decide))),
   Finset.singleton_subset_iff.mpr (List.mem_toFinset.mpr (List.mem_map_of_mem (f := Proc.devRef (τ := τ) .tc) (a := main_v319) (by decide))),
   Finset.singleton_subset_iff.mpr (List.mem_toFinset.mpr (List.mem_map_of_mem (f := Proc.devRef (τ := τ) .tc) (a := main_call7_cst) (by decide))),
   Finset.singleton_subset_iff.mpr (List.mem_toFinset.mpr (List.mem_map_of_mem (f := Proc.devRef (τ := τ) .tc) (a := main_call7_v0) (by decide))),
   Finset.singleton_subset_iff.mpr (List.mem_toFinset.mpr (List.mem_map_of_mem (f := Proc.devRef (τ := τ) .tc) (a := main_v320) (by decide))),
   Finset.singleton_subset_iff.mpr (List.mem_toFinset.mpr (List.mem_map_of_mem (f := Proc.devRef (τ := τ) .tc) (a := main_v321) (by decide)))⟩

/-- A buffer those operations do not write keeps its contents through them. -/
theorem cB3_keep (W : Valuation τ sig (Elt F)) (r : Ref sig .tc) (h : r ∉ cB3_W) :
    after cB3 W (Proc.devRef .tc r) = W (Proc.devRef .tc r) :=
  after_of_writes_sub cB3 W cB3_writes h

set_option maxRecDepth 8192 in
set_option maxHeartbeats 4000000 in
/-- Layer 3's result from the contents before its normalization. -/
theorem cB3_v321 (W : Valuation τ sig (Elt F)) :
    after cB3 W (Proc.devRef .tc main_v321)
      = bnS (W (Proc.devRef .tc main_v296)) (W (Proc.devRef .tc main_v250)) (gamma_3 (W (Proc.devRef .tc main_arg8))) (beta_3 (W (Proc.devRef .tc main_arg9))) := by
  simp only [cB3]
  after_results_simp
  rfl

/-- The operations 467 … 503 of @main's 503. -/
abbrev cR : List (HloOp τ sig (Elt F)) :=
  [ StableHlo.nullary main_cst_50 (constant S_ .f32 0x3F800000#32),
    StableHlo.unary main_cst_50 main_v322 (broadcastInDim S50000 ![] bcast_S_S50000 : (⟨S_, .f32⟩ : BufTy).Contents (Elt F) → (⟨S50000, .f32⟩ : BufTy).Contents (Elt F)),
    StableHlo.nullary main_cst_51 (constant S_ .f32 0x00000000#32),
    StableHlo.unary main_cst_51 main_v323 (broadcastInDim S256 ![] bcast_S_S256 : (⟨S_, .f32⟩ : BufTy).Contents (Elt F) → (⟨S256, .f32⟩ : BufTy).Contents (Elt F)),
    StableHlo.unary main_arg3 main_v324 (broadcastInDim S50000x1 ![0] bcast_S50000_S50000x1_0 : (⟨S50000, .i32⟩ : BufTy).Contents (Elt F) → (⟨S50000x1, .i32⟩ : BufTy).Contents (Elt F)),
    StableHlo.ternary main_v323 main_v324 main_v322 main_v325 ((fun x i u => Host.scatterAdd scatter_S256_S50000x1_S50000_n_0_0_1 x i u) : (⟨S256, .f32⟩ : BufTy).Contents (Elt F) → (⟨S50000x1, .i32⟩ : BufTy).Contents (Elt F) → (⟨S50000, .f32⟩ : BufTy).Contents (Elt F) → (⟨S256, .f32⟩ : BufTy).Contents (Elt F)),
    StableHlo.nullary main_cst_52 (constant S_ .f32 0x3F800000#32),
    StableHlo.unary main_cst_52 main_v326 (broadcastInDim S256 ![] bcast_S_S256 : (⟨S_, .f32⟩ : BufTy).Contents (Elt F) → (⟨S256, .f32⟩ : BufTy).Contents (Elt F)),
    StableHlo.binary main_v325 main_v326 main_v327 (maximumf : (⟨S256, .f32⟩ : BufTy).Contents (Elt F) → (⟨S256, .f32⟩ : BufTy).Contents (Elt F) → (⟨S256, .f32⟩ : BufTy).Contents (Elt F)),
    StableHlo.nullary main_cst_53 (constant S_ .f32 0x00000000#32),
    StableHlo.unary main_cst_53 main_v328 (broadcastInDim S256x64 ![] bcast_S_S256x64 : (⟨S_, .f32⟩ : BufTy).Contents (Elt F) → (⟨S256x64, .f32⟩ : BufTy).Contents (Elt F)),
    StableHlo.unary main_arg3 main_v329 (broadcastInDim S50000x1 ![0] bcast_S50000_S50000x1_0 : (⟨S50000, .i32⟩ : BufTy).Contents (Elt F) → (⟨S50000x1, .i32⟩ : BufTy).Contents (Elt F)),
    StableHlo.ternary main_v328 main_v329 main_v321 main_v330 ((fun x i u => Host.scatterAdd scatter_S256x64_S50000x1_S50000x64_1_0_0_1 x i u) : (⟨S256x64, .f32⟩ : BufTy).Contents (Elt F) → (⟨S50000x1, .i32⟩ : BufTy).Contents (Elt F) → (⟨S50000x64, .f32⟩ : BufTy).Contents (Elt F) → (⟨S256x64, .f32⟩ : BufTy).Contents (Elt F)),
    StableHlo.unary main_v327 main_v331 (broadcastInDim S256x1 ![0] bcast_S256_S256x1_0 : (⟨S256, .f32⟩ : BufTy).Contents (Elt F) → (⟨S256x1, .f32⟩ : BufTy).Contents (Elt F)),
    StableHlo.unary main_v331 main_v332 (broadcastInDim S256x64 ![0, 1] bcast_S256x1_S256x64_0_1 : (⟨S256x1, .f32⟩ : BufTy).Contents (Elt F) → (⟨S256x64, .f32⟩ : BufTy).Contents (Elt F)),
    StableHlo.binary main_v330 main_v332 main_v333 (Host.divf : (⟨S256x64, .f32⟩ : BufTy).Contents (Elt F) → (⟨S256x64, .f32⟩ : BufTy).Contents (Elt F) → (⟨S256x64, .f32⟩ : BufTy).Contents (Elt F)),
    StableHlo.unary main_arg12 main_v334 ((transpose S64x32 [1, 0] · transposes_S32x64_S64x32_1_0) : (⟨S32x64, .f32⟩ : BufTy).Contents (Elt F) → (⟨S64x32, .f32⟩ : BufTy).Contents (Elt F)),
    StableHlo.binary main_v333 main_v334 main_v335 ((fun l r => Host.dotGeneral dot_S256x64_S64x32_S256x32_1_0_0_1_n_n none l r) : (⟨S256x64, .f32⟩ : BufTy).Contents (Elt F) → (⟨S64x32, .f32⟩ : BufTy).Contents (Elt F) → (⟨S256x32, .f32⟩ : BufTy).Contents (Elt F)),
    StableHlo.unary main_arg13 main_v336 (broadcastInDim S1x32 ![1] bcast_S32_S1x32_1 : (⟨S32, .f32⟩ : BufTy).Contents (Elt F) → (⟨S1x32, .f32⟩ : BufTy).Contents (Elt F)),
    StableHlo.unary main_v336 main_v337 (broadcastInDim S256x32 ![0, 1] bcast_S1x32_S256x32_0_1 : (⟨S1x32, .f32⟩ : BufTy).Contents (Elt F) → (⟨S256x32, .f32⟩ : BufTy).Contents (Elt F)),
    StableHlo.binary main_v335 main_v337 main_v338 (addf : (⟨S256x32, .f32⟩ : BufTy).Contents (Elt F) → (⟨S256x32, .f32⟩ : BufTy).Contents (Elt F) → (⟨S256x32, .f32⟩ : BufTy).Contents (Elt F)),
    StableHlo.TRef.nullary main_call8.cst (constant S_ .f32 0x00000000#32),
    StableHlo.TRef.unary main_call8.cst main_call8.v0 (broadcastInDim S256x32 ![] bcast_S_S256x32),
    StableHlo.TRef.binary (StableHlo.TRef.of (T := ⟨S256x32, .f32⟩) main_v338) main_call8.v0 main_call8.v1 maximumf,
    StableHlo.unary main_arg14 main_v340 ((transpose S32x16 [1, 0] · transposes_S16x32_S32x16_1_0) : (⟨S16x32, .f32⟩ : BufTy).Contents (Elt F) → (⟨S32x16, .f32⟩ : BufTy).Contents (Elt F)),
    StableHlo.binary main_v339 main_v340 main_v341 ((fun l r => Host.dotGeneral dot_S256x32_S32x16_S256x16_1_0_0_1_n_n none l r) : (⟨S256x32, .f32⟩ : BufTy).Contents (Elt F) → (⟨S32x16, .f32⟩ : BufTy).Contents (Elt F) → (⟨S256x16, .f32⟩ : BufTy).Contents (Elt F)),
    StableHlo.unary main_arg15 main_v342 (broadcastInDim S1x16 ![1] bcast_S16_S1x16_1 : (⟨S16, .f32⟩ : BufTy).Contents (Elt F) → (⟨S1x16, .f32⟩ : BufTy).Contents (Elt F)),
    StableHlo.unary main_v342 main_v343 (broadcastInDim S256x16 ![0, 1] bcast_S1x16_S256x16_0_1 : (⟨S1x16, .f32⟩ : BufTy).Contents (Elt F) → (⟨S256x16, .f32⟩ : BufTy).Contents (Elt F)),
    StableHlo.binary main_v341 main_v343 main_v344 (addf : (⟨S256x16, .f32⟩ : BufTy).Contents (Elt F) → (⟨S256x16, .f32⟩ : BufTy).Contents (Elt F) → (⟨S256x16, .f32⟩ : BufTy).Contents (Elt F)),
    StableHlo.TRef.nullary main_call9.cst (constant S_ .f32 0x00000000#32),
    StableHlo.TRef.unary main_call9.cst main_call9.v0 (broadcastInDim S256x16 ![] bcast_S_S256x16),
    StableHlo.TRef.binary (StableHlo.TRef.of (T := ⟨S256x16, .f32⟩) main_v344) main_call9.v0 main_call9.v1 maximumf,
    StableHlo.unary main_arg16 main_v346 ((transpose S16x1 [1, 0] · transposes_S1x16_S16x1_1_0) : (⟨S1x16, .f32⟩ : BufTy).Contents (Elt F) → (⟨S16x1, .f32⟩ : BufTy).Contents (Elt F)),
    StableHlo.binary main_v345 main_v346 main_v347 ((fun l r => Host.dotGeneral dot_S256x16_S16x1_S256x1_1_0_0_1_n_n none l r) : (⟨S256x16, .f32⟩ : BufTy).Contents (Elt F) → (⟨S16x1, .f32⟩ : BufTy).Contents (Elt F) → (⟨S256x1, .f32⟩ : BufTy).Contents (Elt F)),
    StableHlo.unary main_arg17 main_v348 (broadcastInDim S1x1 ![1] bcast_S1_S1x1_1 : (⟨S1, .f32⟩ : BufTy).Contents (Elt F) → (⟨S1x1, .f32⟩ : BufTy).Contents (Elt F)),
    StableHlo.unary main_v348 main_v349 (broadcastInDim S256x1 ![0, 1] bcast_S1x1_S256x1_0_1 : (⟨S1x1, .f32⟩ : BufTy).Contents (Elt F) → (⟨S256x1, .f32⟩ : BufTy).Contents (Elt F)),
    StableHlo.binary main_v347 main_v349 main_v350 (addf : (⟨S256x1, .f32⟩ : BufTy).Contents (Elt F) → (⟨S256x1, .f32⟩ : BufTy).Contents (Elt F) → (⟨S256x1, .f32⟩ : BufTy).Contents (Elt F)) ]

/-- The buffers those operations write. -/
abbrev cR_W : List (Ref sig .tc) :=
  [main_cst_50, main_v322, main_cst_51, main_v323, main_v324, main_v325, main_cst_52, main_v326, main_v327, main_cst_53, main_v328, main_v329, main_v330, main_v331, main_v332, main_v333, main_v334, main_v335, main_v336, main_v337, main_v338, main_call8_cst, main_call8_v0, main_v339, main_v340, main_v341, main_v342, main_v343, main_v344, main_call9_cst, main_call9_v0, main_v345, main_v346, main_v347, main_v348, main_v349, main_v350]

set_option maxRecDepth 8192 in
theorem cR_writes : (cR : List (HloOp τ sig (Elt F))).Forall fun op =>
    op.writes ⊆ (cR_W.map (Proc.devRef (τ := τ) .tc)).toFinset :=
  ⟨Finset.singleton_subset_iff.mpr (List.mem_toFinset.mpr (List.mem_map_of_mem (f := Proc.devRef (τ := τ) .tc) (a := main_cst_50) (by decide))),
   Finset.singleton_subset_iff.mpr (List.mem_toFinset.mpr (List.mem_map_of_mem (f := Proc.devRef (τ := τ) .tc) (a := main_v322) (by decide))),
   Finset.singleton_subset_iff.mpr (List.mem_toFinset.mpr (List.mem_map_of_mem (f := Proc.devRef (τ := τ) .tc) (a := main_cst_51) (by decide))),
   Finset.singleton_subset_iff.mpr (List.mem_toFinset.mpr (List.mem_map_of_mem (f := Proc.devRef (τ := τ) .tc) (a := main_v323) (by decide))),
   Finset.singleton_subset_iff.mpr (List.mem_toFinset.mpr (List.mem_map_of_mem (f := Proc.devRef (τ := τ) .tc) (a := main_v324) (by decide))),
   Finset.singleton_subset_iff.mpr (List.mem_toFinset.mpr (List.mem_map_of_mem (f := Proc.devRef (τ := τ) .tc) (a := main_v325) (by decide))),
   Finset.singleton_subset_iff.mpr (List.mem_toFinset.mpr (List.mem_map_of_mem (f := Proc.devRef (τ := τ) .tc) (a := main_cst_52) (by decide))),
   Finset.singleton_subset_iff.mpr (List.mem_toFinset.mpr (List.mem_map_of_mem (f := Proc.devRef (τ := τ) .tc) (a := main_v326) (by decide))),
   Finset.singleton_subset_iff.mpr (List.mem_toFinset.mpr (List.mem_map_of_mem (f := Proc.devRef (τ := τ) .tc) (a := main_v327) (by decide))),
   Finset.singleton_subset_iff.mpr (List.mem_toFinset.mpr (List.mem_map_of_mem (f := Proc.devRef (τ := τ) .tc) (a := main_cst_53) (by decide))),
   Finset.singleton_subset_iff.mpr (List.mem_toFinset.mpr (List.mem_map_of_mem (f := Proc.devRef (τ := τ) .tc) (a := main_v328) (by decide))),
   Finset.singleton_subset_iff.mpr (List.mem_toFinset.mpr (List.mem_map_of_mem (f := Proc.devRef (τ := τ) .tc) (a := main_v329) (by decide))),
   Finset.singleton_subset_iff.mpr (List.mem_toFinset.mpr (List.mem_map_of_mem (f := Proc.devRef (τ := τ) .tc) (a := main_v330) (by decide))),
   Finset.singleton_subset_iff.mpr (List.mem_toFinset.mpr (List.mem_map_of_mem (f := Proc.devRef (τ := τ) .tc) (a := main_v331) (by decide))),
   Finset.singleton_subset_iff.mpr (List.mem_toFinset.mpr (List.mem_map_of_mem (f := Proc.devRef (τ := τ) .tc) (a := main_v332) (by decide))),
   Finset.singleton_subset_iff.mpr (List.mem_toFinset.mpr (List.mem_map_of_mem (f := Proc.devRef (τ := τ) .tc) (a := main_v333) (by decide))),
   Finset.singleton_subset_iff.mpr (List.mem_toFinset.mpr (List.mem_map_of_mem (f := Proc.devRef (τ := τ) .tc) (a := main_v334) (by decide))),
   Finset.singleton_subset_iff.mpr (List.mem_toFinset.mpr (List.mem_map_of_mem (f := Proc.devRef (τ := τ) .tc) (a := main_v335) (by decide))),
   Finset.singleton_subset_iff.mpr (List.mem_toFinset.mpr (List.mem_map_of_mem (f := Proc.devRef (τ := τ) .tc) (a := main_v336) (by decide))),
   Finset.singleton_subset_iff.mpr (List.mem_toFinset.mpr (List.mem_map_of_mem (f := Proc.devRef (τ := τ) .tc) (a := main_v337) (by decide))),
   Finset.singleton_subset_iff.mpr (List.mem_toFinset.mpr (List.mem_map_of_mem (f := Proc.devRef (τ := τ) .tc) (a := main_v338) (by decide))),
   Finset.singleton_subset_iff.mpr (List.mem_toFinset.mpr (List.mem_map_of_mem (f := Proc.devRef (τ := τ) .tc) (a := main_call8_cst) (by decide))),
   Finset.singleton_subset_iff.mpr (List.mem_toFinset.mpr (List.mem_map_of_mem (f := Proc.devRef (τ := τ) .tc) (a := main_call8_v0) (by decide))),
   Finset.singleton_subset_iff.mpr (List.mem_toFinset.mpr (List.mem_map_of_mem (f := Proc.devRef (τ := τ) .tc) (a := main_v339) (by decide))),
   Finset.singleton_subset_iff.mpr (List.mem_toFinset.mpr (List.mem_map_of_mem (f := Proc.devRef (τ := τ) .tc) (a := main_v340) (by decide))),
   Finset.singleton_subset_iff.mpr (List.mem_toFinset.mpr (List.mem_map_of_mem (f := Proc.devRef (τ := τ) .tc) (a := main_v341) (by decide))),
   Finset.singleton_subset_iff.mpr (List.mem_toFinset.mpr (List.mem_map_of_mem (f := Proc.devRef (τ := τ) .tc) (a := main_v342) (by decide))),
   Finset.singleton_subset_iff.mpr (List.mem_toFinset.mpr (List.mem_map_of_mem (f := Proc.devRef (τ := τ) .tc) (a := main_v343) (by decide))),
   Finset.singleton_subset_iff.mpr (List.mem_toFinset.mpr (List.mem_map_of_mem (f := Proc.devRef (τ := τ) .tc) (a := main_v344) (by decide))),
   Finset.singleton_subset_iff.mpr (List.mem_toFinset.mpr (List.mem_map_of_mem (f := Proc.devRef (τ := τ) .tc) (a := main_call9_cst) (by decide))),
   Finset.singleton_subset_iff.mpr (List.mem_toFinset.mpr (List.mem_map_of_mem (f := Proc.devRef (τ := τ) .tc) (a := main_call9_v0) (by decide))),
   Finset.singleton_subset_iff.mpr (List.mem_toFinset.mpr (List.mem_map_of_mem (f := Proc.devRef (τ := τ) .tc) (a := main_v345) (by decide))),
   Finset.singleton_subset_iff.mpr (List.mem_toFinset.mpr (List.mem_map_of_mem (f := Proc.devRef (τ := τ) .tc) (a := main_v346) (by decide))),
   Finset.singleton_subset_iff.mpr (List.mem_toFinset.mpr (List.mem_map_of_mem (f := Proc.devRef (τ := τ) .tc) (a := main_v347) (by decide))),
   Finset.singleton_subset_iff.mpr (List.mem_toFinset.mpr (List.mem_map_of_mem (f := Proc.devRef (τ := τ) .tc) (a := main_v348) (by decide))),
   Finset.singleton_subset_iff.mpr (List.mem_toFinset.mpr (List.mem_map_of_mem (f := Proc.devRef (τ := τ) .tc) (a := main_v349) (by decide))),
   Finset.singleton_subset_iff.mpr (List.mem_toFinset.mpr (List.mem_map_of_mem (f := Proc.devRef (τ := τ) .tc) (a := main_v350) (by decide)))⟩

/-- A buffer those operations do not write keeps its contents through them. -/
theorem cR_keep (W : Valuation τ sig (Elt F)) (r : Ref sig .tc) (h : r ∉ cR_W) :
    after cR W (Proc.devRef .tc r) = W (Proc.devRef .tc r) :=
  after_of_writes_sub cR W cR_writes h

set_option maxRecDepth 8192 in
set_option maxHeartbeats 4000000 in
/-- The result from the contents before the readout. -/
theorem cR_v350 (W : Valuation τ sig (Elt F)) :
    after cR W (Proc.devRef .tc main_v350)
      = readoutS (W (Proc.devRef .tc main_v321)) (W (Proc.devRef .tc main_arg3)) (W (Proc.devRef .tc main_arg12)) (W (Proc.devRef .tc main_arg13)) (W (Proc.devRef .tc main_arg14)) (W (Proc.devRef .tc main_arg15)) (W (Proc.devRef .tc main_arg16)) (W (Proc.devRef .tc main_arg17)) := by
  simp only [cR]
  after_results_simp
  rfl

/-! ## The values from the arguments' contents, stretch after stretch -/

/-- The edges' pseudo-coordinates from the arguments' contents. -/
noncomputable def refPseudo (V : Valuation τ sig (Elt F)) : (⟨S800000x2, .f32⟩ : BufTy).Contents (Elt F) :=
  pseudoS (V (Proc.devRef .tc main_arg1)) (V (Proc.devRef .tc main_arg2))

/-- The nodes' first features from the arguments' contents. -/
noncomputable def refH0 (V : Valuation τ sig (Elt F)) : (⟨S50000x64, .f32⟩ : BufTy).Contents (Elt F) :=
  h0S (V (Proc.devRef .tc main_arg4)) (V (Proc.devRef .tc main_arg0))

/-- Layer 0's aggregate from the arguments' contents. -/
noncomputable def refAgg0 (V : Valuation τ sig (Elt F)) : (⟨S50000x64, .f32⟩ : BufTy).Contents (Elt F) :=
  aggS (msgS (hkSrcS (hkS (refH0 V) (W_0 (V (Proc.devRef .tc main_arg5)))) (V (Proc.devRef .tc main_arg1))) (gaussS (uS (refPseudo V) (A_0 (V (Proc.devRef .tc main_arg10))) (bvec_0 (V (Proc.devRef .tc main_arg11)))) (mu_0 (V (Proc.devRef .tc main_arg6))) (sg_0 (V (Proc.devRef .tc main_arg7))))) (V (Proc.devRef .tc main_arg2))

/-- The nodes' features after layer 0 from the arguments' contents. -/
noncomputable def refH1 (V : Valuation τ sig (Elt F)) : (⟨S50000x64, .f32⟩ : BufTy).Contents (Elt F) :=
  bnS (refAgg0 V) (refH0 V) (gamma_0 (V (Proc.devRef .tc main_arg8))) (beta_0 (V (Proc.devRef .tc main_arg9)))

/-- Layer 0 is the layer function at block 0 of the stacked parameters. -/
theorem refH1_eq (V : Valuation τ sig (Elt F)) :
    refH1 V = layerS (refH0 V) (refPseudo V) (V (Proc.devRef .tc main_arg1)) (V (Proc.devRef .tc main_arg2)) (A_0 (V (Proc.devRef .tc main_arg10))) (bvec_0 (V (Proc.devRef .tc main_arg11)))
      (mu_0 (V (Proc.devRef .tc main_arg6))) (sg_0 (V (Proc.devRef .tc main_arg7))) (W_0 (V (Proc.devRef .tc main_arg5))) (gamma_0 (V (Proc.devRef .tc main_arg8))) (beta_0 (V (Proc.devRef .tc main_arg9))) := rfl

/-- Layer 1's aggregate from the arguments' contents. -/
noncomputable def refAgg1 (V : Valuation τ sig (Elt F)) : (⟨S50000x64, .f32⟩ : BufTy).Contents (Elt F) :=
  aggS (msgS (hkSrcS (hkS (refH1 V) (W_1 (V (Proc.devRef .tc main_arg5)))) (V (Proc.devRef .tc main_arg1))) (gaussS (uS (refPseudo V) (A_1 (V (Proc.devRef .tc main_arg10))) (bvec_1 (V (Proc.devRef .tc main_arg11)))) (mu_1 (V (Proc.devRef .tc main_arg6))) (sg_1 (V (Proc.devRef .tc main_arg7))))) (V (Proc.devRef .tc main_arg2))

/-- The nodes' features after layer 1 from the arguments' contents. -/
noncomputable def refH2 (V : Valuation τ sig (Elt F)) : (⟨S50000x64, .f32⟩ : BufTy).Contents (Elt F) :=
  bnS (refAgg1 V) (refH1 V) (gamma_1 (V (Proc.devRef .tc main_arg8))) (beta_1 (V (Proc.devRef .tc main_arg9)))

/-- Layer 1 is the layer function at block 1 of the stacked parameters. -/
theorem refH2_eq (V : Valuation τ sig (Elt F)) :
    refH2 V = layerS (refH1 V) (refPseudo V) (V (Proc.devRef .tc main_arg1)) (V (Proc.devRef .tc main_arg2)) (A_1 (V (Proc.devRef .tc main_arg10))) (bvec_1 (V (Proc.devRef .tc main_arg11)))
      (mu_1 (V (Proc.devRef .tc main_arg6))) (sg_1 (V (Proc.devRef .tc main_arg7))) (W_1 (V (Proc.devRef .tc main_arg5))) (gamma_1 (V (Proc.devRef .tc main_arg8))) (beta_1 (V (Proc.devRef .tc main_arg9))) := rfl

/-- Layer 2's aggregate from the arguments' contents. -/
noncomputable def refAgg2 (V : Valuation τ sig (Elt F)) : (⟨S50000x64, .f32⟩ : BufTy).Contents (Elt F) :=
  aggS (msgS (hkSrcS (hkS (refH2 V) (W_2 (V (Proc.devRef .tc main_arg5)))) (V (Proc.devRef .tc main_arg1))) (gaussS (uS (refPseudo V) (A_2 (V (Proc.devRef .tc main_arg10))) (bvec_2 (V (Proc.devRef .tc main_arg11)))) (mu_2 (V (Proc.devRef .tc main_arg6))) (sg_2 (V (Proc.devRef .tc main_arg7))))) (V (Proc.devRef .tc main_arg2))

/-- The nodes' features after layer 2 from the arguments' contents. -/
noncomputable def refH3 (V : Valuation τ sig (Elt F)) : (⟨S50000x64, .f32⟩ : BufTy).Contents (Elt F) :=
  bnS (refAgg2 V) (refH2 V) (gamma_2 (V (Proc.devRef .tc main_arg8))) (beta_2 (V (Proc.devRef .tc main_arg9)))

/-- Layer 2 is the layer function at block 2 of the stacked parameters. -/
theorem refH3_eq (V : Valuation τ sig (Elt F)) :
    refH3 V = layerS (refH2 V) (refPseudo V) (V (Proc.devRef .tc main_arg1)) (V (Proc.devRef .tc main_arg2)) (A_2 (V (Proc.devRef .tc main_arg10))) (bvec_2 (V (Proc.devRef .tc main_arg11)))
      (mu_2 (V (Proc.devRef .tc main_arg6))) (sg_2 (V (Proc.devRef .tc main_arg7))) (W_2 (V (Proc.devRef .tc main_arg5))) (gamma_2 (V (Proc.devRef .tc main_arg8))) (beta_2 (V (Proc.devRef .tc main_arg9))) := rfl

/-- Layer 3's aggregate from the arguments' contents. -/
noncomputable def refAgg3 (V : Valuation τ sig (Elt F)) : (⟨S50000x64, .f32⟩ : BufTy).Contents (Elt F) :=
  aggS (msgS (hkSrcS (hkS (refH3 V) (W_3 (V (Proc.devRef .tc main_arg5)))) (V (Proc.devRef .tc main_arg1))) (gaussS (uS (refPseudo V) (A_3 (V (Proc.devRef .tc main_arg10))) (bvec_3 (V (Proc.devRef .tc main_arg11)))) (mu_3 (V (Proc.devRef .tc main_arg6))) (sg_3 (V (Proc.devRef .tc main_arg7))))) (V (Proc.devRef .tc main_arg2))

/-- The nodes' features after layer 3 from the arguments' contents. -/
noncomputable def refH4 (V : Valuation τ sig (Elt F)) : (⟨S50000x64, .f32⟩ : BufTy).Contents (Elt F) :=
  bnS (refAgg3 V) (refH3 V) (gamma_3 (V (Proc.devRef .tc main_arg8))) (beta_3 (V (Proc.devRef .tc main_arg9)))

/-- Layer 3 is the layer function at block 3 of the stacked parameters. -/
theorem refH4_eq (V : Valuation τ sig (Elt F)) :
    refH4 V = layerS (refH3 V) (refPseudo V) (V (Proc.devRef .tc main_arg1)) (V (Proc.devRef .tc main_arg2)) (A_3 (V (Proc.devRef .tc main_arg10))) (bvec_3 (V (Proc.devRef .tc main_arg11)))
      (mu_3 (V (Proc.devRef .tc main_arg6))) (sg_3 (V (Proc.devRef .tc main_arg7))) (W_3 (V (Proc.devRef .tc main_arg5))) (gamma_3 (V (Proc.devRef .tc main_arg8))) (beta_3 (V (Proc.devRef .tc main_arg9))) := rfl

/-- The contents after the first 1 stretch of operations. -/
noncomputable def val0 (V : Valuation τ sig (Elt F)) : Valuation τ sig (Elt F) := after cP V
theorem val0_arg1 (V : Valuation τ sig (Elt F)) : val0 V (Proc.devRef .tc main_arg1) = (V (Proc.devRef .tc main_arg1)) :=
  cP_keep V main_arg1 (by decide)
theorem val0_arg2 (V : Valuation τ sig (Elt F)) : val0 V (Proc.devRef .tc main_arg2) = (V (Proc.devRef .tc main_arg2)) :=
  cP_keep V main_arg2 (by decide)
theorem val0_arg3 (V : Valuation τ sig (Elt F)) : val0 V (Proc.devRef .tc main_arg3) = (V (Proc.devRef .tc main_arg3)) :=
  cP_keep V main_arg3 (by decide)
theorem val0_arg5 (V : Valuation τ sig (Elt F)) : val0 V (Proc.devRef .tc main_arg5) = (V (Proc.devRef .tc main_arg5)) :=
  cP_keep V main_arg5 (by decide)
theorem val0_arg6 (V : Valuation τ sig (Elt F)) : val0 V (Proc.devRef .tc main_arg6) = (V (Proc.devRef .tc main_arg6)) :=
  cP_keep V main_arg6 (by decide)
theorem val0_arg7 (V : Valuation τ sig (Elt F)) : val0 V (Proc.devRef .tc main_arg7) = (V (Proc.devRef .tc main_arg7)) :=
  cP_keep V main_arg7 (by decide)
theorem val0_arg8 (V : Valuation τ sig (Elt F)) : val0 V (Proc.devRef .tc main_arg8) = (V (Proc.devRef .tc main_arg8)) :=
  cP_keep V main_arg8 (by decide)
theorem val0_arg9 (V : Valuation τ sig (Elt F)) : val0 V (Proc.devRef .tc main_arg9) = (V (Proc.devRef .tc main_arg9)) :=
  cP_keep V main_arg9 (by decide)
theorem val0_arg10 (V : Valuation τ sig (Elt F)) : val0 V (Proc.devRef .tc main_arg10) = (V (Proc.devRef .tc main_arg10)) :=
  cP_keep V main_arg10 (by decide)
theorem val0_arg11 (V : Valuation τ sig (Elt F)) : val0 V (Proc.devRef .tc main_arg11) = (V (Proc.devRef .tc main_arg11)) :=
  cP_keep V main_arg11 (by decide)
theorem val0_arg12 (V : Valuation τ sig (Elt F)) : val0 V (Proc.devRef .tc main_arg12) = (V (Proc.devRef .tc main_arg12)) :=
  cP_keep V main_arg12 (by decide)
theorem val0_arg13 (V : Valuation τ sig (Elt F)) : val0 V (Proc.devRef .tc main_arg13) = (V (Proc.devRef .tc main_arg13)) :=
  cP_keep V main_arg13 (by decide)
theorem val0_arg14 (V : Valuation τ sig (Elt F)) : val0 V (Proc.devRef .tc main_arg14) = (V (Proc.devRef .tc main_arg14)) :=
  cP_keep V main_arg14 (by decide)
theorem val0_arg15 (V : Valuation τ sig (Elt F)) : val0 V (Proc.devRef .tc main_arg15) = (V (Proc.devRef .tc main_arg15)) :=
  cP_keep V main_arg15 (by decide)
theorem val0_arg16 (V : Valuation τ sig (Elt F)) : val0 V (Proc.devRef .tc main_arg16) = (V (Proc.devRef .tc main_arg16)) :=
  cP_keep V main_arg16 (by decide)
theorem val0_arg17 (V : Valuation τ sig (Elt F)) : val0 V (Proc.devRef .tc main_arg17) = (V (Proc.devRef .tc main_arg17)) :=
  cP_keep V main_arg17 (by decide)
theorem val0_v30 (V : Valuation τ sig (Elt F)) : val0 V (Proc.devRef .tc main_v30) = refPseudo V :=
  cP_v30 V
theorem val0_v37 (V : Valuation τ sig (Elt F)) : val0 V (Proc.devRef .tc main_v37) = refH0 V :=
  cP_v37 V

/-- The contents after the first 2 stretches of operations. -/
noncomputable def val1 (V : Valuation τ sig (Elt F)) : Valuation τ sig (Elt F) := after cM0 (val0 V)
theorem val1_arg1 (V : Valuation τ sig (Elt F)) : val1 V (Proc.devRef .tc main_arg1) = (V (Proc.devRef .tc main_arg1)) :=
  (cM0_keep (val0 V) main_arg1 (by decide)).trans (val0_arg1 V)
theorem val1_arg2 (V : Valuation τ sig (Elt F)) : val1 V (Proc.devRef .tc main_arg2) = (V (Proc.devRef .tc main_arg2)) :=
  (cM0_keep (val0 V) main_arg2 (by decide)).trans (val0_arg2 V)
theorem val1_arg3 (V : Valuation τ sig (Elt F)) : val1 V (Proc.devRef .tc main_arg3) = (V (Proc.devRef .tc main_arg3)) :=
  (cM0_keep (val0 V) main_arg3 (by decide)).trans (val0_arg3 V)
theorem val1_arg5 (V : Valuation τ sig (Elt F)) : val1 V (Proc.devRef .tc main_arg5) = (V (Proc.devRef .tc main_arg5)) :=
  (cM0_keep (val0 V) main_arg5 (by decide)).trans (val0_arg5 V)
theorem val1_arg6 (V : Valuation τ sig (Elt F)) : val1 V (Proc.devRef .tc main_arg6) = (V (Proc.devRef .tc main_arg6)) :=
  (cM0_keep (val0 V) main_arg6 (by decide)).trans (val0_arg6 V)
theorem val1_arg7 (V : Valuation τ sig (Elt F)) : val1 V (Proc.devRef .tc main_arg7) = (V (Proc.devRef .tc main_arg7)) :=
  (cM0_keep (val0 V) main_arg7 (by decide)).trans (val0_arg7 V)
theorem val1_arg8 (V : Valuation τ sig (Elt F)) : val1 V (Proc.devRef .tc main_arg8) = (V (Proc.devRef .tc main_arg8)) :=
  (cM0_keep (val0 V) main_arg8 (by decide)).trans (val0_arg8 V)
theorem val1_arg9 (V : Valuation τ sig (Elt F)) : val1 V (Proc.devRef .tc main_arg9) = (V (Proc.devRef .tc main_arg9)) :=
  (cM0_keep (val0 V) main_arg9 (by decide)).trans (val0_arg9 V)
theorem val1_arg10 (V : Valuation τ sig (Elt F)) : val1 V (Proc.devRef .tc main_arg10) = (V (Proc.devRef .tc main_arg10)) :=
  (cM0_keep (val0 V) main_arg10 (by decide)).trans (val0_arg10 V)
theorem val1_arg11 (V : Valuation τ sig (Elt F)) : val1 V (Proc.devRef .tc main_arg11) = (V (Proc.devRef .tc main_arg11)) :=
  (cM0_keep (val0 V) main_arg11 (by decide)).trans (val0_arg11 V)
theorem val1_arg12 (V : Valuation τ sig (Elt F)) : val1 V (Proc.devRef .tc main_arg12) = (V (Proc.devRef .tc main_arg12)) :=
  (cM0_keep (val0 V) main_arg12 (by decide)).trans (val0_arg12 V)
theorem val1_arg13 (V : Valuation τ sig (Elt F)) : val1 V (Proc.devRef .tc main_arg13) = (V (Proc.devRef .tc main_arg13)) :=
  (cM0_keep (val0 V) main_arg13 (by decide)).trans (val0_arg13 V)
theorem val1_arg14 (V : Valuation τ sig (Elt F)) : val1 V (Proc.devRef .tc main_arg14) = (V (Proc.devRef .tc main_arg14)) :=
  (cM0_keep (val0 V) main_arg14 (by decide)).trans (val0_arg14 V)
theorem val1_arg15 (V : Valuation τ sig (Elt F)) : val1 V (Proc.devRef .tc main_arg15) = (V (Proc.devRef .tc main_arg15)) :=
  (cM0_keep (val0 V) main_arg15 (by decide)).trans (val0_arg15 V)
theorem val1_arg16 (V : Valuation τ sig (Elt F)) : val1 V (Proc.devRef .tc main_arg16) = (V (Proc.devRef .tc main_arg16)) :=
  (cM0_keep (val0 V) main_arg16 (by decide)).trans (val0_arg16 V)
theorem val1_arg17 (V : Valuation τ sig (Elt F)) : val1 V (Proc.devRef .tc main_arg17) = (V (Proc.devRef .tc main_arg17)) :=
  (cM0_keep (val0 V) main_arg17 (by decide)).trans (val0_arg17 V)
theorem val1_v30 (V : Valuation τ sig (Elt F)) : val1 V (Proc.devRef .tc main_v30) = refPseudo V :=
  (cM0_keep (val0 V) main_v30 (by decide)).trans (val0_v30 V)
theorem val1_v37 (V : Valuation τ sig (Elt F)) : val1 V (Proc.devRef .tc main_v37) = refH0 V :=
  (cM0_keep (val0 V) main_v37 (by decide)).trans (val0_v37 V)
theorem val1_v83 (V : Valuation τ sig (Elt F)) : val1 V (Proc.devRef .tc main_v83) = refAgg0 V :=
  (cM0_v83 (val0 V)).trans (by rw [val0_v37, val0_arg5, val0_arg1, val0_v30, val0_arg10, val0_arg11, val0_arg6, val0_arg7, val0_arg2] <;> rfl)

/-- The contents after the first 3 stretches of operations. -/
noncomputable def val2 (V : Valuation τ sig (Elt F)) : Valuation τ sig (Elt F) := after cB0 (val1 V)
theorem val2_arg1 (V : Valuation τ sig (Elt F)) : val2 V (Proc.devRef .tc main_arg1) = (V (Proc.devRef .tc main_arg1)) :=
  (cB0_keep (val1 V) main_arg1 (by decide)).trans (val1_arg1 V)
theorem val2_arg2 (V : Valuation τ sig (Elt F)) : val2 V (Proc.devRef .tc main_arg2) = (V (Proc.devRef .tc main_arg2)) :=
  (cB0_keep (val1 V) main_arg2 (by decide)).trans (val1_arg2 V)
theorem val2_arg3 (V : Valuation τ sig (Elt F)) : val2 V (Proc.devRef .tc main_arg3) = (V (Proc.devRef .tc main_arg3)) :=
  (cB0_keep (val1 V) main_arg3 (by decide)).trans (val1_arg3 V)
theorem val2_arg5 (V : Valuation τ sig (Elt F)) : val2 V (Proc.devRef .tc main_arg5) = (V (Proc.devRef .tc main_arg5)) :=
  (cB0_keep (val1 V) main_arg5 (by decide)).trans (val1_arg5 V)
theorem val2_arg6 (V : Valuation τ sig (Elt F)) : val2 V (Proc.devRef .tc main_arg6) = (V (Proc.devRef .tc main_arg6)) :=
  (cB0_keep (val1 V) main_arg6 (by decide)).trans (val1_arg6 V)
theorem val2_arg7 (V : Valuation τ sig (Elt F)) : val2 V (Proc.devRef .tc main_arg7) = (V (Proc.devRef .tc main_arg7)) :=
  (cB0_keep (val1 V) main_arg7 (by decide)).trans (val1_arg7 V)
theorem val2_arg8 (V : Valuation τ sig (Elt F)) : val2 V (Proc.devRef .tc main_arg8) = (V (Proc.devRef .tc main_arg8)) :=
  (cB0_keep (val1 V) main_arg8 (by decide)).trans (val1_arg8 V)
theorem val2_arg9 (V : Valuation τ sig (Elt F)) : val2 V (Proc.devRef .tc main_arg9) = (V (Proc.devRef .tc main_arg9)) :=
  (cB0_keep (val1 V) main_arg9 (by decide)).trans (val1_arg9 V)
theorem val2_arg10 (V : Valuation τ sig (Elt F)) : val2 V (Proc.devRef .tc main_arg10) = (V (Proc.devRef .tc main_arg10)) :=
  (cB0_keep (val1 V) main_arg10 (by decide)).trans (val1_arg10 V)
theorem val2_arg11 (V : Valuation τ sig (Elt F)) : val2 V (Proc.devRef .tc main_arg11) = (V (Proc.devRef .tc main_arg11)) :=
  (cB0_keep (val1 V) main_arg11 (by decide)).trans (val1_arg11 V)
theorem val2_arg12 (V : Valuation τ sig (Elt F)) : val2 V (Proc.devRef .tc main_arg12) = (V (Proc.devRef .tc main_arg12)) :=
  (cB0_keep (val1 V) main_arg12 (by decide)).trans (val1_arg12 V)
theorem val2_arg13 (V : Valuation τ sig (Elt F)) : val2 V (Proc.devRef .tc main_arg13) = (V (Proc.devRef .tc main_arg13)) :=
  (cB0_keep (val1 V) main_arg13 (by decide)).trans (val1_arg13 V)
theorem val2_arg14 (V : Valuation τ sig (Elt F)) : val2 V (Proc.devRef .tc main_arg14) = (V (Proc.devRef .tc main_arg14)) :=
  (cB0_keep (val1 V) main_arg14 (by decide)).trans (val1_arg14 V)
theorem val2_arg15 (V : Valuation τ sig (Elt F)) : val2 V (Proc.devRef .tc main_arg15) = (V (Proc.devRef .tc main_arg15)) :=
  (cB0_keep (val1 V) main_arg15 (by decide)).trans (val1_arg15 V)
theorem val2_arg16 (V : Valuation τ sig (Elt F)) : val2 V (Proc.devRef .tc main_arg16) = (V (Proc.devRef .tc main_arg16)) :=
  (cB0_keep (val1 V) main_arg16 (by decide)).trans (val1_arg16 V)
theorem val2_arg17 (V : Valuation τ sig (Elt F)) : val2 V (Proc.devRef .tc main_arg17) = (V (Proc.devRef .tc main_arg17)) :=
  (cB0_keep (val1 V) main_arg17 (by decide)).trans (val1_arg17 V)
theorem val2_v30 (V : Valuation τ sig (Elt F)) : val2 V (Proc.devRef .tc main_v30) = refPseudo V :=
  (cB0_keep (val1 V) main_v30 (by decide)).trans (val1_v30 V)
theorem val2_v108 (V : Valuation τ sig (Elt F)) : val2 V (Proc.devRef .tc main_v108) = refH1 V :=
  (cB0_v108 (val1 V)).trans (by rw [val1_v83, val1_v37, val1_arg8, val1_arg9] <;> rfl)

/-- The contents after the first 4 stretches of operations. -/
noncomputable def val3 (V : Valuation τ sig (Elt F)) : Valuation τ sig (Elt F) := after cM1 (val2 V)
theorem val3_arg1 (V : Valuation τ sig (Elt F)) : val3 V (Proc.devRef .tc main_arg1) = (V (Proc.devRef .tc main_arg1)) :=
  (cM1_keep (val2 V) main_arg1 (by decide)).trans (val2_arg1 V)
theorem val3_arg2 (V : Valuation τ sig (Elt F)) : val3 V (Proc.devRef .tc main_arg2) = (V (Proc.devRef .tc main_arg2)) :=
  (cM1_keep (val2 V) main_arg2 (by decide)).trans (val2_arg2 V)
theorem val3_arg3 (V : Valuation τ sig (Elt F)) : val3 V (Proc.devRef .tc main_arg3) = (V (Proc.devRef .tc main_arg3)) :=
  (cM1_keep (val2 V) main_arg3 (by decide)).trans (val2_arg3 V)
theorem val3_arg5 (V : Valuation τ sig (Elt F)) : val3 V (Proc.devRef .tc main_arg5) = (V (Proc.devRef .tc main_arg5)) :=
  (cM1_keep (val2 V) main_arg5 (by decide)).trans (val2_arg5 V)
theorem val3_arg6 (V : Valuation τ sig (Elt F)) : val3 V (Proc.devRef .tc main_arg6) = (V (Proc.devRef .tc main_arg6)) :=
  (cM1_keep (val2 V) main_arg6 (by decide)).trans (val2_arg6 V)
theorem val3_arg7 (V : Valuation τ sig (Elt F)) : val3 V (Proc.devRef .tc main_arg7) = (V (Proc.devRef .tc main_arg7)) :=
  (cM1_keep (val2 V) main_arg7 (by decide)).trans (val2_arg7 V)
theorem val3_arg8 (V : Valuation τ sig (Elt F)) : val3 V (Proc.devRef .tc main_arg8) = (V (Proc.devRef .tc main_arg8)) :=
  (cM1_keep (val2 V) main_arg8 (by decide)).trans (val2_arg8 V)
theorem val3_arg9 (V : Valuation τ sig (Elt F)) : val3 V (Proc.devRef .tc main_arg9) = (V (Proc.devRef .tc main_arg9)) :=
  (cM1_keep (val2 V) main_arg9 (by decide)).trans (val2_arg9 V)
theorem val3_arg10 (V : Valuation τ sig (Elt F)) : val3 V (Proc.devRef .tc main_arg10) = (V (Proc.devRef .tc main_arg10)) :=
  (cM1_keep (val2 V) main_arg10 (by decide)).trans (val2_arg10 V)
theorem val3_arg11 (V : Valuation τ sig (Elt F)) : val3 V (Proc.devRef .tc main_arg11) = (V (Proc.devRef .tc main_arg11)) :=
  (cM1_keep (val2 V) main_arg11 (by decide)).trans (val2_arg11 V)
theorem val3_arg12 (V : Valuation τ sig (Elt F)) : val3 V (Proc.devRef .tc main_arg12) = (V (Proc.devRef .tc main_arg12)) :=
  (cM1_keep (val2 V) main_arg12 (by decide)).trans (val2_arg12 V)
theorem val3_arg13 (V : Valuation τ sig (Elt F)) : val3 V (Proc.devRef .tc main_arg13) = (V (Proc.devRef .tc main_arg13)) :=
  (cM1_keep (val2 V) main_arg13 (by decide)).trans (val2_arg13 V)
theorem val3_arg14 (V : Valuation τ sig (Elt F)) : val3 V (Proc.devRef .tc main_arg14) = (V (Proc.devRef .tc main_arg14)) :=
  (cM1_keep (val2 V) main_arg14 (by decide)).trans (val2_arg14 V)
theorem val3_arg15 (V : Valuation τ sig (Elt F)) : val3 V (Proc.devRef .tc main_arg15) = (V (Proc.devRef .tc main_arg15)) :=
  (cM1_keep (val2 V) main_arg15 (by decide)).trans (val2_arg15 V)
theorem val3_arg16 (V : Valuation τ sig (Elt F)) : val3 V (Proc.devRef .tc main_arg16) = (V (Proc.devRef .tc main_arg16)) :=
  (cM1_keep (val2 V) main_arg16 (by decide)).trans (val2_arg16 V)
theorem val3_arg17 (V : Valuation τ sig (Elt F)) : val3 V (Proc.devRef .tc main_arg17) = (V (Proc.devRef .tc main_arg17)) :=
  (cM1_keep (val2 V) main_arg17 (by decide)).trans (val2_arg17 V)
theorem val3_v30 (V : Valuation τ sig (Elt F)) : val3 V (Proc.devRef .tc main_v30) = refPseudo V :=
  (cM1_keep (val2 V) main_v30 (by decide)).trans (val2_v30 V)
theorem val3_v108 (V : Valuation τ sig (Elt F)) : val3 V (Proc.devRef .tc main_v108) = refH1 V :=
  (cM1_keep (val2 V) main_v108 (by decide)).trans (val2_v108 V)
theorem val3_v154 (V : Valuation τ sig (Elt F)) : val3 V (Proc.devRef .tc main_v154) = refAgg1 V :=
  (cM1_v154 (val2 V)).trans (by rw [val2_v108, val2_arg5, val2_arg1, val2_v30, val2_arg10, val2_arg11, val2_arg6, val2_arg7, val2_arg2] <;> rfl)

/-- The contents after the first 5 stretches of operations. -/
noncomputable def val4 (V : Valuation τ sig (Elt F)) : Valuation τ sig (Elt F) := after cB1 (val3 V)
theorem val4_arg1 (V : Valuation τ sig (Elt F)) : val4 V (Proc.devRef .tc main_arg1) = (V (Proc.devRef .tc main_arg1)) :=
  (cB1_keep (val3 V) main_arg1 (by decide)).trans (val3_arg1 V)
theorem val4_arg2 (V : Valuation τ sig (Elt F)) : val4 V (Proc.devRef .tc main_arg2) = (V (Proc.devRef .tc main_arg2)) :=
  (cB1_keep (val3 V) main_arg2 (by decide)).trans (val3_arg2 V)
theorem val4_arg3 (V : Valuation τ sig (Elt F)) : val4 V (Proc.devRef .tc main_arg3) = (V (Proc.devRef .tc main_arg3)) :=
  (cB1_keep (val3 V) main_arg3 (by decide)).trans (val3_arg3 V)
theorem val4_arg5 (V : Valuation τ sig (Elt F)) : val4 V (Proc.devRef .tc main_arg5) = (V (Proc.devRef .tc main_arg5)) :=
  (cB1_keep (val3 V) main_arg5 (by decide)).trans (val3_arg5 V)
theorem val4_arg6 (V : Valuation τ sig (Elt F)) : val4 V (Proc.devRef .tc main_arg6) = (V (Proc.devRef .tc main_arg6)) :=
  (cB1_keep (val3 V) main_arg6 (by decide)).trans (val3_arg6 V)
theorem val4_arg7 (V : Valuation τ sig (Elt F)) : val4 V (Proc.devRef .tc main_arg7) = (V (Proc.devRef .tc main_arg7)) :=
  (cB1_keep (val3 V) main_arg7 (by decide)).trans (val3_arg7 V)
theorem val4_arg8 (V : Valuation τ sig (Elt F)) : val4 V (Proc.devRef .tc main_arg8) = (V (Proc.devRef .tc main_arg8)) :=
  (cB1_keep (val3 V) main_arg8 (by decide)).trans (val3_arg8 V)
theorem val4_arg9 (V : Valuation τ sig (Elt F)) : val4 V (Proc.devRef .tc main_arg9) = (V (Proc.devRef .tc main_arg9)) :=
  (cB1_keep (val3 V) main_arg9 (by decide)).trans (val3_arg9 V)
theorem val4_arg10 (V : Valuation τ sig (Elt F)) : val4 V (Proc.devRef .tc main_arg10) = (V (Proc.devRef .tc main_arg10)) :=
  (cB1_keep (val3 V) main_arg10 (by decide)).trans (val3_arg10 V)
theorem val4_arg11 (V : Valuation τ sig (Elt F)) : val4 V (Proc.devRef .tc main_arg11) = (V (Proc.devRef .tc main_arg11)) :=
  (cB1_keep (val3 V) main_arg11 (by decide)).trans (val3_arg11 V)
theorem val4_arg12 (V : Valuation τ sig (Elt F)) : val4 V (Proc.devRef .tc main_arg12) = (V (Proc.devRef .tc main_arg12)) :=
  (cB1_keep (val3 V) main_arg12 (by decide)).trans (val3_arg12 V)
theorem val4_arg13 (V : Valuation τ sig (Elt F)) : val4 V (Proc.devRef .tc main_arg13) = (V (Proc.devRef .tc main_arg13)) :=
  (cB1_keep (val3 V) main_arg13 (by decide)).trans (val3_arg13 V)
theorem val4_arg14 (V : Valuation τ sig (Elt F)) : val4 V (Proc.devRef .tc main_arg14) = (V (Proc.devRef .tc main_arg14)) :=
  (cB1_keep (val3 V) main_arg14 (by decide)).trans (val3_arg14 V)
theorem val4_arg15 (V : Valuation τ sig (Elt F)) : val4 V (Proc.devRef .tc main_arg15) = (V (Proc.devRef .tc main_arg15)) :=
  (cB1_keep (val3 V) main_arg15 (by decide)).trans (val3_arg15 V)
theorem val4_arg16 (V : Valuation τ sig (Elt F)) : val4 V (Proc.devRef .tc main_arg16) = (V (Proc.devRef .tc main_arg16)) :=
  (cB1_keep (val3 V) main_arg16 (by decide)).trans (val3_arg16 V)
theorem val4_arg17 (V : Valuation τ sig (Elt F)) : val4 V (Proc.devRef .tc main_arg17) = (V (Proc.devRef .tc main_arg17)) :=
  (cB1_keep (val3 V) main_arg17 (by decide)).trans (val3_arg17 V)
theorem val4_v30 (V : Valuation τ sig (Elt F)) : val4 V (Proc.devRef .tc main_v30) = refPseudo V :=
  (cB1_keep (val3 V) main_v30 (by decide)).trans (val3_v30 V)
theorem val4_v179 (V : Valuation τ sig (Elt F)) : val4 V (Proc.devRef .tc main_v179) = refH2 V :=
  (cB1_v179 (val3 V)).trans (by rw [val3_v154, val3_v108, val3_arg8, val3_arg9] <;> rfl)

/-- The contents after the first 6 stretches of operations. -/
noncomputable def val5 (V : Valuation τ sig (Elt F)) : Valuation τ sig (Elt F) := after cM2 (val4 V)
theorem val5_arg1 (V : Valuation τ sig (Elt F)) : val5 V (Proc.devRef .tc main_arg1) = (V (Proc.devRef .tc main_arg1)) :=
  (cM2_keep (val4 V) main_arg1 (by decide)).trans (val4_arg1 V)
theorem val5_arg2 (V : Valuation τ sig (Elt F)) : val5 V (Proc.devRef .tc main_arg2) = (V (Proc.devRef .tc main_arg2)) :=
  (cM2_keep (val4 V) main_arg2 (by decide)).trans (val4_arg2 V)
theorem val5_arg3 (V : Valuation τ sig (Elt F)) : val5 V (Proc.devRef .tc main_arg3) = (V (Proc.devRef .tc main_arg3)) :=
  (cM2_keep (val4 V) main_arg3 (by decide)).trans (val4_arg3 V)
theorem val5_arg5 (V : Valuation τ sig (Elt F)) : val5 V (Proc.devRef .tc main_arg5) = (V (Proc.devRef .tc main_arg5)) :=
  (cM2_keep (val4 V) main_arg5 (by decide)).trans (val4_arg5 V)
theorem val5_arg6 (V : Valuation τ sig (Elt F)) : val5 V (Proc.devRef .tc main_arg6) = (V (Proc.devRef .tc main_arg6)) :=
  (cM2_keep (val4 V) main_arg6 (by decide)).trans (val4_arg6 V)
theorem val5_arg7 (V : Valuation τ sig (Elt F)) : val5 V (Proc.devRef .tc main_arg7) = (V (Proc.devRef .tc main_arg7)) :=
  (cM2_keep (val4 V) main_arg7 (by decide)).trans (val4_arg7 V)
theorem val5_arg8 (V : Valuation τ sig (Elt F)) : val5 V (Proc.devRef .tc main_arg8) = (V (Proc.devRef .tc main_arg8)) :=
  (cM2_keep (val4 V) main_arg8 (by decide)).trans (val4_arg8 V)
theorem val5_arg9 (V : Valuation τ sig (Elt F)) : val5 V (Proc.devRef .tc main_arg9) = (V (Proc.devRef .tc main_arg9)) :=
  (cM2_keep (val4 V) main_arg9 (by decide)).trans (val4_arg9 V)
theorem val5_arg10 (V : Valuation τ sig (Elt F)) : val5 V (Proc.devRef .tc main_arg10) = (V (Proc.devRef .tc main_arg10)) :=
  (cM2_keep (val4 V) main_arg10 (by decide)).trans (val4_arg10 V)
theorem val5_arg11 (V : Valuation τ sig (Elt F)) : val5 V (Proc.devRef .tc main_arg11) = (V (Proc.devRef .tc main_arg11)) :=
  (cM2_keep (val4 V) main_arg11 (by decide)).trans (val4_arg11 V)
theorem val5_arg12 (V : Valuation τ sig (Elt F)) : val5 V (Proc.devRef .tc main_arg12) = (V (Proc.devRef .tc main_arg12)) :=
  (cM2_keep (val4 V) main_arg12 (by decide)).trans (val4_arg12 V)
theorem val5_arg13 (V : Valuation τ sig (Elt F)) : val5 V (Proc.devRef .tc main_arg13) = (V (Proc.devRef .tc main_arg13)) :=
  (cM2_keep (val4 V) main_arg13 (by decide)).trans (val4_arg13 V)
theorem val5_arg14 (V : Valuation τ sig (Elt F)) : val5 V (Proc.devRef .tc main_arg14) = (V (Proc.devRef .tc main_arg14)) :=
  (cM2_keep (val4 V) main_arg14 (by decide)).trans (val4_arg14 V)
theorem val5_arg15 (V : Valuation τ sig (Elt F)) : val5 V (Proc.devRef .tc main_arg15) = (V (Proc.devRef .tc main_arg15)) :=
  (cM2_keep (val4 V) main_arg15 (by decide)).trans (val4_arg15 V)
theorem val5_arg16 (V : Valuation τ sig (Elt F)) : val5 V (Proc.devRef .tc main_arg16) = (V (Proc.devRef .tc main_arg16)) :=
  (cM2_keep (val4 V) main_arg16 (by decide)).trans (val4_arg16 V)
theorem val5_arg17 (V : Valuation τ sig (Elt F)) : val5 V (Proc.devRef .tc main_arg17) = (V (Proc.devRef .tc main_arg17)) :=
  (cM2_keep (val4 V) main_arg17 (by decide)).trans (val4_arg17 V)
theorem val5_v30 (V : Valuation τ sig (Elt F)) : val5 V (Proc.devRef .tc main_v30) = refPseudo V :=
  (cM2_keep (val4 V) main_v30 (by decide)).trans (val4_v30 V)
theorem val5_v179 (V : Valuation τ sig (Elt F)) : val5 V (Proc.devRef .tc main_v179) = refH2 V :=
  (cM2_keep (val4 V) main_v179 (by decide)).trans (val4_v179 V)
theorem val5_v225 (V : Valuation τ sig (Elt F)) : val5 V (Proc.devRef .tc main_v225) = refAgg2 V :=
  (cM2_v225 (val4 V)).trans (by rw [val4_v179, val4_arg5, val4_arg1, val4_v30, val4_arg10, val4_arg11, val4_arg6, val4_arg7, val4_arg2] <;> rfl)

/-- The contents after the first 7 stretches of operations. -/
noncomputable def val6 (V : Valuation τ sig (Elt F)) : Valuation τ sig (Elt F) := after cB2 (val5 V)
theorem val6_arg1 (V : Valuation τ sig (Elt F)) : val6 V (Proc.devRef .tc main_arg1) = (V (Proc.devRef .tc main_arg1)) :=
  (cB2_keep (val5 V) main_arg1 (by decide)).trans (val5_arg1 V)
theorem val6_arg2 (V : Valuation τ sig (Elt F)) : val6 V (Proc.devRef .tc main_arg2) = (V (Proc.devRef .tc main_arg2)) :=
  (cB2_keep (val5 V) main_arg2 (by decide)).trans (val5_arg2 V)
theorem val6_arg3 (V : Valuation τ sig (Elt F)) : val6 V (Proc.devRef .tc main_arg3) = (V (Proc.devRef .tc main_arg3)) :=
  (cB2_keep (val5 V) main_arg3 (by decide)).trans (val5_arg3 V)
theorem val6_arg5 (V : Valuation τ sig (Elt F)) : val6 V (Proc.devRef .tc main_arg5) = (V (Proc.devRef .tc main_arg5)) :=
  (cB2_keep (val5 V) main_arg5 (by decide)).trans (val5_arg5 V)
theorem val6_arg6 (V : Valuation τ sig (Elt F)) : val6 V (Proc.devRef .tc main_arg6) = (V (Proc.devRef .tc main_arg6)) :=
  (cB2_keep (val5 V) main_arg6 (by decide)).trans (val5_arg6 V)
theorem val6_arg7 (V : Valuation τ sig (Elt F)) : val6 V (Proc.devRef .tc main_arg7) = (V (Proc.devRef .tc main_arg7)) :=
  (cB2_keep (val5 V) main_arg7 (by decide)).trans (val5_arg7 V)
theorem val6_arg8 (V : Valuation τ sig (Elt F)) : val6 V (Proc.devRef .tc main_arg8) = (V (Proc.devRef .tc main_arg8)) :=
  (cB2_keep (val5 V) main_arg8 (by decide)).trans (val5_arg8 V)
theorem val6_arg9 (V : Valuation τ sig (Elt F)) : val6 V (Proc.devRef .tc main_arg9) = (V (Proc.devRef .tc main_arg9)) :=
  (cB2_keep (val5 V) main_arg9 (by decide)).trans (val5_arg9 V)
theorem val6_arg10 (V : Valuation τ sig (Elt F)) : val6 V (Proc.devRef .tc main_arg10) = (V (Proc.devRef .tc main_arg10)) :=
  (cB2_keep (val5 V) main_arg10 (by decide)).trans (val5_arg10 V)
theorem val6_arg11 (V : Valuation τ sig (Elt F)) : val6 V (Proc.devRef .tc main_arg11) = (V (Proc.devRef .tc main_arg11)) :=
  (cB2_keep (val5 V) main_arg11 (by decide)).trans (val5_arg11 V)
theorem val6_arg12 (V : Valuation τ sig (Elt F)) : val6 V (Proc.devRef .tc main_arg12) = (V (Proc.devRef .tc main_arg12)) :=
  (cB2_keep (val5 V) main_arg12 (by decide)).trans (val5_arg12 V)
theorem val6_arg13 (V : Valuation τ sig (Elt F)) : val6 V (Proc.devRef .tc main_arg13) = (V (Proc.devRef .tc main_arg13)) :=
  (cB2_keep (val5 V) main_arg13 (by decide)).trans (val5_arg13 V)
theorem val6_arg14 (V : Valuation τ sig (Elt F)) : val6 V (Proc.devRef .tc main_arg14) = (V (Proc.devRef .tc main_arg14)) :=
  (cB2_keep (val5 V) main_arg14 (by decide)).trans (val5_arg14 V)
theorem val6_arg15 (V : Valuation τ sig (Elt F)) : val6 V (Proc.devRef .tc main_arg15) = (V (Proc.devRef .tc main_arg15)) :=
  (cB2_keep (val5 V) main_arg15 (by decide)).trans (val5_arg15 V)
theorem val6_arg16 (V : Valuation τ sig (Elt F)) : val6 V (Proc.devRef .tc main_arg16) = (V (Proc.devRef .tc main_arg16)) :=
  (cB2_keep (val5 V) main_arg16 (by decide)).trans (val5_arg16 V)
theorem val6_arg17 (V : Valuation τ sig (Elt F)) : val6 V (Proc.devRef .tc main_arg17) = (V (Proc.devRef .tc main_arg17)) :=
  (cB2_keep (val5 V) main_arg17 (by decide)).trans (val5_arg17 V)
theorem val6_v30 (V : Valuation τ sig (Elt F)) : val6 V (Proc.devRef .tc main_v30) = refPseudo V :=
  (cB2_keep (val5 V) main_v30 (by decide)).trans (val5_v30 V)
theorem val6_v250 (V : Valuation τ sig (Elt F)) : val6 V (Proc.devRef .tc main_v250) = refH3 V :=
  (cB2_v250 (val5 V)).trans (by rw [val5_v225, val5_v179, val5_arg8, val5_arg9] <;> rfl)

/-- The contents after the first 8 stretches of operations. -/
noncomputable def val7 (V : Valuation τ sig (Elt F)) : Valuation τ sig (Elt F) := after cM3 (val6 V)
theorem val7_arg3 (V : Valuation τ sig (Elt F)) : val7 V (Proc.devRef .tc main_arg3) = (V (Proc.devRef .tc main_arg3)) :=
  (cM3_keep (val6 V) main_arg3 (by decide)).trans (val6_arg3 V)
theorem val7_arg8 (V : Valuation τ sig (Elt F)) : val7 V (Proc.devRef .tc main_arg8) = (V (Proc.devRef .tc main_arg8)) :=
  (cM3_keep (val6 V) main_arg8 (by decide)).trans (val6_arg8 V)
theorem val7_arg9 (V : Valuation τ sig (Elt F)) : val7 V (Proc.devRef .tc main_arg9) = (V (Proc.devRef .tc main_arg9)) :=
  (cM3_keep (val6 V) main_arg9 (by decide)).trans (val6_arg9 V)
theorem val7_arg12 (V : Valuation τ sig (Elt F)) : val7 V (Proc.devRef .tc main_arg12) = (V (Proc.devRef .tc main_arg12)) :=
  (cM3_keep (val6 V) main_arg12 (by decide)).trans (val6_arg12 V)
theorem val7_arg13 (V : Valuation τ sig (Elt F)) : val7 V (Proc.devRef .tc main_arg13) = (V (Proc.devRef .tc main_arg13)) :=
  (cM3_keep (val6 V) main_arg13 (by decide)).trans (val6_arg13 V)
theorem val7_arg14 (V : Valuation τ sig (Elt F)) : val7 V (Proc.devRef .tc main_arg14) = (V (Proc.devRef .tc main_arg14)) :=
  (cM3_keep (val6 V) main_arg14 (by decide)).trans (val6_arg14 V)
theorem val7_arg15 (V : Valuation τ sig (Elt F)) : val7 V (Proc.devRef .tc main_arg15) = (V (Proc.devRef .tc main_arg15)) :=
  (cM3_keep (val6 V) main_arg15 (by decide)).trans (val6_arg15 V)
theorem val7_arg16 (V : Valuation τ sig (Elt F)) : val7 V (Proc.devRef .tc main_arg16) = (V (Proc.devRef .tc main_arg16)) :=
  (cM3_keep (val6 V) main_arg16 (by decide)).trans (val6_arg16 V)
theorem val7_arg17 (V : Valuation τ sig (Elt F)) : val7 V (Proc.devRef .tc main_arg17) = (V (Proc.devRef .tc main_arg17)) :=
  (cM3_keep (val6 V) main_arg17 (by decide)).trans (val6_arg17 V)
theorem val7_v250 (V : Valuation τ sig (Elt F)) : val7 V (Proc.devRef .tc main_v250) = refH3 V :=
  (cM3_keep (val6 V) main_v250 (by decide)).trans (val6_v250 V)
theorem val7_v296 (V : Valuation τ sig (Elt F)) : val7 V (Proc.devRef .tc main_v296) = refAgg3 V :=
  (cM3_v296 (val6 V)).trans (by rw [val6_v250, val6_arg5, val6_arg1, val6_v30, val6_arg10, val6_arg11, val6_arg6, val6_arg7, val6_arg2] <;> rfl)

/-- The contents after the first 9 stretches of operations. -/
noncomputable def val8 (V : Valuation τ sig (Elt F)) : Valuation τ sig (Elt F) := after cB3 (val7 V)
theorem val8_arg3 (V : Valuation τ sig (Elt F)) : val8 V (Proc.devRef .tc main_arg3) = (V (Proc.devRef .tc main_arg3)) :=
  (cB3_keep (val7 V) main_arg3 (by decide)).trans (val7_arg3 V)
theorem val8_arg12 (V : Valuation τ sig (Elt F)) : val8 V (Proc.devRef .tc main_arg12) = (V (Proc.devRef .tc main_arg12)) :=
  (cB3_keep (val7 V) main_arg12 (by decide)).trans (val7_arg12 V)
theorem val8_arg13 (V : Valuation τ sig (Elt F)) : val8 V (Proc.devRef .tc main_arg13) = (V (Proc.devRef .tc main_arg13)) :=
  (cB3_keep (val7 V) main_arg13 (by decide)).trans (val7_arg13 V)
theorem val8_arg14 (V : Valuation τ sig (Elt F)) : val8 V (Proc.devRef .tc main_arg14) = (V (Proc.devRef .tc main_arg14)) :=
  (cB3_keep (val7 V) main_arg14 (by decide)).trans (val7_arg14 V)
theorem val8_arg15 (V : Valuation τ sig (Elt F)) : val8 V (Proc.devRef .tc main_arg15) = (V (Proc.devRef .tc main_arg15)) :=
  (cB3_keep (val7 V) main_arg15 (by decide)).trans (val7_arg15 V)
theorem val8_arg16 (V : Valuation τ sig (Elt F)) : val8 V (Proc.devRef .tc main_arg16) = (V (Proc.devRef .tc main_arg16)) :=
  (cB3_keep (val7 V) main_arg16 (by decide)).trans (val7_arg16 V)
theorem val8_arg17 (V : Valuation τ sig (Elt F)) : val8 V (Proc.devRef .tc main_arg17) = (V (Proc.devRef .tc main_arg17)) :=
  (cB3_keep (val7 V) main_arg17 (by decide)).trans (val7_arg17 V)
theorem val8_v321 (V : Valuation τ sig (Elt F)) : val8 V (Proc.devRef .tc main_v321) = refH4 V :=
  (cB3_v321 (val7 V)).trans (by rw [val7_v296, val7_v250, val7_arg8, val7_arg9] <;> rfl)

/-- The contents after the first 10 stretches of operations. -/
noncomputable def val9 (V : Valuation τ sig (Elt F)) : Valuation τ sig (Elt F) := after cR (val8 V)
theorem val9_v350 (V : Valuation τ sig (Elt F)) : val9 V (Proc.devRef .tc main_v350) = readoutS (refH4 V) (V (Proc.devRef .tc main_arg3)) (V (Proc.devRef .tc main_arg12)) (V (Proc.devRef .tc main_arg13)) (V (Proc.devRef .tc main_arg14)) (V (Proc.devRef .tc main_arg15)) (V (Proc.devRef .tc main_arg16)) (V (Proc.devRef .tc main_arg17)) :=
  (cR_v350 (val8 V)).trans (by rw [val8_v321, val8_arg3, val8_arg12, val8_arg13, val8_arg14, val8_arg15, val8_arg16, val8_arg17] <;> rfl)

/-! ## The whole line is the stretches in a row -/

set_option maxRecDepth 100000 in
set_option maxHeartbeats 4000000 in
/-- The windows' lists in a row and the stretches' lists in a row are the same list. -/
theorem ops_eq_cuts : (RefRun.ops : List (HloOp τ sig (Elt F))) = cP ++ (cM0 ++ (cB0 ++ (cM1 ++ (cB1 ++ (cM2 ++ (cB2 ++ (cM3 ++ (cB3 ++ (cR))))))))) := rfl

/-- The fold over @main's operations is the contents after the last stretch. -/
theorem after_ops_eq_val9 (V : Valuation τ sig (Elt F)) : after RefRun.ops V = val9 V := by
  rw [ops_eq_cuts]
  simp only [after_append]
  rfl

/-- The result buffer after @main's operations, from any contents: the readout of the fourth layer's features, every
    stage a function of the arguments' contents. -/
theorem result_eq (V : Valuation τ sig (Elt F)) :
    after RefRun.ops V (Proc.devRef .tc main_v350) = readoutS (refH4 V) (V (Proc.devRef .tc main_arg3)) (V (Proc.devRef .tc main_arg12)) (V (Proc.devRef .tc main_arg13)) (V (Proc.devRef .tc main_arg14)) (V (Proc.devRef .tc main_arg15)) (V (Proc.devRef .tc main_arg16)) (V (Proc.devRef .tc main_arg17)) := by
  rw [after_ops_eq_val9]; exact val9_v350 V

end Cert.ReferenceIdeal.RefSpec

end
-- ==== Proof.RefArgs.lean ====
/- The reference program's run keeps its arguments: no operation of @main writes an argument's buffer, so after the
   whole line each holds what it held at launch. -/
import proofs.«111449_j80633716015168_2_alg».proof.Proof.RefSpec

set_option Elab.async false

noncomputable section

namespace Cert.ReferenceIdeal.RefSpec

open Cert.ReferenceIdeal Cert.ReferenceIdeal.Gen Idealize.ShloMosaic Idealize.ShloMosaic.TcCoe Idealize.SL.Sem Idealize.ShloMosaic.StableHlo

variable {F : FTy → Type} [FloatOps F]

/-- Argument 0 is unchanged by @main's operations. -/
theorem arg_kept_0 (V : Valuation τ sig (Elt F)) :
    after RefRun.ops V (Proc.devRef .tc main_arg0) = V (Proc.devRef .tc main_arg0) := by
  rw [after_ops_eq_val9]
  exact (cR_keep _ main_arg0 (by decide)).trans ((cB3_keep _ main_arg0 (by decide)).trans ((cM3_keep _ main_arg0 (by decide)).trans ((cB2_keep _ main_arg0 (by decide)).trans ((cM2_keep _ main_arg0 (by decide)).trans ((cB1_keep _ main_arg0 (by decide)).trans ((cM1_keep _ main_arg0 (by decide)).trans ((cB0_keep _ main_arg0 (by decide)).trans ((cM0_keep _ main_arg0 (by decide)).trans (cP_keep V main_arg0 (by decide))))))))))

/-- Argument 1 is unchanged by @main's operations. -/
theorem arg_kept_1 (V : Valuation τ sig (Elt F)) :
    after RefRun.ops V (Proc.devRef .tc main_arg1) = V (Proc.devRef .tc main_arg1) := by
  rw [after_ops_eq_val9]
  exact (cR_keep _ main_arg1 (by decide)).trans ((cB3_keep _ main_arg1 (by decide)).trans ((cM3_keep _ main_arg1 (by decide)).trans ((cB2_keep _ main_arg1 (by decide)).trans ((cM2_keep _ main_arg1 (by decide)).trans ((cB1_keep _ main_arg1 (by decide)).trans ((cM1_keep _ main_arg1 (by decide)).trans ((cB0_keep _ main_arg1 (by decide)).trans ((cM0_keep _ main_arg1 (by decide)).trans (cP_keep V main_arg1 (by decide))))))))))

/-- Argument 2 is unchanged by @main's operations. -/
theorem arg_kept_2 (V : Valuation τ sig (Elt F)) :
    after RefRun.ops V (Proc.devRef .tc main_arg2) = V (Proc.devRef .tc main_arg2) := by
  rw [after_ops_eq_val9]
  exact (cR_keep _ main_arg2 (by decide)).trans ((cB3_keep _ main_arg2 (by decide)).trans ((cM3_keep _ main_arg2 (by decide)).trans ((cB2_keep _ main_arg2 (by decide)).trans ((cM2_keep _ main_arg2 (by decide)).trans ((cB1_keep _ main_arg2 (by decide)).trans ((cM1_keep _ main_arg2 (by decide)).trans ((cB0_keep _ main_arg2 (by decide)).trans ((cM0_keep _ main_arg2 (by decide)).trans (cP_keep V main_arg2 (by decide))))))))))

/-- Argument 3 is unchanged by @main's operations. -/
theorem arg_kept_3 (V : Valuation τ sig (Elt F)) :
    after RefRun.ops V (Proc.devRef .tc main_arg3) = V (Proc.devRef .tc main_arg3) := by
  rw [after_ops_eq_val9]
  exact (cR_keep _ main_arg3 (by decide)).trans ((cB3_keep _ main_arg3 (by decide)).trans ((cM3_keep _ main_arg3 (by decide)).trans ((cB2_keep _ main_arg3 (by decide)).trans ((cM2_keep _ main_arg3 (by decide)).trans ((cB1_keep _ main_arg3 (by decide)).trans ((cM1_keep _ main_arg3 (by decide)).trans ((cB0_keep _ main_arg3 (by decide)).trans ((cM0_keep _ main_arg3 (by decide)).trans (cP_keep V main_arg3 (by decide))))))))))

/-- Argument 4 is unchanged by @main's operations. -/
theorem arg_kept_4 (V : Valuation τ sig (Elt F)) :
    after RefRun.ops V (Proc.devRef .tc main_arg4) = V (Proc.devRef .tc main_arg4) := by
  rw [after_ops_eq_val9]
  exact (cR_keep _ main_arg4 (by decide)).trans ((cB3_keep _ main_arg4 (by decide)).trans ((cM3_keep _ main_arg4 (by decide)).trans ((cB2_keep _ main_arg4 (by decide)).trans ((cM2_keep _ main_arg4 (by decide)).trans ((cB1_keep _ main_arg4 (by decide)).trans ((cM1_keep _ main_arg4 (by decide)).trans ((cB0_keep _ main_arg4 (by decide)).trans ((cM0_keep _ main_arg4 (by decide)).trans (cP_keep V main_arg4 (by decide))))))))))

/-- Argument 5 is unchanged by @main's operations. -/
theorem arg_kept_5 (V : Valuation τ sig (Elt F)) :
    after RefRun.ops V (Proc.devRef .tc main_arg5) = V (Proc.devRef .tc main_arg5) := by
  rw [after_ops_eq_val9]
  exact (cR_keep _ main_arg5 (by decide)).trans ((cB3_keep _ main_arg5 (by decide)).trans ((cM3_keep _ main_arg5 (by decide)).trans ((cB2_keep _ main_arg5 (by decide)).trans ((cM2_keep _ main_arg5 (by decide)).trans ((cB1_keep _ main_arg5 (by decide)).trans ((cM1_keep _ main_arg5 (by decide)).trans ((cB0_keep _ main_arg5 (by decide)).trans ((cM0_keep _ main_arg5 (by decide)).trans (cP_keep V main_arg5 (by decide))))))))))

/-- Argument 6 is unchanged by @main's operations. -/
theorem arg_kept_6 (V : Valuation τ sig (Elt F)) :
    after RefRun.ops V (Proc.devRef .tc main_arg6) = V (Proc.devRef .tc main_arg6) := by
  rw [after_ops_eq_val9]
  exact (cR_keep _ main_arg6 (by decide)).trans ((cB3_keep _ main_arg6 (by decide)).trans ((cM3_keep _ main_arg6 (by decide)).trans ((cB2_keep _ main_arg6 (by decide)).trans ((cM2_keep _ main_arg6 (by decide)).trans ((cB1_keep _ main_arg6 (by decide)).trans ((cM1_keep _ main_arg6 (by decide)).trans ((cB0_keep _ main_arg6 (by decide)).trans ((cM0_keep _ main_arg6 (by decide)).trans (cP_keep V main_arg6 (by decide))))))))))

/-- Argument 7 is unchanged by @main's operations. -/
theorem arg_kept_7 (V : Valuation τ sig (Elt F)) :
    after RefRun.ops V (Proc.devRef .tc main_arg7) = V (Proc.devRef .tc main_arg7) := by
  rw [after_ops_eq_val9]
  exact (cR_keep _ main_arg7 (by decide)).trans ((cB3_keep _ main_arg7 (by decide)).trans ((cM3_keep _ main_arg7 (by decide)).trans ((cB2_keep _ main_arg7 (by decide)).trans ((cM2_keep _ main_arg7 (by decide)).trans ((cB1_keep _ main_arg7 (by decide)).trans ((cM1_keep _ main_arg7 (by decide)).trans ((cB0_keep _ main_arg7 (by decide)).trans ((cM0_keep _ main_arg7 (by decide)).trans (cP_keep V main_arg7 (by decide))))))))))

/-- Argument 8 is unchanged by @main's operations. -/
theorem arg_kept_8 (V : Valuation τ sig (Elt F)) :
    after RefRun.ops V (Proc.devRef .tc main_arg8) = V (Proc.devRef .tc main_arg8) := by
  rw [after_ops_eq_val9]
  exact (cR_keep _ main_arg8 (by decide)).trans ((cB3_keep _ main_arg8 (by decide)).trans ((cM3_keep _ main_arg8 (by decide)).trans ((cB2_keep _ main_arg8 (by decide)).trans ((cM2_keep _ main_arg8 (by decide)).trans ((cB1_keep _ main_arg8 (by decide)).trans ((cM1_keep _ main_arg8 (by decide)).trans ((cB0_keep _ main_arg8 (by decide)).trans ((cM0_keep _ main_arg8 (by decide)).trans (cP_keep V main_arg8 (by decide))))))))))

/-- Argument 9 is unchanged by @main's operations. -/
theorem arg_kept_9 (V : Valuation τ sig (Elt F)) :
    after RefRun.ops V (Proc.devRef .tc main_arg9) = V (Proc.devRef .tc main_arg9) := by
  rw [after_ops_eq_val9]
  exact (cR_keep _ main_arg9 (by decide)).trans ((cB3_keep _ main_arg9 (by decide)).trans ((cM3_keep _ main_arg9 (by decide)).trans ((cB2_keep _ main_arg9 (by decide)).trans ((cM2_keep _ main_arg9 (by decide)).trans ((cB1_keep _ main_arg9 (by decide)).trans ((cM1_keep _ main_arg9 (by decide)).trans ((cB0_keep _ main_arg9 (by decide)).trans ((cM0_keep _ main_arg9 (by decide)).trans (cP_keep V main_arg9 (by decide))))))))))

/-- Argument 10 is unchanged by @main's operations. -/
theorem arg_kept_10 (V : Valuation τ sig (Elt F)) :
    after RefRun.ops V (Proc.devRef .tc main_arg10) = V (Proc.devRef .tc main_arg10) := by
  rw [after_ops_eq_val9]
  exact (cR_keep _ main_arg10 (by decide)).trans ((cB3_keep _ main_arg10 (by decide)).trans ((cM3_keep _ main_arg10 (by decide)).trans ((cB2_keep _ main_arg10 (by decide)).trans ((cM2_keep _ main_arg10 (by decide)).trans ((cB1_keep _ main_arg10 (by decide)).trans ((cM1_keep _ main_arg10 (by decide)).trans ((cB0_keep _ main_arg10 (by decide)).trans ((cM0_keep _ main_arg10 (by decide)).trans (cP_keep V main_arg10 (by decide))))))))))

/-- Argument 11 is unchanged by @main's operations. -/
theorem arg_kept_11 (V : Valuation τ sig (Elt F)) :
    after RefRun.ops V (Proc.devRef .tc main_arg11) = V (Proc.devRef .tc main_arg11) := by
  rw [after_ops_eq_val9]
  exact (cR_keep _ main_arg11 (by decide)).trans ((cB3_keep _ main_arg11 (by decide)).trans ((cM3_keep _ main_arg11 (by decide)).trans ((cB2_keep _ main_arg11 (by decide)).trans ((cM2_keep _ main_arg11 (by decide)).trans ((cB1_keep _ main_arg11 (by decide)).trans ((cM1_keep _ main_arg11 (by decide)).trans ((cB0_keep _ main_arg11 (by decide)).trans ((cM0_keep _ main_arg11 (by decide)).trans (cP_keep V main_arg11 (by decide))))))))))

/-- Argument 12 is unchanged by @main's operations. -/
theorem arg_kept_12 (V : Valuation τ sig (Elt F)) :
    after RefRun.ops V (Proc.devRef .tc main_arg12) = V (Proc.devRef .tc main_arg12) := by
  rw [after_ops_eq_val9]
  exact (cR_keep _ main_arg12 (by decide)).trans ((cB3_keep _ main_arg12 (by decide)).trans ((cM3_keep _ main_arg12 (by decide)).trans ((cB2_keep _ main_arg12 (by decide)).trans ((cM2_keep _ main_arg12 (by decide)).trans ((cB1_keep _ main_arg12 (by decide)).trans ((cM1_keep _ main_arg12 (by decide)).trans ((cB0_keep _ main_arg12 (by decide)).trans ((cM0_keep _ main_arg12 (by decide)).trans (cP_keep V main_arg12 (by decide))))))))))

/-- Argument 13 is unchanged by @main's operations. -/
theorem arg_kept_13 (V : Valuation τ sig (Elt F)) :
    after RefRun.ops V (Proc.devRef .tc main_arg13) = V (Proc.devRef .tc main_arg13) := by
  rw [after_ops_eq_val9]
  exact (cR_keep _ main_arg13 (by decide)).trans ((cB3_keep _ main_arg13 (by decide)).trans ((cM3_keep _ main_arg13 (by decide)).trans ((cB2_keep _ main_arg13 (by decide)).trans ((cM2_keep _ main_arg13 (by decide)).trans ((cB1_keep _ main_arg13 (by decide)).trans ((cM1_keep _ main_arg13 (by decide)).trans ((cB0_keep _ main_arg13 (by decide)).trans ((cM0_keep _ main_arg13 (by decide)).trans (cP_keep V main_arg13 (by decide))))))))))

/-- Argument 14 is unchanged by @main's operations. -/
theorem arg_kept_14 (V : Valuation τ sig (Elt F)) :
    after RefRun.ops V (Proc.devRef .tc main_arg14) = V (Proc.devRef .tc main_arg14) := by
  rw [after_ops_eq_val9]
  exact (cR_keep _ main_arg14 (by decide)).trans ((cB3_keep _ main_arg14 (by decide)).trans ((cM3_keep _ main_arg14 (by decide)).trans ((cB2_keep _ main_arg14 (by decide)).trans ((cM2_keep _ main_arg14 (by decide)).trans ((cB1_keep _ main_arg14 (by decide)).trans ((cM1_keep _ main_arg14 (by decide)).trans ((cB0_keep _ main_arg14 (by decide)).trans ((cM0_keep _ main_arg14 (by decide)).trans (cP_keep V main_arg14 (by decide))))))))))

/-- Argument 15 is unchanged by @main's operations. -/
theorem arg_kept_15 (V : Valuation τ sig (Elt F)) :
    after RefRun.ops V (Proc.devRef .tc main_arg15) = V (Proc.devRef .tc main_arg15) := by
  rw [after_ops_eq_val9]
  exact (cR_keep _ main_arg15 (by decide)).trans ((cB3_keep _ main_arg15 (by decide)).trans ((cM3_keep _ main_arg15 (by decide)).trans ((cB2_keep _ main_arg15 (by decide)).trans ((cM2_keep _ main_arg15 (by decide)).trans ((cB1_keep _ main_arg15 (by decide)).trans ((cM1_keep _ main_arg15 (by decide)).trans ((cB0_keep _ main_arg15 (by decide)).trans ((cM0_keep _ main_arg15 (by decide)).trans (cP_keep V main_arg15 (by decide))))))))))

/-- Argument 16 is unchanged by @main's operations. -/
theorem arg_kept_16 (V : Valuation τ sig (Elt F)) :
    after RefRun.ops V (Proc.devRef .tc main_arg16) = V (Proc.devRef .tc main_arg16) := by
  rw [after_ops_eq_val9]
  exact (cR_keep _ main_arg16 (by decide)).trans ((cB3_keep _ main_arg16 (by decide)).trans ((cM3_keep _ main_arg16 (by decide)).trans ((cB2_keep _ main_arg16 (by decide)).trans ((cM2_keep _ main_arg16 (by decide)).trans ((cB1_keep _ main_arg16 (by decide)).trans ((cM1_keep _ main_arg16 (by decide)).trans ((cB0_keep _ main_arg16 (by decide)).trans ((cM0_keep _ main_arg16 (by decide)).trans (cP_keep V main_arg16 (by decide))))))))))

/-- Argument 17 is unchanged by @main's operations. -/
theorem arg_kept_17 (V : Valuation τ sig (Elt F)) :
    after RefRun.ops V (Proc.devRef .tc main_arg17) = V (Proc.devRef .tc main_arg17) := by
  rw [after_ops_eq_val9]
  exact (cR_keep _ main_arg17 (by decide)).trans ((cB3_keep _ main_arg17 (by decide)).trans ((cM3_keep _ main_arg17 (by decide)).trans ((cB2_keep _ main_arg17 (by decide)).trans ((cM2_keep _ main_arg17 (by decide)).trans ((cB1_keep _ main_arg17 (by decide)).trans ((cM1_keep _ main_arg17 (by decide)).trans ((cB0_keep _ main_arg17 (by decide)).trans ((cM0_keep _ main_arg17 (by decide)).trans (cP_keep V main_arg17 (by decide))))))))))

end Cert.ReferenceIdeal.RefSpec

end
-- ==== Proof.ProofFrames.lean ====
/-
  Three of the certificate's claims.

  Frames. The kernel's two printed forms run to completion without a fault and leave their arguments as launched
  (the generated frame certificates); the reference is a straight line of host operations, none of which writes an
  argument, so after its run every argument buffer holds what it held at launch.

  The idealization. The kernel's one rewritten literal, the reciprocal of the node count, is the rational 1/50000 at
  the exact instance, at each of its eight sites.
-/
import proofs.«111449_j80633716015168_2_alg».proof.Defs
import proofs.«111449_j80633716015168_2_alg».proof.Proof.Gen.Kernel
import proofs.«111449_j80633716015168_2_alg».proof.Proof.Gen.Kernel.Frame
import proofs.«111449_j80633716015168_2_alg».proof.Proof.Gen.KernelIdeal
import proofs.«111449_j80633716015168_2_alg».proof.Proof.Gen.KernelIdeal.Frame
import proofs.«111449_j80633716015168_2_alg».proof.Proof.Gen.ReferenceIdeal
import proofs.«111449_j80633716015168_2_alg».proof.Proof.Gen.Pre_finite_inputs
import proofs.«111449_j80633716015168_2_alg».proof.Proof.RefRun
import proofs.«111449_j80633716015168_2_alg».proof.Proof.RefArgs
import Idealize.ShloMosaic.Adequacy
import Idealize.ShloMosaic.Init

set_option maxRecDepth 16384

noncomputable section

namespace Cert.Proof

open Idealize.ShloMosaic Idealize.ShloMosaic.TcCoe Idealize.SL.Sem Idealize.ShloMosaic.StableHlo

theorem frame_k : Cert.frame_Kernel := fun m ρ _ => Cert.Kernel.Gen.frame m ρ

theorem frame_ki : Cert.frame_KernelIdeal := fun m ρ _ => Cert.KernelIdeal.Gen.frame m ρ

/-- The reference's run keeps its arguments: no operation of the line writes one. -/
theorem frame_ri : Cert.frame_ReferenceIdeal := fun m ρ _ =>
  (θ_run (Cert.ReferenceIdeal.defs (F := Ideal)) _ _).mono (fun r h c =>
    ⟨(h c Cert.ReferenceIdeal.main_arg0).trans (Cert.ReferenceIdeal.RefSpec.arg_kept_0 _),
     (h c Cert.ReferenceIdeal.main_arg1).trans (Cert.ReferenceIdeal.RefSpec.arg_kept_1 _),
     (h c Cert.ReferenceIdeal.main_arg2).trans (Cert.ReferenceIdeal.RefSpec.arg_kept_2 _),
     (h c Cert.ReferenceIdeal.main_arg3).trans (Cert.ReferenceIdeal.RefSpec.arg_kept_3 _),
     (h c Cert.ReferenceIdeal.main_arg4).trans (Cert.ReferenceIdeal.RefSpec.arg_kept_4 _),
     (h c Cert.ReferenceIdeal.main_arg5).trans (Cert.ReferenceIdeal.RefSpec.arg_kept_5 _),
     (h c Cert.ReferenceIdeal.main_arg6).trans (Cert.ReferenceIdeal.RefSpec.arg_kept_6 _),
     (h c Cert.ReferenceIdeal.main_arg7).trans (Cert.ReferenceIdeal.RefSpec.arg_kept_7 _),
     (h c Cert.ReferenceIdeal.main_arg8).trans (Cert.ReferenceIdeal.RefSpec.arg_kept_8 _),
     (h c Cert.ReferenceIdeal.main_arg9).trans (Cert.ReferenceIdeal.RefSpec.arg_kept_9 _),
     (h c Cert.ReferenceIdeal.main_arg10).trans (Cert.ReferenceIdeal.RefSpec.arg_kept_10 _),
     (h c Cert.ReferenceIdeal.main_arg11).trans (Cert.ReferenceIdeal.RefSpec.arg_kept_11 _),
     (h c Cert.ReferenceIdeal.main_arg12).trans (Cert.ReferenceIdeal.RefSpec.arg_kept_12 _),
     (h c Cert.ReferenceIdeal.main_arg13).trans (Cert.ReferenceIdeal.RefSpec.arg_kept_13 _),
     (h c Cert.ReferenceIdeal.main_arg14).trans (Cert.ReferenceIdeal.RefSpec.arg_kept_14 _),
     (h c Cert.ReferenceIdeal.main_arg15).trans (Cert.ReferenceIdeal.RefSpec.arg_kept_15 _),
     (h c Cert.ReferenceIdeal.main_arg16).trans (Cert.ReferenceIdeal.RefSpec.arg_kept_16 _),
     (h c Cert.ReferenceIdeal.main_arg17).trans (Cert.ReferenceIdeal.RefSpec.arg_kept_17 _)⟩)
    (Cert.ReferenceIdeal.RefRun.run_all (F := Ideal) m ρ)

/-- The named reciprocal is 1/50000 at the exact instance. -/
theorem inv_statement : IdealRules.named_const.Statement Cert.KernelIdeal.κ "inv_50000" .f32 0x37A7C5AC#32 ((1 / 50000 : ℝ) : EReal) :=
  IdealRules.named_const.statement Cert.KernelIdeal.κ "inv_50000" .f32 0x37A7C5AC#32 ((1 / 50000 : ℝ) : EReal) rfl

theorem preserves : Cert.preserves_Kernel_KernelIdeal :=
  ⟨inv_statement, inv_statement, inv_statement, inv_statement, inv_statement, inv_statement, inv_statement, inv_statement⟩

end Cert.Proof

end
-- ==== Proof.KRun.lean ====
/-
  The idealized kernel's run with its result named. Every weakly fair execution of the program terminates without a
  fault; the argument arrays end as launched, and the result buffer ends at the contents the last of the program's
  thirty segments leaves in it (the fold of host stretches and regions from the launch memory).
-/
import proofs.«111449_j80633716015168_2_alg».proof.Proof.Gen.KernelIdeal.Frame

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run: termination without a fault, the result buffer at the last boundary's contents, the arguments as
    launched. -/
theorem run_result : θ_run defs (onTc (τ := τ) (main (F := F))) ⟨m, fun _ => 0, ρ⟩ (fun r => ∀ c : Dev nD,
      r.2.mem ((c.tc : Thread nD τ).loc main_v180) = W30 m ρ c (Proc.devRef .tc main_v180)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W30 m ρ c b)
    (hfin := fun c s' => by
      iintro ⟨⟨Hh, -⟩, HSI⟩
      unfold StableHlo.held
      imodintro
      iapply (pointsTo_read_all (Pipeline.ucRefs τ sig) (fun b => (((c : Thread nD τ)).1, b)) (W30 m ρ c) s')
      isplitl [Hh] <;> iassumption)
    (hQ := fun s h c =>
      ⟨h c _ (mem_uc main_v180 (by decide)),
       (h c _ (mem_uc main_arg0 (by decide))).trans (W30_main_arg0 m ρ c),
       (h c _ (mem_uc main_arg1 (by decide))).trans (W30_main_arg1 m ρ c),
       (h c _ (mem_uc main_arg2 (by decide))).trans (W30_main_arg2 m ρ c),
       (h c _ (mem_uc main_arg3 (by decide))).trans (W30_main_arg3 m ρ c),
       (h c _ (mem_uc main_arg4 (by decide))).trans (W30_main_arg4 m ρ c),
       (h c _ (mem_uc main_arg5 (by decide))).trans (W30_main_arg5 m ρ c),
       (h c _ (mem_uc main_arg6 (by decide))).trans (W30_main_arg6 m ρ c),
       (h c _ (mem_uc main_arg7 (by decide))).trans (W30_main_arg7 m ρ c),
       (h c _ (mem_uc main_arg8 (by decide))).trans (W30_main_arg8 m ρ c),
       (h c _ (mem_uc main_arg9 (by decide))).trans (W30_main_arg9 m ρ c),
       (h c _ (mem_uc main_arg10 (by decide))).trans (W30_main_arg10 m ρ c),
       (h c _ (mem_uc main_arg11 (by decide))).trans (W30_main_arg11 m ρ c),
       (h c _ (mem_uc main_arg12 (by decide))).trans (W30_main_arg12 m ρ c),
       (h c _ (mem_uc main_arg13 (by decide))).trans (W30_main_arg13 m ρ c),
       (h c _ (mem_uc main_arg14 (by decide))).trans (W30_main_arg14 m ρ c),
       (h c _ (mem_uc main_arg15 (by decide))).trans (W30_main_arg15 m ρ c),
       (h c _ (mem_uc main_arg16 (by decide))).trans (W30_main_arg16 m ρ c),
       (h c _ (mem_uc main_arg17 (by decide))).trans (W30_main_arg17 m ρ c)⟩)

end Cert.KernelIdeal.Gen

end
-- ==== Proof.KKeep.lean ====
/-
  Each stretch of host operations keeps every buffer it does not write, and each region keeps every buffer that is not one of its arrays: stated once per segment, for any buffer.
-/
import proofs.«111449_j80633716015168_2_alg».proof.Proof.Gen.KernelIdeal.Frame
import Idealize.ShloMosaic.Lib.StableHlo.Run

set_option maxRecDepth 16384

noncomputable section

namespace Cert.KernelIdeal.Gen

open Idealize.ShloMosaic Idealize.ShloMosaic.TcCoe Idealize.ShloMosaic.StableHlo Idealize.SL.Sem
open Cert.KernelIdeal

variable (m : (ℓ : Loc nD τ sig) → Buf (Elt Ideal) ℓ) (ρ : Dev nD → PrngReg)

/-! ## What each host stretch writes, and that it keeps every other buffer -/

def wr1 : List (Ref sig .tc) := [main_v45, main_c_10, main_v46, main_v47, main_c_11, main_v48, main_v49, main_v50, main_v51, main_v52, main_v53, main_v54, main_v55, main_v56, main_v57, main_v58, main_v59, main_v60]

theorem W3_keep (c : Dev nD) (b : Ref sig .tc) (hb : b ∉ wr1) : W3 m ρ c (Proc.devRef .tc b) = W2 m ρ c (Proc.devRef .tc b) := by
  refine StableHlo.after_of_forall_not_mem (b := Proc.devRef .tc b) _ _ (List.forall_iff_forall_mem.mp ?_)
  simp only [hostOps1, List.Forall, StableHlo.nullary_writes, StableHlo.unary_writes, StableHlo.binary_writes, StableHlo.ternary_writes, StableHlo.quaternary_writes, StableHlo.reshape_writes, StableHlo.binaryIndexed_writes, Finset.mem_singleton]
  simp only [wr1, List.mem_cons, List.mem_nil_iff, or_false, not_or] at hb
  obtain ⟨h1, h2, h3, h4, h5, h6, h7, h8, h9, h10, h11, h12, h13, h14, h15, h16, h17, h18⟩ := hb
  refine ⟨?_, ?_, ?_, ?_, ?_, ?_, ?_, ?_, ?_, ?_, ?_, ?_, ?_, ?_, ?_, ?_, ?_, ?_⟩ <;> (apply StableHlo.devRef_ne_of_ne; assumption)

def wr2 : List (Ref sig .tc) := [main_cst_12, main_v62, main_v63, main_v64, main_cst_13, main_v65, main_v66, main_v67, main_v68, main_v69]

theorem W5_keep (c : Dev nD) (b : Ref sig .tc) (hb : b ∉ wr2) : W5 m ρ c (Proc.devRef .tc b) = W4 m ρ c (Proc.devRef .tc b) := by
  refine StableHlo.after_of_forall_not_mem (b := Proc.devRef .tc b) _ _ (List.forall_iff_forall_mem.mp ?_)
  simp only [hostOps2, List.Forall, StableHlo.nullary_writes, StableHlo.unary_writes, StableHlo.binary_writes, StableHlo.ternary_writes, StableHlo.quaternary_writes, StableHlo.reshape_writes, StableHlo.binaryIndexed_writes, Finset.mem_singleton]
  simp only [wr2, List.mem_cons, List.mem_nil_iff, or_false, not_or] at hb
  obtain ⟨h1, h2, h3, h4, h5, h6, h7, h8, h9, h10⟩ := hb
  refine ⟨?_, ?_, ?_, ?_, ?_, ?_, ?_, ?_, ?_, ?_⟩ <;> (apply StableHlo.devRef_ne_of_ne; assumption)

def wr4 : List (Ref sig .tc) := [main_v72, main_v73]

theorem W8_keep (c : Dev nD) (b : Ref sig .tc) (hb : b ∉ wr4) : W8 m ρ c (Proc.devRef .tc b) = W7 m ρ c (Proc.devRef .tc b) := by
  refine StableHlo.after_of_forall_not_mem (b := Proc.devRef .tc b) _ _ (List.forall_iff_forall_mem.mp ?_)
  simp only [hostOps4, List.Forall, StableHlo.nullary_writes, StableHlo.unary_writes, StableHlo.binary_writes, StableHlo.ternary_writes, StableHlo.quaternary_writes, StableHlo.reshape_writes, StableHlo.binaryIndexed_writes, Finset.mem_singleton]
  simp only [wr4, List.mem_cons, List.mem_nil_iff, or_false, not_or] at hb
  obtain ⟨h1, h2⟩ := hb
  refine ⟨?_, ?_⟩ <;> (apply StableHlo.devRef_ne_of_ne; assumption)

def wr5 : List (Ref sig .tc) := [main_v75, main_c_14, main_v76, main_v77, main_c_15, main_v78, main_v79, main_v80, main_v81, main_v82, main_v83, main_v84, main_v85, main_v86, main_v87, main_v88, main_v89, main_v90]

theorem W10_keep (c : Dev nD) (b : Ref sig .tc) (hb : b ∉ wr5) : W10 m ρ c (Proc.devRef .tc b) = W9 m ρ c (Proc.devRef .tc b) := by
  refine StableHlo.after_of_forall_not_mem (b := Proc.devRef .tc b) _ _ (List.forall_iff_forall_mem.mp ?_)
  simp only [hostOps5, List.Forall, StableHlo.nullary_writes, StableHlo.unary_writes, StableHlo.binary_writes, StableHlo.ternary_writes, StableHlo.quaternary_writes, StableHlo.reshape_writes, StableHlo.binaryIndexed_writes, Finset.mem_singleton]
  simp only [wr5, List.mem_cons, List.mem_nil_iff, or_false, not_or] at hb
  obtain ⟨h1, h2, h3, h4, h5, h6, h7, h8, h9, h10, h11, h12, h13, h14, h15, h16, h17, h18⟩ := hb
  refine ⟨?_, ?_, ?_, ?_, ?_, ?_, ?_, ?_, ?_, ?_, ?_, ?_, ?_, ?_, ?_, ?_, ?_, ?_⟩ <;> (apply StableHlo.devRef_ne_of_ne; assumption)

def wr6 : List (Ref sig .tc) := [main_cst_16, main_v92, main_v93, main_v94, main_cst_17, main_v95, main_v96, main_v97, main_v98, main_v99]

theorem W12_keep (c : Dev nD) (b : Ref sig .tc) (hb : b ∉ wr6) : W12 m ρ c (Proc.devRef .tc b) = W11 m ρ c (Proc.devRef .tc b) := by
  refine StableHlo.after_of_forall_not_mem (b := Proc.devRef .tc b) _ _ (List.forall_iff_forall_mem.mp ?_)
  simp only [hostOps6, List.Forall, StableHlo.nullary_writes, StableHlo.unary_writes, StableHlo.binary_writes, StableHlo.ternary_writes, StableHlo.quaternary_writes, StableHlo.reshape_writes, StableHlo.binaryIndexed_writes, Finset.mem_singleton]
  simp only [wr6, List.mem_cons, List.mem_nil_iff, or_false, not_or] at hb
  obtain ⟨h1, h2, h3, h4, h5, h6, h7, h8, h9, h10⟩ := hb
  refine ⟨?_, ?_, ?_, ?_, ?_, ?_, ?_, ?_, ?_, ?_⟩ <;> (apply StableHlo.devRef_ne_of_ne; assumption)

def wr8 : List (Ref sig .tc) := [main_v102, main_v103]

theorem W15_keep (c : Dev nD) (b : Ref sig .tc) (hb : b ∉ wr8) : W15 m ρ c (Proc.devRef .tc b) = W14 m ρ c (Proc.devRef .tc b) := by
  refine StableHlo.after_of_forall_not_mem (b := Proc.devRef .tc b) _ _ (List.forall_iff_forall_mem.mp ?_)
  simp only [hostOps8, List.Forall, StableHlo.nullary_writes, StableHlo.unary_writes, StableHlo.binary_writes, StableHlo.ternary_writes, StableHlo.quaternary_writes, StableHlo.reshape_writes, StableHlo.binaryIndexed_writes, Finset.mem_singleton]
  simp only [wr8, List.mem_cons, List.mem_nil_iff, or_false, not_or] at hb
  obtain ⟨h1, h2⟩ := hb
  refine ⟨?_, ?_⟩ <;> (apply StableHlo.devRef_ne_of_ne; assumption)

def wr9 : List (Ref sig .tc) := [main_v105, main_c_18, main_v106, main_v107, main_c_19, main_v108, main_v109, main_v110, main_v111, main_v112, main_v113, main_v114, main_v115, main_v116, main_v117, main_v118, main_v119, main_v120]

theorem W17_keep (c : Dev nD) (b : Ref sig .tc) (hb : b ∉ wr9) : W17 m ρ c (Proc.devRef .tc b) = W16 m ρ c (Proc.devRef .tc b) := by
  refine StableHlo.after_of_forall_not_mem (b := Proc.devRef .tc b) _ _ (List.forall_iff_forall_mem.mp ?_)
  simp only [hostOps9, List.Forall, StableHlo.nullary_writes, StableHlo.unary_writes, StableHlo.binary_writes, StableHlo.ternary_writes, StableHlo.quaternary_writes, StableHlo.reshape_writes, StableHlo.binaryIndexed_writes, Finset.mem_singleton]
  simp only [wr9, List.mem_cons, List.mem_nil_iff, or_false, not_or] at hb
  obtain ⟨h1, h2, h3, h4, h5, h6, h7, h8, h9, h10, h11, h12, h13, h14, h15, h16, h17, h18⟩ := hb
  refine ⟨?_, ?_, ?_, ?_, ?_, ?_, ?_, ?_, ?_, ?_, ?_, ?_, ?_, ?_, ?_, ?_, ?_, ?_⟩ <;> (apply StableHlo.devRef_ne_of_ne; assumption)

def wr10 : List (Ref sig .tc) := [main_cst_20, main_v122, main_v123, main_v124, main_cst_21, main_v125, main_v126, main_v127, main_v128, main_v129]

theorem W19_keep (c : Dev nD) (b : Ref sig .tc) (hb : b ∉ wr10) : W19 m ρ c (Proc.devRef .tc b) = W18 m ρ c (Proc.devRef .tc b) := by
  refine StableHlo.after_of_forall_not_mem (b := Proc.devRef .tc b) _ _ (List.forall_iff_forall_mem.mp ?_)
  simp only [hostOps10, List.Forall, StableHlo.nullary_writes, StableHlo.unary_writes, StableHlo.binary_writes, StableHlo.ternary_writes, StableHlo.quaternary_writes, StableHlo.reshape_writes, StableHlo.binaryIndexed_writes, Finset.mem_singleton]
  simp only [wr10, List.mem_cons, List.mem_nil_iff, or_false, not_or] at hb
  obtain ⟨h1, h2, h3, h4, h5, h6, h7, h8, h9, h10⟩ := hb
  refine ⟨?_, ?_, ?_, ?_, ?_, ?_, ?_, ?_, ?_, ?_⟩ <;> (apply StableHlo.devRef_ne_of_ne; assumption)

def wr12 : List (Ref sig .tc) := [main_v132, main_v133]

theorem W22_keep (c : Dev nD) (b : Ref sig .tc) (hb : b ∉ wr12) : W22 m ρ c (Proc.devRef .tc b) = W21 m ρ c (Proc.devRef .tc b) := by
  refine StableHlo.after_of_forall_not_mem (b := Proc.devRef .tc b) _ _ (List.forall_iff_forall_mem.mp ?_)
  simp only [hostOps12, List.Forall, StableHlo.nullary_writes, StableHlo.unary_writes, StableHlo.binary_writes, StableHlo.ternary_writes, StableHlo.quaternary_writes, StableHlo.reshape_writes, StableHlo.binaryIndexed_writes, Finset.mem_singleton]
  simp only [wr12, List.mem_cons, List.mem_nil_iff, or_false, not_or] at hb
  obtain ⟨h1, h2⟩ := hb
  refine ⟨?_, ?_⟩ <;> (apply StableHlo.devRef_ne_of_ne; assumption)

def wr13 : List (Ref sig .tc) := [main_v135, main_c_22, main_v136, main_v137, main_c_23, main_v138, main_v139, main_v140, main_v141, main_v142, main_v143, main_v144, main_v145, main_v146, main_v147, main_v148, main_v149, main_v150]

theorem W24_keep (c : Dev nD) (b : Ref sig .tc) (hb : b ∉ wr13) : W24 m ρ c (Proc.devRef .tc b) = W23 m ρ c (Proc.devRef .tc b) := by
  refine StableHlo.after_of_forall_not_mem (b := Proc.devRef .tc b) _ _ (List.forall_iff_forall_mem.mp ?_)
  simp only [hostOps13, List.Forall, StableHlo.nullary_writes, StableHlo.unary_writes, StableHlo.binary_writes, StableHlo.ternary_writes, StableHlo.quaternary_writes, StableHlo.reshape_writes, StableHlo.binaryIndexed_writes, Finset.mem_singleton]
  simp only [wr13, List.mem_cons, List.mem_nil_iff, or_false, not_or] at hb
  obtain ⟨h1, h2, h3, h4, h5, h6, h7, h8, h9, h10, h11, h12, h13, h14, h15, h16, h17, h18⟩ := hb
  refine ⟨?_, ?_, ?_, ?_, ?_, ?_, ?_, ?_, ?_, ?_, ?_, ?_, ?_, ?_, ?_, ?_, ?_, ?_⟩ <;> (apply StableHlo.devRef_ne_of_ne; assumption)

def wr14 : List (Ref sig .tc) := [main_cst_24, main_v152, main_v153, main_v154, main_cst_25, main_v155, main_v156, main_v157, main_v158, main_v159]

theorem W26_keep (c : Dev nD) (b : Ref sig .tc) (hb : b ∉ wr14) : W26 m ρ c (Proc.devRef .tc b) = W25 m ρ c (Proc.devRef .tc b) := by
  refine StableHlo.after_of_forall_not_mem (b := Proc.devRef .tc b) _ _ (List.forall_iff_forall_mem.mp ?_)
  simp only [hostOps14, List.Forall, StableHlo.nullary_writes, StableHlo.unary_writes, StableHlo.binary_writes, StableHlo.ternary_writes, StableHlo.quaternary_writes, StableHlo.reshape_writes, StableHlo.binaryIndexed_writes, Finset.mem_singleton]
  simp only [wr14, List.mem_cons, List.mem_nil_iff, or_false, not_or] at hb
  obtain ⟨h1, h2, h3, h4, h5, h6, h7, h8, h9, h10⟩ := hb
  refine ⟨?_, ?_, ?_, ?_, ?_, ?_, ?_, ?_, ?_, ?_⟩ <;> (apply StableHlo.devRef_ne_of_ne; assumption)

def wr16 : List (Ref sig .tc) := [main_cst_26, main_v162, main_cst_27, main_v163, main_v164, main_v165, main_cst_28, main_v166, main_v167, main_cst_29, main_v168, main_v169, main_v170, main_v171, main_v172, main_v173, main_v174, main_v175, main_v176, main_v177, main_v178, main_v179]

theorem W29_keep (c : Dev nD) (b : Ref sig .tc) (hb : b ∉ wr16) : W29 m ρ c (Proc.devRef .tc b) = W28 m ρ c (Proc.devRef .tc b) := by
  refine StableHlo.after_of_forall_not_mem (b := Proc.devRef .tc b) _ _ (List.forall_iff_forall_mem.mp ?_)
  simp only [hostOps16, List.Forall, StableHlo.nullary_writes, StableHlo.unary_writes, StableHlo.binary_writes, StableHlo.ternary_writes, StableHlo.quaternary_writes, StableHlo.reshape_writes, StableHlo.binaryIndexed_writes, Finset.mem_singleton]
  simp only [wr16, List.mem_cons, List.mem_nil_iff, or_false, not_or] at hb
  obtain ⟨h1, h2, h3, h4, h5, h6, h7, h8, h9, h10, h11, h12, h13, h14, h15, h16, h17, h18, h19, h20, h21, h22⟩ := hb
  refine ⟨?_, ?_, ?_, ?_, ?_, ?_, ?_, ?_, ?_, ?_, ?_, ?_, ?_, ?_, ?_, ?_, ?_, ?_, ?_, ?_, ?_, ?_⟩ <;> (apply StableHlo.devRef_ne_of_ne; assumption)

/-! ## The same facts stated for rewriting by `simp` (the reference unindexed) -/
theorem W3_keep' (c : Dev nD) (b : Ref sig .tc) (hb : b ∉ wr1) : W3 m ρ c (no_index (Proc.devRef .tc b)) = W2 m ρ c (Proc.devRef .tc b) := W3_keep m ρ c b hb
theorem W5_keep' (c : Dev nD) (b : Ref sig .tc) (hb : b ∉ wr2) : W5 m ρ c (no_index (Proc.devRef .tc b)) = W4 m ρ c (Proc.devRef .tc b) := W5_keep m ρ c b hb
theorem W8_keep' (c : Dev nD) (b : Ref sig .tc) (hb : b ∉ wr4) : W8 m ρ c (no_index (Proc.devRef .tc b)) = W7 m ρ c (Proc.devRef .tc b) := W8_keep m ρ c b hb
theorem W10_keep' (c : Dev nD) (b : Ref sig .tc) (hb : b ∉ wr5) : W10 m ρ c (no_index (Proc.devRef .tc b)) = W9 m ρ c (Proc.devRef .tc b) := W10_keep m ρ c b hb
theorem W12_keep' (c : Dev nD) (b : Ref sig .tc) (hb : b ∉ wr6) : W12 m ρ c (no_index (Proc.devRef .tc b)) = W11 m ρ c (Proc.devRef .tc b) := W12_keep m ρ c b hb
theorem W15_keep' (c : Dev nD) (b : Ref sig .tc) (hb : b ∉ wr8) : W15 m ρ c (no_index (Proc.devRef .tc b)) = W14 m ρ c (Proc.devRef .tc b) := W15_keep m ρ c b hb
theorem W17_keep' (c : Dev nD) (b : Ref sig .tc) (hb : b ∉ wr9) : W17 m ρ c (no_index (Proc.devRef .tc b)) = W16 m ρ c (Proc.devRef .tc b) := W17_keep m ρ c b hb
theorem W19_keep' (c : Dev nD) (b : Ref sig .tc) (hb : b ∉ wr10) : W19 m ρ c (no_index (Proc.devRef .tc b)) = W18 m ρ c (Proc.devRef .tc b) := W19_keep m ρ c b hb
theorem W22_keep' (c : Dev nD) (b : Ref sig .tc) (hb : b ∉ wr12) : W22 m ρ c (no_index (Proc.devRef .tc b)) = W21 m ρ c (Proc.devRef .tc b) := W22_keep m ρ c b hb
theorem W24_keep' (c : Dev nD) (b : Ref sig .tc) (hb : b ∉ wr13) : W24 m ρ c (no_index (Proc.devRef .tc b)) = W23 m ρ c (Proc.devRef .tc b) := W24_keep m ρ c b hb
theorem W26_keep' (c : Dev nD) (b : Ref sig .tc) (hb : b ∉ wr14) : W26 m ρ c (no_index (Proc.devRef .tc b)) = W25 m ρ c (Proc.devRef .tc b) := W26_keep m ρ c b hb
theorem W29_keep' (c : Dev nD) (b : Ref sig .tc) (hb : b ∉ wr16) : W29 m ρ c (no_index (Proc.devRef .tc b)) = W28 m ρ c (Proc.devRef .tc b) := W29_keep m ρ c b hb
theorem W2_of_ne' (c : Dev nD) (b : Ref sig .tc) (hb : ∀ w, Pipeline.arrRef spec0 w ≠ b) : W2 m ρ c (no_index (Proc.devRef .tc b)) = W1 m ρ c (Proc.devRef .tc b) := W2_of_ne m ρ c b hb
theorem W4_of_ne' (c : Dev nD) (b : Ref sig .tc) (hb : ∀ w, Pipeline.arrRef spec1 w ≠ b) : W4 m ρ c (no_index (Proc.devRef .tc b)) = W3 m ρ c (Proc.devRef .tc b) := W4_of_ne m ρ c b hb
theorem W6_of_ne' (c : Dev nD) (b : Ref sig .tc) (hb : ∀ w, Pipeline.arrRef spec2 w ≠ b) : W6 m ρ c (no_index (Proc.devRef .tc b)) = W5 m ρ c (Proc.devRef .tc b) := W6_of_ne m ρ c b hb
theorem W7_of_ne' (c : Dev nD) (b : Ref sig .tc) (hb : ∀ w, Pipeline.arrRef spec3 w ≠ b) : W7 m ρ c (no_index (Proc.devRef .tc b)) = W6 m ρ c (Proc.devRef .tc b) := W7_of_ne m ρ c b hb
theorem W9_of_ne' (c : Dev nD) (b : Ref sig .tc) (hb : ∀ w, Pipeline.arrRef spec4 w ≠ b) : W9 m ρ c (no_index (Proc.devRef .tc b)) = W8 m ρ c (Proc.devRef .tc b) := W9_of_ne m ρ c b hb
theorem W11_of_ne' (c : Dev nD) (b : Ref sig .tc) (hb : ∀ w, Pipeline.arrRef spec5 w ≠ b) : W11 m ρ c (no_index (Proc.devRef .tc b)) = W10 m ρ c (Proc.devRef .tc b) := W11_of_ne m ρ c b hb
theorem W13_of_ne' (c : Dev nD) (b : Ref sig .tc) (hb : ∀ w, Pipeline.arrRef spec6 w ≠ b) : W13 m ρ c (no_index (Proc.devRef .tc b)) = W12 m ρ c (Proc.devRef .tc b) := W13_of_ne m ρ c b hb
theorem W14_of_ne' (c : Dev nD) (b : Ref sig .tc) (hb : ∀ w, Pipeline.arrRef spec7 w ≠ b) : W14 m ρ c (no_index (Proc.devRef .tc b)) = W13 m ρ c (Proc.devRef .tc b) := W14_of_ne m ρ c b hb
theorem W16_of_ne' (c : Dev nD) (b : Ref sig .tc) (hb : ∀ w, Pipeline.arrRef spec8 w ≠ b) : W16 m ρ c (no_index (Proc.devRef .tc b)) = W15 m ρ c (Proc.devRef .tc b) := W16_of_ne m ρ c b hb
theorem W18_of_ne' (c : Dev nD) (b : Ref sig .tc) (hb : ∀ w, Pipeline.arrRef spec9 w ≠ b) : W18 m ρ c (no_index (Proc.devRef .tc b)) = W17 m ρ c (Proc.devRef .tc b) := W18_of_ne m ρ c b hb
theorem W20_of_ne' (c : Dev nD) (b : Ref sig .tc) (hb : ∀ w, Pipeline.arrRef spec10 w ≠ b) : W20 m ρ c (no_index (Proc.devRef .tc b)) = W19 m ρ c (Proc.devRef .tc b) := W20_of_ne m ρ c b hb
theorem W21_of_ne' (c : Dev nD) (b : Ref sig .tc) (hb : ∀ w, Pipeline.arrRef spec11 w ≠ b) : W21 m ρ c (no_index (Proc.devRef .tc b)) = W20 m ρ c (Proc.devRef .tc b) := W21_of_ne m ρ c b hb
theorem W23_of_ne' (c : Dev nD) (b : Ref sig .tc) (hb : ∀ w, Pipeline.arrRef spec12 w ≠ b) : W23 m ρ c (no_index (Proc.devRef .tc b)) = W22 m ρ c (Proc.devRef .tc b) := W23_of_ne m ρ c b hb
theorem W25_of_ne' (c : Dev nD) (b : Ref sig .tc) (hb : ∀ w, Pipeline.arrRef spec13 w ≠ b) : W25 m ρ c (no_index (Proc.devRef .tc b)) = W24 m ρ c (Proc.devRef .tc b) := W25_of_ne m ρ c b hb
theorem W27_of_ne' (c : Dev nD) (b : Ref sig .tc) (hb : ∀ w, Pipeline.arrRef spec14 w ≠ b) : W27 m ρ c (no_index (Proc.devRef .tc b)) = W26 m ρ c (Proc.devRef .tc b) := W27_of_ne m ρ c b hb
theorem W28_of_ne' (c : Dev nD) (b : Ref sig .tc) (hb : ∀ w, Pipeline.arrRef spec15 w ≠ b) : W28 m ρ c (no_index (Proc.devRef .tc b)) = W27 m ρ c (Proc.devRef .tc b) := W28_of_ne m ρ c b hb
theorem W30_of_ne' (c : Dev nD) (b : Ref sig .tc) (hb : ∀ w, Pipeline.arrRef spec16 w ≠ b) : W30 m ρ c (no_index (Proc.devRef .tc b)) = W29 m ρ c (Proc.devRef .tc b) := W30_of_ne m ρ c b hb

end Cert.KernelIdeal.Gen

end
-- ==== Proof.KIn.lean ====
/-
  A region leaves its input arrays as it found them: an input window is never written back, so after the region its array holds the entry contents. Stated for the inputs that later segments still read: each layer's input features (read again by the normalize region), the edges' pseudo-coordinates (read by every layer), and each layer's aggregate (read by both batch-norm regions).
-/
import proofs.«111449_j80633716015168_2_alg».proof.Proof.Gen.KernelIdeal.Frame
import Idealize.ShloMosaic.Lib.Pipeline.Value

set_option maxRecDepth 16384

noncomputable section

namespace Cert.KernelIdeal.Gen

open Idealize.ShloMosaic Idealize.ShloMosaic.TcCoe Idealize.ShloMosaic.StableHlo Idealize.SL.Sem
open Cert.KernelIdeal

variable (m : (ℓ : Loc nD τ sig) → Buf (Elt Ideal) ℓ) (ρ : Dev nD → PrngReg)

theorem noFlush0_0 : ∀ t : Fin cfg0.N, (cfg0.win 0).flush t = false :=
  (by decide +kernel : ∀ t : Fin grid0.N, win0_0.flush t = false)
theorem W2_in (c : Dev nD) : W2 m ρ c (Proc.devRef .tc main_v37) = W1 m ρ c (Proc.devRef .tc main_v37) :=
  (W2_arr m ρ c 0).trans (funext fun i =>
    ((dat0 (V1 m ρ) c).arrAt_apply_of_forall_not_mem 0 cfg0.N i (fun t _ hf _ => absurd hf (by rw [noFlush0_0 t]; decide))).trans
      (congrFun (A_eq0 (V1 m ρ) c 0) i))
theorem W2_in' (c : Dev nD) : W2 m ρ c (no_index (Proc.devRef .tc main_v37)) = W1 m ρ c (Proc.devRef .tc main_v37) := W2_in m ρ c
theorem noFlush1_0 : ∀ t : Fin cfg1.N, (cfg1.win 0).flush t = false :=
  (by decide +kernel : ∀ t : Fin grid1.N, win1_0.flush t = false)
theorem W4_in (c : Dev nD) : W4 m ρ c (Proc.devRef .tc main_v30) = W3 m ρ c (Proc.devRef .tc main_v30) :=
  (W4_arr m ρ c 0).trans (funext fun i =>
    ((dat1 (V3 m ρ) c).arrAt_apply_of_forall_not_mem 0 cfg1.N i (fun t _ hf _ => absurd hf (by rw [noFlush1_0 t]; decide))).trans
      (congrFun (A_eq1 (V3 m ρ) c 0) i))
theorem W4_in' (c : Dev nD) : W4 m ρ c (no_index (Proc.devRef .tc main_v30)) = W3 m ρ c (Proc.devRef .tc main_v30) := W4_in m ρ c
theorem noFlush2_0 : ∀ t : Fin cfg2.N, (cfg2.win 0).flush t = false :=
  (by decide +kernel : ∀ t : Fin grid2.N, win2_0.flush t = false)
theorem W6_in (c : Dev nD) : W6 m ρ c (Proc.devRef .tc main_v65) = W5 m ρ c (Proc.devRef .tc main_v65) :=
  (W6_arr m ρ c 0).trans (funext fun i =>
    ((dat2 (V5 m ρ) c).arrAt_apply_of_forall_not_mem 0 cfg2.N i (fun t _ hf _ => absurd hf (by rw [noFlush2_0 t]; decide))).trans
      (congrFun (A_eq2 (V5 m ρ) c 0) i))
theorem W6_in' (c : Dev nD) : W6 m ρ c (no_index (Proc.devRef .tc main_v65)) = W5 m ρ c (Proc.devRef .tc main_v65) := W6_in m ρ c
theorem noFlush4_0 : ∀ t : Fin cfg4.N, (cfg4.win 0).flush t = false :=
  (by decide +kernel : ∀ t : Fin grid4.N, win4_0.flush t = false)
theorem W9_in (c : Dev nD) : W9 m ρ c (Proc.devRef .tc main_v71) = W8 m ρ c (Proc.devRef .tc main_v71) :=
  (W9_arr m ρ c 0).trans (funext fun i =>
    ((dat4 (V8 m ρ) c).arrAt_apply_of_forall_not_mem 0 cfg4.N i (fun t _ hf _ => absurd hf (by rw [noFlush4_0 t]; decide))).trans
      (congrFun (A_eq4 (V8 m ρ) c 0) i))
theorem W9_in' (c : Dev nD) : W9 m ρ c (no_index (Proc.devRef .tc main_v71)) = W8 m ρ c (Proc.devRef .tc main_v71) := W9_in m ρ c
theorem noFlush5_0 : ∀ t : Fin cfg5.N, (cfg5.win 0).flush t = false :=
  (by decide +kernel : ∀ t : Fin grid5.N, win5_0.flush t = false)
theorem W11_in (c : Dev nD) : W11 m ρ c (Proc.devRef .tc main_v30) = W10 m ρ c (Proc.devRef .tc main_v30) :=
  (W11_arr m ρ c 0).trans (funext fun i =>
    ((dat5 (V10 m ρ) c).arrAt_apply_of_forall_not_mem 0 cfg5.N i (fun t _ hf _ => absurd hf (by rw [noFlush5_0 t]; decide))).trans
      (congrFun (A_eq5 (V10 m ρ) c 0) i))
theorem W11_in' (c : Dev nD) : W11 m ρ c (no_index (Proc.devRef .tc main_v30)) = W10 m ρ c (Proc.devRef .tc main_v30) := W11_in m ρ c
theorem noFlush6_0 : ∀ t : Fin cfg6.N, (cfg6.win 0).flush t = false :=
  (by decide +kernel : ∀ t : Fin grid6.N, win6_0.flush t = false)
theorem W13_in (c : Dev nD) : W13 m ρ c (Proc.devRef .tc main_v95) = W12 m ρ c (Proc.devRef .tc main_v95) :=
  (W13_arr m ρ c 0).trans (funext fun i =>
    ((dat6 (V12 m ρ) c).arrAt_apply_of_forall_not_mem 0 cfg6.N i (fun t _ hf _ => absurd hf (by rw [noFlush6_0 t]; decide))).trans
      (congrFun (A_eq6 (V12 m ρ) c 0) i))
theorem W13_in' (c : Dev nD) : W13 m ρ c (no_index (Proc.devRef .tc main_v95)) = W12 m ρ c (Proc.devRef .tc main_v95) := W13_in m ρ c
theorem noFlush8_0 : ∀ t : Fin cfg8.N, (cfg8.win 0).flush t = false :=
  (by decide +kernel : ∀ t : Fin grid8.N, win8_0.flush t = false)
theorem W16_in (c : Dev nD) : W16 m ρ c (Proc.devRef .tc main_v101) = W15 m ρ c (Proc.devRef .tc main_v101) :=
  (W16_arr m ρ c 0).trans (funext fun i =>
    ((dat8 (V15 m ρ) c).arrAt_apply_of_forall_not_mem 0 cfg8.N i (fun t _ hf _ => absurd hf (by rw [noFlush8_0 t]; decide))).trans
      (congrFun (A_eq8 (V15 m ρ) c 0) i))
theorem W16_in' (c : Dev nD) : W16 m ρ c (no_index (Proc.devRef .tc main_v101)) = W15 m ρ c (Proc.devRef .tc main_v101) := W16_in m ρ c
theorem noFlush9_0 : ∀ t : Fin cfg9.N, (cfg9.win 0).flush t = false :=
  (by decide +kernel : ∀ t : Fin grid9.N, win9_0.flush t = false)
theorem W18_in (c : Dev nD) : W18 m ρ c (Proc.devRef .tc main_v30) = W17 m ρ c (Proc.devRef .tc main_v30) :=
  (W18_arr m ρ c 0).trans (funext fun i =>
    ((dat9 (V17 m ρ) c).arrAt_apply_of_forall_not_mem 0 cfg9.N i (fun t _ hf _ => absurd hf (by rw [noFlush9_0 t]; decide))).trans
      (congrFun (A_eq9 (V17 m ρ) c 0) i))
theorem W18_in' (c : Dev nD) : W18 m ρ c (no_index (Proc.devRef .tc main_v30)) = W17 m ρ c (Proc.devRef .tc main_v30) := W18_in m ρ c
theorem noFlush10_0 : ∀ t : Fin cfg10.N, (cfg10.win 0).flush t = false :=
  (by decide +kernel : ∀ t : Fin grid10.N, win10_0.flush t = false)
theorem W20_in (c : Dev nD) : W20 m ρ c (Proc.devRef .tc main_v125) = W19 m ρ c (Proc.devRef .tc main_v125) :=
  (W20_arr m ρ c 0).trans (funext fun i =>
    ((dat10 (V19 m ρ) c).arrAt_apply_of_forall_not_mem 0 cfg10.N i (fun t _ hf _ => absurd hf (by rw [noFlush10_0 t]; decide))).trans
      (congrFun (A_eq10 (V19 m ρ) c 0) i))
theorem W20_in' (c : Dev nD) : W20 m ρ c (no_index (Proc.devRef .tc main_v125)) = W19 m ρ c (Proc.devRef .tc main_v125) := W20_in m ρ c
theorem noFlush12_0 : ∀ t : Fin cfg12.N, (cfg12.win 0).flush t = false :=
  (by decide +kernel : ∀ t : Fin grid12.N, win12_0.flush t = false)
theorem W23_in (c : Dev nD) : W23 m ρ c (Proc.devRef .tc main_v131) = W22 m ρ c (Proc.devRef .tc main_v131) :=
  (W23_arr m ρ c 0).trans (funext fun i =>
    ((dat12 (V22 m ρ) c).arrAt_apply_of_forall_not_mem 0 cfg12.N i (fun t _ hf _ => absurd hf (by rw [noFlush12_0 t]; decide))).trans
      (congrFun (A_eq12 (V22 m ρ) c 0) i))
theorem W23_in' (c : Dev nD) : W23 m ρ c (no_index (Proc.devRef .tc main_v131)) = W22 m ρ c (Proc.devRef .tc main_v131) := W23_in m ρ c
theorem noFlush13_0 : ∀ t : Fin cfg13.N, (cfg13.win 0).flush t = false :=
  (by decide +kernel : ∀ t : Fin grid13.N, win13_0.flush t = false)
theorem W25_in (c : Dev nD) : W25 m ρ c (Proc.devRef .tc main_v30) = W24 m ρ c (Proc.devRef .tc main_v30) :=
  (W25_arr m ρ c 0).trans (funext fun i =>
    ((dat13 (V24 m ρ) c).arrAt_apply_of_forall_not_mem 0 cfg13.N i (fun t _ hf _ => absurd hf (by rw [noFlush13_0 t]; decide))).trans
      (congrFun (A_eq13 (V24 m ρ) c 0) i))
theorem W25_in' (c : Dev nD) : W25 m ρ c (no_index (Proc.devRef .tc main_v30)) = W24 m ρ c (Proc.devRef .tc main_v30) := W25_in m ρ c
theorem noFlush14_0 : ∀ t : Fin cfg14.N, (cfg14.win 0).flush t = false :=
  (by decide +kernel : ∀ t : Fin grid14.N, win14_0.flush t = false)
theorem W27_in (c : Dev nD) : W27 m ρ c (Proc.devRef .tc main_v155) = W26 m ρ c (Proc.devRef .tc main_v155) :=
  (W27_arr m ρ c 0).trans (funext fun i =>
    ((dat14 (V26 m ρ) c).arrAt_apply_of_forall_not_mem 0 cfg14.N i (fun t _ hf _ => absurd hf (by rw [noFlush14_0 t]; decide))).trans
      (congrFun (A_eq14 (V26 m ρ) c 0) i))
theorem W27_in' (c : Dev nD) : W27 m ρ c (no_index (Proc.devRef .tc main_v155)) = W26 m ρ c (Proc.devRef .tc main_v155) := W27_in m ρ c

end Cert.KernelIdeal.Gen

end
-- ==== Proof.KHost.lean ====
/-
  The host operations the idealized kernel applies between its regions, as functions of arrays: the gather of the
  transformed features at the edges' sources, the scatter-add and component sum that aggregate the messages, the
  per-layer parameters cut out of the stacked (and re-laid) ones, and the per-graph mean before the readout.
-/
import proofs.«111449_j80633716015168_2_alg».proof.Proof.Gen.KernelIdeal

noncomputable section

namespace Cert.KernelIdeal.Gen

open Idealize.ShloMosaic Idealize.SL.Sem
open Cert.KernelIdeal

/-! ## The host operations between the regions, as functions of arrays -/

/-- The transformed features at each edge's source node: the 192 columns read as three blocks of 64, gathered at the
    source indices (a negative index wrapped by the node count). -/
def hkSrcK (hk : (⟨S50000x192, .bf16⟩ : BufTy).Contents (Elt Ideal)) (src : (⟨S800000, .i32⟩ : BufTy).Contents (Elt Ideal)) :
    (⟨S800000x3x64, .bf16⟩ : BufTy).Contents (Elt Ideal) :=
  Host.gather gather_S50000x3x64_S800000x1_S800000x3x64_12_0_n_n_0_1_1364 (shapeCast S50000x3x64 hk shapeCasts_S50000x192_S50000x3x64)
    (broadcastInDim S800000x1 ![0] bcast_S800000_S800000x1_0
      (select (cmpi .slt src (broadcastInDim S800000 ![] bcast_S_S800000 (constantI S_ 32 0#32)))
        (addi src (broadcastInDim S800000 ![] bcast_S_S800000 (constantI S_ 32 50000#32))) src))

/-- The aggregate: the messages added at the target nodes from zero, then summed over the three components. -/
def aggK (dst : (⟨S800000, .i32⟩ : BufTy).Contents (Elt Ideal)) (msg : (⟨S800000x3x64, .f32⟩ : BufTy).Contents (Elt Ideal)) :
    (⟨S50000x64, .f32⟩ : BufTy).Contents (Elt Ideal) :=
  Host.reduceAdd (Host.scatterAdd scatter_S50000x3x64_S800000x1_S800000x3x64_12_0_0_1
      (broadcastInDim S50000x3x64 ![] bcast_S_S50000x3x64 (constant (F := Ideal) S_ .f32 0x00000000#32))
      (broadcastInDim S800000x1 ![0] bcast_S800000_S800000x1_0 dst) msg)
    (constant (F := Ideal) S_ .f32 0x00000000#32) reducesTo_S50000x3x64_S50000x64_d1 h_S_

/-- The stacked weight matrices, each transposed. -/
def wT (a : (⟨S4x192x64, .f32⟩ : BufTy).Contents (Elt Ideal)) : (⟨S4x64x192, .f32⟩ : BufTy).Contents (Elt Ideal) :=
  transpose S4x64x192 [0, 2, 1] a transposes_S4x192x64_S4x64x192_0_2_1
/-- The stacked projection offsets with a unit axis inserted. -/
def bR (a : (⟨S4x2, .f32⟩ : BufTy).Contents (Elt Ideal)) : (⟨S4x1x2, .f32⟩ : BufTy).Contents (Elt Ideal) := shapeCast S4x1x2 a shapeCasts_S4x2_S4x1x2
/-- The stacked normalization rows with a unit axis inserted. -/
def gR (a : (⟨S4x64, .f32⟩ : BufTy).Contents (Elt Ideal)) : (⟨S4x1x64, .f32⟩ : BufTy).Contents (Elt Ideal) := shapeCast S4x1x64 a shapeCasts_S4x64_S4x1x64

/-- Layer 0's parameters cut out of the stacked ones. -/
def kWt0 (a : (⟨S4x64x192, .f32⟩ : BufTy).Contents (Elt Ideal)) : (⟨S64x192, .f32⟩ : BufTy).Contents (Elt Ideal) :=
  shapeCast S64x192 (extractStridedSlice S1x64x192 ![0, 0, 0] a slices_S4x64x192_S1x64x192_0_0_0) shapeCasts_S1x64x192_S64x192
def kA0 (a : (⟨S4x2x2, .f32⟩ : BufTy).Contents (Elt Ideal)) : (⟨S2x2, .f32⟩ : BufTy).Contents (Elt Ideal) :=
  shapeCast S2x2 (extractStridedSlice S1x2x2 ![0, 0, 0] a slices_S4x2x2_S1x2x2_0_0_0) shapeCasts_S1x2x2_S2x2
def kB0 (a : (⟨S4x1x2, .f32⟩ : BufTy).Contents (Elt Ideal)) : (⟨S1x2, .f32⟩ : BufTy).Contents (Elt Ideal) :=
  shapeCast S1x2 (extractStridedSlice S1x1x2 ![0, 0, 0] a slices_S4x1x2_S1x1x2_0_0_0) shapeCasts_S1x1x2_S1x2
def kM0 (a : (⟨S4x3x2, .f32⟩ : BufTy).Contents (Elt Ideal)) : (⟨S3x2, .f32⟩ : BufTy).Contents (Elt Ideal) :=
  shapeCast S3x2 (extractStridedSlice S1x3x2 ![0, 0, 0] a slices_S4x3x2_S1x3x2_0_0_0) shapeCasts_S1x3x2_S3x2
def kG0 (a : (⟨S4x1x64, .f32⟩ : BufTy).Contents (Elt Ideal)) : (⟨S1x64, .f32⟩ : BufTy).Contents (Elt Ideal) :=
  shapeCast S1x64 (extractStridedSlice S1x1x64 ![0, 0, 0] a slices_S4x1x64_S1x1x64_0_0_0) shapeCasts_S1x1x64_S1x64

/-- Layer 1's parameters cut out of the stacked ones. -/
def kWt1 (a : (⟨S4x64x192, .f32⟩ : BufTy).Contents (Elt Ideal)) : (⟨S64x192, .f32⟩ : BufTy).Contents (Elt Ideal) :=
  shapeCast S64x192 (extractStridedSlice S1x64x192 ![1, 0, 0] a slices_S4x64x192_S1x64x192_1_0_0) shapeCasts_S1x64x192_S64x192
def kA1 (a : (⟨S4x2x2, .f32⟩ : BufTy).Contents (Elt Ideal)) : (⟨S2x2, .f32⟩ : BufTy).Contents (Elt Ideal) :=
  shapeCast S2x2 (extractStridedSlice S1x2x2 ![1, 0, 0] a slices_S4x2x2_S1x2x2_1_0_0) shapeCasts_S1x2x2_S2x2
def kB1 (a : (⟨S4x1x2, .f32⟩ : BufTy).Contents (Elt Ideal)) : (⟨S1x2, .f32⟩ : BufTy).Contents (Elt Ideal) :=
  shapeCast S1x2 (extractStridedSlice S1x1x2 ![1, 0, 0] a slices_S4x1x2_S1x1x2_1_0_0) shapeCasts_S1x1x2_S1x2
def kM1 (a : (⟨S4x3x2, .f32⟩ : BufTy).Contents (Elt Ideal)) : (⟨S3x2, .f32⟩ : BufTy).Contents (Elt Ideal) :=
  shapeCast S3x2 (extractStridedSlice S1x3x2 ![1, 0, 0] a slices_S4x3x2_S1x3x2_1_0_0) shapeCasts_S1x3x2_S3x2
def kG1 (a : (⟨S4x1x64, .f32⟩ : BufTy).Contents (Elt Ideal)) : (⟨S1x64, .f32⟩ : BufTy).Contents (Elt Ideal) :=
  shapeCast S1x64 (extractStridedSlice S1x1x64 ![1, 0, 0] a slices_S4x1x64_S1x1x64_1_0_0) shapeCasts_S1x1x64_S1x64

/-- Layer 2's parameters cut out of the stacked ones. -/
def kWt2 (a : (⟨S4x64x192, .f32⟩ : BufTy).Contents (Elt Ideal)) : (⟨S64x192, .f32⟩ : BufTy).Contents (Elt Ideal) :=
  shapeCast S64x192 (extractStridedSlice S1x64x192 ![2, 0, 0] a slices_S4x64x192_S1x64x192_2_0_0) shapeCasts_S1x64x192_S64x192
def kA2 (a : (⟨S4x2x2, .f32⟩ : BufTy).Contents (Elt Ideal)) : (⟨S2x2, .f32⟩ : BufTy).Contents (Elt Ideal) :=
  shapeCast S2x2 (extractStridedSlice S1x2x2 ![2, 0, 0] a slices_S4x2x2_S1x2x2_2_0_0) shapeCasts_S1x2x2_S2x2
def kB2 (a : (⟨S4x1x2, .f32⟩ : BufTy).Contents (Elt Ideal)) : (⟨S1x2, .f32⟩ : BufTy).Contents (Elt Ideal) :=
  shapeCast S1x2 (extractStridedSlice S1x1x2 ![2, 0, 0] a slices_S4x1x2_S1x1x2_2_0_0) shapeCasts_S1x1x2_S1x2
def kM2 (a : (⟨S4x3x2, .f32⟩ : BufTy).Contents (Elt Ideal)) : (⟨S3x2, .f32⟩ : BufTy).Contents (Elt Ideal) :=
  shapeCast S3x2 (extractStridedSlice S1x3x2 ![2, 0, 0] a slices_S4x3x2_S1x3x2_2_0_0) shapeCasts_S1x3x2_S3x2
def kG2 (a : (⟨S4x1x64, .f32⟩ : BufTy).Contents (Elt Ideal)) : (⟨S1x64, .f32⟩ : BufTy).Contents (Elt Ideal) :=
  shapeCast S1x64 (extractStridedSlice S1x1x64 ![2, 0, 0] a slices_S4x1x64_S1x1x64_2_0_0) shapeCasts_S1x1x64_S1x64

/-- Layer 3's parameters cut out of the stacked ones. -/
def kWt3 (a : (⟨S4x64x192, .f32⟩ : BufTy).Contents (Elt Ideal)) : (⟨S64x192, .f32⟩ : BufTy).Contents (Elt Ideal) :=
  shapeCast S64x192 (extractStridedSlice S1x64x192 ![3, 0, 0] a slices_S4x64x192_S1x64x192_3_0_0) shapeCasts_S1x64x192_S64x192
def kA3 (a : (⟨S4x2x2, .f32⟩ : BufTy).Contents (Elt Ideal)) : (⟨S2x2, .f32⟩ : BufTy).Contents (Elt Ideal) :=
  shapeCast S2x2 (extractStridedSlice S1x2x2 ![3, 0, 0] a slices_S4x2x2_S1x2x2_3_0_0) shapeCasts_S1x2x2_S2x2
def kB3 (a : (⟨S4x1x2, .f32⟩ : BufTy).Contents (Elt Ideal)) : (⟨S1x2, .f32⟩ : BufTy).Contents (Elt Ideal) :=
  shapeCast S1x2 (extractStridedSlice S1x1x2 ![3, 0, 0] a slices_S4x1x2_S1x1x2_3_0_0) shapeCasts_S1x1x2_S1x2
def kM3 (a : (⟨S4x3x2, .f32⟩ : BufTy).Contents (Elt Ideal)) : (⟨S3x2, .f32⟩ : BufTy).Contents (Elt Ideal) :=
  shapeCast S3x2 (extractStridedSlice S1x3x2 ![3, 0, 0] a slices_S4x3x2_S1x3x2_3_0_0) shapeCasts_S1x3x2_S3x2
def kG3 (a : (⟨S4x1x64, .f32⟩ : BufTy).Contents (Elt Ideal)) : (⟨S1x64, .f32⟩ : BufTy).Contents (Elt Ideal) :=
  shapeCast S1x64 (extractStridedSlice S1x1x64 ![3, 0, 0] a slices_S4x1x64_S1x1x64_3_0_0) shapeCasts_S1x1x64_S1x64

/-- The per-graph mean of the node features: the features added at the graph indices from zero, divided by the
    graph's node count (ones added at the graph indices from zero), at least one. -/
def hgK (h : (⟨S50000x64, .f32⟩ : BufTy).Contents (Elt Ideal)) (gid : (⟨S50000, .i32⟩ : BufTy).Contents (Elt Ideal)) :
    (⟨S256x64, .f32⟩ : BufTy).Contents (Elt Ideal) :=
  Host.divf
    (Host.scatterAdd scatter_S256x64_S50000x1_S50000x64_1_0_0_1 (broadcastInDim S256x64 ![] bcast_S_S256x64 (constant (F := Ideal) S_ .f32 0x00000000#32))
      (broadcastInDim S50000x1 ![0] bcast_S50000_S50000x1_0 gid) h)
    (broadcastInDim S256x64 ![0, 1] bcast_S256x1_S256x64_0_1 (broadcastInDim S256x1 ![0] bcast_S256_S256x1_0
      (maximumf
        (Host.scatterAdd scatter_S256_S50000x1_S50000_n_0_0_1 (broadcastInDim S256 ![] bcast_S_S256 (constant (F := Ideal) S_ .f32 0x00000000#32))
          (broadcastInDim S50000x1 ![0] bcast_S50000_S50000x1_0 gid) (broadcastInDim S50000 ![] bcast_S_S50000 (constant (F := Ideal) S_ .f32 0x3F800000#32)))
        (broadcastInDim S256 ![] bcast_S_S256 (constant (F := Ideal) S_ .f32 0x3F800000#32)))))

end Cert.KernelIdeal.Gen

end
-- ==== Proof.KProV.lean ====
/- The idealized kernel's first stretch of host operations, read from any contents: its first fifty operations end in
   the edges' pseudo-coordinates and the nodes' first features, the reference's own functions of the arguments; its
   last six re-lay the stacked parameters (the weight matrices transposed, a unit axis inserted in the offsets and the
   normalization rows) and cut layer 0's transposed weight matrix out. A buffer the stretch does not write keeps its
   contents. -/
import proofs.«111449_j80633716015168_2_alg».proof.Proof.Gen.KernelIdeal.Launch
import proofs.«111449_j80633716015168_2_alg».proof.Proof.RefStages
import proofs.«111449_j80633716015168_2_alg».proof.Proof.KHost
import Idealize.ShloMosaic.Lib.StableHlo.Run
import Idealize.ShloMosaic.Lib.Pipeline.Frame

set_option Elab.async false

noncomputable section

namespace Cert.KernelIdeal.Gen

open Idealize.ShloMosaic Idealize.ShloMosaic.TcCoe Idealize.ShloMosaic.StableHlo Idealize.SL.Sem
open Cert.KernelIdeal

variable {F : FTy → Type} [FloatOps F]

/-- The first fifty operations of the stretch. -/
abbrev proA : List (HloOp τ sig (Elt F)) :=
  [ StableHlo.nullary main_cst (constant S_ .f32 0x3F800000#32),
    StableHlo.unary main_cst main_v0 (broadcastInDim S800000 ![] bcast_S_S800000 : (⟨S_, .f32⟩ : BufTy).Contents (Elt F) → (⟨S800000, .f32⟩ : BufTy).Contents (Elt F)),
    StableHlo.nullary main_cst_0 (constant S_ .f32 0x00000000#32),
    StableHlo.unary main_cst_0 main_v1 (broadcastInDim S50000 ![] bcast_S_S50000 : (⟨S_, .f32⟩ : BufTy).Contents (Elt F) → (⟨S50000, .f32⟩ : BufTy).Contents (Elt F)),
    StableHlo.unary main_arg2 main_v2 (broadcastInDim S800000x1 ![0] bcast_S800000_S800000x1_0 : (⟨S800000, .i32⟩ : BufTy).Contents (Elt F) → (⟨S800000x1, .i32⟩ : BufTy).Contents (Elt F)),
    StableHlo.ternary main_v1 main_v2 main_v0 main_v3 ((fun x i u => Host.scatterAdd scatter_S50000_S800000x1_S800000_n_0_0_1 x i u) : (⟨S50000, .f32⟩ : BufTy).Contents (Elt F) → (⟨S800000x1, .i32⟩ : BufTy).Contents (Elt F) → (⟨S800000, .f32⟩ : BufTy).Contents (Elt F) → (⟨S50000, .f32⟩ : BufTy).Contents (Elt F)),
    StableHlo.nullary main_c (constantI S_ 32 0#32),
    StableHlo.unary main_c main_v4 (broadcastInDim S800000 ![] bcast_S_S800000 : (⟨S_, .i32⟩ : BufTy).Contents (Elt F) → (⟨S800000, .i32⟩ : BufTy).Contents (Elt F)),
    StableHlo.binary main_arg1 main_v4 main_v5 (cmpi .slt : (⟨S800000, .i32⟩ : BufTy).Contents (Elt F) → (⟨S800000, .i32⟩ : BufTy).Contents (Elt F) → (⟨S800000, .i1⟩ : BufTy).Contents (Elt F)),
    StableHlo.nullary main_c_1 (constantI S_ 32 50000#32),
    StableHlo.unary main_c_1 main_v6 (broadcastInDim S800000 ![] bcast_S_S800000 : (⟨S_, .i32⟩ : BufTy).Contents (Elt F) → (⟨S800000, .i32⟩ : BufTy).Contents (Elt F)),
    StableHlo.binary main_arg1 main_v6 main_v7 (addi : (⟨S800000, .i32⟩ : BufTy).Contents (Elt F) → (⟨S800000, .i32⟩ : BufTy).Contents (Elt F) → (⟨S800000, .i32⟩ : BufTy).Contents (Elt F)),
    StableHlo.ternary main_v5 main_v7 main_arg1 main_v8 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v8 main_v9 (broadcastInDim S800000x1 ![0] bcast_S800000_S800000x1_0 : (⟨S800000, .i32⟩ : BufTy).Contents (Elt F) → (⟨S800000x1, .i32⟩ : BufTy).Contents (Elt F)),
    StableHlo.binary main_v3 main_v9 main_v10 ((fun x i => Host.gather gather_S50000_S800000x1_S800000_n_0_n_n_0_1_1 x i) : (⟨S50000, .f32⟩ : BufTy).Contents (Elt F) → (⟨S800000x1, .i32⟩ : BufTy).Contents (Elt F) → (⟨S800000, .f32⟩ : BufTy).Contents (Elt F)),
    StableHlo.nullary main_cst_2 (constant S_ .f32 0x3F800000#32),
    StableHlo.unary main_cst_2 main_v11 (broadcastInDim S800000 ![] bcast_S_S800000 : (⟨S_, .f32⟩ : BufTy).Contents (Elt F) → (⟨S800000, .f32⟩ : BufTy).Contents (Elt F)),
    StableHlo.binary main_v10 main_v11 main_v12 (addf : (⟨S800000, .f32⟩ : BufTy).Contents (Elt F) → (⟨S800000, .f32⟩ : BufTy).Contents (Elt F) → (⟨S800000, .f32⟩ : BufTy).Contents (Elt F)),
    StableHlo.unary main_v12 main_v13 (Host.sqrt : (⟨S800000, .f32⟩ : BufTy).Contents (Elt F) → (⟨S800000, .f32⟩ : BufTy).Contents (Elt F)),
    StableHlo.nullary main_cst_3 (constant S_ .f32 0x3F800000#32),
    StableHlo.unary main_cst_3 main_v14 (broadcastInDim S800000 ![] bcast_S_S800000 : (⟨S_, .f32⟩ : BufTy).Contents (Elt F) → (⟨S800000, .f32⟩ : BufTy).Contents (Elt F)),
    StableHlo.binary main_v14 main_v13 main_v15 (Host.divf : (⟨S800000, .f32⟩ : BufTy).Contents (Elt F) → (⟨S800000, .f32⟩ : BufTy).Contents (Elt F) → (⟨S800000, .f32⟩ : BufTy).Contents (Elt F)),
    StableHlo.nullary main_c_4 (constantI S_ 32 0#32),
    StableHlo.unary main_c_4 main_v16 (broadcastInDim S800000 ![] bcast_S_S800000 : (⟨S_, .i32⟩ : BufTy).Contents (Elt F) → (⟨S800000, .i32⟩ : BufTy).Contents (Elt F)),
    StableHlo.binary main_arg2 main_v16 main_v17 (cmpi .slt : (⟨S800000, .i32⟩ : BufTy).Contents (Elt F) → (⟨S800000, .i32⟩ : BufTy).Contents (Elt F) → (⟨S800000, .i1⟩ : BufTy).Contents (Elt F)),
    StableHlo.nullary main_c_5 (constantI S_ 32 50000#32),
    StableHlo.unary main_c_5 main_v18 (broadcastInDim S800000 ![] bcast_S_S800000 : (⟨S_, .i32⟩ : BufTy).Contents (Elt F) → (⟨S800000, .i32⟩ : BufTy).Contents (Elt F)),
    StableHlo.binary main_arg2 main_v18 main_v19 (addi : (⟨S800000, .i32⟩ : BufTy).Contents (Elt F) → (⟨S800000, .i32⟩ : BufTy).Contents (Elt F) → (⟨S800000, .i32⟩ : BufTy).Contents (Elt F)),
    StableHlo.ternary main_v17 main_v19 main_arg2 main_v20 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v20 main_v21 (broadcastInDim S800000x1 ![0] bcast_S800000_S800000x1_0 : (⟨S800000, .i32⟩ : BufTy).Contents (Elt F) → (⟨S800000x1, .i32⟩ : BufTy).Contents (Elt F)),
    StableHlo.binary main_v3 main_v21 main_v22 ((fun x i => Host.gather gather_S50000_S800000x1_S800000_n_0_n_n_0_1_1 x i) : (⟨S50000, .f32⟩ : BufTy).Contents (Elt F) → (⟨S800000x1, .i32⟩ : BufTy).Contents (Elt F) → (⟨S800000, .f32⟩ : BufTy).Contents (Elt F)),
    StableHlo.nullary main_cst_6 (constant S_ .f32 0x3F800000#32),
    StableHlo.unary main_cst_6 main_v23 (broadcastInDim S800000 ![] bcast_S_S800000 : (⟨S_, .f32⟩ : BufTy).Contents (Elt F) → (⟨S800000, .f32⟩ : BufTy).Contents (Elt F)),
    StableHlo.binary main_v22 main_v23 main_v24 (addf : (⟨S800000, .f32⟩ : BufTy).Contents (Elt F) → (⟨S800000, .f32⟩ : BufTy).Contents (Elt F) → (⟨S800000, .f32⟩ : BufTy).Contents (Elt F)),
    StableHlo.unary main_v24 main_v25 (Host.sqrt : (⟨S800000, .f32⟩ : BufTy).Contents (Elt F) → (⟨S800000, .f32⟩ : BufTy).Contents (Elt F)),
    StableHlo.nullary main_cst_7 (constant S_ .f32 0x3F800000#32),
    StableHlo.unary main_cst_7 main_v26 (broadcastInDim S800000 ![] bcast_S_S800000 : (⟨S_, .f32⟩ : BufTy).Contents (Elt F) → (⟨S800000, .f32⟩ : BufTy).Contents (Elt F)),
    StableHlo.binary main_v26 main_v25 main_v27 (Host.divf : (⟨S800000, .f32⟩ : BufTy).Contents (Elt F) → (⟨S800000, .f32⟩ : BufTy).Contents (Elt F) → (⟨S800000, .f32⟩ : BufTy).Contents (Elt F)),
    StableHlo.unary main_v15 main_v28 (broadcastInDim S800000x1 ![0] bcast_S800000_S800000x1_0 : (⟨S800000, .f32⟩ : BufTy).Contents (Elt F) → (⟨S800000x1, .f32⟩ : BufTy).Contents (Elt F)),
    StableHlo.unary main_v27 main_v29 (broadcastInDim S800000x1 ![0] bcast_S800000_S800000x1_0 : (⟨S800000, .f32⟩ : BufTy).Contents (Elt F) → (⟨S800000x1, .f32⟩ : BufTy).Contents (Elt F)),
    StableHlo.binary main_v28 main_v29 main_v30 ((fun a b => concatenate S800000x2 1 [⟨S800000x1, a⟩, ⟨S800000x1, b⟩] concatenates_S800000x1_S800000x1_S800000x2_d1) : (⟨S800000x1, .f32⟩ : BufTy).Contents (Elt F) → (⟨S800000x1, .f32⟩ : BufTy).Contents (Elt F) → (⟨S800000x2, .f32⟩ : BufTy).Contents (Elt F)),
    StableHlo.nullary main_c_8 (constantI S_ 32 0#32),
    StableHlo.unary main_c_8 main_v31 (broadcastInDim S50000 ![] bcast_S_S50000 : (⟨S_, .i32⟩ : BufTy).Contents (Elt F) → (⟨S50000, .i32⟩ : BufTy).Contents (Elt F)),
    StableHlo.binary main_arg0 main_v31 main_v32 (cmpi .slt : (⟨S50000, .i32⟩ : BufTy).Contents (Elt F) → (⟨S50000, .i32⟩ : BufTy).Contents (Elt F) → (⟨S50000, .i1⟩ : BufTy).Contents (Elt F)),
    StableHlo.nullary main_c_9 (constantI S_ 32 28#32),
    StableHlo.unary main_c_9 main_v33 (broadcastInDim S50000 ![] bcast_S_S50000 : (⟨S_, .i32⟩ : BufTy).Contents (Elt F) → (⟨S50000, .i32⟩ : BufTy).Contents (Elt F)),
    StableHlo.binary main_arg0 main_v33 main_v34 (addi : (⟨S50000, .i32⟩ : BufTy).Contents (Elt F) → (⟨S50000, .i32⟩ : BufTy).Contents (Elt F) → (⟨S50000, .i32⟩ : BufTy).Contents (Elt F)),
    StableHlo.ternary main_v32 main_v34 main_arg0 main_v35 (select : (⟨S50000, .i1⟩ : BufTy).Contents (Elt F) → (⟨S50000, .i32⟩ : BufTy).Contents (Elt F) → (⟨S50000, .i32⟩ : BufTy).Contents (Elt F) → (⟨S50000, .i32⟩ : BufTy).Contents (Elt F)),
    StableHlo.unary main_v35 main_v36 (broadcastInDim S50000x1 ![0] bcast_S50000_S50000x1_0 : (⟨S50000, .i32⟩ : BufTy).Contents (Elt F) → (⟨S50000x1, .i32⟩ : BufTy).Contents (Elt F)),
    StableHlo.binary main_arg4 main_v36 main_v37 ((fun x i => Host.gather gather_S28x64_S50000x1_S50000x64_1_0_n_n_0_1_164 x i) : (⟨S28x64, .f32⟩ : BufTy).Contents (Elt F) → (⟨S50000x1, .i32⟩ : BufTy).Contents (Elt F) → (⟨S50000x64, .f32⟩ : BufTy).Contents (Elt F)) ]

/-- The buffers those operations write. -/
abbrev proA_W : List (Ref sig .tc) :=
  [main_cst, main_v0, main_cst_0, main_v1, main_v2, main_v3, main_c, main_v4, main_v5, main_c_1, main_v6, main_v7, main_v8, main_v9, main_v10, main_cst_2, main_v11, main_v12, main_v13, main_cst_3, main_v14, main_v15, main_c_4, main_v16, main_v17, main_c_5, main_v18, main_v19, main_v20, main_v21, main_v22, main_cst_6, main_v23, main_v24, main_v25, main_cst_7, main_v26, main_v27, main_v28, main_v29, main_v30, main_c_8, main_v31, main_v32, main_c_9, main_v33, main_v34, main_v35, main_v36, main_v37]

set_option maxRecDepth 8192 in
theorem proA_writes : (proA : List (HloOp τ sig (Elt F))).Forall fun op =>
    op.writes ⊆ (proA_W.map (Proc.devRef (τ := τ) .tc)).toFinset :=
  ⟨Finset.singleton_subset_iff.mpr (List.mem_toFinset.mpr (List.mem_map_of_mem (f := Proc.devRef (τ := τ) .tc) (a := main_cst) (by decide))),
   Finset.singleton_subset_iff.mpr (List.mem_toFinset.mpr (List.mem_map_of_mem (f := Proc.devRef (τ := τ) .tc) (a := main_v0) (by decide))),
   Finset.singleton_subset_iff.mpr (List.mem_toFinset.mpr (List.mem_map_of_mem (f := Proc.devRef (τ := τ) .tc) (a := main_cst_0) (by decide))),
   Finset.singleton_subset_iff.mpr (List.mem_toFinset.mpr (List.mem_map_of_mem (f := Proc.devRef (τ := τ) .tc) (a := main_v1) (by decide))),
   Finset.singleton_subset_iff.mpr (List.mem_toFinset.mpr (List.mem_map_of_mem (f := Proc.devRef (τ := τ) .tc) (a := main_v2) (by decide))),
   Finset.singleton_subset_iff.mpr (List.mem_toFinset.mpr (List.mem_map_of_mem (f := Proc.devRef (τ := τ) .tc) (a := main_v3) (by decide))),
   Finset.singleton_subset_iff.mpr (List.mem_toFinset.mpr (List.mem_map_of_mem (f := Proc.devRef (τ := τ) .tc) (a := main_c) (by decide))),
   Finset.singleton_subset_iff.mpr (List.mem_toFinset.mpr (List.mem_map_of_mem (f := Proc.devRef (τ := τ) .tc) (a := main_v4) (by decide))),
   Finset.singleton_subset_iff.mpr (List.mem_toFinset.mpr (List.mem_map_of_mem (f := Proc.devRef (τ := τ) .tc) (a := main_v5) (by decide))),
   Finset.singleton_subset_iff.mpr (List.mem_toFinset.mpr (List.mem_map_of_mem (f := Proc.devRef (τ := τ) .tc) (a := main_c_1) (by decide))),
   Finset.singleton_subset_iff.mpr (List.mem_toFinset.mpr (List.mem_map_of_mem (f := Proc.devRef (τ := τ) .tc) (a := main_v6) (by decide))),
   Finset.singleton_subset_iff.mpr (List.mem_toFinset.mpr (List.mem_map_of_mem (f := Proc.devRef (τ := τ) .tc) (a := main_v7) (by decide))),
   Finset.singleton_subset_iff.mpr (List.mem_toFinset.mpr (List.mem_map_of_mem (f := Proc.devRef (τ := τ) .tc) (a := main_v8) (by decide))),
   Finset.singleton_subset_iff.mpr (List.mem_toFinset.mpr (List.mem_map_of_mem (f := Proc.devRef (τ := τ) .tc) (a := main_v9) (by decide))),
   Finset.singleton_subset_iff.mpr (List.mem_toFinset.mpr (List.mem_map_of_mem (f := Proc.devRef (τ := τ) .tc) (a := main_v10) (by decide))),
   Finset.singleton_subset_iff.mpr (List.mem_toFinset.mpr (List.mem_map_of_mem (f := Proc.devRef (τ := τ) .tc) (a := main_cst_2) (by decide))),
   Finset.singleton_subset_iff.mpr (List.mem_toFinset.mpr (List.mem_map_of_mem (f := Proc.devRef (τ := τ) .tc) (a := main_v11) (by decide))),
   Finset.singleton_subset_iff.mpr (List.mem_toFinset.mpr (List.mem_map_of_mem (f := Proc.devRef (τ := τ) .tc) (a := main_v12) (by decide))),
   Finset.singleton_subset_iff.mpr (List.mem_toFinset.mpr (List.mem_map_of_mem (f := Proc.devRef (τ := τ) .tc) (a := main_v13) (by decide))),
   Finset.singleton_subset_iff.mpr (List.mem_toFinset.mpr (List.mem_map_of_mem (f := Proc.devRef (τ := τ) .tc) (a := main_cst_3) (by decide))),
   Finset.singleton_subset_iff.mpr (List.mem_toFinset.mpr (List.mem_map_of_mem (f := Proc.devRef (τ := τ) .tc) (a := main_v14) (by decide))),
   Finset.singleton_subset_iff.mpr (List.mem_toFinset.mpr (List.mem_map_of_mem (f := Proc.devRef (τ := τ) .tc) (a := main_v15) (by decide))),
   Finset.singleton_subset_iff.mpr (List.mem_toFinset.mpr (List.mem_map_of_mem (f := Proc.devRef (τ := τ) .tc) (a := main_c_4) (by decide))),
   Finset.singleton_subset_iff.mpr (List.mem_toFinset.mpr (List.mem_map_of_mem (f := Proc.devRef (τ := τ) .tc) (a := main_v16) (by decide))),
   Finset.singleton_subset_iff.mpr (List.mem_toFinset.mpr (List.mem_map_of_mem (f := Proc.devRef (τ := τ) .tc) (a := main_v17) (by decide))),
   Finset.singleton_subset_iff.mpr (List.mem_toFinset.mpr (List.mem_map_of_mem (f := Proc.devRef (τ := τ) .tc) (a := main_c_5) (by decide))),
   Finset.singleton_subset_iff.mpr (List.mem_toFinset.mpr (List.mem_map_of_mem (f := Proc.devRef (τ := τ) .tc) (a := main_v18) (by decide))),
   Finset.singleton_subset_iff.mpr (List.mem_toFinset.mpr (List.mem_map_of_mem (f := Proc.devRef (τ := τ) .tc) (a := main_v19) (by decide))),
   Finset.singleton_subset_iff.mpr (List.mem_toFinset.mpr (List.mem_map_of_mem (f := Proc.devRef (τ := τ) .tc) (a := main_v20) (by decide))),
   Finset.singleton_subset_iff.mpr (List.mem_toFinset.mpr (List.mem_map_of_mem (f := Proc.devRef (τ := τ) .tc) (a := main_v21) (by decide))),
   Finset.singleton_subset_iff.mpr (List.mem_toFinset.mpr (List.mem_map_of_mem (f := Proc.devRef (τ := τ) .tc) (a := main_v22) (by decide))),
   Finset.singleton_subset_iff.mpr (List.mem_toFinset.mpr (List.mem_map_of_mem (f := Proc.devRef (τ := τ) .tc) (a := main_cst_6) (by decide))),
   Finset.singleton_subset_iff.mpr (List.mem_toFinset.mpr (List.mem_map_of_mem (f := Proc.devRef (τ := τ) .tc) (a := main_v23) (by decide))),
   Finset.singleton_subset_iff.mpr (List.mem_toFinset.mpr (List.mem_map_of_mem (f := Proc.devRef (τ := τ) .tc) (a := main_v24) (by decide))),
   Finset.singleton_subset_iff.mpr (List.mem_toFinset.mpr (List.mem_map_of_mem (f := Proc.devRef (τ := τ) .tc) (a := main_v25) (by decide))),
   Finset.singleton_subset_iff.mpr (List.mem_toFinset.mpr (List.mem_map_of_mem (f := Proc.devRef (τ := τ) .tc) (a := main_cst_7) (by decide))),
   Finset.singleton_subset_iff.mpr (List.mem_toFinset.mpr (List.mem_map_of_mem (f := Proc.devRef (τ := τ) .tc) (a := main_v26) (by decide))),
   Finset.singleton_subset_iff.mpr (List.mem_toFinset.mpr (List.mem_map_of_mem (f := Proc.devRef (τ := τ) .tc) (a := main_v27) (by decide))),
   Finset.singleton_subset_iff.mpr (List.mem_toFinset.mpr (List.mem_map_of_mem (f := Proc.devRef (τ := τ) .tc) (a := main_v28) (by decide))),
   Finset.singleton_subset_iff.mpr (List.mem_toFinset.mpr (List.mem_map_of_mem (f := Proc.devRef (τ := τ) .tc) (a := main_v29) (by decide))),
   Finset.singleton_subset_iff.mpr (List.mem_toFinset.mpr (List.mem_map_of_mem (f := Proc.devRef (τ := τ) .tc) (a := main_v30) (by decide))),
   Finset.singleton_subset_iff.mpr (List.mem_toFinset.mpr (List.mem_map_of_mem (f := Proc.devRef (τ := τ) .tc) (a := main_c_8) (by decide))),
   Finset.singleton_subset_iff.mpr (List.mem_toFinset.mpr (List.mem_map_of_mem (f := Proc.devRef (τ := τ) .tc) (a := main_v31) (by decide))),
   Finset.singleton_subset_iff.mpr (List.mem_toFinset.mpr (List.mem_map_of_mem (f := Proc.devRef (τ := τ) .tc) (a := main_v32) (by decide))),
   Finset.singleton_subset_iff.mpr (List.mem_toFinset.mpr (List.mem_map_of_mem (f := Proc.devRef (τ := τ) .tc) (a := main_c_9) (by decide))),
   Finset.singleton_subset_iff.mpr (List.mem_toFinset.mpr (List.mem_map_of_mem (f := Proc.devRef (τ := τ) .tc) (a := main_v33) (by decide))),
   Finset.singleton_subset_iff.mpr (List.mem_toFinset.mpr (List.mem_map_of_mem (f := Proc.devRef (τ := τ) .tc) (a := main_v34) (by decide))),
   Finset.singleton_subset_iff.mpr (List.mem_toFinset.mpr (List.mem_map_of_mem (f := Proc.devRef (τ := τ) .tc) (a := main_v35) (by decide))),
   Finset.singleton_subset_iff.mpr (List.mem_toFinset.mpr (List.mem_map_of_mem (f := Proc.devRef (τ := τ) .tc) (a := main_v36) (by decide))),
   Finset.singleton_subset_iff.mpr (List.mem_toFinset.mpr (List.mem_map_of_mem (f := Proc.devRef (τ := τ) .tc) (a := main_v37) (by decide)))⟩

/-- A buffer those operations do not write keeps its contents through them. -/
theorem proA_keep (W : Valuation τ sig (Elt F)) (r : Ref sig .tc) (h : r ∉ proA_W) :
    after proA W (Proc.devRef .tc r) = W (Proc.devRef .tc r) :=
  after_of_writes_sub proA W proA_writes h

set_option maxRecDepth 8192 in
set_option maxHeartbeats 4000000 in
/-- The pseudo-coordinates after the first fifty operations. -/
theorem proA_v30 (W : Valuation τ sig (Elt F)) :
    after proA W (Proc.devRef .tc main_v30)
      = Cert.ReferenceIdeal.RefSpec.pseudoS (W (Proc.devRef .tc main_arg1)) (W (Proc.devRef .tc main_arg2)) := by
  simp only [proA]
  after_results_simp
  rfl

set_option maxRecDepth 8192 in
set_option maxHeartbeats 4000000 in
/-- The first features after the first fifty operations. -/
theorem proA_v37 (W : Valuation τ sig (Elt F)) :
    after proA W (Proc.devRef .tc main_v37)
      = Cert.ReferenceIdeal.RefSpec.h0S (W (Proc.devRef .tc main_arg4)) (W (Proc.devRef .tc main_arg0)) := by
  simp only [proA]
  after_results_simp
  rfl

/-- The last six operations of the stretch. -/
abbrev proB : List (HloOp τ sig (Elt F)) :=
  [ StableHlo.unary main_arg5 main_v38 ((transpose S4x64x192 [0, 2, 1] · transposes_S4x192x64_S4x64x192_0_2_1) : (⟨S4x192x64, .f32⟩ : BufTy).Contents (Elt F) → (⟨S4x64x192, .f32⟩ : BufTy).Contents (Elt F)),
    StableHlo.reshape main_arg11 main_v39 rfl shapeCasts_S4x2_S4x1x2,
    StableHlo.reshape main_arg8 main_v40 rfl shapeCasts_S4x64_S4x1x64,
    StableHlo.reshape main_arg9 main_v41 rfl shapeCasts_S4x64_S4x1x64,
    StableHlo.unary main_v38 main_v42 ((extractStridedSlice S1x64x192 ![0, 0, 0] · slices_S4x64x192_S1x64x192_0_0_0) : (⟨S4x64x192, .f32⟩ : BufTy).Contents (Elt F) → (⟨S1x64x192, .f32⟩ : BufTy).Contents (Elt F)),
    StableHlo.reshape main_v42 main_v43 rfl shapeCasts_S1x64x192_S64x192 ]

/-- The buffers those operations write. -/
abbrev proB_W : List (Ref sig .tc) :=
  [main_v38, main_v39, main_v40, main_v41, main_v42, main_v43]

set_option maxRecDepth 8192 in
theorem proB_writes : (proB : List (HloOp τ sig (Elt F))).Forall fun op =>
    op.writes ⊆ (proB_W.map (Proc.devRef (τ := τ) .tc)).toFinset :=
  ⟨Finset.singleton_subset_iff.mpr (List.mem_toFinset.mpr (List.mem_map_of_mem (f := Proc.devRef (τ := τ) .tc) (a := main_v38) (by decide))),
   Finset.singleton_subset_iff.mpr (List.mem_toFinset.mpr (List.mem_map_of_mem (f := Proc.devRef (τ := τ) .tc) (a := main_v39) (by decide))),
   Finset.singleton_subset_iff.mpr (List.mem_toFinset.mpr (List.mem_map_of_mem (f := Proc.devRef (τ := τ) .tc) (a := main_v40) (by decide))),
   Finset.singleton_subset_iff.mpr (List.mem_toFinset.mpr (List.mem_map_of_mem (f := Proc.devRef (τ := τ) .tc) (a := main_v41) (by decide))),
   Finset.singleton_subset_iff.mpr (List.mem_toFinset.mpr (List.mem_map_of_mem (f := Proc.devRef (τ := τ) .tc) (a := main_v42) (by decide))),
   Finset.singleton_subset_iff.mpr (List.mem_toFinset.mpr (List.mem_map_of_mem (f := Proc.devRef (τ := τ) .tc) (a := main_v43) (by decide)))⟩

/-- A buffer those operations do not write keeps its contents through them. -/
theorem proB_keep (W : Valuation τ sig (Elt F)) (r : Ref sig .tc) (h : r ∉ proB_W) :
    after proB W (Proc.devRef .tc r) = W (Proc.devRef .tc r) :=
  after_of_writes_sub proB W proB_writes h

set_option maxRecDepth 8192 in
set_option maxHeartbeats 4000000 in
/-- The stacked weight matrices, each transposed. -/
theorem proB_v38 (W : Valuation τ sig (Elt Ideal)) :
    after proB W (Proc.devRef .tc main_v38)
      = wT (W (Proc.devRef .tc main_arg5)) := by
  simp only [proB]
  after_results_simp
  rfl

set_option maxRecDepth 8192 in
set_option maxHeartbeats 4000000 in
/-- The stacked projection offsets with a unit axis inserted. -/
theorem proB_v39 (W : Valuation τ sig (Elt Ideal)) :
    after proB W (Proc.devRef .tc main_v39)
      = bR (W (Proc.devRef .tc main_arg11)) := by
  simp only [proB]
  after_results_simp
  rfl

set_option maxRecDepth 8192 in
set_option maxHeartbeats 4000000 in
/-- The stacked normalization scales with a unit axis inserted. -/
theorem proB_v40 (W : Valuation τ sig (Elt Ideal)) :
    after proB W (Proc.devRef .tc main_v40)
      = gR (W (Proc.devRef .tc main_arg8)) := by
  simp only [proB]
  after_results_simp
  rfl

set_option maxRecDepth 8192 in
set_option maxHeartbeats 4000000 in
/-- The stacked normalization shifts with a unit axis inserted. -/
theorem proB_v41 (W : Valuation τ sig (Elt Ideal)) :
    after proB W (Proc.devRef .tc main_v41)
      = gR (W (Proc.devRef .tc main_arg9)) := by
  simp only [proB]
  after_results_simp
  rfl

set_option maxRecDepth 8192 in
set_option maxHeartbeats 4000000 in
/-- Layer 0's transposed weight matrix. -/
theorem proB_v43 (W : Valuation τ sig (Elt Ideal)) :
    after proB W (Proc.devRef .tc main_v43)
      = kWt0 (wT (W (Proc.devRef .tc main_arg5))) := by
  simp only [proB]
  after_results_simp
  rfl

/-- The stretch is its first fifty operations, then its last six. -/
theorem hostOps0_split : (hostOps0 : List (HloOp τ sig (Elt F))) = proA ++ proB := rfl

/-- The fold over the stretch is the two folds composed. -/
theorem after_hostOps0 (V : Valuation τ sig (Elt F)) : after hostOps0 V = after proB (after proA V) := by
  rw [hostOps0_split, after_append]

/-- The buffers the stretch writes. -/
abbrev proW : List (Ref sig .tc) := proA_W ++ proB_W

/-- A buffer the stretch does not write keeps its contents through it. -/
theorem pro_keep (V : Valuation τ sig (Elt F)) (r : Ref sig .tc) (h : r ∉ proW) :
    after hostOps0 V (Proc.devRef .tc r) = V (Proc.devRef .tc r) := by
  rw [after_hostOps0]
  exact (proB_keep _ r fun hm => h (List.mem_append_right _ hm)).trans (proA_keep V r fun hm => h (List.mem_append_left _ hm))

theorem pro_v30 (V : Valuation τ sig (Elt Ideal)) :
    after hostOps0 V (Proc.devRef .tc main_v30) = Cert.ReferenceIdeal.RefSpec.pseudoS (F := Ideal) (V (Proc.devRef .tc main_arg1)) (V (Proc.devRef .tc main_arg2)) := by
  rw [after_hostOps0]
  exact (proB_keep _ main_v30 (by decide)).trans (proA_v30 V)
theorem pro_v37 (V : Valuation τ sig (Elt Ideal)) :
    after hostOps0 V (Proc.devRef .tc main_v37) = Cert.ReferenceIdeal.RefSpec.h0S (F := Ideal) (V (Proc.devRef .tc main_arg4)) (V (Proc.devRef .tc main_arg0)) := by
  rw [after_hostOps0]
  exact (proB_keep _ main_v37 (by decide)).trans (proA_v37 V)
theorem pro_v38 (V : Valuation τ sig (Elt Ideal)) :
    after hostOps0 V (Proc.devRef .tc main_v38) = wT (V (Proc.devRef .tc main_arg5)) := by
  rw [after_hostOps0, proB_v38, proA_keep V main_arg5 (by decide)]
theorem pro_v39 (V : Valuation τ sig (Elt Ideal)) :
    after hostOps0 V (Proc.devRef .tc main_v39) = bR (V (Proc.devRef .tc main_arg11)) := by
  rw [after_hostOps0, proB_v39, proA_keep V main_arg11 (by decide)]
theorem pro_v40 (V : Valuation τ sig (Elt Ideal)) :
    after hostOps0 V (Proc.devRef .tc main_v40) = gR (V (Proc.devRef .tc main_arg8)) := by
  rw [after_hostOps0, proB_v40, proA_keep V main_arg8 (by decide)]
theorem pro_v41 (V : Valuation τ sig (Elt Ideal)) :
    after hostOps0 V (Proc.devRef .tc main_v41) = gR (V (Proc.devRef .tc main_arg9)) := by
  rw [after_hostOps0, proB_v41, proA_keep V main_arg9 (by decide)]
theorem pro_v43 (V : Valuation τ sig (Elt Ideal)) :
    after hostOps0 V (Proc.devRef .tc main_v43) = kWt0 (wT (V (Proc.devRef .tc main_arg5))) := by
  rw [after_hostOps0, proB_v43, proA_keep V main_arg5 (by decide)]

end Cert.KernelIdeal.Gen

end
-- ==== Proof.KPro.lean ====
/-
  The prologue's results at the launch memory: the edges' pseudo-coordinates, the nodes' first features, the re-laid stacked parameters, as the reference's own functions of the arguments; and the buffers the prologue keeps.
-/
import proofs.«111449_j80633716015168_2_alg».proof.Proof.Gen.KernelIdeal.Frame
import proofs.«111449_j80633716015168_2_alg».proof.Proof.RefStages
import proofs.«111449_j80633716015168_2_alg».proof.Proof.KHost
import proofs.«111449_j80633716015168_2_alg».proof.Proof.KProV
import Idealize.ShloMosaic.Lib.StableHlo.Run

set_option maxRecDepth 16384

noncomputable section

namespace Cert.KernelIdeal.Gen

open Idealize.ShloMosaic Idealize.ShloMosaic.TcCoe Idealize.ShloMosaic.StableHlo Idealize.SL.Sem
open Cert.KernelIdeal

variable (m : (ℓ : Loc nD τ sig) → Buf (Elt Ideal) ℓ) (ρ : Dev nD → PrngReg)

/-! ## The prologue: the edges' pseudo-coordinates, the nodes' first features, the re-laid parameters -/
theorem W1_v30 (c : Dev nD) : W1 m ρ c (Proc.devRef .tc main_v30) = Cert.ReferenceIdeal.RefSpec.pseudoS (F := Ideal) (W0 m ρ c (Proc.devRef .tc main_arg1)) (W0 m ρ c (Proc.devRef .tc main_arg2)) :=
  pro_v30 (W0 m ρ c)
theorem W1_v30' (c : Dev nD) : W1 m ρ c (no_index (Proc.devRef .tc main_v30)) = Cert.ReferenceIdeal.RefSpec.pseudoS (F := Ideal) (W0 m ρ c (Proc.devRef .tc main_arg1)) (W0 m ρ c (Proc.devRef .tc main_arg2)) := W1_v30 m ρ c
theorem W1_v37 (c : Dev nD) : W1 m ρ c (Proc.devRef .tc main_v37) = Cert.ReferenceIdeal.RefSpec.h0S (F := Ideal) (W0 m ρ c (Proc.devRef .tc main_arg4)) (W0 m ρ c (Proc.devRef .tc main_arg0)) :=
  pro_v37 (W0 m ρ c)
theorem W1_v37' (c : Dev nD) : W1 m ρ c (no_index (Proc.devRef .tc main_v37)) = Cert.ReferenceIdeal.RefSpec.h0S (F := Ideal) (W0 m ρ c (Proc.devRef .tc main_arg4)) (W0 m ρ c (Proc.devRef .tc main_arg0)) := W1_v37 m ρ c
theorem W1_v38 (c : Dev nD) : W1 m ρ c (Proc.devRef .tc main_v38) = wT (W0 m ρ c (Proc.devRef .tc main_arg5)) :=
  pro_v38 (W0 m ρ c)
theorem W1_v38' (c : Dev nD) : W1 m ρ c (no_index (Proc.devRef .tc main_v38)) = wT (W0 m ρ c (Proc.devRef .tc main_arg5)) := W1_v38 m ρ c
theorem W1_v39 (c : Dev nD) : W1 m ρ c (Proc.devRef .tc main_v39) = bR (W0 m ρ c (Proc.devRef .tc main_arg11)) :=
  pro_v39 (W0 m ρ c)
theorem W1_v39' (c : Dev nD) : W1 m ρ c (no_index (Proc.devRef .tc main_v39)) = bR (W0 m ρ c (Proc.devRef .tc main_arg11)) := W1_v39 m ρ c
theorem W1_v40 (c : Dev nD) : W1 m ρ c (Proc.devRef .tc main_v40) = gR (W0 m ρ c (Proc.devRef .tc main_arg8)) :=
  pro_v40 (W0 m ρ c)
theorem W1_v40' (c : Dev nD) : W1 m ρ c (no_index (Proc.devRef .tc main_v40)) = gR (W0 m ρ c (Proc.devRef .tc main_arg8)) := W1_v40 m ρ c
theorem W1_v41 (c : Dev nD) : W1 m ρ c (Proc.devRef .tc main_v41) = gR (W0 m ρ c (Proc.devRef .tc main_arg9)) :=
  pro_v41 (W0 m ρ c)
theorem W1_v41' (c : Dev nD) : W1 m ρ c (no_index (Proc.devRef .tc main_v41)) = gR (W0 m ρ c (Proc.devRef .tc main_arg9)) := W1_v41 m ρ c
theorem W1_v43 (c : Dev nD) : W1 m ρ c (Proc.devRef .tc main_v43) = kWt0 (wT (W0 m ρ c (Proc.devRef .tc main_arg5))) :=
  pro_v43 (W0 m ρ c)
theorem W1_v43' (c : Dev nD) : W1 m ρ c (no_index (Proc.devRef .tc main_v43)) = kWt0 (wT (W0 m ρ c (Proc.devRef .tc main_arg5))) := W1_v43 m ρ c

/-- The prologue keeps every buffer it does not write. -/
theorem W1_keep (c : Dev nD) (b : Ref sig .tc) (hb : b ∉ proW) : W1 m ρ c (Proc.devRef .tc b) = W0 m ρ c (Proc.devRef .tc b) := pro_keep (W0 m ρ c) b hb
theorem W1_keep' (c : Dev nD) (b : Ref sig .tc) (hb : b ∉ proW) : W1 m ρ c (no_index (Proc.devRef .tc b)) = W0 m ρ c (Proc.devRef .tc b) := W1_keep m ρ c b hb

end Cert.KernelIdeal.Gen

end
-- ==== Proof.LibDense.lean ====
/-
  General facts, at the exact instance (floats as extended reals), about the operations a dense layer and a row softmax
  are made of, each read at an index written by its coordinates:
  a matrix product into a zero accumulator is the sum over the contracted axis of the products of the row's and the
  column's entries; a vector cast to one row and broadcast down the rows is the vector at the column; a vector cast
  to one column and broadcast along the rows is the vector at the row; a sum and a maximum over the second axis of a
  matrix are the sum and the maximum of the row's entries.
-/
import Idealize.ShloMosaic.PureOps.Ideal.Laws
import Idealize.ShloMosaic.Lib.ValueIdx
import Idealize.ShloMosaic.Lib.ValueLayout
import Idealize.ShloMosaic.Lib.Pipeline.Value

noncomputable section

namespace Cert.LibDense

open Idealize.ShloMosaic Idealize.ShloMosaic.ValueIdx

variable {α : Type} {M K N : Nat}

/-- A matrix product of an [M, K] by a [K, N] matrix into the zero accumulator, read at (p, q): the sum over the
    contracted coordinate k of x(p, k) · w(k, q). The four hypotheses say which operand coordinate each of the
    product's index maps takes from the output index and which from the contraction index. -/
theorem matmul_zero_rc {φ₁ φ₂ : FTy} (D : DotDims ⟨2, ![M, K]⟩ ⟨2, ![K, N]⟩ ⟨2, ![M, N]⟩) (hr : D.contr.rank = 1)
    (hs : D.contr.size ⟨0, by omega⟩ = K)
    (hl0 : ∀ (i : (⟨2, ![M, N]⟩ : Shape).Idx) (c : D.contr.Idx), (D.lhsIdx i c 0).val = (i 0).val)
    (hl1 : ∀ (i : (⟨2, ![M, N]⟩ : Shape).Idx) (c : D.contr.Idx), (D.lhsIdx i c 1).val = (c ⟨0, by omega⟩).val)
    (hr0 : ∀ (i : (⟨2, ![M, N]⟩ : Shape).Idx) (c : D.contr.Idx), (D.rhsIdx i c 0).val = (c ⟨0, by omega⟩).val)
    (hr1 : ∀ (i : (⟨2, ![M, N]⟩ : Shape).Idx) (c : D.contr.Idx), (D.rhsIdx i c 1).val = (i 1).val)
    (prec : Option ContractPrecision)
    (x : FVec Ideal ⟨2, ![M, K]⟩ φ₁) (w : FVec Ideal ⟨2, ![K, N]⟩ φ₂) (p : Fin M) (q : Fin N) :
    matmul D prec x w (constant ⟨2, ![M, N]⟩ .f32 0x00000000#32) (ix2 p q) = ∑ k : Fin K, x (ix2 p k) * w (ix2 k q) := by
  refine (Ideal.matmul_constant_zero_apply D prec x w (ix2 p q)).trans ?_
  rw [← Equiv.sum_comp (contrEquiv1 D K hr hs).symm]
  refine Finset.sum_congr rfl fun k _ => ?_
  have hk := contrEquiv1_symm_val D K hr hs k
  have el : D.lhsIdx (ix2 p q) ((contrEquiv1 D K hr hs).symm k) = ix2 p k := funext fun a => Fin.ext (by
    match a with
    | ⟨0, _⟩ => exact hl0 _ _
    | ⟨1, _⟩ => exact (hl1 _ _).trans hk)
  have er : D.rhsIdx (ix2 p q) ((contrEquiv1 D K hr hs).symm k) = ix2 k q := funext fun a => Fin.ext (by
    match a with
    | ⟨0, _⟩ => exact (hr0 _ _).trans hk
    | ⟨1, _⟩ => exact hr1 _ _)
  rw [el, er]

/-- An [N] vector cast to one row [1, N] and broadcast to [M, N] reads, at (p, q), the vector at q. -/
theorem rowBroadcast_rc (b : (⟨1, ![N]⟩ : Shape).Idx → α) (h1 : (⟨1, ![N]⟩ : Shape).ShapeCasts ⟨2, ![1, N]⟩)
    (h2 : (⟨2, ![1, N]⟩ : Shape).Broadcasts ⟨2, ![M, N]⟩) (p : Fin M) (q : Fin N) :
    broadcastTo ⟨2, ![M, N]⟩ (shapeCast ⟨2, ![1, N]⟩ b h1) h2 (ix2 p q) = b (ix1 q) :=
  (broadcastTo_1b_ab_apply _ h2 p q).trans (shapeCast_a_1a_apply b h1 0 q)

/-- An [M] vector cast to one column [M, 1] reads, at (p, u), the vector at p. -/
theorem shapeCast_a_a1_apply (v : (⟨1, ![M]⟩ : Shape).Idx → α) (h : (⟨1, ![M]⟩ : Shape).ShapeCasts ⟨2, ![M, 1]⟩)
    (p : Fin M) (u : Fin 1) : shapeCast ⟨2, ![M, 1]⟩ v h (ix2 p u) = v (ix1 p) :=
  shapeCast_apply v h _ _ (by
    have hu : u.val = 0 := by omega
    rw [Shape.rowMajor_val_two, Shape.rowMajor_val_one]
    show p.val = p.val * 1 + u.val
    omega)

/-- An [M, 1] column cast to the [M] vector reads, at p, the column at (p, 0). -/
theorem shapeCast_a1_a_apply (v : (⟨2, ![M, 1]⟩ : Shape).Idx → α) (h : (⟨2, ![M, 1]⟩ : Shape).ShapeCasts ⟨1, ![M]⟩)
    (p : Fin M) : shapeCast ⟨1, ![M]⟩ v h (ix1 p) = v (ix2 p (0 : Fin 1)) :=
  shapeCast_apply v h _ _ (by
    rw [Shape.rowMajor_val_two, Shape.rowMajor_val_one]
    show p.val * 1 + 0 = p.val
    omega)

/-- An [M, 1] column broadcast along the rows to [M, N] reads, at (p, q), the column at (p, 0). -/
theorem broadcastTo_a1_ab_apply (v : (⟨2, ![M, 1]⟩ : Shape).Idx → α) (h : (⟨2, ![M, 1]⟩ : Shape).Broadcasts ⟨2, ![M, N]⟩)
    (p : Fin M) (q : Fin N) : broadcastTo ⟨2, ![M, N]⟩ v h (ix2 p q) = v (ix2 p (0 : Fin 1)) := by
  refine broadcastTo_apply v h (ix2 p q) (ix2 p (0 : Fin 1)) fun ax => ?_
  match ax with
  | ⟨0, _⟩ =>
    show p.val = if M = 1 then 0 else p.val
    split
    · have := p.isLt; omega
    · rfl
  | ⟨1, _⟩ => rfl

/-- An [M] vector cast to one column and broadcast along the rows to [M, N] reads, at (p, q), the vector at p. -/
theorem colBroadcast_rc (v : (⟨1, ![M]⟩ : Shape).Idx → α) (h1 : (⟨1, ![M]⟩ : Shape).ShapeCasts ⟨2, ![M, 1]⟩)
    (h2 : (⟨2, ![M, 1]⟩ : Shape).Broadcasts ⟨2, ![M, N]⟩) (p : Fin M) (q : Fin N) :
    broadcastTo ⟨2, ![M, N]⟩ (shapeCast ⟨2, ![M, 1]⟩ v h1) h2 (ix2 p q) = v (ix1 p) :=
  (broadcastTo_a1_ab_apply _ h2 p q).trans (shapeCast_a_a1_apply v h1 p 0)

/-- The index of an [M, N] matrix that drops to p when the second axis is reduced, with k put on that axis, is (p, k). -/
theorem lift_row (h : (⟨2, ![M, N]⟩ : Shape).Reduces [1] ⟨1, ![M]⟩) (p : Fin M) (k : Fin N) :
    h.lift (ix1 p) k = ix2 p k := by
  funext a
  apply Fin.ext
  match a with
  | ⟨0, _⟩ => rfl
  | ⟨1, _⟩ => rfl

/-- The sum over the second axis of an [M, N] matrix, read at row p: the sum of the row's entries. -/
theorem rowSum_apply (src : FVec Ideal ⟨2, ![M, N]⟩ .f32) (h : (⟨2, ![M, N]⟩ : Shape).Reduces [1] ⟨1, ![M]⟩)
    (hφ : FKind.Formats .f32) (hacc : (0x00000000#32 : BitVec 32) = 0x00000000#32) (p : Fin M) :
    multiReduction .add [1] ⟨1, ![M]⟩ src 0x00000000#32 h hφ hacc (ix1 p) = ∑ k : Fin N, src (ix2 p k) := by
  refine (Ideal.multiReduction_add_single src 0x00000000#32 h hφ hacc (ix1 p)).trans ?_
  exact Finset.sum_congr rfl fun k _ => congrArg src (lift_row h p k)

/-- The maximum over the second axis of an [M, N] matrix, read at row p: the fold of max, from minus infinity's
    pattern, over the row's entries. -/
theorem rowMax_apply (src : FVec Ideal ⟨2, ![M, N]⟩ .f32) (h : (⟨2, ![M, N]⟩ : Shape).Reduces [1] ⟨1, ![M]⟩)
    (hφ : FKind.Formats .f32) (hacc : (0xFF800000#32 : BitVec 32) = 0xFF800000#32) (p : Fin M) :
    multiReduction .maximumf [1] ⟨1, ![M]⟩ src 0xFF800000#32 h hφ hacc (ix1 p)
      = (Finset.univ : Finset (Fin N)).fold max (Ideal.ofBits .f32 0xFF800000#32) (fun k => src (ix2 p k)) := by
  refine (Ideal.multiReduction_maximumf_single src 0xFF800000#32 h hφ hacc (ix1 p)).trans ?_
  have e : (src ∘ h.lift (ix1 p)) = fun k => src (ix2 p k) := funext fun k => congrArg src (lift_row h p k)
  rw [e]
  rfl

/-- The host's reduction by maximum over the second axis of an [M, N] matrix, read at row p: the same fold, from the
    initial value's one element. -/
theorem hostRowMax_apply {u : Shape} (x : (⟨2, ![M, N]⟩ : Shape).Idx → EReal) (init : u.Idx → EReal)
    (h' : (⟨2, ![M, N]⟩ : Shape).ReducesTo [1] ⟨1, ![M]⟩) (h : (⟨2, ![M, N]⟩ : Shape).Reduces [1] ⟨1, ![M]⟩)
    (hu : 0 < u.numel) (p : Fin M) :
    Host.reduce (FloatOps.maximumf (F := Ideal) (φ := .f32)) x init h' hu (ix1 p)
      = (Finset.univ : Finset (Fin N)).fold max (init (Shape.Idx.first hu)) (fun k => x (ix2 p k)) := by
  refine (Host.reduce_eq_fold_single _ x init h' h hu (ix1 p)).trans ?_
  have e : (x ∘ h.lift (ix1 p)) = fun k => x (ix2 p k) := funext fun k => congrArg x (lift_row h p k)
  rw [e]
  rfl

/-! ## What a dense layer and a row softmax compute -/

/-- The f32 zero word's value (the rectifier's threshold and the sums' initial value). -/
abbrev zeroWord : EReal := Ideal.ofBits .f32 0x00000000#32

/-- Minus infinity's f32 word's value (the maximum's initial value). -/
abbrev negInfWord : EReal := Ideal.ofBits .f32 0xFF800000#32

/-- An affine map's entry: at (r, j), the sum over k of x(r, k) · w(k, j), plus b(j). -/
def affine (x : (⟨2, ![M, K]⟩ : Shape).Idx → EReal) (w : (⟨2, ![K, N]⟩ : Shape).Idx → EReal)
    (b : (⟨1, ![N]⟩ : Shape).Idx → EReal) : (⟨2, ![M, N]⟩ : Shape).Idx → EReal :=
  fun i => ∑ k : Fin K, x (ix2 (n0 := M) (n1 := K) ⟨(i 0).val, (i 0).isLt⟩ k) * w (ix2 (n0 := K) (n1 := N) k ⟨(i 1).val, (i 1).isLt⟩)
    + b (ix1 (n := N) ⟨(i 1).val, (i 1).isLt⟩)

theorem affine_apply (x : (⟨2, ![M, K]⟩ : Shape).Idx → EReal) (w : (⟨2, ![K, N]⟩ : Shape).Idx → EReal)
    (b : (⟨1, ![N]⟩ : Shape).Idx → EReal) (p : Fin M) (q : Fin N) :
    affine x w b (ix2 p q) = ∑ k : Fin K, x (ix2 p k) * w (ix2 k q) + b (ix1 q) := rfl

/-- One dense layer with the rectifier: the affine map's entry or the zero word's value, whichever is larger. -/
def layer (x : (⟨2, ![M, K]⟩ : Shape).Idx → EReal) (w : (⟨2, ![K, N]⟩ : Shape).Idx → EReal)
    (b : (⟨1, ![N]⟩ : Shape).Idx → EReal) : (⟨2, ![M, N]⟩ : Shape).Idx → EReal :=
  fun i => max (affine x w b i) zeroWord

theorem layer_apply (x : (⟨2, ![M, K]⟩ : Shape).Idx → EReal) (w : (⟨2, ![K, N]⟩ : Shape).Idx → EReal)
    (b : (⟨1, ![N]⟩ : Shape).Idx → EReal) (p : Fin M) (q : Fin N) :
    layer x w b (ix2 p q) = max (∑ k : Fin K, x (ix2 p k) * w (ix2 k q) + b (ix1 q)) zeroWord := rfl

/-- A row's largest logit as both programs take it: the fold of max from minus infinity's word over the row, once more
    against that word. -/
def rowTop (l : Fin N → EReal) : EReal := max negInfWord ((Finset.univ : Finset (Fin N)).fold max negInfWord l)

/-- A softmax row as both programs compute it: each logit less the row's largest, exponentiated, over the sum of those
    exponentials (the exact quotient of extended reals). -/
def softmaxRow (l : Fin N → EReal) (v : Fin N) : EReal :=
  Ideal.div (Ideal.exp (l v - rowTop l)) (∑ u : Fin N, Ideal.exp (l u - rowTop l))

end Cert.LibDense

end
-- ==== Proof.BodyNodeTransform.lean ====
/-
  The node-transform body at exact arithmetic. A block of 10000 node rows h (10000 × 64) is multiplied by the layer's
  weight matrix W (64 × 192) into a zero accumulator; the changes of float format around the product are the identity
  on the extended reals. So the stored block, at row p and column q, is the sum over k of h(p, k) · W(k, q).
-/
import proofs.«111449_j80633716015168_2_alg».proof.Proof.Gen.KernelIdeal.Skeleton
import proofs.«111449_j80633716015168_2_alg».proof.Proof.LibDense
import Idealize.ShloMosaic.PureOps.Ideal.Laws
import Idealize.ShloMosaic.Lib.ValueIdx
import Idealize.ShloMosaic.Lib.Pipeline.Value

noncomputable section

namespace Cert.KernelIdeal.Bodies

open Idealize.ShloMosaic Idealize.ShloMosaic.ValueIdx Cert.KernelIdeal Cert.KernelIdeal.Gen

/-- The block product's dimension record: rows of the left operand against columns of the right one. -/
abbrev Dnt : DotDims S10000x64 S64x192 S10000x192 := dot_S10000x64_S64x192_S10000x192_1_0_0_1_n_n

theorem nt_l0 (i : S10000x192.Idx) (c : Dnt.contr.Idx) : (Dnt.lhsIdx i c 0).val = (i 0).val := by
  simp [DotDims.lhsIdx, Dnt, dot_S10000x64_S64x192_S10000x192_1_0_0_1_n_n]; rfl
theorem nt_l1 (i : S10000x192.Idx) (c : Dnt.contr.Idx) : (Dnt.lhsIdx i c 1).val = (c ⟨0, by decide⟩).val := by
  simp [DotDims.lhsIdx, Dnt, dot_S10000x64_S64x192_S10000x192_1_0_0_1_n_n]; rfl
theorem nt_r0 (i : S10000x192.Idx) (c : Dnt.contr.Idx) : (Dnt.rhsIdx i c 0).val = (c ⟨0, by decide⟩).val := by
  simp [DotDims.rhsIdx, Dnt, dot_S10000x64_S64x192_S10000x192_1_0_0_1_n_n]; rfl
theorem nt_r1 (i : S10000x192.Idx) (c : Dnt.contr.Idx) : (Dnt.rhsIdx i c 1).val = (i 1).val := by
  simp [DotDims.rhsIdx, Dnt, dot_S10000x64_S64x192_S10000x192_1_0_0_1_n_n]; rfl

/-- The stored block of the node transform at (p, q): the row of h against the column of W. -/
theorem nodeTransform_at (x0 : FVec Ideal S10000x64 .f32) (x1 : FVec Ideal S64x192 .f32) (p : Fin 10000) (q : Fin 192) :
    k0_pay1 (F := Ideal) x0 x1 (ix2 p q) = ∑ k : Fin 64, x0 (ix2 p k) * x1 (ix2 k q) := by
  unfold k0_pay1
  refine (show _ = matmul Dnt none (truncf .bf16 (shapeCast S10000x64 x0 shapeCasts_S10000x64_S10000x64) bitsLt_bf16_f32)
      (truncf .bf16 (shapeCast S64x192 x1 shapeCasts_S64x192_S64x192) bitsLt_bf16_f32) (constant S10000x192 .f32 0x00000000#32) (ix2 p q) from rfl).trans ?_
  refine (Cert.LibDense.matmul_zero_rc (M := 10000) (K := 64) (N := 192) Dnt rfl rfl nt_l0 nt_l1 nt_r0 nt_r1 none _ _ p q).trans ?_
  refine Finset.sum_congr rfl fun k _ => ?_
  rw [shapeCast_self, shapeCast_self]
  rfl

end Cert.KernelIdeal.Bodies

end
-- ==== Proof.ValNodeTransform.lean ====
/-
  What the node-transform region leaves in its output array. The grid has 5 points; point t takes rows
  10000·t … 10000·t + 9999 of the node features h (50000 × 64) and the whole weight matrix W (64 × 192), and writes
  the same rows of the output. Every row is in exactly one block, so the output array ends as the whole product:
  at (i, q) the sum over k of h(i, k) · W(k, q).
-/
import proofs.«111449_j80633716015168_2_alg».proof.Proof.Gen.KernelIdeal.Frame
import proofs.«111449_j80633716015168_2_alg».proof.Proof.BodyNodeTransform

set_option maxRecDepth 16384

noncomputable section

namespace Cert.KernelIdeal.Vals

open Idealize.ShloMosaic Idealize.ShloMosaic.TcCoe Idealize.ShloMosaic.ValueIdx
open Idealize.ShloMosaic.Pipeline (Dat)
open Cert.KernelIdeal Cert.KernelIdeal.Gen Cert.KernelIdeal.Bodies

/-- The whole product of the node features by a layer's weight matrix, at row i and column q. -/
def hkOf (h : S50000x64.Idx → EReal) (w : S64x192.Idx → EReal) : S50000x192.Idx → EReal :=
  fun i => ∑ k : Fin 64, h (ix2 (i 0) k) * w (ix2 k (i 1))

theorem hkOf_apply (h : S50000x64.Idx → EReal) (w : S64x192.Idx → EReal) (a : Fin 50000) (q : Fin 192) :
    hkOf h w (ix2 a q) = ∑ k : Fin 64, h (ix2 a k) * w (ix2 k q) := rfl

theorem zeroOff2 : (![0, 0] : Fin 2 → Nat) = fun _ => 0 := funext fun a => by fin_cases a <;> rfl

section Region0
variable (V : (c : Dev nD) → (b : Ref sig .tc) → Buf (Elt Ideal) ((c : Thread nD τ).loc b))

/-- The index maps of region 0 over its grid: the feature and output windows move with the point along the rows, the
    weight window stays. -/
theorem nt0_idx : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- Row p of point t's block is row 10000·t + p of the array. -/
def nt0_row (t : Fin cfg0.N) (p : Fin 10000) : Fin 50000 :=
  ⟨10000 * t.val + p.val, by have ht : t.val < 5 := t.isLt; have := p.isLt; omega⟩

theorem nt0_emb0 (t : Fin cfg0.N) (p : Fin 10000) (k : Fin 64) :
    ((cfg0.win 0).blk t).view.emb (ix2 p k) = ix2 (nt0_row t p) k := by
  obtain ⟨e0, e1, e2, e3, e4, e5⟩ := nt0_idx t
  funext a; apply Fin.ext
  match a with
  | ⟨0, _⟩ => show win0_0.index t (0 : Fin 2) * 10000 + 1 * p.val = 10000 * t.val + p.val; omega
  | ⟨1, _⟩ => show win0_0.index t (1 : Fin 2) * 64 + 1 * k.val = k.val; omega

theorem nt0_emb1 (t : Fin cfg0.N) (k : Fin 64) (q : Fin 192) :
    ((cfg0.win 1).blk t).view.emb (ix2 k q) = ix2 k q := by
  obtain ⟨e0, e1, e2, e3, e4, e5⟩ := nt0_idx t
  funext a; apply Fin.ext
  match a with
  | ⟨0, _⟩ => show win0_1.index t (0 : Fin 2) * 64 + 1 * k.val = k.val; omega
  | ⟨1, _⟩ => show win0_1.index t (1 : Fin 2) * 192 + 1 * q.val = q.val; omega

theorem nt0_emb2 (t : Fin cfg0.N) (p : Fin 10000) (q : Fin 192) :
    ((cfg0.win 2).blk t).view.emb (ix2 p q) = ix2 (nt0_row t p) q := by
  obtain ⟨e0, e1, e2, e3, e4, e5⟩ := nt0_idx t
  funext a; apply Fin.ext
  match a with
  | ⟨0, _⟩ => show win0_2.index t (0 : Fin 2) * 10000 + 1 * p.val = 10000 * t.val + p.val; omega
  | ⟨1, _⟩ => show win0_2.index t (1 : Fin 2) * 192 + 1 * q.val = q.val; omega

/-- The feature block read at (p, k). -/
theorem nt0_read0 (c : Dev nD) (t : Fin cfg0.N) (p : Fin 10000) (k : Fin 64) :
    iblk0 V c 0 t (ix2 p k) = V c main_v37 (ix2 (nt0_row t p) k) :=
  congrArg (V c main_v37) (nt0_emb0 t p k)

/-- The weight block read at (k, q): the whole matrix. -/
theorem nt0_read1 (c : Dev nD) (t : Fin cfg0.N) (k : Fin 64) (q : Fin 192) :
    iblk0 V c 1 t (ix2 k q) = V c main_v43 (ix2 k q) :=
  congrArg (V c main_v43) (nt0_emb1 t k q)

/-- The block product at (p, q) is the whole product at row 10000·t + p. -/
theorem nt0_point (c : Dev nD) (t : Fin cfg0.N) (p : Fin 10000) (q : Fin 192) :
    k0_pay1 (F := Ideal) (iblk0 V c 0 t) (iblk0 V c 1 t) (ix2 p q) = hkOf (V c main_v37) (V c main_v43) (ix2 (nt0_row t p) q) := by
  refine ((nodeTransform_at (iblk0 V c 0 t) (iblk0 V c 1 t) p q).trans ?_).trans
    (hkOf_apply (V c main_v37) (V c main_v43) (nt0_row t p) q).symm
  refine Finset.sum_congr rfl fun k _ => ?_
  rw [nt0_read0 V c t p k, nt0_read1 V c t k q]

/-- What point t writes back is block t of the whole product. -/
theorem nt0_flushed (c : Dev nD) (t : Fin cfg0.N) :
    (dat0 V c).flushed 2 t = ((cfg0.win 2).blk t).view.read (Elt Ideal) (hkOf (V c main_v37) (V c main_v43)) := by
  show (cfg0.win 2).cut (grid0.coords t) ((dat0 V c).after 2 t) = _
  rw [after0_2]
  unfold out0_2
  rw [View.canon_unit_zero zeroOff2]
  simp only [View.ld_unit_zero (S := S10000x64) zeroOff2, View.ld_unit_zero (S := S64x192) zeroOff2]
  funext j
  obtain ⟨p, q, rfl⟩ : ∃ (p : Fin 10000) (q : Fin 192), j = ix2 p q := ⟨j 0, j 1, eq_ix2 j⟩
  refine (nt0_point V c t p q).trans ?_
  show _ = hkOf (V c main_v37) (V c main_v43) (((cfg0.win 2).blk t).view.emb (ix2 p q))
  rw [nt0_emb2 t p q]

/-- An index of the output array is in point t's block iff each coordinate is in the block's range. -/
theorem nt0_mem (t : Fin cfg0.N) (i : S50000x192.Idx) :
    i ∈ ((cfg0.win 2).blk t).view.set ↔ ∀ a : Fin 2, win0_2.index t a * S10000x192.size a ≤ (i a).val ∧ (i a).val < win0_2.index t a * S10000x192.size a + S10000x192.size a := by
  show i ∈ ((View.whole main_v44).slice (win0_2.rect t)).set ↔ _
  rw [View.set_slice_whole, Rect.mem_set_unit]
  exact Iff.rfl

/-- Every row of the output is in the block of the point its row number divided by 10000 names. -/
theorem nt0_cover (i : S50000x192.Idx) :
    ∃ t : Fin cfg0.N, (cfg0.win 2).flush t = true ∧ i ∈ ((cfg0.win 2).blk t).view.set := by
  have hi0 : (i 0).val < 50000 := (i 0).isLt
  have hi1 : (i 1).val < 192 := (i 1).isLt
  refine ⟨⟨(i 0).val / 10000, by show _ < 5; omega⟩, flush0_2 _, ?_⟩
  rw [nt0_mem]
  obtain ⟨e0, e1, e2, e3, e4, e5⟩ := nt0_idx ⟨(i 0).val / 10000, by show _ < 5; omega⟩
  intro a
  match a with
  | ⟨0, _⟩ => show win0_2.index _ (0 : Fin 2) * 10000 ≤ (i 0).val ∧ (i 0).val < win0_2.index _ (0 : Fin 2) * 10000 + 10000; rw [e4]; show (i 0).val / 10000 * 10000 ≤ _ ∧ _ < (i 0).val / 10000 * 10000 + 10000; omega
  | ⟨1, _⟩ => show win0_2.index _ (1 : Fin 2) * 192 ≤ (i 1).val ∧ (i 1).val < win0_2.index _ (1 : Fin 2) * 192 + 192; rw [e5]; omega

/-- The output array of region 0 after the region: the whole product of the arrays it found. -/
theorem nt0_final (c : Dev nD) : (dat0 V c).arrAt 2 cfg0.N = hkOf (V c main_v37) (V c main_v43) :=
  (dat0 V c).arrAt_eq_of_cover 2 (hkOf (V c main_v37) (V c main_v43)) (fun t _ => nt0_flushed V c t) nt0_cover

end Region0

end Cert.KernelIdeal.Vals

end
-- ==== Proof.LibLayout3.lean ====
import Idealize.ShloMosaic.Lib.ValueIdx
import Idealize.ShloMosaic.Lib.ValueLayout
import Idealize.ShloMosaic.Lib.Pipeline.Value

/-!
# Unit axes in the middle and at the end of a rank-3 array, read at an index

A shape cast that inserts a unit axis keeps the row-major position, so the element at `(i, 0, j)` of the cast of an
`[a, b]` array is the element at `(i, j)`; a broadcast along a unit axis repeats the slice, so the element at
`(i, k, j)` of the broadcast of an `[a, 1, b]` array to `[a, c, b]` is the element at `(i, 0, j)`. Each lemma states
one such read with every index written by its coordinates.
-/

noncomputable section

namespace Cert.Lib.Layout3

open Idealize.ShloMosaic Idealize.ShloMosaic.ValueIdx

variable {α : Type}

/-- An `[a, b]` array cast to `[a, 1, b]` reads, at `(i, u, j)`, the operand at `(i, j)`. -/
theorem shapeCast_ab_a1b_apply {a b : ℕ} (x : (⟨2, ![a, b]⟩ : Shape).Idx → α)
    (h : (⟨2, ![a, b]⟩ : Shape).ShapeCasts ⟨3, ![a, 1, b]⟩) (i : Fin a) (u : Fin 1) (j : Fin b) :
    shapeCast ⟨3, ![a, 1, b]⟩ x h (ix3 i u j) = x (ix2 i j) :=
  shapeCast_apply x h _ _ (by
    have hu : u.val = 0 := by omega
    rw [Shape.rowMajor_val_three, Shape.rowMajor_val_two]
    show i.val * b + j.val = (i.val * 1 + u.val) * b + j.val
    rw [hu, Nat.mul_one, Nat.add_zero])

/-- An `[a, c]` array cast to `[a, c, 1]` reads, at `(i, k, u)`, the operand at `(i, k)`. -/
theorem shapeCast_ac_ac1_apply {a c : ℕ} (x : (⟨2, ![a, c]⟩ : Shape).Idx → α)
    (h : (⟨2, ![a, c]⟩ : Shape).ShapeCasts ⟨3, ![a, c, 1]⟩) (i : Fin a) (k : Fin c) (u : Fin 1) :
    shapeCast ⟨3, ![a, c, 1]⟩ x h (ix3 i k u) = x (ix2 i k) :=
  shapeCast_apply x h _ _ (by
    have hu : u.val = 0 := by omega
    rw [Shape.rowMajor_val_three, Shape.rowMajor_val_two]
    show i.val * c + k.val = (i.val * c + k.val) * 1 + u.val
    rw [hu, Nat.mul_one, Nat.add_zero])

/-- An `[a, 1, b]` array broadcast to `[a, c, b]` reads, at `(i, k, j)`, the operand at `(i, 0, j)`. -/
theorem broadcastTo_a1b_acb_apply {a b c : ℕ} (v : (⟨3, ![a, 1, b]⟩ : Shape).Idx → α)
    (h : (⟨3, ![a, 1, b]⟩ : Shape).Broadcasts ⟨3, ![a, c, b]⟩) (i : Fin a) (k : Fin c) (j : Fin b) :
    broadcastTo ⟨3, ![a, c, b]⟩ v h (ix3 i k j) = v (ix3 i (0 : Fin 1) j) := by
  refine broadcastTo_apply v h (ix3 i k j) (ix3 i (0 : Fin 1) j) fun ax => ?_
  match ax with
  | ⟨0, _⟩ =>
    show i.val = if a = 1 then 0 else i.val
    split
    · have := i.isLt; omega
    · rfl
  | ⟨1, _⟩ => rfl
  | ⟨2, _⟩ =>
    show j.val = if b = 1 then 0 else j.val
    split
    · have := j.isLt; omega
    · rfl

/-- A `[1, c, b]` array broadcast to `[a, c, b]` reads, at `(i, k, j)`, the operand at `(0, k, j)`. -/
theorem broadcastTo_1cb_acb_apply {a b c : ℕ} (v : (⟨3, ![1, c, b]⟩ : Shape).Idx → α)
    (h : (⟨3, ![1, c, b]⟩ : Shape).Broadcasts ⟨3, ![a, c, b]⟩) (i : Fin a) (k : Fin c) (j : Fin b) :
    broadcastTo ⟨3, ![a, c, b]⟩ v h (ix3 i k j) = v (ix3 (0 : Fin 1) k j) := by
  refine broadcastTo_apply v h (ix3 i k j) (ix3 (0 : Fin 1) k j) fun ax => ?_
  match ax with
  | ⟨0, _⟩ => rfl
  | ⟨1, _⟩ =>
    show k.val = if c = 1 then 0 else k.val
    split
    · have := k.isLt; omega
    · rfl
  | ⟨2, _⟩ =>
    show j.val = if b = 1 then 0 else j.val
    split
    · have := j.isLt; omega
    · rfl

/-- An `[a, c, 1]` array broadcast to `[a, c, d]` reads, at `(i, k, o)`, the operand at `(i, k, 0)`. -/
theorem broadcastTo_ac1_acd_apply {a c d : ℕ} (v : (⟨3, ![a, c, 1]⟩ : Shape).Idx → α)
    (h : (⟨3, ![a, c, 1]⟩ : Shape).Broadcasts ⟨3, ![a, c, d]⟩) (i : Fin a) (k : Fin c) (o : Fin d) :
    broadcastTo ⟨3, ![a, c, d]⟩ v h (ix3 i k o) = v (ix3 i k (0 : Fin 1)) := by
  refine broadcastTo_apply v h (ix3 i k o) (ix3 i k (0 : Fin 1)) fun ax => ?_
  match ax with
  | ⟨0, _⟩ =>
    show i.val = if a = 1 then 0 else i.val
    split
    · have := i.isLt; omega
    · rfl
  | ⟨1, _⟩ =>
    show k.val = if c = 1 then 0 else k.val
    split
    · have := k.isLt; omega
    · rfl
  | ⟨2, _⟩ => rfl

end Cert.Lib.Layout3

end
-- ==== Proof.SpecMath.lean ====
import Idealize.ShloMosaic.PureOps.Ideal
import Mathlib.Tactic

/-!
# The network's layer, entry by entry, on the extended reals

One layer of the graph network, written with plain index functions and no program in sight. Both the kernel's blocks
and the reference's whole-array operations are read down to these formulas.

* node transform: `hk(p, q) = Σ_k h(p, k) · W(q, k)` (the weight matrix is stored output-feature first);
* pseudo-coordinate projection of an edge with coordinates `pe`: `u_d = tanh(Σ_j pe_j · A(d, j) + b_d)`;
* Gaussian weight of mixture component `k`: `g_k = exp(−½ · Σ_d ((u_d − μ(k, d)) · σ(k, d))²)`;
* message: `hk_src(e, k, o) · g_k(e)`;
* batch norm with batch statistics over the 50000 nodes, then `h_in + max(·, 0)`.
-/

noncomputable section

namespace Cert.Spec

open Idealize.ShloMosaic
open scoped BigOperators

/-- The word of −1/2, the same literal in both programs. -/
abbrev negHalf : EReal := Ideal.ofBits .f32 0xBF000000#32
/-- The word of the batch-norm epsilon, the same literal in both programs. -/
abbrev epsW : EReal := Ideal.ofBits .f32 0x3727C5AC#32
/-- The word of zero. -/
abbrev zeroW : EReal := Ideal.ofBits .f32 0x00000000#32

/-- A row of node features against a row of the weight matrix. -/
def rowDot (hrow wrow : Fin 64 → EReal) : EReal := ∑ k : Fin 64, hrow k * wrow k

/-- Projected pseudo-coordinate `d` of an edge. -/
def proj (pe : Fin 2 → EReal) (A : Fin 2 → Fin 2 → EReal) (b : Fin 2 → EReal) (d : Fin 2) : EReal :=
  Ideal.tanh ((∑ j : Fin 2, pe j * A d j) + b d)

/-- Scaled deviation of the projected coordinate `d` from component `k`'s mean. -/
def dev (pe : Fin 2 → EReal) (A : Fin 2 → Fin 2 → EReal) (b : Fin 2 → EReal) (mu sg : Fin 3 → Fin 2 → EReal)
    (k : Fin 3) (d : Fin 2) : EReal :=
  (proj pe A b d - mu k d) * sg k d

/-- Gaussian weight of component `k`. -/
def gaussW (pe : Fin 2 → EReal) (A : Fin 2 → Fin 2 → EReal) (b : Fin 2 → EReal) (mu sg : Fin 3 → Fin 2 → EReal)
    (k : Fin 3) : EReal :=
  Ideal.exp (negHalf * ∑ d : Fin 2, dev pe A b mu sg k d * dev pe A b mu sg k d)

/-- The batch mean of a column of 50000 entries, as a quotient by the real number 50000. -/
def colMean (col : Fin 50000 → EReal) : EReal := Ideal.div (∑ r : Fin 50000, col r) ((50000 : ℝ) : EReal)

/-- The batch variance of a column: the mean of the squared deviations from the mean. -/
def colVar (col : Fin 50000 → EReal) : EReal :=
  Ideal.div (∑ r : Fin 50000, (col r - colMean col) * (col r - colMean col)) ((50000 : ℝ) : EReal)

/-- One entry after normalization, scale and shift, rectification and the residual: from the entry `a` of the
    aggregated column, the column's mean `μ` and variance `v`, scale `g`, shift `b` and the layer's input `hin`. -/
def normEntry (μ v g b a hin : EReal) : EReal :=
  hin + max ((((a - μ) * Ideal.rsqrt (v + epsW)) * g) + b) zeroW

end Cert.Spec

end
-- ==== Proof.BodyEdgeMessage.lean ====
/-
  The edge-message body at exact arithmetic, for a block of 2000 edges. For an edge e with pseudo-coordinates
  p(e, 0), p(e, 1): the projected coordinates are u(e, d) = tanh(Σ_j p(e, j) · A(d, j) + b(0, d)), d = 0, 1 (the product
  with the transposed 2 × 2 matrix A, plus the bias row); the Gaussian weight of mixture component k is
  g(e, k) = exp(−½ · Σ_d ((u(e, d) − μ(k, d)) · σ(k, d))²); and the stored message is hk(e, k, o) · g(e, k) for every
  output feature o. The lane reduction over d starts from zero and the float-format changes are the identity.
-/
import proofs.«111449_j80633716015168_2_alg».proof.Proof.Gen.KernelIdeal.Skeleton
import proofs.«111449_j80633716015168_2_alg».proof.Proof.LibDense
import proofs.«111449_j80633716015168_2_alg».proof.Proof.LibLayout3
import proofs.«111449_j80633716015168_2_alg».proof.Proof.SpecMath
import Idealize.ShloMosaic.PureOps.Ideal.Laws
import Idealize.ShloMosaic.Lib.ValueIdx
import Idealize.ShloMosaic.Lib.ValueLayout
import Idealize.ShloMosaic.Lib.Pipeline.Value

noncomputable section

namespace Cert.KernelIdeal.Bodies

open Idealize.ShloMosaic Idealize.ShloMosaic.ValueIdx Cert.KernelIdeal Cert.KernelIdeal.Gen

/-! ## The body's four stages -/

abbrev Dem : DotDims S2000x2 S2x2 S2000x2 := dot_S2000x2_S2x2_S2000x2_1_0_0_1_n_n

theorem em_l0 (i : S2000x2.Idx) (c : Dem.contr.Idx) : (Dem.lhsIdx i c 0).val = (i 0).val := by
  simp [DotDims.lhsIdx, Dem, dot_S2000x2_S2x2_S2000x2_1_0_0_1_n_n]; rfl
theorem em_l1 (i : S2000x2.Idx) (c : Dem.contr.Idx) : (Dem.lhsIdx i c 1).val = (c ⟨0, by decide⟩).val := by
  simp [DotDims.lhsIdx, Dem, dot_S2000x2_S2x2_S2000x2_1_0_0_1_n_n]; rfl
theorem em_r0 (i : S2000x2.Idx) (c : Dem.contr.Idx) : (Dem.rhsIdx i c 0).val = (c ⟨0, by decide⟩).val := by
  simp [DotDims.rhsIdx, Dem, dot_S2000x2_S2x2_S2000x2_1_0_0_1_n_n]; rfl
theorem em_r1 (i : S2000x2.Idx) (c : Dem.contr.Idx) : (Dem.rhsIdx i c 1).val = (i 1).val := by
  simp [DotDims.rhsIdx, Dem, dot_S2000x2_S2x2_S2000x2_1_0_0_1_n_n]; rfl

/-- Stage 1: the projected coordinates of the block's edges. -/
def emU (x0 : FVec Ideal S2000x2 .f32) (A : FVec Ideal S2x2 .f32) (b : FVec Ideal S1x2 .f32) : FVec Ideal S2000x2 .f32 :=
  tanh (addf (matmul Dem none (shapeCast S2000x2 x0 shapeCasts_S2000x2_S2000x2)
      (transpose S2x2 [1, 0] (shapeCast S2x2 A shapeCasts_S2x2_S2x2) transposes_S2x2_p1_0_S2x2) (constant S2000x2 .f32 0x00000000#32))
    (broadcastTo S2000x2 (shapeCast S1x2 b shapeCasts_S1x2_S1x2) broadcasts_S1x2_S2000x2))

/-- Stage 2: the squared scaled deviations, per edge, component and coordinate. -/
def emSq (u : FVec Ideal S2000x2 .f32) (mu sg : FVec Ideal S3x2 .f32) : FVec Ideal S2000x3x2 .f32 :=
  mulf
    (mulf (subf (broadcastTo S2000x3x2 (shapeCast S2000x1x2 u shapeCasts_S2000x2_S2000x1x2) broadcasts_S2000x1x2_S2000x3x2)
        (broadcastTo S2000x3x2 (shapeCast S1x3x2 (shapeCast S3x2 mu shapeCasts_S3x2_S3x2) shapeCasts_S3x2_S1x3x2) broadcasts_S1x3x2_S2000x3x2))
      (broadcastTo S2000x3x2 (shapeCast S1x3x2 (shapeCast S3x2 sg shapeCasts_S3x2_S3x2) shapeCasts_S3x2_S1x3x2) broadcasts_S1x3x2_S2000x3x2))
    (mulf (subf (broadcastTo S2000x3x2 (shapeCast S2000x1x2 u shapeCasts_S2000x2_S2000x1x2) broadcasts_S2000x1x2_S2000x3x2)
        (broadcastTo S2000x3x2 (shapeCast S1x3x2 (shapeCast S3x2 mu shapeCasts_S3x2_S3x2) shapeCasts_S3x2_S1x3x2) broadcasts_S1x3x2_S2000x3x2))
      (broadcastTo S2000x3x2 (shapeCast S1x3x2 (shapeCast S3x2 sg shapeCasts_S3x2_S3x2) shapeCasts_S3x2_S1x3x2) broadcasts_S1x3x2_S2000x3x2))

/-- Stage 3: the Gaussian weights, per edge and component. -/
def emG (sq : FVec Ideal S2000x3x2 .f32) : FVec Ideal S2000x3 .f32 :=
  exp (mulf (broadcast S2000x3 (Scalar.ofBits (F := Ideal) .f32 0xBF000000#32))
    (multiReduction .add [2] S2000x3 sq 0x00000000#32 reduces_S2000x3x2_S2000x3 (.inl rfl) rfl))

/-- Stage 4: the message, the gathered features scaled by the weights. -/
def emOut (hk : FVec Ideal S2000x3x64 .bf16) (g : FVec Ideal S2000x3 .f32) : FVec Ideal S2000x3x64 .f32 :=
  mulf (extf .f32 (shapeCast S2000x3x64 hk shapeCasts_S2000x3x64_S2000x3x64) bitsLt_bf16_f32)
    (broadcastTo S2000x3x64 (shapeCast S2000x3x1 g shapeCasts_S2000x3_S2000x3x1) broadcasts_S2000x3x1_S2000x3x64)

/-- The printed payload is the four stages composed. -/
theorem k1_pay1_stages (x0 : Vec Ideal S2000x2 .f32) (A : Vec Ideal S2x2 .f32) (b : Vec Ideal S1x2 .f32)
    (mu sg : Vec Ideal S3x2 .f32) (hk : Vec Ideal S2000x3x64 .bf16) :
    k1_pay1 (F := Ideal) x0 A b mu sg hk = emOut hk (emG (emSq (emU x0 A b) mu sg)) := rfl

/-! ## Each stage at an index -/

theorem emU_at (x0 : FVec Ideal S2000x2 .f32) (A : FVec Ideal S2x2 .f32) (b : FVec Ideal S1x2 .f32) (e : Fin 2000) (d : Fin 2) :
    emU x0 A b (ix2 e d) = Cert.Spec.proj (fun j => x0 (ix2 e j)) (fun d j => A (ix2 d j)) (fun d => b (ix2 (0 : Fin 1) d)) d := by
  unfold emU Cert.Spec.proj
  show Ideal.tanh (_ + _) = _
  congr 2
  · refine (Cert.LibDense.matmul_zero_rc (M := 2000) (K := 2) (N := 2) Dem rfl rfl em_l0 em_l1 em_r0 em_r1 none _ _ e d).trans ?_
    refine Finset.sum_congr rfl fun j _ => ?_
    rw [shapeCast_self, shapeCast_self]
    exact congrArg _ (transpose_ix2_apply (a := 2) (b := 2) A transposes_S2x2_p1_0_S2x2 j d)
  · rw [shapeCast_self]
    exact broadcastTo_1b_ab_apply (a := 2000) (b := 2) b broadcasts_S1x2_S2000x2 e d

theorem emSq_at (u : FVec Ideal S2000x2 .f32) (mu sg : FVec Ideal S3x2 .f32) (e : Fin 2000) (k : Fin 3) (d : Fin 2) :
    emSq u mu sg (ix3 e k d)
      = ((u (ix2 e d) - mu (ix2 k d)) * sg (ix2 k d)) * ((u (ix2 e d) - mu (ix2 k d)) * sg (ix2 k d)) := by
  have hu : broadcastTo S2000x3x2 (shapeCast S2000x1x2 u shapeCasts_S2000x2_S2000x1x2) broadcasts_S2000x1x2_S2000x3x2 (ix3 e k d) = u (ix2 e d) :=
    (Cert.Lib.Layout3.broadcastTo_a1b_acb_apply (a := 2000) (b := 2) (c := 3) _ broadcasts_S2000x1x2_S2000x3x2 e k d).trans
      (Cert.Lib.Layout3.shapeCast_ab_a1b_apply (a := 2000) (b := 2) u shapeCasts_S2000x2_S2000x1x2 e 0 d)
  have hrow : ∀ w : FVec Ideal S3x2 .f32,
      broadcastTo S2000x3x2 (shapeCast S1x3x2 (shapeCast S3x2 w shapeCasts_S3x2_S3x2) shapeCasts_S3x2_S1x3x2) broadcasts_S1x3x2_S2000x3x2 (ix3 e k d) = w (ix2 k d) := fun w =>
    (Cert.Lib.Layout3.broadcastTo_1cb_acb_apply (a := 2000) (b := 2) (c := 3) _ broadcasts_S1x3x2_S2000x3x2 e k d).trans
      ((shapeCast_ab_1ab_apply (a := 3) (b := 2) _ shapeCasts_S3x2_S1x3x2 0 k d).trans (by rw [shapeCast_self]))
  unfold emSq
  show ((_ - _) * _) * ((_ - _) * _) = _
  rw [hu, hrow mu, hrow sg]

theorem emG_at (sq : FVec Ideal S2000x3x2 .f32) (e : Fin 2000) (k : Fin 3) :
    emG sq (ix2 e k) = Ideal.exp (Cert.Spec.negHalf * ∑ d : Fin 2, sq (ix3 e k d)) := by
  unfold emG
  show Ideal.exp (_ * _) = _
  congr 2
  have h1 := Ideal.multiReduction_add_single (s := S2000x3x2) (t := S2000x3) (a := (2 : Fin 3)) sq 0x00000000#32 reduces_S2000x3x2_S2000x3 (.inl rfl) rfl (ix2 e k)
  rw [h1]
  refine Finset.sum_congr rfl fun d _ => congrArg sq ?_
  funext a
  match a with
  | ⟨0, _⟩ => rfl
  | ⟨1, _⟩ => rfl
  | ⟨2, _⟩ => rfl

theorem emOut_at (hk : FVec Ideal S2000x3x64 .bf16) (g : FVec Ideal S2000x3 .f32) (e : Fin 2000) (k : Fin 3) (o : Fin 64) :
    emOut hk g (ix3 e k o) = hk (ix3 e k o) * g (ix2 e k) := by
  unfold emOut
  show _ * _ = _
  rw [shapeCast_self]
  congr 1
  exact (Cert.Lib.Layout3.broadcastTo_ac1_acd_apply (a := 2000) (c := 3) (d := 64) _ broadcasts_S2000x3x1_S2000x3x64 e k o).trans
    (Cert.Lib.Layout3.shapeCast_ac_ac1_apply (a := 2000) (c := 3) g shapeCasts_S2000x3_S2000x3x1 e k 0)

/-- The stored message of the block at (e, k, o): the gathered feature times the edge's Gaussian weight. -/
theorem edgeMessage_at (x0 : Vec Ideal S2000x2 .f32) (A : Vec Ideal S2x2 .f32) (b : Vec Ideal S1x2 .f32)
    (mu sg : Vec Ideal S3x2 .f32) (hk : Vec Ideal S2000x3x64 .bf16) (e : Fin 2000) (k : Fin 3) (o : Fin 64) :
    k1_pay1 (F := Ideal) x0 A b mu sg hk (ix3 e k o)
      = hk (ix3 e k o) * Cert.Spec.gaussW (fun j => x0 (ix2 e j)) (fun d j => A (ix2 d j)) (fun d => b (ix2 (0 : Fin 1) d))
          (fun k d => mu (ix2 k d)) (fun k d => sg (ix2 k d)) k := by
  rw [k1_pay1_stages, emOut_at, emG_at]
  unfold Cert.Spec.gaussW Cert.Spec.dev
  congr 3
  refine Finset.sum_congr rfl fun d _ => ?_
  rw [emSq_at, emU_at]

end Cert.KernelIdeal.Bodies

end
-- ==== Proof.ValEdgeMessage.lean ====
/-
  What the edge-message region leaves in its output array. The grid has 400 points; point t takes edges
  2000·t … 2000·t + 1999 of the pseudo-coordinates (800000 × 2) and of the gathered node features (800000 × 3 × 64),
  the layer's 2 × 2 projection matrix, its bias row, and the 3 × 2 means and inverse widths whole, and writes the same
  edges of the message array. Every edge is in exactly one block, so the message array ends, at (e, k, o), as the
  gathered feature times the Gaussian weight of component k for edge e.
-/
import proofs.«111449_j80633716015168_2_alg».proof.Proof.Gen.KernelIdeal.Frame
import proofs.«111449_j80633716015168_2_alg».proof.Proof.BodyEdgeMessage

set_option maxRecDepth 16384

noncomputable section

namespace Cert.KernelIdeal.Vals

open Idealize.ShloMosaic Idealize.ShloMosaic.TcCoe Idealize.ShloMosaic.ValueIdx
open Idealize.ShloMosaic.Pipeline (Dat)
open Cert.KernelIdeal Cert.KernelIdeal.Gen Cert.KernelIdeal.Bodies

/-- The message array: the gathered features scaled, edge by edge and component by component, by the Gaussian
    weights computed from the edge's pseudo-coordinates. -/
def msgOf (ps : S800000x2.Idx → EReal) (hk : S800000x3x64.Idx → EReal) (A : S2x2.Idx → EReal) (b : S1x2.Idx → EReal)
    (mu sg : S3x2.Idx → EReal) : S800000x3x64.Idx → EReal :=
  fun i => hk i * Cert.Spec.gaussW (fun j => ps (ix2 (i 0) j)) (fun d j => A (ix2 d j)) (fun d => b (ix2 (0 : Fin 1) d))
    (fun k d => mu (ix2 k d)) (fun k d => sg (ix2 k d)) (i 1)

theorem msgOf_apply (ps : S800000x2.Idx → EReal) (hk : S800000x3x64.Idx → EReal) (A : S2x2.Idx → EReal) (b : S1x2.Idx → EReal)
    (mu sg : S3x2.Idx → EReal) (a : Fin 800000) (k : Fin 3) (o : Fin 64) :
    msgOf ps hk A b mu sg (ix3 a k o)
      = hk (ix3 a k o) * Cert.Spec.gaussW (fun j => ps (ix2 a j)) (fun d j => A (ix2 d j)) (fun d => b (ix2 (0 : Fin 1) d))
          (fun k d => mu (ix2 k d)) (fun k d => sg (ix2 k d)) k := rfl

theorem zeroOffs2 : (![0, 0] : Fin 2 → Nat) = fun _ => 0 := funext fun a => by fin_cases a <;> rfl
theorem zeroOffs3 : (![0, 0, 0] : Fin 3 → Nat) = fun _ => 0 := funext fun a => by fin_cases a <;> rfl

section Region1
variable (V : (c : Dev nD) → (b : Ref sig .tc) → Buf (Elt Ideal) ((c : Thread nD τ).loc b))

/-- The index maps of region 1 over its grid: the edge windows move with the point along the edges, the parameter
    windows stay. -/
theorem em1_idx : ∀ t : Fin cfg1.N, win1_0.index t (0 : Fin 2) = t.val ∧ win1_0.index t (1 : Fin 2) = 0
    ∧ win1_1.index t (0 : Fin 3) = t.val ∧ win1_1.index t (1 : Fin 3) = 0 ∧ win1_1.index t (2 : Fin 3) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 3) = t.val ∧ win1_6.index t (1 : Fin 3) = 0 ∧ win1_6.index t (2 : Fin 3) = 0 :=
  (by decide +kernel : ∀ t : Fin grid1.N, _)

/-- Edge e of point t's block is edge 2000·t + e of the arrays. -/
def em1_row (t : Fin cfg1.N) (e : Fin 2000) : Fin 800000 :=
  ⟨2000 * t.val + e.val, by have ht : t.val < 400 := t.isLt; have := e.isLt; omega⟩

theorem em1_emb0 (t : Fin cfg1.N) (e : Fin 2000) (j : Fin 2) :
    ((cfg1.win 0).blk t).view.emb (ix2 e j) = ix2 (em1_row t e) j := by
  obtain ⟨a0, a1, b0, b1, b2, c0, c1, d0, d1, e0, e1, f0, f1, g0, g1, g2⟩ := em1_idx t
  funext a; apply Fin.ext
  match a with
  | ⟨0, _⟩ => show win1_0.index t (0 : Fin 2) * 2000 + 1 * e.val = 2000 * t.val + e.val; omega
  | ⟨1, _⟩ => show win1_0.index t (1 : Fin 2) * 2 + 1 * j.val = j.val; omega

theorem em1_emb1 (t : Fin cfg1.N) (e : Fin 2000) (k : Fin 3) (o : Fin 64) :
    ((cfg1.win 1).blk t).view.emb (ix3 e k o) = ix3 (em1_row t e) k o := by
  obtain ⟨a0, a1, b0, b1, b2, c0, c1, d0, d1, e0, e1, f0, f1, g0, g1, g2⟩ := em1_idx t
  funext a; apply Fin.ext
  match a with
  | ⟨0, _⟩ => show win1_1.index t (0 : Fin 3) * 2000 + 1 * e.val = 2000 * t.val + e.val; omega
  | ⟨1, _⟩ => show win1_1.index t (1 : Fin 3) * 3 + 1 * k.val = k.val; omega
  | ⟨2, _⟩ => show win1_1.index t (2 : Fin 3) * 64 + 1 * o.val = o.val; omega

theorem em1_emb2 (t : Fin cfg1.N) (d j : Fin 2) : ((cfg1.win 2).blk t).view.emb (ix2 d j) = ix2 d j := by
  obtain ⟨a0, a1, b0, b1, b2, c0, c1, d0, d1, e0, e1, f0, f1, g0, g1, g2⟩ := em1_idx t
  funext a; apply Fin.ext
  match a with
  | ⟨0, _⟩ => show win1_2.index t (0 : Fin 2) * 2 + 1 * d.val = d.val; omega
  | ⟨1, _⟩ => show win1_2.index t (1 : Fin 2) * 2 + 1 * j.val = j.val; omega

theorem em1_emb3 (t : Fin cfg1.N) (d : Fin 2) : ((cfg1.win 3).blk t).view.emb (ix2 (0 : Fin 1) d) = ix2 (0 : Fin 1) d := by
  obtain ⟨a0, a1, b0, b1, b2, c0, c1, d0, d1, e0, e1, f0, f1, g0, g1, g2⟩ := em1_idx t
  funext a; apply Fin.ext
  match a with
  | ⟨0, _⟩ => show win1_3.index t (0 : Fin 2) * 1 + 1 * 0 = 0; omega
  | ⟨1, _⟩ => show win1_3.index t (1 : Fin 2) * 2 + 1 * d.val = d.val; omega

theorem em1_emb4 (t : Fin cfg1.N) (k : Fin 3) (d : Fin 2) : ((cfg1.win 4).blk t).view.emb (ix2 k d) = ix2 k d := by
  obtain ⟨a0, a1, b0, b1, b2, c0, c1, d0, d1, e0, e1, f0, f1, g0, g1, g2⟩ := em1_idx t
  funext a; apply Fin.ext
  match a with
  | ⟨0, _⟩ => show win1_4.index t (0 : Fin 2) * 3 + 1 * k.val = k.val; omega
  | ⟨1, _⟩ => show win1_4.index t (1 : Fin 2) * 2 + 1 * d.val = d.val; omega

theorem em1_emb5 (t : Fin cfg1.N) (k : Fin 3) (d : Fin 2) : ((cfg1.win 5).blk t).view.emb (ix2 k d) = ix2 k d := by
  obtain ⟨a0, a1, b0, b1, b2, c0, c1, d0, d1, e0, e1, f0, f1, g0, g1, g2⟩ := em1_idx t
  funext a; apply Fin.ext
  match a with
  | ⟨0, _⟩ => show win1_5.index t (0 : Fin 2) * 3 + 1 * k.val = k.val; omega
  | ⟨1, _⟩ => show win1_5.index t (1 : Fin 2) * 2 + 1 * d.val = d.val; omega

theorem em1_emb6 (t : Fin cfg1.N) (e : Fin 2000) (k : Fin 3) (o : Fin 64) :
    ((cfg1.win 6).blk t).view.emb (ix3 e k o) = ix3 (em1_row t e) k o := by
  obtain ⟨a0, a1, b0, b1, b2, c0, c1, d0, d1, e0, e1, f0, f1, g0, g1, g2⟩ := em1_idx t
  funext a; apply Fin.ext
  match a with
  | ⟨0, _⟩ => show win1_6.index t (0 : Fin 3) * 2000 + 1 * e.val = 2000 * t.val + e.val; omega
  | ⟨1, _⟩ => show win1_6.index t (1 : Fin 3) * 3 + 1 * k.val = k.val; omega
  | ⟨2, _⟩ => show win1_6.index t (2 : Fin 3) * 64 + 1 * o.val = o.val; omega

theorem em1_read0 (c : Dev nD) (t : Fin cfg1.N) (e : Fin 2000) (j : Fin 2) :
    iblk1 V c 0 t (ix2 e j) = V c main_v30 (ix2 (em1_row t e) j) := congrArg (V c main_v30) (em1_emb0 t e j)
theorem em1_read1 (c : Dev nD) (t : Fin cfg1.N) (e : Fin 2000) (k : Fin 3) (o : Fin 64) :
    iblk1 V c 1 t (ix3 e k o) = V c main_v52 (ix3 (em1_row t e) k o) := congrArg (V c main_v52) (em1_emb1 t e k o)
theorem em1_read2 (c : Dev nD) (t : Fin cfg1.N) (d j : Fin 2) :
    iblk1 V c 2 t (ix2 d j) = V c main_v54 (ix2 d j) := congrArg (V c main_v54) (em1_emb2 t d j)
theorem em1_read3 (c : Dev nD) (t : Fin cfg1.N) (d : Fin 2) :
    iblk1 V c 3 t (ix2 (0 : Fin 1) d) = V c main_v56 (ix2 (0 : Fin 1) d) := congrArg (V c main_v56) (em1_emb3 t d)
theorem em1_read4 (c : Dev nD) (t : Fin cfg1.N) (k : Fin 3) (d : Fin 2) :
    iblk1 V c 4 t (ix2 k d) = V c main_v58 (ix2 k d) := congrArg (V c main_v58) (em1_emb4 t k d)
theorem em1_read5 (c : Dev nD) (t : Fin cfg1.N) (k : Fin 3) (d : Fin 2) :
    iblk1 V c 5 t (ix2 k d) = V c main_v60 (ix2 k d) := congrArg (V c main_v60) (em1_emb5 t k d)

/-- The block's message at (e, k, o) is the message array's at edge 2000·t + e. -/
theorem em1_point (c : Dev nD) (t : Fin cfg1.N) (e : Fin 2000) (k : Fin 3) (o : Fin 64) :
    k1_pay1 (F := Ideal) (iblk1 V c 0 t) (iblk1 V c 2 t) (iblk1 V c 3 t) (iblk1 V c 4 t) (iblk1 V c 5 t) (iblk1 V c 1 t) (ix3 e k o)
      = msgOf (V c main_v30) (V c main_v52) (V c main_v54) (V c main_v56) (V c main_v58) (V c main_v60) (ix3 (em1_row t e) k o) := by
  refine ((edgeMessage_at (iblk1 V c 0 t) (iblk1 V c 2 t) (iblk1 V c 3 t) (iblk1 V c 4 t) (iblk1 V c 5 t) (iblk1 V c 1 t) e k o).trans ?_).trans
    (msgOf_apply (V c main_v30) (V c main_v52) (V c main_v54) (V c main_v56) (V c main_v58) (V c main_v60) (em1_row t e) k o).symm
  have f0 : (fun j : Fin 2 => iblk1 V c 0 t (ix2 e j)) = fun j => V c main_v30 (ix2 (em1_row t e) j) := funext fun j => em1_read0 V c t e j
  have f2 : (fun d j : Fin 2 => iblk1 V c 2 t (ix2 d j)) = fun d j => V c main_v54 (ix2 d j) := funext fun d => funext fun j => em1_read2 V c t d j
  have f3 : (fun d : Fin 2 => iblk1 V c 3 t (ix2 (0 : Fin 1) d)) = fun d => V c main_v56 (ix2 (0 : Fin 1) d) := funext fun d => em1_read3 V c t d
  have f4 : (fun (kk : Fin 3) (d : Fin 2) => iblk1 V c 4 t (ix2 kk d)) = fun kk d => V c main_v58 (ix2 kk d) := funext fun kk => funext fun d => em1_read4 V c t kk d
  have f5 : (fun (kk : Fin 3) (d : Fin 2) => iblk1 V c 5 t (ix2 kk d)) = fun kk d => V c main_v60 (ix2 kk d) := funext fun kk => funext fun d => em1_read5 V c t kk d
  rw [em1_read1 V c t e k o, f0, f2, f3, f4, f5]

/-- What point t writes back is block t of the message array. -/
theorem em1_flushed (c : Dev nD) (t : Fin cfg1.N) :
    (dat1 V c).flushed 6 t = ((cfg1.win 6).blk t).view.read (Elt Ideal)
      (msgOf (V c main_v30) (V c main_v52) (V c main_v54) (V c main_v56) (V c main_v58) (V c main_v60)) := by
  show (cfg1.win 6).cut (grid1.coords t) ((dat1 V c).after 6 t) = _
  rw [after1_6]
  unfold out1_6
  rw [View.canon_unit_zero zeroOffs3]
  simp only [View.ld_unit_zero (S := S2000x2) zeroOffs2, View.ld_unit_zero (S := S2x2) zeroOffs2,
    View.ld_unit_zero (S := S1x2) zeroOffs2, View.ld_unit_zero (S := S3x2) zeroOffs2,
    View.ld_unit_zero (S := S2000x3x64) zeroOffs3]
  funext j
  obtain ⟨e, k, o, rfl⟩ : ∃ (e : Fin 2000) (k : Fin 3) (o : Fin 64), j = ix3 e k o := ⟨j 0, j 1, j 2, eq_ix3 j⟩
  refine (em1_point V c t e k o).trans ?_
  show _ = msgOf (V c main_v30) (V c main_v52) (V c main_v54) (V c main_v56) (V c main_v58) (V c main_v60) (((cfg1.win 6).blk t).view.emb (ix3 e k o))
  rw [em1_emb6 t e k o]

/-- An index of the message array is in point t's block iff each coordinate is in the block's range. -/
theorem em1_mem (t : Fin cfg1.N) (i : S800000x3x64.Idx) :
    i ∈ ((cfg1.win 6).blk t).view.set ↔ ∀ a : Fin 3, win1_6.index t a * S2000x3x64.size a ≤ (i a).val ∧ (i a).val < win1_6.index t a * S2000x3x64.size a + S2000x3x64.size a := by
  show i ∈ ((View.whole main_v61).slice (win1_6.rect t)).set ↔ _
  rw [View.set_slice_whole, Rect.mem_set_unit]
  exact Iff.rfl

/-- Every edge is in the block of the point its number divided by 2000 names. -/
theorem em1_cover (i : S800000x3x64.Idx) :
    ∃ t : Fin cfg1.N, (cfg1.win 6).flush t = true ∧ i ∈ ((cfg1.win 6).blk t).view.set := by
  have hi0 : (i 0).val < 800000 := (i 0).isLt
  have hi1 : (i 1).val < 3 := (i 1).isLt
  have hi2 : (i 2).val < 64 := (i 2).isLt
  refine ⟨⟨(i 0).val / 2000, by show _ < 400; omega⟩, flush1_6 _, ?_⟩
  rw [em1_mem]
  obtain ⟨a0, a1, b0, b1, b2, c0, c1, d0, d1, e0, e1, f0, f1, g0, g1, g2⟩ := em1_idx ⟨(i 0).val / 2000, by show _ < 400; omega⟩
  intro a
  match a with
  | ⟨0, _⟩ => show win1_6.index _ (0 : Fin 3) * 2000 ≤ (i 0).val ∧ (i 0).val < win1_6.index _ (0 : Fin 3) * 2000 + 2000; rw [g0]; show (i 0).val / 2000 * 2000 ≤ _ ∧ _ < (i 0).val / 2000 * 2000 + 2000; omega
  | ⟨1, _⟩ => show win1_6.index _ (1 : Fin 3) * 3 ≤ (i 1).val ∧ (i 1).val < win1_6.index _ (1 : Fin 3) * 3 + 3; rw [g1]; omega
  | ⟨2, _⟩ => show win1_6.index _ (2 : Fin 3) * 64 ≤ (i 2).val ∧ (i 2).val < win1_6.index _ (2 : Fin 3) * 64 + 64; rw [g2]; omega

/-- The message array of region 1 after the region. -/
theorem em1_final (c : Dev nD) : (dat1 V c).arrAt 6 cfg1.N
    = msgOf (V c main_v30) (V c main_v52) (V c main_v54) (V c main_v56) (V c main_v58) (V c main_v60) :=
  (dat1 V c).arrAt_eq_of_cover 6 _ (fun t _ => em1_flushed V c t) em1_cover

end Region1

end Cert.KernelIdeal.Vals

end
-- ==== Proof.BodyBatchNorm.lean ====
/-
  The two batch-norm bodies at exact arithmetic.

  Reduce (a block of 5000 node rows a(r, j), 64 features): the running column sums are advanced by the block's column
  sums, s(0, j) ↦ s(0, j) + Σ_r a(r, j), and the running sums of squares by q(0, j) ↦ q(0, j) + Σ_r a(r, j)²; at the
  first grid point both are first set to zero.

  Normalize (a block of 5000 rows): with c the constant the source writes 1/50000, mean_j = s(0, j) · c and
  var_j = q(0, j) · c − mean_j², the stored row is
  h_in(r, j) + max(((a(r, j) − mean_j) · rsqrt(var_j + ε)) · γ(0, j) + β(0, j), 0).
-/
import proofs.«111449_j80633716015168_2_alg».proof.Proof.Gen.KernelIdeal.Skeleton
import proofs.«111449_j80633716015168_2_alg».proof.Proof.SpecMath
import Idealize.ShloMosaic.PureOps.Ideal.Laws
import Idealize.ShloMosaic.Lib.ValueIdx
import Idealize.ShloMosaic.Lib.ValueLayout
import Idealize.ShloMosaic.Lib.Pipeline.Value

noncomputable section

namespace Cert.KernelIdeal.Bodies

open Idealize.ShloMosaic Idealize.ShloMosaic.ValueIdx Cert.KernelIdeal Cert.KernelIdeal.Gen

/-! ## Reduce -/

/-- A column sum of a 5000 × 64 block, as the lane reduction over its rows computes it. -/
theorem colSum_at (x : FVec Ideal S5000x64 .f32) (j : Fin 64) :
    shapeCast S1x64 (multiReduction .add [0] S64 x 0x00000000#32 reduces_S5000x64_S64 (.inl rfl) rfl) shapeCasts_S64_S1x64 (ix2 (0 : Fin 1) j)
      = ∑ r : Fin 5000, x (ix2 r j) := by
  refine (shapeCast_a_1a_apply (a := 64) _ shapeCasts_S64_S1x64 0 j).trans ?_
  have h1 := Ideal.multiReduction_add_single (s := S5000x64) (t := S64) (a := (0 : Fin 2)) x 0x00000000#32 reduces_S5000x64_S64 (.inl rfl) rfl (ix1 j)
  rw [h1]
  refine Finset.sum_congr rfl fun r _ => congrArg x ?_
  funext a
  match a with
  | ⟨0, _⟩ => rfl
  | ⟨1, _⟩ => rfl

/-- The zero a reduce region starts its sums from. -/
theorem bnZero_at (j : Fin 64) : k2_pay1 (F := Ideal) (ix2 (0 : Fin 1) j) = Ideal.ofBits .f32 0x00000000#32 := rfl
theorem bnZero'_at (j : Fin 64) : k2_pay2 (F := Ideal) (ix2 (0 : Fin 1) j) = Ideal.ofBits .f32 0x00000000#32 := rfl

/-- The running column sum after a block. -/
theorem bnSum_at (x : Vec Ideal S5000x64 .f32) (s : Vec Ideal S1x64 .f32) (j : Fin 64) :
    k2_pay4 (F := Ideal) x s (ix2 (0 : Fin 1) j) = s (ix2 (0 : Fin 1) j) + ∑ r : Fin 5000, x (ix2 r j) := by
  unfold k2_pay4 k2_pay3
  show _ + _ = _
  rw [shapeCast_self, shapeCast_self]
  exact congrArg _ (colSum_at x j)

/-- The running column sum of squares after a block. -/
theorem bnSumSq_at (x : Vec Ideal S5000x64 .f32) (q : Vec Ideal S1x64 .f32) (j : Fin 64) :
    k2_pay5 (F := Ideal) x q (ix2 (0 : Fin 1) j) = q (ix2 (0 : Fin 1) j) + ∑ r : Fin 5000, x (ix2 r j) * x (ix2 r j) := by
  unfold k2_pay5 k2_pay3
  show _ + _ = _
  rw [shapeCast_self, shapeCast_self]
  exact congrArg _ (colSum_at (mulf x x) j)

/-! ## Normalize -/

/-- The named reciprocal of the node count, as the body spells it. -/
abbrev invN : EReal := Named.named (F := Ideal) κ "inv_50000" (φ := .f32) 0x37A7C5AC#32

/-- One entry of the normalized, rectified and residual-added row, from the running sums: the mean is the column
    sum times the named reciprocal, the variance the mean of squares minus the squared mean. -/
def bnEntry (s q g b a hin : EReal) : EReal :=
  Cert.Spec.normEntry (s * invN) (q * invN - (s * invN) * (s * invN)) g b a hin

def bnMean (s : FVec Ideal S1x64 .f32) : FVec Ideal S1x64 .f32 :=
  mulf (shapeCast S1x64 s shapeCasts_S1x64_S1x64) (broadcast S1x64 invN)

def bnVar (q mean : FVec Ideal S1x64 .f32) : FVec Ideal S1x64 .f32 :=
  subf (mulf (shapeCast S1x64 q shapeCasts_S1x64_S1x64) (broadcast S1x64 invN)) (mulf mean mean)

def bnRows (agg hin : FVec Ideal S5000x64 .f32) (g b mean var : FVec Ideal S1x64 .f32) : FVec Ideal S5000x64 .f32 :=
  addf (shapeCast S5000x64 hin shapeCasts_S5000x64_S5000x64)
    (maximumf
      (addf
        (mulf
          (mulf (subf (shapeCast S5000x64 agg shapeCasts_S5000x64_S5000x64) (broadcastTo S5000x64 mean broadcasts_S1x64_S5000x64))
            (broadcastTo S5000x64 (rsqrt (addf var (broadcast S1x64 (Scalar.ofBits (F := Ideal) .f32 0x3727C5AC#32)))) broadcasts_S1x64_S5000x64))
          (broadcastTo S5000x64 (shapeCast S1x64 g shapeCasts_S1x64_S1x64) broadcasts_S1x64_S5000x64))
        (broadcastTo S5000x64 (shapeCast S1x64 b shapeCasts_S1x64_S1x64) broadcasts_S1x64_S5000x64))
      (broadcast S5000x64 (Scalar.ofBits (F := Ideal) .f32 0x00000000#32)))

/-- The printed payload is these stages composed. -/
theorem k3_pay1_stages (s q : Vec Ideal S1x64 .f32) (agg : Vec Ideal S5000x64 .f32) (g b : Vec Ideal S1x64 .f32) (hin : Vec Ideal S5000x64 .f32) :
    k3_pay1 (F := Ideal) s q agg g b hin = bnRows agg hin g b (bnMean s) (bnVar q (bnMean s)) := rfl

/-- The stored block of the normalize region at (r, j). -/
theorem bnNormalize_at (s q : Vec Ideal S1x64 .f32) (agg : Vec Ideal S5000x64 .f32) (g b : Vec Ideal S1x64 .f32) (hin : Vec Ideal S5000x64 .f32)
    (r : Fin 5000) (j : Fin 64) :
    k3_pay1 (F := Ideal) s q agg g b hin (ix2 r j)
      = bnEntry (s (ix2 (0 : Fin 1) j)) (q (ix2 (0 : Fin 1) j)) (g (ix2 (0 : Fin 1) j)) (b (ix2 (0 : Fin 1) j)) (agg (ix2 r j)) (hin (ix2 r j)) := by
  rw [k3_pay1_stages]
  unfold bnRows bnEntry Cert.Spec.normEntry
  show _ + max (((_ - _) * _) * _ + _) _ = _
  rw [shapeCast_self, shapeCast_self,
    broadcastTo_1b_ab_apply (a := 5000) (b := 64) (bnMean s) broadcasts_S1x64_S5000x64 r j,
    broadcastTo_1b_ab_apply (a := 5000) (b := 64) (rsqrt (addf (bnVar q (bnMean s)) (broadcast S1x64 (Scalar.ofBits (F := Ideal) .f32 0x3727C5AC#32)))) broadcasts_S1x64_S5000x64 r j,
    broadcastTo_1b_ab_apply (a := 5000) (b := 64) (shapeCast S1x64 g shapeCasts_S1x64_S1x64) broadcasts_S1x64_S5000x64 r j,
    broadcastTo_1b_ab_apply (a := 5000) (b := 64) (shapeCast S1x64 b shapeCasts_S1x64_S1x64) broadcasts_S1x64_S5000x64 r j,
    shapeCast_self, shapeCast_self]
  unfold bnVar bnMean
  rw [shapeCast_self, shapeCast_self]
  rfl

end Cert.KernelIdeal.Bodies

end
-- ==== Proof.ValBnReduce.lean ====
/-
  What the reduce region leaves in its two output rows. The grid has 10 points; point t takes rows
  5000·t … 5000·t + 4999 of the aggregated features a (50000 × 64). The two outputs (1 × 64 each) stay in place over
  the whole grid: at point 0 they are set to zero and advanced by block 0's column sums and column sums of squares,
  at every later point they are advanced by that block's. After point n the first row holds, in column j,
  0 + Σ_{x < 5000·(n+1)} a(x, j), and the second the same sum of squares; both are written back once, after the last
  point, so the arrays end as 0 + Σ_{p < 50000} a(p, j) and 0 + Σ_{p < 50000} a(p, j)².
-/
import proofs.«111449_j80633716015168_2_alg».proof.Proof.Gen.KernelIdeal.Frame
import proofs.«111449_j80633716015168_2_alg».proof.Proof.BodyBatchNorm

set_option maxRecDepth 16384

noncomputable section

namespace Cert.KernelIdeal.Vals

open Idealize.ShloMosaic Idealize.ShloMosaic.TcCoe Idealize.ShloMosaic.ValueIdx Idealize.ShloMosaic.Tactic
open Idealize.ShloMosaic.Pipeline (Dat)
open Cert.KernelIdeal Cert.KernelIdeal.Gen Cert.KernelIdeal.Bodies

theorem zeroOffr2 : (![0, 0] : Fin 2 → Nat) = fun _ => 0 := funext fun a => by fin_cases a <;> rfl

/-! ## What each case of the body leaves in the two rows -/

section Pieces
variable {F : FTy → Type} [FloatOps F] [Named F]

/-- First point, first row: zero, then advanced by the block's column sums. -/
theorem sumRow_first (c : Dev nD) (i : grid2.Coords) (arg1 : Memref sig .tc .vmem S5000x64 .f32) (harg1 : arg1.IsWhole) (arg2 : Memref sig .tc .vmem S1x64 .f32) (harg2 : arg2.IsWhole) (arg3 : Memref sig .tc .vmem S1x64 .f32) (harg3 : arg3.IsWhole) (hc0 : cond2_0 i) (x0 : Vec F S5000x64 .f32) :
    out2_A_1 (F := F) c i arg1 harg1 arg2 harg2 arg3 harg3 hc0 x0 = k2_pay4 x0 k2_pay1 := by
  unfold out2_A_1
  rw [View.read_writes_eq_canon _ _ _ (cover2_A_1 c i arg1 harg1 arg2 harg2 arg3 harg3 hc0 x0)]
  unfold kernelRun2_A
  dsimp only
  sl_unfold_words
  rw [View.canon_cons_unit_zero zeroOffr2]
  simp only [View.readAt_eq_ld, harg1.read_unread, View.ld_unit_zero (S := S5000x64) zeroOffr2]
  rw [View.readCov_unit_zero (S := S1x64) arg2.view zeroOffr2]

/-- First point, second row: zero, then advanced by the block's column sums of squares. -/
theorem sqRow_first (c : Dev nD) (i : grid2.Coords) (arg1 : Memref sig .tc .vmem S5000x64 .f32) (harg1 : arg1.IsWhole) (arg2 : Memref sig .tc .vmem S1x64 .f32) (harg2 : arg2.IsWhole) (arg3 : Memref sig .tc .vmem S1x64 .f32) (harg3 : arg3.IsWhole) (hc0 : cond2_0 i) (x0 : Vec F S5000x64 .f32) :
    out2_A_2 (F := F) c i arg1 harg1 arg2 harg2 arg3 harg3 hc0 x0 = k2_pay5 x0 k2_pay2 := by
  unfold out2_A_2
  rw [View.read_writes_eq_canon _ _ _ (cover2_A_2 c i arg1 harg1 arg2 harg2 arg3 harg3 hc0 x0)]
  unfold kernelRun2_A
  dsimp only
  sl_unfold_words
  rw [View.canon_cons_unit_zero zeroOffr2]
  simp only [View.readAt_eq_ld, harg1.read_unread, View.ld_unit_zero (S := S5000x64) zeroOffr2]
  rw [View.readCov_unit_zero (S := S1x64) arg3.view zeroOffr2]

/-- A later point, first row: what the point before left, advanced by the block's column sums. -/
theorem sumRow_later (c : Dev nD) (i : grid2.Coords) (arg1 : Memref sig .tc .vmem S5000x64 .f32) (harg1 : arg1.IsWhole) (arg2 : Memref sig .tc .vmem S1x64 .f32) (harg2 : arg2.IsWhole) (arg3 : Memref sig .tc .vmem S1x64 .f32) (harg3 : arg3.IsWhole) (hc0 : ¬cond2_0 i)
    (x0 : Vec F S5000x64 .f32) (xo1 : Vec F S1x64 .f32) (xo2 : Vec F S1x64 .f32) :
    out2_B_1 (F := F) c i arg1 harg1 arg2 harg2 arg3 harg3 hc0 x0 xo1 xo2 = k2_pay4 x0 xo1 := by
  unfold out2_B_1
  rw [View.read_writes_eq_canon _ _ _ (cover2_B_1 c i arg1 harg1 arg2 harg2 arg3 harg3 hc0 x0 xo1 xo2)]
  unfold kernelRun2_B
  dsimp only
  sl_unfold_words
  rw [View.canon_unit_zero zeroOffr2]
  simp only [View.readAt_eq_ld, harg1.read_unread, harg2.read_unread, View.ld_unit_zero (S := S5000x64) zeroOffr2, View.ld_unit_zero (S := S1x64) zeroOffr2]

/-- A later point, second row: what the point before left, advanced by the block's column sums of squares. -/
theorem sqRow_later (c : Dev nD) (i : grid2.Coords) (arg1 : Memref sig .tc .vmem S5000x64 .f32) (harg1 : arg1.IsWhole) (arg2 : Memref sig .tc .vmem S1x64 .f32) (harg2 : arg2.IsWhole) (arg3 : Memref sig .tc .vmem S1x64 .f32) (harg3 : arg3.IsWhole) (hc0 : ¬cond2_0 i)
    (x0 : Vec F S5000x64 .f32) (xo1 : Vec F S1x64 .f32) (xo2 : Vec F S1x64 .f32) :
    out2_B_2 (F := F) c i arg1 harg1 arg2 harg2 arg3 harg3 hc0 x0 xo1 xo2 = k2_pay5 x0 xo2 := by
  unfold out2_B_2
  rw [View.read_writes_eq_canon _ _ _ (cover2_B_2 c i arg1 harg1 arg2 harg2 arg3 harg3 hc0 x0 xo1 xo2)]
  unfold kernelRun2_B
  dsimp only
  sl_unfold_words
  rw [View.canon_unit_zero zeroOffr2]
  simp only [View.readAt_eq_ld, harg1.read_unread, harg3.read_unread, View.ld_unit_zero (S := S5000x64) zeroOffr2, View.ld_unit_zero (S := S1x64) zeroOffr2]

end Pieces

/-! ## The accumulation over the grid -/

/-- Column j of the aggregated array as a function of a natural row number (zero past the end). -/
def colN (a : S50000x64.Idx → EReal) (j : Fin 64) (x : ℕ) : EReal :=
  if h : x < 50000 then a (ix2 ⟨x, h⟩ j) else 0

theorem colN_sum (a : S50000x64.Idx → EReal) (j : Fin 64) :
    ∑ x ∈ Finset.range 50000, colN a j x = ∑ p : Fin 50000, a (ix2 p j) := by
  rw [Finset.sum_range]
  refine Finset.sum_congr rfl fun p _ => ?_
  unfold colN
  rw [dif_pos p.isLt]

theorem colN_sumSq (a : S50000x64.Idx → EReal) (j : Fin 64) :
    ∑ x ∈ Finset.range 50000, colN a j x * colN a j x = ∑ p : Fin 50000, a (ix2 p j) * a (ix2 p j) := by
  rw [Finset.sum_range]
  refine Finset.sum_congr rfl fun p _ => ?_
  unfold colN
  rw [dif_pos p.isLt]

/-- The two rows' final contents: zero plus the column sums, and zero plus the column sums of squares. -/
def sumRowOf (a : S50000x64.Idx → EReal) : S1x64.Idx → EReal := fun i => Cert.Spec.zeroW + ∑ p : Fin 50000, a (ix2 p (i 1))
def sqRowOf (a : S50000x64.Idx → EReal) : S1x64.Idx → EReal := fun i => Cert.Spec.zeroW + ∑ p : Fin 50000, a (ix2 p (i 1)) * a (ix2 p (i 1))

section Region2
variable (V : (c : Dev nD) → (b : Ref sig .tc) → Buf (Elt Ideal) ((c : Thread nD τ).loc b))

/-- The index maps of region 2 over its grid: the input window moves with the point, the two rows stay. -/
theorem bnr2_idx : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0 :=
  (by decide +kernel : ∀ t : Fin grid2.N, _)

/-- Point t's block of the aggregated array, as a 5000 × 64 array of extended reals. -/
abbrev blk2 (c : Dev nD) (t : Fin cfg2.N) : S5000x64.Idx → EReal := iblk2 V c 0 t

/-- Row r of point t's block is row 5000·t + r of the aggregated array. -/
theorem bnr2_block (c : Dev nD) (t : Fin cfg2.N) (r : Fin 5000) (j : Fin 64) :
    blk2 V c t (ix2 r j) = colN (V c main_v65) j (5000 * t.val + r.val) := by
  obtain ⟨e0, e1, e2, e3, e4, e5⟩ := bnr2_idx t
  have ht : t.val < 10 := t.isLt
  have hlt : 5000 * t.val + r.val < 50000 := by have := r.isLt; omega
  unfold colN
  rw [dif_pos hlt]
  show V c main_v65 (((cfg2.win 0).blk t).view.emb (ix2 r j)) = _
  refine congrArg (V c main_v65) ?_
  funext a; apply Fin.ext
  match a with
  | ⟨0, _⟩ => show win2_0.index t (0 : Fin 2) * 5000 + 1 * r.val = 5000 * t.val + r.val; omega
  | ⟨1, _⟩ => show win2_0.index t (1 : Fin 2) * 64 + 1 * j.val = j.val; omega

theorem bnr2_blockSum (c : Dev nD) (t : Fin cfg2.N) (j : Fin 64) :
    ∑ r : Fin 5000, blk2 V c t (ix2 r j) = ∑ x ∈ Finset.range 5000, colN (V c main_v65) j (5000 * t.val + x) := by
  rw [Finset.sum_range]
  exact Finset.sum_congr rfl fun r _ => bnr2_block V c t r j

theorem bnr2_blockSumSq (c : Dev nD) (t : Fin cfg2.N) (j : Fin 64) :
    ∑ r : Fin 5000, blk2 V c t (ix2 r j) * blk2 V c t (ix2 r j)
      = ∑ x ∈ Finset.range 5000, colN (V c main_v65) j (5000 * t.val + x) * colN (V c main_v65) j (5000 * t.val + x) := by
  rw [Finset.sum_range]
  exact Finset.sum_congr rfl fun r _ => by rw [bnr2_block V c t r j]

/-- At the first point the rows are the zeroed rows advanced by the block. -/
theorem bnr2_first1 (c : Dev nD) (t : Fin cfg2.N) (h0 : t.val % 10 = 0) :
    (outsAt2 V c t.val t.isLt).1 = k2_pay4 (F := Ideal) (blk2 V c t) (k2_pay1 (F := Ideal)) :=
  (congrArg Prod.fst (outsAt2_A V c t h0)).trans (sumRow_first (F := Ideal) c (grid2.coords t) (ms2_0 t) (hs2_0 t) (ms2_1 t) (hs2_1 t) (ms2_2 t) (hs2_2 t) ((hcond2_0 t).mpr h0) (iblk2 V c 0 t))

theorem bnr2_first2 (c : Dev nD) (t : Fin cfg2.N) (h0 : t.val % 10 = 0) :
    (outsAt2 V c t.val t.isLt).2 = k2_pay5 (F := Ideal) (blk2 V c t) (k2_pay2 (F := Ideal)) :=
  (congrArg Prod.snd (outsAt2_A V c t h0)).trans (sqRow_first (F := Ideal) c (grid2.coords t) (ms2_0 t) (hs2_0 t) (ms2_1 t) (hs2_1 t) (ms2_2 t) (hs2_2 t) ((hcond2_0 t).mpr h0) (iblk2 V c 0 t))

/-- At a later point the rows are what the point before left, advanced by the block. -/
theorem bnr2_later1 (c : Dev nD) (t : Fin cfg2.N) (h0 : ¬ t.val % 10 = 0) (hlt' : t.val - 1 < cfg2.N) :
    (outsAt2 V c t.val t.isLt).1 = k2_pay4 (blk2 V c t) (outsAt2 V c (t.val - 1) hlt').1 :=
  (congrArg Prod.fst (outsAt2_B V c t h0)).trans (sumRow_later (F := Ideal) c (grid2.coords t) (ms2_0 t) (hs2_0 t) (ms2_1 t) (hs2_1 t) (ms2_2 t) (hs2_2 t) (fun hh => h0 ((hcond2_0 t).mp hh)) (iblk2 V c 0 t) (outsAt2 V c (t.val - 1) hlt').1 (outsAt2 V c (t.val - 1) hlt').2)

theorem bnr2_later2 (c : Dev nD) (t : Fin cfg2.N) (h0 : ¬ t.val % 10 = 0) (hlt' : t.val - 1 < cfg2.N) :
    (outsAt2 V c t.val t.isLt).2 = k2_pay5 (blk2 V c t) (outsAt2 V c (t.val - 1) hlt').2 :=
  (congrArg Prod.snd (outsAt2_B V c t h0)).trans (sqRow_later (F := Ideal) c (grid2.coords t) (ms2_0 t) (hs2_0 t) (ms2_1 t) (hs2_1 t) (ms2_2 t) (hs2_2 t) (fun hh => h0 ((hcond2_0 t).mp hh)) (iblk2 V c 0 t) (outsAt2 V c (t.val - 1) hlt').1 (outsAt2 V c (t.val - 1) hlt').2)

/-- After point t the rows hold zero plus the sums over the first 5000·(t+1) rows. -/
theorem bnr2_acc (c : Dev nD) : ∀ (n : ℕ) (t : Fin cfg2.N), t.val = n → ∀ j : Fin 64,
    (outsAt2 V c t.val t.isLt).1 (ix2 (0 : Fin 1) j) = Cert.Spec.zeroW + ∑ x ∈ Finset.range (5000 * (t.val + 1)), colN (V c main_v65) j x
    ∧ (outsAt2 V c t.val t.isLt).2 (ix2 (0 : Fin 1) j)
        = Cert.Spec.zeroW + ∑ x ∈ Finset.range (5000 * (t.val + 1)), colN (V c main_v65) j x * colN (V c main_v65) j x := by
  intro n
  induction n with
  | zero =>
    intro t ht j
    have h0 : t.val % 10 = 0 := by omega
    refine ⟨?_, ?_⟩
    · rw [bnr2_first1 V c t h0]
      refine (bnSum_at (blk2 V c t) (k2_pay1 (F := Ideal)) j).trans ?_
      rw [bnZero_at j, bnr2_blockSum V c t j, ht]
      simp only [Nat.mul_zero, Nat.zero_add, Nat.mul_one]
    · rw [bnr2_first2 V c t h0]
      refine (bnSumSq_at (blk2 V c t) (k2_pay2 (F := Ideal)) j).trans ?_
      rw [bnZero'_at j, bnr2_blockSumSq V c t j, ht]
      simp only [Nat.mul_zero, Nat.zero_add, Nat.mul_one]
  | succ n ih =>
    intro t ht j
    have ht10 : t.val < 10 := t.isLt
    have h0 : ¬ t.val % 10 = 0 := by omega
    have hlt' : t.val - 1 < cfg2.N := Nat.lt_of_le_of_lt (Nat.sub_le _ _) t.isLt
    have hprev := ih ⟨t.val - 1, hlt'⟩ (by show t.val - 1 = n; omega) j
    have hsplit : 5000 * (t.val + 1) = 5000 * (t.val - 1 + 1) + 5000 := by omega
    have hoff : 5000 * (t.val - 1 + 1) = 5000 * t.val := by omega
    refine ⟨?_, ?_⟩
    · rw [bnr2_later1 V c t h0 hlt']
      refine (bnSum_at (blk2 V c t) (outsAt2 V c (t.val - 1) hlt').1 j).trans ?_
      rw [hprev.1, bnr2_blockSum V c t j, hsplit, Finset.sum_range_add, add_assoc, hoff]
    · rw [bnr2_later2 V c t h0 hlt']
      refine (bnSumSq_at (blk2 V c t) (outsAt2 V c (t.val - 1) hlt').2 j).trans ?_
      rw [hprev.2, bnr2_blockSumSq V c t j, hsplit, Finset.sum_range_add, add_assoc, hoff]

/-! ## The two arrays after the region -/

theorem bnr2_mem1 (t : Fin cfg2.N) (i : S1x64.Idx) :
    i ∈ ((cfg2.win 1).blk t).view.set ↔ ∀ a : Fin 2, win2_1.index t a * S1x64.size a ≤ (i a).val ∧ (i a).val < win2_1.index t a * S1x64.size a + S1x64.size a := by
  show i ∈ ((View.whole main_v70_0).slice (win2_1.rect t)).set ↔ _
  rw [View.set_slice_whole, Rect.mem_set_unit]
  exact Iff.rfl

theorem bnr2_mem2 (t : Fin cfg2.N) (i : S1x64.Idx) :
    i ∈ ((cfg2.win 2).blk t).view.set ↔ ∀ a : Fin 2, win2_2.index t a * S1x64.size a ≤ (i a).val ∧ (i a).val < win2_2.index t a * S1x64.size a + S1x64.size a := by
  show i ∈ ((View.whole main_v70_1).slice (win2_2.rect t)).set ↔ _
  rw [View.set_slice_whole, Rect.mem_set_unit]
  exact Iff.rfl

/-- What the last point writes back into the first row. -/
theorem bnr2_flushed1 (c : Dev nD) (t : Fin cfg2.N) (hf : (cfg2.win 1).flush t = true) :
    (dat2 V c).flushed 1 t = ((cfg2.win 1).blk t).view.read (Elt Ideal) (sumRowOf (V c main_v65)) := by
  have h9 : t.val % 10 = 9 := (flush2_1 t).mp hf
  have ht : t.val < 10 := t.isLt
  obtain ⟨e0, e1, e2, e3, e4, e5⟩ := bnr2_idx t
  show (cfg2.win 1).cut (grid2.coords t) ((dat2 V c).after 1 t) = _
  rw [after2_1]
  funext jx
  obtain ⟨u, j, rfl⟩ : ∃ (u : Fin 1) (j : Fin 64), jx = ix2 u j := ⟨jx 0, jx 1, eq_ix2 jx⟩
  have hu : u = 0 := Fin.ext (by omega)
  subst hu
  show (outsAt2 V c t.val t.isLt).1 (ix2 (0 : Fin 1) j) = sumRowOf (V c main_v65) (((cfg2.win 1).blk t).view.emb (ix2 (0 : Fin 1) j))
  rw [(bnr2_acc V c t.val t rfl j).1]
  have h50 : 5000 * (t.val + 1) = 50000 := by omega
  rw [h50, colN_sum]
  unfold sumRowOf
  have hj : (((cfg2.win 1).blk t).view.emb (ix2 (0 : Fin 1) j)) 1 = j := by
    apply Fin.ext
    show win2_1.index t (1 : Fin 2) * 64 + 1 * j.val = j.val; omega
  rw [hj]

/-- What the last point writes back into the second row. -/
theorem bnr2_flushed2 (c : Dev nD) (t : Fin cfg2.N) (hf : (cfg2.win 2).flush t = true) :
    (dat2 V c).flushed 2 t = ((cfg2.win 2).blk t).view.read (Elt Ideal) (sqRowOf (V c main_v65)) := by
  have h9 : t.val % 10 = 9 := (flush2_2 t).mp hf
  have ht : t.val < 10 := t.isLt
  obtain ⟨e0, e1, e2, e3, e4, e5⟩ := bnr2_idx t
  show (cfg2.win 2).cut (grid2.coords t) ((dat2 V c).after 2 t) = _
  rw [after2_2]
  funext jx
  obtain ⟨u, j, rfl⟩ : ∃ (u : Fin 1) (j : Fin 64), jx = ix2 u j := ⟨jx 0, jx 1, eq_ix2 jx⟩
  have hu : u = 0 := Fin.ext (by omega)
  subst hu
  show (outsAt2 V c t.val t.isLt).2 (ix2 (0 : Fin 1) j) = sqRowOf (V c main_v65) (((cfg2.win 2).blk t).view.emb (ix2 (0 : Fin 1) j))
  rw [(bnr2_acc V c t.val t rfl j).2]
  have h50 : 5000 * (t.val + 1) = 50000 := by omega
  rw [h50, colN_sumSq]
  unfold sqRowOf
  have hj : (((cfg2.win 2).blk t).view.emb (ix2 (0 : Fin 1) j)) 1 = j := by
    apply Fin.ext
    show win2_2.index t (1 : Fin 2) * 64 + 1 * j.val = j.val; omega
  rw [hj]

theorem bnr2_cover1 (i : S1x64.Idx) :
    ∃ t : Fin cfg2.N, (cfg2.win 1).flush t = true ∧ i ∈ ((cfg2.win 1).blk t).view.set := by
  have hi0 : (i 0).val < 1 := (i 0).isLt
  have hi1 : (i 1).val < 64 := (i 1).isLt
  refine ⟨⟨9, by decide⟩, (flush2_1 _).mpr (by decide), ?_⟩
  rw [bnr2_mem1]
  obtain ⟨e0, e1, e2, e3, e4, e5⟩ := bnr2_idx ⟨9, by decide⟩
  intro a
  match a with
  | ⟨0, _⟩ => show win2_1.index _ (0 : Fin 2) * 1 ≤ (i 0).val ∧ (i 0).val < win2_1.index _ (0 : Fin 2) * 1 + 1; rw [e2]; omega
  | ⟨1, _⟩ => show win2_1.index _ (1 : Fin 2) * 64 ≤ (i 1).val ∧ (i 1).val < win2_1.index _ (1 : Fin 2) * 64 + 64; rw [e3]; omega

theorem bnr2_cover2 (i : S1x64.Idx) :
    ∃ t : Fin cfg2.N, (cfg2.win 2).flush t = true ∧ i ∈ ((cfg2.win 2).blk t).view.set := by
  have hi0 : (i 0).val < 1 := (i 0).isLt
  have hi1 : (i 1).val < 64 := (i 1).isLt
  refine ⟨⟨9, by decide⟩, (flush2_2 _).mpr (by decide), ?_⟩
  rw [bnr2_mem2]
  obtain ⟨e0, e1, e2, e3, e4, e5⟩ := bnr2_idx ⟨9, by decide⟩
  intro a
  match a with
  | ⟨0, _⟩ => show win2_2.index _ (0 : Fin 2) * 1 ≤ (i 0).val ∧ (i 0).val < win2_2.index _ (0 : Fin 2) * 1 + 1; rw [e4]; omega
  | ⟨1, _⟩ => show win2_2.index _ (1 : Fin 2) * 64 ≤ (i 1).val ∧ (i 1).val < win2_2.index _ (1 : Fin 2) * 64 + 64; rw [e5]; omega

/-- The column sums after the region. -/
theorem bnr2_final1 (c : Dev nD) : (dat2 V c).arrAt 1 cfg2.N = sumRowOf (V c main_v65) :=
  (dat2 V c).arrAt_eq_of_cover 1 _ (fun t hf => bnr2_flushed1 V c t hf) bnr2_cover1

/-- The column sums of squares after the region. -/
theorem bnr2_final2 (c : Dev nD) : (dat2 V c).arrAt 2 cfg2.N = sqRowOf (V c main_v65) :=
  (dat2 V c).arrAt_eq_of_cover 2 _ (fun t hf => bnr2_flushed2 V c t hf) bnr2_cover2

end Region2

end Cert.KernelIdeal.Vals

end
-- ==== Proof.ValBnNormalize.lean ====
/-
  What the normalize region leaves in its output array. The grid has 10 points; point t takes rows
  5000·t … 5000·t + 4999 of the aggregated features and of the layer's input (both 50000 × 64), and the four rows
  (column sums, column sums of squares, scale, shift; each 1 × 64) whole, and writes the same rows of the output.
  Every row is in exactly one block, so the output ends, at (i, j), as the entry computed from column j's sums.
-/
import proofs.«111449_j80633716015168_2_alg».proof.Proof.Gen.KernelIdeal.Frame
import proofs.«111449_j80633716015168_2_alg».proof.Proof.BodyBatchNorm

set_option maxRecDepth 16384

noncomputable section

namespace Cert.KernelIdeal.Vals

open Idealize.ShloMosaic Idealize.ShloMosaic.TcCoe Idealize.ShloMosaic.ValueIdx
open Idealize.ShloMosaic.Pipeline (Dat)
open Cert.KernelIdeal Cert.KernelIdeal.Gen Cert.KernelIdeal.Bodies

/-- The layer's output array from the aggregated features, the layer's input and the four rows. -/
def bnnOf (agg hin : S50000x64.Idx → EReal) (s q g b : S1x64.Idx → EReal) : S50000x64.Idx → EReal :=
  fun i => bnEntry (s (ix2 (0 : Fin 1) (i 1))) (q (ix2 (0 : Fin 1) (i 1))) (g (ix2 (0 : Fin 1) (i 1))) (b (ix2 (0 : Fin 1) (i 1))) (agg i) (hin i)

theorem bnnOf_apply (agg hin : S50000x64.Idx → EReal) (s q g b : S1x64.Idx → EReal) (a : Fin 50000) (j : Fin 64) :
    bnnOf agg hin s q g b (ix2 a j)
      = bnEntry (s (ix2 (0 : Fin 1) j)) (q (ix2 (0 : Fin 1) j)) (g (ix2 (0 : Fin 1) j)) (b (ix2 (0 : Fin 1) j)) (agg (ix2 a j)) (hin (ix2 a j)) := rfl

theorem zeroOffn2 : (![0, 0] : Fin 2 → Nat) = fun _ => 0 := funext fun a => by fin_cases a <;> rfl

section Region3
variable (V : (c : Dev nD) → (b : Ref sig .tc) → Buf (Elt Ideal) ((c : Thread nD τ).loc b))

/-- The index maps of region 3 over its grid: the two row windows and the output move with the point, the four
    one-row windows stay. -/
theorem bnn3_idx : ∀ t : Fin cfg3.N, win3_0.index t (0 : Fin 2) = t.val ∧ win3_0.index t (1 : Fin 2) = 0
    ∧ win3_1.index t (0 : Fin 2) = t.val ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0
    ∧ win3_5.index t (0 : Fin 2) = 0 ∧ win3_5.index t (1 : Fin 2) = 0
    ∧ win3_6.index t (0 : Fin 2) = t.val ∧ win3_6.index t (1 : Fin 2) = 0 :=
  (by decide +kernel : ∀ t : Fin grid3.N, _)

/-- Row r of point t's block is row 5000·t + r of the arrays. -/
def bnn3_row (t : Fin cfg3.N) (r : Fin 5000) : Fin 50000 :=
  ⟨5000 * t.val + r.val, by have ht : t.val < 10 := t.isLt; have := r.isLt; omega⟩

theorem bnn3_emb0 (t : Fin cfg3.N) (r : Fin 5000) (j : Fin 64) : ((cfg3.win 0).blk t).view.emb (ix2 r j) = ix2 (bnn3_row t r) j := by
  obtain ⟨a0, a1, b0, b1, c0, c1, d0, d1, e0, e1, f0, f1, g0, g1⟩ := bnn3_idx t
  funext a; apply Fin.ext
  match a with
  | ⟨0, _⟩ => show win3_0.index t (0 : Fin 2) * 5000 + 1 * r.val = 5000 * t.val + r.val; omega
  | ⟨1, _⟩ => show win3_0.index t (1 : Fin 2) * 64 + 1 * j.val = j.val; omega
theorem bnn3_emb1 (t : Fin cfg3.N) (r : Fin 5000) (j : Fin 64) : ((cfg3.win 1).blk t).view.emb (ix2 r j) = ix2 (bnn3_row t r) j := by
  obtain ⟨a0, a1, b0, b1, c0, c1, d0, d1, e0, e1, f0, f1, g0, g1⟩ := bnn3_idx t
  funext a; apply Fin.ext
  match a with
  | ⟨0, _⟩ => show win3_1.index t (0 : Fin 2) * 5000 + 1 * r.val = 5000 * t.val + r.val; omega
  | ⟨1, _⟩ => show win3_1.index t (1 : Fin 2) * 64 + 1 * j.val = j.val; omega
theorem bnn3_emb2 (t : Fin cfg3.N) (j : Fin 64) : ((cfg3.win 2).blk t).view.emb (ix2 (0 : Fin 1) j) = ix2 (0 : Fin 1) j := by
  obtain ⟨a0, a1, b0, b1, c0, c1, d0, d1, e0, e1, f0, f1, g0, g1⟩ := bnn3_idx t
  funext a; apply Fin.ext
  match a with
  | ⟨0, _⟩ => show win3_2.index t (0 : Fin 2) * 1 + 1 * 0 = 0; omega
  | ⟨1, _⟩ => show win3_2.index t (1 : Fin 2) * 64 + 1 * j.val = j.val; omega
theorem bnn3_emb3 (t : Fin cfg3.N) (j : Fin 64) : ((cfg3.win 3).blk t).view.emb (ix2 (0 : Fin 1) j) = ix2 (0 : Fin 1) j := by
  obtain ⟨a0, a1, b0, b1, c0, c1, d0, d1, e0, e1, f0, f1, g0, g1⟩ := bnn3_idx t
  funext a; apply Fin.ext
  match a with
  | ⟨0, _⟩ => show win3_3.index t (0 : Fin 2) * 1 + 1 * 0 = 0; omega
  | ⟨1, _⟩ => show win3_3.index t (1 : Fin 2) * 64 + 1 * j.val = j.val; omega
theorem bnn3_emb4 (t : Fin cfg3.N) (j : Fin 64) : ((cfg3.win 4).blk t).view.emb (ix2 (0 : Fin 1) j) = ix2 (0 : Fin 1) j := by
  obtain ⟨a0, a1, b0, b1, c0, c1, d0, d1, e0, e1, f0, f1, g0, g1⟩ := bnn3_idx t
  funext a; apply Fin.ext
  match a with
  | ⟨0, _⟩ => show win3_4.index t (0 : Fin 2) * 1 + 1 * 0 = 0; omega
  | ⟨1, _⟩ => show win3_4.index t (1 : Fin 2) * 64 + 1 * j.val = j.val; omega
theorem bnn3_emb5 (t : Fin cfg3.N) (j : Fin 64) : ((cfg3.win 5).blk t).view.emb (ix2 (0 : Fin 1) j) = ix2 (0 : Fin 1) j := by
  obtain ⟨a0, a1, b0, b1, c0, c1, d0, d1, e0, e1, f0, f1, g0, g1⟩ := bnn3_idx t
  funext a; apply Fin.ext
  match a with
  | ⟨0, _⟩ => show win3_5.index t (0 : Fin 2) * 1 + 1 * 0 = 0; omega
  | ⟨1, _⟩ => show win3_5.index t (1 : Fin 2) * 64 + 1 * j.val = j.val; omega
theorem bnn3_emb6 (t : Fin cfg3.N) (r : Fin 5000) (j : Fin 64) : ((cfg3.win 6).blk t).view.emb (ix2 r j) = ix2 (bnn3_row t r) j := by
  obtain ⟨a0, a1, b0, b1, c0, c1, d0, d1, e0, e1, f0, f1, g0, g1⟩ := bnn3_idx t
  funext a; apply Fin.ext
  match a with
  | ⟨0, _⟩ => show win3_6.index t (0 : Fin 2) * 5000 + 1 * r.val = 5000 * t.val + r.val; omega
  | ⟨1, _⟩ => show win3_6.index t (1 : Fin 2) * 64 + 1 * j.val = j.val; omega

theorem bnn3_read0 (c : Dev nD) (t : Fin cfg3.N) (r : Fin 5000) (j : Fin 64) :
    iblk3 V c 0 t (ix2 r j) = V c main_v65 (ix2 (bnn3_row t r) j) := congrArg (V c main_v65) (bnn3_emb0 t r j)
theorem bnn3_read1 (c : Dev nD) (t : Fin cfg3.N) (r : Fin 5000) (j : Fin 64) :
    iblk3 V c 1 t (ix2 r j) = V c main_v37 (ix2 (bnn3_row t r) j) := congrArg (V c main_v37) (bnn3_emb1 t r j)
theorem bnn3_read2 (c : Dev nD) (t : Fin cfg3.N) (j : Fin 64) :
    iblk3 V c 2 t (ix2 (0 : Fin 1) j) = V c main_v70_0 (ix2 (0 : Fin 1) j) := congrArg (V c main_v70_0) (bnn3_emb2 t j)
theorem bnn3_read3 (c : Dev nD) (t : Fin cfg3.N) (j : Fin 64) :
    iblk3 V c 3 t (ix2 (0 : Fin 1) j) = V c main_v70_1 (ix2 (0 : Fin 1) j) := congrArg (V c main_v70_1) (bnn3_emb3 t j)
theorem bnn3_read4 (c : Dev nD) (t : Fin cfg3.N) (j : Fin 64) :
    iblk3 V c 4 t (ix2 (0 : Fin 1) j) = V c main_v67 (ix2 (0 : Fin 1) j) := congrArg (V c main_v67) (bnn3_emb4 t j)
theorem bnn3_read5 (c : Dev nD) (t : Fin cfg3.N) (j : Fin 64) :
    iblk3 V c 5 t (ix2 (0 : Fin 1) j) = V c main_v69 (ix2 (0 : Fin 1) j) := congrArg (V c main_v69) (bnn3_emb5 t j)

/-- The block's output at (r, j) is the layer's output at row 5000·t + r. -/
theorem bnn3_point (c : Dev nD) (t : Fin cfg3.N) (r : Fin 5000) (j : Fin 64) :
    k3_pay1 (F := Ideal) (iblk3 V c 2 t) (iblk3 V c 3 t) (iblk3 V c 0 t) (iblk3 V c 4 t) (iblk3 V c 5 t) (iblk3 V c 1 t) (ix2 r j)
      = bnnOf (V c main_v65) (V c main_v37) (V c main_v70_0) (V c main_v70_1) (V c main_v67) (V c main_v69) (ix2 (bnn3_row t r) j) := by
  refine ((bnNormalize_at (iblk3 V c 2 t) (iblk3 V c 3 t) (iblk3 V c 0 t) (iblk3 V c 4 t) (iblk3 V c 5 t) (iblk3 V c 1 t) r j).trans ?_).trans
    (bnnOf_apply (V c main_v65) (V c main_v37) (V c main_v70_0) (V c main_v70_1) (V c main_v67) (V c main_v69) (bnn3_row t r) j).symm
  rw [bnn3_read0 V c t r j, bnn3_read1 V c t r j, bnn3_read2 V c t j, bnn3_read3 V c t j, bnn3_read4 V c t j, bnn3_read5 V c t j]

/-- What point t writes back is block t of the layer's output. -/
theorem bnn3_flushed (c : Dev nD) (t : Fin cfg3.N) :
    (dat3 V c).flushed 6 t = ((cfg3.win 6).blk t).view.read (Elt Ideal)
      (bnnOf (V c main_v65) (V c main_v37) (V c main_v70_0) (V c main_v70_1) (V c main_v67) (V c main_v69)) := by
  show (cfg3.win 6).cut (grid3.coords t) ((dat3 V c).after 6 t) = _
  rw [after3_6]
  unfold out3_6
  rw [View.canon_unit_zero zeroOffn2]
  simp only [View.ld_unit_zero (S := S5000x64) zeroOffn2, View.ld_unit_zero (S := S1x64) zeroOffn2]
  funext jx
  obtain ⟨r, j, rfl⟩ : ∃ (r : Fin 5000) (j : Fin 64), jx = ix2 r j := ⟨jx 0, jx 1, eq_ix2 jx⟩
  refine (bnn3_point V c t r j).trans ?_
  show _ = bnnOf (V c main_v65) (V c main_v37) (V c main_v70_0) (V c main_v70_1) (V c main_v67) (V c main_v69) (((cfg3.win 6).blk t).view.emb (ix2 r j))
  rw [bnn3_emb6 t r j]

/-- An index of the output array is in point t's block iff each coordinate is in the block's range. -/
theorem bnn3_mem (t : Fin cfg3.N) (i : S50000x64.Idx) :
    i ∈ ((cfg3.win 6).blk t).view.set ↔ ∀ a : Fin 2, win3_6.index t a * S5000x64.size a ≤ (i a).val ∧ (i a).val < win3_6.index t a * S5000x64.size a + S5000x64.size a := by
  show i ∈ ((View.whole main_v71).slice (win3_6.rect t)).set ↔ _
  rw [View.set_slice_whole, Rect.mem_set_unit]
  exact Iff.rfl

/-- Every row is in the block of the point its number divided by 5000 names. -/
theorem bnn3_cover (i : S50000x64.Idx) :
    ∃ t : Fin cfg3.N, (cfg3.win 6).flush t = true ∧ i ∈ ((cfg3.win 6).blk t).view.set := by
  have hi0 : (i 0).val < 50000 := (i 0).isLt
  have hi1 : (i 1).val < 64 := (i 1).isLt
  refine ⟨⟨(i 0).val / 5000, by show _ < 10; omega⟩, flush3_6 _, ?_⟩
  rw [bnn3_mem]
  obtain ⟨a0, a1, b0, b1, c0, c1, d0, d1, e0, e1, f0, f1, g0, g1⟩ := bnn3_idx ⟨(i 0).val / 5000, by show _ < 10; omega⟩
  intro a
  match a with
  | ⟨0, _⟩ => show win3_6.index _ (0 : Fin 2) * 5000 ≤ (i 0).val ∧ (i 0).val < win3_6.index _ (0 : Fin 2) * 5000 + 5000; rw [g0]; show (i 0).val / 5000 * 5000 ≤ _ ∧ _ < (i 0).val / 5000 * 5000 + 5000; omega
  | ⟨1, _⟩ => show win3_6.index _ (1 : Fin 2) * 64 ≤ (i 1).val ∧ (i 1).val < win3_6.index _ (1 : Fin 2) * 64 + 64; rw [g1]; omega

/-- The output array of region 3 after the region. -/
theorem bnn3_final (c : Dev nD) : (dat3 V c).arrAt 6 cfg3.N
    = bnnOf (V c main_v65) (V c main_v37) (V c main_v70_0) (V c main_v70_1) (V c main_v67) (V c main_v69) :=
  (dat3 V c).arrAt_eq_of_cover 6 _ (fun t _ => bnn3_flushed V c t) bnn3_cover

end Region3

end Cert.KernelIdeal.Vals

end
-- ==== Proof.KL0.lean ====
/-
  Layer 0, segment by segment: what each buffer the layer produces holds after the segment that produces it, in terms of the buffers before that segment.
-/
import proofs.«111449_j80633716015168_2_alg».proof.Proof.Gen.KernelIdeal.Frame
import proofs.«111449_j80633716015168_2_alg».proof.Proof.KHost
import proofs.«111449_j80633716015168_2_alg».proof.Proof.ValNodeTransform
import proofs.«111449_j80633716015168_2_alg».proof.Proof.ValEdgeMessage
import proofs.«111449_j80633716015168_2_alg».proof.Proof.ValBnReduce
import proofs.«111449_j80633716015168_2_alg».proof.Proof.ValBnNormalize
import Idealize.ShloMosaic.Lib.StableHlo.Run

set_option maxRecDepth 16384

noncomputable section

namespace Cert.KernelIdeal.Gen

open Idealize.ShloMosaic Idealize.ShloMosaic.TcCoe Idealize.ShloMosaic.StableHlo Idealize.SL.Sem
open Cert.KernelIdeal Cert.KernelIdeal.Vals

variable (m : (ℓ : Loc nD τ sig) → Buf (Elt Ideal) ℓ) (ρ : Dev nD → PrngReg)

/-! ## Layer 0 -/
theorem W2_v44 (c : Dev nD) : W2 m ρ c (Proc.devRef .tc main_v44) = hkOf (W1 m ρ c (Proc.devRef .tc main_v37)) (W1 m ρ c (Proc.devRef .tc main_v43)) :=
  (W2_arr m ρ c 2).trans (nt0_final (V1 m ρ) c)
theorem W2_v44' (c : Dev nD) : W2 m ρ c (no_index (Proc.devRef .tc main_v44)) = hkOf (W1 m ρ c (Proc.devRef .tc main_v37)) (W1 m ρ c (Proc.devRef .tc main_v43)) := W2_v44 m ρ c
theorem W3_v52 (c : Dev nD) : W3 m ρ c (Proc.devRef .tc main_v52) = hkSrcK (W2 m ρ c (Proc.devRef .tc main_v44)) (W2 m ρ c (Proc.devRef .tc main_arg1)) :=
  by
  show StableHlo.after hostOps1 (W2 m ρ c) (Proc.devRef .tc main_v52) = _
  after_results_simp
  try rfl
theorem W3_v52' (c : Dev nD) : W3 m ρ c (no_index (Proc.devRef .tc main_v52)) = hkSrcK (W2 m ρ c (Proc.devRef .tc main_v44)) (W2 m ρ c (Proc.devRef .tc main_arg1)) := W3_v52 m ρ c
theorem W3_v54 (c : Dev nD) : W3 m ρ c (Proc.devRef .tc main_v54) = kA0 (W2 m ρ c (Proc.devRef .tc main_arg10)) :=
  by
  show StableHlo.after hostOps1 (W2 m ρ c) (Proc.devRef .tc main_v54) = _
  after_results_simp
  try rfl
theorem W3_v54' (c : Dev nD) : W3 m ρ c (no_index (Proc.devRef .tc main_v54)) = kA0 (W2 m ρ c (Proc.devRef .tc main_arg10)) := W3_v54 m ρ c
theorem W3_v56 (c : Dev nD) : W3 m ρ c (Proc.devRef .tc main_v56) = kB0 (W2 m ρ c (Proc.devRef .tc main_v39)) :=
  by
  show StableHlo.after hostOps1 (W2 m ρ c) (Proc.devRef .tc main_v56) = _
  after_results_simp
  try rfl
theorem W3_v56' (c : Dev nD) : W3 m ρ c (no_index (Proc.devRef .tc main_v56)) = kB0 (W2 m ρ c (Proc.devRef .tc main_v39)) := W3_v56 m ρ c
theorem W3_v58 (c : Dev nD) : W3 m ρ c (Proc.devRef .tc main_v58) = kM0 (W2 m ρ c (Proc.devRef .tc main_arg6)) :=
  by
  show StableHlo.after hostOps1 (W2 m ρ c) (Proc.devRef .tc main_v58) = _
  after_results_simp
  try rfl
theorem W3_v58' (c : Dev nD) : W3 m ρ c (no_index (Proc.devRef .tc main_v58)) = kM0 (W2 m ρ c (Proc.devRef .tc main_arg6)) := W3_v58 m ρ c
theorem W3_v60 (c : Dev nD) : W3 m ρ c (Proc.devRef .tc main_v60) = kM0 (W2 m ρ c (Proc.devRef .tc main_arg7)) :=
  by
  show StableHlo.after hostOps1 (W2 m ρ c) (Proc.devRef .tc main_v60) = _
  after_results_simp
  try rfl
theorem W3_v60' (c : Dev nD) : W3 m ρ c (no_index (Proc.devRef .tc main_v60)) = kM0 (W2 m ρ c (Proc.devRef .tc main_arg7)) := W3_v60 m ρ c
theorem W4_v61 (c : Dev nD) : W4 m ρ c (Proc.devRef .tc main_v61) = msgOf (W3 m ρ c (Proc.devRef .tc main_v30)) (W3 m ρ c (Proc.devRef .tc main_v52)) (W3 m ρ c (Proc.devRef .tc main_v54)) (W3 m ρ c (Proc.devRef .tc main_v56)) (W3 m ρ c (Proc.devRef .tc main_v58)) (W3 m ρ c (Proc.devRef .tc main_v60)) :=
  (W4_arr m ρ c 6).trans (em1_final (V3 m ρ) c)
theorem W4_v61' (c : Dev nD) : W4 m ρ c (no_index (Proc.devRef .tc main_v61)) = msgOf (W3 m ρ c (Proc.devRef .tc main_v30)) (W3 m ρ c (Proc.devRef .tc main_v52)) (W3 m ρ c (Proc.devRef .tc main_v54)) (W3 m ρ c (Proc.devRef .tc main_v56)) (W3 m ρ c (Proc.devRef .tc main_v58)) (W3 m ρ c (Proc.devRef .tc main_v60)) := W4_v61 m ρ c
theorem W5_v65 (c : Dev nD) : W5 m ρ c (Proc.devRef .tc main_v65) = aggK (W4 m ρ c (Proc.devRef .tc main_arg2)) (W4 m ρ c (Proc.devRef .tc main_v61)) :=
  by
  show StableHlo.after hostOps2 (W4 m ρ c) (Proc.devRef .tc main_v65) = _
  after_results_simp
  try rfl
theorem W5_v65' (c : Dev nD) : W5 m ρ c (no_index (Proc.devRef .tc main_v65)) = aggK (W4 m ρ c (Proc.devRef .tc main_arg2)) (W4 m ρ c (Proc.devRef .tc main_v61)) := W5_v65 m ρ c
theorem W5_v67 (c : Dev nD) : W5 m ρ c (Proc.devRef .tc main_v67) = kG0 (W4 m ρ c (Proc.devRef .tc main_v40)) :=
  by
  show StableHlo.after hostOps2 (W4 m ρ c) (Proc.devRef .tc main_v67) = _
  after_results_simp
  try rfl
theorem W5_v67' (c : Dev nD) : W5 m ρ c (no_index (Proc.devRef .tc main_v67)) = kG0 (W4 m ρ c (Proc.devRef .tc main_v40)) := W5_v67 m ρ c
theorem W5_v69 (c : Dev nD) : W5 m ρ c (Proc.devRef .tc main_v69) = kG0 (W4 m ρ c (Proc.devRef .tc main_v41)) :=
  by
  show StableHlo.after hostOps2 (W4 m ρ c) (Proc.devRef .tc main_v69) = _
  after_results_simp
  try rfl
theorem W5_v69' (c : Dev nD) : W5 m ρ c (no_index (Proc.devRef .tc main_v69)) = kG0 (W4 m ρ c (Proc.devRef .tc main_v41)) := W5_v69 m ρ c
theorem W6_v70_0 (c : Dev nD) : W6 m ρ c (Proc.devRef .tc main_v70_0) = sumRowOf (W5 m ρ c (Proc.devRef .tc main_v65)) :=
  (W6_arr m ρ c 1).trans (bnr2_final1 (V5 m ρ) c)
theorem W6_v70_0' (c : Dev nD) : W6 m ρ c (no_index (Proc.devRef .tc main_v70_0)) = sumRowOf (W5 m ρ c (Proc.devRef .tc main_v65)) := W6_v70_0 m ρ c
theorem W6_v70_1 (c : Dev nD) : W6 m ρ c (Proc.devRef .tc main_v70_1) = sqRowOf (W5 m ρ c (Proc.devRef .tc main_v65)) :=
  (W6_arr m ρ c 2).trans (bnr2_final2 (V5 m ρ) c)
theorem W6_v70_1' (c : Dev nD) : W6 m ρ c (no_index (Proc.devRef .tc main_v70_1)) = sqRowOf (W5 m ρ c (Proc.devRef .tc main_v65)) := W6_v70_1 m ρ c
theorem W7_v71 (c : Dev nD) : W7 m ρ c (Proc.devRef .tc main_v71) = bnnOf (W6 m ρ c (Proc.devRef .tc main_v65)) (W6 m ρ c (Proc.devRef .tc main_v37)) (W6 m ρ c (Proc.devRef .tc main_v70_0)) (W6 m ρ c (Proc.devRef .tc main_v70_1)) (W6 m ρ c (Proc.devRef .tc main_v67)) (W6 m ρ c (Proc.devRef .tc main_v69)) :=
  (W7_arr m ρ c 6).trans (bnn3_final (V6 m ρ) c)
theorem W7_v71' (c : Dev nD) : W7 m ρ c (no_index (Proc.devRef .tc main_v71)) = bnnOf (W6 m ρ c (Proc.devRef .tc main_v65)) (W6 m ρ c (Proc.devRef .tc main_v37)) (W6 m ρ c (Proc.devRef .tc main_v70_0)) (W6 m ρ c (Proc.devRef .tc main_v70_1)) (W6 m ρ c (Proc.devRef .tc main_v67)) (W6 m ρ c (Proc.devRef .tc main_v69)) := W7_v71 m ρ c

end Cert.KernelIdeal.Gen

end
-- ==== Proof.BodyLayers.lean ====
/-
  The later layers' bodies are the first layer's, term for term: each region of a later layer runs the same kernel
  function on its own windows. So every fact about the first layer's payloads holds of theirs.
-/
import proofs.«111449_j80633716015168_2_alg».proof.Proof.BodyNodeTransform
import proofs.«111449_j80633716015168_2_alg».proof.Proof.BodyEdgeMessage
import proofs.«111449_j80633716015168_2_alg».proof.Proof.BodyBatchNorm

noncomputable section

namespace Cert.KernelIdeal.Bodies

open Idealize.ShloMosaic Idealize.ShloMosaic.ValueIdx Cert.KernelIdeal Cert.KernelIdeal.Gen

theorem nodeTransform_at4 (x0 : FVec Ideal S10000x64 .f32) (x1 : FVec Ideal S64x192 .f32) (p : Fin 10000) (q : Fin 192) :
    k4_pay1 (F := Ideal) x0 x1 (ix2 p q) = ∑ k : Fin 64, x0 (ix2 p k) * x1 (ix2 k q) := nodeTransform_at x0 x1 p q
theorem edgeMessage_at5 (x0 : Vec Ideal S2000x2 .f32) (A : Vec Ideal S2x2 .f32) (b : Vec Ideal S1x2 .f32)
    (mu sg : Vec Ideal S3x2 .f32) (hk : Vec Ideal S2000x3x64 .bf16) (e : Fin 2000) (k : Fin 3) (o : Fin 64) :
    k5_pay1 (F := Ideal) x0 A b mu sg hk (ix3 e k o)
      = hk (ix3 e k o) * Cert.Spec.gaussW (fun j => x0 (ix2 e j)) (fun d j => A (ix2 d j)) (fun d => b (ix2 (0 : Fin 1) d))
          (fun k d => mu (ix2 k d)) (fun k d => sg (ix2 k d)) k := edgeMessage_at x0 A b mu sg hk e k o
theorem bnZero_at6 (j : Fin 64) : k6_pay1 (F := Ideal) (ix2 (0 : Fin 1) j) = Ideal.ofBits .f32 0x00000000#32 := rfl
theorem bnZero'_at6 (j : Fin 64) : k6_pay2 (F := Ideal) (ix2 (0 : Fin 1) j) = Ideal.ofBits .f32 0x00000000#32 := rfl
theorem bnSum_at6 (x : Vec Ideal S5000x64 .f32) (s : Vec Ideal S1x64 .f32) (j : Fin 64) :
    k6_pay4 (F := Ideal) x s (ix2 (0 : Fin 1) j) = s (ix2 (0 : Fin 1) j) + ∑ r : Fin 5000, x (ix2 r j) := bnSum_at x s j
theorem bnSumSq_at6 (x : Vec Ideal S5000x64 .f32) (q : Vec Ideal S1x64 .f32) (j : Fin 64) :
    k6_pay5 (F := Ideal) x q (ix2 (0 : Fin 1) j) = q (ix2 (0 : Fin 1) j) + ∑ r : Fin 5000, x (ix2 r j) * x (ix2 r j) := bnSumSq_at x q j
theorem bnNormalize_at7 (s q : Vec Ideal S1x64 .f32) (agg : Vec Ideal S5000x64 .f32) (g b : Vec Ideal S1x64 .f32) (hin : Vec Ideal S5000x64 .f32)
    (r : Fin 5000) (j : Fin 64) :
    k7_pay1 (F := Ideal) s q agg g b hin (ix2 r j)
      = bnEntry (s (ix2 (0 : Fin 1) j)) (q (ix2 (0 : Fin 1) j)) (g (ix2 (0 : Fin 1) j)) (b (ix2 (0 : Fin 1) j)) (agg (ix2 r j)) (hin (ix2 r j)) :=
  bnNormalize_at s q agg g b hin r j

theorem nodeTransform_at8 (x0 : FVec Ideal S10000x64 .f32) (x1 : FVec Ideal S64x192 .f32) (p : Fin 10000) (q : Fin 192) :
    k8_pay1 (F := Ideal) x0 x1 (ix2 p q) = ∑ k : Fin 64, x0 (ix2 p k) * x1 (ix2 k q) := nodeTransform_at x0 x1 p q
theorem edgeMessage_at9 (x0 : Vec Ideal S2000x2 .f32) (A : Vec Ideal S2x2 .f32) (b : Vec Ideal S1x2 .f32)
    (mu sg : Vec Ideal S3x2 .f32) (hk : Vec Ideal S2000x3x64 .bf16) (e : Fin 2000) (k : Fin 3) (o : Fin 64) :
    k9_pay1 (F := Ideal) x0 A b mu sg hk (ix3 e k o)
      = hk (ix3 e k o) * Cert.Spec.gaussW (fun j => x0 (ix2 e j)) (fun d j => A (ix2 d j)) (fun d => b (ix2 (0 : Fin 1) d))
          (fun k d => mu (ix2 k d)) (fun k d => sg (ix2 k d)) k := edgeMessage_at x0 A b mu sg hk e k o
theorem bnZero_at10 (j : Fin 64) : k10_pay1 (F := Ideal) (ix2 (0 : Fin 1) j) = Ideal.ofBits .f32 0x00000000#32 := rfl
theorem bnZero'_at10 (j : Fin 64) : k10_pay2 (F := Ideal) (ix2 (0 : Fin 1) j) = Ideal.ofBits .f32 0x00000000#32 := rfl
theorem bnSum_at10 (x : Vec Ideal S5000x64 .f32) (s : Vec Ideal S1x64 .f32) (j : Fin 64) :
    k10_pay4 (F := Ideal) x s (ix2 (0 : Fin 1) j) = s (ix2 (0 : Fin 1) j) + ∑ r : Fin 5000, x (ix2 r j) := bnSum_at x s j
theorem bnSumSq_at10 (x : Vec Ideal S5000x64 .f32) (q : Vec Ideal S1x64 .f32) (j : Fin 64) :
    k10_pay5 (F := Ideal) x q (ix2 (0 : Fin 1) j) = q (ix2 (0 : Fin 1) j) + ∑ r : Fin 5000, x (ix2 r j) * x (ix2 r j) := bnSumSq_at x q j
theorem bnNormalize_at11 (s q : Vec Ideal S1x64 .f32) (agg : Vec Ideal S5000x64 .f32) (g b : Vec Ideal S1x64 .f32) (hin : Vec Ideal S5000x64 .f32)
    (r : Fin 5000) (j : Fin 64) :
    k11_pay1 (F := Ideal) s q agg g b hin (ix2 r j)
      = bnEntry (s (ix2 (0 : Fin 1) j)) (q (ix2 (0 : Fin 1) j)) (g (ix2 (0 : Fin 1) j)) (b (ix2 (0 : Fin 1) j)) (agg (ix2 r j)) (hin (ix2 r j)) :=
  bnNormalize_at s q agg g b hin r j

theorem nodeTransform_at12 (x0 : FVec Ideal S10000x64 .f32) (x1 : FVec Ideal S64x192 .f32) (p : Fin 10000) (q : Fin 192) :
    k12_pay1 (F := Ideal) x0 x1 (ix2 p q) = ∑ k : Fin 64, x0 (ix2 p k) * x1 (ix2 k q) := nodeTransform_at x0 x1 p q
theorem edgeMessage_at13 (x0 : Vec Ideal S2000x2 .f32) (A : Vec Ideal S2x2 .f32) (b : Vec Ideal S1x2 .f32)
    (mu sg : Vec Ideal S3x2 .f32) (hk : Vec Ideal S2000x3x64 .bf16) (e : Fin 2000) (k : Fin 3) (o : Fin 64) :
    k13_pay1 (F := Ideal) x0 A b mu sg hk (ix3 e k o)
      = hk (ix3 e k o) * Cert.Spec.gaussW (fun j => x0 (ix2 e j)) (fun d j => A (ix2 d j)) (fun d => b (ix2 (0 : Fin 1) d))
          (fun k d => mu (ix2 k d)) (fun k d => sg (ix2 k d)) k := edgeMessage_at x0 A b mu sg hk e k o
theorem bnZero_at14 (j : Fin 64) : k14_pay1 (F := Ideal) (ix2 (0 : Fin 1) j) = Ideal.ofBits .f32 0x00000000#32 := rfl
theorem bnZero'_at14 (j : Fin 64) : k14_pay2 (F := Ideal) (ix2 (0 : Fin 1) j) = Ideal.ofBits .f32 0x00000000#32 := rfl
theorem bnSum_at14 (x : Vec Ideal S5000x64 .f32) (s : Vec Ideal S1x64 .f32) (j : Fin 64) :
    k14_pay4 (F := Ideal) x s (ix2 (0 : Fin 1) j) = s (ix2 (0 : Fin 1) j) + ∑ r : Fin 5000, x (ix2 r j) := bnSum_at x s j
theorem bnSumSq_at14 (x : Vec Ideal S5000x64 .f32) (q : Vec Ideal S1x64 .f32) (j : Fin 64) :
    k14_pay5 (F := Ideal) x q (ix2 (0 : Fin 1) j) = q (ix2 (0 : Fin 1) j) + ∑ r : Fin 5000, x (ix2 r j) * x (ix2 r j) := bnSumSq_at x q j
theorem bnNormalize_at15 (s q : Vec Ideal S1x64 .f32) (agg : Vec Ideal S5000x64 .f32) (g b : Vec Ideal S1x64 .f32) (hin : Vec Ideal S5000x64 .f32)
    (r : Fin 5000) (j : Fin 64) :
    k15_pay1 (F := Ideal) s q agg g b hin (ix2 r j)
      = bnEntry (s (ix2 (0 : Fin 1) j)) (q (ix2 (0 : Fin 1) j)) (g (ix2 (0 : Fin 1) j)) (b (ix2 (0 : Fin 1) j)) (agg (ix2 r j)) (hin (ix2 r j)) :=
  bnNormalize_at s q agg g b hin r j

end Cert.KernelIdeal.Bodies

end
-- ==== Proof.ValNodeTransform1.lean ====
/-
  What the node-transform region leaves in its output array. The grid has 5 points; point t takes rows
  10000·t … 10000·t + 9999 of the node features h (50000 × 64) and the whole weight matrix W (64 × 192), and writes
  the same rows of the output. Every row is in exactly one block, so the output array ends as the whole product:
  at (i, q) the sum over k of h(i, k) · W(k, q).
-/
import proofs.«111449_j80633716015168_2_alg».proof.Proof.Gen.KernelIdeal.Frame
import proofs.«111449_j80633716015168_2_alg».proof.Proof.ValNodeTransform
import proofs.«111449_j80633716015168_2_alg».proof.Proof.BodyLayers

set_option maxRecDepth 16384

noncomputable section

namespace Cert.KernelIdeal.Vals

open Idealize.ShloMosaic Idealize.ShloMosaic.TcCoe Idealize.ShloMosaic.ValueIdx
open Idealize.ShloMosaic.Pipeline (Dat)
open Cert.KernelIdeal Cert.KernelIdeal.Gen Cert.KernelIdeal.Bodies

section Region4
variable (V : (c : Dev nD) → (b : Ref sig .tc) → Buf (Elt Ideal) ((c : Thread nD τ).loc b))

/-- The index maps of region 0 over its grid: the feature and output windows move with the point along the rows, the
    weight window stays. -/
theorem nt4_idx : ∀ t : Fin cfg4.N, win4_0.index t (0 : Fin 2) = t.val ∧ win4_0.index t (1 : Fin 2) = 0
    ∧ win4_1.index t (0 : Fin 2) = 0 ∧ win4_1.index t (1 : Fin 2) = 0
    ∧ win4_2.index t (0 : Fin 2) = t.val ∧ win4_2.index t (1 : Fin 2) = 0 :=
  (by decide +kernel : ∀ t : Fin grid4.N, _)

/-- Row p of point t's block is row 10000·t + p of the array. -/
def nt4_row (t : Fin cfg4.N) (p : Fin 10000) : Fin 50000 :=
  ⟨10000 * t.val + p.val, by have ht : t.val < 5 := t.isLt; have := p.isLt; omega⟩

theorem nt4_emb0 (t : Fin cfg4.N) (p : Fin 10000) (k : Fin 64) :
    ((cfg4.win 0).blk t).view.emb (ix2 p k) = ix2 (nt4_row t p) k := by
  obtain ⟨e0, e1, e2, e3, e4, e5⟩ := nt4_idx t
  funext a; apply Fin.ext
  match a with
  | ⟨0, _⟩ => show win4_0.index t (0 : Fin 2) * 10000 + 1 * p.val = 10000 * t.val + p.val; omega
  | ⟨1, _⟩ => show win4_0.index t (1 : Fin 2) * 64 + 1 * k.val = k.val; omega

theorem nt4_emb1 (t : Fin cfg4.N) (k : Fin 64) (q : Fin 192) :
    ((cfg4.win 1).blk t).view.emb (ix2 k q) = ix2 k q := by
  obtain ⟨e0, e1, e2, e3, e4, e5⟩ := nt4_idx t
  funext a; apply Fin.ext
  match a with
  | ⟨0, _⟩ => show win4_1.index t (0 : Fin 2) * 64 + 1 * k.val = k.val; omega
  | ⟨1, _⟩ => show win4_1.index t (1 : Fin 2) * 192 + 1 * q.val = q.val; omega

theorem nt4_emb2 (t : Fin cfg4.N) (p : Fin 10000) (q : Fin 192) :
    ((cfg4.win 2).blk t).view.emb (ix2 p q) = ix2 (nt4_row t p) q := by
  obtain ⟨e0, e1, e2, e3, e4, e5⟩ := nt4_idx t
  funext a; apply Fin.ext
  match a with
  | ⟨0, _⟩ => show win4_2.index t (0 : Fin 2) * 10000 + 1 * p.val = 10000 * t.val + p.val; omega
  | ⟨1, _⟩ => show win4_2.index t (1 : Fin 2) * 192 + 1 * q.val = q.val; omega

/-- The feature block read at (p, k). -/
theorem nt4_read0 (c : Dev nD) (t : Fin cfg4.N) (p : Fin 10000) (k : Fin 64) :
    iblk4 V c 0 t (ix2 p k) = V c main_v71 (ix2 (nt4_row t p) k) :=
  congrArg (V c main_v71) (nt4_emb0 t p k)

/-- The weight block read at (k, q): the whole matrix. -/
theorem nt4_read1 (c : Dev nD) (t : Fin cfg4.N) (k : Fin 64) (q : Fin 192) :
    iblk4 V c 1 t (ix2 k q) = V c main_v73 (ix2 k q) :=
  congrArg (V c main_v73) (nt4_emb1 t k q)

/-- The block product at (p, q) is the whole product at row 10000·t + p. -/
theorem nt4_point (c : Dev nD) (t : Fin cfg4.N) (p : Fin 10000) (q : Fin 192) :
    k4_pay1 (F := Ideal) (iblk4 V c 0 t) (iblk4 V c 1 t) (ix2 p q) = hkOf (V c main_v71) (V c main_v73) (ix2 (nt4_row t p) q) := by
  refine ((nodeTransform_at4 (iblk4 V c 0 t) (iblk4 V c 1 t) p q).trans ?_).trans
    (hkOf_apply (V c main_v71) (V c main_v73) (nt4_row t p) q).symm
  refine Finset.sum_congr rfl fun k _ => ?_
  rw [nt4_read0 V c t p k, nt4_read1 V c t k q]

/-- What point t writes back is block t of the whole product. -/
theorem nt4_flushed (c : Dev nD) (t : Fin cfg4.N) :
    (dat4 V c).flushed 2 t = ((cfg4.win 2).blk t).view.read (Elt Ideal) (hkOf (V c main_v71) (V c main_v73)) := by
  show (cfg4.win 2).cut (grid4.coords t) ((dat4 V c).after 2 t) = _
  rw [after4_2]
  unfold out4_2
  rw [View.canon_unit_zero zeroOff2]
  simp only [View.ld_unit_zero (S := S10000x64) zeroOff2, View.ld_unit_zero (S := S64x192) zeroOff2]
  funext j
  obtain ⟨p, q, rfl⟩ : ∃ (p : Fin 10000) (q : Fin 192), j = ix2 p q := ⟨j 0, j 1, eq_ix2 j⟩
  refine (nt4_point V c t p q).trans ?_
  show _ = hkOf (V c main_v71) (V c main_v73) (((cfg4.win 2).blk t).view.emb (ix2 p q))
  rw [nt4_emb2 t p q]

/-- An index of the output array is in point t's block iff each coordinate is in the block's range. -/
theorem nt4_mem (t : Fin cfg4.N) (i : S50000x192.Idx) :
    i ∈ ((cfg4.win 2).blk t).view.set ↔ ∀ a : Fin 2, win4_2.index t a * S10000x192.size a ≤ (i a).val ∧ (i a).val < win4_2.index t a * S10000x192.size a + S10000x192.size a := by
  show i ∈ ((View.whole main_v74).slice (win4_2.rect t)).set ↔ _
  rw [View.set_slice_whole, Rect.mem_set_unit]
  exact Iff.rfl

/-- Every row of the output is in the block of the point its row number divided by 10000 names. -/
theorem nt4_cover (i : S50000x192.Idx) :
    ∃ t : Fin cfg4.N, (cfg4.win 2).flush t = true ∧ i ∈ ((cfg4.win 2).blk t).view.set := by
  have hi0 : (i 0).val < 50000 := (i 0).isLt
  have hi1 : (i 1).val < 192 := (i 1).isLt
  refine ⟨⟨(i 0).val / 10000, by show _ < 5; omega⟩, flush4_2 _, ?_⟩
  rw [nt4_mem]
  obtain ⟨e0, e1, e2, e3, e4, e5⟩ := nt4_idx ⟨(i 0).val / 10000, by show _ < 5; omega⟩
  intro a
  match a with
  | ⟨0, _⟩ => show win4_2.index _ (0 : Fin 2) * 10000 ≤ (i 0).val ∧ (i 0).val < win4_2.index _ (0 : Fin 2) * 10000 + 10000; rw [e4]; show (i 0).val / 10000 * 10000 ≤ _ ∧ _ < (i 0).val / 10000 * 10000 + 10000; omega
  | ⟨1, _⟩ => show win4_2.index _ (1 : Fin 2) * 192 ≤ (i 1).val ∧ (i 1).val < win4_2.index _ (1 : Fin 2) * 192 + 192; rw [e5]; omega

/-- The output array of region 0 after the region: the whole product of the arrays it found. -/
theorem nt4_final (c : Dev nD) : (dat4 V c).arrAt 2 cfg4.N = hkOf (V c main_v71) (V c main_v73) :=
  (dat4 V c).arrAt_eq_of_cover 2 (hkOf (V c main_v71) (V c main_v73)) (fun t _ => nt4_flushed V c t) nt4_cover

end Region4

end Cert.KernelIdeal.Vals

end
-- ==== Proof.ValEdgeMessage1.lean ====
/-
  What the edge-message region leaves in its output array. The grid has 400 points; point t takes edges
  2000·t … 2000·t + 1999 of the pseudo-coordinates (800000 × 2) and of the gathered node features (800000 × 3 × 64),
  the layer's 2 × 2 projection matrix, its bias row, and the 3 × 2 means and inverse widths whole, and writes the same
  edges of the message array. Every edge is in exactly one block, so the message array ends, at (e, k, o), as the
  gathered feature times the Gaussian weight of component k for edge e.
-/
import proofs.«111449_j80633716015168_2_alg».proof.Proof.Gen.KernelIdeal.Frame
import proofs.«111449_j80633716015168_2_alg».proof.Proof.ValEdgeMessage
import proofs.«111449_j80633716015168_2_alg».proof.Proof.BodyLayers

set_option maxRecDepth 16384

noncomputable section

namespace Cert.KernelIdeal.Vals

open Idealize.ShloMosaic Idealize.ShloMosaic.TcCoe Idealize.ShloMosaic.ValueIdx
open Idealize.ShloMosaic.Pipeline (Dat)
open Cert.KernelIdeal Cert.KernelIdeal.Gen Cert.KernelIdeal.Bodies

section Region5
variable (V : (c : Dev nD) → (b : Ref sig .tc) → Buf (Elt Ideal) ((c : Thread nD τ).loc b))

/-- The index maps of region 1 over its grid: the edge windows move with the point along the edges, the parameter
    windows stay. -/
theorem em5_idx : ∀ t : Fin cfg5.N, win5_0.index t (0 : Fin 2) = t.val ∧ win5_0.index t (1 : Fin 2) = 0
    ∧ win5_1.index t (0 : Fin 3) = t.val ∧ win5_1.index t (1 : Fin 3) = 0 ∧ win5_1.index t (2 : Fin 3) = 0
    ∧ win5_2.index t (0 : Fin 2) = 0 ∧ win5_2.index t (1 : Fin 2) = 0
    ∧ win5_3.index t (0 : Fin 2) = 0 ∧ win5_3.index t (1 : Fin 2) = 0
    ∧ win5_4.index t (0 : Fin 2) = 0 ∧ win5_4.index t (1 : Fin 2) = 0
    ∧ win5_5.index t (0 : Fin 2) = 0 ∧ win5_5.index t (1 : Fin 2) = 0
    ∧ win5_6.index t (0 : Fin 3) = t.val ∧ win5_6.index t (1 : Fin 3) = 0 ∧ win5_6.index t (2 : Fin 3) = 0 :=
  (by decide +kernel : ∀ t : Fin grid5.N, _)

/-- Edge e of point t's block is edge 2000·t + e of the arrays. -/
def em5_row (t : Fin cfg5.N) (e : Fin 2000) : Fin 800000 :=
  ⟨2000 * t.val + e.val, by have ht : t.val < 400 := t.isLt; have := e.isLt; omega⟩

theorem em5_emb0 (t : Fin cfg5.N) (e : Fin 2000) (j : Fin 2) :
    ((cfg5.win 0).blk t).view.emb (ix2 e j) = ix2 (em5_row t e) j := by
  obtain ⟨a0, a1, b0, b1, b2, c0, c1, d0, d1, e0, e1, f0, f1, g0, g1, g2⟩ := em5_idx t
  funext a; apply Fin.ext
  match a with
  | ⟨0, _⟩ => show win5_0.index t (0 : Fin 2) * 2000 + 1 * e.val = 2000 * t.val + e.val; omega
  | ⟨1, _⟩ => show win5_0.index t (1 : Fin 2) * 2 + 1 * j.val = j.val; omega

theorem em5_emb1 (t : Fin cfg5.N) (e : Fin 2000) (k : Fin 3) (o : Fin 64) :
    ((cfg5.win 1).blk t).view.emb (ix3 e k o) = ix3 (em5_row t e) k o := by
  obtain ⟨a0, a1, b0, b1, b2, c0, c1, d0, d1, e0, e1, f0, f1, g0, g1, g2⟩ := em5_idx t
  funext a; apply Fin.ext
  match a with
  | ⟨0, _⟩ => show win5_1.index t (0 : Fin 3) * 2000 + 1 * e.val = 2000 * t.val + e.val; omega
  | ⟨1, _⟩ => show win5_1.index t (1 : Fin 3) * 3 + 1 * k.val = k.val; omega
  | ⟨2, _⟩ => show win5_1.index t (2 : Fin 3) * 64 + 1 * o.val = o.val; omega

theorem em5_emb2 (t : Fin cfg5.N) (d j : Fin 2) : ((cfg5.win 2).blk t).view.emb (ix2 d j) = ix2 d j := by
  obtain ⟨a0, a1, b0, b1, b2, c0, c1, d0, d1, e0, e1, f0, f1, g0, g1, g2⟩ := em5_idx t
  funext a; apply Fin.ext
  match a with
  | ⟨0, _⟩ => show win5_2.index t (0 : Fin 2) * 2 + 1 * d.val = d.val; omega
  | ⟨1, _⟩ => show win5_2.index t (1 : Fin 2) * 2 + 1 * j.val = j.val; omega

theorem em5_emb3 (t : Fin cfg5.N) (d : Fin 2) : ((cfg5.win 3).blk t).view.emb (ix2 (0 : Fin 1) d) = ix2 (0 : Fin 1) d := by
  obtain ⟨a0, a1, b0, b1, b2, c0, c1, d0, d1, e0, e1, f0, f1, g0, g1, g2⟩ := em5_idx t
  funext a; apply Fin.ext
  match a with
  | ⟨0, _⟩ => show win5_3.index t (0 : Fin 2) * 1 + 1 * 0 = 0; omega
  | ⟨1, _⟩ => show win5_3.index t (1 : Fin 2) * 2 + 1 * d.val = d.val; omega

theorem em5_emb4 (t : Fin cfg5.N) (k : Fin 3) (d : Fin 2) : ((cfg5.win 4).blk t).view.emb (ix2 k d) = ix2 k d := by
  obtain ⟨a0, a1, b0, b1, b2, c0, c1, d0, d1, e0, e1, f0, f1, g0, g1, g2⟩ := em5_idx t
  funext a; apply Fin.ext
  match a with
  | ⟨0, _⟩ => show win5_4.index t (0 : Fin 2) * 3 + 1 * k.val = k.val; omega
  | ⟨1, _⟩ => show win5_4.index t (1 : Fin 2) * 2 + 1 * d.val = d.val; omega

theorem em5_emb5 (t : Fin cfg5.N) (k : Fin 3) (d : Fin 2) : ((cfg5.win 5).blk t).view.emb (ix2 k d) = ix2 k d := by
  obtain ⟨a0, a1, b0, b1, b2, c0, c1, d0, d1, e0, e1, f0, f1, g0, g1, g2⟩ := em5_idx t
  funext a; apply Fin.ext
  match a with
  | ⟨0, _⟩ => show win5_5.index t (0 : Fin 2) * 3 + 1 * k.val = k.val; omega
  | ⟨1, _⟩ => show win5_5.index t (1 : Fin 2) * 2 + 1 * d.val = d.val; omega

theorem em5_emb6 (t : Fin cfg5.N) (e : Fin 2000) (k : Fin 3) (o : Fin 64) :
    ((cfg5.win 6).blk t).view.emb (ix3 e k o) = ix3 (em5_row t e) k o := by
  obtain ⟨a0, a1, b0, b1, b2, c0, c1, d0, d1, e0, e1, f0, f1, g0, g1, g2⟩ := em5_idx t
  funext a; apply Fin.ext
  match a with
  | ⟨0, _⟩ => show win5_6.index t (0 : Fin 3) * 2000 + 1 * e.val = 2000 * t.val + e.val; omega
  | ⟨1, _⟩ => show win5_6.index t (1 : Fin 3) * 3 + 1 * k.val = k.val; omega
  | ⟨2, _⟩ => show win5_6.index t (2 : Fin 3) * 64 + 1 * o.val = o.val; omega

theorem em5_read0 (c : Dev nD) (t : Fin cfg5.N) (e : Fin 2000) (j : Fin 2) :
    iblk5 V c 0 t (ix2 e j) = V c main_v30 (ix2 (em5_row t e) j) := congrArg (V c main_v30) (em5_emb0 t e j)
theorem em5_read1 (c : Dev nD) (t : Fin cfg5.N) (e : Fin 2000) (k : Fin 3) (o : Fin 64) :
    iblk5 V c 1 t (ix3 e k o) = V c main_v82 (ix3 (em5_row t e) k o) := congrArg (V c main_v82) (em5_emb1 t e k o)
theorem em5_read2 (c : Dev nD) (t : Fin cfg5.N) (d j : Fin 2) :
    iblk5 V c 2 t (ix2 d j) = V c main_v84 (ix2 d j) := congrArg (V c main_v84) (em5_emb2 t d j)
theorem em5_read3 (c : Dev nD) (t : Fin cfg5.N) (d : Fin 2) :
    iblk5 V c 3 t (ix2 (0 : Fin 1) d) = V c main_v86 (ix2 (0 : Fin 1) d) := congrArg (V c main_v86) (em5_emb3 t d)
theorem em5_read4 (c : Dev nD) (t : Fin cfg5.N) (k : Fin 3) (d : Fin 2) :
    iblk5 V c 4 t (ix2 k d) = V c main_v88 (ix2 k d) := congrArg (V c main_v88) (em5_emb4 t k d)
theorem em5_read5 (c : Dev nD) (t : Fin cfg5.N) (k : Fin 3) (d : Fin 2) :
    iblk5 V c 5 t (ix2 k d) = V c main_v90 (ix2 k d) := congrArg (V c main_v90) (em5_emb5 t k d)

/-- The block's message at (e, k, o) is the message array's at edge 2000·t + e. -/
theorem em5_point (c : Dev nD) (t : Fin cfg5.N) (e : Fin 2000) (k : Fin 3) (o : Fin 64) :
    k5_pay1 (F := Ideal) (iblk5 V c 0 t) (iblk5 V c 2 t) (iblk5 V c 3 t) (iblk5 V c 4 t) (iblk5 V c 5 t) (iblk5 V c 1 t) (ix3 e k o)
      = msgOf (V c main_v30) (V c main_v82) (V c main_v84) (V c main_v86) (V c main_v88) (V c main_v90) (ix3 (em5_row t e) k o) := by
  refine ((edgeMessage_at5 (iblk5 V c 0 t) (iblk5 V c 2 t) (iblk5 V c 3 t) (iblk5 V c 4 t) (iblk5 V c 5 t) (iblk5 V c 1 t) e k o).trans ?_).trans
    (msgOf_apply (V c main_v30) (V c main_v82) (V c main_v84) (V c main_v86) (V c main_v88) (V c main_v90) (em5_row t e) k o).symm
  have f0 : (fun j : Fin 2 => iblk5 V c 0 t (ix2 e j)) = fun j => V c main_v30 (ix2 (em5_row t e) j) := funext fun j => em5_read0 V c t e j
  have f2 : (fun d j : Fin 2 => iblk5 V c 2 t (ix2 d j)) = fun d j => V c main_v84 (ix2 d j) := funext fun d => funext fun j => em5_read2 V c t d j
  have f3 : (fun d : Fin 2 => iblk5 V c 3 t (ix2 (0 : Fin 1) d)) = fun d => V c main_v86 (ix2 (0 : Fin 1) d) := funext fun d => em5_read3 V c t d
  have f4 : (fun (kk : Fin 3) (d : Fin 2) => iblk5 V c 4 t (ix2 kk d)) = fun kk d => V c main_v88 (ix2 kk d) := funext fun kk => funext fun d => em5_read4 V c t kk d
  have f5 : (fun (kk : Fin 3) (d : Fin 2) => iblk5 V c 5 t (ix2 kk d)) = fun kk d => V c main_v90 (ix2 kk d) := funext fun kk => funext fun d => em5_read5 V c t kk d
  rw [em5_read1 V c t e k o, f0, f2, f3, f4, f5]

/-- What point t writes back is block t of the message array. -/
theorem em5_flushed (c : Dev nD) (t : Fin cfg5.N) :
    (dat5 V c).flushed 6 t = ((cfg5.win 6).blk t).view.read (Elt Ideal)
      (msgOf (V c main_v30) (V c main_v82) (V c main_v84) (V c main_v86) (V c main_v88) (V c main_v90)) := by
  show (cfg5.win 6).cut (grid5.coords t) ((dat5 V c).after 6 t) = _
  rw [after5_6]
  unfold out5_6
  rw [View.canon_unit_zero zeroOffs3]
  simp only [View.ld_unit_zero (S := S2000x2) zeroOffs2, View.ld_unit_zero (S := S2x2) zeroOffs2,
    View.ld_unit_zero (S := S1x2) zeroOffs2, View.ld_unit_zero (S := S3x2) zeroOffs2,
    View.ld_unit_zero (S := S2000x3x64) zeroOffs3]
  funext j
  obtain ⟨e, k, o, rfl⟩ : ∃ (e : Fin 2000) (k : Fin 3) (o : Fin 64), j = ix3 e k o := ⟨j 0, j 1, j 2, eq_ix3 j⟩
  refine (em5_point V c t e k o).trans ?_
  show _ = msgOf (V c main_v30) (V c main_v82) (V c main_v84) (V c main_v86) (V c main_v88) (V c main_v90) (((cfg5.win 6).blk t).view.emb (ix3 e k o))
  rw [em5_emb6 t e k o]

/-- An index of the message array is in point t's block iff each coordinate is in the block's range. -/
theorem em5_mem (t : Fin cfg5.N) (i : S800000x3x64.Idx) :
    i ∈ ((cfg5.win 6).blk t).view.set ↔ ∀ a : Fin 3, win5_6.index t a * S2000x3x64.size a ≤ (i a).val ∧ (i a).val < win5_6.index t a * S2000x3x64.size a + S2000x3x64.size a := by
  show i ∈ ((View.whole main_v91).slice (win5_6.rect t)).set ↔ _
  rw [View.set_slice_whole, Rect.mem_set_unit]
  exact Iff.rfl

/-- Every edge is in the block of the point its number divided by 2000 names. -/
theorem em5_cover (i : S800000x3x64.Idx) :
    ∃ t : Fin cfg5.N, (cfg5.win 6).flush t = true ∧ i ∈ ((cfg5.win 6).blk t).view.set := by
  have hi0 : (i 0).val < 800000 := (i 0).isLt
  have hi1 : (i 1).val < 3 := (i 1).isLt
  have hi2 : (i 2).val < 64 := (i 2).isLt
  refine ⟨⟨(i 0).val / 2000, by show _ < 400; omega⟩, flush5_6 _, ?_⟩
  rw [em5_mem]
  obtain ⟨a0, a1, b0, b1, b2, c0, c1, d0, d1, e0, e1, f0, f1, g0, g1, g2⟩ := em5_idx ⟨(i 0).val / 2000, by show _ < 400; omega⟩
  intro a
  match a with
  | ⟨0, _⟩ => show win5_6.index _ (0 : Fin 3) * 2000 ≤ (i 0).val ∧ (i 0).val < win5_6.index _ (0 : Fin 3) * 2000 + 2000; rw [g0]; show (i 0).val / 2000 * 2000 ≤ _ ∧ _ < (i 0).val / 2000 * 2000 + 2000; omega
  | ⟨1, _⟩ => show win5_6.index _ (1 : Fin 3) * 3 ≤ (i 1).val ∧ (i 1).val < win5_6.index _ (1 : Fin 3) * 3 + 3; rw [g1]; omega
  | ⟨2, _⟩ => show win5_6.index _ (2 : Fin 3) * 64 ≤ (i 2).val ∧ (i 2).val < win5_6.index _ (2 : Fin 3) * 64 + 64; rw [g2]; omega

/-- The message array of region 1 after the region. -/
theorem em5_final (c : Dev nD) : (dat5 V c).arrAt 6 cfg5.N
    = msgOf (V c main_v30) (V c main_v82) (V c main_v84) (V c main_v86) (V c main_v88) (V c main_v90) :=
  (dat5 V c).arrAt_eq_of_cover 6 _ (fun t _ => em5_flushed V c t) em5_cover

end Region5

end Cert.KernelIdeal.Vals

end
-- ==== Proof.ValBnReduce1.lean ====
/-
  What the reduce region leaves in its two output rows. The grid has 10 points; point t takes rows
  5000·t … 5000·t + 4999 of the aggregated features a (50000 × 64). The two outputs (1 × 64 each) stay in place over
  the whole grid: at point 0 they are set to zero and advanced by block 0's column sums and column sums of squares,
  at every later point they are advanced by that block's. After point n the first row holds, in column j,
  0 + Σ_{x < 5000·(n+1)} a(x, j), and the second the same sum of squares; both are written back once, after the last
  point, so the arrays end as 0 + Σ_{p < 50000} a(p, j) and 0 + Σ_{p < 50000} a(p, j)².
-/
import proofs.«111449_j80633716015168_2_alg».proof.Proof.Gen.KernelIdeal.Frame
import proofs.«111449_j80633716015168_2_alg».proof.Proof.ValBnReduce
import proofs.«111449_j80633716015168_2_alg».proof.Proof.BodyLayers

set_option maxRecDepth 16384

noncomputable section

namespace Cert.KernelIdeal.Vals

open Idealize.ShloMosaic Idealize.ShloMosaic.TcCoe Idealize.ShloMosaic.ValueIdx Idealize.ShloMosaic.Tactic
open Idealize.ShloMosaic.Pipeline (Dat)
open Cert.KernelIdeal Cert.KernelIdeal.Gen Cert.KernelIdeal.Bodies

/-! ## What each case of the body leaves in the two rows -/

section Pieces
variable {F : FTy → Type} [FloatOps F] [Named F]

/-- First point, first row: zero, then advanced by the block's column sums. -/
theorem sumRow_first6 (c : Dev nD) (i : grid6.Coords) (arg1 : Memref sig .tc .vmem S5000x64 .f32) (harg1 : arg1.IsWhole) (arg2 : Memref sig .tc .vmem S1x64 .f32) (harg2 : arg2.IsWhole) (arg3 : Memref sig .tc .vmem S1x64 .f32) (harg3 : arg3.IsWhole) (hc0 : cond6_0 i) (x0 : Vec F S5000x64 .f32) :
    out6_A_1 (F := F) c i arg1 harg1 arg2 harg2 arg3 harg3 hc0 x0 = k6_pay4 x0 k6_pay1 := by
  unfold out6_A_1
  rw [View.read_writes_eq_canon _ _ _ (cover6_A_1 c i arg1 harg1 arg2 harg2 arg3 harg3 hc0 x0)]
  unfold kernelRun6_A
  dsimp only
  sl_unfold_words
  rw [View.canon_cons_unit_zero zeroOffr2]
  simp only [View.readAt_eq_ld, harg1.read_unread, View.ld_unit_zero (S := S5000x64) zeroOffr2]
  rw [View.readCov_unit_zero (S := S1x64) arg2.view zeroOffr2]

/-- First point, second row: zero, then advanced by the block's column sums of squares. -/
theorem sqRow_first6 (c : Dev nD) (i : grid6.Coords) (arg1 : Memref sig .tc .vmem S5000x64 .f32) (harg1 : arg1.IsWhole) (arg2 : Memref sig .tc .vmem S1x64 .f32) (harg2 : arg2.IsWhole) (arg3 : Memref sig .tc .vmem S1x64 .f32) (harg3 : arg3.IsWhole) (hc0 : cond6_0 i) (x0 : Vec F S5000x64 .f32) :
    out6_A_2 (F := F) c i arg1 harg1 arg2 harg2 arg3 harg3 hc0 x0 = k6_pay5 x0 k6_pay2 := by
  unfold out6_A_2
  rw [View.read_writes_eq_canon _ _ _ (cover6_A_2 c i arg1 harg1 arg2 harg2 arg3 harg3 hc0 x0)]
  unfold kernelRun6_A
  dsimp only
  sl_unfold_words
  rw [View.canon_cons_unit_zero zeroOffr2]
  simp only [View.readAt_eq_ld, harg1.read_unread, View.ld_unit_zero (S := S5000x64) zeroOffr2]
  rw [View.readCov_unit_zero (S := S1x64) arg3.view zeroOffr2]

/-- A later point, first row: what the point before left, advanced by the block's column sums. -/
theorem sumRow_later6 (c : Dev nD) (i : grid6.Coords) (arg1 : Memref sig .tc .vmem S5000x64 .f32) (harg1 : arg1.IsWhole) (arg2 : Memref sig .tc .vmem S1x64 .f32) (harg2 : arg2.IsWhole) (arg3 : Memref sig .tc .vmem S1x64 .f32) (harg3 : arg3.IsWhole) (hc0 : ¬cond6_0 i)
    (x0 : Vec F S5000x64 .f32) (xo1 : Vec F S1x64 .f32) (xo2 : Vec F S1x64 .f32) :
    out6_B_1 (F := F) c i arg1 harg1 arg2 harg2 arg3 harg3 hc0 x0 xo1 xo2 = k6_pay4 x0 xo1 := by
  unfold out6_B_1
  rw [View.read_writes_eq_canon _ _ _ (cover6_B_1 c i arg1 harg1 arg2 harg2 arg3 harg3 hc0 x0 xo1 xo2)]
  unfold kernelRun6_B
  dsimp only
  sl_unfold_words
  rw [View.canon_unit_zero zeroOffr2]
  simp only [View.readAt_eq_ld, harg1.read_unread, harg2.read_unread, View.ld_unit_zero (S := S5000x64) zeroOffr2, View.ld_unit_zero (S := S1x64) zeroOffr2]

/-- A later point, second row: what the point before left, advanced by the block's column sums of squares. -/
theorem sqRow_later6 (c : Dev nD) (i : grid6.Coords) (arg1 : Memref sig .tc .vmem S5000x64 .f32) (harg1 : arg1.IsWhole) (arg2 : Memref sig .tc .vmem S1x64 .f32) (harg2 : arg2.IsWhole) (arg3 : Memref sig .tc .vmem S1x64 .f32) (harg3 : arg3.IsWhole) (hc0 : ¬cond6_0 i)
    (x0 : Vec F S5000x64 .f32) (xo1 : Vec F S1x64 .f32) (xo2 : Vec F S1x64 .f32) :
    out6_B_2 (F := F) c i arg1 harg1 arg2 harg2 arg3 harg3 hc0 x0 xo1 xo2 = k6_pay5 x0 xo2 := by
  unfold out6_B_2
  rw [View.read_writes_eq_canon _ _ _ (cover6_B_2 c i arg1 harg1 arg2 harg2 arg3 harg3 hc0 x0 xo1 xo2)]
  unfold kernelRun6_B
  dsimp only
  sl_unfold_words
  rw [View.canon_unit_zero zeroOffr2]
  simp only [View.readAt_eq_ld, harg1.read_unread, harg3.read_unread, View.ld_unit_zero (S := S5000x64) zeroOffr2, View.ld_unit_zero (S := S1x64) zeroOffr2]

end Pieces

section Region6
variable (V : (c : Dev nD) → (b : Ref sig .tc) → Buf (Elt Ideal) ((c : Thread nD τ).loc b))

/-- The index maps of region 2 over its grid: the input window moves with the point, the two rows stay. -/
theorem bnr6_idx : ∀ t : Fin cfg6.N, win6_0.index t (0 : Fin 2) = t.val ∧ win6_0.index t (1 : Fin 2) = 0
    ∧ win6_1.index t (0 : Fin 2) = 0 ∧ win6_1.index t (1 : Fin 2) = 0
    ∧ win6_2.index t (0 : Fin 2) = 0 ∧ win6_2.index t (1 : Fin 2) = 0 :=
  (by decide +kernel : ∀ t : Fin grid6.N, _)

/-- Point t's block of the aggregated array, as a 5000 × 64 array of extended reals. -/
abbrev blk6 (c : Dev nD) (t : Fin cfg6.N) : S5000x64.Idx → EReal := iblk6 V c 0 t

/-- Row r of point t's block is row 5000·t + r of the aggregated array. -/
theorem bnr6_block (c : Dev nD) (t : Fin cfg6.N) (r : Fin 5000) (j : Fin 64) :
    blk6 V c t (ix2 r j) = colN (V c main_v95) j (5000 * t.val + r.val) := by
  obtain ⟨e0, e1, e2, e3, e4, e5⟩ := bnr6_idx t
  have ht : t.val < 10 := t.isLt
  have hlt : 5000 * t.val + r.val < 50000 := by have := r.isLt; omega
  unfold colN
  rw [dif_pos hlt]
  show V c main_v95 (((cfg6.win 0).blk t).view.emb (ix2 r j)) = _
  refine congrArg (V c main_v95) ?_
  funext a; apply Fin.ext
  match a with
  | ⟨0, _⟩ => show win6_0.index t (0 : Fin 2) * 5000 + 1 * r.val = 5000 * t.val + r.val; omega
  | ⟨1, _⟩ => show win6_0.index t (1 : Fin 2) * 64 + 1 * j.val = j.val; omega

theorem bnr6_blockSum (c : Dev nD) (t : Fin cfg6.N) (j : Fin 64) :
    ∑ r : Fin 5000, blk6 V c t (ix2 r j) = ∑ x ∈ Finset.range 5000, colN (V c main_v95) j (5000 * t.val + x) := by
  rw [Finset.sum_range]
  exact Finset.sum_congr rfl fun r _ => bnr6_block V c t r j

theorem bnr6_blockSumSq (c : Dev nD) (t : Fin cfg6.N) (j : Fin 64) :
    ∑ r : Fin 5000, blk6 V c t (ix2 r j) * blk6 V c t (ix2 r j)
      = ∑ x ∈ Finset.range 5000, colN (V c main_v95) j (5000 * t.val + x) * colN (V c main_v95) j (5000 * t.val + x) := by
  rw [Finset.sum_range]
  exact Finset.sum_congr rfl fun r _ => by rw [bnr6_block V c t r j]

/-- At the first point the rows are the zeroed rows advanced by the block. -/
theorem bnr6_first1 (c : Dev nD) (t : Fin cfg6.N) (h0 : t.val % 10 = 0) :
    (outsAt6 V c t.val t.isLt).1 = k6_pay4 (F := Ideal) (blk6 V c t) (k6_pay1 (F := Ideal)) :=
  (congrArg Prod.fst (outsAt6_A V c t h0)).trans (sumRow_first6 (F := Ideal) c (grid6.coords t) (ms6_0 t) (hs6_0 t) (ms6_1 t) (hs6_1 t) (ms6_2 t) (hs6_2 t) ((hcond6_0 t).mpr h0) (iblk6 V c 0 t))

theorem bnr6_first2 (c : Dev nD) (t : Fin cfg6.N) (h0 : t.val % 10 = 0) :
    (outsAt6 V c t.val t.isLt).2 = k6_pay5 (F := Ideal) (blk6 V c t) (k6_pay2 (F := Ideal)) :=
  (congrArg Prod.snd (outsAt6_A V c t h0)).trans (sqRow_first6 (F := Ideal) c (grid6.coords t) (ms6_0 t) (hs6_0 t) (ms6_1 t) (hs6_1 t) (ms6_2 t) (hs6_2 t) ((hcond6_0 t).mpr h0) (iblk6 V c 0 t))

/-- At a later point the rows are what the point before left, advanced by the block. -/
theorem bnr6_later1 (c : Dev nD) (t : Fin cfg6.N) (h0 : ¬ t.val % 10 = 0) (hlt' : t.val - 1 < cfg6.N) :
    (outsAt6 V c t.val t.isLt).1 = k6_pay4 (blk6 V c t) (outsAt6 V c (t.val - 1) hlt').1 :=
  (congrArg Prod.fst (outsAt6_B V c t h0)).trans (sumRow_later6 (F := Ideal) c (grid6.coords t) (ms6_0 t) (hs6_0 t) (ms6_1 t) (hs6_1 t) (ms6_2 t) (hs6_2 t) (fun hh => h0 ((hcond6_0 t).mp hh)) (iblk6 V c 0 t) (outsAt6 V c (t.val - 1) hlt').1 (outsAt6 V c (t.val - 1) hlt').2)

theorem bnr6_later2 (c : Dev nD) (t : Fin cfg6.N) (h0 : ¬ t.val % 10 = 0) (hlt' : t.val - 1 < cfg6.N) :
    (outsAt6 V c t.val t.isLt).2 = k6_pay5 (blk6 V c t) (outsAt6 V c (t.val - 1) hlt').2 :=
  (congrArg Prod.snd (outsAt6_B V c t h0)).trans (sqRow_later6 (F := Ideal) c (grid6.coords t) (ms6_0 t) (hs6_0 t) (ms6_1 t) (hs6_1 t) (ms6_2 t) (hs6_2 t) (fun hh => h0 ((hcond6_0 t).mp hh)) (iblk6 V c 0 t) (outsAt6 V c (t.val - 1) hlt').1 (outsAt6 V c (t.val - 1) hlt').2)

/-- After point t the rows hold zero plus the sums over the first 5000·(t+1) rows. -/
theorem bnr6_acc (c : Dev nD) : ∀ (n : ℕ) (t : Fin cfg6.N), t.val = n → ∀ j : Fin 64,
    (outsAt6 V c t.val t.isLt).1 (ix2 (0 : Fin 1) j) = Cert.Spec.zeroW + ∑ x ∈ Finset.range (5000 * (t.val + 1)), colN (V c main_v95) j x
    ∧ (outsAt6 V c t.val t.isLt).2 (ix2 (0 : Fin 1) j)
        = Cert.Spec.zeroW + ∑ x ∈ Finset.range (5000 * (t.val + 1)), colN (V c main_v95) j x * colN (V c main_v95) j x := by
  intro n
  induction n with
  | zero =>
    intro t ht j
    have h0 : t.val % 10 = 0 := by omega
    refine ⟨?_, ?_⟩
    · rw [bnr6_first1 V c t h0]
      refine (bnSum_at6 (blk6 V c t) (k6_pay1 (F := Ideal)) j).trans ?_
      rw [bnZero_at6 j, bnr6_blockSum V c t j, ht]
      simp only [Nat.mul_zero, Nat.zero_add, Nat.mul_one]
    · rw [bnr6_first2 V c t h0]
      refine (bnSumSq_at6 (blk6 V c t) (k6_pay2 (F := Ideal)) j).trans ?_
      rw [bnZero'_at6 j, bnr6_blockSumSq V c t j, ht]
      simp only [Nat.mul_zero, Nat.zero_add, Nat.mul_one]
  | succ n ih =>
    intro t ht j
    have ht10 : t.val < 10 := t.isLt
    have h0 : ¬ t.val % 10 = 0 := by omega
    have hlt' : t.val - 1 < cfg6.N := Nat.lt_of_le_of_lt (Nat.sub_le _ _) t.isLt
    have hprev := ih ⟨t.val - 1, hlt'⟩ (by show t.val - 1 = n; omega) j
    have hsplit : 5000 * (t.val + 1) = 5000 * (t.val - 1 + 1) + 5000 := by omega
    have hoff : 5000 * (t.val - 1 + 1) = 5000 * t.val := by omega
    refine ⟨?_, ?_⟩
    · rw [bnr6_later1 V c t h0 hlt']
      refine (bnSum_at6 (blk6 V c t) (outsAt6 V c (t.val - 1) hlt').1 j).trans ?_
      rw [hprev.1, bnr6_blockSum V c t j, hsplit, Finset.sum_range_add, add_assoc, hoff]
    · rw [bnr6_later2 V c t h0 hlt']
      refine (bnSumSq_at6 (blk6 V c t) (outsAt6 V c (t.val - 1) hlt').2 j).trans ?_
      rw [hprev.2, bnr6_blockSumSq V c t j, hsplit, Finset.sum_range_add, add_assoc, hoff]

/-! ## The two arrays after the region -/

theorem bnr6_mem1 (t : Fin cfg6.N) (i : S1x64.Idx) :
    i ∈ ((cfg6.win 1).blk t).view.set ↔ ∀ a : Fin 2, win6_1.index t a * S1x64.size a ≤ (i a).val ∧ (i a).val < win6_1.index t a * S1x64.size a + S1x64.size a := by
  show i ∈ ((View.whole main_v100_0).slice (win6_1.rect t)).set ↔ _
  rw [View.set_slice_whole, Rect.mem_set_unit]
  exact Iff.rfl

theorem bnr6_mem2 (t : Fin cfg6.N) (i : S1x64.Idx) :
    i ∈ ((cfg6.win 2).blk t).view.set ↔ ∀ a : Fin 2, win6_2.index t a * S1x64.size a ≤ (i a).val ∧ (i a).val < win6_2.index t a * S1x64.size a + S1x64.size a := by
  show i ∈ ((View.whole main_v100_1).slice (win6_2.rect t)).set ↔ _
  rw [View.set_slice_whole, Rect.mem_set_unit]
  exact Iff.rfl

/-- What the last point writes back into the first row. -/
theorem bnr6_flushed1 (c : Dev nD) (t : Fin cfg6.N) (hf : (cfg6.win 1).flush t = true) :
    (dat6 V c).flushed 1 t = ((cfg6.win 1).blk t).view.read (Elt Ideal) (sumRowOf (V c main_v95)) := by
  have h9 : t.val % 10 = 9 := (flush6_1 t).mp hf
  have ht : t.val < 10 := t.isLt
  obtain ⟨e0, e1, e2, e3, e4, e5⟩ := bnr6_idx t
  show (cfg6.win 1).cut (grid6.coords t) ((dat6 V c).after 1 t) = _
  rw [after6_1]
  funext jx
  obtain ⟨u, j, rfl⟩ : ∃ (u : Fin 1) (j : Fin 64), jx = ix2 u j := ⟨jx 0, jx 1, eq_ix2 jx⟩
  have hu : u = 0 := Fin.ext (by omega)
  subst hu
  show (outsAt6 V c t.val t.isLt).1 (ix2 (0 : Fin 1) j) = sumRowOf (V c main_v95) (((cfg6.win 1).blk t).view.emb (ix2 (0 : Fin 1) j))
  rw [(bnr6_acc V c t.val t rfl j).1]
  have h50 : 5000 * (t.val + 1) = 50000 := by omega
  rw [h50, colN_sum]
  unfold sumRowOf
  have hj : (((cfg6.win 1).blk t).view.emb (ix2 (0 : Fin 1) j)) 1 = j := by
    apply Fin.ext
    show win6_1.index t (1 : Fin 2) * 64 + 1 * j.val = j.val; omega
  rw [hj]

/-- What the last point writes back into the second row. -/
theorem bnr6_flushed2 (c : Dev nD) (t : Fin cfg6.N) (hf : (cfg6.win 2).flush t = true) :
    (dat6 V c).flushed 2 t = ((cfg6.win 2).blk t).view.read (Elt Ideal) (sqRowOf (V c main_v95)) := by
  have h9 : t.val % 10 = 9 := (flush6_2 t).mp hf
  have ht : t.val < 10 := t.isLt
  obtain ⟨e0, e1, e2, e3, e4, e5⟩ := bnr6_idx t
  show (cfg6.win 2).cut (grid6.coords t) ((dat6 V c).after 2 t) = _
  rw [after6_2]
  funext jx
  obtain ⟨u, j, rfl⟩ : ∃ (u : Fin 1) (j : Fin 64), jx = ix2 u j := ⟨jx 0, jx 1, eq_ix2 jx⟩
  have hu : u = 0 := Fin.ext (by omega)
  subst hu
  show (outsAt6 V c t.val t.isLt).2 (ix2 (0 : Fin 1) j) = sqRowOf (V c main_v95) (((cfg6.win 2).blk t).view.emb (ix2 (0 : Fin 1) j))
  rw [(bnr6_acc V c t.val t rfl j).2]
  have h50 : 5000 * (t.val + 1) = 50000 := by omega
  rw [h50, colN_sumSq]
  unfold sqRowOf
  have hj : (((cfg6.win 2).blk t).view.emb (ix2 (0 : Fin 1) j)) 1 = j := by
    apply Fin.ext
    show win6_2.index t (1 : Fin 2) * 64 + 1 * j.val = j.val; omega
  rw [hj]

theorem bnr6_cover1 (i : S1x64.Idx) :
    ∃ t : Fin cfg6.N, (cfg6.win 1).flush t = true ∧ i ∈ ((cfg6.win 1).blk t).view.set := by
  have hi0 : (i 0).val < 1 := (i 0).isLt
  have hi1 : (i 1).val < 64 := (i 1).isLt
  refine ⟨⟨9, by decide⟩, (flush6_1 _).mpr (by decide), ?_⟩
  rw [bnr6_mem1]
  obtain ⟨e0, e1, e2, e3, e4, e5⟩ := bnr6_idx ⟨9, by decide⟩
  intro a
  match a with
  | ⟨0, _⟩ => show win6_1.index _ (0 : Fin 2) * 1 ≤ (i 0).val ∧ (i 0).val < win6_1.index _ (0 : Fin 2) * 1 + 1; rw [e2]; omega
  | ⟨1, _⟩ => show win6_1.index _ (1 : Fin 2) * 64 ≤ (i 1).val ∧ (i 1).val < win6_1.index _ (1 : Fin 2) * 64 + 64; rw [e3]; omega

theorem bnr6_cover2 (i : S1x64.Idx) :
    ∃ t : Fin cfg6.N, (cfg6.win 2).flush t = true ∧ i ∈ ((cfg6.win 2).blk t).view.set := by
  have hi0 : (i 0).val < 1 := (i 0).isLt
  have hi1 : (i 1).val < 64 := (i 1).isLt
  refine ⟨⟨9, by decide⟩, (flush6_2 _).mpr (by decide), ?_⟩
  rw [bnr6_mem2]
  obtain ⟨e0, e1, e2, e3, e4, e5⟩ := bnr6_idx ⟨9, by decide⟩
  intro a
  match a with
  | ⟨0, _⟩ => show win6_2.index _ (0 : Fin 2) * 1 ≤ (i 0).val ∧ (i 0).val < win6_2.index _ (0 : Fin 2) * 1 + 1; rw [e4]; omega
  | ⟨1, _⟩ => show win6_2.index _ (1 : Fin 2) * 64 ≤ (i 1).val ∧ (i 1).val < win6_2.index _ (1 : Fin 2) * 64 + 64; rw [e5]; omega

/-- The column sums after the region. -/
theorem bnr6_final1 (c : Dev nD) : (dat6 V c).arrAt 1 cfg6.N = sumRowOf (V c main_v95) :=
  (dat6 V c).arrAt_eq_of_cover 1 _ (fun t hf => bnr6_flushed1 V c t hf) bnr6_cover1

/-- The column sums of squares after the region. -/
theorem bnr6_final2 (c : Dev nD) : (dat6 V c).arrAt 2 cfg6.N = sqRowOf (V c main_v95) :=
  (dat6 V c).arrAt_eq_of_cover 2 _ (fun t hf => bnr6_flushed2 V c t hf) bnr6_cover2

end Region6

end Cert.KernelIdeal.Vals

end
-- ==== Proof.ValBnNormalize1.lean ====
/-
  What the normalize region leaves in its output array. The grid has 10 points; point t takes rows
  5000·t … 5000·t + 4999 of the aggregated features and of the layer's input (both 50000 × 64), and the four rows
  (column sums, column sums of squares, scale, shift; each 1 × 64) whole, and writes the same rows of the output.
  Every row is in exactly one block, so the output ends, at (i, j), as the entry computed from column j's sums.
-/
import proofs.«111449_j80633716015168_2_alg».proof.Proof.Gen.KernelIdeal.Frame
import proofs.«111449_j80633716015168_2_alg».proof.Proof.ValBnNormalize
import proofs.«111449_j80633716015168_2_alg».proof.Proof.BodyLayers

set_option maxRecDepth 16384

noncomputable section

namespace Cert.KernelIdeal.Vals

open Idealize.ShloMosaic Idealize.ShloMosaic.TcCoe Idealize.ShloMosaic.ValueIdx
open Idealize.ShloMosaic.Pipeline (Dat)
open Cert.KernelIdeal Cert.KernelIdeal.Gen Cert.KernelIdeal.Bodies

section Region7
variable (V : (c : Dev nD) → (b : Ref sig .tc) → Buf (Elt Ideal) ((c : Thread nD τ).loc b))

/-- The index maps of region 3 over its grid: the two row windows and the output move with the point, the four
    one-row windows stay. -/
theorem bnn7_idx : ∀ t : Fin cfg7.N, win7_0.index t (0 : Fin 2) = t.val ∧ win7_0.index t (1 : Fin 2) = 0
    ∧ win7_1.index t (0 : Fin 2) = t.val ∧ win7_1.index t (1 : Fin 2) = 0
    ∧ win7_2.index t (0 : Fin 2) = 0 ∧ win7_2.index t (1 : Fin 2) = 0
    ∧ win7_3.index t (0 : Fin 2) = 0 ∧ win7_3.index t (1 : Fin 2) = 0
    ∧ win7_4.index t (0 : Fin 2) = 0 ∧ win7_4.index t (1 : Fin 2) = 0
    ∧ win7_5.index t (0 : Fin 2) = 0 ∧ win7_5.index t (1 : Fin 2) = 0
    ∧ win7_6.index t (0 : Fin 2) = t.val ∧ win7_6.index t (1 : Fin 2) = 0 :=
  (by decide +kernel : ∀ t : Fin grid7.N, _)

/-- Row r of point t's block is row 5000·t + r of the arrays. -/
def bnn7_row (t : Fin cfg7.N) (r : Fin 5000) : Fin 50000 :=
  ⟨5000 * t.val + r.val, by have ht : t.val < 10 := t.isLt; have := r.isLt; omega⟩

theorem bnn7_emb0 (t : Fin cfg7.N) (r : Fin 5000) (j : Fin 64) : ((cfg7.win 0).blk t).view.emb (ix2 r j) = ix2 (bnn7_row t r) j := by
  obtain ⟨a0, a1, b0, b1, c0, c1, d0, d1, e0, e1, f0, f1, g0, g1⟩ := bnn7_idx t
  funext a; apply Fin.ext
  match a with
  | ⟨0, _⟩ => show win7_0.index t (0 : Fin 2) * 5000 + 1 * r.val = 5000 * t.val + r.val; omega
  | ⟨1, _⟩ => show win7_0.index t (1 : Fin 2) * 64 + 1 * j.val = j.val; omega
theorem bnn7_emb1 (t : Fin cfg7.N) (r : Fin 5000) (j : Fin 64) : ((cfg7.win 1).blk t).view.emb (ix2 r j) = ix2 (bnn7_row t r) j := by
  obtain ⟨a0, a1, b0, b1, c0, c1, d0, d1, e0, e1, f0, f1, g0, g1⟩ := bnn7_idx t
  funext a; apply Fin.ext
  match a with
  | ⟨0, _⟩ => show win7_1.index t (0 : Fin 2) * 5000 + 1 * r.val = 5000 * t.val + r.val; omega
  | ⟨1, _⟩ => show win7_1.index t (1 : Fin 2) * 64 + 1 * j.val = j.val; omega
theorem bnn7_emb2 (t : Fin cfg7.N) (j : Fin 64) : ((cfg7.win 2).blk t).view.emb (ix2 (0 : Fin 1) j) = ix2 (0 : Fin 1) j := by
  obtain ⟨a0, a1, b0, b1, c0, c1, d0, d1, e0, e1, f0, f1, g0, g1⟩ := bnn7_idx t
  funext a; apply Fin.ext
  match a with
  | ⟨0, _⟩ => show win7_2.index t (0 : Fin 2) * 1 + 1 * 0 = 0; omega
  | ⟨1, _⟩ => show win7_2.index t (1 : Fin 2) * 64 + 1 * j.val = j.val; omega
theorem bnn7_emb3 (t : Fin cfg7.N) (j : Fin 64) : ((cfg7.win 3).blk t).view.emb (ix2 (0 : Fin 1) j) = ix2 (0 : Fin 1) j := by
  obtain ⟨a0, a1, b0, b1, c0, c1, d0, d1, e0, e1, f0, f1, g0, g1⟩ := bnn7_idx t
  funext a; apply Fin.ext
  match a with
  | ⟨0, _⟩ => show win7_3.index t (0 : Fin 2) * 1 + 1 * 0 = 0; omega
  | ⟨1, _⟩ => show win7_3.index t (1 : Fin 2) * 64 + 1 * j.val = j.val; omega
theorem bnn7_emb4 (t : Fin cfg7.N) (j : Fin 64) : ((cfg7.win 4).blk t).view.emb (ix2 (0 : Fin 1) j) = ix2 (0 : Fin 1) j := by
  obtain ⟨a0, a1, b0, b1, c0, c1, d0, d1, e0, e1, f0, f1, g0, g1⟩ := bnn7_idx t
  funext a; apply Fin.ext
  match a with
  | ⟨0, _⟩ => show win7_4.index t (0 : Fin 2) * 1 + 1 * 0 = 0; omega
  | ⟨1, _⟩ => show win7_4.index t (1 : Fin 2) * 64 + 1 * j.val = j.val; omega
theorem bnn7_emb5 (t : Fin cfg7.N) (j : Fin 64) : ((cfg7.win 5).blk t).view.emb (ix2 (0 : Fin 1) j) = ix2 (0 : Fin 1) j := by
  obtain ⟨a0, a1, b0, b1, c0, c1, d0, d1, e0, e1, f0, f1, g0, g1⟩ := bnn7_idx t
  funext a; apply Fin.ext
  match a with
  | ⟨0, _⟩ => show win7_5.index t (0 : Fin 2) * 1 + 1 * 0 = 0; omega
  | ⟨1, _⟩ => show win7_5.index t (1 : Fin 2) * 64 + 1 * j.val = j.val; omega
theorem bnn7_emb6 (t : Fin cfg7.N) (r : Fin 5000) (j : Fin 64) : ((cfg7.win 6).blk t).view.emb (ix2 r j) = ix2 (bnn7_row t r) j := by
  obtain ⟨a0, a1, b0, b1, c0, c1, d0, d1, e0, e1, f0, f1, g0, g1⟩ := bnn7_idx t
  funext a; apply Fin.ext
  match a with
  | ⟨0, _⟩ => show win7_6.index t (0 : Fin 2) * 5000 + 1 * r.val = 5000 * t.val + r.val; omega
  | ⟨1, _⟩ => show win7_6.index t (1 : Fin 2) * 64 + 1 * j.val = j.val; omega

theorem bnn7_read0 (c : Dev nD) (t : Fin cfg7.N) (r : Fin 5000) (j : Fin 64) :
    iblk7 V c 0 t (ix2 r j) = V c main_v95 (ix2 (bnn7_row t r) j) := congrArg (V c main_v95) (bnn7_emb0 t r j)
theorem bnn7_read1 (c : Dev nD) (t : Fin cfg7.N) (r : Fin 5000) (j : Fin 64) :
    iblk7 V c 1 t (ix2 r j) = V c main_v71 (ix2 (bnn7_row t r) j) := congrArg (V c main_v71) (bnn7_emb1 t r j)
theorem bnn7_read2 (c : Dev nD) (t : Fin cfg7.N) (j : Fin 64) :
    iblk7 V c 2 t (ix2 (0 : Fin 1) j) = V c main_v100_0 (ix2 (0 : Fin 1) j) := congrArg (V c main_v100_0) (bnn7_emb2 t j)
theorem bnn7_read3 (c : Dev nD) (t : Fin cfg7.N) (j : Fin 64) :
    iblk7 V c 3 t (ix2 (0 : Fin 1) j) = V c main_v100_1 (ix2 (0 : Fin 1) j) := congrArg (V c main_v100_1) (bnn7_emb3 t j)
theorem bnn7_read4 (c : Dev nD) (t : Fin cfg7.N) (j : Fin 64) :
    iblk7 V c 4 t (ix2 (0 : Fin 1) j) = V c main_v97 (ix2 (0 : Fin 1) j) := congrArg (V c main_v97) (bnn7_emb4 t j)
theorem bnn7_read5 (c : Dev nD) (t : Fin cfg7.N) (j : Fin 64) :
    iblk7 V c 5 t (ix2 (0 : Fin 1) j) = V c main_v99 (ix2 (0 : Fin 1) j) := congrArg (V c main_v99) (bnn7_emb5 t j)

/-- The block's output at (r, j) is the layer's output at row 5000·t + r. -/
theorem bnn7_point (c : Dev nD) (t : Fin cfg7.N) (r : Fin 5000) (j : Fin 64) :
    k7_pay1 (F := Ideal) (iblk7 V c 2 t) (iblk7 V c 3 t) (iblk7 V c 0 t) (iblk7 V c 4 t) (iblk7 V c 5 t) (iblk7 V c 1 t) (ix2 r j)
      = bnnOf (V c main_v95) (V c main_v71) (V c main_v100_0) (V c main_v100_1) (V c main_v97) (V c main_v99) (ix2 (bnn7_row t r) j) := by
  refine ((bnNormalize_at7 (iblk7 V c 2 t) (iblk7 V c 3 t) (iblk7 V c 0 t) (iblk7 V c 4 t) (iblk7 V c 5 t) (iblk7 V c 1 t) r j).trans ?_).trans
    (bnnOf_apply (V c main_v95) (V c main_v71) (V c main_v100_0) (V c main_v100_1) (V c main_v97) (V c main_v99) (bnn7_row t r) j).symm
  rw [bnn7_read0 V c t r j, bnn7_read1 V c t r j, bnn7_read2 V c t j, bnn7_read3 V c t j, bnn7_read4 V c t j, bnn7_read5 V c t j]

/-- What point t writes back is block t of the layer's output. -/
theorem bnn7_flushed (c : Dev nD) (t : Fin cfg7.N) :
    (dat7 V c).flushed 6 t = ((cfg7.win 6).blk t).view.read (Elt Ideal)
      (bnnOf (V c main_v95) (V c main_v71) (V c main_v100_0) (V c main_v100_1) (V c main_v97) (V c main_v99)) := by
  show (cfg7.win 6).cut (grid7.coords t) ((dat7 V c).after 6 t) = _
  rw [after7_6]
  unfold out7_6
  rw [View.canon_unit_zero zeroOffn2]
  simp only [View.ld_unit_zero (S := S5000x64) zeroOffn2, View.ld_unit_zero (S := S1x64) zeroOffn2]
  funext jx
  obtain ⟨r, j, rfl⟩ : ∃ (r : Fin 5000) (j : Fin 64), jx = ix2 r j := ⟨jx 0, jx 1, eq_ix2 jx⟩
  refine (bnn7_point V c t r j).trans ?_
  show _ = bnnOf (V c main_v95) (V c main_v71) (V c main_v100_0) (V c main_v100_1) (V c main_v97) (V c main_v99) (((cfg7.win 6).blk t).view.emb (ix2 r j))
  rw [bnn7_emb6 t r j]

/-- An index of the output array is in point t's block iff each coordinate is in the block's range. -/
theorem bnn7_mem (t : Fin cfg7.N) (i : S50000x64.Idx) :
    i ∈ ((cfg7.win 6).blk t).view.set ↔ ∀ a : Fin 2, win7_6.index t a * S5000x64.size a ≤ (i a).val ∧ (i a).val < win7_6.index t a * S5000x64.size a + S5000x64.size a := by
  show i ∈ ((View.whole main_v101).slice (win7_6.rect t)).set ↔ _
  rw [View.set_slice_whole, Rect.mem_set_unit]
  exact Iff.rfl

/-- Every row is in the block of the point its number divided by 5000 names. -/
theorem bnn7_cover (i : S50000x64.Idx) :
    ∃ t : Fin cfg7.N, (cfg7.win 6).flush t = true ∧ i ∈ ((cfg7.win 6).blk t).view.set := by
  have hi0 : (i 0).val < 50000 := (i 0).isLt
  have hi1 : (i 1).val < 64 := (i 1).isLt
  refine ⟨⟨(i 0).val / 5000, by show _ < 10; omega⟩, flush7_6 _, ?_⟩
  rw [bnn7_mem]
  obtain ⟨a0, a1, b0, b1, c0, c1, d0, d1, e0, e1, f0, f1, g0, g1⟩ := bnn7_idx ⟨(i 0).val / 5000, by show _ < 10; omega⟩
  intro a
  match a with
  | ⟨0, _⟩ => show win7_6.index _ (0 : Fin 2) * 5000 ≤ (i 0).val ∧ (i 0).val < win7_6.index _ (0 : Fin 2) * 5000 + 5000; rw [g0]; show (i 0).val / 5000 * 5000 ≤ _ ∧ _ < (i 0).val / 5000 * 5000 + 5000; omega
  | ⟨1, _⟩ => show win7_6.index _ (1 : Fin 2) * 64 ≤ (i 1).val ∧ (i 1).val < win7_6.index _ (1 : Fin 2) * 64 + 64; rw [g1]; omega

/-- The output array of region 3 after the region. -/
theorem bnn7_final (c : Dev nD) : (dat7 V c).arrAt 6 cfg7.N
    = bnnOf (V c main_v95) (V c main_v71) (V c main_v100_0) (V c main_v100_1) (V c main_v97) (V c main_v99) :=
  (dat7 V c).arrAt_eq_of_cover 6 _ (fun t _ => bnn7_flushed V c t) bnn7_cover

end Region7

end Cert.KernelIdeal.Vals

end
-- ==== Proof.KL1.lean ====
/-
  Layer 1, segment by segment: what each buffer the layer produces holds after the segment that produces it, in terms of the buffers before that segment.
-/
import proofs.«111449_j80633716015168_2_alg».proof.Proof.Gen.KernelIdeal.Frame
import proofs.«111449_j80633716015168_2_alg».proof.Proof.KHost
import proofs.«111449_j80633716015168_2_alg».proof.Proof.ValNodeTransform1
import proofs.«111449_j80633716015168_2_alg».proof.Proof.ValEdgeMessage1
import proofs.«111449_j80633716015168_2_alg».proof.Proof.ValBnReduce1
import proofs.«111449_j80633716015168_2_alg».proof.Proof.ValBnNormalize1
import Idealize.ShloMosaic.Lib.StableHlo.Run

set_option maxRecDepth 16384

noncomputable section

namespace Cert.KernelIdeal.Gen

open Idealize.ShloMosaic Idealize.ShloMosaic.TcCoe Idealize.ShloMosaic.StableHlo Idealize.SL.Sem
open Cert.KernelIdeal Cert.KernelIdeal.Vals

variable (m : (ℓ : Loc nD τ sig) → Buf (Elt Ideal) ℓ) (ρ : Dev nD → PrngReg)

/-! ## Layer 1 -/
theorem W8_v73 (c : Dev nD) : W8 m ρ c (Proc.devRef .tc main_v73) = kWt1 (W7 m ρ c (Proc.devRef .tc main_v38)) :=
  by
  show StableHlo.after hostOps4 (W7 m ρ c) (Proc.devRef .tc main_v73) = _
  after_results_simp
  try rfl
theorem W8_v73' (c : Dev nD) : W8 m ρ c (no_index (Proc.devRef .tc main_v73)) = kWt1 (W7 m ρ c (Proc.devRef .tc main_v38)) := W8_v73 m ρ c
theorem W9_v74 (c : Dev nD) : W9 m ρ c (Proc.devRef .tc main_v74) = hkOf (W8 m ρ c (Proc.devRef .tc main_v71)) (W8 m ρ c (Proc.devRef .tc main_v73)) :=
  (W9_arr m ρ c 2).trans (nt4_final (V8 m ρ) c)
theorem W9_v74' (c : Dev nD) : W9 m ρ c (no_index (Proc.devRef .tc main_v74)) = hkOf (W8 m ρ c (Proc.devRef .tc main_v71)) (W8 m ρ c (Proc.devRef .tc main_v73)) := W9_v74 m ρ c
theorem W10_v82 (c : Dev nD) : W10 m ρ c (Proc.devRef .tc main_v82) = hkSrcK (W9 m ρ c (Proc.devRef .tc main_v74)) (W9 m ρ c (Proc.devRef .tc main_arg1)) :=
  by
  show StableHlo.after hostOps5 (W9 m ρ c) (Proc.devRef .tc main_v82) = _
  after_results_simp
  try rfl
theorem W10_v82' (c : Dev nD) : W10 m ρ c (no_index (Proc.devRef .tc main_v82)) = hkSrcK (W9 m ρ c (Proc.devRef .tc main_v74)) (W9 m ρ c (Proc.devRef .tc main_arg1)) := W10_v82 m ρ c
theorem W10_v84 (c : Dev nD) : W10 m ρ c (Proc.devRef .tc main_v84) = kA1 (W9 m ρ c (Proc.devRef .tc main_arg10)) :=
  by
  show StableHlo.after hostOps5 (W9 m ρ c) (Proc.devRef .tc main_v84) = _
  after_results_simp
  try rfl
theorem W10_v84' (c : Dev nD) : W10 m ρ c (no_index (Proc.devRef .tc main_v84)) = kA1 (W9 m ρ c (Proc.devRef .tc main_arg10)) := W10_v84 m ρ c
theorem W10_v86 (c : Dev nD) : W10 m ρ c (Proc.devRef .tc main_v86) = kB1 (W9 m ρ c (Proc.devRef .tc main_v39)) :=
  by
  show StableHlo.after hostOps5 (W9 m ρ c) (Proc.devRef .tc main_v86) = _
  after_results_simp
  try rfl
theorem W10_v86' (c : Dev nD) : W10 m ρ c (no_index (Proc.devRef .tc main_v86)) = kB1 (W9 m ρ c (Proc.devRef .tc main_v39)) := W10_v86 m ρ c
theorem W10_v88 (c : Dev nD) : W10 m ρ c (Proc.devRef .tc main_v88) = kM1 (W9 m ρ c (Proc.devRef .tc main_arg6)) :=
  by
  show StableHlo.after hostOps5 (W9 m ρ c) (Proc.devRef .tc main_v88) = _
  after_results_simp
  try rfl
theorem W10_v88' (c : Dev nD) : W10 m ρ c (no_index (Proc.devRef .tc main_v88)) = kM1 (W9 m ρ c (Proc.devRef .tc main_arg6)) := W10_v88 m ρ c
theorem W10_v90 (c : Dev nD) : W10 m ρ c (Proc.devRef .tc main_v90) = kM1 (W9 m ρ c (Proc.devRef .tc main_arg7)) :=
  by
  show StableHlo.after hostOps5 (W9 m ρ c) (Proc.devRef .tc main_v90) = _
  after_results_simp
  try rfl
theorem W10_v90' (c : Dev nD) : W10 m ρ c (no_index (Proc.devRef .tc main_v90)) = kM1 (W9 m ρ c (Proc.devRef .tc main_arg7)) := W10_v90 m ρ c
theorem W11_v91 (c : Dev nD) : W11 m ρ c (Proc.devRef .tc main_v91) = msgOf (W10 m ρ c (Proc.devRef .tc main_v30)) (W10 m ρ c (Proc.devRef .tc main_v82)) (W10 m ρ c (Proc.devRef .tc main_v84)) (W10 m ρ c (Proc.devRef .tc main_v86)) (W10 m ρ c (Proc.devRef .tc main_v88)) (W10 m ρ c (Proc.devRef .tc main_v90)) :=
  (W11_arr m ρ c 6).trans (em5_final (V10 m ρ) c)
theorem W11_v91' (c : Dev nD) : W11 m ρ c (no_index (Proc.devRef .tc main_v91)) = msgOf (W10 m ρ c (Proc.devRef .tc main_v30)) (W10 m ρ c (Proc.devRef .tc main_v82)) (W10 m ρ c (Proc.devRef .tc main_v84)) (W10 m ρ c (Proc.devRef .tc main_v86)) (W10 m ρ c (Proc.devRef .tc main_v88)) (W10 m ρ c (Proc.devRef .tc main_v90)) := W11_v91 m ρ c
theorem W12_v95 (c : Dev nD) : W12 m ρ c (Proc.devRef .tc main_v95) = aggK (W11 m ρ c (Proc.devRef .tc main_arg2)) (W11 m ρ c (Proc.devRef .tc main_v91)) :=
  by
  show StableHlo.after hostOps6 (W11 m ρ c) (Proc.devRef .tc main_v95) = _
  after_results_simp
  try rfl
theorem W12_v95' (c : Dev nD) : W12 m ρ c (no_index (Proc.devRef .tc main_v95)) = aggK (W11 m ρ c (Proc.devRef .tc main_arg2)) (W11 m ρ c (Proc.devRef .tc main_v91)) := W12_v95 m ρ c
theorem W12_v97 (c : Dev nD) : W12 m ρ c (Proc.devRef .tc main_v97) = kG1 (W11 m ρ c (Proc.devRef .tc main_v40)) :=
  by
  show StableHlo.after hostOps6 (W11 m ρ c) (Proc.devRef .tc main_v97) = _
  after_results_simp
  try rfl
theorem W12_v97' (c : Dev nD) : W12 m ρ c (no_index (Proc.devRef .tc main_v97)) = kG1 (W11 m ρ c (Proc.devRef .tc main_v40)) := W12_v97 m ρ c
theorem W12_v99 (c : Dev nD) : W12 m ρ c (Proc.devRef .tc main_v99) = kG1 (W11 m ρ c (Proc.devRef .tc main_v41)) :=
  by
  show StableHlo.after hostOps6 (W11 m ρ c) (Proc.devRef .tc main_v99) = _
  after_results_simp
  try rfl
theorem W12_v99' (c : Dev nD) : W12 m ρ c (no_index (Proc.devRef .tc main_v99)) = kG1 (W11 m ρ c (Proc.devRef .tc main_v41)) := W12_v99 m ρ c
theorem W13_v100_0 (c : Dev nD) : W13 m ρ c (Proc.devRef .tc main_v100_0) = sumRowOf (W12 m ρ c (Proc.devRef .tc main_v95)) :=
  (W13_arr m ρ c 1).trans (bnr6_final1 (V12 m ρ) c)
theorem W13_v100_0' (c : Dev nD) : W13 m ρ c (no_index (Proc.devRef .tc main_v100_0)) = sumRowOf (W12 m ρ c (Proc.devRef .tc main_v95)) := W13_v100_0 m ρ c
theorem W13_v100_1 (c : Dev nD) : W13 m ρ c (Proc.devRef .tc main_v100_1) = sqRowOf (W12 m ρ c (Proc.devRef .tc main_v95)) :=
  (W13_arr m ρ c 2).trans (bnr6_final2 (V12 m ρ) c)
theorem W13_v100_1' (c : Dev nD) : W13 m ρ c (no_index (Proc.devRef .tc main_v100_1)) = sqRowOf (W12 m ρ c (Proc.devRef .tc main_v95)) := W13_v100_1 m ρ c
theorem W14_v101 (c : Dev nD) : W14 m ρ c (Proc.devRef .tc main_v101) = bnnOf (W13 m ρ c (Proc.devRef .tc main_v95)) (W13 m ρ c (Proc.devRef .tc main_v71)) (W13 m ρ c (Proc.devRef .tc main_v100_0)) (W13 m ρ c (Proc.devRef .tc main_v100_1)) (W13 m ρ c (Proc.devRef .tc main_v97)) (W13 m ρ c (Proc.devRef .tc main_v99)) :=
  (W14_arr m ρ c 6).trans (bnn7_final (V13 m ρ) c)
theorem W14_v101' (c : Dev nD) : W14 m ρ c (no_index (Proc.devRef .tc main_v101)) = bnnOf (W13 m ρ c (Proc.devRef .tc main_v95)) (W13 m ρ c (Proc.devRef .tc main_v71)) (W13 m ρ c (Proc.devRef .tc main_v100_0)) (W13 m ρ c (Proc.devRef .tc main_v100_1)) (W13 m ρ c (Proc.devRef .tc main_v97)) (W13 m ρ c (Proc.devRef .tc main_v99)) := W14_v101 m ρ c

end Cert.KernelIdeal.Gen

end
-- ==== Proof.ValNodeTransform2.lean ====
/-
  What the node-transform region leaves in its output array. The grid has 5 points; point t takes rows
  10000·t … 10000·t + 9999 of the node features h (50000 × 64) and the whole weight matrix W (64 × 192), and writes
  the same rows of the output. Every row is in exactly one block, so the output array ends as the whole product:
  at (i, q) the sum over k of h(i, k) · W(k, q).
-/
import proofs.«111449_j80633716015168_2_alg».proof.Proof.Gen.KernelIdeal.Frame
import proofs.«111449_j80633716015168_2_alg».proof.Proof.ValNodeTransform
import proofs.«111449_j80633716015168_2_alg».proof.Proof.BodyLayers

set_option maxRecDepth 16384

noncomputable section

namespace Cert.KernelIdeal.Vals

open Idealize.ShloMosaic Idealize.ShloMosaic.TcCoe Idealize.ShloMosaic.ValueIdx
open Idealize.ShloMosaic.Pipeline (Dat)
open Cert.KernelIdeal Cert.KernelIdeal.Gen Cert.KernelIdeal.Bodies

section Region8
variable (V : (c : Dev nD) → (b : Ref sig .tc) → Buf (Elt Ideal) ((c : Thread nD τ).loc b))

/-- The index maps of region 0 over its grid: the feature and output windows move with the point along the rows, the
    weight window stays. -/
theorem nt8_idx : ∀ t : Fin cfg8.N, win8_0.index t (0 : Fin 2) = t.val ∧ win8_0.index t (1 : Fin 2) = 0
    ∧ win8_1.index t (0 : Fin 2) = 0 ∧ win8_1.index t (1 : Fin 2) = 0
    ∧ win8_2.index t (0 : Fin 2) = t.val ∧ win8_2.index t (1 : Fin 2) = 0 :=
  (by decide +kernel : ∀ t : Fin grid8.N, _)

/-- Row p of point t's block is row 10000·t + p of the array. -/
def nt8_row (t : Fin cfg8.N) (p : Fin 10000) : Fin 50000 :=
  ⟨10000 * t.val + p.val, by have ht : t.val < 5 := t.isLt; have := p.isLt; omega⟩

theorem nt8_emb0 (t : Fin cfg8.N) (p : Fin 10000) (k : Fin 64) :
    ((cfg8.win 0).blk t).view.emb (ix2 p k) = ix2 (nt8_row t p) k := by
  obtain ⟨e0, e1, e2, e3, e4, e5⟩ := nt8_idx t
  funext a; apply Fin.ext
  match a with
  | ⟨0, _⟩ => show win8_0.index t (0 : Fin 2) * 10000 + 1 * p.val = 10000 * t.val + p.val; omega
  | ⟨1, _⟩ => show win8_0.index t (1 : Fin 2) * 64 + 1 * k.val = k.val; omega

theorem nt8_emb1 (t : Fin cfg8.N) (k : Fin 64) (q : Fin 192) :
    ((cfg8.win 1).blk t).view.emb (ix2 k q) = ix2 k q := by
  obtain ⟨e0, e1, e2, e3, e4, e5⟩ := nt8_idx t
  funext a; apply Fin.ext
  match a with
  | ⟨0, _⟩ => show win8_1.index t (0 : Fin 2) * 64 + 1 * k.val = k.val; omega
  | ⟨1, _⟩ => show win8_1.index t (1 : Fin 2) * 192 + 1 * q.val = q.val; omega

theorem nt8_emb2 (t : Fin cfg8.N) (p : Fin 10000) (q : Fin 192) :
    ((cfg8.win 2).blk t).view.emb (ix2 p q) = ix2 (nt8_row t p) q := by
  obtain ⟨e0, e1, e2, e3, e4, e5⟩ := nt8_idx t
  funext a; apply Fin.ext
  match a with
  | ⟨0, _⟩ => show win8_2.index t (0 : Fin 2) * 10000 + 1 * p.val = 10000 * t.val + p.val; omega
  | ⟨1, _⟩ => show win8_2.index t (1 : Fin 2) * 192 + 1 * q.val = q.val; omega

/-- The feature block read at (p, k). -/
theorem nt8_read0 (c : Dev nD) (t : Fin cfg8.N) (p : Fin 10000) (k : Fin 64) :
    iblk8 V c 0 t (ix2 p k) = V c main_v101 (ix2 (nt8_row t p) k) :=
  congrArg (V c main_v101) (nt8_emb0 t p k)

/-- The weight block read at (k, q): the whole matrix. -/
theorem nt8_read1 (c : Dev nD) (t : Fin cfg8.N) (k : Fin 64) (q : Fin 192) :
    iblk8 V c 1 t (ix2 k q) = V c main_v103 (ix2 k q) :=
  congrArg (V c main_v103) (nt8_emb1 t k q)

/-- The block product at (p, q) is the whole product at row 10000·t + p. -/
theorem nt8_point (c : Dev nD) (t : Fin cfg8.N) (p : Fin 10000) (q : Fin 192) :
    k8_pay1 (F := Ideal) (iblk8 V c 0 t) (iblk8 V c 1 t) (ix2 p q) = hkOf (V c main_v101) (V c main_v103) (ix2 (nt8_row t p) q) := by
  refine ((nodeTransform_at8 (iblk8 V c 0 t) (iblk8 V c 1 t) p q).trans ?_).trans
    (hkOf_apply (V c main_v101) (V c main_v103) (nt8_row t p) q).symm
  refine Finset.sum_congr rfl fun k _ => ?_
  rw [nt8_read0 V c t p k, nt8_read1 V c t k q]

/-- What point t writes back is block t of the whole product. -/
theorem nt8_flushed (c : Dev nD) (t : Fin cfg8.N) :
    (dat8 V c).flushed 2 t = ((cfg8.win 2).blk t).view.read (Elt Ideal) (hkOf (V c main_v101) (V c main_v103)) := by
  show (cfg8.win 2).cut (grid8.coords t) ((dat8 V c).after 2 t) = _
  rw [after8_2]
  unfold out8_2
  rw [View.canon_unit_zero zeroOff2]
  simp only [View.ld_unit_zero (S := S10000x64) zeroOff2, View.ld_unit_zero (S := S64x192) zeroOff2]
  funext j
  obtain ⟨p, q, rfl⟩ : ∃ (p : Fin 10000) (q : Fin 192), j = ix2 p q := ⟨j 0, j 1, eq_ix2 j⟩
  refine (nt8_point V c t p q).trans ?_
  show _ = hkOf (V c main_v101) (V c main_v103) (((cfg8.win 2).blk t).view.emb (ix2 p q))
  rw [nt8_emb2 t p q]

/-- An index of the output array is in point t's block iff each coordinate is in the block's range. -/
theorem nt8_mem (t : Fin cfg8.N) (i : S50000x192.Idx) :
    i ∈ ((cfg8.win 2).blk t).view.set ↔ ∀ a : Fin 2, win8_2.index t a * S10000x192.size a ≤ (i a).val ∧ (i a).val < win8_2.index t a * S10000x192.size a + S10000x192.size a := by
  show i ∈ ((View.whole main_v104).slice (win8_2.rect t)).set ↔ _
  rw [View.set_slice_whole, Rect.mem_set_unit]
  exact Iff.rfl

/-- Every row of the output is in the block of the point its row number divided by 10000 names. -/
theorem nt8_cover (i : S50000x192.Idx) :
    ∃ t : Fin cfg8.N, (cfg8.win 2).flush t = true ∧ i ∈ ((cfg8.win 2).blk t).view.set := by
  have hi0 : (i 0).val < 50000 := (i 0).isLt
  have hi1 : (i 1).val < 192 := (i 1).isLt
  refine ⟨⟨(i 0).val / 10000, by show _ < 5; omega⟩, flush8_2 _, ?_⟩
  rw [nt8_mem]
  obtain ⟨e0, e1, e2, e3, e4, e5⟩ := nt8_idx ⟨(i 0).val / 10000, by show _ < 5; omega⟩
  intro a
  match a with
  | ⟨0, _⟩ => show win8_2.index _ (0 : Fin 2) * 10000 ≤ (i 0).val ∧ (i 0).val < win8_2.index _ (0 : Fin 2) * 10000 + 10000; rw [e4]; show (i 0).val / 10000 * 10000 ≤ _ ∧ _ < (i 0).val / 10000 * 10000 + 10000; omega
  | ⟨1, _⟩ => show win8_2.index _ (1 : Fin 2) * 192 ≤ (i 1).val ∧ (i 1).val < win8_2.index _ (1 : Fin 2) * 192 + 192; rw [e5]; omega

/-- The output array of region 0 after the region: the whole product of the arrays it found. -/
theorem nt8_final (c : Dev nD) : (dat8 V c).arrAt 2 cfg8.N = hkOf (V c main_v101) (V c main_v103) :=
  (dat8 V c).arrAt_eq_of_cover 2 (hkOf (V c main_v101) (V c main_v103)) (fun t _ => nt8_flushed V c t) nt8_cover

end Region8

end Cert.KernelIdeal.Vals

end
-- ==== Proof.ValEdgeMessage2.lean ====
/-
  What the edge-message region leaves in its output array. The grid has 400 points; point t takes edges
  2000·t … 2000·t + 1999 of the pseudo-coordinates (800000 × 2) and of the gathered node features (800000 × 3 × 64),
  the layer's 2 × 2 projection matrix, its bias row, and the 3 × 2 means and inverse widths whole, and writes the same
  edges of the message array. Every edge is in exactly one block, so the message array ends, at (e, k, o), as the
  gathered feature times the Gaussian weight of component k for edge e.
-/
import proofs.«111449_j80633716015168_2_alg».proof.Proof.Gen.KernelIdeal.Frame
import proofs.«111449_j80633716015168_2_alg».proof.Proof.ValEdgeMessage
import proofs.«111449_j80633716015168_2_alg».proof.Proof.BodyLayers

set_option maxRecDepth 16384

noncomputable section

namespace Cert.KernelIdeal.Vals

open Idealize.ShloMosaic Idealize.ShloMosaic.TcCoe Idealize.ShloMosaic.ValueIdx
open Idealize.ShloMosaic.Pipeline (Dat)
open Cert.KernelIdeal Cert.KernelIdeal.Gen Cert.KernelIdeal.Bodies

section Region9
variable (V : (c : Dev nD) → (b : Ref sig .tc) → Buf (Elt Ideal) ((c : Thread nD τ).loc b))

/-- The index maps of region 1 over its grid: the edge windows move with the point along the edges, the parameter
    windows stay. -/
theorem em9_idx : ∀ t : Fin cfg9.N, win9_0.index t (0 : Fin 2) = t.val ∧ win9_0.index t (1 : Fin 2) = 0
    ∧ win9_1.index t (0 : Fin 3) = t.val ∧ win9_1.index t (1 : Fin 3) = 0 ∧ win9_1.index t (2 : Fin 3) = 0
    ∧ win9_2.index t (0 : Fin 2) = 0 ∧ win9_2.index t (1 : Fin 2) = 0
    ∧ win9_3.index t (0 : Fin 2) = 0 ∧ win9_3.index t (1 : Fin 2) = 0
    ∧ win9_4.index t (0 : Fin 2) = 0 ∧ win9_4.index t (1 : Fin 2) = 0
    ∧ win9_5.index t (0 : Fin 2) = 0 ∧ win9_5.index t (1 : Fin 2) = 0
    ∧ win9_6.index t (0 : Fin 3) = t.val ∧ win9_6.index t (1 : Fin 3) = 0 ∧ win9_6.index t (2 : Fin 3) = 0 :=
  (by decide +kernel : ∀ t : Fin grid9.N, _)

/-- Edge e of point t's block is edge 2000·t + e of the arrays. -/
def em9_row (t : Fin cfg9.N) (e : Fin 2000) : Fin 800000 :=
  ⟨2000 * t.val + e.val, by have ht : t.val < 400 := t.isLt; have := e.isLt; omega⟩

theorem em9_emb0 (t : Fin cfg9.N) (e : Fin 2000) (j : Fin 2) :
    ((cfg9.win 0).blk t).view.emb (ix2 e j) = ix2 (em9_row t e) j := by
  obtain ⟨a0, a1, b0, b1, b2, c0, c1, d0, d1, e0, e1, f0, f1, g0, g1, g2⟩ := em9_idx t
  funext a; apply Fin.ext
  match a with
  | ⟨0, _⟩ => show win9_0.index t (0 : Fin 2) * 2000 + 1 * e.val = 2000 * t.val + e.val; omega
  | ⟨1, _⟩ => show win9_0.index t (1 : Fin 2) * 2 + 1 * j.val = j.val; omega

theorem em9_emb1 (t : Fin cfg9.N) (e : Fin 2000) (k : Fin 3) (o : Fin 64) :
    ((cfg9.win 1).blk t).view.emb (ix3 e k o) = ix3 (em9_row t e) k o := by
  obtain ⟨a0, a1, b0, b1, b2, c0, c1, d0, d1, e0, e1, f0, f1, g0, g1, g2⟩ := em9_idx t
  funext a; apply Fin.ext
  match a with
  | ⟨0, _⟩ => show win9_1.index t (0 : Fin 3) * 2000 + 1 * e.val = 2000 * t.val + e.val; omega
  | ⟨1, _⟩ => show win9_1.index t (1 : Fin 3) * 3 + 1 * k.val = k.val; omega
  | ⟨2, _⟩ => show win9_1.index t (2 : Fin 3) * 64 + 1 * o.val = o.val; omega

theorem em9_emb2 (t : Fin cfg9.N) (d j : Fin 2) : ((cfg9.win 2).blk t).view.emb (ix2 d j) = ix2 d j := by
  obtain ⟨a0, a1, b0, b1, b2, c0, c1, d0, d1, e0, e1, f0, f1, g0, g1, g2⟩ := em9_idx t
  funext a; apply Fin.ext
  match a with
  | ⟨0, _⟩ => show win9_2.index t (0 : Fin 2) * 2 + 1 * d.val = d.val; omega
  | ⟨1, _⟩ => show win9_2.index t (1 : Fin 2) * 2 + 1 * j.val = j.val; omega

theorem em9_emb3 (t : Fin cfg9.N) (d : Fin 2) : ((cfg9.win 3).blk t).view.emb (ix2 (0 : Fin 1) d) = ix2 (0 : Fin 1) d := by
  obtain ⟨a0, a1, b0, b1, b2, c0, c1, d0, d1, e0, e1, f0, f1, g0, g1, g2⟩ := em9_idx t
  funext a; apply Fin.ext
  match a with
  | ⟨0, _⟩ => show win9_3.index t (0 : Fin 2) * 1 + 1 * 0 = 0; omega
  | ⟨1, _⟩ => show win9_3.index t (1 : Fin 2) * 2 + 1 * d.val = d.val; omega

theorem em9_emb4 (t : Fin cfg9.N) (k : Fin 3) (d : Fin 2) : ((cfg9.win 4).blk t).view.emb (ix2 k d) = ix2 k d := by
  obtain ⟨a0, a1, b0, b1, b2, c0, c1, d0, d1, e0, e1, f0, f1, g0, g1, g2⟩ := em9_idx t
  funext a; apply Fin.ext
  match a with
  | ⟨0, _⟩ => show win9_4.index t (0 : Fin 2) * 3 + 1 * k.val = k.val; omega
  | ⟨1, _⟩ => show win9_4.index t (1 : Fin 2) * 2 + 1 * d.val = d.val; omega

theorem em9_emb5 (t : Fin cfg9.N) (k : Fin 3) (d : Fin 2) : ((cfg9.win 5).blk t).view.emb (ix2 k d) = ix2 k d := by
  obtain ⟨a0, a1, b0, b1, b2, c0, c1, d0, d1, e0, e1, f0, f1, g0, g1, g2⟩ := em9_idx t
  funext a; apply Fin.ext
  match a with
  | ⟨0, _⟩ => show win9_5.index t (0 : Fin 2) * 3 + 1 * k.val = k.val; omega
  | ⟨1, _⟩ => show win9_5.index t (1 : Fin 2) * 2 + 1 * d.val = d.val; omega

theorem em9_emb6 (t : Fin cfg9.N) (e : Fin 2000) (k : Fin 3) (o : Fin 64) :
    ((cfg9.win 6).blk t).view.emb (ix3 e k o) = ix3 (em9_row t e) k o := by
  obtain ⟨a0, a1, b0, b1, b2, c0, c1, d0, d1, e0, e1, f0, f1, g0, g1, g2⟩ := em9_idx t
  funext a; apply Fin.ext
  match a with
  | ⟨0, _⟩ => show win9_6.index t (0 : Fin 3) * 2000 + 1 * e.val = 2000 * t.val + e.val; omega
  | ⟨1, _⟩ => show win9_6.index t (1 : Fin 3) * 3 + 1 * k.val = k.val; omega
  | ⟨2, _⟩ => show win9_6.index t (2 : Fin 3) * 64 + 1 * o.val = o.val; omega

theorem em9_read0 (c : Dev nD) (t : Fin cfg9.N) (e : Fin 2000) (j : Fin 2) :
    iblk9 V c 0 t (ix2 e j) = V c main_v30 (ix2 (em9_row t e) j) := congrArg (V c main_v30) (em9_emb0 t e j)
theorem em9_read1 (c : Dev nD) (t : Fin cfg9.N) (e : Fin 2000) (k : Fin 3) (o : Fin 64) :
    iblk9 V c 1 t (ix3 e k o) = V c main_v112 (ix3 (em9_row t e) k o) := congrArg (V c main_v112) (em9_emb1 t e k o)
theorem em9_read2 (c : Dev nD) (t : Fin cfg9.N) (d j : Fin 2) :
    iblk9 V c 2 t (ix2 d j) = V c main_v114 (ix2 d j) := congrArg (V c main_v114) (em9_emb2 t d j)
theorem em9_read3 (c : Dev nD) (t : Fin cfg9.N) (d : Fin 2) :
    iblk9 V c 3 t (ix2 (0 : Fin 1) d) = V c main_v116 (ix2 (0 : Fin 1) d) := congrArg (V c main_v116) (em9_emb3 t d)
theorem em9_read4 (c : Dev nD) (t : Fin cfg9.N) (k : Fin 3) (d : Fin 2) :
    iblk9 V c 4 t (ix2 k d) = V c main_v118 (ix2 k d) := congrArg (V c main_v118) (em9_emb4 t k d)
theorem em9_read5 (c : Dev nD) (t : Fin cfg9.N) (k : Fin 3) (d : Fin 2) :
    iblk9 V c 5 t (ix2 k d) = V c main_v120 (ix2 k d) := congrArg (V c main_v120) (em9_emb5 t k d)

/-- The block's message at (e, k, o) is the message array's at edge 2000·t + e. -/
theorem em9_point (c : Dev nD) (t : Fin cfg9.N) (e : Fin 2000) (k : Fin 3) (o : Fin 64) :
    k9_pay1 (F := Ideal) (iblk9 V c 0 t) (iblk9 V c 2 t) (iblk9 V c 3 t) (iblk9 V c 4 t) (iblk9 V c 5 t) (iblk9 V c 1 t) (ix3 e k o)
      = msgOf (V c main_v30) (V c main_v112) (V c main_v114) (V c main_v116) (V c main_v118) (V c main_v120) (ix3 (em9_row t e) k o) := by
  refine ((edgeMessage_at9 (iblk9 V c 0 t) (iblk9 V c 2 t) (iblk9 V c 3 t) (iblk9 V c 4 t) (iblk9 V c 5 t) (iblk9 V c 1 t) e k o).trans ?_).trans
    (msgOf_apply (V c main_v30) (V c main_v112) (V c main_v114) (V c main_v116) (V c main_v118) (V c main_v120) (em9_row t e) k o).symm
  have f0 : (fun j : Fin 2 => iblk9 V c 0 t (ix2 e j)) = fun j => V c main_v30 (ix2 (em9_row t e) j) := funext fun j => em9_read0 V c t e j
  have f2 : (fun d j : Fin 2 => iblk9 V c 2 t (ix2 d j)) = fun d j => V c main_v114 (ix2 d j) := funext fun d => funext fun j => em9_read2 V c t d j
  have f3 : (fun d : Fin 2 => iblk9 V c 3 t (ix2 (0 : Fin 1) d)) = fun d => V c main_v116 (ix2 (0 : Fin 1) d) := funext fun d => em9_read3 V c t d
  have f4 : (fun (kk : Fin 3) (d : Fin 2) => iblk9 V c 4 t (ix2 kk d)) = fun kk d => V c main_v118 (ix2 kk d) := funext fun kk => funext fun d => em9_read4 V c t kk d
  have f5 : (fun (kk : Fin 3) (d : Fin 2) => iblk9 V c 5 t (ix2 kk d)) = fun kk d => V c main_v120 (ix2 kk d) := funext fun kk => funext fun d => em9_read5 V c t kk d
  rw [em9_read1 V c t e k o, f0, f2, f3, f4, f5]

/-- What point t writes back is block t of the message array. -/
theorem em9_flushed (c : Dev nD) (t : Fin cfg9.N) :
    (dat9 V c).flushed 6 t = ((cfg9.win 6).blk t).view.read (Elt Ideal)
      (msgOf (V c main_v30) (V c main_v112) (V c main_v114) (V c main_v116) (V c main_v118) (V c main_v120)) := by
  show (cfg9.win 6).cut (grid9.coords t) ((dat9 V c).after 6 t) = _
  rw [after9_6]
  unfold out9_6
  rw [View.canon_unit_zero zeroOffs3]
  simp only [View.ld_unit_zero (S := S2000x2) zeroOffs2, View.ld_unit_zero (S := S2x2) zeroOffs2,
    View.ld_unit_zero (S := S1x2) zeroOffs2, View.ld_unit_zero (S := S3x2) zeroOffs2,
    View.ld_unit_zero (S := S2000x3x64) zeroOffs3]
  funext j
  obtain ⟨e, k, o, rfl⟩ : ∃ (e : Fin 2000) (k : Fin 3) (o : Fin 64), j = ix3 e k o := ⟨j 0, j 1, j 2, eq_ix3 j⟩
  refine (em9_point V c t e k o).trans ?_
  show _ = msgOf (V c main_v30) (V c main_v112) (V c main_v114) (V c main_v116) (V c main_v118) (V c main_v120) (((cfg9.win 6).blk t).view.emb (ix3 e k o))
  rw [em9_emb6 t e k o]

/-- An index of the message array is in point t's block iff each coordinate is in the block's range. -/
theorem em9_mem (t : Fin cfg9.N) (i : S800000x3x64.Idx) :
    i ∈ ((cfg9.win 6).blk t).view.set ↔ ∀ a : Fin 3, win9_6.index t a * S2000x3x64.size a ≤ (i a).val ∧ (i a).val < win9_6.index t a * S2000x3x64.size a + S2000x3x64.size a := by
  show i ∈ ((View.whole main_v121).slice (win9_6.rect t)).set ↔ _
  rw [View.set_slice_whole, Rect.mem_set_unit]
  exact Iff.rfl

/-- Every edge is in the block of the point its number divided by 2000 names. -/
theorem em9_cover (i : S800000x3x64.Idx) :
    ∃ t : Fin cfg9.N, (cfg9.win 6).flush t = true ∧ i ∈ ((cfg9.win 6).blk t).view.set := by
  have hi0 : (i 0).val < 800000 := (i 0).isLt
  have hi1 : (i 1).val < 3 := (i 1).isLt
  have hi2 : (i 2).val < 64 := (i 2).isLt
  refine ⟨⟨(i 0).val / 2000, by show _ < 400; omega⟩, flush9_6 _, ?_⟩
  rw [em9_mem]
  obtain ⟨a0, a1, b0, b1, b2, c0, c1, d0, d1, e0, e1, f0, f1, g0, g1, g2⟩ := em9_idx ⟨(i 0).val / 2000, by show _ < 400; omega⟩
  intro a
  match a with
  | ⟨0, _⟩ => show win9_6.index _ (0 : Fin 3) * 2000 ≤ (i 0).val ∧ (i 0).val < win9_6.index _ (0 : Fin 3) * 2000 + 2000; rw [g0]; show (i 0).val / 2000 * 2000 ≤ _ ∧ _ < (i 0).val / 2000 * 2000 + 2000; omega
  | ⟨1, _⟩ => show win9_6.index _ (1 : Fin 3) * 3 ≤ (i 1).val ∧ (i 1).val < win9_6.index _ (1 : Fin 3) * 3 + 3; rw [g1]; omega
  | ⟨2, _⟩ => show win9_6.index _ (2 : Fin 3) * 64 ≤ (i 2).val ∧ (i 2).val < win9_6.index _ (2 : Fin 3) * 64 + 64; rw [g2]; omega

/-- The message array of region 1 after the region. -/
theorem em9_final (c : Dev nD) : (dat9 V c).arrAt 6 cfg9.N
    = msgOf (V c main_v30) (V c main_v112) (V c main_v114) (V c main_v116) (V c main_v118) (V c main_v120) :=
  (dat9 V c).arrAt_eq_of_cover 6 _ (fun t _ => em9_flushed V c t) em9_cover

end Region9

end Cert.KernelIdeal.Vals

end
-- ==== Proof.ValBnReduce2.lean ====
/-
  What the reduce region leaves in its two output rows. The grid has 10 points; point t takes rows
  5000·t … 5000·t + 4999 of the aggregated features a (50000 × 64). The two outputs (1 × 64 each) stay in place over
  the whole grid: at point 0 they are set to zero and advanced by block 0's column sums and column sums of squares,
  at every later point they are advanced by that block's. After point n the first row holds, in column j,
  0 + Σ_{x < 5000·(n+1)} a(x, j), and the second the same sum of squares; both are written back once, after the last
  point, so the arrays end as 0 + Σ_{p < 50000} a(p, j) and 0 + Σ_{p < 50000} a(p, j)².
-/
import proofs.«111449_j80633716015168_2_alg».proof.Proof.Gen.KernelIdeal.Frame
import proofs.«111449_j80633716015168_2_alg».proof.Proof.ValBnReduce
import proofs.«111449_j80633716015168_2_alg».proof.Proof.BodyLayers

set_option maxRecDepth 16384

noncomputable section

namespace Cert.KernelIdeal.Vals

open Idealize.ShloMosaic Idealize.ShloMosaic.TcCoe Idealize.ShloMosaic.ValueIdx Idealize.ShloMosaic.Tactic
open Idealize.ShloMosaic.Pipeline (Dat)
open Cert.KernelIdeal Cert.KernelIdeal.Gen Cert.KernelIdeal.Bodies

/-! ## What each case of the body leaves in the two rows -/

section Pieces
variable {F : FTy → Type} [FloatOps F] [Named F]

/-- First point, first row: zero, then advanced by the block's column sums. -/
theorem sumRow_first10 (c : Dev nD) (i : grid10.Coords) (arg1 : Memref sig .tc .vmem S5000x64 .f32) (harg1 : arg1.IsWhole) (arg2 : Memref sig .tc .vmem S1x64 .f32) (harg2 : arg2.IsWhole) (arg3 : Memref sig .tc .vmem S1x64 .f32) (harg3 : arg3.IsWhole) (hc0 : cond10_0 i) (x0 : Vec F S5000x64 .f32) :
    out10_A_1 (F := F) c i arg1 harg1 arg2 harg2 arg3 harg3 hc0 x0 = k10_pay4 x0 k10_pay1 := by
  unfold out10_A_1
  rw [View.read_writes_eq_canon _ _ _ (cover10_A_1 c i arg1 harg1 arg2 harg2 arg3 harg3 hc0 x0)]
  unfold kernelRun10_A
  dsimp only
  sl_unfold_words
  rw [View.canon_cons_unit_zero zeroOffr2]
  simp only [View.readAt_eq_ld, harg1.read_unread, View.ld_unit_zero (S := S5000x64) zeroOffr2]
  rw [View.readCov_unit_zero (S := S1x64) arg2.view zeroOffr2]

/-- First point, second row: zero, then advanced by the block's column sums of squares. -/
theorem sqRow_first10 (c : Dev nD) (i : grid10.Coords) (arg1 : Memref sig .tc .vmem S5000x64 .f32) (harg1 : arg1.IsWhole) (arg2 : Memref sig .tc .vmem S1x64 .f32) (harg2 : arg2.IsWhole) (arg3 : Memref sig .tc .vmem S1x64 .f32) (harg3 : arg3.IsWhole) (hc0 : cond10_0 i) (x0 : Vec F S5000x64 .f32) :
    out10_A_2 (F := F) c i arg1 harg1 arg2 harg2 arg3 harg3 hc0 x0 = k10_pay5 x0 k10_pay2 := by
  unfold out10_A_2
  rw [View.read_writes_eq_canon _ _ _ (cover10_A_2 c i arg1 harg1 arg2 harg2 arg3 harg3 hc0 x0)]
  unfold kernelRun10_A
  dsimp only
  sl_unfold_words
  rw [View.canon_cons_unit_zero zeroOffr2]
  simp only [View.readAt_eq_ld, harg1.read_unread, View.ld_unit_zero (S := S5000x64) zeroOffr2]
  rw [View.readCov_unit_zero (S := S1x64) arg3.view zeroOffr2]

/-- A later point, first row: what the point before left, advanced by the block's column sums. -/
theorem sumRow_later10 (c : Dev nD) (i : grid10.Coords) (arg1 : Memref sig .tc .vmem S5000x64 .f32) (harg1 : arg1.IsWhole) (arg2 : Memref sig .tc .vmem S1x64 .f32) (harg2 : arg2.IsWhole) (arg3 : Memref sig .tc .vmem S1x64 .f32) (harg3 : arg3.IsWhole) (hc0 : ¬cond10_0 i)
    (x0 : Vec F S5000x64 .f32) (xo1 : Vec F S1x64 .f32) (xo2 : Vec F S1x64 .f32) :
    out10_B_1 (F := F) c i arg1 harg1 arg2 harg2 arg3 harg3 hc0 x0 xo1 xo2 = k10_pay4 x0 xo1 := by
  unfold out10_B_1
  rw [View.read_writes_eq_canon _ _ _ (cover10_B_1 c i arg1 harg1 arg2 harg2 arg3 harg3 hc0 x0 xo1 xo2)]
  unfold kernelRun10_B
  dsimp only
  sl_unfold_words
  rw [View.canon_unit_zero zeroOffr2]
  simp only [View.readAt_eq_ld, harg1.read_unread, harg2.read_unread, View.ld_unit_zero (S := S5000x64) zeroOffr2, View.ld_unit_zero (S := S1x64) zeroOffr2]

/-- A later point, second row: what the point before left, advanced by the block's column sums of squares. -/
theorem sqRow_later10 (c : Dev nD) (i : grid10.Coords) (arg1 : Memref sig .tc .vmem S5000x64 .f32) (harg1 : arg1.IsWhole) (arg2 : Memref sig .tc .vmem S1x64 .f32) (harg2 : arg2.IsWhole) (arg3 : Memref sig .tc .vmem S1x64 .f32) (harg3 : arg3.IsWhole) (hc0 : ¬cond10_0 i)
    (x0 : Vec F S5000x64 .f32) (xo1 : Vec F S1x64 .f32) (xo2 : Vec F S1x64 .f32) :
    out10_B_2 (F := F) c i arg1 harg1 arg2 harg2 arg3 harg3 hc0 x0 xo1 xo2 = k10_pay5 x0 xo2 := by
  unfold out10_B_2
  rw [View.read_writes_eq_canon _ _ _ (cover10_B_2 c i arg1 harg1 arg2 harg2 arg3 harg3 hc0 x0 xo1 xo2)]
  unfold kernelRun10_B
  dsimp only
  sl_unfold_words
  rw [View.canon_unit_zero zeroOffr2]
  simp only [View.readAt_eq_ld, harg1.read_unread, harg3.read_unread, View.ld_unit_zero (S := S5000x64) zeroOffr2, View.ld_unit_zero (S := S1x64) zeroOffr2]

end Pieces

section Region10
variable (V : (c : Dev nD) → (b : Ref sig .tc) → Buf (Elt Ideal) ((c : Thread nD τ).loc b))

/-- The index maps of region 2 over its grid: the input window moves with the point, the two rows stay. -/
theorem bnr10_idx : ∀ t : Fin cfg10.N, win10_0.index t (0 : Fin 2) = t.val ∧ win10_0.index t (1 : Fin 2) = 0
    ∧ win10_1.index t (0 : Fin 2) = 0 ∧ win10_1.index t (1 : Fin 2) = 0
    ∧ win10_2.index t (0 : Fin 2) = 0 ∧ win10_2.index t (1 : Fin 2) = 0 :=
  (by decide +kernel : ∀ t : Fin grid10.N, _)

/-- Point t's block of the aggregated array, as a 5000 × 64 array of extended reals. -/
abbrev blk10 (c : Dev nD) (t : Fin cfg10.N) : S5000x64.Idx → EReal := iblk10 V c 0 t

/-- Row r of point t's block is row 5000·t + r of the aggregated array. -/
theorem bnr10_block (c : Dev nD) (t : Fin cfg10.N) (r : Fin 5000) (j : Fin 64) :
    blk10 V c t (ix2 r j) = colN (V c main_v125) j (5000 * t.val + r.val) := by
  obtain ⟨e0, e1, e2, e3, e4, e5⟩ := bnr10_idx t
  have ht : t.val < 10 := t.isLt
  have hlt : 5000 * t.val + r.val < 50000 := by have := r.isLt; omega
  unfold colN
  rw [dif_pos hlt]
  show V c main_v125 (((cfg10.win 0).blk t).view.emb (ix2 r j)) = _
  refine congrArg (V c main_v125) ?_
  funext a; apply Fin.ext
  match a with
  | ⟨0, _⟩ => show win10_0.index t (0 : Fin 2) * 5000 + 1 * r.val = 5000 * t.val + r.val; omega
  | ⟨1, _⟩ => show win10_0.index t (1 : Fin 2) * 64 + 1 * j.val = j.val; omega

theorem bnr10_blockSum (c : Dev nD) (t : Fin cfg10.N) (j : Fin 64) :
    ∑ r : Fin 5000, blk10 V c t (ix2 r j) = ∑ x ∈ Finset.range 5000, colN (V c main_v125) j (5000 * t.val + x) := by
  rw [Finset.sum_range]
  exact Finset.sum_congr rfl fun r _ => bnr10_block V c t r j

theorem bnr10_blockSumSq (c : Dev nD) (t : Fin cfg10.N) (j : Fin 64) :
    ∑ r : Fin 5000, blk10 V c t (ix2 r j) * blk10 V c t (ix2 r j)
      = ∑ x ∈ Finset.range 5000, colN (V c main_v125) j (5000 * t.val + x) * colN (V c main_v125) j (5000 * t.val + x) := by
  rw [Finset.sum_range]
  exact Finset.sum_congr rfl fun r _ => by rw [bnr10_block V c t r j]

/-- At the first point the rows are the zeroed rows advanced by the block. -/
theorem bnr10_first1 (c : Dev nD) (t : Fin cfg10.N) (h0 : t.val % 10 = 0) :
    (outsAt10 V c t.val t.isLt).1 = k10_pay4 (F := Ideal) (blk10 V c t) (k10_pay1 (F := Ideal)) :=
  (congrArg Prod.fst (outsAt10_A V c t h0)).trans (sumRow_first10 (F := Ideal) c (grid10.coords t) (ms10_0 t) (hs10_0 t) (ms10_1 t) (hs10_1 t) (ms10_2 t) (hs10_2 t) ((hcond10_0 t).mpr h0) (iblk10 V c 0 t))

theorem bnr10_first2 (c : Dev nD) (t : Fin cfg10.N) (h0 : t.val % 10 = 0) :
    (outsAt10 V c t.val t.isLt).2 = k10_pay5 (F := Ideal) (blk10 V c t) (k10_pay2 (F := Ideal)) :=
  (congrArg Prod.snd (outsAt10_A V c t h0)).trans (sqRow_first10 (F := Ideal) c (grid10.coords t) (ms10_0 t) (hs10_0 t) (ms10_1 t) (hs10_1 t) (ms10_2 t) (hs10_2 t) ((hcond10_0 t).mpr h0) (iblk10 V c 0 t))

/-- At a later point the rows are what the point before left, advanced by the block. -/
theorem bnr10_later1 (c : Dev nD) (t : Fin cfg10.N) (h0 : ¬ t.val % 10 = 0) (hlt' : t.val - 1 < cfg10.N) :
    (outsAt10 V c t.val t.isLt).1 = k10_pay4 (blk10 V c t) (outsAt10 V c (t.val - 1) hlt').1 :=
  (congrArg Prod.fst (outsAt10_B V c t h0)).trans (sumRow_later10 (F := Ideal) c (grid10.coords t) (ms10_0 t) (hs10_0 t) (ms10_1 t) (hs10_1 t) (ms10_2 t) (hs10_2 t) (fun hh => h0 ((hcond10_0 t).mp hh)) (iblk10 V c 0 t) (outsAt10 V c (t.val - 1) hlt').1 (outsAt10 V c (t.val - 1) hlt').2)

theorem bnr10_later2 (c : Dev nD) (t : Fin cfg10.N) (h0 : ¬ t.val % 10 = 0) (hlt' : t.val - 1 < cfg10.N) :
    (outsAt10 V c t.val t.isLt).2 = k10_pay5 (blk10 V c t) (outsAt10 V c (t.val - 1) hlt').2 :=
  (congrArg Prod.snd (outsAt10_B V c t h0)).trans (sqRow_later10 (F := Ideal) c (grid10.coords t) (ms10_0 t) (hs10_0 t) (ms10_1 t) (hs10_1 t) (ms10_2 t) (hs10_2 t) (fun hh => h0 ((hcond10_0 t).mp hh)) (iblk10 V c 0 t) (outsAt10 V c (t.val - 1) hlt').1 (outsAt10 V c (t.val - 1) hlt').2)

/-- After point t the rows hold zero plus the sums over the first 5000·(t+1) rows. -/
theorem bnr10_acc (c : Dev nD) : ∀ (n : ℕ) (t : Fin cfg10.N), t.val = n → ∀ j : Fin 64,
    (outsAt10 V c t.val t.isLt).1 (ix2 (0 : Fin 1) j) = Cert.Spec.zeroW + ∑ x ∈ Finset.range (5000 * (t.val + 1)), colN (V c main_v125) j x
    ∧ (outsAt10 V c t.val t.isLt).2 (ix2 (0 : Fin 1) j)
        = Cert.Spec.zeroW + ∑ x ∈ Finset.range (5000 * (t.val + 1)), colN (V c main_v125) j x * colN (V c main_v125) j x := by
  intro n
  induction n with
  | zero =>
    intro t ht j
    have h0 : t.val % 10 = 0 := by omega
    refine ⟨?_, ?_⟩
    · rw [bnr10_first1 V c t h0]
      refine (bnSum_at10 (blk10 V c t) (k10_pay1 (F := Ideal)) j).trans ?_
      rw [bnZero_at10 j, bnr10_blockSum V c t j, ht]
      simp only [Nat.mul_zero, Nat.zero_add, Nat.mul_one]
    · rw [bnr10_first2 V c t h0]
      refine (bnSumSq_at10 (blk10 V c t) (k10_pay2 (F := Ideal)) j).trans ?_
      rw [bnZero'_at10 j, bnr10_blockSumSq V c t j, ht]
      simp only [Nat.mul_zero, Nat.zero_add, Nat.mul_one]
  | succ n ih =>
    intro t ht j
    have ht10 : t.val < 10 := t.isLt
    have h0 : ¬ t.val % 10 = 0 := by omega
    have hlt' : t.val - 1 < cfg10.N := Nat.lt_of_le_of_lt (Nat.sub_le _ _) t.isLt
    have hprev := ih ⟨t.val - 1, hlt'⟩ (by show t.val - 1 = n; omega) j
    have hsplit : 5000 * (t.val + 1) = 5000 * (t.val - 1 + 1) + 5000 := by omega
    have hoff : 5000 * (t.val - 1 + 1) = 5000 * t.val := by omega
    refine ⟨?_, ?_⟩
    · rw [bnr10_later1 V c t h0 hlt']
      refine (bnSum_at10 (blk10 V c t) (outsAt10 V c (t.val - 1) hlt').1 j).trans ?_
      rw [hprev.1, bnr10_blockSum V c t j, hsplit, Finset.sum_range_add, add_assoc, hoff]
    · rw [bnr10_later2 V c t h0 hlt']
      refine (bnSumSq_at10 (blk10 V c t) (outsAt10 V c (t.val - 1) hlt').2 j).trans ?_
      rw [hprev.2, bnr10_blockSumSq V c t j, hsplit, Finset.sum_range_add, add_assoc, hoff]

/-! ## The two arrays after the region -/

theorem bnr10_mem1 (t : Fin cfg10.N) (i : S1x64.Idx) :
    i ∈ ((cfg10.win 1).blk t).view.set ↔ ∀ a : Fin 2, win10_1.index t a * S1x64.size a ≤ (i a).val ∧ (i a).val < win10_1.index t a * S1x64.size a + S1x64.size a := by
  show i ∈ ((View.whole main_v130_0).slice (win10_1.rect t)).set ↔ _
  rw [View.set_slice_whole, Rect.mem_set_unit]
  exact Iff.rfl

theorem bnr10_mem2 (t : Fin cfg10.N) (i : S1x64.Idx) :
    i ∈ ((cfg10.win 2).blk t).view.set ↔ ∀ a : Fin 2, win10_2.index t a * S1x64.size a ≤ (i a).val ∧ (i a).val < win10_2.index t a * S1x64.size a + S1x64.size a := by
  show i ∈ ((View.whole main_v130_1).slice (win10_2.rect t)).set ↔ _
  rw [View.set_slice_whole, Rect.mem_set_unit]
  exact Iff.rfl

/-- What the last point writes back into the first row. -/
theorem bnr10_flushed1 (c : Dev nD) (t : Fin cfg10.N) (hf : (cfg10.win 1).flush t = true) :
    (dat10 V c).flushed 1 t = ((cfg10.win 1).blk t).view.read (Elt Ideal) (sumRowOf (V c main_v125)) := by
  have h9 : t.val % 10 = 9 := (flush10_1 t).mp hf
  have ht : t.val < 10 := t.isLt
  obtain ⟨e0, e1, e2, e3, e4, e5⟩ := bnr10_idx t
  show (cfg10.win 1).cut (grid10.coords t) ((dat10 V c).after 1 t) = _
  rw [after10_1]
  funext jx
  obtain ⟨u, j, rfl⟩ : ∃ (u : Fin 1) (j : Fin 64), jx = ix2 u j := ⟨jx 0, jx 1, eq_ix2 jx⟩
  have hu : u = 0 := Fin.ext (by omega)
  subst hu
  show (outsAt10 V c t.val t.isLt).1 (ix2 (0 : Fin 1) j) = sumRowOf (V c main_v125) (((cfg10.win 1).blk t).view.emb (ix2 (0 : Fin 1) j))
  rw [(bnr10_acc V c t.val t rfl j).1]
  have h50 : 5000 * (t.val + 1) = 50000 := by omega
  rw [h50, colN_sum]
  unfold sumRowOf
  have hj : (((cfg10.win 1).blk t).view.emb (ix2 (0 : Fin 1) j)) 1 = j := by
    apply Fin.ext
    show win10_1.index t (1 : Fin 2) * 64 + 1 * j.val = j.val; omega
  rw [hj]

/-- What the last point writes back into the second row. -/
theorem bnr10_flushed2 (c : Dev nD) (t : Fin cfg10.N) (hf : (cfg10.win 2).flush t = true) :
    (dat10 V c).flushed 2 t = ((cfg10.win 2).blk t).view.read (Elt Ideal) (sqRowOf (V c main_v125)) := by
  have h9 : t.val % 10 = 9 := (flush10_2 t).mp hf
  have ht : t.val < 10 := t.isLt
  obtain ⟨e0, e1, e2, e3, e4, e5⟩ := bnr10_idx t
  show (cfg10.win 2).cut (grid10.coords t) ((dat10 V c).after 2 t) = _
  rw [after10_2]
  funext jx
  obtain ⟨u, j, rfl⟩ : ∃ (u : Fin 1) (j : Fin 64), jx = ix2 u j := ⟨jx 0, jx 1, eq_ix2 jx⟩
  have hu : u = 0 := Fin.ext (by omega)
  subst hu
  show (outsAt10 V c t.val t.isLt).2 (ix2 (0 : Fin 1) j) = sqRowOf (V c main_v125) (((cfg10.win 2).blk t).view.emb (ix2 (0 : Fin 1) j))
  rw [(bnr10_acc V c t.val t rfl j).2]
  have h50 : 5000 * (t.val + 1) = 50000 := by omega
  rw [h50, colN_sumSq]
  unfold sqRowOf
  have hj : (((cfg10.win 2).blk t).view.emb (ix2 (0 : Fin 1) j)) 1 = j := by
    apply Fin.ext
    show win10_2.index t (1 : Fin 2) * 64 + 1 * j.val = j.val; omega
  rw [hj]

theorem bnr10_cover1 (i : S1x64.Idx) :
    ∃ t : Fin cfg10.N, (cfg10.win 1).flush t = true ∧ i ∈ ((cfg10.win 1).blk t).view.set := by
  have hi0 : (i 0).val < 1 := (i 0).isLt
  have hi1 : (i 1).val < 64 := (i 1).isLt
  refine ⟨⟨9, by decide⟩, (flush10_1 _).mpr (by decide), ?_⟩
  rw [bnr10_mem1]
  obtain ⟨e0, e1, e2, e3, e4, e5⟩ := bnr10_idx ⟨9, by decide⟩
  intro a
  match a with
  | ⟨0, _⟩ => show win10_1.index _ (0 : Fin 2) * 1 ≤ (i 0).val ∧ (i 0).val < win10_1.index _ (0 : Fin 2) * 1 + 1; rw [e2]; omega
  | ⟨1, _⟩ => show win10_1.index _ (1 : Fin 2) * 64 ≤ (i 1).val ∧ (i 1).val < win10_1.index _ (1 : Fin 2) * 64 + 64; rw [e3]; omega

theorem bnr10_cover2 (i : S1x64.Idx) :
    ∃ t : Fin cfg10.N, (cfg10.win 2).flush t = true ∧ i ∈ ((cfg10.win 2).blk t).view.set := by
  have hi0 : (i 0).val < 1 := (i 0).isLt
  have hi1 : (i 1).val < 64 := (i 1).isLt
  refine ⟨⟨9, by decide⟩, (flush10_2 _).mpr (by decide), ?_⟩
  rw [bnr10_mem2]
  obtain ⟨e0, e1, e2, e3, e4, e5⟩ := bnr10_idx ⟨9, by decide⟩
  intro a
  match a with
  | ⟨0, _⟩ => show win10_2.index _ (0 : Fin 2) * 1 ≤ (i 0).val ∧ (i 0).val < win10_2.index _ (0 : Fin 2) * 1 + 1; rw [e4]; omega
  | ⟨1, _⟩ => show win10_2.index _ (1 : Fin 2) * 64 ≤ (i 1).val ∧ (i 1).val < win10_2.index _ (1 : Fin 2) * 64 + 64; rw [e5]; omega

/-- The column sums after the region. -/
theorem bnr10_final1 (c : Dev nD) : (dat10 V c).arrAt 1 cfg10.N = sumRowOf (V c main_v125) :=
  (dat10 V c).arrAt_eq_of_cover 1 _ (fun t hf => bnr10_flushed1 V c t hf) bnr10_cover1

/-- The column sums of squares after the region. -/
theorem bnr10_final2 (c : Dev nD) : (dat10 V c).arrAt 2 cfg10.N = sqRowOf (V c main_v125) :=
  (dat10 V c).arrAt_eq_of_cover 2 _ (fun t hf => bnr10_flushed2 V c t hf) bnr10_cover2

end Region10

end Cert.KernelIdeal.Vals

end
-- ==== Proof.ValBnNormalize2.lean ====
/-
  What the normalize region leaves in its output array. The grid has 10 points; point t takes rows
  5000·t … 5000·t + 4999 of the aggregated features and of the layer's input (both 50000 × 64), and the four rows
  (column sums, column sums of squares, scale, shift; each 1 × 64) whole, and writes the same rows of the output.
  Every row is in exactly one block, so the output ends, at (i, j), as the entry computed from column j's sums.
-/
import proofs.«111449_j80633716015168_2_alg».proof.Proof.Gen.KernelIdeal.Frame
import proofs.«111449_j80633716015168_2_alg».proof.Proof.ValBnNormalize
import proofs.«111449_j80633716015168_2_alg».proof.Proof.BodyLayers

set_option maxRecDepth 16384

noncomputable section

namespace Cert.KernelIdeal.Vals

open Idealize.ShloMosaic Idealize.ShloMosaic.TcCoe Idealize.ShloMosaic.ValueIdx
open Idealize.ShloMosaic.Pipeline (Dat)
open Cert.KernelIdeal Cert.KernelIdeal.Gen Cert.KernelIdeal.Bodies

section Region11
variable (V : (c : Dev nD) → (b : Ref sig .tc) → Buf (Elt Ideal) ((c : Thread nD τ).loc b))

/-- The index maps of region 3 over its grid: the two row windows and the output move with the point, the four
    one-row windows stay. -/
theorem bnn11_idx : ∀ t : Fin cfg11.N, win11_0.index t (0 : Fin 2) = t.val ∧ win11_0.index t (1 : Fin 2) = 0
    ∧ win11_1.index t (0 : Fin 2) = t.val ∧ win11_1.index t (1 : Fin 2) = 0
    ∧ win11_2.index t (0 : Fin 2) = 0 ∧ win11_2.index t (1 : Fin 2) = 0
    ∧ win11_3.index t (0 : Fin 2) = 0 ∧ win11_3.index t (1 : Fin 2) = 0
    ∧ win11_4.index t (0 : Fin 2) = 0 ∧ win11_4.index t (1 : Fin 2) = 0
    ∧ win11_5.index t (0 : Fin 2) = 0 ∧ win11_5.index t (1 : Fin 2) = 0
    ∧ win11_6.index t (0 : Fin 2) = t.val ∧ win11_6.index t (1 : Fin 2) = 0 :=
  (by decide +kernel : ∀ t : Fin grid11.N, _)

/-- Row r of point t's block is row 5000·t + r of the arrays. -/
def bnn11_row (t : Fin cfg11.N) (r : Fin 5000) : Fin 50000 :=
  ⟨5000 * t.val + r.val, by have ht : t.val < 10 := t.isLt; have := r.isLt; omega⟩

theorem bnn11_emb0 (t : Fin cfg11.N) (r : Fin 5000) (j : Fin 64) : ((cfg11.win 0).blk t).view.emb (ix2 r j) = ix2 (bnn11_row t r) j := by
  obtain ⟨a0, a1, b0, b1, c0, c1, d0, d1, e0, e1, f0, f1, g0, g1⟩ := bnn11_idx t
  funext a; apply Fin.ext
  match a with
  | ⟨0, _⟩ => show win11_0.index t (0 : Fin 2) * 5000 + 1 * r.val = 5000 * t.val + r.val; omega
  | ⟨1, _⟩ => show win11_0.index t (1 : Fin 2) * 64 + 1 * j.val = j.val; omega
theorem bnn11_emb1 (t : Fin cfg11.N) (r : Fin 5000) (j : Fin 64) : ((cfg11.win 1).blk t).view.emb (ix2 r j) = ix2 (bnn11_row t r) j := by
  obtain ⟨a0, a1, b0, b1, c0, c1, d0, d1, e0, e1, f0, f1, g0, g1⟩ := bnn11_idx t
  funext a; apply Fin.ext
  match a with
  | ⟨0, _⟩ => show win11_1.index t (0 : Fin 2) * 5000 + 1 * r.val = 5000 * t.val + r.val; omega
  | ⟨1, _⟩ => show win11_1.index t (1 : Fin 2) * 64 + 1 * j.val = j.val; omega
theorem bnn11_emb2 (t : Fin cfg11.N) (j : Fin 64) : ((cfg11.win 2).blk t).view.emb (ix2 (0 : Fin 1) j) = ix2 (0 : Fin 1) j := by
  obtain ⟨a0, a1, b0, b1, c0, c1, d0, d1, e0, e1, f0, f1, g0, g1⟩ := bnn11_idx t
  funext a; apply Fin.ext
  match a with
  | ⟨0, _⟩ => show win11_2.index t (0 : Fin 2) * 1 + 1 * 0 = 0; omega
  | ⟨1, _⟩ => show win11_2.index t (1 : Fin 2) * 64 + 1 * j.val = j.val; omega
theorem bnn11_emb3 (t : Fin cfg11.N) (j : Fin 64) : ((cfg11.win 3).blk t).view.emb (ix2 (0 : Fin 1) j) = ix2 (0 : Fin 1) j := by
  obtain ⟨a0, a1, b0, b1, c0, c1, d0, d1, e0, e1, f0, f1, g0, g1⟩ := bnn11_idx t
  funext a; apply Fin.ext
  match a with
  | ⟨0, _⟩ => show win11_3.index t (0 : Fin 2) * 1 + 1 * 0 = 0; omega
  | ⟨1, _⟩ => show win11_3.index t (1 : Fin 2) * 64 + 1 * j.val = j.val; omega
theorem bnn11_emb4 (t : Fin cfg11.N) (j : Fin 64) : ((cfg11.win 4).blk t).view.emb (ix2 (0 : Fin 1) j) = ix2 (0 : Fin 1) j := by
  obtain ⟨a0, a1, b0, b1, c0, c1, d0, d1, e0, e1, f0, f1, g0, g1⟩ := bnn11_idx t
  funext a; apply Fin.ext
  match a with
  | ⟨0, _⟩ => show win11_4.index t (0 : Fin 2) * 1 + 1 * 0 = 0; omega
  | ⟨1, _⟩ => show win11_4.index t (1 : Fin 2) * 64 + 1 * j.val = j.val; omega
theorem bnn11_emb5 (t : Fin cfg11.N) (j : Fin 64) : ((cfg11.win 5).blk t).view.emb (ix2 (0 : Fin 1) j) = ix2 (0 : Fin 1) j := by
  obtain ⟨a0, a1, b0, b1, c0, c1, d0, d1, e0, e1, f0, f1, g0, g1⟩ := bnn11_idx t
  funext a; apply Fin.ext
  match a with
  | ⟨0, _⟩ => show win11_5.index t (0 : Fin 2) * 1 + 1 * 0 = 0; omega
  | ⟨1, _⟩ => show win11_5.index t (1 : Fin 2) * 64 + 1 * j.val = j.val; omega
theorem bnn11_emb6 (t : Fin cfg11.N) (r : Fin 5000) (j : Fin 64) : ((cfg11.win 6).blk t).view.emb (ix2 r j) = ix2 (bnn11_row t r) j := by
  obtain ⟨a0, a1, b0, b1, c0, c1, d0, d1, e0, e1, f0, f1, g0, g1⟩ := bnn11_idx t
  funext a; apply Fin.ext
  match a with
  | ⟨0, _⟩ => show win11_6.index t (0 : Fin 2) * 5000 + 1 * r.val = 5000 * t.val + r.val; omega
  | ⟨1, _⟩ => show win11_6.index t (1 : Fin 2) * 64 + 1 * j.val = j.val; omega

theorem bnn11_read0 (c : Dev nD) (t : Fin cfg11.N) (r : Fin 5000) (j : Fin 64) :
    iblk11 V c 0 t (ix2 r j) = V c main_v125 (ix2 (bnn11_row t r) j) := congrArg (V c main_v125) (bnn11_emb0 t r j)
theorem bnn11_read1 (c : Dev nD) (t : Fin cfg11.N) (r : Fin 5000) (j : Fin 64) :
    iblk11 V c 1 t (ix2 r j) = V c main_v101 (ix2 (bnn11_row t r) j) := congrArg (V c main_v101) (bnn11_emb1 t r j)
theorem bnn11_read2 (c : Dev nD) (t : Fin cfg11.N) (j : Fin 64) :
    iblk11 V c 2 t (ix2 (0 : Fin 1) j) = V c main_v130_0 (ix2 (0 : Fin 1) j) := congrArg (V c main_v130_0) (bnn11_emb2 t j)
theorem bnn11_read3 (c : Dev nD) (t : Fin cfg11.N) (j : Fin 64) :
    iblk11 V c 3 t (ix2 (0 : Fin 1) j) = V c main_v130_1 (ix2 (0 : Fin 1) j) := congrArg (V c main_v130_1) (bnn11_emb3 t j)
theorem bnn11_read4 (c : Dev nD) (t : Fin cfg11.N) (j : Fin 64) :
    iblk11 V c 4 t (ix2 (0 : Fin 1) j) = V c main_v127 (ix2 (0 : Fin 1) j) := congrArg (V c main_v127) (bnn11_emb4 t j)
theorem bnn11_read5 (c : Dev nD) (t : Fin cfg11.N) (j : Fin 64) :
    iblk11 V c 5 t (ix2 (0 : Fin 1) j) = V c main_v129 (ix2 (0 : Fin 1) j) := congrArg (V c main_v129) (bnn11_emb5 t j)

/-- The block's output at (r, j) is the layer's output at row 5000·t + r. -/
theorem bnn11_point (c : Dev nD) (t : Fin cfg11.N) (r : Fin 5000) (j : Fin 64) :
    k11_pay1 (F := Ideal) (iblk11 V c 2 t) (iblk11 V c 3 t) (iblk11 V c 0 t) (iblk11 V c 4 t) (iblk11 V c 5 t) (iblk11 V c 1 t) (ix2 r j)
      = bnnOf (V c main_v125) (V c main_v101) (V c main_v130_0) (V c main_v130_1) (V c main_v127) (V c main_v129) (ix2 (bnn11_row t r) j) := by
  refine ((bnNormalize_at11 (iblk11 V c 2 t) (iblk11 V c 3 t) (iblk11 V c 0 t) (iblk11 V c 4 t) (iblk11 V c 5 t) (iblk11 V c 1 t) r j).trans ?_).trans
    (bnnOf_apply (V c main_v125) (V c main_v101) (V c main_v130_0) (V c main_v130_1) (V c main_v127) (V c main_v129) (bnn11_row t r) j).symm
  rw [bnn11_read0 V c t r j, bnn11_read1 V c t r j, bnn11_read2 V c t j, bnn11_read3 V c t j, bnn11_read4 V c t j, bnn11_read5 V c t j]

/-- What point t writes back is block t of the layer's output. -/
theorem bnn11_flushed (c : Dev nD) (t : Fin cfg11.N) :
    (dat11 V c).flushed 6 t = ((cfg11.win 6).blk t).view.read (Elt Ideal)
      (bnnOf (V c main_v125) (V c main_v101) (V c main_v130_0) (V c main_v130_1) (V c main_v127) (V c main_v129)) := by
  show (cfg11.win 6).cut (grid11.coords t) ((dat11 V c).after 6 t) = _
  rw [after11_6]
  unfold out11_6
  rw [View.canon_unit_zero zeroOffn2]
  simp only [View.ld_unit_zero (S := S5000x64) zeroOffn2, View.ld_unit_zero (S := S1x64) zeroOffn2]
  funext jx
  obtain ⟨r, j, rfl⟩ : ∃ (r : Fin 5000) (j : Fin 64), jx = ix2 r j := ⟨jx 0, jx 1, eq_ix2 jx⟩
  refine (bnn11_point V c t r j).trans ?_
  show _ = bnnOf (V c main_v125) (V c main_v101) (V c main_v130_0) (V c main_v130_1) (V c main_v127) (V c main_v129) (((cfg11.win 6).blk t).view.emb (ix2 r j))
  rw [bnn11_emb6 t r j]

/-- An index of the output array is in point t's block iff each coordinate is in the block's range. -/
theorem bnn11_mem (t : Fin cfg11.N) (i : S50000x64.Idx) :
    i ∈ ((cfg11.win 6).blk t).view.set ↔ ∀ a : Fin 2, win11_6.index t a * S5000x64.size a ≤ (i a).val ∧ (i a).val < win11_6.index t a * S5000x64.size a + S5000x64.size a := by
  show i ∈ ((View.whole main_v131).slice (win11_6.rect t)).set ↔ _
  rw [View.set_slice_whole, Rect.mem_set_unit]
  exact Iff.rfl

/-- Every row is in the block of the point its number divided by 5000 names. -/
theorem bnn11_cover (i : S50000x64.Idx) :
    ∃ t : Fin cfg11.N, (cfg11.win 6).flush t = true ∧ i ∈ ((cfg11.win 6).blk t).view.set := by
  have hi0 : (i 0).val < 50000 := (i 0).isLt
  have hi1 : (i 1).val < 64 := (i 1).isLt
  refine ⟨⟨(i 0).val / 5000, by show _ < 10; omega⟩, flush11_6 _, ?_⟩
  rw [bnn11_mem]
  obtain ⟨a0, a1, b0, b1, c0, c1, d0, d1, e0, e1, f0, f1, g0, g1⟩ := bnn11_idx ⟨(i 0).val / 5000, by show _ < 10; omega⟩
  intro a
  match a with
  | ⟨0, _⟩ => show win11_6.index _ (0 : Fin 2) * 5000 ≤ (i 0).val ∧ (i 0).val < win11_6.index _ (0 : Fin 2) * 5000 + 5000; rw [g0]; show (i 0).val / 5000 * 5000 ≤ _ ∧ _ < (i 0).val / 5000 * 5000 + 5000; omega
  | ⟨1, _⟩ => show win11_6.index _ (1 : Fin 2) * 64 ≤ (i 1).val ∧ (i 1).val < win11_6.index _ (1 : Fin 2) * 64 + 64; rw [g1]; omega

/-- The output array of region 3 after the region. -/
theorem bnn11_final (c : Dev nD) : (dat11 V c).arrAt 6 cfg11.N
    = bnnOf (V c main_v125) (V c main_v101) (V c main_v130_0) (V c main_v130_1) (V c main_v127) (V c main_v129) :=
  (dat11 V c).arrAt_eq_of_cover 6 _ (fun t _ => bnn11_flushed V c t) bnn11_cover

end Region11

end Cert.KernelIdeal.Vals

end
-- ==== Proof.KL2.lean ====
/-
  Layer 2, segment by segment: what each buffer the layer produces holds after the segment that produces it, in terms of the buffers before that segment.
-/
import proofs.«111449_j80633716015168_2_alg».proof.Proof.Gen.KernelIdeal.Frame
import proofs.«111449_j80633716015168_2_alg».proof.Proof.KHost
import proofs.«111449_j80633716015168_2_alg».proof.Proof.ValNodeTransform2
import proofs.«111449_j80633716015168_2_alg».proof.Proof.ValEdgeMessage2
import proofs.«111449_j80633716015168_2_alg».proof.Proof.ValBnReduce2
import proofs.«111449_j80633716015168_2_alg».proof.Proof.ValBnNormalize2
import Idealize.ShloMosaic.Lib.StableHlo.Run

set_option maxRecDepth 16384

noncomputable section

namespace Cert.KernelIdeal.Gen

open Idealize.ShloMosaic Idealize.ShloMosaic.TcCoe Idealize.ShloMosaic.StableHlo Idealize.SL.Sem
open Cert.KernelIdeal Cert.KernelIdeal.Vals

variable (m : (ℓ : Loc nD τ sig) → Buf (Elt Ideal) ℓ) (ρ : Dev nD → PrngReg)

/-! ## Layer 2 -/
theorem W15_v103 (c : Dev nD) : W15 m ρ c (Proc.devRef .tc main_v103) = kWt2 (W14 m ρ c (Proc.devRef .tc main_v38)) :=
  by
  show StableHlo.after hostOps8 (W14 m ρ c) (Proc.devRef .tc main_v103) = _
  after_results_simp
  try rfl
theorem W15_v103' (c : Dev nD) : W15 m ρ c (no_index (Proc.devRef .tc main_v103)) = kWt2 (W14 m ρ c (Proc.devRef .tc main_v38)) := W15_v103 m ρ c
theorem W16_v104 (c : Dev nD) : W16 m ρ c (Proc.devRef .tc main_v104) = hkOf (W15 m ρ c (Proc.devRef .tc main_v101)) (W15 m ρ c (Proc.devRef .tc main_v103)) :=
  (W16_arr m ρ c 2).trans (nt8_final (V15 m ρ) c)
theorem W16_v104' (c : Dev nD) : W16 m ρ c (no_index (Proc.devRef .tc main_v104)) = hkOf (W15 m ρ c (Proc.devRef .tc main_v101)) (W15 m ρ c (Proc.devRef .tc main_v103)) := W16_v104 m ρ c
theorem W17_v112 (c : Dev nD) : W17 m ρ c (Proc.devRef .tc main_v112) = hkSrcK (W16 m ρ c (Proc.devRef .tc main_v104)) (W16 m ρ c (Proc.devRef .tc main_arg1)) :=
  by
  show StableHlo.after hostOps9 (W16 m ρ c) (Proc.devRef .tc main_v112) = _
  after_results_simp
  try rfl
theorem W17_v112' (c : Dev nD) : W17 m ρ c (no_index (Proc.devRef .tc main_v112)) = hkSrcK (W16 m ρ c (Proc.devRef .tc main_v104)) (W16 m ρ c (Proc.devRef .tc main_arg1)) := W17_v112 m ρ c
theorem W17_v114 (c : Dev nD) : W17 m ρ c (Proc.devRef .tc main_v114) = kA2 (W16 m ρ c (Proc.devRef .tc main_arg10)) :=
  by
  show StableHlo.after hostOps9 (W16 m ρ c) (Proc.devRef .tc main_v114) = _
  after_results_simp
  try rfl
theorem W17_v114' (c : Dev nD) : W17 m ρ c (no_index (Proc.devRef .tc main_v114)) = kA2 (W16 m ρ c (Proc.devRef .tc main_arg10)) := W17_v114 m ρ c
theorem W17_v116 (c : Dev nD) : W17 m ρ c (Proc.devRef .tc main_v116) = kB2 (W16 m ρ c (Proc.devRef .tc main_v39)) :=
  by
  show StableHlo.after hostOps9 (W16 m ρ c) (Proc.devRef .tc main_v116) = _
  after_results_simp
  try rfl
theorem W17_v116' (c : Dev nD) : W17 m ρ c (no_index (Proc.devRef .tc main_v116)) = kB2 (W16 m ρ c (Proc.devRef .tc main_v39)) := W17_v116 m ρ c
theorem W17_v118 (c : Dev nD) : W17 m ρ c (Proc.devRef .tc main_v118) = kM2 (W16 m ρ c (Proc.devRef .tc main_arg6)) :=
  by
  show StableHlo.after hostOps9 (W16 m ρ c) (Proc.devRef .tc main_v118) = _
  after_results_simp
  try rfl
theorem W17_v118' (c : Dev nD) : W17 m ρ c (no_index (Proc.devRef .tc main_v118)) = kM2 (W16 m ρ c (Proc.devRef .tc main_arg6)) := W17_v118 m ρ c
theorem W17_v120 (c : Dev nD) : W17 m ρ c (Proc.devRef .tc main_v120) = kM2 (W16 m ρ c (Proc.devRef .tc main_arg7)) :=
  by
  show StableHlo.after hostOps9 (W16 m ρ c) (Proc.devRef .tc main_v120) = _
  after_results_simp
  try rfl
theorem W17_v120' (c : Dev nD) : W17 m ρ c (no_index (Proc.devRef .tc main_v120)) = kM2 (W16 m ρ c (Proc.devRef .tc main_arg7)) := W17_v120 m ρ c
theorem W18_v121 (c : Dev nD) : W18 m ρ c (Proc.devRef .tc main_v121) = msgOf (W17 m ρ c (Proc.devRef .tc main_v30)) (W17 m ρ c (Proc.devRef .tc main_v112)) (W17 m ρ c (Proc.devRef .tc main_v114)) (W17 m ρ c (Proc.devRef .tc main_v116)) (W17 m ρ c (Proc.devRef .tc main_v118)) (W17 m ρ c (Proc.devRef .tc main_v120)) :=
  (W18_arr m ρ c 6).trans (em9_final (V17 m ρ) c)
theorem W18_v121' (c : Dev nD) : W18 m ρ c (no_index (Proc.devRef .tc main_v121)) = msgOf (W17 m ρ c (Proc.devRef .tc main_v30)) (W17 m ρ c (Proc.devRef .tc main_v112)) (W17 m ρ c (Proc.devRef .tc main_v114)) (W17 m ρ c (Proc.devRef .tc main_v116)) (W17 m ρ c (Proc.devRef .tc main_v118)) (W17 m ρ c (Proc.devRef .tc main_v120)) := W18_v121 m ρ c
theorem W19_v125 (c : Dev nD) : W19 m ρ c (Proc.devRef .tc main_v125) = aggK (W18 m ρ c (Proc.devRef .tc main_arg2)) (W18 m ρ c (Proc.devRef .tc main_v121)) :=
  by
  show StableHlo.after hostOps10 (W18 m ρ c) (Proc.devRef .tc main_v125) = _
  after_results_simp
  try rfl
theorem W19_v125' (c : Dev nD) : W19 m ρ c (no_index (Proc.devRef .tc main_v125)) = aggK (W18 m ρ c (Proc.devRef .tc main_arg2)) (W18 m ρ c (Proc.devRef .tc main_v121)) := W19_v125 m ρ c
theorem W19_v127 (c : Dev nD) : W19 m ρ c (Proc.devRef .tc main_v127) = kG2 (W18 m ρ c (Proc.devRef .tc main_v40)) :=
  by
  show StableHlo.after hostOps10 (W18 m ρ c) (Proc.devRef .tc main_v127) = _
  after_results_simp
  try rfl
theorem W19_v127' (c : Dev nD) : W19 m ρ c (no_index (Proc.devRef .tc main_v127)) = kG2 (W18 m ρ c (Proc.devRef .tc main_v40)) := W19_v127 m ρ c
theorem W19_v129 (c : Dev nD) : W19 m ρ c (Proc.devRef .tc main_v129) = kG2 (W18 m ρ c (Proc.devRef .tc main_v41)) :=
  by
  show StableHlo.after hostOps10 (W18 m ρ c) (Proc.devRef .tc main_v129) = _
  after_results_simp
  try rfl
theorem W19_v129' (c : Dev nD) : W19 m ρ c (no_index (Proc.devRef .tc main_v129)) = kG2 (W18 m ρ c (Proc.devRef .tc main_v41)) := W19_v129 m ρ c
theorem W20_v130_0 (c : Dev nD) : W20 m ρ c (Proc.devRef .tc main_v130_0) = sumRowOf (W19 m ρ c (Proc.devRef .tc main_v125)) :=
  (W20_arr m ρ c 1).trans (bnr10_final1 (V19 m ρ) c)
theorem W20_v130_0' (c : Dev nD) : W20 m ρ c (no_index (Proc.devRef .tc main_v130_0)) = sumRowOf (W19 m ρ c (Proc.devRef .tc main_v125)) := W20_v130_0 m ρ c
theorem W20_v130_1 (c : Dev nD) : W20 m ρ c (Proc.devRef .tc main_v130_1) = sqRowOf (W19 m ρ c (Proc.devRef .tc main_v125)) :=
  (W20_arr m ρ c 2).trans (bnr10_final2 (V19 m ρ) c)
theorem W20_v130_1' (c : Dev nD) : W20 m ρ c (no_index (Proc.devRef .tc main_v130_1)) = sqRowOf (W19 m ρ c (Proc.devRef .tc main_v125)) := W20_v130_1 m ρ c
theorem W21_v131 (c : Dev nD) : W21 m ρ c (Proc.devRef .tc main_v131) = bnnOf (W20 m ρ c (Proc.devRef .tc main_v125)) (W20 m ρ c (Proc.devRef .tc main_v101)) (W20 m ρ c (Proc.devRef .tc main_v130_0)) (W20 m ρ c (Proc.devRef .tc main_v130_1)) (W20 m ρ c (Proc.devRef .tc main_v127)) (W20 m ρ c (Proc.devRef .tc main_v129)) :=
  (W21_arr m ρ c 6).trans (bnn11_final (V20 m ρ) c)
theorem W21_v131' (c : Dev nD) : W21 m ρ c (no_index (Proc.devRef .tc main_v131)) = bnnOf (W20 m ρ c (Proc.devRef .tc main_v125)) (W20 m ρ c (Proc.devRef .tc main_v101)) (W20 m ρ c (Proc.devRef .tc main_v130_0)) (W20 m ρ c (Proc.devRef .tc main_v130_1)) (W20 m ρ c (Proc.devRef .tc main_v127)) (W20 m ρ c (Proc.devRef .tc main_v129)) := W21_v131 m ρ c

end Cert.KernelIdeal.Gen

end
-- ==== Proof.ValNodeTransform3.lean ====
/-
  What the node-transform region leaves in its output array. The grid has 5 points; point t takes rows
  10000·t … 10000·t + 9999 of the node features h (50000 × 64) and the whole weight matrix W (64 × 192), and writes
  the same rows of the output. Every row is in exactly one block, so the output array ends as the whole product:
  at (i, q) the sum over k of h(i, k) · W(k, q).
-/
import proofs.«111449_j80633716015168_2_alg».proof.Proof.Gen.KernelIdeal.Frame
import proofs.«111449_j80633716015168_2_alg».proof.Proof.ValNodeTransform
import proofs.«111449_j80633716015168_2_alg».proof.Proof.BodyLayers

set_option maxRecDepth 16384

noncomputable section

namespace Cert.KernelIdeal.Vals

open Idealize.ShloMosaic Idealize.ShloMosaic.TcCoe Idealize.ShloMosaic.ValueIdx
open Idealize.ShloMosaic.Pipeline (Dat)
open Cert.KernelIdeal Cert.KernelIdeal.Gen Cert.KernelIdeal.Bodies

section Region12
variable (V : (c : Dev nD) → (b : Ref sig .tc) → Buf (Elt Ideal) ((c : Thread nD τ).loc b))

/-- The index maps of region 0 over its grid: the feature and output windows move with the point along the rows, the
    weight window stays. -/
theorem nt12_idx : ∀ t : Fin cfg12.N, win12_0.index t (0 : Fin 2) = t.val ∧ win12_0.index t (1 : Fin 2) = 0
    ∧ win12_1.index t (0 : Fin 2) = 0 ∧ win12_1.index t (1 : Fin 2) = 0
    ∧ win12_2.index t (0 : Fin 2) = t.val ∧ win12_2.index t (1 : Fin 2) = 0 :=
  (by decide +kernel : ∀ t : Fin grid12.N, _)

/-- Row p of point t's block is row 10000·t + p of the array. -/
def nt12_row (t : Fin cfg12.N) (p : Fin 10000) : Fin 50000 :=
  ⟨10000 * t.val + p.val, by have ht : t.val < 5 := t.isLt; have := p.isLt; omega⟩

theorem nt12_emb0 (t : Fin cfg12.N) (p : Fin 10000) (k : Fin 64) :
    ((cfg12.win 0).blk t).view.emb (ix2 p k) = ix2 (nt12_row t p) k := by
  obtain ⟨e0, e1, e2, e3, e4, e5⟩ := nt12_idx t
  funext a; apply Fin.ext
  match a with
  | ⟨0, _⟩ => show win12_0.index t (0 : Fin 2) * 10000 + 1 * p.val = 10000 * t.val + p.val; omega
  | ⟨1, _⟩ => show win12_0.index t (1 : Fin 2) * 64 + 1 * k.val = k.val; omega

theorem nt12_emb1 (t : Fin cfg12.N) (k : Fin 64) (q : Fin 192) :
    ((cfg12.win 1).blk t).view.emb (ix2 k q) = ix2 k q := by
  obtain ⟨e0, e1, e2, e3, e4, e5⟩ := nt12_idx t
  funext a; apply Fin.ext
  match a with
  | ⟨0, _⟩ => show win12_1.index t (0 : Fin 2) * 64 + 1 * k.val = k.val; omega
  | ⟨1, _⟩ => show win12_1.index t (1 : Fin 2) * 192 + 1 * q.val = q.val; omega

theorem nt12_emb2 (t : Fin cfg12.N) (p : Fin 10000) (q : Fin 192) :
    ((cfg12.win 2).blk t).view.emb (ix2 p q) = ix2 (nt12_row t p) q := by
  obtain ⟨e0, e1, e2, e3, e4, e5⟩ := nt12_idx t
  funext a; apply Fin.ext
  match a with
  | ⟨0, _⟩ => show win12_2.index t (0 : Fin 2) * 10000 + 1 * p.val = 10000 * t.val + p.val; omega
  | ⟨1, _⟩ => show win12_2.index t (1 : Fin 2) * 192 + 1 * q.val = q.val; omega

/-- The feature block read at (p, k). -/
theorem nt12_read0 (c : Dev nD) (t : Fin cfg12.N) (p : Fin 10000) (k : Fin 64) :
    iblk12 V c 0 t (ix2 p k) = V c main_v131 (ix2 (nt12_row t p) k) :=
  congrArg (V c main_v131) (nt12_emb0 t p k)

/-- The weight block read at (k, q): the whole matrix. -/
theorem nt12_read1 (c : Dev nD) (t : Fin cfg12.N) (k : Fin 64) (q : Fin 192) :
    iblk12 V c 1 t (ix2 k q) = V c main_v133 (ix2 k q) :=
  congrArg (V c main_v133) (nt12_emb1 t k q)

/-- The block product at (p, q) is the whole product at row 10000·t + p. -/
theorem nt12_point (c : Dev nD) (t : Fin cfg12.N) (p : Fin 10000) (q : Fin 192) :
    k12_pay1 (F := Ideal) (iblk12 V c 0 t) (iblk12 V c 1 t) (ix2 p q) = hkOf (V c main_v131) (V c main_v133) (ix2 (nt12_row t p) q) := by
  refine ((nodeTransform_at12 (iblk12 V c 0 t) (iblk12 V c 1 t) p q).trans ?_).trans
    (hkOf_apply (V c main_v131) (V c main_v133) (nt12_row t p) q).symm
  refine Finset.sum_congr rfl fun k _ => ?_
  rw [nt12_read0 V c t p k, nt12_read1 V c t k q]

/-- What point t writes back is block t of the whole product. -/
theorem nt12_flushed (c : Dev nD) (t : Fin cfg12.N) :
    (dat12 V c).flushed 2 t = ((cfg12.win 2).blk t).view.read (Elt Ideal) (hkOf (V c main_v131) (V c main_v133)) := by
  show (cfg12.win 2).cut (grid12.coords t) ((dat12 V c).after 2 t) = _
  rw [after12_2]
  unfold out12_2
  rw [View.canon_unit_zero zeroOff2]
  simp only [View.ld_unit_zero (S := S10000x64) zeroOff2, View.ld_unit_zero (S := S64x192) zeroOff2]
  funext j
  obtain ⟨p, q, rfl⟩ : ∃ (p : Fin 10000) (q : Fin 192), j = ix2 p q := ⟨j 0, j 1, eq_ix2 j⟩
  refine (nt12_point V c t p q).trans ?_
  show _ = hkOf (V c main_v131) (V c main_v133) (((cfg12.win 2).blk t).view.emb (ix2 p q))
  rw [nt12_emb2 t p q]

/-- An index of the output array is in point t's block iff each coordinate is in the block's range. -/
theorem nt12_mem (t : Fin cfg12.N) (i : S50000x192.Idx) :
    i ∈ ((cfg12.win 2).blk t).view.set ↔ ∀ a : Fin 2, win12_2.index t a * S10000x192.size a ≤ (i a).val ∧ (i a).val < win12_2.index t a * S10000x192.size a + S10000x192.size a := by
  show i ∈ ((View.whole main_v134).slice (win12_2.rect t)).set ↔ _
  rw [View.set_slice_whole, Rect.mem_set_unit]
  exact Iff.rfl

/-- Every row of the output is in the block of the point its row number divided by 10000 names. -/
theorem nt12_cover (i : S50000x192.Idx) :
    ∃ t : Fin cfg12.N, (cfg12.win 2).flush t = true ∧ i ∈ ((cfg12.win 2).blk t).view.set := by
  have hi0 : (i 0).val < 50000 := (i 0).isLt
  have hi1 : (i 1).val < 192 := (i 1).isLt
  refine ⟨⟨(i 0).val / 10000, by show _ < 5; omega⟩, flush12_2 _, ?_⟩
  rw [nt12_mem]
  obtain ⟨e0, e1, e2, e3, e4, e5⟩ := nt12_idx ⟨(i 0).val / 10000, by show _ < 5; omega⟩
  intro a
  match a with
  | ⟨0, _⟩ => show win12_2.index _ (0 : Fin 2) * 10000 ≤ (i 0).val ∧ (i 0).val < win12_2.index _ (0 : Fin 2) * 10000 + 10000; rw [e4]; show (i 0).val / 10000 * 10000 ≤ _ ∧ _ < (i 0).val / 10000 * 10000 + 10000; omega
  | ⟨1, _⟩ => show win12_2.index _ (1 : Fin 2) * 192 ≤ (i 1).val ∧ (i 1).val < win12_2.index _ (1 : Fin 2) * 192 + 192; rw [e5]; omega

/-- The output array of region 0 after the region: the whole product of the arrays it found. -/
theorem nt12_final (c : Dev nD) : (dat12 V c).arrAt 2 cfg12.N = hkOf (V c main_v131) (V c main_v133) :=
  (dat12 V c).arrAt_eq_of_cover 2 (hkOf (V c main_v131) (V c main_v133)) (fun t _ => nt12_flushed V c t) nt12_cover

end Region12

end Cert.KernelIdeal.Vals

end
-- ==== Proof.ValEdgeMessage3.lean ====
/-
  What the edge-message region leaves in its output array. The grid has 400 points; point t takes edges
  2000·t … 2000·t + 1999 of the pseudo-coordinates (800000 × 2) and of the gathered node features (800000 × 3 × 64),
  the layer's 2 × 2 projection matrix, its bias row, and the 3 × 2 means and inverse widths whole, and writes the same
  edges of the message array. Every edge is in exactly one block, so the message array ends, at (e, k, o), as the
  gathered feature times the Gaussian weight of component k for edge e.
-/
import proofs.«111449_j80633716015168_2_alg».proof.Proof.Gen.KernelIdeal.Frame
import proofs.«111449_j80633716015168_2_alg».proof.Proof.ValEdgeMessage
import proofs.«111449_j80633716015168_2_alg».proof.Proof.BodyLayers

set_option maxRecDepth 16384

noncomputable section

namespace Cert.KernelIdeal.Vals

open Idealize.ShloMosaic Idealize.ShloMosaic.TcCoe Idealize.ShloMosaic.ValueIdx
open Idealize.ShloMosaic.Pipeline (Dat)
open Cert.KernelIdeal Cert.KernelIdeal.Gen Cert.KernelIdeal.Bodies

section Region13
variable (V : (c : Dev nD) → (b : Ref sig .tc) → Buf (Elt Ideal) ((c : Thread nD τ).loc b))

/-- The index maps of region 1 over its grid: the edge windows move with the point along the edges, the parameter
    windows stay. -/
theorem em13_idx : ∀ t : Fin cfg13.N, win13_0.index t (0 : Fin 2) = t.val ∧ win13_0.index t (1 : Fin 2) = 0
    ∧ win13_1.index t (0 : Fin 3) = t.val ∧ win13_1.index t (1 : Fin 3) = 0 ∧ win13_1.index t (2 : Fin 3) = 0
    ∧ win13_2.index t (0 : Fin 2) = 0 ∧ win13_2.index t (1 : Fin 2) = 0
    ∧ win13_3.index t (0 : Fin 2) = 0 ∧ win13_3.index t (1 : Fin 2) = 0
    ∧ win13_4.index t (0 : Fin 2) = 0 ∧ win13_4.index t (1 : Fin 2) = 0
    ∧ win13_5.index t (0 : Fin 2) = 0 ∧ win13_5.index t (1 : Fin 2) = 0
    ∧ win13_6.index t (0 : Fin 3) = t.val ∧ win13_6.index t (1 : Fin 3) = 0 ∧ win13_6.index t (2 : Fin 3) = 0 :=
  (by decide +kernel : ∀ t : Fin grid13.N, _)

/-- Edge e of point t's block is edge 2000·t + e of the arrays. -/
def em13_row (t : Fin cfg13.N) (e : Fin 2000) : Fin 800000 :=
  ⟨2000 * t.val + e.val, by have ht : t.val < 400 := t.isLt; have := e.isLt; omega⟩

theorem em13_emb0 (t : Fin cfg13.N) (e : Fin 2000) (j : Fin 2) :
    ((cfg13.win 0).blk t).view.emb (ix2 e j) = ix2 (em13_row t e) j := by
  obtain ⟨a0, a1, b0, b1, b2, c0, c1, d0, d1, e0, e1, f0, f1, g0, g1, g2⟩ := em13_idx t
  funext a; apply Fin.ext
  match a with
  | ⟨0, _⟩ => show win13_0.index t (0 : Fin 2) * 2000 + 1 * e.val = 2000 * t.val + e.val; omega
  | ⟨1, _⟩ => show win13_0.index t (1 : Fin 2) * 2 + 1 * j.val = j.val; omega

theorem em13_emb1 (t : Fin cfg13.N) (e : Fin 2000) (k : Fin 3) (o : Fin 64) :
    ((cfg13.win 1).blk t).view.emb (ix3 e k o) = ix3 (em13_row t e) k o := by
  obtain ⟨a0, a1, b0, b1, b2, c0, c1, d0, d1, e0, e1, f0, f1, g0, g1, g2⟩ := em13_idx t
  funext a; apply Fin.ext
  match a with
  | ⟨0, _⟩ => show win13_1.index t (0 : Fin 3) * 2000 + 1 * e.val = 2000 * t.val + e.val; omega
  | ⟨1, _⟩ => show win13_1.index t (1 : Fin 3) * 3 + 1 * k.val = k.val; omega
  | ⟨2, _⟩ => show win13_1.index t (2 : Fin 3) * 64 + 1 * o.val = o.val; omega

theorem em13_emb2 (t : Fin cfg13.N) (d j : Fin 2) : ((cfg13.win 2).blk t).view.emb (ix2 d j) = ix2 d j := by
  obtain ⟨a0, a1, b0, b1, b2, c0, c1, d0, d1, e0, e1, f0, f1, g0, g1, g2⟩ := em13_idx t
  funext a; apply Fin.ext
  match a with
  | ⟨0, _⟩ => show win13_2.index t (0 : Fin 2) * 2 + 1 * d.val = d.val; omega
  | ⟨1, _⟩ => show win13_2.index t (1 : Fin 2) * 2 + 1 * j.val = j.val; omega

theorem em13_emb3 (t : Fin cfg13.N) (d : Fin 2) : ((cfg13.win 3).blk t).view.emb (ix2 (0 : Fin 1) d) = ix2 (0 : Fin 1) d := by
  obtain ⟨a0, a1, b0, b1, b2, c0, c1, d0, d1, e0, e1, f0, f1, g0, g1, g2⟩ := em13_idx t
  funext a; apply Fin.ext
  match a with
  | ⟨0, _⟩ => show win13_3.index t (0 : Fin 2) * 1 + 1 * 0 = 0; omega
  | ⟨1, _⟩ => show win13_3.index t (1 : Fin 2) * 2 + 1 * d.val = d.val; omega

theorem em13_emb4 (t : Fin cfg13.N) (k : Fin 3) (d : Fin 2) : ((cfg13.win 4).blk t).view.emb (ix2 k d) = ix2 k d := by
  obtain ⟨a0, a1, b0, b1, b2, c0, c1, d0, d1, e0, e1, f0, f1, g0, g1, g2⟩ := em13_idx t
  funext a; apply Fin.ext
  match a with
  | ⟨0, _⟩ => show win13_4.index t (0 : Fin 2) * 3 + 1 * k.val = k.val; omega
  | ⟨1, _⟩ => show win13_4.index t (1 : Fin 2) * 2 + 1 * d.val = d.val; omega

theorem em13_emb5 (t : Fin cfg13.N) (k : Fin 3) (d : Fin 2) : ((cfg13.win 5).blk t).view.emb (ix2 k d) = ix2 k d := by
  obtain ⟨a0, a1, b0, b1, b2, c0, c1, d0, d1, e0, e1, f0, f1, g0, g1, g2⟩ := em13_idx t
  funext a; apply Fin.ext
  match a with
  | ⟨0, _⟩ => show win13_5.index t (0 : Fin 2) * 3 + 1 * k.val = k.val; omega
  | ⟨1, _⟩ => show win13_5.index t (1 : Fin 2) * 2 + 1 * d.val = d.val; omega

theorem em13_emb6 (t : Fin cfg13.N) (e : Fin 2000) (k : Fin 3) (o : Fin 64) :
    ((cfg13.win 6).blk t).view.emb (ix3 e k o) = ix3 (em13_row t e) k o := by
  obtain ⟨a0, a1, b0, b1, b2, c0, c1, d0, d1, e0, e1, f0, f1, g0, g1, g2⟩ := em13_idx t
  funext a; apply Fin.ext
  match a with
  | ⟨0, _⟩ => show win13_6.index t (0 : Fin 3) * 2000 + 1 * e.val = 2000 * t.val + e.val; omega
  | ⟨1, _⟩ => show win13_6.index t (1 : Fin 3) * 3 + 1 * k.val = k.val; omega
  | ⟨2, _⟩ => show win13_6.index t (2 : Fin 3) * 64 + 1 * o.val = o.val; omega

theorem em13_read0 (c : Dev nD) (t : Fin cfg13.N) (e : Fin 2000) (j : Fin 2) :
    iblk13 V c 0 t (ix2 e j) = V c main_v30 (ix2 (em13_row t e) j) := congrArg (V c main_v30) (em13_emb0 t e j)
theorem em13_read1 (c : Dev nD) (t : Fin cfg13.N) (e : Fin 2000) (k : Fin 3) (o : Fin 64) :
    iblk13 V c 1 t (ix3 e k o) = V c main_v142 (ix3 (em13_row t e) k o) := congrArg (V c main_v142) (em13_emb1 t e k o)
theorem em13_read2 (c : Dev nD) (t : Fin cfg13.N) (d j : Fin 2) :
    iblk13 V c 2 t (ix2 d j) = V c main_v144 (ix2 d j) := congrArg (V c main_v144) (em13_emb2 t d j)
theorem em13_read3 (c : Dev nD) (t : Fin cfg13.N) (d : Fin 2) :
    iblk13 V c 3 t (ix2 (0 : Fin 1) d) = V c main_v146 (ix2 (0 : Fin 1) d) := congrArg (V c main_v146) (em13_emb3 t d)
theorem em13_read4 (c : Dev nD) (t : Fin cfg13.N) (k : Fin 3) (d : Fin 2) :
    iblk13 V c 4 t (ix2 k d) = V c main_v148 (ix2 k d) := congrArg (V c main_v148) (em13_emb4 t k d)
theorem em13_read5 (c : Dev nD) (t : Fin cfg13.N) (k : Fin 3) (d : Fin 2) :
    iblk13 V c 5 t (ix2 k d) = V c main_v150 (ix2 k d) := congrArg (V c main_v150) (em13_emb5 t k d)

/-- The block's message at (e, k, o) is the message array's at edge 2000·t + e. -/
theorem em13_point (c : Dev nD) (t : Fin cfg13.N) (e : Fin 2000) (k : Fin 3) (o : Fin 64) :
    k13_pay1 (F := Ideal) (iblk13 V c 0 t) (iblk13 V c 2 t) (iblk13 V c 3 t) (iblk13 V c 4 t) (iblk13 V c 5 t) (iblk13 V c 1 t) (ix3 e k o)
      = msgOf (V c main_v30) (V c main_v142) (V c main_v144) (V c main_v146) (V c main_v148) (V c main_v150) (ix3 (em13_row t e) k o) := by
  refine ((edgeMessage_at13 (iblk13 V c 0 t) (iblk13 V c 2 t) (iblk13 V c 3 t) (iblk13 V c 4 t) (iblk13 V c 5 t) (iblk13 V c 1 t) e k o).trans ?_).trans
    (msgOf_apply (V c main_v30) (V c main_v142) (V c main_v144) (V c main_v146) (V c main_v148) (V c main_v150) (em13_row t e) k o).symm
  have f0 : (fun j : Fin 2 => iblk13 V c 0 t (ix2 e j)) = fun j => V c main_v30 (ix2 (em13_row t e) j) := funext fun j => em13_read0 V c t e j
  have f2 : (fun d j : Fin 2 => iblk13 V c 2 t (ix2 d j)) = fun d j => V c main_v144 (ix2 d j) := funext fun d => funext fun j => em13_read2 V c t d j
  have f3 : (fun d : Fin 2 => iblk13 V c 3 t (ix2 (0 : Fin 1) d)) = fun d => V c main_v146 (ix2 (0 : Fin 1) d) := funext fun d => em13_read3 V c t d
  have f4 : (fun (kk : Fin 3) (d : Fin 2) => iblk13 V c 4 t (ix2 kk d)) = fun kk d => V c main_v148 (ix2 kk d) := funext fun kk => funext fun d => em13_read4 V c t kk d
  have f5 : (fun (kk : Fin 3) (d : Fin 2) => iblk13 V c 5 t (ix2 kk d)) = fun kk d => V c main_v150 (ix2 kk d) := funext fun kk => funext fun d => em13_read5 V c t kk d
  rw [em13_read1 V c t e k o, f0, f2, f3, f4, f5]

/-- What point t writes back is block t of the message array. -/
theorem em13_flushed (c : Dev nD) (t : Fin cfg13.N) :
    (dat13 V c).flushed 6 t = ((cfg13.win 6).blk t).view.read (Elt Ideal)
      (msgOf (V c main_v30) (V c main_v142) (V c main_v144) (V c main_v146) (V c main_v148) (V c main_v150)) := by
  show (cfg13.win 6).cut (grid13.coords t) ((dat13 V c).after 6 t) = _
  rw [after13_6]
  unfold out13_6
  rw [View.canon_unit_zero zeroOffs3]
  simp only [View.ld_unit_zero (S := S2000x2) zeroOffs2, View.ld_unit_zero (S := S2x2) zeroOffs2,
    View.ld_unit_zero (S := S1x2) zeroOffs2, View.ld_unit_zero (S := S3x2) zeroOffs2,
    View.ld_unit_zero (S := S2000x3x64) zeroOffs3]
  funext j
  obtain ⟨e, k, o, rfl⟩ : ∃ (e : Fin 2000) (k : Fin 3) (o : Fin 64), j = ix3 e k o := ⟨j 0, j 1, j 2, eq_ix3 j⟩
  refine (em13_point V c t e k o).trans ?_
  show _ = msgOf (V c main_v30) (V c main_v142) (V c main_v144) (V c main_v146) (V c main_v148) (V c main_v150) (((cfg13.win 6).blk t).view.emb (ix3 e k o))
  rw [em13_emb6 t e k o]

/-- An index of the message array is in point t's block iff each coordinate is in the block's range. -/
theorem em13_mem (t : Fin cfg13.N) (i : S800000x3x64.Idx) :
    i ∈ ((cfg13.win 6).blk t).view.set ↔ ∀ a : Fin 3, win13_6.index t a * S2000x3x64.size a ≤ (i a).val ∧ (i a).val < win13_6.index t a * S2000x3x64.size a + S2000x3x64.size a := by
  show i ∈ ((View.whole main_v151).slice (win13_6.rect t)).set ↔ _
  rw [View.set_slice_whole, Rect.mem_set_unit]
  exact Iff.rfl

/-- Every edge is in the block of the point its number divided by 2000 names. -/
theorem em13_cover (i : S800000x3x64.Idx) :
    ∃ t : Fin cfg13.N, (cfg13.win 6).flush t = true ∧ i ∈ ((cfg13.win 6).blk t).view.set := by
  have hi0 : (i 0).val < 800000 := (i 0).isLt
  have hi1 : (i 1).val < 3 := (i 1).isLt
  have hi2 : (i 2).val < 64 := (i 2).isLt
  refine ⟨⟨(i 0).val / 2000, by show _ < 400; omega⟩, flush13_6 _, ?_⟩
  rw [em13_mem]
  obtain ⟨a0, a1, b0, b1, b2, c0, c1, d0, d1, e0, e1, f0, f1, g0, g1, g2⟩ := em13_idx ⟨(i 0).val / 2000, by show _ < 400; omega⟩
  intro a
  match a with
  | ⟨0, _⟩ => show win13_6.index _ (0 : Fin 3) * 2000 ≤ (i 0).val ∧ (i 0).val < win13_6.index _ (0 : Fin 3) * 2000 + 2000; rw [g0]; show (i 0).val / 2000 * 2000 ≤ _ ∧ _ < (i 0).val / 2000 * 2000 + 2000; omega
  | ⟨1, _⟩ => show win13_6.index _ (1 : Fin 3) * 3 ≤ (i 1).val ∧ (i 1).val < win13_6.index _ (1 : Fin 3) * 3 + 3; rw [g1]; omega
  | ⟨2, _⟩ => show win13_6.index _ (2 : Fin 3) * 64 ≤ (i 2).val ∧ (i 2).val < win13_6.index _ (2 : Fin 3) * 64 + 64; rw [g2]; omega

/-- The message array of region 1 after the region. -/
theorem em13_final (c : Dev nD) : (dat13 V c).arrAt 6 cfg13.N
    = msgOf (V c main_v30) (V c main_v142) (V c main_v144) (V c main_v146) (V c main_v148) (V c main_v150) :=
  (dat13 V c).arrAt_eq_of_cover 6 _ (fun t _ => em13_flushed V c t) em13_cover

end Region13

end Cert.KernelIdeal.Vals

end
-- ==== Proof.ValBnReduce3.lean ====
/-
  What the reduce region leaves in its two output rows. The grid has 10 points; point t takes rows
  5000·t … 5000·t + 4999 of the aggregated features a (50000 × 64). The two outputs (1 × 64 each) stay in place over
  the whole grid: at point 0 they are set to zero and advanced by block 0's column sums and column sums of squares,
  at every later point they are advanced by that block's. After point n the first row holds, in column j,
  0 + Σ_{x < 5000·(n+1)} a(x, j), and the second the same sum of squares; both are written back once, after the last
  point, so the arrays end as 0 + Σ_{p < 50000} a(p, j) and 0 + Σ_{p < 50000} a(p, j)².
-/
import proofs.«111449_j80633716015168_2_alg».proof.Proof.Gen.KernelIdeal.Frame
import proofs.«111449_j80633716015168_2_alg».proof.Proof.ValBnReduce
import proofs.«111449_j80633716015168_2_alg».proof.Proof.BodyLayers

set_option maxRecDepth 16384

noncomputable section

namespace Cert.KernelIdeal.Vals

open Idealize.ShloMosaic Idealize.ShloMosaic.TcCoe Idealize.ShloMosaic.ValueIdx Idealize.ShloMosaic.Tactic
open Idealize.ShloMosaic.Pipeline (Dat)
open Cert.KernelIdeal Cert.KernelIdeal.Gen Cert.KernelIdeal.Bodies

/-! ## What each case of the body leaves in the two rows -/

section Pieces
variable {F : FTy → Type} [FloatOps F] [Named F]

/-- First point, first row: zero, then advanced by the block's column sums. -/
theorem sumRow_first14 (c : Dev nD) (i : grid14.Coords) (arg1 : Memref sig .tc .vmem S5000x64 .f32) (harg1 : arg1.IsWhole) (arg2 : Memref sig .tc .vmem S1x64 .f32) (harg2 : arg2.IsWhole) (arg3 : Memref sig .tc .vmem S1x64 .f32) (harg3 : arg3.IsWhole) (hc0 : cond14_0 i) (x0 : Vec F S5000x64 .f32) :
    out14_A_1 (F := F) c i arg1 harg1 arg2 harg2 arg3 harg3 hc0 x0 = k14_pay4 x0 k14_pay1 := by
  unfold out14_A_1
  rw [View.read_writes_eq_canon _ _ _ (cover14_A_1 c i arg1 harg1 arg2 harg2 arg3 harg3 hc0 x0)]
  unfold kernelRun14_A
  dsimp only
  sl_unfold_words
  rw [View.canon_cons_unit_zero zeroOffr2]
  simp only [View.readAt_eq_ld, harg1.read_unread, View.ld_unit_zero (S := S5000x64) zeroOffr2]
  rw [View.readCov_unit_zero (S := S1x64) arg2.view zeroOffr2]

/-- First point, second row: zero, then advanced by the block's column sums of squares. -/
theorem sqRow_first14 (c : Dev nD) (i : grid14.Coords) (arg1 : Memref sig .tc .vmem S5000x64 .f32) (harg1 : arg1.IsWhole) (arg2 : Memref sig .tc .vmem S1x64 .f32) (harg2 : arg2.IsWhole) (arg3 : Memref sig .tc .vmem S1x64 .f32) (harg3 : arg3.IsWhole) (hc0 : cond14_0 i) (x0 : Vec F S5000x64 .f32) :
    out14_A_2 (F := F) c i arg1 harg1 arg2 harg2 arg3 harg3 hc0 x0 = k14_pay5 x0 k14_pay2 := by
  unfold out14_A_2
  rw [View.read_writes_eq_canon _ _ _ (cover14_A_2 c i arg1 harg1 arg2 harg2 arg3 harg3 hc0 x0)]
  unfold kernelRun14_A
  dsimp only
  sl_unfold_words
  rw [View.canon_cons_unit_zero zeroOffr2]
  simp only [View.readAt_eq_ld, harg1.read_unread, View.ld_unit_zero (S := S5000x64) zeroOffr2]
  rw [View.readCov_unit_zero (S := S1x64) arg3.view zeroOffr2]

/-- A later point, first row: what the point before left, advanced by the block's column sums. -/
theorem sumRow_later14 (c : Dev nD) (i : grid14.Coords) (arg1 : Memref sig .tc .vmem S5000x64 .f32) (harg1 : arg1.IsWhole) (arg2 : Memref sig .tc .vmem S1x64 .f32) (harg2 : arg2.IsWhole) (arg3 : Memref sig .tc .vmem S1x64 .f32) (harg3 : arg3.IsWhole) (hc0 : ¬cond14_0 i)
    (x0 : Vec F S5000x64 .f32) (xo1 : Vec F S1x64 .f32) (xo2 : Vec F S1x64 .f32) :
    out14_B_1 (F := F) c i arg1 harg1 arg2 harg2 arg3 harg3 hc0 x0 xo1 xo2 = k14_pay4 x0 xo1 := by
  unfold out14_B_1
  rw [View.read_writes_eq_canon _ _ _ (cover14_B_1 c i arg1 harg1 arg2 harg2 arg3 harg3 hc0 x0 xo1 xo2)]
  unfold kernelRun14_B
  dsimp only
  sl_unfold_words
  rw [View.canon_unit_zero zeroOffr2]
  simp only [View.readAt_eq_ld, harg1.read_unread, harg2.read_unread, View.ld_unit_zero (S := S5000x64) zeroOffr2, View.ld_unit_zero (S := S1x64) zeroOffr2]

/-- A later point, second row: what the point before left, advanced by the block's column sums of squares. -/
theorem sqRow_later14 (c : Dev nD) (i : grid14.Coords) (arg1 : Memref sig .tc .vmem S5000x64 .f32) (harg1 : arg1.IsWhole) (arg2 : Memref sig .tc .vmem S1x64 .f32) (harg2 : arg2.IsWhole) (arg3 : Memref sig .tc .vmem S1x64 .f32) (harg3 : arg3.IsWhole) (hc0 : ¬cond14_0 i)
    (x0 : Vec F S5000x64 .f32) (xo1 : Vec F S1x64 .f32) (xo2 : Vec F S1x64 .f32) :
    out14_B_2 (F := F) c i arg1 harg1 arg2 harg2 arg3 harg3 hc0 x0 xo1 xo2 = k14_pay5 x0 xo2 := by
  unfold out14_B_2
  rw [View.read_writes_eq_canon _ _ _ (cover14_B_2 c i arg1 harg1 arg2 harg2 arg3 harg3 hc0 x0 xo1 xo2)]
  unfold kernelRun14_B
  dsimp only
  sl_unfold_words
  rw [View.canon_unit_zero zeroOffr2]
  simp only [View.readAt_eq_ld, harg1.read_unread, harg3.read_unread, View.ld_unit_zero (S := S5000x64) zeroOffr2, View.ld_unit_zero (S := S1x64) zeroOffr2]

end Pieces

section Region14
variable (V : (c : Dev nD) → (b : Ref sig .tc) → Buf (Elt Ideal) ((c : Thread nD τ).loc b))

/-- The index maps of region 2 over its grid: the input window moves with the point, the two rows stay. -/
theorem bnr14_idx : ∀ t : Fin cfg14.N, win14_0.index t (0 : Fin 2) = t.val ∧ win14_0.index t (1 : Fin 2) = 0
    ∧ win14_1.index t (0 : Fin 2) = 0 ∧ win14_1.index t (1 : Fin 2) = 0
    ∧ win14_2.index t (0 : Fin 2) = 0 ∧ win14_2.index t (1 : Fin 2) = 0 :=
  (by decide +kernel : ∀ t : Fin grid14.N, _)

/-- Point t's block of the aggregated array, as a 5000 × 64 array of extended reals. -/
abbrev blk14 (c : Dev nD) (t : Fin cfg14.N) : S5000x64.Idx → EReal := iblk14 V c 0 t

/-- Row r of point t's block is row 5000·t + r of the aggregated array. -/
theorem bnr14_block (c : Dev nD) (t : Fin cfg14.N) (r : Fin 5000) (j : Fin 64) :
    blk14 V c t (ix2 r j) = colN (V c main_v155) j (5000 * t.val + r.val) := by
  obtain ⟨e0, e1, e2, e3, e4, e5⟩ := bnr14_idx t
  have ht : t.val < 10 := t.isLt
  have hlt : 5000 * t.val + r.val < 50000 := by have := r.isLt; omega
  unfold colN
  rw [dif_pos hlt]
  show V c main_v155 (((cfg14.win 0).blk t).view.emb (ix2 r j)) = _
  refine congrArg (V c main_v155) ?_
  funext a; apply Fin.ext
  match a with
  | ⟨0, _⟩ => show win14_0.index t (0 : Fin 2) * 5000 + 1 * r.val = 5000 * t.val + r.val; omega
  | ⟨1, _⟩ => show win14_0.index t (1 : Fin 2) * 64 + 1 * j.val = j.val; omega

theorem bnr14_blockSum (c : Dev nD) (t : Fin cfg14.N) (j : Fin 64) :
    ∑ r : Fin 5000, blk14 V c t (ix2 r j) = ∑ x ∈ Finset.range 5000, colN (V c main_v155) j (5000 * t.val + x) := by
  rw [Finset.sum_range]
  exact Finset.sum_congr rfl fun r _ => bnr14_block V c t r j

theorem bnr14_blockSumSq (c : Dev nD) (t : Fin cfg14.N) (j : Fin 64) :
    ∑ r : Fin 5000, blk14 V c t (ix2 r j) * blk14 V c t (ix2 r j)
      = ∑ x ∈ Finset.range 5000, colN (V c main_v155) j (5000 * t.val + x) * colN (V c main_v155) j (5000 * t.val + x) := by
  rw [Finset.sum_range]
  exact Finset.sum_congr rfl fun r _ => by rw [bnr14_block V c t r j]

/-- At the first point the rows are the zeroed rows advanced by the block. -/
theorem bnr14_first1 (c : Dev nD) (t : Fin cfg14.N) (h0 : t.val % 10 = 0) :
    (outsAt14 V c t.val t.isLt).1 = k14_pay4 (F := Ideal) (blk14 V c t) (k14_pay1 (F := Ideal)) :=
  (congrArg Prod.fst (outsAt14_A V c t h0)).trans (sumRow_first14 (F := Ideal) c (grid14.coords t) (ms14_0 t) (hs14_0 t) (ms14_1 t) (hs14_1 t) (ms14_2 t) (hs14_2 t) ((hcond14_0 t).mpr h0) (iblk14 V c 0 t))

theorem bnr14_first2 (c : Dev nD) (t : Fin cfg14.N) (h0 : t.val % 10 = 0) :
    (outsAt14 V c t.val t.isLt).2 = k14_pay5 (F := Ideal) (blk14 V c t) (k14_pay2 (F := Ideal)) :=
  (congrArg Prod.snd (outsAt14_A V c t h0)).trans (sqRow_first14 (F := Ideal) c (grid14.coords t) (ms14_0 t) (hs14_0 t) (ms14_1 t) (hs14_1 t) (ms14_2 t) (hs14_2 t) ((hcond14_0 t).mpr h0) (iblk14 V c 0 t))

/-- At a later point the rows are what the point before left, advanced by the block. -/
theorem bnr14_later1 (c : Dev nD) (t : Fin cfg14.N) (h0 : ¬ t.val % 10 = 0) (hlt' : t.val - 1 < cfg14.N) :
    (outsAt14 V c t.val t.isLt).1 = k14_pay4 (blk14 V c t) (outsAt14 V c (t.val - 1) hlt').1 :=
  (congrArg Prod.fst (outsAt14_B V c t h0)).trans (sumRow_later14 (F := Ideal) c (grid14.coords t) (ms14_0 t) (hs14_0 t) (ms14_1 t) (hs14_1 t) (ms14_2 t) (hs14_2 t) (fun hh => h0 ((hcond14_0 t).mp hh)) (iblk14 V c 0 t) (outsAt14 V c (t.val - 1) hlt').1 (outsAt14 V c (t.val - 1) hlt').2)

theorem bnr14_later2 (c : Dev nD) (t : Fin cfg14.N) (h0 : ¬ t.val % 10 = 0) (hlt' : t.val - 1 < cfg14.N) :
    (outsAt14 V c t.val t.isLt).2 = k14_pay5 (blk14 V c t) (outsAt14 V c (t.val - 1) hlt').2 :=
  (congrArg Prod.snd (outsAt14_B V c t h0)).trans (sqRow_later14 (F := Ideal) c (grid14.coords t) (ms14_0 t) (hs14_0 t) (ms14_1 t) (hs14_1 t) (ms14_2 t) (hs14_2 t) (fun hh => h0 ((hcond14_0 t).mp hh)) (iblk14 V c 0 t) (outsAt14 V c (t.val - 1) hlt').1 (outsAt14 V c (t.val - 1) hlt').2)

/-- After point t the rows hold zero plus the sums over the first 5000·(t+1) rows. -/
theorem bnr14_acc (c : Dev nD) : ∀ (n : ℕ) (t : Fin cfg14.N), t.val = n → ∀ j : Fin 64,
    (outsAt14 V c t.val t.isLt).1 (ix2 (0 : Fin 1) j) = Cert.Spec.zeroW + ∑ x ∈ Finset.range (5000 * (t.val + 1)), colN (V c main_v155) j x
    ∧ (outsAt14 V c t.val t.isLt).2 (ix2 (0 : Fin 1) j)
        = Cert.Spec.zeroW + ∑ x ∈ Finset.range (5000 * (t.val + 1)), colN (V c main_v155) j x * colN (V c main_v155) j x := by
  intro n
  induction n with
  | zero =>
    intro t ht j
    have h0 : t.val % 10 = 0 := by omega
    refine ⟨?_, ?_⟩
    · rw [bnr14_first1 V c t h0]
      refine (bnSum_at14 (blk14 V c t) (k14_pay1 (F := Ideal)) j).trans ?_
      rw [bnZero_at14 j, bnr14_blockSum V c t j, ht]
      simp only [Nat.mul_zero, Nat.zero_add, Nat.mul_one]
    · rw [bnr14_first2 V c t h0]
      refine (bnSumSq_at14 (blk14 V c t) (k14_pay2 (F := Ideal)) j).trans ?_
      rw [bnZero'_at14 j, bnr14_blockSumSq V c t j, ht]
      simp only [Nat.mul_zero, Nat.zero_add, Nat.mul_one]
  | succ n ih =>
    intro t ht j
    have ht10 : t.val < 10 := t.isLt
    have h0 : ¬ t.val % 10 = 0 := by omega
    have hlt' : t.val - 1 < cfg14.N := Nat.lt_of_le_of_lt (Nat.sub_le _ _) t.isLt
    have hprev := ih ⟨t.val - 1, hlt'⟩ (by show t.val - 1 = n; omega) j
    have hsplit : 5000 * (t.val + 1) = 5000 * (t.val - 1 + 1) + 5000 := by omega
    have hoff : 5000 * (t.val - 1 + 1) = 5000 * t.val := by omega
    refine ⟨?_, ?_⟩
    · rw [bnr14_later1 V c t h0 hlt']
      refine (bnSum_at14 (blk14 V c t) (outsAt14 V c (t.val - 1) hlt').1 j).trans ?_
      rw [hprev.1, bnr14_blockSum V c t j, hsplit, Finset.sum_range_add, add_assoc, hoff]
    · rw [bnr14_later2 V c t h0 hlt']
      refine (bnSumSq_at14 (blk14 V c t) (outsAt14 V c (t.val - 1) hlt').2 j).trans ?_
      rw [hprev.2, bnr14_blockSumSq V c t j, hsplit, Finset.sum_range_add, add_assoc, hoff]

/-! ## The two arrays after the region -/

theorem bnr14_mem1 (t : Fin cfg14.N) (i : S1x64.Idx) :
    i ∈ ((cfg14.win 1).blk t).view.set ↔ ∀ a : Fin 2, win14_1.index t a * S1x64.size a ≤ (i a).val ∧ (i a).val < win14_1.index t a * S1x64.size a + S1x64.size a := by
  show i ∈ ((View.whole main_v160_0).slice (win14_1.rect t)).set ↔ _
  rw [View.set_slice_whole, Rect.mem_set_unit]
  exact Iff.rfl

theorem bnr14_mem2 (t : Fin cfg14.N) (i : S1x64.Idx) :
    i ∈ ((cfg14.win 2).blk t).view.set ↔ ∀ a : Fin 2, win14_2.index t a * S1x64.size a ≤ (i a).val ∧ (i a).val < win14_2.index t a * S1x64.size a + S1x64.size a := by
  show i ∈ ((View.whole main_v160_1).slice (win14_2.rect t)).set ↔ _
  rw [View.set_slice_whole, Rect.mem_set_unit]
  exact Iff.rfl

/-- What the last point writes back into the first row. -/
theorem bnr14_flushed1 (c : Dev nD) (t : Fin cfg14.N) (hf : (cfg14.win 1).flush t = true) :
    (dat14 V c).flushed 1 t = ((cfg14.win 1).blk t).view.read (Elt Ideal) (sumRowOf (V c main_v155)) := by
  have h9 : t.val % 10 = 9 := (flush14_1 t).mp hf
  have ht : t.val < 10 := t.isLt
  obtain ⟨e0, e1, e2, e3, e4, e5⟩ := bnr14_idx t
  show (cfg14.win 1).cut (grid14.coords t) ((dat14 V c).after 1 t) = _
  rw [after14_1]
  funext jx
  obtain ⟨u, j, rfl⟩ : ∃ (u : Fin 1) (j : Fin 64), jx = ix2 u j := ⟨jx 0, jx 1, eq_ix2 jx⟩
  have hu : u = 0 := Fin.ext (by omega)
  subst hu
  show (outsAt14 V c t.val t.isLt).1 (ix2 (0 : Fin 1) j) = sumRowOf (V c main_v155) (((cfg14.win 1).blk t).view.emb (ix2 (0 : Fin 1) j))
  rw [(bnr14_acc V c t.val t rfl j).1]
  have h50 : 5000 * (t.val + 1) = 50000 := by omega
  rw [h50, colN_sum]
  unfold sumRowOf
  have hj : (((cfg14.win 1).blk t).view.emb (ix2 (0 : Fin 1) j)) 1 = j := by
    apply Fin.ext
    show win14_1.index t (1 : Fin 2) * 64 + 1 * j.val = j.val; omega
  rw [hj]

/-- What the last point writes back into the second row. -/
theorem bnr14_flushed2 (c : Dev nD) (t : Fin cfg14.N) (hf : (cfg14.win 2).flush t = true) :
    (dat14 V c).flushed 2 t = ((cfg14.win 2).blk t).view.read (Elt Ideal) (sqRowOf (V c main_v155)) := by
  have h9 : t.val % 10 = 9 := (flush14_2 t).mp hf
  have ht : t.val < 10 := t.isLt
  obtain ⟨e0, e1, e2, e3, e4, e5⟩ := bnr14_idx t
  show (cfg14.win 2).cut (grid14.coords t) ((dat14 V c).after 2 t) = _
  rw [after14_2]
  funext jx
  obtain ⟨u, j, rfl⟩ : ∃ (u : Fin 1) (j : Fin 64), jx = ix2 u j := ⟨jx 0, jx 1, eq_ix2 jx⟩
  have hu : u = 0 := Fin.ext (by omega)
  subst hu
  show (outsAt14 V c t.val t.isLt).2 (ix2 (0 : Fin 1) j) = sqRowOf (V c main_v155) (((cfg14.win 2).blk t).view.emb (ix2 (0 : Fin 1) j))
  rw [(bnr14_acc V c t.val t rfl j).2]
  have h50 : 5000 * (t.val + 1) = 50000 := by omega
  rw [h50, colN_sumSq]
  unfold sqRowOf
  have hj : (((cfg14.win 2).blk t).view.emb (ix2 (0 : Fin 1) j)) 1 = j := by
    apply Fin.ext
    show win14_2.index t (1 : Fin 2) * 64 + 1 * j.val = j.val; omega
  rw [hj]

theorem bnr14_cover1 (i : S1x64.Idx) :
    ∃ t : Fin cfg14.N, (cfg14.win 1).flush t = true ∧ i ∈ ((cfg14.win 1).blk t).view.set := by
  have hi0 : (i 0).val < 1 := (i 0).isLt
  have hi1 : (i 1).val < 64 := (i 1).isLt
  refine ⟨⟨9, by decide⟩, (flush14_1 _).mpr (by decide), ?_⟩
  rw [bnr14_mem1]
  obtain ⟨e0, e1, e2, e3, e4, e5⟩ := bnr14_idx ⟨9, by decide⟩
  intro a
  match a with
  | ⟨0, _⟩ => show win14_1.index _ (0 : Fin 2) * 1 ≤ (i 0).val ∧ (i 0).val < win14_1.index _ (0 : Fin 2) * 1 + 1; rw [e2]; omega
  | ⟨1, _⟩ => show win14_1.index _ (1 : Fin 2) * 64 ≤ (i 1).val ∧ (i 1).val < win14_1.index _ (1 : Fin 2) * 64 + 64; rw [e3]; omega

theorem bnr14_cover2 (i : S1x64.Idx) :
    ∃ t : Fin cfg14.N, (cfg14.win 2).flush t = true ∧ i ∈ ((cfg14.win 2).blk t).view.set := by
  have hi0 : (i 0).val < 1 := (i 0).isLt
  have hi1 : (i 1).val < 64 := (i 1).isLt
  refine ⟨⟨9, by decide⟩, (flush14_2 _).mpr (by decide), ?_⟩
  rw [bnr14_mem2]
  obtain ⟨e0, e1, e2, e3, e4, e5⟩ := bnr14_idx ⟨9, by decide⟩
  intro a
  match a with
  | ⟨0, _⟩ => show win14_2.index _ (0 : Fin 2) * 1 ≤ (i 0).val ∧ (i 0).val < win14_2.index _ (0 : Fin 2) * 1 + 1; rw [e4]; omega
  | ⟨1, _⟩ => show win14_2.index _ (1 : Fin 2) * 64 ≤ (i 1).val ∧ (i 1).val < win14_2.index _ (1 : Fin 2) * 64 + 64; rw [e5]; omega

/-- The column sums after the region. -/
theorem bnr14_final1 (c : Dev nD) : (dat14 V c).arrAt 1 cfg14.N = sumRowOf (V c main_v155) :=
  (dat14 V c).arrAt_eq_of_cover 1 _ (fun t hf => bnr14_flushed1 V c t hf) bnr14_cover1

/-- The column sums of squares after the region. -/
theorem bnr14_final2 (c : Dev nD) : (dat14 V c).arrAt 2 cfg14.N = sqRowOf (V c main_v155) :=
  (dat14 V c).arrAt_eq_of_cover 2 _ (fun t hf => bnr14_flushed2 V c t hf) bnr14_cover2

end Region14

end Cert.KernelIdeal.Vals

end
-- ==== Proof.ValBnNormalize3.lean ====
/-
  What the normalize region leaves in its output array. The grid has 10 points; point t takes rows
  5000·t … 5000·t + 4999 of the aggregated features and of the layer's input (both 50000 × 64), and the four rows
  (column sums, column sums of squares, scale, shift; each 1 × 64) whole, and writes the same rows of the output.
  Every row is in exactly one block, so the output ends, at (i, j), as the entry computed from column j's sums.
-/
import proofs.«111449_j80633716015168_2_alg».proof.Proof.Gen.KernelIdeal.Frame
import proofs.«111449_j80633716015168_2_alg».proof.Proof.ValBnNormalize
import proofs.«111449_j80633716015168_2_alg».proof.Proof.BodyLayers

set_option maxRecDepth 16384

noncomputable section

namespace Cert.KernelIdeal.Vals

open Idealize.ShloMosaic Idealize.ShloMosaic.TcCoe Idealize.ShloMosaic.ValueIdx
open Idealize.ShloMosaic.Pipeline (Dat)
open Cert.KernelIdeal Cert.KernelIdeal.Gen Cert.KernelIdeal.Bodies

section Region15
variable (V : (c : Dev nD) → (b : Ref sig .tc) → Buf (Elt Ideal) ((c : Thread nD τ).loc b))

/-- The index maps of region 3 over its grid: the two row windows and the output move with the point, the four
    one-row windows stay. -/
theorem bnn15_idx : ∀ t : Fin cfg15.N, win15_0.index t (0 : Fin 2) = t.val ∧ win15_0.index t (1 : Fin 2) = 0
    ∧ win15_1.index t (0 : Fin 2) = t.val ∧ win15_1.index t (1 : Fin 2) = 0
    ∧ win15_2.index t (0 : Fin 2) = 0 ∧ win15_2.index t (1 : Fin 2) = 0
    ∧ win15_3.index t (0 : Fin 2) = 0 ∧ win15_3.index t (1 : Fin 2) = 0
    ∧ win15_4.index t (0 : Fin 2) = 0 ∧ win15_4.index t (1 : Fin 2) = 0
    ∧ win15_5.index t (0 : Fin 2) = 0 ∧ win15_5.index t (1 : Fin 2) = 0
    ∧ win15_6.index t (0 : Fin 2) = t.val ∧ win15_6.index t (1 : Fin 2) = 0 :=
  (by decide +kernel : ∀ t : Fin grid15.N, _)

/-- Row r of point t's block is row 5000·t + r of the arrays. -/
def bnn15_row (t : Fin cfg15.N) (r : Fin 5000) : Fin 50000 :=
  ⟨5000 * t.val + r.val, by have ht : t.val < 10 := t.isLt; have := r.isLt; omega⟩

theorem bnn15_emb0 (t : Fin cfg15.N) (r : Fin 5000) (j : Fin 64) : ((cfg15.win 0).blk t).view.emb (ix2 r j) = ix2 (bnn15_row t r) j := by
  obtain ⟨a0, a1, b0, b1, c0, c1, d0, d1, e0, e1, f0, f1, g0, g1⟩ := bnn15_idx t
  funext a; apply Fin.ext
  match a with
  | ⟨0, _⟩ => show win15_0.index t (0 : Fin 2) * 5000 + 1 * r.val = 5000 * t.val + r.val; omega
  | ⟨1, _⟩ => show win15_0.index t (1 : Fin 2) * 64 + 1 * j.val = j.val; omega
theorem bnn15_emb1 (t : Fin cfg15.N) (r : Fin 5000) (j : Fin 64) : ((cfg15.win 1).blk t).view.emb (ix2 r j) = ix2 (bnn15_row t r) j := by
  obtain ⟨a0, a1, b0, b1, c0, c1, d0, d1, e0, e1, f0, f1, g0, g1⟩ := bnn15_idx t
  funext a; apply Fin.ext
  match a with
  | ⟨0, _⟩ => show win15_1.index t (0 : Fin 2) * 5000 + 1 * r.val = 5000 * t.val + r.val; omega
  | ⟨1, _⟩ => show win15_1.index t (1 : Fin 2) * 64 + 1 * j.val = j.val; omega
theorem bnn15_emb2 (t : Fin cfg15.N) (j : Fin 64) : ((cfg15.win 2).blk t).view.emb (ix2 (0 : Fin 1) j) = ix2 (0 : Fin 1) j := by
  obtain ⟨a0, a1, b0, b1, c0, c1, d0, d1, e0, e1, f0, f1, g0, g1⟩ := bnn15_idx t
  funext a; apply Fin.ext
  match a with
  | ⟨0, _⟩ => show win15_2.index t (0 : Fin 2) * 1 + 1 * 0 = 0; omega
  | ⟨1, _⟩ => show win15_2.index t (1 : Fin 2) * 64 + 1 * j.val = j.val; omega
theorem bnn15_emb3 (t : Fin cfg15.N) (j : Fin 64) : ((cfg15.win 3).blk t).view.emb (ix2 (0 : Fin 1) j) = ix2 (0 : Fin 1) j := by
  obtain ⟨a0, a1, b0, b1, c0, c1, d0, d1, e0, e1, f0, f1, g0, g1⟩ := bnn15_idx t
  funext a; apply Fin.ext
  match a with
  | ⟨0, _⟩ => show win15_3.index t (0 : Fin 2) * 1 + 1 * 0 = 0; omega
  | ⟨1, _⟩ => show win15_3.index t (1 : Fin 2) * 64 + 1 * j.val = j.val; omega
theorem bnn15_emb4 (t : Fin cfg15.N) (j : Fin 64) : ((cfg15.win 4).blk t).view.emb (ix2 (0 : Fin 1) j) = ix2 (0 : Fin 1) j := by
  obtain ⟨a0, a1, b0, b1, c0, c1, d0, d1, e0, e1, f0, f1, g0, g1⟩ := bnn15_idx t
  funext a; apply Fin.ext
  match a with
  | ⟨0, _⟩ => show win15_4.index t (0 : Fin 2) * 1 + 1 * 0 = 0; omega
  | ⟨1, _⟩ => show win15_4.index t (1 : Fin 2) * 64 + 1 * j.val = j.val; omega
theorem bnn15_emb5 (t : Fin cfg15.N) (j : Fin 64) : ((cfg15.win 5).blk t).view.emb (ix2 (0 : Fin 1) j) = ix2 (0 : Fin 1) j := by
  obtain ⟨a0, a1, b0, b1, c0, c1, d0, d1, e0, e1, f0, f1, g0, g1⟩ := bnn15_idx t
  funext a; apply Fin.ext
  match a with
  | ⟨0, _⟩ => show win15_5.index t (0 : Fin 2) * 1 + 1 * 0 = 0; omega
  | ⟨1, _⟩ => show win15_5.index t (1 : Fin 2) * 64 + 1 * j.val = j.val; omega
theorem bnn15_emb6 (t : Fin cfg15.N) (r : Fin 5000) (j : Fin 64) : ((cfg15.win 6).blk t).view.emb (ix2 r j) = ix2 (bnn15_row t r) j := by
  obtain ⟨a0, a1, b0, b1, c0, c1, d0, d1, e0, e1, f0, f1, g0, g1⟩ := bnn15_idx t
  funext a; apply Fin.ext
  match a with
  | ⟨0, _⟩ => show win15_6.index t (0 : Fin 2) * 5000 + 1 * r.val = 5000 * t.val + r.val; omega
  | ⟨1, _⟩ => show win15_6.index t (1 : Fin 2) * 64 + 1 * j.val = j.val; omega

theorem bnn15_read0 (c : Dev nD) (t : Fin cfg15.N) (r : Fin 5000) (j : Fin 64) :
    iblk15 V c 0 t (ix2 r j) = V c main_v155 (ix2 (bnn15_row t r) j) := congrArg (V c main_v155) (bnn15_emb0 t r j)
theorem bnn15_read1 (c : Dev nD) (t : Fin cfg15.N) (r : Fin 5000) (j : Fin 64) :
    iblk15 V c 1 t (ix2 r j) = V c main_v131 (ix2 (bnn15_row t r) j) := congrArg (V c main_v131) (bnn15_emb1 t r j)
theorem bnn15_read2 (c : Dev nD) (t : Fin cfg15.N) (j : Fin 64) :
    iblk15 V c 2 t (ix2 (0 : Fin 1) j) = V c main_v160_0 (ix2 (0 : Fin 1) j) := congrArg (V c main_v160_0) (bnn15_emb2 t j)
theorem bnn15_read3 (c : Dev nD) (t : Fin cfg15.N) (j : Fin 64) :
    iblk15 V c 3 t (ix2 (0 : Fin 1) j) = V c main_v160_1 (ix2 (0 : Fin 1) j) := congrArg (V c main_v160_1) (bnn15_emb3 t j)
theorem bnn15_read4 (c : Dev nD) (t : Fin cfg15.N) (j : Fin 64) :
    iblk15 V c 4 t (ix2 (0 : Fin 1) j) = V c main_v157 (ix2 (0 : Fin 1) j) := congrArg (V c main_v157) (bnn15_emb4 t j)
theorem bnn15_read5 (c : Dev nD) (t : Fin cfg15.N) (j : Fin 64) :
    iblk15 V c 5 t (ix2 (0 : Fin 1) j) = V c main_v159 (ix2 (0 : Fin 1) j) := congrArg (V c main_v159) (bnn15_emb5 t j)

/-- The block's output at (r, j) is the layer's output at row 5000·t + r. -/
theorem bnn15_point (c : Dev nD) (t : Fin cfg15.N) (r : Fin 5000) (j : Fin 64) :
    k15_pay1 (F := Ideal) (iblk15 V c 2 t) (iblk15 V c 3 t) (iblk15 V c 0 t) (iblk15 V c 4 t) (iblk15 V c 5 t) (iblk15 V c 1 t) (ix2 r j)
      = bnnOf (V c main_v155) (V c main_v131) (V c main_v160_0) (V c main_v160_1) (V c main_v157) (V c main_v159) (ix2 (bnn15_row t r) j) := by
  refine ((bnNormalize_at15 (iblk15 V c 2 t) (iblk15 V c 3 t) (iblk15 V c 0 t) (iblk15 V c 4 t) (iblk15 V c 5 t) (iblk15 V c 1 t) r j).trans ?_).trans
    (bnnOf_apply (V c main_v155) (V c main_v131) (V c main_v160_0) (V c main_v160_1) (V c main_v157) (V c main_v159) (bnn15_row t r) j).symm
  rw [bnn15_read0 V c t r j, bnn15_read1 V c t r j, bnn15_read2 V c t j, bnn15_read3 V c t j, bnn15_read4 V c t j, bnn15_read5 V c t j]

/-- What point t writes back is block t of the layer's output. -/
theorem bnn15_flushed (c : Dev nD) (t : Fin cfg15.N) :
    (dat15 V c).flushed 6 t = ((cfg15.win 6).blk t).view.read (Elt Ideal)
      (bnnOf (V c main_v155) (V c main_v131) (V c main_v160_0) (V c main_v160_1) (V c main_v157) (V c main_v159)) := by
  show (cfg15.win 6).cut (grid15.coords t) ((dat15 V c).after 6 t) = _
  rw [after15_6]
  unfold out15_6
  rw [View.canon_unit_zero zeroOffn2]
  simp only [View.ld_unit_zero (S := S5000x64) zeroOffn2, View.ld_unit_zero (S := S1x64) zeroOffn2]
  funext jx
  obtain ⟨r, j, rfl⟩ : ∃ (r : Fin 5000) (j : Fin 64), jx = ix2 r j := ⟨jx 0, jx 1, eq_ix2 jx⟩
  refine (bnn15_point V c t r j).trans ?_
  show _ = bnnOf (V c main_v155) (V c main_v131) (V c main_v160_0) (V c main_v160_1) (V c main_v157) (V c main_v159) (((cfg15.win 6).blk t).view.emb (ix2 r j))
  rw [bnn15_emb6 t r j]

/-- An index of the output array is in point t's block iff each coordinate is in the block's range. -/
theorem bnn15_mem (t : Fin cfg15.N) (i : S50000x64.Idx) :
    i ∈ ((cfg15.win 6).blk t).view.set ↔ ∀ a : Fin 2, win15_6.index t a * S5000x64.size a ≤ (i a).val ∧ (i a).val < win15_6.index t a * S5000x64.size a + S5000x64.size a := by
  show i ∈ ((View.whole main_v161).slice (win15_6.rect t)).set ↔ _
  rw [View.set_slice_whole, Rect.mem_set_unit]
  exact Iff.rfl

/-- Every row is in the block of the point its number divided by 5000 names. -/
theorem bnn15_cover (i : S50000x64.Idx) :
    ∃ t : Fin cfg15.N, (cfg15.win 6).flush t = true ∧ i ∈ ((cfg15.win 6).blk t).view.set := by
  have hi0 : (i 0).val < 50000 := (i 0).isLt
  have hi1 : (i 1).val < 64 := (i 1).isLt
  refine ⟨⟨(i 0).val / 5000, by show _ < 10; omega⟩, flush15_6 _, ?_⟩
  rw [bnn15_mem]
  obtain ⟨a0, a1, b0, b1, c0, c1, d0, d1, e0, e1, f0, f1, g0, g1⟩ := bnn15_idx ⟨(i 0).val / 5000, by show _ < 10; omega⟩
  intro a
  match a with
  | ⟨0, _⟩ => show win15_6.index _ (0 : Fin 2) * 5000 ≤ (i 0).val ∧ (i 0).val < win15_6.index _ (0 : Fin 2) * 5000 + 5000; rw [g0]; show (i 0).val / 5000 * 5000 ≤ _ ∧ _ < (i 0).val / 5000 * 5000 + 5000; omega
  | ⟨1, _⟩ => show win15_6.index _ (1 : Fin 2) * 64 ≤ (i 1).val ∧ (i 1).val < win15_6.index _ (1 : Fin 2) * 64 + 64; rw [g1]; omega

/-- The output array of region 3 after the region. -/
theorem bnn15_final (c : Dev nD) : (dat15 V c).arrAt 6 cfg15.N
    = bnnOf (V c main_v155) (V c main_v131) (V c main_v160_0) (V c main_v160_1) (V c main_v157) (V c main_v159) :=
  (dat15 V c).arrAt_eq_of_cover 6 _ (fun t _ => bnn15_flushed V c t) bnn15_cover

end Region15

end Cert.KernelIdeal.Vals

end
-- ==== Proof.KL3.lean ====
/-
  Layer 3, segment by segment: what each buffer the layer produces holds after the segment that produces it, in terms of the buffers before that segment.
-/
import proofs.«111449_j80633716015168_2_alg».proof.Proof.Gen.KernelIdeal.Frame
import proofs.«111449_j80633716015168_2_alg».proof.Proof.KHost
import proofs.«111449_j80633716015168_2_alg».proof.Proof.ValNodeTransform3
import proofs.«111449_j80633716015168_2_alg».proof.Proof.ValEdgeMessage3
import proofs.«111449_j80633716015168_2_alg».proof.Proof.ValBnReduce3
import proofs.«111449_j80633716015168_2_alg».proof.Proof.ValBnNormalize3
import Idealize.ShloMosaic.Lib.StableHlo.Run

set_option maxRecDepth 16384

noncomputable section

namespace Cert.KernelIdeal.Gen

open Idealize.ShloMosaic Idealize.ShloMosaic.TcCoe Idealize.ShloMosaic.StableHlo Idealize.SL.Sem
open Cert.KernelIdeal Cert.KernelIdeal.Vals

variable (m : (ℓ : Loc nD τ sig) → Buf (Elt Ideal) ℓ) (ρ : Dev nD → PrngReg)

/-! ## Layer 3 -/
theorem W22_v133 (c : Dev nD) : W22 m ρ c (Proc.devRef .tc main_v133) = kWt3 (W21 m ρ c (Proc.devRef .tc main_v38)) :=
  by
  show StableHlo.after hostOps12 (W21 m ρ c) (Proc.devRef .tc main_v133) = _
  after_results_simp
  try rfl
theorem W22_v133' (c : Dev nD) : W22 m ρ c (no_index (Proc.devRef .tc main_v133)) = kWt3 (W21 m ρ c (Proc.devRef .tc main_v38)) := W22_v133 m ρ c
theorem W23_v134 (c : Dev nD) : W23 m ρ c (Proc.devRef .tc main_v134) = hkOf (W22 m ρ c (Proc.devRef .tc main_v131)) (W22 m ρ c (Proc.devRef .tc main_v133)) :=
  (W23_arr m ρ c 2).trans (nt12_final (V22 m ρ) c)
theorem W23_v134' (c : Dev nD) : W23 m ρ c (no_index (Proc.devRef .tc main_v134)) = hkOf (W22 m ρ c (Proc.devRef .tc main_v131)) (W22 m ρ c (Proc.devRef .tc main_v133)) := W23_v134 m ρ c
theorem W24_v142 (c : Dev nD) : W24 m ρ c (Proc.devRef .tc main_v142) = hkSrcK (W23 m ρ c (Proc.devRef .tc main_v134)) (W23 m ρ c (Proc.devRef .tc main_arg1)) :=
  by
  show StableHlo.after hostOps13 (W23 m ρ c) (Proc.devRef .tc main_v142) = _
  after_results_simp
  try rfl
theorem W24_v142' (c : Dev nD) : W24 m ρ c (no_index (Proc.devRef .tc main_v142)) = hkSrcK (W23 m ρ c (Proc.devRef .tc main_v134)) (W23 m ρ c (Proc.devRef .tc main_arg1)) := W24_v142 m ρ c
theorem W24_v144 (c : Dev nD) : W24 m ρ c (Proc.devRef .tc main_v144) = kA3 (W23 m ρ c (Proc.devRef .tc main_arg10)) :=
  by
  show StableHlo.after hostOps13 (W23 m ρ c) (Proc.devRef .tc main_v144) = _
  after_results_simp
  try rfl
theorem W24_v144' (c : Dev nD) : W24 m ρ c (no_index (Proc.devRef .tc main_v144)) = kA3 (W23 m ρ c (Proc.devRef .tc main_arg10)) := W24_v144 m ρ c
theorem W24_v146 (c : Dev nD) : W24 m ρ c (Proc.devRef .tc main_v146) = kB3 (W23 m ρ c (Proc.devRef .tc main_v39)) :=
  by
  show StableHlo.after hostOps13 (W23 m ρ c) (Proc.devRef .tc main_v146) = _
  after_results_simp
  try rfl
theorem W24_v146' (c : Dev nD) : W24 m ρ c (no_index (Proc.devRef .tc main_v146)) = kB3 (W23 m ρ c (Proc.devRef .tc main_v39)) := W24_v146 m ρ c
theorem W24_v148 (c : Dev nD) : W24 m ρ c (Proc.devRef .tc main_v148) = kM3 (W23 m ρ c (Proc.devRef .tc main_arg6)) :=
  by
  show StableHlo.after hostOps13 (W23 m ρ c) (Proc.devRef .tc main_v148) = _
  after_results_simp
  try rfl
theorem W24_v148' (c : Dev nD) : W24 m ρ c (no_index (Proc.devRef .tc main_v148)) = kM3 (W23 m ρ c (Proc.devRef .tc main_arg6)) := W24_v148 m ρ c
theorem W24_v150 (c : Dev nD) : W24 m ρ c (Proc.devRef .tc main_v150) = kM3 (W23 m ρ c (Proc.devRef .tc main_arg7)) :=
  by
  show StableHlo.after hostOps13 (W23 m ρ c) (Proc.devRef .tc main_v150) = _
  after_results_simp
  try rfl
theorem W24_v150' (c : Dev nD) : W24 m ρ c (no_index (Proc.devRef .tc main_v150)) = kM3 (W23 m ρ c (Proc.devRef .tc main_arg7)) := W24_v150 m ρ c
theorem W25_v151 (c : Dev nD) : W25 m ρ c (Proc.devRef .tc main_v151) = msgOf (W24 m ρ c (Proc.devRef .tc main_v30)) (W24 m ρ c (Proc.devRef .tc main_v142)) (W24 m ρ c (Proc.devRef .tc main_v144)) (W24 m ρ c (Proc.devRef .tc main_v146)) (W24 m ρ c (Proc.devRef .tc main_v148)) (W24 m ρ c (Proc.devRef .tc main_v150)) :=
  (W25_arr m ρ c 6).trans (em13_final (V24 m ρ) c)
theorem W25_v151' (c : Dev nD) : W25 m ρ c (no_index (Proc.devRef .tc main_v151)) = msgOf (W24 m ρ c (Proc.devRef .tc main_v30)) (W24 m ρ c (Proc.devRef .tc main_v142)) (W24 m ρ c (Proc.devRef .tc main_v144)) (W24 m ρ c (Proc.devRef .tc main_v146)) (W24 m ρ c (Proc.devRef .tc main_v148)) (W24 m ρ c (Proc.devRef .tc main_v150)) := W25_v151 m ρ c
theorem W26_v155 (c : Dev nD) : W26 m ρ c (Proc.devRef .tc main_v155) = aggK (W25 m ρ c (Proc.devRef .tc main_arg2)) (W25 m ρ c (Proc.devRef .tc main_v151)) :=
  by
  show StableHlo.after hostOps14 (W25 m ρ c) (Proc.devRef .tc main_v155) = _
  after_results_simp
  try rfl
theorem W26_v155' (c : Dev nD) : W26 m ρ c (no_index (Proc.devRef .tc main_v155)) = aggK (W25 m ρ c (Proc.devRef .tc main_arg2)) (W25 m ρ c (Proc.devRef .tc main_v151)) := W26_v155 m ρ c
theorem W26_v157 (c : Dev nD) : W26 m ρ c (Proc.devRef .tc main_v157) = kG3 (W25 m ρ c (Proc.devRef .tc main_v40)) :=
  by
  show StableHlo.after hostOps14 (W25 m ρ c) (Proc.devRef .tc main_v157) = _
  after_results_simp
  try rfl
theorem W26_v157' (c : Dev nD) : W26 m ρ c (no_index (Proc.devRef .tc main_v157)) = kG3 (W25 m ρ c (Proc.devRef .tc main_v40)) := W26_v157 m ρ c
theorem W26_v159 (c : Dev nD) : W26 m ρ c (Proc.devRef .tc main_v159) = kG3 (W25 m ρ c (Proc.devRef .tc main_v41)) :=
  by
  show StableHlo.after hostOps14 (W25 m ρ c) (Proc.devRef .tc main_v159) = _
  after_results_simp
  try rfl
theorem W26_v159' (c : Dev nD) : W26 m ρ c (no_index (Proc.devRef .tc main_v159)) = kG3 (W25 m ρ c (Proc.devRef .tc main_v41)) := W26_v159 m ρ c
theorem W27_v160_0 (c : Dev nD) : W27 m ρ c (Proc.devRef .tc main_v160_0) = sumRowOf (W26 m ρ c (Proc.devRef .tc main_v155)) :=
  (W27_arr m ρ c 1).trans (bnr14_final1 (V26 m ρ) c)
theorem W27_v160_0' (c : Dev nD) : W27 m ρ c (no_index (Proc.devRef .tc main_v160_0)) = sumRowOf (W26 m ρ c (Proc.devRef .tc main_v155)) := W27_v160_0 m ρ c
theorem W27_v160_1 (c : Dev nD) : W27 m ρ c (Proc.devRef .tc main_v160_1) = sqRowOf (W26 m ρ c (Proc.devRef .tc main_v155)) :=
  (W27_arr m ρ c 2).trans (bnr14_final2 (V26 m ρ) c)
theorem W27_v160_1' (c : Dev nD) : W27 m ρ c (no_index (Proc.devRef .tc main_v160_1)) = sqRowOf (W26 m ρ c (Proc.devRef .tc main_v155)) := W27_v160_1 m ρ c
theorem W28_v161 (c : Dev nD) : W28 m ρ c (Proc.devRef .tc main_v161) = bnnOf (W27 m ρ c (Proc.devRef .tc main_v155)) (W27 m ρ c (Proc.devRef .tc main_v131)) (W27 m ρ c (Proc.devRef .tc main_v160_0)) (W27 m ρ c (Proc.devRef .tc main_v160_1)) (W27 m ρ c (Proc.devRef .tc main_v157)) (W27 m ρ c (Proc.devRef .tc main_v159)) :=
  (W28_arr m ρ c 6).trans (bnn15_final (V27 m ρ) c)
theorem W28_v161' (c : Dev nD) : W28 m ρ c (no_index (Proc.devRef .tc main_v161)) = bnnOf (W27 m ρ c (Proc.devRef .tc main_v155)) (W27 m ρ c (Proc.devRef .tc main_v131)) (W27 m ρ c (Proc.devRef .tc main_v160_0)) (W27 m ρ c (Proc.devRef .tc main_v160_1)) (W27 m ρ c (Proc.devRef .tc main_v157)) (W27 m ρ c (Proc.devRef .tc main_v159)) := W28_v161 m ρ c

end Cert.KernelIdeal.Gen

end
-- ==== Proof.BodyMlp.lean ====
/-
  The readout body at exact arithmetic. The block holds 256 pooled graph rows g (256 × 64). Three dense layers follow one
  another: y1 = max(g·W1 + b1, 0) (256 × 32), y2 = max(y1·W2 + b2, 0) (256 × 16), y3 = y2·W3 + b3 (256 × 1). Every product
  is taken into a zero accumulator, every bias is one row repeated down the rows, a cast to the same shape changes
  nothing, and every change of float format around the products is the identity on the extended reals. So the stored
  block, at row p, is the nested sum of the three layers written out (mlpRow).
-/
import proofs.«111449_j80633716015168_2_alg».proof.Proof.Gen.KernelIdeal.Skeleton
import proofs.«111449_j80633716015168_2_alg».proof.Proof.LibDense
import Idealize.ShloMosaic.PureOps.Ideal.Laws
import Idealize.ShloMosaic.Lib.ValueIdx
import Idealize.ShloMosaic.Lib.ValueLayout
import Idealize.ShloMosaic.Lib.Pipeline.Value

noncomputable section

namespace Cert.KernelIdeal.Bodies

open Idealize.ShloMosaic Idealize.ShloMosaic.ValueIdx Cert.KernelIdeal Cert.KernelIdeal.Gen

/-! ## A dense layer read at an entry -/

section Dense
variable {M K N : Nat}

/-- A product of an [M, K] by a [K, N] matrix into the zero accumulator, plus one bias row [1, N] repeated down the
    rows, read at (p, q): the sum over k of x(p, k) · w(k, q), plus b(0, q). -/
theorem affineRow_at {φ₁ φ₂ : FTy} (D : DotDims ⟨2, ![M, K]⟩ ⟨2, ![K, N]⟩ ⟨2, ![M, N]⟩) (hr : D.contr.rank = 1)
    (hs : D.contr.size ⟨0, by omega⟩ = K)
    (hl0 : ∀ (i : (⟨2, ![M, N]⟩ : Shape).Idx) (c : D.contr.Idx), (D.lhsIdx i c 0).val = (i 0).val)
    (hl1 : ∀ (i : (⟨2, ![M, N]⟩ : Shape).Idx) (c : D.contr.Idx), (D.lhsIdx i c 1).val = (c ⟨0, by omega⟩).val)
    (hr0 : ∀ (i : (⟨2, ![M, N]⟩ : Shape).Idx) (c : D.contr.Idx), (D.rhsIdx i c 0).val = (c ⟨0, by omega⟩).val)
    (hr1 : ∀ (i : (⟨2, ![M, N]⟩ : Shape).Idx) (c : D.contr.Idx), (D.rhsIdx i c 1).val = (i 1).val)
    (x : FVec Ideal ⟨2, ![M, K]⟩ φ₁) (w : FVec Ideal ⟨2, ![K, N]⟩ φ₂) (b : FVec Ideal ⟨2, ![1, N]⟩ .f32)
    (hb : (⟨2, ![1, N]⟩ : Shape).Broadcasts ⟨2, ![M, N]⟩) (p : Fin M) (q : Fin N) :
    addf (matmul D none x w (constant ⟨2, ![M, N]⟩ .f32 0x00000000#32)) (broadcastTo ⟨2, ![M, N]⟩ b hb) (ix2 p q)
      = (∑ k : Fin K, x (ix2 p k) * w (ix2 k q)) + b (ix2 (0 : Fin 1) q) := by
  show matmul D none x w (constant ⟨2, ![M, N]⟩ .f32 0x00000000#32) (ix2 p q) + broadcastTo ⟨2, ![M, N]⟩ b hb (ix2 p q) = _
  rw [Cert.LibDense.matmul_zero_rc D hr hs hl0 hl1 hr0 hr1 none x w p q, broadcastTo_1b_ab_apply b hb p q]

/-- The same layer under the rectifier (the larger of the entry and the zero word's value), read at (p, q). -/
theorem reluRow_at {φ₁ φ₂ : FTy} (D : DotDims ⟨2, ![M, K]⟩ ⟨2, ![K, N]⟩ ⟨2, ![M, N]⟩) (hr : D.contr.rank = 1)
    (hs : D.contr.size ⟨0, by omega⟩ = K)
    (hl0 : ∀ (i : (⟨2, ![M, N]⟩ : Shape).Idx) (c : D.contr.Idx), (D.lhsIdx i c 0).val = (i 0).val)
    (hl1 : ∀ (i : (⟨2, ![M, N]⟩ : Shape).Idx) (c : D.contr.Idx), (D.lhsIdx i c 1).val = (c ⟨0, by omega⟩).val)
    (hr0 : ∀ (i : (⟨2, ![M, N]⟩ : Shape).Idx) (c : D.contr.Idx), (D.rhsIdx i c 0).val = (c ⟨0, by omega⟩).val)
    (hr1 : ∀ (i : (⟨2, ![M, N]⟩ : Shape).Idx) (c : D.contr.Idx), (D.rhsIdx i c 1).val = (i 1).val)
    (x : FVec Ideal ⟨2, ![M, K]⟩ φ₁) (w : FVec Ideal ⟨2, ![K, N]⟩ φ₂) (b : FVec Ideal ⟨2, ![1, N]⟩ .f32)
    (hb : (⟨2, ![1, N]⟩ : Shape).Broadcasts ⟨2, ![M, N]⟩) (p : Fin M) (q : Fin N) :
    maximumf (addf (matmul D none x w (constant ⟨2, ![M, N]⟩ .f32 0x00000000#32)) (broadcastTo ⟨2, ![M, N]⟩ b hb))
        (broadcast ⟨2, ![M, N]⟩ (Scalar.ofBits (F := Ideal) .f32 0x00000000#32)) (ix2 p q)
      = max ((∑ k : Fin K, x (ix2 p k) * w (ix2 k q)) + b (ix2 (0 : Fin 1) q)) (Ideal.ofBits .f32 0x00000000#32) := by
  show max (addf (matmul D none x w (constant ⟨2, ![M, N]⟩ .f32 0x00000000#32)) (broadcastTo ⟨2, ![M, N]⟩ b hb) (ix2 p q))
      (Ideal.ofBits .f32 0x00000000#32) = _
  rw [affineRow_at D hr hs hl0 hl1 hr0 hr1 x w b hb p q]

end Dense

/-! ## The three products' dimension records: rows of the left operand against columns of the right one -/

abbrev Dm1 : DotDims S256x64 S64x32 S256x32 := dot_S256x64_S64x32_S256x32_1_0_0_1_n_n
abbrev Dm2 : DotDims S256x32 S32x16 S256x16 := dot_S256x32_S32x16_S256x16_1_0_0_1_n_n
abbrev Dm3 : DotDims S256x16 S16x1 S256x1 := dot_S256x16_S16x1_S256x1_1_0_0_1_n_n

theorem m1_l0 (i : S256x32.Idx) (c : Dm1.contr.Idx) : (Dm1.lhsIdx i c 0).val = (i 0).val := by
  simp [DotDims.lhsIdx, Dm1, dot_S256x64_S64x32_S256x32_1_0_0_1_n_n] <;> rfl
theorem m1_l1 (i : S256x32.Idx) (c : Dm1.contr.Idx) : (Dm1.lhsIdx i c 1).val = (c ⟨0, by decide⟩).val := by
  simp [DotDims.lhsIdx, Dm1, dot_S256x64_S64x32_S256x32_1_0_0_1_n_n] <;> rfl
theorem m1_r0 (i : S256x32.Idx) (c : Dm1.contr.Idx) : (Dm1.rhsIdx i c 0).val = (c ⟨0, by decide⟩).val := by
  simp [DotDims.rhsIdx, Dm1, dot_S256x64_S64x32_S256x32_1_0_0_1_n_n] <;> rfl
theorem m1_r1 (i : S256x32.Idx) (c : Dm1.contr.Idx) : (Dm1.rhsIdx i c 1).val = (i 1).val := by
  simp [DotDims.rhsIdx, Dm1, dot_S256x64_S64x32_S256x32_1_0_0_1_n_n] <;> rfl

theorem m2_l0 (i : S256x16.Idx) (c : Dm2.contr.Idx) : (Dm2.lhsIdx i c 0).val = (i 0).val := by
  simp [DotDims.lhsIdx, Dm2, dot_S256x32_S32x16_S256x16_1_0_0_1_n_n] <;> rfl
theorem m2_l1 (i : S256x16.Idx) (c : Dm2.contr.Idx) : (Dm2.lhsIdx i c 1).val = (c ⟨0, by decide⟩).val := by
  simp [DotDims.lhsIdx, Dm2, dot_S256x32_S32x16_S256x16_1_0_0_1_n_n] <;> rfl
theorem m2_r0 (i : S256x16.Idx) (c : Dm2.contr.Idx) : (Dm2.rhsIdx i c 0).val = (c ⟨0, by decide⟩).val := by
  simp [DotDims.rhsIdx, Dm2, dot_S256x32_S32x16_S256x16_1_0_0_1_n_n] <;> rfl
theorem m2_r1 (i : S256x16.Idx) (c : Dm2.contr.Idx) : (Dm2.rhsIdx i c 1).val = (i 1).val := by
  simp [DotDims.rhsIdx, Dm2, dot_S256x32_S32x16_S256x16_1_0_0_1_n_n] <;> rfl

theorem m3_l0 (i : S256x1.Idx) (c : Dm3.contr.Idx) : (Dm3.lhsIdx i c 0).val = (i 0).val := by
  simp [DotDims.lhsIdx, Dm3, dot_S256x16_S16x1_S256x1_1_0_0_1_n_n] <;> rfl
theorem m3_l1 (i : S256x1.Idx) (c : Dm3.contr.Idx) : (Dm3.lhsIdx i c 1).val = (c ⟨0, by decide⟩).val := by
  simp [DotDims.lhsIdx, Dm3, dot_S256x16_S16x1_S256x1_1_0_0_1_n_n] <;> rfl
theorem m3_r0 (i : S256x1.Idx) (c : Dm3.contr.Idx) : (Dm3.rhsIdx i c 0).val = (c ⟨0, by decide⟩).val := by
  simp [DotDims.rhsIdx, Dm3, dot_S256x16_S16x1_S256x1_1_0_0_1_n_n] <;> rfl
theorem m3_r1 (i : S256x1.Idx) (c : Dm3.contr.Idx) : (Dm3.rhsIdx i c 1).val = (i 1).val := by
  have h1 : (i 1).val < 1 := (i 1).isLt
  simp [DotDims.rhsIdx, Dm3, dot_S256x16_S16x1_S256x1_1_0_0_1_n_n] <;> omega

/-! ## The three layers as the body computes them -/

/-- The first hidden layer, from the loaded rows, weights and bias row. -/
def act1 (hg : Vec Ideal S256x64 .f32) (w1 : Vec Ideal S64x32 .f32) (b1 : Vec Ideal S1x32 .f32) : FVec Ideal S256x32 .f32 :=
  maximumf (addf (matmul Dm1 none (truncf .bf16 (shapeCast S256x64 hg shapeCasts_S256x64_S256x64) bitsLt_bf16_f32)
      (truncf .bf16 (shapeCast S64x32 w1 shapeCasts_S64x32_S64x32) bitsLt_bf16_f32) (constant S256x32 .f32 0x00000000#32))
      (broadcastTo S256x32 (shapeCast S1x32 b1 shapeCasts_S1x32_S1x32) broadcasts_S1x32_S256x32))
    (broadcast S256x32 (Scalar.ofBits (F := Ideal) .f32 0x00000000#32))

/-- The second hidden layer, from the first one and the loaded weights and bias row. -/
def act2 (y1 : FVec Ideal S256x32 .f32) (w2 : Vec Ideal S32x16 .f32) (b2 : Vec Ideal S1x16 .f32) : FVec Ideal S256x16 .f32 :=
  maximumf (addf (matmul Dm2 none (truncf .bf16 y1 bitsLt_bf16_f32)
      (truncf .bf16 (shapeCast S32x16 w2 shapeCasts_S32x16_S32x16) bitsLt_bf16_f32) (constant S256x16 .f32 0x00000000#32))
      (broadcastTo S256x16 (shapeCast S1x16 b2 shapeCasts_S1x16_S1x16) broadcasts_S1x16_S256x16))
    (broadcast S256x16 (Scalar.ofBits (F := Ideal) .f32 0x00000000#32))

/-- The output layer (no rectifier), from the second hidden layer and the loaded weights and bias. -/
def out3 (y2 : FVec Ideal S256x16 .f32) (w3 : Vec Ideal S16x1 .f32) (b3 : Vec Ideal S1x1 .f32) : FVec Ideal S256x1 .f32 :=
  addf (matmul Dm3 none (truncf .bf16 y2 bitsLt_bf16_f32)
      (truncf .bf16 (shapeCast S16x1 w3 shapeCasts_S16x1_S16x1) bitsLt_bf16_f32) (constant S256x1 .f32 0x00000000#32))
    (broadcastTo S256x1 (shapeCast S1x1 b3 shapeCasts_S1x1_S1x1) broadcasts_S1x1_S256x1)

/-- The stored value is the three layers one after another (the definitions unfolded). -/
theorem pay16_eq (hg : Vec Ideal S256x64 .f32) (w1 : Vec Ideal S64x32 .f32) (b1 : Vec Ideal S1x32 .f32)
    (w2 : Vec Ideal S32x16 .f32) (b2 : Vec Ideal S1x16 .f32) (w3 : Vec Ideal S16x1 .f32) (b3 : Vec Ideal S1x1 .f32) :
    k16_pay1 (F := Ideal) hg w1 b1 w2 b2 w3 b3 = out3 (act2 (act1 hg w1 b1) w2 b2) w3 b3 := rfl

theorem act1_at (hg : Vec Ideal S256x64 .f32) (w1 : Vec Ideal S64x32 .f32) (b1 : Vec Ideal S1x32 .f32) (p : Fin 256) (q : Fin 32) :
    act1 hg w1 b1 (ix2 p q)
      = max ((∑ k : Fin 64, hg (ix2 p k) * w1 (ix2 k q)) + b1 (ix2 (0 : Fin 1) q)) (Ideal.ofBits .f32 0x00000000#32) := by
  unfold act1
  simp only [shapeCast_self]
  exact reluRow_at (M := 256) (K := 64) (N := 32) Dm1 rfl rfl m1_l0 m1_l1 m1_r0 m1_r1 _ _ b1 _ p q

theorem act2_at (y1 : FVec Ideal S256x32 .f32) (w2 : Vec Ideal S32x16 .f32) (b2 : Vec Ideal S1x16 .f32) (p : Fin 256) (q : Fin 16) :
    act2 y1 w2 b2 (ix2 p q)
      = max ((∑ k : Fin 32, y1 (ix2 p k) * w2 (ix2 k q)) + b2 (ix2 (0 : Fin 1) q)) (Ideal.ofBits .f32 0x00000000#32) := by
  unfold act2
  simp only [shapeCast_self]
  exact reluRow_at (M := 256) (K := 32) (N := 16) Dm2 rfl rfl m2_l0 m2_l1 m2_r0 m2_r1 _ _ b2 _ p q

theorem out3_at (y2 : FVec Ideal S256x16 .f32) (w3 : Vec Ideal S16x1 .f32) (b3 : Vec Ideal S1x1 .f32) (p : Fin 256) (q : Fin 1) :
    out3 y2 w3 b3 (ix2 p q) = (∑ k : Fin 16, y2 (ix2 p k) * w3 (ix2 k q)) + b3 (ix2 (0 : Fin 1) q) := by
  unfold out3
  simp only [shapeCast_self]
  exact affineRow_at (M := 256) (K := 16) (N := 1) Dm3 rfl rfl m3_l0 m3_l1 m3_r0 m3_r1 _ _ b3 _ p q

/-! ## The readout row -/

/-- One row of the readout: the three layers' nested sum at row p of the loaded blocks. -/
def mlpRow (hg : S256x64.Idx → EReal) (w1 : S64x32.Idx → EReal) (b1 : S1x32.Idx → EReal) (w2 : S32x16.Idx → EReal)
    (b2 : S1x16.Idx → EReal) (w3 : S16x1.Idx → EReal) (b3 : S1x1.Idx → EReal) (p : Fin 256) : EReal :=
  (∑ k3 : Fin 16,
      max ((∑ k2 : Fin 32,
          max ((∑ k1 : Fin 64, hg (ix2 p k1) * w1 (ix2 k1 k2)) + b1 (ix2 (0 : Fin 1) k2)) (Ideal.ofBits .f32 0x00000000#32)
            * w2 (ix2 k2 k3)) + b2 (ix2 (0 : Fin 1) k3)) (Ideal.ofBits .f32 0x00000000#32)
        * w3 (ix2 k3 (0 : Fin 1))) + b3 (ix2 (0 : Fin 1) (0 : Fin 1))

/-- The stored block of the readout at row p (its one column): the readout row of the loaded blocks. -/
theorem mlp_at (hg : Vec Ideal S256x64 .f32) (w1 : Vec Ideal S64x32 .f32) (b1 : Vec Ideal S1x32 .f32)
    (w2 : Vec Ideal S32x16 .f32) (b2 : Vec Ideal S1x16 .f32) (w3 : Vec Ideal S16x1 .f32) (b3 : Vec Ideal S1x1 .f32) (p : Fin 256) :
    k16_pay1 (F := Ideal) hg w1 b1 w2 b2 w3 b3 (ix2 p (0 : Fin 1)) = mlpRow hg w1 b1 w2 b2 w3 b3 p := by
  rw [pay16_eq, out3_at]
  unfold mlpRow
  simp only [act2_at, act1_at]

end Cert.KernelIdeal.Bodies

end
-- ==== Proof.ValMlp.lean ====
/-
  What the readout region leaves in its output array. The grid has one point; every window is the whole of its array:
  the pooled graph rows g (256 × 64), the three weight matrices and the three bias rows come in whole, and the
  output column (256 × 1) goes back whole. So the output array ends, at row i, as the readout row of the arrays the
  region found: the three dense layers' nested sum at row i.
-/
import proofs.«111449_j80633716015168_2_alg».proof.Proof.Gen.KernelIdeal.Frame
import proofs.«111449_j80633716015168_2_alg».proof.Proof.BodyMlp

set_option maxRecDepth 16384

noncomputable section

namespace Cert.KernelIdeal.Vals

open Idealize.ShloMosaic Idealize.ShloMosaic.TcCoe Idealize.ShloMosaic.ValueIdx
open Idealize.ShloMosaic.Pipeline (Dat)
open Cert.KernelIdeal Cert.KernelIdeal.Gen Cert.KernelIdeal.Bodies

/-- The readout of whole arrays: at row i (the one column), the readout row of the seven arrays. -/
def mlpOf (hg : S256x64.Idx → EReal) (w1 : S64x32.Idx → EReal) (b1 : S1x32.Idx → EReal) (w2 : S32x16.Idx → EReal)
    (b2 : S1x16.Idx → EReal) (w3 : S16x1.Idx → EReal) (b3 : S1x1.Idx → EReal) : S256x1.Idx → EReal :=
  fun i => mlpRow hg w1 b1 w2 b2 w3 b3 (i 0)

/-- The readout row depends only on its seven arrays and the row. -/
theorem mlpRow_congr {hg hg' : S256x64.Idx → EReal} {w1 w1' : S64x32.Idx → EReal} {b1 b1' : S1x32.Idx → EReal}
    {w2 w2' : S32x16.Idx → EReal} {b2 b2' : S1x16.Idx → EReal} {w3 w3' : S16x1.Idx → EReal} {b3 b3' : S1x1.Idx → EReal}
    {p p' : Fin 256} (h0 : hg = hg') (h1 : w1 = w1') (h2 : b1 = b1') (h3 : w2 = w2') (h4 : b2 = b2') (h5 : w3 = w3')
    (h6 : b3 = b3') (hp : p = p') : mlpRow hg w1 b1 w2 b2 w3 b3 p = mlpRow hg' w1' b1' w2' b2' w3' b3' p' := by
  subst h0 h1 h2 h3 h4 h5 h6 hp; rfl

theorem mlp16_zeroOff : (![0, 0] : Fin 2 → Nat) = fun _ => 0 := funext fun a => by fin_cases a <;> rfl

section Region16
variable (V : (c : Dev nD) → (b : Ref sig .tc) → Buf (Elt Ideal) ((c : Thread nD τ).loc b))

/-- The index maps of region 16 over its one-point grid: every window sits at block (0, 0). -/
theorem mlp16_idx : ∀ t : Fin cfg16.N, win16_0.index t (0 : Fin 2) = 0 ∧ win16_0.index t (1 : Fin 2) = 0
    ∧ win16_1.index t (0 : Fin 2) = 0 ∧ win16_1.index t (1 : Fin 2) = 0
    ∧ win16_2.index t (0 : Fin 2) = 0 ∧ win16_2.index t (1 : Fin 2) = 0
    ∧ win16_3.index t (0 : Fin 2) = 0 ∧ win16_3.index t (1 : Fin 2) = 0
    ∧ win16_4.index t (0 : Fin 2) = 0 ∧ win16_4.index t (1 : Fin 2) = 0
    ∧ win16_5.index t (0 : Fin 2) = 0 ∧ win16_5.index t (1 : Fin 2) = 0
    ∧ win16_6.index t (0 : Fin 2) = 0 ∧ win16_6.index t (1 : Fin 2) = 0
    ∧ win16_7.index t (0 : Fin 2) = 0 ∧ win16_7.index t (1 : Fin 2) = 0 :=
  (by decide +kernel : ∀ t : Fin grid16.N, _)

/-- Input window 0's block at the point is the whole of its array. -/
theorem mlp16_blk0 (c : Dev nD) (t : Fin cfg16.N) : (iblk16 V c 0 t : S256x64.Idx → EReal) = V c main_v173 := by
  obtain ⟨e00, e01, e10, e11, e20, e21, e30, e31, e40, e41, e50, e51, e60, e61, e70, e71⟩ := mlp16_idx t
  funext j
  obtain ⟨x, y, rfl⟩ : ∃ (x : Fin 256) (y : Fin 64), j = ix2 x y := ⟨j 0, j 1, eq_ix2 j⟩
  show V c main_v173 (((cfg16.win 0).blk t).view.emb (ix2 x y)) = V c main_v173 (ix2 x y)
  refine congrArg (V c main_v173) (funext fun a => Fin.ext ?_)
  match a with
  | ⟨0, _⟩ => show win16_0.index t (0 : Fin 2) * 256 + 1 * x.val = x.val; omega
  | ⟨1, _⟩ => show win16_0.index t (1 : Fin 2) * 64 + 1 * y.val = y.val; omega

/-- Input window 1's block at the point is the whole of its array. -/
theorem mlp16_blk1 (c : Dev nD) (t : Fin cfg16.N) : (iblk16 V c 1 t : S64x32.Idx → EReal) = V c main_v174 := by
  obtain ⟨e00, e01, e10, e11, e20, e21, e30, e31, e40, e41, e50, e51, e60, e61, e70, e71⟩ := mlp16_idx t
  funext j
  obtain ⟨x, y, rfl⟩ : ∃ (x : Fin 64) (y : Fin 32), j = ix2 x y := ⟨j 0, j 1, eq_ix2 j⟩
  show V c main_v174 (((cfg16.win 1).blk t).view.emb (ix2 x y)) = V c main_v174 (ix2 x y)
  refine congrArg (V c main_v174) (funext fun a => Fin.ext ?_)
  match a with
  | ⟨0, _⟩ => show win16_1.index t (0 : Fin 2) * 64 + 1 * x.val = x.val; omega
  | ⟨1, _⟩ => show win16_1.index t (1 : Fin 2) * 32 + 1 * y.val = y.val; omega

/-- Input window 2's block at the point is the whole of its array. -/
theorem mlp16_blk2 (c : Dev nD) (t : Fin cfg16.N) : (iblk16 V c 2 t : S1x32.Idx → EReal) = V c main_v177 := by
  obtain ⟨e00, e01, e10, e11, e20, e21, e30, e31, e40, e41, e50, e51, e60, e61, e70, e71⟩ := mlp16_idx t
  funext j
  obtain ⟨x, y, rfl⟩ : ∃ (x : Fin 1) (y : Fin 32), j = ix2 x y := ⟨j 0, j 1, eq_ix2 j⟩
  show V c main_v177 (((cfg16.win 2).blk t).view.emb (ix2 x y)) = V c main_v177 (ix2 x y)
  refine congrArg (V c main_v177) (funext fun a => Fin.ext ?_)
  match a with
  | ⟨0, _⟩ => show win16_2.index t (0 : Fin 2) * 1 + 1 * x.val = x.val; omega
  | ⟨1, _⟩ => show win16_2.index t (1 : Fin 2) * 32 + 1 * y.val = y.val; omega

/-- Input window 3's block at the point is the whole of its array. -/
theorem mlp16_blk3 (c : Dev nD) (t : Fin cfg16.N) : (iblk16 V c 3 t : S32x16.Idx → EReal) = V c main_v175 := by
  obtain ⟨e00, e01, e10, e11, e20, e21, e30, e31, e40, e41, e50, e51, e60, e61, e70, e71⟩ := mlp16_idx t
  funext j
  obtain ⟨x, y, rfl⟩ : ∃ (x : Fin 32) (y : Fin 16), j = ix2 x y := ⟨j 0, j 1, eq_ix2 j⟩
  show V c main_v175 (((cfg16.win 3).blk t).view.emb (ix2 x y)) = V c main_v175 (ix2 x y)
  refine congrArg (V c main_v175) (funext fun a => Fin.ext ?_)
  match a with
  | ⟨0, _⟩ => show win16_3.index t (0 : Fin 2) * 32 + 1 * x.val = x.val; omega
  | ⟨1, _⟩ => show win16_3.index t (1 : Fin 2) * 16 + 1 * y.val = y.val; omega

/-- Input window 4's block at the point is the whole of its array. -/
theorem mlp16_blk4 (c : Dev nD) (t : Fin cfg16.N) : (iblk16 V c 4 t : S1x16.Idx → EReal) = V c main_v178 := by
  obtain ⟨e00, e01, e10, e11, e20, e21, e30, e31, e40, e41, e50, e51, e60, e61, e70, e71⟩ := mlp16_idx t
  funext j
  obtain ⟨x, y, rfl⟩ : ∃ (x : Fin 1) (y : Fin 16), j = ix2 x y := ⟨j 0, j 1, eq_ix2 j⟩
  show V c main_v178 (((cfg16.win 4).blk t).view.emb (ix2 x y)) = V c main_v178 (ix2 x y)
  refine congrArg (V c main_v178) (funext fun a => Fin.ext ?_)
  match a with
  | ⟨0, _⟩ => show win16_4.index t (0 : Fin 2) * 1 + 1 * x.val = x.val; omega
  | ⟨1, _⟩ => show win16_4.index t (1 : Fin 2) * 16 + 1 * y.val = y.val; omega

/-- Input window 5's block at the point is the whole of its array. -/
theorem mlp16_blk5 (c : Dev nD) (t : Fin cfg16.N) : (iblk16 V c 5 t : S16x1.Idx → EReal) = V c main_v176 := by
  obtain ⟨e00, e01, e10, e11, e20, e21, e30, e31, e40, e41, e50, e51, e60, e61, e70, e71⟩ := mlp16_idx t
  funext j
  obtain ⟨x, y, rfl⟩ : ∃ (x : Fin 16) (y : Fin 1), j = ix2 x y := ⟨j 0, j 1, eq_ix2 j⟩
  show V c main_v176 (((cfg16.win 5).blk t).view.emb (ix2 x y)) = V c main_v176 (ix2 x y)
  refine congrArg (V c main_v176) (funext fun a => Fin.ext ?_)
  match a with
  | ⟨0, _⟩ => show win16_5.index t (0 : Fin 2) * 16 + 1 * x.val = x.val; omega
  | ⟨1, _⟩ => show win16_5.index t (1 : Fin 2) * 1 + 1 * y.val = y.val; omega

/-- Input window 6's block at the point is the whole of its array. -/
theorem mlp16_blk6 (c : Dev nD) (t : Fin cfg16.N) : (iblk16 V c 6 t : S1x1.Idx → EReal) = V c main_v179 := by
  obtain ⟨e00, e01, e10, e11, e20, e21, e30, e31, e40, e41, e50, e51, e60, e61, e70, e71⟩ := mlp16_idx t
  funext j
  obtain ⟨x, y, rfl⟩ : ∃ (x : Fin 1) (y : Fin 1), j = ix2 x y := ⟨j 0, j 1, eq_ix2 j⟩
  show V c main_v179 (((cfg16.win 6).blk t).view.emb (ix2 x y)) = V c main_v179 (ix2 x y)
  refine congrArg (V c main_v179) (funext fun a => Fin.ext ?_)
  match a with
  | ⟨0, _⟩ => show win16_6.index t (0 : Fin 2) * 1 + 1 * x.val = x.val; omega
  | ⟨1, _⟩ => show win16_6.index t (1 : Fin 2) * 1 + 1 * y.val = y.val; omega

/-- What the one point writes back is the (whole) block of the readout of the arrays the region found. -/
theorem mlp16_flushed (c : Dev nD) (t : Fin cfg16.N) :
    (dat16 V c).flushed 7 t = ((cfg16.win 7).blk t).view.read (Elt Ideal)
      (mlpOf (V c main_v173) (V c main_v174) (V c main_v177) (V c main_v175) (V c main_v178) (V c main_v176) (V c main_v179)) := by
  show (cfg16.win 7).cut (grid16.coords t) ((dat16 V c).after 7 t) = _
  rw [after16_7]
  unfold out16_7
  rw [View.canon_unit_zero mlp16_zeroOff]
  simp only [View.ld_unit_zero (S := S256x64) mlp16_zeroOff, View.ld_unit_zero (S := S64x32) mlp16_zeroOff,
    View.ld_unit_zero (S := S1x32) mlp16_zeroOff, View.ld_unit_zero (S := S32x16) mlp16_zeroOff,
    View.ld_unit_zero (S := S1x16) mlp16_zeroOff, View.ld_unit_zero (S := S16x1) mlp16_zeroOff,
    View.ld_unit_zero (S := S1x1) mlp16_zeroOff]
  obtain ⟨e00, e01, e10, e11, e20, e21, e30, e31, e40, e41, e50, e51, e60, e61, e70, e71⟩ := mlp16_idx t
  funext j
  obtain ⟨p, q, rfl⟩ : ∃ (p : Fin 256) (q : Fin 1), j = ix2 p q := ⟨j 0, j 1, eq_ix2 j⟩
  obtain rfl : q = (0 : Fin 1) := Subsingleton.elim q 0
  refine (mlp_at (iblk16 V c 0 t) (iblk16 V c 1 t) (iblk16 V c 2 t) (iblk16 V c 3 t) (iblk16 V c 4 t) (iblk16 V c 5 t)
    (iblk16 V c 6 t) p).trans ?_
  show _ = mlpRow (V c main_v173) (V c main_v174) (V c main_v177) (V c main_v175) (V c main_v178) (V c main_v176)
    (V c main_v179) ((((cfg16.win 7).blk t).view.emb (ix2 p (0 : Fin 1))) 0)
  refine mlpRow_congr (mlp16_blk0 V c t) (mlp16_blk1 V c t) (mlp16_blk2 V c t) (mlp16_blk3 V c t) (mlp16_blk4 V c t)
    (mlp16_blk5 V c t) (mlp16_blk6 V c t) (Fin.ext ?_)
  show p.val = win16_7.index t (0 : Fin 2) * 256 + 1 * p.val
  omega

/-- An index of the output array is in the point's block iff each coordinate is in the block's range. -/
theorem mlp16_mem (t : Fin cfg16.N) (i : S256x1.Idx) :
    i ∈ ((cfg16.win 7).blk t).view.set ↔ ∀ a : Fin 2, win16_7.index t a * S256x1.size a ≤ (i a).val ∧ (i a).val < win16_7.index t a * S256x1.size a + S256x1.size a := by
  show i ∈ ((View.whole main_v180).slice (win16_7.rect t)).set ↔ _
  rw [View.set_slice_whole, Rect.mem_set_unit]
  exact Iff.rfl

/-- Every row of the output is in the one point's block. -/
theorem mlp16_cover (i : S256x1.Idx) :
    ∃ t : Fin cfg16.N, (cfg16.win 7).flush t = true ∧ i ∈ ((cfg16.win 7).blk t).view.set := by
  have hi0 : (i 0).val < 256 := (i 0).isLt
  have hi1 : (i 1).val < 1 := (i 1).isLt
  refine ⟨⟨0, by show (0 : Nat) < 1; omega⟩, flush16_7 _, ?_⟩
  rw [mlp16_mem]
  obtain ⟨e00, e01, e10, e11, e20, e21, e30, e31, e40, e41, e50, e51, e60, e61, e70, e71⟩ :=
    mlp16_idx ⟨0, by show (0 : Nat) < 1; omega⟩
  intro a
  match a with
  | ⟨0, _⟩ => show win16_7.index _ (0 : Fin 2) * 256 ≤ (i 0).val ∧ (i 0).val < win16_7.index _ (0 : Fin 2) * 256 + 256; rw [e70]; omega
  | ⟨1, _⟩ => show win16_7.index _ (1 : Fin 2) * 1 ≤ (i 1).val ∧ (i 1).val < win16_7.index _ (1 : Fin 2) * 1 + 1; rw [e71]; omega

/-- The output array of region 16 after the region: the readout of the arrays it found. -/
theorem mlp16_final (c : Dev nD) : (dat16 V c).arrAt 7 cfg16.N
    = mlpOf (V c main_v173) (V c main_v174) (V c main_v177) (V c main_v175) (V c main_v178) (V c main_v176) (V c main_v179) :=
  (dat16 V c).arrAt_eq_of_cover 7
    (mlpOf (V c main_v173) (V c main_v174) (V c main_v177) (V c main_v175) (V c main_v178) (V c main_v176) (V c main_v179))
    (fun t _ => mlp16_flushed V c t) mlp16_cover

end Region16

end Cert.KernelIdeal.Vals

end
-- ==== Proof.KEpi.lean ====
/-
  The epilogue: the per-graph mean, the re-laid readout parameters, and the readout region's result.
-/
import proofs.«111449_j80633716015168_2_alg».proof.Proof.Gen.KernelIdeal.Frame
import proofs.«111449_j80633716015168_2_alg».proof.Proof.KHost
import proofs.«111449_j80633716015168_2_alg».proof.Proof.ValMlp
import Idealize.ShloMosaic.Lib.StableHlo.Run

set_option maxRecDepth 16384

noncomputable section

namespace Cert.KernelIdeal.Gen

open Idealize.ShloMosaic Idealize.ShloMosaic.TcCoe Idealize.ShloMosaic.StableHlo Idealize.SL.Sem
open Cert.KernelIdeal Cert.KernelIdeal.Vals

variable (m : (ℓ : Loc nD τ sig) → Buf (Elt Ideal) ℓ) (ρ : Dev nD → PrngReg)

/-! ## The epilogue: the per-graph mean, the re-laid readout parameters, the readout region -/
theorem W29_v173 (c : Dev nD) : W29 m ρ c (Proc.devRef .tc main_v173) = hgK (W28 m ρ c (Proc.devRef .tc main_v161)) (W28 m ρ c (Proc.devRef .tc main_arg3)) :=
  by
  show StableHlo.after hostOps16 (W28 m ρ c) (Proc.devRef .tc main_v173) = _
  after_results_simp
  try rfl
theorem W29_v173' (c : Dev nD) : W29 m ρ c (no_index (Proc.devRef .tc main_v173)) = hgK (W28 m ρ c (Proc.devRef .tc main_v161)) (W28 m ρ c (Proc.devRef .tc main_arg3)) := W29_v173 m ρ c
theorem W29_v174 (c : Dev nD) : W29 m ρ c (Proc.devRef .tc main_v174) = transpose S64x32 [1, 0] (W28 m ρ c (Proc.devRef .tc main_arg12)) transposes_S32x64_S64x32_1_0 :=
  by
  show StableHlo.after hostOps16 (W28 m ρ c) (Proc.devRef .tc main_v174) = _
  after_results_simp
  try rfl
theorem W29_v174' (c : Dev nD) : W29 m ρ c (no_index (Proc.devRef .tc main_v174)) = transpose S64x32 [1, 0] (W28 m ρ c (Proc.devRef .tc main_arg12)) transposes_S32x64_S64x32_1_0 := W29_v174 m ρ c
theorem W29_v175 (c : Dev nD) : W29 m ρ c (Proc.devRef .tc main_v175) = transpose S32x16 [1, 0] (W28 m ρ c (Proc.devRef .tc main_arg14)) transposes_S16x32_S32x16_1_0 :=
  by
  show StableHlo.after hostOps16 (W28 m ρ c) (Proc.devRef .tc main_v175) = _
  after_results_simp
  try rfl
theorem W29_v175' (c : Dev nD) : W29 m ρ c (no_index (Proc.devRef .tc main_v175)) = transpose S32x16 [1, 0] (W28 m ρ c (Proc.devRef .tc main_arg14)) transposes_S16x32_S32x16_1_0 := W29_v175 m ρ c
theorem W29_v176 (c : Dev nD) : W29 m ρ c (Proc.devRef .tc main_v176) = transpose S16x1 [1, 0] (W28 m ρ c (Proc.devRef .tc main_arg16)) transposes_S1x16_S16x1_1_0 :=
  by
  show StableHlo.after hostOps16 (W28 m ρ c) (Proc.devRef .tc main_v176) = _
  after_results_simp
  try rfl
theorem W29_v176' (c : Dev nD) : W29 m ρ c (no_index (Proc.devRef .tc main_v176)) = transpose S16x1 [1, 0] (W28 m ρ c (Proc.devRef .tc main_arg16)) transposes_S1x16_S16x1_1_0 := W29_v176 m ρ c
theorem W29_v177 (c : Dev nD) : W29 m ρ c (Proc.devRef .tc main_v177) = shapeCast S1x32 (W28 m ρ c (Proc.devRef .tc main_arg13)) shapeCasts_S32_S1x32 :=
  by
  show StableHlo.after hostOps16 (W28 m ρ c) (Proc.devRef .tc main_v177) = _
  after_results_simp
  try rfl
theorem W29_v177' (c : Dev nD) : W29 m ρ c (no_index (Proc.devRef .tc main_v177)) = shapeCast S1x32 (W28 m ρ c (Proc.devRef .tc main_arg13)) shapeCasts_S32_S1x32 := W29_v177 m ρ c
theorem W29_v178 (c : Dev nD) : W29 m ρ c (Proc.devRef .tc main_v178) = shapeCast S1x16 (W28 m ρ c (Proc.devRef .tc main_arg15)) shapeCasts_S16_S1x16 :=
  by
  show StableHlo.after hostOps16 (W28 m ρ c) (Proc.devRef .tc main_v178) = _
  after_results_simp
  try rfl
theorem W29_v178' (c : Dev nD) : W29 m ρ c (no_index (Proc.devRef .tc main_v178)) = shapeCast S1x16 (W28 m ρ c (Proc.devRef .tc main_arg15)) shapeCasts_S16_S1x16 := W29_v178 m ρ c
theorem W29_v179 (c : Dev nD) : W29 m ρ c (Proc.devRef .tc main_v179) = shapeCast S1x1 (W28 m ρ c (Proc.devRef .tc main_arg17)) shapeCasts_S1_S1x1 :=
  by
  show StableHlo.after hostOps16 (W28 m ρ c) (Proc.devRef .tc main_v179) = _
  after_results_simp
  try rfl
theorem W29_v179' (c : Dev nD) : W29 m ρ c (no_index (Proc.devRef .tc main_v179)) = shapeCast S1x1 (W28 m ρ c (Proc.devRef .tc main_arg17)) shapeCasts_S1_S1x1 := W29_v179 m ρ c
theorem W30_v180 (c : Dev nD) : W30 m ρ c (Proc.devRef .tc main_v180) = mlpOf (W29 m ρ c (Proc.devRef .tc main_v173)) (W29 m ρ c (Proc.devRef .tc main_v174)) (W29 m ρ c (Proc.devRef .tc main_v177)) (W29 m ρ c (Proc.devRef .tc main_v175)) (W29 m ρ c (Proc.devRef .tc main_v178)) (W29 m ρ c (Proc.devRef .tc main_v176)) (W29 m ρ c (Proc.devRef .tc main_v179)) :=
  (W30_arr m ρ c 7).trans (mlp16_final (V29 m ρ) c)
theorem W30_v180' (c : Dev nD) : W30 m ρ c (no_index (Proc.devRef .tc main_v180)) = mlpOf (W29 m ρ c (Proc.devRef .tc main_v173)) (W29 m ρ c (Proc.devRef .tc main_v174)) (W29 m ρ c (Proc.devRef .tc main_v177)) (W29 m ρ c (Proc.devRef .tc main_v175)) (W29 m ρ c (Proc.devRef .tc main_v178)) (W29 m ρ c (Proc.devRef .tc main_v176)) (W29 m ρ c (Proc.devRef .tc main_v179)) := W30_v180 m ρ c

end Cert.KernelIdeal.Gen

end
-- ==== Proof.KChain.lean ====
/-
  The idealized kernel's buffers, boundary by boundary: the modules of per-segment lemmas, gathered.
-/
import proofs.«111449_j80633716015168_2_alg».proof.Proof.KKeep
import proofs.«111449_j80633716015168_2_alg».proof.Proof.KIn
import proofs.«111449_j80633716015168_2_alg».proof.Proof.KPro
import proofs.«111449_j80633716015168_2_alg».proof.Proof.KL0
import proofs.«111449_j80633716015168_2_alg».proof.Proof.KL1
import proofs.«111449_j80633716015168_2_alg».proof.Proof.KL2
import proofs.«111449_j80633716015168_2_alg».proof.Proof.KL3
import proofs.«111449_j80633716015168_2_alg».proof.Proof.KEpi
-- ==== Proof.KValue.lean ====
/-
  The idealized kernel's result as one term of the argument arrays. Layer by layer: the aggregate is the scatter-add
  and component sum of the messages, the messages are the gathered node transform scaled by the Gaussian weights, and
  the layer's output is the normalized, rectified aggregate added to the layer's input, with the column sums and sums of
  squares the reduce region leaves. The readout is the dense layers of the per-graph mean of the last layer's output.
  Each step reads the boundary lemmas from the result buffer back to the launch memory.
-/
import proofs.«111449_j80633716015168_2_alg».proof.Proof.KChain

set_option maxRecDepth 16384

noncomputable section

namespace Cert.KernelIdeal.Gen

open Idealize.ShloMosaic Idealize.ShloMosaic.TcCoe Idealize.ShloMosaic.StableHlo Idealize.SL.Sem
open Cert.KernelIdeal Cert.KernelIdeal.Vals

variable (m : (ℓ : Loc nD τ sig) → Buf (Elt Ideal) ℓ) (ρ : Dev nD → PrngReg)

/-- The edges' pseudo-coordinates, from the edge lists at launch. -/
def kPseudo (c : Dev nD) : (⟨S800000x2, .f32⟩ : BufTy).Contents (Elt Ideal) := Cert.ReferenceIdeal.RefSpec.pseudoS (F := Ideal) (W0 m ρ c (Proc.devRef .tc main_arg1)) (W0 m ρ c (Proc.devRef .tc main_arg2))
/-- The nodes' first features. -/
def kH0 (c : Dev nD) : (⟨S50000x64, .f32⟩ : BufTy).Contents (Elt Ideal) := Cert.ReferenceIdeal.RefSpec.h0S (F := Ideal) (W0 m ρ c (Proc.devRef .tc main_arg4)) (W0 m ρ c (Proc.devRef .tc main_arg0))
/-- Layer 0's aggregate and output. -/
def kAgg0 (c : Dev nD) : (⟨S50000x64, .f32⟩ : BufTy).Contents (Elt Ideal) :=
  aggK (W0 m ρ c (Proc.devRef .tc main_arg2)) (msgOf (kPseudo m ρ c) (hkSrcK (hkOf (kH0 m ρ c) (kWt0 (wT (W0 m ρ c (Proc.devRef .tc main_arg5))))) (W0 m ρ c (Proc.devRef .tc main_arg1)))
    (kA0 (W0 m ρ c (Proc.devRef .tc main_arg10))) (kB0 (bR (W0 m ρ c (Proc.devRef .tc main_arg11)))) (kM0 (W0 m ρ c (Proc.devRef .tc main_arg6))) (kM0 (W0 m ρ c (Proc.devRef .tc main_arg7))))
def kH1 (c : Dev nD) : (⟨S50000x64, .f32⟩ : BufTy).Contents (Elt Ideal) :=
  bnnOf (kAgg0 m ρ c) (kH0 m ρ c) (sumRowOf (kAgg0 m ρ c)) (sqRowOf (kAgg0 m ρ c)) (kG0 (gR (W0 m ρ c (Proc.devRef .tc main_arg8)))) (kG0 (gR (W0 m ρ c (Proc.devRef .tc main_arg9))))
/-- Layer 1's aggregate and output. -/
def kAgg1 (c : Dev nD) : (⟨S50000x64, .f32⟩ : BufTy).Contents (Elt Ideal) :=
  aggK (W0 m ρ c (Proc.devRef .tc main_arg2)) (msgOf (kPseudo m ρ c) (hkSrcK (hkOf (kH1 m ρ c) (kWt1 (wT (W0 m ρ c (Proc.devRef .tc main_arg5))))) (W0 m ρ c (Proc.devRef .tc main_arg1)))
    (kA1 (W0 m ρ c (Proc.devRef .tc main_arg10))) (kB1 (bR (W0 m ρ c (Proc.devRef .tc main_arg11)))) (kM1 (W0 m ρ c (Proc.devRef .tc main_arg6))) (kM1 (W0 m ρ c (Proc.devRef .tc main_arg7))))
def kH2 (c : Dev nD) : (⟨S50000x64, .f32⟩ : BufTy).Contents (Elt Ideal) :=
  bnnOf (kAgg1 m ρ c) (kH1 m ρ c) (sumRowOf (kAgg1 m ρ c)) (sqRowOf (kAgg1 m ρ c)) (kG1 (gR (W0 m ρ c (Proc.devRef .tc main_arg8)))) (kG1 (gR (W0 m ρ c (Proc.devRef .tc main_arg9))))
/-- Layer 2's aggregate and output. -/
def kAgg2 (c : Dev nD) : (⟨S50000x64, .f32⟩ : BufTy).Contents (Elt Ideal) :=
  aggK (W0 m ρ c (Proc.devRef .tc main_arg2)) (msgOf (kPseudo m ρ c) (hkSrcK (hkOf (kH2 m ρ c) (kWt2 (wT (W0 m ρ c (Proc.devRef .tc main_arg5))))) (W0 m ρ c (Proc.devRef .tc main_arg1)))
    (kA2 (W0 m ρ c (Proc.devRef .tc main_arg10))) (kB2 (bR (W0 m ρ c (Proc.devRef .tc main_arg11)))) (kM2 (W0 m ρ c (Proc.devRef .tc main_arg6))) (kM2 (W0 m ρ c (Proc.devRef .tc main_arg7))))
def kH3 (c : Dev nD) : (⟨S50000x64, .f32⟩ : BufTy).Contents (Elt Ideal) :=
  bnnOf (kAgg2 m ρ c) (kH2 m ρ c) (sumRowOf (kAgg2 m ρ c)) (sqRowOf (kAgg2 m ρ c)) (kG2 (gR (W0 m ρ c (Proc.devRef .tc main_arg8)))) (kG2 (gR (W0 m ρ c (Proc.devRef .tc main_arg9))))
/-- Layer 3's aggregate and output. -/
def kAgg3 (c : Dev nD) : (⟨S50000x64, .f32⟩ : BufTy).Contents (Elt Ideal) :=
  aggK (W0 m ρ c (Proc.devRef .tc main_arg2)) (msgOf (kPseudo m ρ c) (hkSrcK (hkOf (kH3 m ρ c) (kWt3 (wT (W0 m ρ c (Proc.devRef .tc main_arg5))))) (W0 m ρ c (Proc.devRef .tc main_arg1)))
    (kA3 (W0 m ρ c (Proc.devRef .tc main_arg10))) (kB3 (bR (W0 m ρ c (Proc.devRef .tc main_arg11)))) (kM3 (W0 m ρ c (Proc.devRef .tc main_arg6))) (kM3 (W0 m ρ c (Proc.devRef .tc main_arg7))))
def kH4 (c : Dev nD) : (⟨S50000x64, .f32⟩ : BufTy).Contents (Elt Ideal) :=
  bnnOf (kAgg3 m ρ c) (kH3 m ρ c) (sumRowOf (kAgg3 m ρ c)) (sqRowOf (kAgg3 m ρ c)) (kG3 (gR (W0 m ρ c (Proc.devRef .tc main_arg8)))) (kG3 (gR (W0 m ρ c (Proc.devRef .tc main_arg9))))

/-! ## Layer by layer -/

/-- After the first layer's four regions the layer-output buffer holds the first layer's output. -/
theorem h1_eq (c : Dev nD) : W7 m ρ c (Proc.devRef .tc main_v71) = kH1 m ρ c := by
  unfold kH1 kAgg0 kH0 kPseudo
  simp (disch := decide) only [W2_v44', W3_v52', W3_v54', W3_v56', W3_v58', W3_v60', W4_v61', W5_v65', W5_v67', W5_v69', W6_v70_0', W6_v70_1', W7_v71', W1_v30', W1_v37', W1_v38', W1_v39', W1_v40', W1_v41', W1_v43', W1_keep', W3_keep', W5_keep', W8_keep', W10_keep', W12_keep', W15_keep', W17_keep', W19_keep', W22_keep', W24_keep', W26_keep', W29_keep', W2_of_ne', W4_of_ne', W6_of_ne', W7_of_ne', W9_of_ne', W11_of_ne', W13_of_ne', W14_of_ne', W16_of_ne', W18_of_ne', W20_of_ne', W21_of_ne', W23_of_ne', W25_of_ne', W27_of_ne', W28_of_ne', W30_of_ne', W2_in', W4_in', W6_in', W9_in', W11_in', W13_in', W16_in', W18_in', W20_in', W23_in', W25_in', W27_in']
theorem h1_eq' (c : Dev nD) : W7 m ρ c (no_index (Proc.devRef .tc main_v71)) = kH1 m ρ c := h1_eq m ρ c

theorem h2_eq (c : Dev nD) : W14 m ρ c (Proc.devRef .tc main_v101) = kH2 m ρ c := by
  unfold kH2 kAgg1 kPseudo
  simp (disch := decide) only [W8_v73', W9_v74', W10_v82', W10_v84', W10_v86', W10_v88', W10_v90', W11_v91', W12_v95', W12_v97', W12_v99', W13_v100_0', W13_v100_1', W14_v101', h1_eq', W1_v30', W1_v37', W1_v38', W1_v39', W1_v40', W1_v41', W1_v43', W1_keep', W3_keep', W5_keep', W8_keep', W10_keep', W12_keep', W15_keep', W17_keep', W19_keep', W22_keep', W24_keep', W26_keep', W29_keep', W2_of_ne', W4_of_ne', W6_of_ne', W7_of_ne', W9_of_ne', W11_of_ne', W13_of_ne', W14_of_ne', W16_of_ne', W18_of_ne', W20_of_ne', W21_of_ne', W23_of_ne', W25_of_ne', W27_of_ne', W28_of_ne', W30_of_ne', W2_in', W4_in', W6_in', W9_in', W11_in', W13_in', W16_in', W18_in', W20_in', W23_in', W25_in', W27_in']
theorem h2_eq' (c : Dev nD) : W14 m ρ c (no_index (Proc.devRef .tc main_v101)) = kH2 m ρ c := h2_eq m ρ c

theorem h3_eq (c : Dev nD) : W21 m ρ c (Proc.devRef .tc main_v131) = kH3 m ρ c := by
  unfold kH3 kAgg2 kPseudo
  simp (disch := decide) only [W15_v103', W16_v104', W17_v112', W17_v114', W17_v116', W17_v118', W17_v120', W18_v121', W19_v125', W19_v127', W19_v129', W20_v130_0', W20_v130_1', W21_v131', h2_eq', W1_v30', W1_v37', W1_v38', W1_v39', W1_v40', W1_v41', W1_v43', W1_keep', W3_keep', W5_keep', W8_keep', W10_keep', W12_keep', W15_keep', W17_keep', W19_keep', W22_keep', W24_keep', W26_keep', W29_keep', W2_of_ne', W4_of_ne', W6_of_ne', W7_of_ne', W9_of_ne', W11_of_ne', W13_of_ne', W14_of_ne', W16_of_ne', W18_of_ne', W20_of_ne', W21_of_ne', W23_of_ne', W25_of_ne', W27_of_ne', W28_of_ne', W30_of_ne', W2_in', W4_in', W6_in', W9_in', W11_in', W13_in', W16_in', W18_in', W20_in', W23_in', W25_in', W27_in']
theorem h3_eq' (c : Dev nD) : W21 m ρ c (no_index (Proc.devRef .tc main_v131)) = kH3 m ρ c := h3_eq m ρ c

theorem h4_eq (c : Dev nD) : W28 m ρ c (Proc.devRef .tc main_v161) = kH4 m ρ c := by
  unfold kH4 kAgg3 kPseudo
  simp (disch := decide) only [W22_v133', W23_v134', W24_v142', W24_v144', W24_v146', W24_v148', W24_v150', W25_v151', W26_v155', W26_v157', W26_v159', W27_v160_0', W27_v160_1', W28_v161', h3_eq', W1_v30', W1_v37', W1_v38', W1_v39', W1_v40', W1_v41', W1_v43', W1_keep', W3_keep', W5_keep', W8_keep', W10_keep', W12_keep', W15_keep', W17_keep', W19_keep', W22_keep', W24_keep', W26_keep', W29_keep', W2_of_ne', W4_of_ne', W6_of_ne', W7_of_ne', W9_of_ne', W11_of_ne', W13_of_ne', W14_of_ne', W16_of_ne', W18_of_ne', W20_of_ne', W21_of_ne', W23_of_ne', W25_of_ne', W27_of_ne', W28_of_ne', W30_of_ne', W2_in', W4_in', W6_in', W9_in', W11_in', W13_in', W16_in', W18_in', W20_in', W23_in', W25_in', W27_in']
theorem h4_eq' (c : Dev nD) : W28 m ρ c (no_index (Proc.devRef .tc main_v161)) = kH4 m ρ c := h4_eq m ρ c

/-- The result buffer at the last boundary: the readout's dense layers of the per-graph mean of the last layer's output. -/
theorem kernel_value (c : Dev nD) : W30 m ρ c (Proc.devRef .tc main_v180)
    = mlpOf (hgK (kH4 m ρ c) (W0 m ρ c (Proc.devRef .tc main_arg3))) (transpose S64x32 [1, 0] (W0 m ρ c (Proc.devRef .tc main_arg12)) transposes_S32x64_S64x32_1_0)
        (shapeCast S1x32 (W0 m ρ c (Proc.devRef .tc main_arg13)) shapeCasts_S32_S1x32) (transpose S32x16 [1, 0] (W0 m ρ c (Proc.devRef .tc main_arg14)) transposes_S16x32_S32x16_1_0)
        (shapeCast S1x16 (W0 m ρ c (Proc.devRef .tc main_arg15)) shapeCasts_S16_S1x16) (transpose S16x1 [1, 0] (W0 m ρ c (Proc.devRef .tc main_arg16)) transposes_S1x16_S16x1_1_0)
        (shapeCast S1x1 (W0 m ρ c (Proc.devRef .tc main_arg17)) shapeCasts_S1_S1x1) := by
  simp (disch := decide) only [W29_v173', W29_v174', W29_v175', W29_v176', W29_v177', W29_v178', W29_v179', W30_v180', h4_eq', W1_keep', W3_keep', W5_keep', W8_keep', W10_keep', W12_keep', W15_keep', W17_keep', W19_keep', W22_keep', W24_keep', W26_keep', W29_keep', W2_of_ne', W4_of_ne', W6_of_ne', W7_of_ne', W9_of_ne', W11_of_ne', W13_of_ne', W14_of_ne', W16_of_ne', W18_of_ne', W20_of_ne', W21_of_ne', W23_of_ne', W25_of_ne', W27_of_ne', W28_of_ne', W30_of_ne', W2_in', W4_in', W6_in', W9_in', W11_in', W13_in', W16_in', W18_in', W20_in', W23_in', W25_in', W27_in']

end Cert.KernelIdeal.Gen

end
-- ==== Proof.SpecDense.lean ====
import Idealize.ShloMosaic.PureOps.Ideal
import Mathlib.Tactic

/-!
# The readout's three dense layers, for one graph

For a graph's mean feature row `hg` (64 entries) and the three layers' weights stored output-first
(`w1 : 32 × 64`, `w2 : 16 × 32`, `w3 : 1 × 16`) with their biases: two layers followed by the maximum with zero,
then the last layer.
-/

noncomputable section

namespace Cert.Spec

open Idealize.ShloMosaic
open scoped BigOperators

/-- The readout of one graph. -/
def denseRow (hg : Fin 64 → EReal) (w1 : Fin 32 → Fin 64 → EReal) (b1 : Fin 32 → EReal) (w2 : Fin 16 → Fin 32 → EReal) (b2 : Fin 16 → EReal)
    (w3 : Fin 16 → EReal) (b3 : EReal) : EReal :=
  (∑ k3 : Fin 16, max ((∑ k2 : Fin 32, max ((∑ k1 : Fin 64, hg k1 * w1 k2 k1) + b1 k2) (Ideal.ofBits .f32 0x00000000#32) * w2 k3 k2) + b2 k3)
      (Ideal.ofBits .f32 0x00000000#32) * w3 k3) + b3

end Cert.Spec

end
-- ==== Proof.RefIdx.lean ====
/- The reference's stages read at an index, on the extended reals: each stage function of RefStages at one entry is
   the entry's formula of SpecMath over the entries of the stage's inputs. -/
import proofs.«111449_j80633716015168_2_alg».proof.Proof.RefStages
import proofs.«111449_j80633716015168_2_alg».proof.Proof.SpecMath
import proofs.«111449_j80633716015168_2_alg».proof.Proof.SpecDense
import Idealize.ShloMosaic.Lib.IdealHost
import Idealize.ShloMosaic.Lib.ValueLayout
import Idealize.ShloMosaic.Lib.Pipeline.Value
import Idealize.ShloMosaic.Lib.StackMember
import Mathlib.Tactic

noncomputable section

namespace Cert.ReferenceIdeal.RefSpec

open Cert.ReferenceIdeal Cert.ReferenceIdeal.Gen Idealize.ShloMosaic Idealize.ShloMosaic.ValueIdx Idealize.SL.Sem
open scoped BigOperators

/-- Arrays of 32-bit floats of a shape, at the extended reals. -/
abbrev TI (s : Shape) : Type := (⟨s, .f32⟩ : BufTy).Contents (Elt Ideal)

/-! ## Words -/

/-- The word `0x47435000` is the real number 50000. -/
theorem ofBits_50000 : Ideal.ofBits .f32 0x47435000#32 = ((50000 : ℝ) : EReal) := by
  simp [Ideal.ofBits, Ideal.ieee, -EReal.coe_mul]; norm_num

/-! ## Layouts -/

/-- A vector of 64 broadcast along the rows of a [50000, 64] array reads its own entry. -/
theorem bcastRow_apply (x : TI S64) (r : Fin 50000) (j : Fin 64) :
    broadcastInDim S50000x64 ![0, 1] bcast_S1x64_S50000x64_0_1 (broadcastInDim S1x64 ![1] bcast_S64_S1x64_1 x) (ix2 r j)
      = x (ix1 j) := by
  rw [broadcastInDim_apply ![0, 1] bcast_S1x64_S50000x64_0_1 _ (ix2 r j) (ix2 0 j) (by intro a; fin_cases a <;> rfl),
    broadcastInDim_apply ![1] bcast_S64_S1x64_1 x (ix2 0 j) (ix1 j) (by intro a; fin_cases a; rfl)]

/-- The sum over the 50000 rows from the zero word, column by column. -/
theorem colSum_apply (x : TI S50000x64) (j : Fin 64) :
    Host.reduceAdd x (constant (F := Ideal) S_ .f32 0x00000000#32) reducesTo_S50000x64_S64_d0 h_S_ (ix1 j)
      = ∑ r : Fin 50000, x (ix2 r j) := by
  have hR : S50000x64.Reduces [0] S64 := by decide
  rw [hostReduceAdd_apply, Ideal.hostReduceAdd_single reducesTo_S50000x64_S64_d0 hR]
  show Ideal.ofBits .f32 0x00000000#32 + _ = _
  rw [Ideal.ofBits_zero_f32, zero_add]
  refine Finset.sum_congr rfl fun r _ => congrArg x (funext fun a => ?_)
  fin_cases a <;> exact Fin.ext rfl

/-- A [1, 64] row broadcast along the rows of a [50000, 64] array reads the row's entry. -/
theorem bcast01_apply (y : TI S1x64) (r : Fin 50000) (j : Fin 64) :
    broadcastInDim S50000x64 ![0, 1] bcast_S1x64_S50000x64_0_1 y (ix2 r j) = y (ix2 0 j) :=
  broadcastInDim_apply ![0, 1] bcast_S1x64_S50000x64_0_1 y (ix2 r j) (ix2 0 j) (by intro a; fin_cases a <;> rfl)

/-- A vector of 64 as a [1, 64] row reads its own entry. -/
theorem bcast1_apply (x : TI S64) (j : Fin 64) :
    broadcastInDim S1x64 ![1] bcast_S64_S1x64_1 x (ix2 0 j) = x (ix1 j) :=
  broadcastInDim_apply ![1] bcast_S64_S1x64_1 x (ix2 0 j) (ix1 j) (by intro a; fin_cases a; rfl)

/-- The host's reciprocal square root at an index. -/
theorem hostRsqrt_apply {s : Shape} (x : FVec Ideal s .f32) (i : s.Idx) : Host.rsqrt x i = Ideal.rsqrt (x i) := rfl
/-- The host's hyperbolic tangent at an index. -/
theorem hostTanh_apply {s : Shape} (x : FVec Ideal s .f32) (i : s.Idx) : Host.tanh x i = Ideal.tanh (x i) := rfl
/-- The host's exponential at an index. -/
theorem hostExp_apply {s : Shape} (x : FVec Ideal s .f32) (i : s.Idx) : Host.exp x i = Ideal.exp (x i) := rfl

/-- The integer zero converted is zero. -/
theorem sitofp_zero32 : FloatOps.sitofp (F := Ideal) .f32 (0#32 : BitVec 32) = (0 : EReal) := by
  show (((0#32 : BitVec 32).toInt : ℝ) : EReal) = 0
  have : ((0#32 : BitVec 32).toInt : ℝ) = 0 := by norm_num
  rw [this, EReal.coe_zero]

/-- 50000 exceeds zero. -/
theorem cmp_count : FloatOps.cmpf (F := Ideal) (φ := .f32) .ogt (((50000 : ℝ)) : EReal) (0 : EReal) = 1#1 := by
  have h : (0 : EReal) < ((50000 : ℝ) : EReal) := EReal.coe_pos.mpr (by norm_num)
  show Ideal.cmp .ogt _ _ = 1#1
  simp [Ideal.cmp, h]

/-! The same readings once more, under other names. -/
theorem bcastScalar_apply' {T : Shape} {α : Type} (h : (⟨0, ![]⟩ : Shape).BroadcastsInDim T ![]) (x : (⟨0, ![]⟩ : Shape).Idx → α) (j : T.Idx) :
    (no_index (broadcastInDim T ![] h x j)) = x ix0 := broadcastInDim_scalar_apply h x j
theorem bcast01_apply' (y : TI S1x64) (r : Fin 50000) (j : Fin 64) :
    (no_index (broadcastInDim S50000x64 ![0, 1] bcast_S1x64_S50000x64_0_1 y (ix2 r j))) = y (ix2 0 j) := bcast01_apply y r j
theorem bcast1_apply' (x : TI S64) (j : Fin 64) :
    (no_index (broadcastInDim S1x64 ![1] bcast_S64_S1x64_1 x (ix2 0 j))) = x (ix1 j) := bcast1_apply x j
theorem colSum_apply' (x : TI S50000x64) (j : Fin 64) :
    (no_index (Host.reduceAdd x (constant (F := Ideal) S_ .f32 0x00000000#32) reducesTo_S50000x64_S64_d0 h_S_ (ix1 j)))
      = ∑ r : Fin 50000, x (ix2 r j) := colSum_apply x j

/-! ## The normalization at an entry -/

/-- One entry of the normalization stage: the column's batch mean and variance, the scale and shift of the column,
    the maximum with zero, the layer's input added. -/
theorem bnS_apply (agg h : TI S50000x64) (gamma beta : TI S64) (r : Fin 50000) (j : Fin 64) :
    bnS agg h gamma beta (ix2 r j)
      = Cert.Spec.normEntry (Cert.Spec.colMean fun r => agg (ix2 r j)) (Cert.Spec.colVar fun r => agg (ix2 r j))
          (gamma (ix1 j)) (beta (ix1 j)) (agg (ix2 r j)) (h (ix2 r j)) := by
  unfold bnS Cert.Spec.normEntry Cert.Spec.colVar Cert.Spec.colMean
  simp only [addf_apply, mulf_apply, subf_apply, maximumf_apply, hostDivf_apply, hostRsqrt_apply, bcast01_apply', bcast1_apply',
    bcastScalar_apply', colSum_apply', select_apply, cmpf_apply, sitofp_apply, constant_apply, constantI_apply,
    sitofp_zero32, ofBits_50000, Ideal.ofBits_zero_f32, sub_zero, cmp_count, select_one, id, Cert.Spec.zeroW, Cert.Spec.epsW]
/-! ## The messages at an entry -/

theorem bcastG2_apply' (y : TI S800000x3x1) (e : Fin 800000) (k : Fin 3) (o : Fin 64) :
    (no_index (broadcastInDim S800000x3x64 ![0, 1, 2] bcast_S800000x3x1_S800000x3x64_0_1_2 y (ix3 e k o))) = y (ix3 e k 0) :=
  broadcastInDim_apply ![0, 1, 2] bcast_S800000x3x1_S800000x3x64_0_1_2 y (ix3 e k o) (ix3 e k 0) (by intro a; fin_cases a <;> rfl)
theorem bcastG1_apply' (g : TI S800000x3) (e : Fin 800000) (k : Fin 3) :
    (no_index (broadcastInDim S800000x3x1 ![0, 1] bcast_S800000x3_S800000x3x1_0_1 g (ix3 e k 0))) = g (ix2 e k) :=
  broadcastInDim_apply ![0, 1] bcast_S800000x3_S800000x3x1_0_1 g (ix3 e k 0) (ix2 e k) (by intro a; fin_cases a <;> rfl)

/-- One entry of the messages: the source's transformed feature times the edge's weight for the component. -/
theorem msgS_apply (hkSrc : TI S800000x3x64) (gauss : TI S800000x3) (e : Fin 800000) (k : Fin 3) (o : Fin 64) :
    msgS hkSrc gauss (ix3 e k o) = hkSrc (ix3 e k o) * gauss (ix2 e k) := by
  unfold msgS
  simp only [mulf_apply, bcastG2_apply', bcastG1_apply']

/-! ## The Gaussian weights at an entry -/

theorem bcastU2_apply' (y : TI S800000x1x2) (e : Fin 800000) (k : Fin 3) (d : Fin 2) :
    (no_index (broadcastInDim S800000x3x2 ![0, 1, 2] bcast_S800000x1x2_S800000x3x2_0_1_2 y (ix3 e k d))) = y (ix3 e 0 d) :=
  broadcastInDim_apply ![0, 1, 2] bcast_S800000x1x2_S800000x3x2_0_1_2 y (ix3 e k d) (ix3 e 0 d) (by intro a; fin_cases a <;> rfl)
theorem bcastU1_apply' (u : TI S800000x2) (e : Fin 800000) (d : Fin 2) :
    (no_index (broadcastInDim S800000x1x2 ![0, 2] bcast_S800000x2_S800000x1x2_0_2 u (ix3 e 0 d))) = u (ix2 e d) :=
  broadcastInDim_apply ![0, 2] bcast_S800000x2_S800000x1x2_0_2 u (ix3 e 0 d) (ix2 e d) (by intro a; fin_cases a <;> rfl)
theorem bcastP2_apply' (y : TI S1x3x2) (e : Fin 800000) (k : Fin 3) (d : Fin 2) :
    (no_index (broadcastInDim S800000x3x2 ![0, 1, 2] bcast_S1x3x2_S800000x3x2_0_1_2 y (ix3 e k d))) = y (ix3 0 k d) :=
  broadcastInDim_apply ![0, 1, 2] bcast_S1x3x2_S800000x3x2_0_1_2 y (ix3 e k d) (ix3 0 k d) (by intro a; fin_cases a <;> rfl)
theorem bcastP1_apply' (p : TI S3x2) (k : Fin 3) (d : Fin 2) :
    (no_index (broadcastInDim S1x3x2 ![1, 2] bcast_S3x2_S1x3x2_1_2 p (ix3 0 k d))) = p (ix2 k d) :=
  broadcastInDim_apply ![1, 2] bcast_S3x2_S1x3x2_1_2 p (ix3 0 k d) (ix2 k d) (by intro a; fin_cases a <;> rfl)

theorem bcastU2_apply (y : TI S800000x1x2) (e : Fin 800000) (k : Fin 3) (d : Fin 2) :
    broadcastInDim S800000x3x2 ![0, 1, 2] bcast_S800000x1x2_S800000x3x2_0_1_2 y (ix3 e k d) = y (ix3 e 0 d) := bcastU2_apply' y e k d
theorem bcastU1_apply (u : TI S800000x2) (e : Fin 800000) (d : Fin 2) :
    broadcastInDim S800000x1x2 ![0, 2] bcast_S800000x2_S800000x1x2_0_2 u (ix3 e 0 d) = u (ix2 e d) := bcastU1_apply' u e d
theorem bcastP2_apply (y : TI S1x3x2) (e : Fin 800000) (k : Fin 3) (d : Fin 2) :
    broadcastInDim S800000x3x2 ![0, 1, 2] bcast_S1x3x2_S800000x3x2_0_1_2 y (ix3 e k d) = y (ix3 0 k d) := bcastP2_apply' y e k d
theorem bcastP1_apply (p : TI S3x2) (k : Fin 3) (d : Fin 2) :
    broadcastInDim S1x3x2 ![1, 2] bcast_S3x2_S1x3x2_1_2 p (ix3 0 k d) = p (ix2 k d) := bcastP1_apply' p k d
/-- The sum over the two coordinates from the zero word. -/
theorem sumD_apply (x : TI S800000x3x2) (e : Fin 800000) (k : Fin 3) :
    Host.reduceAdd x (constant (F := Ideal) S_ .f32 0x00000000#32) reducesTo_S800000x3x2_S800000x3_d2 h_S_ (ix2 e k)
      = ∑ d : Fin 2, x (ix3 e k d) := by
  have hR : S800000x3x2.Reduces [2] S800000x3 := by decide
  rw [hostReduceAdd_apply, Ideal.hostReduceAdd_single reducesTo_S800000x3x2_S800000x3_d2 hR]
  show Ideal.ofBits .f32 0x00000000#32 + _ = _
  rw [Ideal.ofBits_zero_f32, zero_add]
  refine Finset.sum_congr rfl fun d _ => congrArg x (funext fun a => ?_)
  fin_cases a <;> exact Fin.ext rfl
theorem sumD_apply' (x : TI S800000x3x2) (e : Fin 800000) (k : Fin 3) :
    (no_index (Host.reduceAdd x (constant (F := Ideal) S_ .f32 0x00000000#32) reducesTo_S800000x3x2_S800000x3_d2 h_S_ (ix2 e k)))
      = ∑ d : Fin 2, x (ix3 e k d) := sumD_apply x e k

/-- One entry of the Gaussian weights: the exponential of minus one half times the sum, over the two coordinates, of
    the squared scaled deviation from the component's mean. -/
theorem gaussS_apply (u : TI S800000x2) (mu sg : TI S3x2) (e : Fin 800000) (k : Fin 3) :
    gaussS u mu sg (ix2 e k)
      = Ideal.exp (Cert.Spec.negHalf * ∑ d : Fin 2,
          ((u (ix2 e d) - mu (ix2 k d)) * sg (ix2 k d)) * ((u (ix2 e d) - mu (ix2 k d)) * sg (ix2 k d))) := by
  unfold gaussS
  beta_reduce
  rw [hostExp_apply, mulf_apply, broadcastInDim_scalar_apply, sumD_apply]
  refine congrArg Ideal.exp (congrArg (Cert.Spec.negHalf * ·) (Finset.sum_congr rfl fun d _ => ?_))
  rw [mulf_apply, mulf_apply, subf_apply, bcastU2_apply, bcastU1_apply, bcastP2_apply, bcastP1_apply, bcastP2_apply, bcastP1_apply]

/-! ## The projected pseudo-coordinates at an entry -/

theorem dotU_apply (l : TI S800000x2) (r : TI S2x2) (e : Fin 800000) (d : Fin 2) :
    Host.dotGeneral (F := Ideal) (φ₁ := .f32) (φ₂ := .f32) dot_S800000x2_S2x2_S800000x2_1_0_0_1_n_n none l r (ix2 e d) = ∑ c : Fin 2, l (ix2 e c) * r (ix2 c d) :=
  StackMember.dotGeneral_plain_apply (m := 800000) (k := 2) (n := 2) none l r e d
theorem transposeA_apply (A : TI S2x2) (c d : Fin 2) :
    transpose S2x2 [1, 0] A transposes_S2x2_S2x2_1_0 (ix2 c d) = A (ix2 d c) :=
  transpose_ix2_apply A transposes_S2x2_S2x2_1_0 c d
theorem bcastB2_apply (y : TI S1x2) (e : Fin 800000) (d : Fin 2) :
    broadcastInDim S800000x2 ![0, 1] bcast_S1x2_S800000x2_0_1 y (ix2 e d) = y (ix2 0 d) :=
  broadcastInDim_apply ![0, 1] bcast_S1x2_S800000x2_0_1 y (ix2 e d) (ix2 0 d) (by intro a; fin_cases a <;> rfl)
theorem bcastB1_apply (b : TI S2) (d : Fin 2) :
    broadcastInDim S1x2 ![1] bcast_S2_S1x2_1 b (ix2 0 d) = b (ix1 d) :=
  broadcastInDim_apply ![1] bcast_S2_S1x2_1 b (ix2 0 d) (ix1 d) (by intro a; fin_cases a; rfl)

/-- One entry of the projected pseudo-coordinates. -/
theorem uS_apply (pseudo : TI S800000x2) (A : TI S2x2) (bvec : TI S2) (e : Fin 800000) (d : Fin 2) :
    uS pseudo A bvec (ix2 e d)
      = Cert.Spec.proj (fun j => pseudo (ix2 e j)) (fun d j => A (ix2 d j)) (fun d => bvec (ix1 d)) d := by
  unfold uS Cert.Spec.proj
  beta_reduce
  rw [hostTanh_apply, addf_apply, dotU_apply, bcastB2_apply, bcastB1_apply]
  refine congrArg Ideal.tanh (congrArg (· + bvec (ix1 d)) (Finset.sum_congr rfl fun c _ => ?_))
  rw [transposeA_apply]

/-- One entry of the Gaussian weights of the projected pseudo-coordinates: the weight of the edge's coordinates for
    the component. -/
theorem gaussS_uS_apply (pseudo : TI S800000x2) (A : TI S2x2) (bvec : TI S2) (mu sg : TI S3x2) (e : Fin 800000) (k : Fin 3) :
    gaussS (uS pseudo A bvec) mu sg (ix2 e k)
      = Cert.Spec.gaussW (fun j => pseudo (ix2 e j)) (fun d j => A (ix2 d j)) (fun d => bvec (ix1 d))
          (fun k d => mu (ix2 k d)) (fun k d => sg (ix2 k d)) k := by
  rw [gaussS_apply]
  unfold Cert.Spec.gaussW Cert.Spec.dev
  refine congrArg Ideal.exp (congrArg (Cert.Spec.negHalf * ·) (Finset.sum_congr rfl fun d _ => ?_))
  rw [uS_apply]
/-! ## The transformed features at an entry -/

/-- One entry of the transformed features: the node's row against row `64 k + o` of the weight matrix. -/
theorem hkS_apply (h : TI S50000x64) (W : TI S192x64) (p : Fin 50000) (k : Fin 3) (o : Fin 64) :
    hkS h W (ix3 p k o)
      = Cert.Spec.rowDot (fun t => h (ix2 p t))
          (fun t => W (ix2 (⟨64 * k.val + o.val, by have := k.isLt; have := o.isLt; omega⟩ : Fin 192) t)) := by
  have hD : dot_S50000x64_S64x192_S50000x192_1_0_0_1_n_n = DotDims.plain 50000 64 192 := rfl
  unfold hkS Cert.Spec.rowDot
  rw [shapeCast_apply _ shapeCasts_S50000x192_S50000x3x64 (ix3 p k o)
    (ix2 p (⟨64 * k.val + o.val, by have := k.isLt; have := o.isLt; omega⟩ : Fin 192)) (by
      rw [Shape.rowMajor_val_two, Shape.rowMajor_val_three]
      show p.val * 192 + (64 * k.val + o.val) = (p.val * 3 + k.val) * 64 + o.val
      omega)]
  beta_reduce
  rw [hD, StackMember.dotGeneral_plain_apply]
  refine Finset.sum_congr rfl fun c _ => ?_
  rw [transpose_ix2_apply]

/-! ## The readout: the per-graph mean, then three dense layers -/

variable {F : FTy → Type} [FloatOps F] in
/-- The per-graph mean of the nodes' features: the features added at the graph indices from zero, divided by the graph's node count (ones added at the graph indices from zero), at least one. -/
noncomputable def hgS (h : (⟨S50000x64, .f32⟩ : BufTy).Contents (Elt F)) (gid : (⟨S50000, .i32⟩ : BufTy).Contents (Elt F)) :
    (⟨S256x64, .f32⟩ : BufTy).Contents (Elt F) :=
  ((Host.divf : (⟨S256x64, .f32⟩ : BufTy).Contents (Elt F) → (⟨S256x64, .f32⟩ : BufTy).Contents (Elt F) → (⟨S256x64, .f32⟩ : BufTy).Contents (Elt F)) (((fun x i u => Host.scatterAdd scatter_S256x64_S50000x1_S50000x64_1_0_0_1 x i u) : (⟨S256x64, .f32⟩ : BufTy).Contents (Elt F) → (⟨S50000x1, .i32⟩ : BufTy).Contents (Elt F) → (⟨S50000x64, .f32⟩ : BufTy).Contents (Elt F) → (⟨S256x64, .f32⟩ : BufTy).Contents (Elt F)) ((broadcastInDim S256x64 ![] bcast_S_S256x64 : (⟨S_, .f32⟩ : BufTy).Contents (Elt F) → (⟨S256x64, .f32⟩ : BufTy).Contents (Elt F)) (constant S_ .f32 0x00000000#32 : (⟨S_, .f32⟩ : BufTy).Contents (Elt F))) ((broadcastInDim S50000x1 ![0] bcast_S50000_S50000x1_0 : (⟨S50000, .i32⟩ : BufTy).Contents (Elt F) → (⟨S50000x1, .i32⟩ : BufTy).Contents (Elt F)) gid) h) ((broadcastInDim S256x64 ![0, 1] bcast_S256x1_S256x64_0_1 : (⟨S256x1, .f32⟩ : BufTy).Contents (Elt F) → (⟨S256x64, .f32⟩ : BufTy).Contents (Elt F)) ((broadcastInDim S256x1 ![0] bcast_S256_S256x1_0 : (⟨S256, .f32⟩ : BufTy).Contents (Elt F) → (⟨S256x1, .f32⟩ : BufTy).Contents (Elt F)) ((maximumf : (⟨S256, .f32⟩ : BufTy).Contents (Elt F) → (⟨S256, .f32⟩ : BufTy).Contents (Elt F) → (⟨S256, .f32⟩ : BufTy).Contents (Elt F)) (((fun x i u => Host.scatterAdd scatter_S256_S50000x1_S50000_n_0_0_1 x i u) : (⟨S256, .f32⟩ : BufTy).Contents (Elt F) → (⟨S50000x1, .i32⟩ : BufTy).Contents (Elt F) → (⟨S50000, .f32⟩ : BufTy).Contents (Elt F) → (⟨S256, .f32⟩ : BufTy).Contents (Elt F)) ((broadcastInDim S256 ![] bcast_S_S256 : (⟨S_, .f32⟩ : BufTy).Contents (Elt F) → (⟨S256, .f32⟩ : BufTy).Contents (Elt F)) (constant S_ .f32 0x00000000#32 : (⟨S_, .f32⟩ : BufTy).Contents (Elt F))) ((broadcastInDim S50000x1 ![0] bcast_S50000_S50000x1_0 : (⟨S50000, .i32⟩ : BufTy).Contents (Elt F) → (⟨S50000x1, .i32⟩ : BufTy).Contents (Elt F)) gid) ((broadcastInDim S50000 ![] bcast_S_S50000 : (⟨S_, .f32⟩ : BufTy).Contents (Elt F) → (⟨S50000, .f32⟩ : BufTy).Contents (Elt F)) (constant S_ .f32 0x3F800000#32 : (⟨S_, .f32⟩ : BufTy).Contents (Elt F)))) ((broadcastInDim S256 ![] bcast_S_S256 : (⟨S_, .f32⟩ : BufTy).Contents (Elt F) → (⟨S256, .f32⟩ : BufTy).Contents (Elt F)) (constant S_ .f32 0x3F800000#32 : (⟨S_, .f32⟩ : BufTy).Contents (Elt F)))))))

variable {F : FTy → Type} [FloatOps F] in
/-- The three dense layers of the readout, the first two followed by the maximum with zero. -/
noncomputable def denseS (hg : (⟨S256x64, .f32⟩ : BufTy).Contents (Elt F)) (w1 : (⟨S32x64, .f32⟩ : BufTy).Contents (Elt F)) (b1 : (⟨S32, .f32⟩ : BufTy).Contents (Elt F)) (w2 : (⟨S16x32, .f32⟩ : BufTy).Contents (Elt F)) (b2 : (⟨S16, .f32⟩ : BufTy).Contents (Elt F)) (w3 : (⟨S1x16, .f32⟩ : BufTy).Contents (Elt F)) (b3 : (⟨S1, .f32⟩ : BufTy).Contents (Elt F)) :
    (⟨S256x1, .f32⟩ : BufTy).Contents (Elt F) :=
  ((addf : (⟨S256x1, .f32⟩ : BufTy).Contents (Elt F) → (⟨S256x1, .f32⟩ : BufTy).Contents (Elt F) → (⟨S256x1, .f32⟩ : BufTy).Contents (Elt F)) (((fun l r => Host.dotGeneral dot_S256x16_S16x1_S256x1_1_0_0_1_n_n none l r) : (⟨S256x16, .f32⟩ : BufTy).Contents (Elt F) → (⟨S16x1, .f32⟩ : BufTy).Contents (Elt F) → (⟨S256x1, .f32⟩ : BufTy).Contents (Elt F)) (maximumf ((addf : (⟨S256x16, .f32⟩ : BufTy).Contents (Elt F) → (⟨S256x16, .f32⟩ : BufTy).Contents (Elt F) → (⟨S256x16, .f32⟩ : BufTy).Contents (Elt F)) (((fun l r => Host.dotGeneral dot_S256x32_S32x16_S256x16_1_0_0_1_n_n none l r) : (⟨S256x32, .f32⟩ : BufTy).Contents (Elt F) → (⟨S32x16, .f32⟩ : BufTy).Contents (Elt F) → (⟨S256x16, .f32⟩ : BufTy).Contents (Elt F)) (maximumf ((addf : (⟨S256x32, .f32⟩ : BufTy).Contents (Elt F) → (⟨S256x32, .f32⟩ : BufTy).Contents (Elt F) → (⟨S256x32, .f32⟩ : BufTy).Contents (Elt F)) (((fun l r => Host.dotGeneral dot_S256x64_S64x32_S256x32_1_0_0_1_n_n none l r) : (⟨S256x64, .f32⟩ : BufTy).Contents (Elt F) → (⟨S64x32, .f32⟩ : BufTy).Contents (Elt F) → (⟨S256x32, .f32⟩ : BufTy).Contents (Elt F)) hg (((transpose S64x32 [1, 0] · transposes_S32x64_S64x32_1_0) : (⟨S32x64, .f32⟩ : BufTy).Contents (Elt F) → (⟨S64x32, .f32⟩ : BufTy).Contents (Elt F)) w1)) ((broadcastInDim S256x32 ![0, 1] bcast_S1x32_S256x32_0_1 : (⟨S1x32, .f32⟩ : BufTy).Contents (Elt F) → (⟨S256x32, .f32⟩ : BufTy).Contents (Elt F)) ((broadcastInDim S1x32 ![1] bcast_S32_S1x32_1 : (⟨S32, .f32⟩ : BufTy).Contents (Elt F) → (⟨S1x32, .f32⟩ : BufTy).Contents (Elt F)) b1))) ((broadcastInDim S256x32 ![] bcast_S_S256x32) (constant S_ .f32 0x00000000#32 : (⟨S_, .f32⟩ : BufTy).Contents (Elt F)))) (((transpose S32x16 [1, 0] · transposes_S16x32_S32x16_1_0) : (⟨S16x32, .f32⟩ : BufTy).Contents (Elt F) → (⟨S32x16, .f32⟩ : BufTy).Contents (Elt F)) w2)) ((broadcastInDim S256x16 ![0, 1] bcast_S1x16_S256x16_0_1 : (⟨S1x16, .f32⟩ : BufTy).Contents (Elt F) → (⟨S256x16, .f32⟩ : BufTy).Contents (Elt F)) ((broadcastInDim S1x16 ![1] bcast_S16_S1x16_1 : (⟨S16, .f32⟩ : BufTy).Contents (Elt F) → (⟨S1x16, .f32⟩ : BufTy).Contents (Elt F)) b2))) ((broadcastInDim S256x16 ![] bcast_S_S256x16) (constant S_ .f32 0x00000000#32 : (⟨S_, .f32⟩ : BufTy).Contents (Elt F)))) (((transpose S16x1 [1, 0] · transposes_S1x16_S16x1_1_0) : (⟨S1x16, .f32⟩ : BufTy).Contents (Elt F) → (⟨S16x1, .f32⟩ : BufTy).Contents (Elt F)) w3)) ((broadcastInDim S256x1 ![0, 1] bcast_S1x1_S256x1_0_1 : (⟨S1x1, .f32⟩ : BufTy).Contents (Elt F) → (⟨S256x1, .f32⟩ : BufTy).Contents (Elt F)) ((broadcastInDim S1x1 ![1] bcast_S1_S1x1_1 : (⟨S1, .f32⟩ : BufTy).Contents (Elt F) → (⟨S1x1, .f32⟩ : BufTy).Contents (Elt F)) b3)))

variable {F : FTy → Type} [FloatOps F] in
/-- The readout is the dense layers of the per-graph mean. -/
theorem readoutS_split (h : (⟨S50000x64, .f32⟩ : BufTy).Contents (Elt F)) (gid : (⟨S50000, .i32⟩ : BufTy).Contents (Elt F)) (w1 : (⟨S32x64, .f32⟩ : BufTy).Contents (Elt F)) (b1 : (⟨S32, .f32⟩ : BufTy).Contents (Elt F)) (w2 : (⟨S16x32, .f32⟩ : BufTy).Contents (Elt F)) (b2 : (⟨S16, .f32⟩ : BufTy).Contents (Elt F)) (w3 : (⟨S1x16, .f32⟩ : BufTy).Contents (Elt F)) (b3 : (⟨S1, .f32⟩ : BufTy).Contents (Elt F)) :
    readoutS h gid w1 b1 w2 b2 w3 b3 = denseS (hgS h gid) w1 b1 w2 b2 w3 b3 := rfl

theorem dotD1_apply (l : TI S256x64) (r : TI S64x32) (p : Fin 256) (q : Fin 32) :
    Host.dotGeneral (F := Ideal) (φ₁ := .f32) (φ₂ := .f32) dot_S256x64_S64x32_S256x32_1_0_0_1_n_n none l r (ix2 p q) = ∑ c : Fin 64, l (ix2 p c) * r (ix2 c q) :=
  StackMember.dotGeneral_plain_apply (m := 256) (k := 64) (n := 32) none l r p q

theorem dotD2_apply (l : TI S256x32) (r : TI S32x16) (p : Fin 256) (q : Fin 16) :
    Host.dotGeneral (F := Ideal) (φ₁ := .f32) (φ₂ := .f32) dot_S256x32_S32x16_S256x16_1_0_0_1_n_n none l r (ix2 p q) = ∑ c : Fin 32, l (ix2 p c) * r (ix2 c q) :=
  StackMember.dotGeneral_plain_apply (m := 256) (k := 32) (n := 16) none l r p q

theorem dotD3_apply (l : TI S256x16) (r : TI S16x1) (p : Fin 256) (q : Fin 1) :
    Host.dotGeneral (F := Ideal) (φ₁ := .f32) (φ₂ := .f32) dot_S256x16_S16x1_S256x1_1_0_0_1_n_n none l r (ix2 p q) = ∑ c : Fin 16, l (ix2 p c) * r (ix2 c q) :=
  StackMember.dotGeneral_plain_apply (m := 256) (k := 16) (n := 1) none l r p q

theorem transW1_apply (x : TI S32x64) (j : Fin 64) (i : Fin 32) :
    transpose S64x32 [1, 0] x transposes_S32x64_S64x32_1_0 (ix2 j i) = x (ix2 i j) :=
  transpose_ix2_apply x transposes_S32x64_S64x32_1_0 j i

theorem transW2_apply (x : TI S16x32) (j : Fin 32) (i : Fin 16) :
    transpose S32x16 [1, 0] x transposes_S16x32_S32x16_1_0 (ix2 j i) = x (ix2 i j) :=
  transpose_ix2_apply x transposes_S16x32_S32x16_1_0 j i

theorem transW3_apply (x : TI S1x16) (j : Fin 16) (i : Fin 1) :
    transpose S16x1 [1, 0] x transposes_S1x16_S16x1_1_0 (ix2 j i) = x (ix2 i j) :=
  transpose_ix2_apply x transposes_S1x16_S16x1_1_0 j i

theorem bcastR1o_apply (y : TI S1x32) (p : Fin 256) (q : Fin 32) :
    broadcastInDim S256x32 ![0, 1] bcast_S1x32_S256x32_0_1 y (ix2 p q) = y (ix2 0 q) :=
  broadcastInDim_apply ![0, 1] bcast_S1x32_S256x32_0_1 y (ix2 p q) (ix2 0 q) (by intro a; fin_cases a <;> rfl)
theorem bcastR1i_apply (x : TI S32) (q : Fin 32) :
    broadcastInDim S1x32 ![1] bcast_S32_S1x32_1 x (ix2 0 q) = x (ix1 q) :=
  broadcastInDim_apply ![1] bcast_S32_S1x32_1 x (ix2 0 q) (ix1 q) (by intro a; fin_cases a; rfl)

theorem bcastR2o_apply (y : TI S1x16) (p : Fin 256) (q : Fin 16) :
    broadcastInDim S256x16 ![0, 1] bcast_S1x16_S256x16_0_1 y (ix2 p q) = y (ix2 0 q) :=
  broadcastInDim_apply ![0, 1] bcast_S1x16_S256x16_0_1 y (ix2 p q) (ix2 0 q) (by intro a; fin_cases a <;> rfl)
theorem bcastR2i_apply (x : TI S16) (q : Fin 16) :
    broadcastInDim S1x16 ![1] bcast_S16_S1x16_1 x (ix2 0 q) = x (ix1 q) :=
  broadcastInDim_apply ![1] bcast_S16_S1x16_1 x (ix2 0 q) (ix1 q) (by intro a; fin_cases a; rfl)
theorem bcastR3o_apply (y : TI S1x1) (p : Fin 256) :
    broadcastInDim S256x1 ![0, 1] bcast_S1x1_S256x1_0_1 y (ix2 p (0 : Fin 1)) = y (ix2 (0 : Fin 1) (0 : Fin 1)) :=
  broadcastInDim_apply ![0, 1] bcast_S1x1_S256x1_0_1 y (ix2 p (0 : Fin 1)) (ix2 (0 : Fin 1) (0 : Fin 1)) (by intro a; fin_cases a <;> rfl)
theorem bcastR3i_apply (x : TI S1) :
    broadcastInDim S1x1 ![1] bcast_S1_S1x1_1 x (ix2 (0 : Fin 1) (0 : Fin 1)) = x (ix1 (0 : Fin 1)) :=
  broadcastInDim_apply ![1] bcast_S1_S1x1_1 x (ix2 (0 : Fin 1) (0 : Fin 1)) (ix1 (0 : Fin 1)) (by intro a; fin_cases a; rfl)
/-- One entry of the dense layers: the readout of the graph's mean feature row (the weights are stored output-feature
    first; each layer adds its offset after the sum, and the first two take the maximum with the zero word). -/
theorem denseS_apply (hg : TI S256x64) (w1 : TI S32x64) (b1 : TI S32) (w2 : TI S16x32) (b2 : TI S16) (w3 : TI S1x16) (b3 : TI S1)
    (p : Fin 256) :
    denseS hg w1 b1 w2 b2 w3 b3 (ix2 p (0 : Fin 1))
      = Cert.Spec.denseRow (fun k1 => hg (ix2 p k1)) (fun k2 k1 => w1 (ix2 k2 k1)) (fun k2 => b1 (ix1 k2))
          (fun k3 k2 => w2 (ix2 k3 k2)) (fun k3 => b2 (ix1 k3)) (fun k3 => w3 (ix2 (0 : Fin 1) k3)) (b3 (ix1 (0 : Fin 1))) := by
  unfold denseS Cert.Spec.denseRow
  beta_reduce
  rw [addf_apply, dotD3_apply, bcastR3o_apply, bcastR3i_apply]
  refine congrArg (· + b3 (ix1 (0 : Fin 1))) (Finset.sum_congr rfl fun k3 _ => ?_)
  rw [transW3_apply, maximumf_apply, broadcastInDim_scalar_apply, constant_apply, addf_apply, dotD2_apply, bcastR2o_apply, bcastR2i_apply]
  refine congrArg (· * w3 (ix2 (0 : Fin 1) k3)) (congrArg (max · (Ideal.ofBits .f32 0x00000000#32))
    (congrArg (· + b2 (ix1 k3)) (Finset.sum_congr rfl fun k2 _ => ?_)))
  rw [transW2_apply, maximumf_apply, broadcastInDim_scalar_apply, constant_apply, addf_apply, dotD1_apply, bcastR1o_apply, bcastR1i_apply]
  refine congrArg (· * w2 (ix2 k3 k2)) (congrArg (max · (Ideal.ofBits .f32 0x00000000#32))
    (congrArg (· + b1 (ix1 k2)) (Finset.sum_congr rfl fun k1 _ => ?_)))
  rw [transW1_apply]

end Cert.ReferenceIdeal.RefSpec

end
-- ==== Proof.LibBatchMoments.lean ====
import Idealize.ShloMosaic.PureOps.Ideal
import Mathlib.Tactic

/-!
# Batch moments on the extended reals

For a finite family of real numbers `r : Fin n → ℝ` with `n = N ≠ 0`, the mean of the squared
deviations from the mean equals the mean of the squares minus the square of the mean:

  `(∑ (r p - μ)²) / N = (∑ (r p)²) / N - μ²`,   `μ = (∑ r p) / N`.

The identity is stated on the extended reals, with the division `Ideal.div`; since every entry is
the coercion of a real number and the divisor is a nonzero real, every intermediate value is the
coercion of a real number, and the identity is the one of real arithmetic. On the extended reals at
large the two sides differ (an infinite entry makes one side `⊥` and the other not), so the
hypothesis that the entries are real cannot be dropped.
-/

noncomputable section

namespace Cert.Lib.BatchMoments

open Idealize.ShloMosaic
open scoped BigOperators

/-- A finite sum of coercions of real numbers is the coercion of the real sum. -/
theorem coe_finset_sum {ι : Type*} (s : Finset ι) (f : ι → ℝ) :
    (∑ i ∈ s, ((f i : ℝ) : EReal)) = ((∑ i ∈ s, f i : ℝ) : EReal) := by
  classical
  induction s using Finset.induction_on with
  | empty => simp
  | insert a s ha ih => rw [Finset.sum_insert ha, Finset.sum_insert ha, ih, EReal.coe_add]

/-- The quotient of a real number by a nonzero real number, taken on the extended reals, is the
    coercion of the real quotient. -/
theorem div_coe_coe (x : ℝ) {y : ℝ} (hy : y ≠ 0) :
    Ideal.div (x : EReal) (y : EReal) = ((x / y : ℝ) : EReal) := by
  rw [Ideal.div_coe hy, ← EReal.coe_mul, mul_one_div]

/-- The mean of a real family, taken on the extended reals, is the coercion of the real mean. -/
theorem mean_coe {n : ℕ} {N : ℝ} (hN : N ≠ 0) (r : Fin n → ℝ) :
    Ideal.div (∑ p, ((r p : ℝ) : EReal)) (N : EReal) = (((∑ p, r p) / N : ℝ) : EReal) := by
  rw [coe_finset_sum, div_coe_coe _ hN]

/-- The identity on the real numbers: with `m = (∑ r p) / N` and `n = N ≠ 0`,
    `(∑ (r p - m)²) / N = (∑ (r p)²) / N - m²`. Expanding the square,
    `∑ (r p - m)² = ∑ (r p)² - 2 m ∑ r p + N m²` and `∑ r p = N m`. -/
theorem real_mean_sq_dev {n : ℕ} {N : ℝ} (hN : N ≠ 0) (hn : (n : ℝ) = N) (r : Fin n → ℝ) :
    (∑ p, (r p - (∑ q, r q) / N) * (r p - (∑ q, r q) / N)) / N
      = (∑ p, r p * r p) / N - ((∑ q, r q) / N) * ((∑ q, r q) / N) := by
  have h1 : ∀ m : ℝ, ∑ p, (r p - m) * (r p - m)
      = (∑ p, r p * r p) - 2 * m * (∑ p, r p) + N * (m * m) := by
    intro m
    have h2 : ∀ p, (r p - m) * (r p - m) = r p * r p - 2 * m * r p + m * m := fun p => by ring
    simp only [h2]
    rw [Finset.sum_add_distrib, Finset.sum_sub_distrib, ← Finset.mul_sum, Finset.sum_const,
      Finset.card_univ, Fintype.card_fin, nsmul_eq_mul, hn]
  rw [h1]
  field_simp
  ring

/-- The sum of the squared deviations of real entries from a real centre, on the extended reals,
    is the coercion of the real sum of squared deviations. -/
theorem sum_sq_dev_coe {n : ℕ} (r : Fin n → ℝ) (m : ℝ) :
    (∑ p, (((r p : ℝ) : EReal) - (m : EReal)) * (((r p : ℝ) : EReal) - (m : EReal)))
      = ((∑ p, (r p - m) * (r p - m) : ℝ) : EReal) := by
  rw [← coe_finset_sum]
  refine Finset.sum_congr rfl (fun p _ => ?_)
  rw [← EReal.coe_sub, ← EReal.coe_mul]

/-- The sum of the squares of real entries, on the extended reals, is the coercion of the real
    sum of squares. -/
theorem sum_sq_coe {n : ℕ} (r : Fin n → ℝ) :
    (∑ p, ((r p : ℝ) : EReal) * ((r p : ℝ) : EReal)) = ((∑ p, r p * r p : ℝ) : EReal) := by
  rw [← coe_finset_sum]
  refine Finset.sum_congr rfl (fun p _ => ?_)
  rw [← EReal.coe_mul]

/-- **Variance identity**, with the mean named: for real entries `r p`, a nonzero real count
    `N = n` and `μ = (∑ r p) / N`, the mean squared deviation from `μ` is the mean of the squares
    minus `μ²`, on the extended reals. -/
theorem mean_sq_dev_eq' {n : ℕ} {N : ℝ} (hN : N ≠ 0) (hn : (n : ℝ) = N) (r : Fin n → ℝ)
    (μ : EReal) (hμ : μ = Ideal.div (∑ p, ((r p : ℝ) : EReal)) (N : EReal)) :
    Ideal.div (∑ p, (((r p : ℝ) : EReal) - μ) * (((r p : ℝ) : EReal) - μ)) (N : EReal)
      = Ideal.div (∑ p, ((r p : ℝ) : EReal) * ((r p : ℝ) : EReal)) (N : EReal) - μ * μ := by
  rw [hμ, mean_coe hN, sum_sq_dev_coe, sum_sq_coe, div_coe_coe _ hN, div_coe_coe _ hN,
    ← EReal.coe_mul, ← EReal.coe_sub, real_mean_sq_dev hN hn]

/-- **Variance identity**: for real entries `r p` and a nonzero real count `N = n`, with
    `μ = (∑ r p) / N`: `(∑ (r p - μ)²) / N = (∑ (r p)²) / N - μ²` on the extended reals. -/
theorem mean_sq_dev_eq {n : ℕ} {N : ℝ} (hN : N ≠ 0) (hn : (n : ℝ) = N) (r : Fin n → ℝ) :
    Ideal.div (∑ p, (((r p : ℝ) : EReal) - Ideal.div (∑ q, ((r q : ℝ) : EReal)) (N : EReal))
        * (((r p : ℝ) : EReal) - Ideal.div (∑ q, ((r q : ℝ) : EReal)) (N : EReal))) (N : EReal)
      = Ideal.div (∑ p, ((r p : ℝ) : EReal) * ((r p : ℝ) : EReal)) (N : EReal)
        - Ideal.div (∑ q, ((r q : ℝ) : EReal)) (N : EReal)
          * Ideal.div (∑ q, ((r q : ℝ) : EReal)) (N : EReal) :=
  mean_sq_dev_eq' hN hn r _ rfl

/-- The mean squared deviation of real entries from their mean is a nonnegative real number
    (mean named): a sum of squares divided by a positive count. -/
theorem mean_sq_dev_nonneg' {n : ℕ} {N : ℝ} (hN : 0 < N) (r : Fin n → ℝ)
    (μ : EReal) (hμ : μ = Ideal.div (∑ p, ((r p : ℝ) : EReal)) (N : EReal)) :
    ∃ v : ℝ, 0 ≤ v ∧
      Ideal.div (∑ p, (((r p : ℝ) : EReal) - μ) * (((r p : ℝ) : EReal) - μ)) (N : EReal)
        = (v : EReal) := by
  refine ⟨(∑ p, (r p - (∑ q, r q) / N) * (r p - (∑ q, r q) / N)) / N, ?_, ?_⟩
  · exact div_nonneg (Finset.sum_nonneg (fun p _ => mul_self_nonneg _)) hN.le
  · rw [hμ, mean_coe hN.ne', sum_sq_dev_coe, div_coe_coe _ hN.ne']

/-- The mean squared deviation of real entries from their mean is a nonnegative real number. -/
theorem mean_sq_dev_nonneg {n : ℕ} {N : ℝ} (hN : 0 < N) (r : Fin n → ℝ) :
    ∃ v : ℝ, 0 ≤ v ∧
      Ideal.div (∑ p, (((r p : ℝ) : EReal) - Ideal.div (∑ q, ((r q : ℝ) : EReal)) (N : EReal))
          * (((r p : ℝ) : EReal) - Ideal.div (∑ q, ((r q : ℝ) : EReal)) (N : EReal))) (N : EReal)
        = (v : EReal) :=
  mean_sq_dev_nonneg' hN r _ rfl

/-- The moments in the two spellings that occur: the entries are extended reals known to be real,
    and a sum may carry a leading `0 +` (the initial value of a reduction). For such entries and a
    positive real count `N = n`: the mean with and without the leading zero agree; the mean of the
    squares minus the square of the mean is the mean of the squared deviations from the mean; the
    mean is a real number; and the mean of the squared deviations is a nonnegative real number. -/
theorem moments_bridge {n : ℕ} {N : ℝ} (hN : 0 < N) (hn : (n : ℝ) = N) (f : Fin n → EReal)
    (hf : ∀ p, ∃ r : ℝ, f p = (r : EReal)) :
    Ideal.div (∑ p, f p) (N : EReal) = Ideal.div (0 + ∑ p, f p) (N : EReal)
    ∧ Ideal.div (∑ p, f p * f p) (N : EReal)
          - Ideal.div (∑ p, f p) (N : EReal) * Ideal.div (∑ p, f p) (N : EReal)
        = Ideal.div (0 + ∑ p, (f p - Ideal.div (0 + ∑ q, f q) (N : EReal))
            * (f p - Ideal.div (0 + ∑ q, f q) (N : EReal))) (N : EReal)
    ∧ (∃ μ : ℝ, Ideal.div (0 + ∑ p, f p) (N : EReal) = (μ : EReal))
    ∧ (∃ v : ℝ, 0 ≤ v ∧
        Ideal.div (0 + ∑ p, (f p - Ideal.div (0 + ∑ q, f q) (N : EReal))
            * (f p - Ideal.div (0 + ∑ q, f q) (N : EReal))) (N : EReal) = (v : EReal)) := by
  choose r hr using hf
  obtain rfl : f = fun p => ((r p : ℝ) : EReal) := funext hr
  simp only [zero_add]
  exact ⟨trivial, (mean_sq_dev_eq hN.ne' hn r).symm, ⟨_, mean_coe hN.ne' r⟩,
    mean_sq_dev_nonneg hN r⟩

end Cert.Lib.BatchMoments

end
-- ==== Proof.LibRealEntries.lean ====
import Idealize.ShloMosaic.PureOps.Ideal
import Idealize.ShloMosaic.PureOps.Ideal.Laws
import Idealize.ShloMosaic.PureOps.Contract
import Idealize.ShloMosaic.PureOps.ShapeOps
import Idealize.ShloMosaic.PureOps.Vector
import Mathlib.Tactic

/-!
# Real entries are preserved by the host operations

An extended real is *real* when it is the coercion of a real number, that is, neither `⊤` nor
`⊥`. This file shows that the arithmetic of the extended reals keeps real values real (sums,
differences, products, finite sums, quotients by a nonzero real, reciprocal square roots of a
positive real), and lifts this, entry by entry, to vectors: each host operation whose result
entries are entries of its operands (re-indexings: gather, broadcast, reshape, concatenation,
slicing, selection), or sums and products of them (scatter-add, reduction, contraction,
entrywise arithmetic), sends vectors with real entries to a vector with real entries.
-/

noncomputable section

namespace Cert.Lib.RealEntries

open Idealize.ShloMosaic
open scoped BigOperators

/-- An extended real is real: the coercion of a real number. -/
def IsR (x : EReal) : Prop := ∃ r : ℝ, x = (r : EReal)

/-- Every entry of a vector of extended reals is real. -/
def AllR {S : Shape} (v : S.Idx → EReal) : Prop := ∀ i, IsR (v i)

/-! ### Scalars -/

theorem isR_coe (r : ℝ) : IsR (r : EReal) := ⟨r, rfl⟩

theorem isR_zero : IsR 0 := ⟨0, EReal.coe_zero.symm⟩

theorem isR_one : IsR 1 := ⟨1, EReal.coe_one.symm⟩

/-- A real value is neither infinity. -/
theorem IsR.ne_top {x : EReal} (hx : IsR x) : x ≠ ⊤ := by
  obtain ⟨a, rfl⟩ := hx; exact EReal.coe_ne_top a

theorem IsR.ne_bot {x : EReal} (hx : IsR x) : x ≠ ⊥ := by
  obtain ⟨a, rfl⟩ := hx; exact EReal.coe_ne_bot a

/-- An extended real that is neither infinity is real. -/
theorem isR_of_ne {x : EReal} (ht : x ≠ ⊤) (hb : x ≠ ⊥) : IsR x :=
  ⟨x.toReal, (EReal.coe_toReal ht hb).symm⟩

theorem IsR.add {x y : EReal} (hx : IsR x) (hy : IsR y) : IsR (x + y) := by
  obtain ⟨a, rfl⟩ := hx; obtain ⟨b, rfl⟩ := hy; exact ⟨a + b, (EReal.coe_add a b).symm⟩

theorem IsR.sub {x y : EReal} (hx : IsR x) (hy : IsR y) : IsR (x - y) := by
  obtain ⟨a, rfl⟩ := hx; obtain ⟨b, rfl⟩ := hy; exact ⟨a - b, (EReal.coe_sub a b).symm⟩

theorem IsR.mul {x y : EReal} (hx : IsR x) (hy : IsR y) : IsR (x * y) := by
  obtain ⟨a, rfl⟩ := hx; obtain ⟨b, rfl⟩ := hy; exact ⟨a * b, (EReal.coe_mul a b).symm⟩

theorem IsR.neg {x : EReal} (hx : IsR x) : IsR (-x) := by
  obtain ⟨a, rfl⟩ := hx; exact ⟨-a, (EReal.coe_neg a).symm⟩

/-- A finite sum of real values is real. -/
theorem isR_sum {ι : Type*} (s : Finset ι) (f : ι → EReal) (h : ∀ i ∈ s, IsR (f i)) :
    IsR (∑ i ∈ s, f i) := by
  classical
  induction s using Finset.induction_on with
  | empty => rw [Finset.sum_empty]; exact isR_zero
  | insert a s ha ih =>
    rw [Finset.sum_insert ha]
    exact (h a (Finset.mem_insert_self a s)).add (ih (fun i hi => h i (Finset.mem_insert_of_mem hi)))

/-- A real value divided by a nonzero real number is real. -/
theorem isR_div {x : EReal} (hx : IsR x) {y : ℝ} (hy : y ≠ 0) : IsR (Ideal.div x (y : EReal)) := by
  rw [Ideal.div_coe hy]; exact hx.mul (isR_coe _)

/-- The reciprocal square root of a positive real number is real. -/
theorem isR_rsqrt {r : ℝ} (hr : 0 < r) : IsR (Ideal.rsqrt (r : EReal)) := by
  rw [Ideal.rsqrt_coe, if_neg (not_lt.2 hr.le), if_neg hr.ne']; exact isR_coe _

/-- A choice between two real values is real. -/
theorem isR_ite {c : Prop} [Decidable c] {x y : EReal} (hx : IsR x) (hy : IsR y) :
    IsR (if c then x else y) := by
  split
  · exact hx
  · exact hy

/-! ### Words -/

/-- The single-precision word `0x47C35000` denotes `100000 = (2²³ + 4411392) · 2⁻⁷`. -/
theorem ofBits_47C35000 : Ideal.ofBits .f32 0x47C35000#32 = ((100000 : ℝ) : EReal) := by
  simp [Ideal.ofBits, Ideal.ieee]
  rw [← EReal.coe_mul]
  norm_num

/-- The single-precision word `0x3F800000` denotes `1 = 2²³ · 2⁻²³`. -/
theorem ofBits_3F800000 : Ideal.ofBits .f32 0x3F800000#32 = 1 := by
  simp [Ideal.ofBits, Ideal.ieee]
  rw [← EReal.coe_mul, ← EReal.coe_one]
  norm_num

/-- The single-precision word `0x3727C5AC` denotes a positive real number,
    `(2²³ + 2606508) · 2⁻⁴⁰`. -/
theorem ofBits_3727C5AC : ∃ e : ℝ, 0 < e ∧ Ideal.ofBits .f32 0x3727C5AC#32 = (e : EReal) := by
  refine ⟨10995116 * (2 ^ 40)⁻¹, by positivity, ?_⟩
  simp [Ideal.ofBits, Ideal.ieee]

/-- The words above, and the zero word, denote real numbers. -/
theorem isR_ofBits_00000000 : IsR (Ideal.ofBits .f32 0x00000000#32) := by
  rw [Ideal.ofBits_zero_f32]; exact isR_zero

theorem isR_ofBits_47C35000 : IsR (Ideal.ofBits .f32 0x47C35000#32) := ⟨_, ofBits_47C35000⟩

theorem isR_ofBits_3F800000 : IsR (Ideal.ofBits .f32 0x3F800000#32) := by
  rw [ofBits_3F800000]; exact isR_one

theorem isR_ofBits_3727C5AC : IsR (Ideal.ofBits .f32 0x3727C5AC#32) := by
  obtain ⟨e, _, h⟩ := ofBits_3727C5AC; exact ⟨e, h⟩

/-! ### Vectors

Each statement is at the extended-real instance, for arbitrary shapes and dimension records. -/

/-- `gather` re-indexes its operand: every result entry is an operand entry. -/
theorem allR_gather {s si t : Shape} {w : Nat} (d : GatherDims s si t) (x : s.Idx → EReal)
    (idx : IVec si w) (hx : AllR x) : AllR (Host.gather d x idx) :=
  fun j => hx (d.operandIdx j idx)

/-- `scatter-add`: every result entry is an operand entry plus a finite sum of update entries. -/
theorem allR_scatterAdd {s si u : Shape} {φ : FTy} {w : Nat} (d : ScatterDims s si u)
    (x : FVec Ideal s φ) (idx : IVec si w) (upd : FVec Ideal u φ) (hx : AllR x) (hu : AllR upd) :
    AllR (Host.scatterAdd (F := Ideal) d x idx upd) := by
  intro i
  show IsR (x i + ∑ j ∈ Finset.univ.filter (fun j => d.resultIdx? j idx = some i), upd j)
  exact (hx i).add (isR_sum _ _ (fun j _ => hu j))

/-- The host sum over axes: every result entry is the initial value plus a finite sum of operand
    entries. -/
theorem allR_reduceAdd {s t u : Shape} {φ : FTy} {axes : List (Fin s.rank)} (x : FVec Ideal s φ)
    (init : u.Idx → Ideal φ) (h : s.ReducesTo axes t) (hu : 0 < u.numel) (hx : AllR x)
    (hi : IsR (init (Shape.Idx.first hu))) : AllR (Host.reduceAdd (F := Ideal) x init h hu) := by
  intro j
  show IsR (init (Shape.Idx.first hu) + ∑ i ∈ Finset.univ.filter (fun i => h.drop i = j), x i)
  exact hi.add (isR_sum _ _ (fun i _ => hx i))

/-- The host sum over axes, with every entry of the initial value real. -/
theorem allR_reduceAdd' {s t u : Shape} {φ : FTy} {axes : List (Fin s.rank)} (x : FVec Ideal s φ)
    (init : u.Idx → Ideal φ) (h : s.ReducesTo axes t) (hu : 0 < u.numel) (hx : AllR x)
    (hi : AllR init) : AllR (Host.reduceAdd (F := Ideal) x init h hu) :=
  allR_reduceAdd x init h hu hx (hi _)

/-- The host contraction: every result entry is a finite sum of products of operand entries. -/
theorem allR_dotGeneral {sl sr so : Shape} {φ₁ φ₂ : FTy} (D : DotDims sl sr so)
    (prec : Option ContractPrecision) (x : FVec Ideal sl φ₁) (w : FVec Ideal sr φ₂)
    (hx : AllR x) (hw : AllR w) : AllR (Host.dotGeneral (F := Ideal) D prec x w) := by
  intro j
  show IsR (FloatOps.dotGeneral D prec .single x w j)
  rw [Ideal.dotGeneral_apply]
  exact isR_sum _ _ (fun k _ => (hx _).mul (hw _))

theorem allR_mulf {S : Shape} {φ : FTy} (x y : FVec Ideal S φ) (hx : AllR x) (hy : AllR y) :
    AllR (mulf (F := Ideal) x y) :=
  fun i => (hx i).mul (hy i)

theorem allR_addf {S : Shape} {φ : FTy} (x y : FVec Ideal S φ) (hx : AllR x) (hy : AllR y) :
    AllR (addf (F := Ideal) x y) :=
  fun i => (hx i).add (hy i)

theorem allR_subf {S : Shape} {φ : FTy} (x y : FVec Ideal S φ) (hx : AllR x) (hy : AllR y) :
    AllR (subf (F := Ideal) x y) :=
  fun i => (hx i).sub (hy i)

theorem allR_negf {S : Shape} {φ : FTy} (x : FVec Ideal S φ) (hx : AllR x) :
    AllR (negf (F := Ideal) x) :=
  fun i => (hx i).neg

/-- A selection between two vectors with real entries has real entries, whatever the mask. -/
theorem allR_select {S : Shape} (c : IVec S 1) (x y : S.Idx → EReal) (hx : AllR x) (hy : AllR y) :
    AllR (select c x y) := by
  intro i
  show IsR (if c i = 1 then x i else y i)
  exact isR_ite (hx i) (hy i)

/-- `broadcast_in_dim` re-indexes its operand. -/
theorem allR_broadcastInDim {s : Shape} (t : Shape) (dims : Fin s.rank → Fin t.rank)
    (h : s.BroadcastsInDim t dims) (x : s.Idx → EReal) (hx : AllR x) :
    AllR (broadcastInDim t dims h x) :=
  fun _ => hx _

/-- A broadcast of a vector along leading axes re-indexes its operand. -/
theorem allR_broadcastTo {s : Shape} (t : Shape) (x : s.Idx → EReal) (h : s.Broadcasts t)
    (hx : AllR x) : AllR (broadcastTo t x h) :=
  fun _ => hx _

/-- A broadcast of a real scalar has real entries. -/
theorem allR_broadcast (t : Shape) (x : EReal) (hx : IsR x) : AllR (broadcast t x) :=
  fun _ => hx

/-- A reshape re-indexes its operand. -/
theorem allR_shapeCast {s : Shape} (t : Shape) (x : s.Idx → EReal) (h : s.ShapeCasts t)
    (hx : AllR x) : AllR (shapeCast t x h) :=
  fun _ => hx _

/-- A slice re-indexes its operand. -/
theorem allR_extractStridedSlice {s : Shape} (t : Shape) (off : Fin s.rank → Nat)
    (x : s.Idx → EReal) (h : s.Slices off t) (hx : AllR x) :
    AllR (extractStridedSlice t off x h) :=
  fun _ => hx _

/-- A strided slice re-indexes its operand. -/
theorem allR_hostSlice {s : Shape} (t : Shape) (start strides : Fin s.rank → Nat)
    (x : s.Idx → EReal) (h : s.SlicesBy start strides t) (hx : AllR x) :
    AllR (Host.slice t start strides x h) :=
  fun _ => hx _

/-- A transposition re-indexes its operand. -/
theorem allR_transpose {s : Shape} (t : Shape) (perm : List (Fin s.rank)) (x : s.Idx → EReal)
    (h : s.Transposes perm t) (hx : AllR x) : AllR (transpose t perm x h) :=
  fun _ => hx _

/-- A concatenation of vectors with real entries has real entries: every result entry is an
    entry of one of the pieces. -/
theorem allR_concatenate_list (t : Shape) (a : Fin t.rank)
    (xs : List ((s : Shape) × (s.Idx → EReal))) (h : Shape.Concatenates (xs.map (·.1)) t a)
    (hxs : ∀ p ∈ xs, AllR p.2) : AllR (concatenate t a xs h) := by
  intro j
  unfold concatenate
  exact hxs _ (List.getElem_mem _) _

/-- A concatenation of two vectors with real entries has real entries. -/
theorem allR_concatenate {s₁ s₂ : Shape} (t : Shape) (a : Fin t.rank) (x₁ : s₁.Idx → EReal)
    (x₂ : s₂.Idx → EReal)
    (h : Shape.Concatenates
      (([⟨s₁, x₁⟩, ⟨s₂, x₂⟩] : List ((s : Shape) × (s.Idx → EReal))).map (·.1)) t a)
    (h₁ : AllR x₁) (h₂ : AllR x₂) :
    AllR (concatenate t a [⟨s₁, x₁⟩, ⟨s₂, x₂⟩] h) := by
  apply allR_concatenate_list
  intro p hp
  simp only [List.mem_cons, List.not_mem_nil, or_false] at hp
  rcases hp with rfl | rfl
  · exact h₁
  · exact h₂

/-- The entrywise host quotient of a vector with real entries by a vector whose entries are
    nonzero real numbers has real entries. -/
theorem allR_hostDivf {S : Shape} {φ : FTy} (x y : FVec Ideal S φ) (hx : AllR x)
    (hy : ∀ i, ∃ r : ℝ, r ≠ 0 ∧ y i = (r : EReal)) : AllR (Host.divf (F := Ideal) x y) := by
  intro i
  obtain ⟨r, hr, hyi⟩ := hy i
  show IsR (Ideal.div (x i) (y i))
  rw [hyi]
  exact isR_div (hx i) hr

/-- The entrywise quotient, likewise. -/
theorem allR_divf {S : Shape} {φ : FTy} (x y : FVec Ideal S φ) (hx : AllR x)
    (hy : ∀ i, ∃ r : ℝ, r ≠ 0 ∧ y i = (r : EReal)) : AllR (divf (F := Ideal) x y) := by
  intro i
  obtain ⟨r, hr, hyi⟩ := hy i
  show IsR (Ideal.div (x i) (y i))
  rw [hyi]
  exact isR_div (hx i) hr

/-- The entrywise host reciprocal square root of a vector whose entries are positive real
    numbers has real entries. -/
theorem allR_hostRsqrt {S : Shape} {φ : FTy} (x : FVec Ideal S φ)
    (hx : ∀ i, ∃ r : ℝ, 0 < r ∧ x i = (r : EReal)) : AllR (Host.rsqrt (F := Ideal) x) := by
  intro i
  obtain ⟨r, hr, hxi⟩ := hx i
  show IsR (Ideal.rsqrt (x i))
  rw [hxi]
  exact isR_rsqrt hr

/-- The entrywise reciprocal square root, likewise. -/
theorem allR_rsqrt {S : Shape} {φ : FTy} (x : FVec Ideal S φ)
    (hx : ∀ i, ∃ r : ℝ, 0 < r ∧ x i = (r : EReal)) : AllR (rsqrt (F := Ideal) x) := by
  intro i
  obtain ⟨r, hr, hxi⟩ := hx i
  show IsR (Ideal.rsqrt (x i))
  rw [hxi]
  exact isR_rsqrt hr

/-- A constant vector whose word denotes a real number has real entries. -/
theorem allR_constant (S : Shape) (φ : FTy) (w : BitVec φ.bits) (h : IsR (Ideal.ofBits φ w)) :
    AllR (constant (F := Ideal) S φ w) :=
  fun _ => h

end Cert.Lib.RealEntries

end
-- ==== Proof.MomentsBridge.lean ====
/-
  The batch moments as the kernel takes them and as the reference takes them. For a column of 50000 entries the kernel
  holds the running sums S = 0 + Σ col and Q = 0 + Σ col², and takes the mean as S · c and the variance as
  Q · c − (S · c)², with c the named reciprocal of the count, which is the rational 1/50000. The reference takes the mean
  as (Σ col) / 50000 and the variance as the mean of the squared deviations from the mean. A quotient of any extended
  real by the real 50000 is its product with 1/50000, so the means agree for any column. The variances agree when every
  entry is a real number (mean of squares minus squared mean = mean of squared deviations, an identity of real
  arithmetic that fails with an infinite entry).
-/
import proofs.«111449_j80633716015168_2_alg».proof.Proof.BodyBatchNorm
import proofs.«111449_j80633716015168_2_alg».proof.Proof.SpecMath
import proofs.«111449_j80633716015168_2_alg».proof.Proof.LibBatchMoments
import proofs.«111449_j80633716015168_2_alg».proof.Proof.LibRealEntries
import Idealize.ShloMosaic.PureOps.IdealRules

noncomputable section

namespace Cert.KernelIdeal.Bodies

open Idealize.ShloMosaic Cert.KernelIdeal Cert.Spec Cert.Lib.RealEntries Cert.Lib.BatchMoments
open scoped BigOperators

/-- The named reciprocal of the node count is the rational 1/50000. -/
theorem invN_eq : invN = ((1 / 50000 : ℝ) : EReal) :=
  IdealRules.named_const.ideal_named_scalar _ _ _ _ rfl

/-- A running sum from the zero word, times the named reciprocal, is the sum over the real 50000. -/
theorem sum_mul_invN (x : EReal) : (zeroW + x) * invN = Ideal.div x ((50000 : ℝ) : EReal) := by
  have hz : zeroW = 0 := Ideal.ofBits_zero_f32
  rw [hz, zero_add, invN_eq, Ideal.div_coe (by norm_num : (50000 : ℝ) ≠ 0)]

/-- The kernel's mean of a column is the reference's, for any column. -/
theorem mean_bridge (col : Fin 50000 → EReal) : (zeroW + ∑ r, col r) * invN = colMean col := by
  rw [sum_mul_invN]
  rfl

/-- The kernel's variance of a column of real entries is the reference's. -/
theorem var_bridge (col : Fin 50000 → EReal) (hcol : ∀ r, IsR (col r)) :
    (zeroW + ∑ r, col r * col r) * invN - ((zeroW + ∑ r, col r) * invN) * ((zeroW + ∑ r, col r) * invN) = colVar col := by
  rw [sum_mul_invN, sum_mul_invN]
  have hb := (moments_bridge (n := 50000) (N := 50000) (by norm_num) (by norm_num) col hcol).2.1
  rw [hb]
  unfold colVar colMean
  simp only [zero_add]

/-- One normalized entry from the kernel's running sums of a column of real entries is the entry from the reference's
    mean and variance of that column. -/
theorem bnEntry_bridge (col : Fin 50000 → EReal) (hcol : ∀ r, IsR (col r)) (g b a hin : EReal) :
    bnEntry (zeroW + ∑ r, col r) (zeroW + ∑ r, col r * col r) g b a hin
      = normEntry (colMean col) (colVar col) g b a hin := by
  unfold bnEntry
  rw [var_bridge col hcol, mean_bridge col]

end Cert.KernelIdeal.Bodies

end
-- ==== Proof.LayerBridge.lean ====
/-
  One layer of the kernel is the reference's layer. The kernel transforms the node features block by block into the
  whole product, gathers it at the edges' sources, scales it by the Gaussian weights block by block, aggregates, and
  normalizes from the running column sums; the reference does the same with whole-array operations. The two agree:
  the products are the same sums; the Gaussian weights are the same expression of the same parameters; the aggregation
  is the same operation; and for a column of REAL entries the kernel's mean of squares minus squared mean is the
  reference's mean of squared deviations.
-/
import proofs.«111449_j80633716015168_2_alg».proof.Proof.KHost
import proofs.«111449_j80633716015168_2_alg».proof.Proof.ValNodeTransform
import proofs.«111449_j80633716015168_2_alg».proof.Proof.ValEdgeMessage
import proofs.«111449_j80633716015168_2_alg».proof.Proof.ValBnReduce
import proofs.«111449_j80633716015168_2_alg».proof.Proof.ValBnNormalize
import proofs.«111449_j80633716015168_2_alg».proof.Proof.RefIdx
import proofs.«111449_j80633716015168_2_alg».proof.Proof.MomentsBridge
import proofs.«111449_j80633716015168_2_alg».proof.Proof.LibRealEntries

set_option maxRecDepth 16384

noncomputable section

namespace Cert.Bridge

open Idealize.ShloMosaic Idealize.ShloMosaic.ValueIdx
open Cert.ReferenceIdeal Cert.ReferenceIdeal.RefSpec Cert.Lib.RealEntries
open Cert.KernelIdeal.Vals (hkOf hkOf_apply msgOf msgOf_apply sumRowOf sqRowOf bnnOf bnnOf_apply)
open Cert.KernelIdeal.Gen (hkSrcK aggK)

/-- The kernel's whole product, its 192 columns read as three blocks of 64, is the reference's transformed features:
    the kernel's weight matrix is the reference's, transposed. -/
theorem hk_bridge (h : TI S50000x64) (Wt : TI S64x192) (W : TI S192x64)
    (hW : ∀ (k : Fin 64) (q : Fin 192), Wt (ix2 k q) = W (ix2 q k)) :
    shapeCast S50000x3x64 (hkOf h Wt) Cert.KernelIdeal.Gen.shapeCasts_S50000x192_S50000x3x64 = hkS h W := by
  funext i
  obtain ⟨p, k, o, rfl⟩ : ∃ (p : Fin 50000) (k : Fin 3) (o : Fin 64), i = ix3 p k o := ⟨i 0, i 1, i 2, eq_ix3 i⟩
  have hq : 64 * k.val + o.val < 192 := by have := k.isLt; have := o.isLt; omega
  rw [hkS_apply]
  refine (shapeCast_apply (hkOf h Wt) Cert.KernelIdeal.Gen.shapeCasts_S50000x192_S50000x3x64 (ix3 p k o) (ix2 p ⟨64 * k.val + o.val, hq⟩) (by
    rw [Shape.rowMajor_val_three, Shape.rowMajor_val_two]
    show p.val * 192 + (64 * k.val + o.val) = (p.val * 3 + k.val) * 64 + o.val
    omega)).trans ?_
  rw [hkOf_apply]
  unfold Cert.Spec.rowDot
  exact Finset.sum_congr rfl fun t _ => by rw [hW]

/-- The gathered features agree. -/
theorem hkSrc_bridge (h : TI S50000x64) (Wt : TI S64x192) (W : TI S192x64) (src : (⟨S800000, .i32⟩ : BufTy).Contents (Elt Ideal))
    (hW : ∀ (k : Fin 64) (q : Fin 192), Wt (ix2 k q) = W (ix2 q k)) :
    hkSrcK (hkOf h Wt) src = hkSrcS (hkS h W) src := by
  rw [← hk_bridge h Wt W hW]
  rfl

/-- The messages agree: the same gathered feature times the same Gaussian weight. -/
theorem msg_bridge (ps : TI S800000x2) (G : TI S800000x3x64) (Ak A : TI S2x2) (bk : TI S1x2) (bv : TI S2) (muk mu sgk sg : TI S3x2)
    (hA : Ak = A) (hb : ∀ d : Fin 2, bk (ix2 (0 : Fin 1) d) = bv (ix1 d)) (hmu : muk = mu) (hsg : sgk = sg) :
    msgOf ps G Ak bk muk sgk = msgS G (gaussS (uS ps A bv) mu sg) := by
  subst hA hmu hsg
  funext i
  obtain ⟨e, k, o, rfl⟩ : ∃ (e : Fin 800000) (k : Fin 3) (o : Fin 64), i = ix3 e k o := ⟨i 0, i 1, i 2, eq_ix3 i⟩
  rw [msgOf_apply, msgS_apply, gaussS_apply]
  congr 1
  unfold Cert.Spec.gaussW Cert.Spec.dev
  congr 2
  refine Finset.sum_congr rfl fun d _ => ?_
  rw [uS_apply]
  have hbf : (fun d : Fin 2 => bk (ix2 (0 : Fin 1) d)) = fun d => bv (ix1 d) := funext hb
  rw [hbf]

/-- The aggregation is one operation in both programs. -/
theorem agg_bridge (dst : (⟨S800000, .i32⟩ : BufTy).Contents (Elt Ideal)) (msg : TI S800000x3x64) : aggK dst msg = aggS msg dst := rfl

/-- The normalized, rectified, residual-added layer output agrees, for an aggregate of real entries. -/
theorem bn_bridge (agg h : TI S50000x64) (gk btk : TI S1x64) (gamma beta : TI S64) (hagg : AllR (S := S50000x64) agg)
    (hg : ∀ j : Fin 64, gk (ix2 (0 : Fin 1) j) = gamma (ix1 j)) (hbt : ∀ j : Fin 64, btk (ix2 (0 : Fin 1) j) = beta (ix1 j)) :
    bnnOf agg h (sumRowOf agg) (sqRowOf agg) gk btk = bnS agg h gamma beta := by
  funext i
  obtain ⟨r, j, rfl⟩ : ∃ (r : Fin 50000) (j : Fin 64), i = ix2 r j := ⟨i 0, i 1, eq_ix2 i⟩
  rw [bnnOf_apply, bnS_apply, hg j, hbt j]
  exact Cert.KernelIdeal.Bodies.bnEntry_bridge (fun r => agg (ix2 r j)) (fun r => hagg (ix2 r j)) _ _ _ _

/-- One layer. -/
theorem layer_bridge (h : TI S50000x64) (ps : TI S800000x2) (src dst : (⟨S800000, .i32⟩ : BufTy).Contents (Elt Ideal))
    (Wt : TI S64x192) (Ak : TI S2x2) (bk : TI S1x2) (muk sgk : TI S3x2) (gk btk : TI S1x64)
    (W : TI S192x64) (A : TI S2x2) (bv : TI S2) (mu sg : TI S3x2) (gamma beta : TI S64)
    (hW : ∀ (k : Fin 64) (q : Fin 192), Wt (ix2 k q) = W (ix2 q k)) (hA : Ak = A)
    (hb : ∀ d : Fin 2, bk (ix2 (0 : Fin 1) d) = bv (ix1 d)) (hmu : muk = mu) (hsg : sgk = sg)
    (hg : ∀ j : Fin 64, gk (ix2 (0 : Fin 1) j) = gamma (ix1 j)) (hbt : ∀ j : Fin 64, btk (ix2 (0 : Fin 1) j) = beta (ix1 j))
    (hagg : AllR (S := S50000x64) (aggS (msgS (hkSrcS (hkS h W) src) (gaussS (uS ps A bv) mu sg)) dst)) :
    bnnOf (aggK dst (msgOf ps (hkSrcK (hkOf h Wt) src) Ak bk muk sgk)) h
        (sumRowOf (aggK dst (msgOf ps (hkSrcK (hkOf h Wt) src) Ak bk muk sgk)))
        (sqRowOf (aggK dst (msgOf ps (hkSrcK (hkOf h Wt) src) Ak bk muk sgk))) gk btk
      = layerS h ps src dst A bv mu sg W gamma beta := by
  have e : aggK dst (msgOf ps (hkSrcK (hkOf h Wt) src) Ak bk muk sgk)
      = aggS (msgS (hkSrcS (hkS h W) src) (gaussS (uS ps A bv) mu sg)) dst := by
    rw [agg_bridge, hkSrc_bridge h Wt W src hW, msg_bridge ps _ Ak A bk bv muk mu sgk sg hA hb hmu hsg]
  rw [e]
  exact bn_bridge _ h gk btk gamma beta hagg hg hbt

end Cert.Bridge

end
-- ==== Proof.ParamBridge.lean ====
/-
  The layers' parameters as the kernel cuts them and as the reference cuts them, out of the same stacked arguments. The
  weight stack (4 × 192 × 64) is transposed by the kernel to 4 × 64 × 192 before block l is cut, so the kernel's matrix
  at (k, q) is the reference's at (q, k). The offset, scale and shift stacks (4 × 2, 4 × 64) get a unit axis from the
  kernel (4 × 1 × 2, 4 × 1 × 64) before block l is cut as one row, so the kernel's row at column j is the reference's
  vector at j. The projection matrices and the mixture means and scales are cut by the same operations in both.
-/
import proofs.«111449_j80633716015168_2_alg».proof.Proof.Gen.KernelIdeal
import proofs.«111449_j80633716015168_2_alg».proof.Proof.RefStages
import Idealize.ShloMosaic.Lib.ValueIdx
import Idealize.ShloMosaic.Lib.ValueLayout
import Idealize.ShloMosaic.Lib.Pipeline.Value

noncomputable section

namespace Cert.KernelIdeal.ParamBridge

open Idealize.ShloMosaic Idealize.ShloMosaic.ValueIdx Cert.KernelIdeal Cert.KernelIdeal.Gen

/-! ## Two reads at an index -/

section Reads
variable {α : Type}

/-- A rank-3 array cut along its leading axis from o reads, at (j, b, e), the source at (k, b, e) with k = o + j. -/
theorem slice3_axis0_apply {n0 n1 n2 m : Nat} (o : Nat) (X : (⟨3, ![n0, n1, n2]⟩ : Shape).Idx → α)
    (h : (⟨3, ![n0, n1, n2]⟩ : Shape).Slices ![o, 0, 0] ⟨3, ![m, n1, n2]⟩)
    (j : Fin m) (b : Fin n1) (e : Fin n2) (k : Fin n0) (hk : k.val = o + j.val) :
    extractStridedSlice ⟨3, ![m, n1, n2]⟩ ![o, 0, 0] X h (ix3 j b e) = X (ix3 k b e) :=
  extractStridedSlice_apply _ _ _ _ _ (fun ax => by
    match ax with
    | ⟨0, _⟩ => exact hk
    | ⟨1, _⟩ => exact (Nat.zero_add _).symm
    | ⟨2, _⟩ => exact (Nat.zero_add _).symm)

/-- An [a, b] array cast to [a, 1, b] reads, at (i, u, j), the operand at (i, j), whatever the unit coordinate u. -/
theorem shapeCast_ab_a1b_apply {a b : ℕ} (x : (⟨2, ![a, b]⟩ : Shape).Idx → α)
    (h : (⟨2, ![a, b]⟩ : Shape).ShapeCasts ⟨3, ![a, 1, b]⟩) (i : Fin a) (u : Fin 1) (j : Fin b) :
    shapeCast ⟨3, ![a, 1, b]⟩ x h (ix3 i u j) = x (ix2 i j) :=
  shapeCast_apply x h _ _ (by
    have hu : u.val = 0 := by omega
    rw [Shape.rowMajor_val_two, Shape.rowMajor_val_three]
    show i.val * b + j.val = (i.val * 1 + u.val) * b + j.val
    rw [hu, Nat.mul_one, Nat.add_zero])

end Reads

/-! ## The kernel's cuts -/

/-- The weight stack with each matrix transposed. -/
def cWT (a : S4x192x64.Idx → EReal) : S4x64x192.Idx → EReal :=
  transpose S4x64x192 [0, 2, 1] a transposes_S4x192x64_S4x64x192_0_2_1
/-- The offset stack with a unit axis. -/
def cBR (a : S4x2.Idx → EReal) : S4x1x2.Idx → EReal := shapeCast S4x1x2 a shapeCasts_S4x2_S4x1x2
/-- The scale or shift stack with a unit axis. -/
def cGR (a : S4x64.Idx → EReal) : S4x1x64.Idx → EReal := shapeCast S4x1x64 a shapeCasts_S4x64_S4x1x64

/-- Layer 0's weight matrix, cut from the transposed stack (64 × 192: input feature first). -/
def cWt0 (a : S4x64x192.Idx → EReal) : S64x192.Idx → EReal :=
  shapeCast S64x192 (extractStridedSlice S1x64x192 ![0, 0, 0] a slices_S4x64x192_S1x64x192_0_0_0) shapeCasts_S1x64x192_S64x192
/-- Layer 0's projection matrix, cut from the stack. -/
def cA0 (a : S4x2x2.Idx → EReal) : S2x2.Idx → EReal :=
  shapeCast S2x2 (extractStridedSlice S1x2x2 ![0, 0, 0] a slices_S4x2x2_S1x2x2_0_0_0) shapeCasts_S1x2x2_S2x2
/-- Layer 0's projection offset as one row, cut from the stack with a unit axis. -/
def cB0 (a : S4x1x2.Idx → EReal) : S1x2.Idx → EReal :=
  shapeCast S1x2 (extractStridedSlice S1x1x2 ![0, 0, 0] a slices_S4x1x2_S1x1x2_0_0_0) shapeCasts_S1x1x2_S1x2
/-- Layer 0's mixture means or scales, cut from the stack. -/
def cM0 (a : S4x3x2.Idx → EReal) : S3x2.Idx → EReal :=
  shapeCast S3x2 (extractStridedSlice S1x3x2 ![0, 0, 0] a slices_S4x3x2_S1x3x2_0_0_0) shapeCasts_S1x3x2_S3x2
/-- Layer 0's normalization scale or shift as one row, cut from the stack with a unit axis. -/
def cG0 (a : S4x1x64.Idx → EReal) : S1x64.Idx → EReal :=
  shapeCast S1x64 (extractStridedSlice S1x1x64 ![0, 0, 0] a slices_S4x1x64_S1x1x64_0_0_0) shapeCasts_S1x1x64_S1x64

/-- Layer 1's weight matrix, cut from the transposed stack (64 × 192: input feature first). -/
def cWt1 (a : S4x64x192.Idx → EReal) : S64x192.Idx → EReal :=
  shapeCast S64x192 (extractStridedSlice S1x64x192 ![1, 0, 0] a slices_S4x64x192_S1x64x192_1_0_0) shapeCasts_S1x64x192_S64x192
/-- Layer 1's projection matrix, cut from the stack. -/
def cA1 (a : S4x2x2.Idx → EReal) : S2x2.Idx → EReal :=
  shapeCast S2x2 (extractStridedSlice S1x2x2 ![1, 0, 0] a slices_S4x2x2_S1x2x2_1_0_0) shapeCasts_S1x2x2_S2x2
/-- Layer 1's projection offset as one row, cut from the stack with a unit axis. -/
def cB1 (a : S4x1x2.Idx → EReal) : S1x2.Idx → EReal :=
  shapeCast S1x2 (extractStridedSlice S1x1x2 ![1, 0, 0] a slices_S4x1x2_S1x1x2_1_0_0) shapeCasts_S1x1x2_S1x2
/-- Layer 1's mixture means or scales, cut from the stack. -/
def cM1 (a : S4x3x2.Idx → EReal) : S3x2.Idx → EReal :=
  shapeCast S3x2 (extractStridedSlice S1x3x2 ![1, 0, 0] a slices_S4x3x2_S1x3x2_1_0_0) shapeCasts_S1x3x2_S3x2
/-- Layer 1's normalization scale or shift as one row, cut from the stack with a unit axis. -/
def cG1 (a : S4x1x64.Idx → EReal) : S1x64.Idx → EReal :=
  shapeCast S1x64 (extractStridedSlice S1x1x64 ![1, 0, 0] a slices_S4x1x64_S1x1x64_1_0_0) shapeCasts_S1x1x64_S1x64

/-- Layer 2's weight matrix, cut from the transposed stack (64 × 192: input feature first). -/
def cWt2 (a : S4x64x192.Idx → EReal) : S64x192.Idx → EReal :=
  shapeCast S64x192 (extractStridedSlice S1x64x192 ![2, 0, 0] a slices_S4x64x192_S1x64x192_2_0_0) shapeCasts_S1x64x192_S64x192
/-- Layer 2's projection matrix, cut from the stack. -/
def cA2 (a : S4x2x2.Idx → EReal) : S2x2.Idx → EReal :=
  shapeCast S2x2 (extractStridedSlice S1x2x2 ![2, 0, 0] a slices_S4x2x2_S1x2x2_2_0_0) shapeCasts_S1x2x2_S2x2
/-- Layer 2's projection offset as one row, cut from the stack with a unit axis. -/
def cB2 (a : S4x1x2.Idx → EReal) : S1x2.Idx → EReal :=
  shapeCast S1x2 (extractStridedSlice S1x1x2 ![2, 0, 0] a slices_S4x1x2_S1x1x2_2_0_0) shapeCasts_S1x1x2_S1x2
/-- Layer 2's mixture means or scales, cut from the stack. -/
def cM2 (a : S4x3x2.Idx → EReal) : S3x2.Idx → EReal :=
  shapeCast S3x2 (extractStridedSlice S1x3x2 ![2, 0, 0] a slices_S4x3x2_S1x3x2_2_0_0) shapeCasts_S1x3x2_S3x2
/-- Layer 2's normalization scale or shift as one row, cut from the stack with a unit axis. -/
def cG2 (a : S4x1x64.Idx → EReal) : S1x64.Idx → EReal :=
  shapeCast S1x64 (extractStridedSlice S1x1x64 ![2, 0, 0] a slices_S4x1x64_S1x1x64_2_0_0) shapeCasts_S1x1x64_S1x64

/-- Layer 3's weight matrix, cut from the transposed stack (64 × 192: input feature first). -/
def cWt3 (a : S4x64x192.Idx → EReal) : S64x192.Idx → EReal :=
  shapeCast S64x192 (extractStridedSlice S1x64x192 ![3, 0, 0] a slices_S4x64x192_S1x64x192_3_0_0) shapeCasts_S1x64x192_S64x192
/-- Layer 3's projection matrix, cut from the stack. -/
def cA3 (a : S4x2x2.Idx → EReal) : S2x2.Idx → EReal :=
  shapeCast S2x2 (extractStridedSlice S1x2x2 ![3, 0, 0] a slices_S4x2x2_S1x2x2_3_0_0) shapeCasts_S1x2x2_S2x2
/-- Layer 3's projection offset as one row, cut from the stack with a unit axis. -/
def cB3 (a : S4x1x2.Idx → EReal) : S1x2.Idx → EReal :=
  shapeCast S1x2 (extractStridedSlice S1x1x2 ![3, 0, 0] a slices_S4x1x2_S1x1x2_3_0_0) shapeCasts_S1x1x2_S1x2
/-- Layer 3's mixture means or scales, cut from the stack. -/
def cM3 (a : S4x3x2.Idx → EReal) : S3x2.Idx → EReal :=
  shapeCast S3x2 (extractStridedSlice S1x3x2 ![3, 0, 0] a slices_S4x3x2_S1x3x2_3_0_0) shapeCasts_S1x3x2_S3x2
/-- Layer 3's normalization scale or shift as one row, cut from the stack with a unit axis. -/
def cG3 (a : S4x1x64.Idx → EReal) : S1x64.Idx → EReal :=
  shapeCast S1x64 (extractStridedSlice S1x1x64 ![3, 0, 0] a slices_S4x1x64_S1x1x64_3_0_0) shapeCasts_S1x1x64_S1x64

/-! ## The correspondences -/

/-! ### Layer 0 -/

/-- Layer 0's weight matrix: the kernel's entry (k, q), input feature first, is the reference's entry (q, k). -/
theorem cWt0_at (a : S4x192x64.Idx → EReal) (k : Fin 64) (q : Fin 192) :
    cWt0 (cWT a) (ix2 k q) = Cert.ReferenceIdeal.RefSpec.W_0 (F := Ideal) a (ix2 q k) := by
  unfold cWt0 cWT Cert.ReferenceIdeal.RefSpec.W_0
  refine (shapeCast_1ab_ab_apply (a := 64) (b := 192) _ _ k q).trans ?_
  refine (slice3_axis0_apply (n0 := 4) (n1 := 64) (n2 := 192) (m := 1) 0 _ _ (0 : Fin 1) k q ⟨0, by omega⟩ rfl).trans ?_
  refine (transpose_ix3_021_apply (m := 4) (a := 192) (b := 64) a _ ⟨0, by omega⟩ k q).trans ?_
  symm
  refine (shapeCast_1ab_ab_apply (a := 192) (b := 64) _ _ q k).trans ?_
  exact slice3_axis0_apply (n0 := 4) (n1 := 192) (n2 := 64) (m := 1) 0 a _ (0 : Fin 1) q k ⟨0, by omega⟩ rfl

/-- Layer 0's projection matrix: the same operations in both programs. -/
theorem cA0_eq (a : S4x2x2.Idx → EReal) : cA0 a = Cert.ReferenceIdeal.RefSpec.A_0 (F := Ideal) a := rfl

/-- Layer 0's mixture means: the same operations in both programs. -/
theorem cM0_eq_mu (a : S4x3x2.Idx → EReal) : cM0 a = Cert.ReferenceIdeal.RefSpec.mu_0 (F := Ideal) a := rfl

/-- Layer 0's mixture scales: the same operations in both programs. -/
theorem cM0_eq_sg (a : S4x3x2.Idx → EReal) : cM0 a = Cert.ReferenceIdeal.RefSpec.sg_0 (F := Ideal) a := rfl

/-- Layer 0's projection offset: the kernel's row at column d is the reference's vector there. -/
theorem cB0_at_bvec (a : S4x2.Idx → EReal) (j : Fin 2) :
    cB0 (cBR a) (ix2 (0 : Fin 1) j) = Cert.ReferenceIdeal.RefSpec.bvec_0 (F := Ideal) a (ix1 j) := by
  unfold cB0 cBR Cert.ReferenceIdeal.RefSpec.bvec_0
  refine (shapeCast_1ab_ab_apply (a := 1) (b := 2) _ _ (0 : Fin 1) j).trans ?_
  refine (slice3_axis0_apply (n0 := 4) (n1 := 1) (n2 := 2) (m := 1) 0 _ _ (0 : Fin 1) (0 : Fin 1) j ⟨0, by omega⟩ rfl).trans ?_
  refine (shapeCast_ab_a1b_apply (a := 4) (b := 2) a _ ⟨0, by omega⟩ (0 : Fin 1) j).trans ?_
  symm
  refine (shapeCast_1a_a_apply (a := 2) _ _ j).trans ?_
  exact slice2_axis0_apply (n0 := 4) (n1 := 2) (m := 1) 0 a _ (0 : Fin 1) j ⟨0, by omega⟩ rfl

/-- Layer 0's normalization scale: the kernel's row at column j is the reference's vector there. -/
theorem cG0_at_gamma (a : S4x64.Idx → EReal) (j : Fin 64) :
    cG0 (cGR a) (ix2 (0 : Fin 1) j) = Cert.ReferenceIdeal.RefSpec.gamma_0 (F := Ideal) a (ix1 j) := by
  unfold cG0 cGR Cert.ReferenceIdeal.RefSpec.gamma_0
  refine (shapeCast_1ab_ab_apply (a := 1) (b := 64) _ _ (0 : Fin 1) j).trans ?_
  refine (slice3_axis0_apply (n0 := 4) (n1 := 1) (n2 := 64) (m := 1) 0 _ _ (0 : Fin 1) (0 : Fin 1) j ⟨0, by omega⟩ rfl).trans ?_
  refine (shapeCast_ab_a1b_apply (a := 4) (b := 64) a _ ⟨0, by omega⟩ (0 : Fin 1) j).trans ?_
  symm
  refine (shapeCast_1a_a_apply (a := 64) _ _ j).trans ?_
  exact slice2_axis0_apply (n0 := 4) (n1 := 64) (m := 1) 0 a _ (0 : Fin 1) j ⟨0, by omega⟩ rfl

/-- Layer 0's normalization shift: the kernel's row at column j is the reference's vector there. -/
theorem cG0_at_beta (a : S4x64.Idx → EReal) (j : Fin 64) :
    cG0 (cGR a) (ix2 (0 : Fin 1) j) = Cert.ReferenceIdeal.RefSpec.beta_0 (F := Ideal) a (ix1 j) := by
  unfold cG0 cGR Cert.ReferenceIdeal.RefSpec.beta_0
  refine (shapeCast_1ab_ab_apply (a := 1) (b := 64) _ _ (0 : Fin 1) j).trans ?_
  refine (slice3_axis0_apply (n0 := 4) (n1 := 1) (n2 := 64) (m := 1) 0 _ _ (0 : Fin 1) (0 : Fin 1) j ⟨0, by omega⟩ rfl).trans ?_
  refine (shapeCast_ab_a1b_apply (a := 4) (b := 64) a _ ⟨0, by omega⟩ (0 : Fin 1) j).trans ?_
  symm
  refine (shapeCast_1a_a_apply (a := 64) _ _ j).trans ?_
  exact slice2_axis0_apply (n0 := 4) (n1 := 64) (m := 1) 0 a _ (0 : Fin 1) j ⟨0, by omega⟩ rfl

/-! ### Layer 1 -/

/-- Layer 1's weight matrix: the kernel's entry (k, q), input feature first, is the reference's entry (q, k). -/
theorem cWt1_at (a : S4x192x64.Idx → EReal) (k : Fin 64) (q : Fin 192) :
    cWt1 (cWT a) (ix2 k q) = Cert.ReferenceIdeal.RefSpec.W_1 (F := Ideal) a (ix2 q k) := by
  unfold cWt1 cWT Cert.ReferenceIdeal.RefSpec.W_1
  refine (shapeCast_1ab_ab_apply (a := 64) (b := 192) _ _ k q).trans ?_
  refine (slice3_axis0_apply (n0 := 4) (n1 := 64) (n2 := 192) (m := 1) 1 _ _ (0 : Fin 1) k q ⟨1, by omega⟩ rfl).trans ?_
  refine (transpose_ix3_021_apply (m := 4) (a := 192) (b := 64) a _ ⟨1, by omega⟩ k q).trans ?_
  symm
  refine (shapeCast_1ab_ab_apply (a := 192) (b := 64) _ _ q k).trans ?_
  exact slice3_axis0_apply (n0 := 4) (n1 := 192) (n2 := 64) (m := 1) 1 a _ (0 : Fin 1) q k ⟨1, by omega⟩ rfl

/-- Layer 1's projection matrix: the same operations in both programs. -/
theorem cA1_eq (a : S4x2x2.Idx → EReal) : cA1 a = Cert.ReferenceIdeal.RefSpec.A_1 (F := Ideal) a := rfl

/-- Layer 1's mixture means: the same operations in both programs. -/
theorem cM1_eq_mu (a : S4x3x2.Idx → EReal) : cM1 a = Cert.ReferenceIdeal.RefSpec.mu_1 (F := Ideal) a := rfl

/-- Layer 1's mixture scales: the same operations in both programs. -/
theorem cM1_eq_sg (a : S4x3x2.Idx → EReal) : cM1 a = Cert.ReferenceIdeal.RefSpec.sg_1 (F := Ideal) a := rfl

/-- Layer 1's projection offset: the kernel's row at column d is the reference's vector there. -/
theorem cB1_at_bvec (a : S4x2.Idx → EReal) (j : Fin 2) :
    cB1 (cBR a) (ix2 (0 : Fin 1) j) = Cert.ReferenceIdeal.RefSpec.bvec_1 (F := Ideal) a (ix1 j) := by
  unfold cB1 cBR Cert.ReferenceIdeal.RefSpec.bvec_1
  refine (shapeCast_1ab_ab_apply (a := 1) (b := 2) _ _ (0 : Fin 1) j).trans ?_
  refine (slice3_axis0_apply (n0 := 4) (n1 := 1) (n2 := 2) (m := 1) 1 _ _ (0 : Fin 1) (0 : Fin 1) j ⟨1, by omega⟩ rfl).trans ?_
  refine (shapeCast_ab_a1b_apply (a := 4) (b := 2) a _ ⟨1, by omega⟩ (0 : Fin 1) j).trans ?_
  symm
  refine (shapeCast_1a_a_apply (a := 2) _ _ j).trans ?_
  exact slice2_axis0_apply (n0 := 4) (n1 := 2) (m := 1) 1 a _ (0 : Fin 1) j ⟨1, by omega⟩ rfl

/-- Layer 1's normalization scale: the kernel's row at column j is the reference's vector there. -/
theorem cG1_at_gamma (a : S4x64.Idx → EReal) (j : Fin 64) :
    cG1 (cGR a) (ix2 (0 : Fin 1) j) = Cert.ReferenceIdeal.RefSpec.gamma_1 (F := Ideal) a (ix1 j) := by
  unfold cG1 cGR Cert.ReferenceIdeal.RefSpec.gamma_1
  refine (shapeCast_1ab_ab_apply (a := 1) (b := 64) _ _ (0 : Fin 1) j).trans ?_
  refine (slice3_axis0_apply (n0 := 4) (n1 := 1) (n2 := 64) (m := 1) 1 _ _ (0 : Fin 1) (0 : Fin 1) j ⟨1, by omega⟩ rfl).trans ?_
  refine (shapeCast_ab_a1b_apply (a := 4) (b := 64) a _ ⟨1, by omega⟩ (0 : Fin 1) j).trans ?_
  symm
  refine (shapeCast_1a_a_apply (a := 64) _ _ j).trans ?_
  exact slice2_axis0_apply (n0 := 4) (n1 := 64) (m := 1) 1 a _ (0 : Fin 1) j ⟨1, by omega⟩ rfl

/-- Layer 1's normalization shift: the kernel's row at column j is the reference's vector there. -/
theorem cG1_at_beta (a : S4x64.Idx → EReal) (j : Fin 64) :
    cG1 (cGR a) (ix2 (0 : Fin 1) j) = Cert.ReferenceIdeal.RefSpec.beta_1 (F := Ideal) a (ix1 j) := by
  unfold cG1 cGR Cert.ReferenceIdeal.RefSpec.beta_1
  refine (shapeCast_1ab_ab_apply (a := 1) (b := 64) _ _ (0 : Fin 1) j).trans ?_
  refine (slice3_axis0_apply (n0 := 4) (n1 := 1) (n2 := 64) (m := 1) 1 _ _ (0 : Fin 1) (0 : Fin 1) j ⟨1, by omega⟩ rfl).trans ?_
  refine (shapeCast_ab_a1b_apply (a := 4) (b := 64) a _ ⟨1, by omega⟩ (0 : Fin 1) j).trans ?_
  symm
  refine (shapeCast_1a_a_apply (a := 64) _ _ j).trans ?_
  exact slice2_axis0_apply (n0 := 4) (n1 := 64) (m := 1) 1 a _ (0 : Fin 1) j ⟨1, by omega⟩ rfl

/-! ### Layer 2 -/

/-- Layer 2's weight matrix: the kernel's entry (k, q), input feature first, is the reference's entry (q, k). -/
theorem cWt2_at (a : S4x192x64.Idx → EReal) (k : Fin 64) (q : Fin 192) :
    cWt2 (cWT a) (ix2 k q) = Cert.ReferenceIdeal.RefSpec.W_2 (F := Ideal) a (ix2 q k) := by
  unfold cWt2 cWT Cert.ReferenceIdeal.RefSpec.W_2
  refine (shapeCast_1ab_ab_apply (a := 64) (b := 192) _ _ k q).trans ?_
  refine (slice3_axis0_apply (n0 := 4) (n1 := 64) (n2 := 192) (m := 1) 2 _ _ (0 : Fin 1) k q ⟨2, by omega⟩ rfl).trans ?_
  refine (transpose_ix3_021_apply (m := 4) (a := 192) (b := 64) a _ ⟨2, by omega⟩ k q).trans ?_
  symm
  refine (shapeCast_1ab_ab_apply (a := 192) (b := 64) _ _ q k).trans ?_
  exact slice3_axis0_apply (n0 := 4) (n1 := 192) (n2 := 64) (m := 1) 2 a _ (0 : Fin 1) q k ⟨2, by omega⟩ rfl

/-- Layer 2's projection matrix: the same operations in both programs. -/
theorem cA2_eq (a : S4x2x2.Idx → EReal) : cA2 a = Cert.ReferenceIdeal.RefSpec.A_2 (F := Ideal) a := rfl

/-- Layer 2's mixture means: the same operations in both programs. -/
theorem cM2_eq_mu (a : S4x3x2.Idx → EReal) : cM2 a = Cert.ReferenceIdeal.RefSpec.mu_2 (F := Ideal) a := rfl

/-- Layer 2's mixture scales: the same operations in both programs. -/
theorem cM2_eq_sg (a : S4x3x2.Idx → EReal) : cM2 a = Cert.ReferenceIdeal.RefSpec.sg_2 (F := Ideal) a := rfl

/-- Layer 2's projection offset: the kernel's row at column d is the reference's vector there. -/
theorem cB2_at_bvec (a : S4x2.Idx → EReal) (j : Fin 2) :
    cB2 (cBR a) (ix2 (0 : Fin 1) j) = Cert.ReferenceIdeal.RefSpec.bvec_2 (F := Ideal) a (ix1 j) := by
  unfold cB2 cBR Cert.ReferenceIdeal.RefSpec.bvec_2
  refine (shapeCast_1ab_ab_apply (a := 1) (b := 2) _ _ (0 : Fin 1) j).trans ?_
  refine (slice3_axis0_apply (n0 := 4) (n1 := 1) (n2 := 2) (m := 1) 2 _ _ (0 : Fin 1) (0 : Fin 1) j ⟨2, by omega⟩ rfl).trans ?_
  refine (shapeCast_ab_a1b_apply (a := 4) (b := 2) a _ ⟨2, by omega⟩ (0 : Fin 1) j).trans ?_
  symm
  refine (shapeCast_1a_a_apply (a := 2) _ _ j).trans ?_
  exact slice2_axis0_apply (n0 := 4) (n1 := 2) (m := 1) 2 a _ (0 : Fin 1) j ⟨2, by omega⟩ rfl

/-- Layer 2's normalization scale: the kernel's row at column j is the reference's vector there. -/
theorem cG2_at_gamma (a : S4x64.Idx → EReal) (j : Fin 64) :
    cG2 (cGR a) (ix2 (0 : Fin 1) j) = Cert.ReferenceIdeal.RefSpec.gamma_2 (F := Ideal) a (ix1 j) := by
  unfold cG2 cGR Cert.ReferenceIdeal.RefSpec.gamma_2
  refine (shapeCast_1ab_ab_apply (a := 1) (b := 64) _ _ (0 : Fin 1) j).trans ?_
  refine (slice3_axis0_apply (n0 := 4) (n1 := 1) (n2 := 64) (m := 1) 2 _ _ (0 : Fin 1) (0 : Fin 1) j ⟨2, by omega⟩ rfl).trans ?_
  refine (shapeCast_ab_a1b_apply (a := 4) (b := 64) a _ ⟨2, by omega⟩ (0 : Fin 1) j).trans ?_
  symm
  refine (shapeCast_1a_a_apply (a := 64) _ _ j).trans ?_
  exact slice2_axis0_apply (n0 := 4) (n1 := 64) (m := 1) 2 a _ (0 : Fin 1) j ⟨2, by omega⟩ rfl

/-- Layer 2's normalization shift: the kernel's row at column j is the reference's vector there. -/
theorem cG2_at_beta (a : S4x64.Idx → EReal) (j : Fin 64) :
    cG2 (cGR a) (ix2 (0 : Fin 1) j) = Cert.ReferenceIdeal.RefSpec.beta_2 (F := Ideal) a (ix1 j) := by
  unfold cG2 cGR Cert.ReferenceIdeal.RefSpec.beta_2
  refine (shapeCast_1ab_ab_apply (a := 1) (b := 64) _ _ (0 : Fin 1) j).trans ?_
  refine (slice3_axis0_apply (n0 := 4) (n1 := 1) (n2 := 64) (m := 1) 2 _ _ (0 : Fin 1) (0 : Fin 1) j ⟨2, by omega⟩ rfl).trans ?_
  refine (shapeCast_ab_a1b_apply (a := 4) (b := 64) a _ ⟨2, by omega⟩ (0 : Fin 1) j).trans ?_
  symm
  refine (shapeCast_1a_a_apply (a := 64) _ _ j).trans ?_
  exact slice2_axis0_apply (n0 := 4) (n1 := 64) (m := 1) 2 a _ (0 : Fin 1) j ⟨2, by omega⟩ rfl

/-! ### Layer 3 -/

/-- Layer 3's weight matrix: the kernel's entry (k, q), input feature first, is the reference's entry (q, k). -/
theorem cWt3_at (a : S4x192x64.Idx → EReal) (k : Fin 64) (q : Fin 192) :
    cWt3 (cWT a) (ix2 k q) = Cert.ReferenceIdeal.RefSpec.W_3 (F := Ideal) a (ix2 q k) := by
  unfold cWt3 cWT Cert.ReferenceIdeal.RefSpec.W_3
  refine (shapeCast_1ab_ab_apply (a := 64) (b := 192) _ _ k q).trans ?_
  refine (slice3_axis0_apply (n0 := 4) (n1 := 64) (n2 := 192) (m := 1) 3 _ _ (0 : Fin 1) k q ⟨3, by omega⟩ rfl).trans ?_
  refine (transpose_ix3_021_apply (m := 4) (a := 192) (b := 64) a _ ⟨3, by omega⟩ k q).trans ?_
  symm
  refine (shapeCast_1ab_ab_apply (a := 192) (b := 64) _ _ q k).trans ?_
  exact slice3_axis0_apply (n0 := 4) (n1 := 192) (n2 := 64) (m := 1) 3 a _ (0 : Fin 1) q k ⟨3, by omega⟩ rfl

/-- Layer 3's projection matrix: the same operations in both programs. -/
theorem cA3_eq (a : S4x2x2.Idx → EReal) : cA3 a = Cert.ReferenceIdeal.RefSpec.A_3 (F := Ideal) a := rfl

/-- Layer 3's mixture means: the same operations in both programs. -/
theorem cM3_eq_mu (a : S4x3x2.Idx → EReal) : cM3 a = Cert.ReferenceIdeal.RefSpec.mu_3 (F := Ideal) a := rfl

/-- Layer 3's mixture scales: the same operations in both programs. -/
theorem cM3_eq_sg (a : S4x3x2.Idx → EReal) : cM3 a = Cert.ReferenceIdeal.RefSpec.sg_3 (F := Ideal) a := rfl

/-- Layer 3's projection offset: the kernel's row at column d is the reference's vector there. -/
theorem cB3_at_bvec (a : S4x2.Idx → EReal) (j : Fin 2) :
    cB3 (cBR a) (ix2 (0 : Fin 1) j) = Cert.ReferenceIdeal.RefSpec.bvec_3 (F := Ideal) a (ix1 j) := by
  unfold cB3 cBR Cert.ReferenceIdeal.RefSpec.bvec_3
  refine (shapeCast_1ab_ab_apply (a := 1) (b := 2) _ _ (0 : Fin 1) j).trans ?_
  refine (slice3_axis0_apply (n0 := 4) (n1 := 1) (n2 := 2) (m := 1) 3 _ _ (0 : Fin 1) (0 : Fin 1) j ⟨3, by omega⟩ rfl).trans ?_
  refine (shapeCast_ab_a1b_apply (a := 4) (b := 2) a _ ⟨3, by omega⟩ (0 : Fin 1) j).trans ?_
  symm
  refine (shapeCast_1a_a_apply (a := 2) _ _ j).trans ?_
  exact slice2_axis0_apply (n0 := 4) (n1 := 2) (m := 1) 3 a _ (0 : Fin 1) j ⟨3, by omega⟩ rfl

/-- Layer 3's normalization scale: the kernel's row at column j is the reference's vector there. -/
theorem cG3_at_gamma (a : S4x64.Idx → EReal) (j : Fin 64) :
    cG3 (cGR a) (ix2 (0 : Fin 1) j) = Cert.ReferenceIdeal.RefSpec.gamma_3 (F := Ideal) a (ix1 j) := by
  unfold cG3 cGR Cert.ReferenceIdeal.RefSpec.gamma_3
  refine (shapeCast_1ab_ab_apply (a := 1) (b := 64) _ _ (0 : Fin 1) j).trans ?_
  refine (slice3_axis0_apply (n0 := 4) (n1 := 1) (n2 := 64) (m := 1) 3 _ _ (0 : Fin 1) (0 : Fin 1) j ⟨3, by omega⟩ rfl).trans ?_
  refine (shapeCast_ab_a1b_apply (a := 4) (b := 64) a _ ⟨3, by omega⟩ (0 : Fin 1) j).trans ?_
  symm
  refine (shapeCast_1a_a_apply (a := 64) _ _ j).trans ?_
  exact slice2_axis0_apply (n0 := 4) (n1 := 64) (m := 1) 3 a _ (0 : Fin 1) j ⟨3, by omega⟩ rfl

/-- Layer 3's normalization shift: the kernel's row at column j is the reference's vector there. -/
theorem cG3_at_beta (a : S4x64.Idx → EReal) (j : Fin 64) :
    cG3 (cGR a) (ix2 (0 : Fin 1) j) = Cert.ReferenceIdeal.RefSpec.beta_3 (F := Ideal) a (ix1 j) := by
  unfold cG3 cGR Cert.ReferenceIdeal.RefSpec.beta_3
  refine (shapeCast_1ab_ab_apply (a := 1) (b := 64) _ _ (0 : Fin 1) j).trans ?_
  refine (slice3_axis0_apply (n0 := 4) (n1 := 1) (n2 := 64) (m := 1) 3 _ _ (0 : Fin 1) (0 : Fin 1) j ⟨3, by omega⟩ rfl).trans ?_
  refine (shapeCast_ab_a1b_apply (a := 4) (b := 64) a _ ⟨3, by omega⟩ (0 : Fin 1) j).trans ?_
  symm
  refine (shapeCast_1a_a_apply (a := 64) _ _ j).trans ?_
  exact slice2_axis0_apply (n0 := 4) (n1 := 64) (m := 1) 3 a _ (0 : Fin 1) j ⟨3, by omega⟩ rfl

end Cert.KernelIdeal.ParamBridge

end
-- ==== Proof.RealStages.lean ====
/-
  Real entries through one layer of the reference. An extended real is real when it is neither infinity. Every stage of
  a layer sends arrays with real entries to an array with real entries: a slice, a reshape, a transposition, a gather and
  a broadcast only re-index; sums, differences, products, finite sums and contractions of reals are real; the hyperbolic
  tangent of ANY extended real is real (its values at the infinities are -1 and 1); the exponential of a real is real; a
  maximum of two reals is one of them. In the normalization the count word is 50000, so the mean is a real sum over a
  nonzero real; the variance is a sum of squares of reals over a positive real, a real that is at least 0, and with the
  positive constant added the reciprocal square root is taken of a positive real; the choice in front of the variance is
  decided, because 50000 - 0 is above 0.
-/
import proofs.«111449_j80633716015168_2_alg».proof.Proof.RefStages
import proofs.«111449_j80633716015168_2_alg».proof.Proof.LibRealEntries
import proofs.«111449_j80633716015168_2_alg».proof.Proof.LibBatchMoments

noncomputable section

namespace Cert.ReferenceIdeal.RealStages

open Cert.ReferenceIdeal Cert.ReferenceIdeal.Gen Cert.ReferenceIdeal.RefSpec Idealize.ShloMosaic Cert.Lib.RealEntries
open scoped BigOperators

/-! ## Scalars -/

/-- The larger of two real values is real. -/
theorem isR_max {x y : EReal} (hx : IsR x) (hy : IsR y) : IsR (max x y) := by
  rcases max_choice x y with h | h <;> rw [h] <;> assumption

/-- The hyperbolic tangent of any extended real is real: -1 and 1 at the infinities. -/
theorem isR_tanh (x : EReal) : IsR (Ideal.tanh x) := by
  induction x using EReal.rec
  · exact isR_one.neg
  · exact ⟨_, rfl⟩
  · exact isR_one

/-- The exponential of a real value is real. -/
theorem isR_exp {x : EReal} (hx : IsR x) : IsR (Ideal.exp x) := by
  obtain ⟨r, rfl⟩ := hx; exact ⟨Real.exp r, rfl⟩

/-- An extended real that is a real number at least 0. -/
def IsNN (x : EReal) : Prop := ∃ r : ℝ, 0 ≤ r ∧ x = (r : EReal)

/-- An extended real that is a real number above 0. -/
def IsPos (x : EReal) : Prop := ∃ r : ℝ, 0 < r ∧ x = (r : EReal)

theorem IsNN.isR {x : EReal} (h : IsNN x) : IsR x := by obtain ⟨r, -, e⟩ := h; exact ⟨r, e⟩

theorem IsPos.isR {x : EReal} (h : IsPos x) : IsR x := by obtain ⟨r, -, e⟩ := h; exact ⟨r, e⟩

/-- The square of a real value is a real at least 0. -/
theorem isNN_mul_self {x : EReal} (hx : IsR x) : IsNN (x * x) := by
  obtain ⟨r, rfl⟩ := hx; exact ⟨r * r, mul_self_nonneg r, (EReal.coe_mul r r).symm⟩

/-- A finite sum of reals at least 0 is a real at least 0. -/
theorem isNN_sum {ι : Type*} (s : Finset ι) (f : ι → EReal) (h : ∀ i ∈ s, IsNN (f i)) : IsNN (∑ i ∈ s, f i) := by
  classical
  induction s using Finset.induction_on with
  | empty => rw [Finset.sum_empty]; exact ⟨0, le_rfl, EReal.coe_zero.symm⟩
  | insert a s ha ih =>
    rw [Finset.sum_insert ha]
    obtain ⟨r, hr, e⟩ := h a (Finset.mem_insert_self a s)
    obtain ⟨t, ht, e'⟩ := ih (fun i hi => h i (Finset.mem_insert_of_mem hi))
    exact ⟨r + t, add_nonneg hr ht, by rw [e, e', EReal.coe_add]⟩

/-- A real at least 0 over a real above 0 is a real at least 0. -/
theorem isNN_div {x y : EReal} (hx : IsNN x) (hy : IsPos y) : IsNN (Ideal.div x y) := by
  obtain ⟨r, hr, rfl⟩ := hx
  obtain ⟨t, ht, rfl⟩ := hy
  refine ⟨r * (1 / t), mul_nonneg hr (by positivity), ?_⟩
  rw [Ideal.div_coe ht.ne', ← EReal.coe_mul]

/-- A real at least 0 plus a real above 0 is a real above 0. -/
theorem IsNN.add_pos {x y : EReal} (hx : IsNN x) (hy : IsPos y) : IsPos (x + y) := by
  obtain ⟨r, hr, rfl⟩ := hx
  obtain ⟨t, ht, rfl⟩ := hy
  exact ⟨r + t, add_pos_of_nonneg_of_pos hr ht, (EReal.coe_add r t).symm⟩

/-! ## Words -/

/-- A pattern whose exponent field is not all ones denotes a real number. -/
theorem isR_ieee (e m : Nat) {w : Nat} (b : BitVec w) (h : (b.extractLsb' m e).toNat ≠ 2 ^ e - 1) :
    IsR (Ideal.ieee e m b) := by
  unfold Ideal.ieee
  simp only [h, ↓reduceIte]
  split <;> exact ⟨_, rfl⟩

/-- The single-precision word 0xBF000000 (minus one half) denotes a real number. -/
theorem isR_ofBits_BF000000 : IsR (Ideal.ofBits .f32 0xBF000000#32) := by
  show IsR (Ideal.ieee 8 23 (0xBF000000#32 : BitVec 32))
  exact isR_ieee 8 23 _ (by decide)

/-- The single-precision word 0x47435000 denotes 50000 = (2²³ + 4411392) · 2⁻⁸. -/
theorem ofBits_47435000 : Ideal.ofBits .f32 0x47435000#32 = ((50000 : ℝ) : EReal) := by
  simp [Ideal.ofBits, Ideal.ieee]
  rw [← EReal.coe_mul]
  norm_num

/-- The count as the normalization writes it, 50000 less the zero word read as an integer, is a real above 0. -/
theorem isPos_count : IsPos (Ideal.ofBits .f32 0x47435000#32 - (((0#32 : BitVec 32).toInt : ℝ) : EReal)) := by
  refine ⟨50000, by norm_num, ?_⟩
  have h0 : (((0#32 : BitVec 32).toInt : ℝ)) = 0 := by simp
  rw [ofBits_47435000, h0, ← EReal.coe_sub]
  norm_num

/-- The comparison "the count is above zero" comes out true. -/
theorem count_gt_zero : Ideal.cmp .ogt (Ideal.ofBits .f32 0x47435000#32 - (((0#32 : BitVec 32).toInt : ℝ) : EReal))
    (Ideal.ofBits .f32 0x00000000#32) = 1#1 := by
  obtain ⟨r, hr, e⟩ := isPos_count
  rw [e, Ideal.ofBits_zero_f32]
  show BitVec.ofBool (decide ((0 : EReal) < (r : EReal))) = 1#1
  rw [decide_eq_true (EReal.coe_pos.2 hr)]
  rfl

/-! ## Vectors -/

theorem allR_maximumf {S : Shape} {φ : FTy} (x y : FVec Ideal S φ) (hx : AllR x) (hy : AllR y) :
    AllR (maximumf (F := Ideal) x y) :=
  fun i => isR_max (hx i) (hy i)

/-- The host's hyperbolic tangent has real entries whatever its operand. -/
theorem allR_hostTanh {S : Shape} {φ : FTy} (x : FVec Ideal S φ) : AllR (Host.tanh (F := Ideal) x) :=
  fun i => isR_tanh (x i)

theorem allR_hostExp {S : Shape} {φ : FTy} (x : FVec Ideal S φ) (hx : AllR x) : AllR (Host.exp (F := Ideal) x) :=
  fun i => isR_exp (hx i)

/-- A sum over axes of squares of real entries, from a zero initial value, over a real above 0: a real at least 0. -/
theorem isNN_meanSq {s t u : Shape} {axes : List (Fin s.rank)} (d : FVec Ideal s .f32) (init : u.Idx → Ideal .f32)
    (hred : s.ReducesTo axes t) (hu : 0 < u.numel) (den : FVec Ideal t .f32) (hd : AllR d)
    (hinit : init (Shape.Idx.first hu) = 0) (j : t.Idx) (hden : IsPos (den j)) :
    IsNN (Host.divf (F := Ideal) (Host.reduceAdd (F := Ideal) (mulf (F := Ideal) d d) init hred hu) den j) := by
  show IsNN (Ideal.div (init (Shape.Idx.first hu) + ∑ i ∈ Finset.univ.filter (fun i => hred.drop i = j), d i * d i) (den j))
  rw [hinit, zero_add]
  exact isNN_div (isNN_sum _ _ (fun i _ => isNN_mul_self (hd i))) hden

/-- A selection whose condition is true at an index, of a real at least 0, plus a real above 0: a real above 0 there. -/
theorem isPos_where_add {S : Shape} (c : IVec S 1) (q n e : FVec Ideal S .f32) (i : S.Idx) (hc : c i = 1#1)
    (hq : IsNN (q i)) (he : IsPos (e i)) :
    ∃ r : ℝ, 0 < r ∧ addf (F := Ideal) (select c q n) e i = (r : EReal) := by
  have hs : select c q n i = q i := by
    show (if c i = 1 then q i else n i) = q i
    exact if_pos hc
  obtain ⟨r, hr, e'⟩ := hq.add_pos he
  refine ⟨r, hr, ?_⟩
  show select c q n i + e i = (r : EReal)
  rw [hs, e']

/-! ## The parameters of each layer, cut out of the stacked ones -/

/-- Layer 0's projection matrix has real entries when the stacked parameter has. -/
theorem allR_A_0 (a : S4x2x2.Idx → EReal) (ha : AllR a) : AllR (S := S2x2) (A_0 (F := Ideal) a) :=
  allR_shapeCast _ _ _ (allR_extractStridedSlice _ _ _ _ ha)

/-- Layer 0's projection offset has real entries when the stacked parameter has. -/
theorem allR_bvec_0 (a : S4x2.Idx → EReal) (ha : AllR a) : AllR (S := S2) (bvec_0 (F := Ideal) a) :=
  allR_shapeCast _ _ _ (allR_extractStridedSlice _ _ _ _ ha)

/-- Layer 0's mixture means has real entries when the stacked parameter has. -/
theorem allR_mu_0 (a : S4x3x2.Idx → EReal) (ha : AllR a) : AllR (S := S3x2) (mu_0 (F := Ideal) a) :=
  allR_shapeCast _ _ _ (allR_extractStridedSlice _ _ _ _ ha)

/-- Layer 0's mixture scales has real entries when the stacked parameter has. -/
theorem allR_sg_0 (a : S4x3x2.Idx → EReal) (ha : AllR a) : AllR (S := S3x2) (sg_0 (F := Ideal) a) :=
  allR_shapeCast _ _ _ (allR_extractStridedSlice _ _ _ _ ha)

/-- Layer 0's weight matrix has real entries when the stacked parameter has. -/
theorem allR_W_0 (a : S4x192x64.Idx → EReal) (ha : AllR a) : AllR (S := S192x64) (W_0 (F := Ideal) a) :=
  allR_shapeCast _ _ _ (allR_extractStridedSlice _ _ _ _ ha)

/-- Layer 0's normalization scale has real entries when the stacked parameter has. -/
theorem allR_gamma_0 (a : S4x64.Idx → EReal) (ha : AllR a) : AllR (S := S64) (gamma_0 (F := Ideal) a) :=
  allR_shapeCast _ _ _ (allR_extractStridedSlice _ _ _ _ ha)

/-- Layer 0's normalization shift has real entries when the stacked parameter has. -/
theorem allR_beta_0 (a : S4x64.Idx → EReal) (ha : AllR a) : AllR (S := S64) (beta_0 (F := Ideal) a) :=
  allR_shapeCast _ _ _ (allR_extractStridedSlice _ _ _ _ ha)

/-- Layer 1's projection matrix has real entries when the stacked parameter has. -/
theorem allR_A_1 (a : S4x2x2.Idx → EReal) (ha : AllR a) : AllR (S := S2x2) (A_1 (F := Ideal) a) :=
  allR_shapeCast _ _ _ (allR_extractStridedSlice _ _ _ _ ha)

/-- Layer 1's projection offset has real entries when the stacked parameter has. -/
theorem allR_bvec_1 (a : S4x2.Idx → EReal) (ha : AllR a) : AllR (S := S2) (bvec_1 (F := Ideal) a) :=
  allR_shapeCast _ _ _ (allR_extractStridedSlice _ _ _ _ ha)

/-- Layer 1's mixture means has real entries when the stacked parameter has. -/
theorem allR_mu_1 (a : S4x3x2.Idx → EReal) (ha : AllR a) : AllR (S := S3x2) (mu_1 (F := Ideal) a) :=
  allR_shapeCast _ _ _ (allR_extractStridedSlice _ _ _ _ ha)

/-- Layer 1's mixture scales has real entries when the stacked parameter has. -/
theorem allR_sg_1 (a : S4x3x2.Idx → EReal) (ha : AllR a) : AllR (S := S3x2) (sg_1 (F := Ideal) a) :=
  allR_shapeCast _ _ _ (allR_extractStridedSlice _ _ _ _ ha)

/-- Layer 1's weight matrix has real entries when the stacked parameter has. -/
theorem allR_W_1 (a : S4x192x64.Idx → EReal) (ha : AllR a) : AllR (S := S192x64) (W_1 (F := Ideal) a) :=
  allR_shapeCast _ _ _ (allR_extractStridedSlice _ _ _ _ ha)

/-- Layer 1's normalization scale has real entries when the stacked parameter has. -/
theorem allR_gamma_1 (a : S4x64.Idx → EReal) (ha : AllR a) : AllR (S := S64) (gamma_1 (F := Ideal) a) :=
  allR_shapeCast _ _ _ (allR_extractStridedSlice _ _ _ _ ha)

/-- Layer 1's normalization shift has real entries when the stacked parameter has. -/
theorem allR_beta_1 (a : S4x64.Idx → EReal) (ha : AllR a) : AllR (S := S64) (beta_1 (F := Ideal) a) :=
  allR_shapeCast _ _ _ (allR_extractStridedSlice _ _ _ _ ha)

/-- Layer 2's projection matrix has real entries when the stacked parameter has. -/
theorem allR_A_2 (a : S4x2x2.Idx → EReal) (ha : AllR a) : AllR (S := S2x2) (A_2 (F := Ideal) a) :=
  allR_shapeCast _ _ _ (allR_extractStridedSlice _ _ _ _ ha)

/-- Layer 2's projection offset has real entries when the stacked parameter has. -/
theorem allR_bvec_2 (a : S4x2.Idx → EReal) (ha : AllR a) : AllR (S := S2) (bvec_2 (F := Ideal) a) :=
  allR_shapeCast _ _ _ (allR_extractStridedSlice _ _ _ _ ha)

/-- Layer 2's mixture means has real entries when the stacked parameter has. -/
theorem allR_mu_2 (a : S4x3x2.Idx → EReal) (ha : AllR a) : AllR (S := S3x2) (mu_2 (F := Ideal) a) :=
  allR_shapeCast _ _ _ (allR_extractStridedSlice _ _ _ _ ha)

/-- Layer 2's mixture scales has real entries when the stacked parameter has. -/
theorem allR_sg_2 (a : S4x3x2.Idx → EReal) (ha : AllR a) : AllR (S := S3x2) (sg_2 (F := Ideal) a) :=
  allR_shapeCast _ _ _ (allR_extractStridedSlice _ _ _ _ ha)

/-- Layer 2's weight matrix has real entries when the stacked parameter has. -/
theorem allR_W_2 (a : S4x192x64.Idx → EReal) (ha : AllR a) : AllR (S := S192x64) (W_2 (F := Ideal) a) :=
  allR_shapeCast _ _ _ (allR_extractStridedSlice _ _ _ _ ha)

/-- Layer 2's normalization scale has real entries when the stacked parameter has. -/
theorem allR_gamma_2 (a : S4x64.Idx → EReal) (ha : AllR a) : AllR (S := S64) (gamma_2 (F := Ideal) a) :=
  allR_shapeCast _ _ _ (allR_extractStridedSlice _ _ _ _ ha)

/-- Layer 2's normalization shift has real entries when the stacked parameter has. -/
theorem allR_beta_2 (a : S4x64.Idx → EReal) (ha : AllR a) : AllR (S := S64) (beta_2 (F := Ideal) a) :=
  allR_shapeCast _ _ _ (allR_extractStridedSlice _ _ _ _ ha)

/-- Layer 3's projection matrix has real entries when the stacked parameter has. -/
theorem allR_A_3 (a : S4x2x2.Idx → EReal) (ha : AllR a) : AllR (S := S2x2) (A_3 (F := Ideal) a) :=
  allR_shapeCast _ _ _ (allR_extractStridedSlice _ _ _ _ ha)

/-- Layer 3's projection offset has real entries when the stacked parameter has. -/
theorem allR_bvec_3 (a : S4x2.Idx → EReal) (ha : AllR a) : AllR (S := S2) (bvec_3 (F := Ideal) a) :=
  allR_shapeCast _ _ _ (allR_extractStridedSlice _ _ _ _ ha)

/-- Layer 3's mixture means has real entries when the stacked parameter has. -/
theorem allR_mu_3 (a : S4x3x2.Idx → EReal) (ha : AllR a) : AllR (S := S3x2) (mu_3 (F := Ideal) a) :=
  allR_shapeCast _ _ _ (allR_extractStridedSlice _ _ _ _ ha)

/-- Layer 3's mixture scales has real entries when the stacked parameter has. -/
theorem allR_sg_3 (a : S4x3x2.Idx → EReal) (ha : AllR a) : AllR (S := S3x2) (sg_3 (F := Ideal) a) :=
  allR_shapeCast _ _ _ (allR_extractStridedSlice _ _ _ _ ha)

/-- Layer 3's weight matrix has real entries when the stacked parameter has. -/
theorem allR_W_3 (a : S4x192x64.Idx → EReal) (ha : AllR a) : AllR (S := S192x64) (W_3 (F := Ideal) a) :=
  allR_shapeCast _ _ _ (allR_extractStridedSlice _ _ _ _ ha)

/-- Layer 3's normalization scale has real entries when the stacked parameter has. -/
theorem allR_gamma_3 (a : S4x64.Idx → EReal) (ha : AllR a) : AllR (S := S64) (gamma_3 (F := Ideal) a) :=
  allR_shapeCast _ _ _ (allR_extractStridedSlice _ _ _ _ ha)

/-- Layer 3's normalization shift has real entries when the stacked parameter has. -/
theorem allR_beta_3 (a : S4x64.Idx → EReal) (ha : AllR a) : AllR (S := S64) (beta_3 (F := Ideal) a) :=
  allR_shapeCast _ _ _ (allR_extractStridedSlice _ _ _ _ ha)

/-! ## The stages -/

/-- The nodes' first features are entries of the embedding table, whatever the indices. -/
theorem allR_h0S (emb : S28x64.Idx → EReal) (hidx : IVec S50000 32) (hemb : AllR emb) :
    AllR (S := S50000x64) (h0S (F := Ideal) emb hidx) := by
  unfold h0S
  exact allR_gather _ _ _ hemb

/-- The projected pseudo-coordinates are hyperbolic tangents: real whatever the coordinates and the parameters. -/
theorem allR_uS (pseudo : S800000x2.Idx → EReal) (A : S2x2.Idx → EReal) (bvec : S2.Idx → EReal) :
    AllR (S := S800000x2) (uS (F := Ideal) pseudo A bvec) := by
  unfold uS
  exact allR_hostTanh _

/-- The Gaussian weights: products, a sum over the two coordinates and an exponential of real values. -/
theorem allR_gaussS (u : S800000x2.Idx → EReal) (mu sg : S3x2.Idx → EReal) (hu : AllR u) (hmu : AllR mu) (hsg : AllR sg) :
    AllR (S := S800000x3) (gaussS (F := Ideal) u mu sg) := by
  unfold gaussS
  exact allR_hostExp _ (allR_mulf _ _ (allR_broadcastInDim _ _ _ _ (allR_constant _ _ _ isR_ofBits_BF000000))
    (allR_reduceAdd' _ _ _ _ (allR_mulf _ _
      (allR_mulf _ _ (allR_subf _ _ (allR_broadcastInDim _ _ _ _ (allR_broadcastInDim _ _ _ _ hu)) (allR_broadcastInDim _ _ _ _ (allR_broadcastInDim _ _ _ _ hmu))) (allR_broadcastInDim _ _ _ _ (allR_broadcastInDim _ _ _ _ hsg)))
      (allR_mulf _ _ (allR_subf _ _ (allR_broadcastInDim _ _ _ _ (allR_broadcastInDim _ _ _ _ hu)) (allR_broadcastInDim _ _ _ _ (allR_broadcastInDim _ _ _ _ hmu))) (allR_broadcastInDim _ _ _ _ (allR_broadcastInDim _ _ _ _ hsg)))) (allR_constant _ _ _ isR_ofBits_00000000)))

/-- The transformed node features: a contraction of real values, re-indexed. -/
theorem allR_hkS (h : S50000x64.Idx → EReal) (W : S192x64.Idx → EReal) (hh : AllR h) (hW : AllR W) :
    AllR (S := S50000x3x64) (hkS (F := Ideal) h W) := by
  unfold hkS
  exact allR_shapeCast _ _ _ (allR_dotGeneral _ _ _ _ hh (allR_transpose _ _ _ _ hW))

/-- The transformed features at the edges' sources are entries of the transformed features. -/
theorem allR_hkSrcS (hk : S50000x3x64.Idx → EReal) (src : IVec S800000 32) (hhk : AllR hk) :
    AllR (S := S800000x3x64) (hkSrcS (F := Ideal) hk src) := by
  unfold hkSrcS
  exact allR_gather _ _ _ hhk

/-- The messages: products of real values. -/
theorem allR_msgS (hkSrc : S800000x3x64.Idx → EReal) (gauss : S800000x3.Idx → EReal) (h1 : AllR hkSrc) (h2 : AllR gauss) :
    AllR (S := S800000x3x64) (msgS (F := Ideal) hkSrc gauss) := by
  unfold msgS
  exact allR_mulf _ _ h1 (allR_broadcastInDim _ _ _ _ (allR_broadcastInDim _ _ _ _ h2))

/-- The aggregate: finite sums of messages from zero. -/
theorem allR_aggS (msg : S800000x3x64.Idx → EReal) (dst : IVec S800000 32) (hmsg : AllR msg) :
    AllR (S := S50000x64) (aggS (F := Ideal) msg dst) := by
  unfold aggS
  exact allR_reduceAdd' _ _ _ _ (allR_scatterAdd _ _ _ _ (allR_broadcastInDim _ _ _ _ (allR_constant _ _ _ isR_ofBits_00000000)) hmsg) (allR_constant _ _ _ isR_ofBits_00000000)

/-- The normalization, scale, shift, rectifier and the layer's input added: real from real. -/
theorem allR_bnS (agg h : S50000x64.Idx → EReal) (gamma beta : S64.Idx → EReal) (hagg : AllR agg) (hh : AllR h)
    (hgamma : AllR gamma) (hbeta : AllR beta) : AllR (S := S50000x64) (bnS (F := Ideal) agg h gamma beta) := by
  unfold bnS
  refine allR_addf _ _ hh (allR_maximumf _ _ (allR_addf _ _ (allR_mulf _ _ (allR_mulf _ _
    (allR_subf _ _ hagg (allR_broadcastInDim _ _ _ _ (allR_broadcastInDim _ _ _ _ ?mean))) (allR_broadcastInDim _ _ _ _ (allR_broadcastInDim _ _ _ _ ?rs))) (allR_broadcastInDim _ _ _ _ (allR_broadcastInDim _ _ _ _ hgamma))) (allR_broadcastInDim _ _ _ _ (allR_broadcastInDim _ _ _ _ hbeta))) (allR_broadcastInDim _ _ _ _ (allR_constant _ _ _ isR_ofBits_00000000)))
  case mean =>
    exact allR_hostDivf _ _ (allR_reduceAdd' _ _ _ _ hagg (allR_constant _ _ _ isR_ofBits_00000000)) (fun _ => ⟨50000, by norm_num, ofBits_47435000⟩)
  case rs =>
    refine allR_hostRsqrt _ (fun i => isPos_where_add _ _ _ _ i count_gt_zero
      (isNN_meanSq _ _ _ _ _ ?hd ?hinit i isPos_count) ofBits_3727C5AC)
    case hd =>
      exact allR_subf _ _ hagg (allR_broadcastInDim _ _ _ _ (allR_hostDivf _ _
        (allR_broadcastInDim _ _ _ _ (allR_reduceAdd' _ _ _ _ hagg (allR_constant _ _ _ isR_ofBits_00000000)))
        (fun _ => ⟨50000, by norm_num, ofBits_47435000⟩)))
    case hinit => exact Ideal.ofBits_zero_f32

/-! ## One layer -/

/-- The aggregate inside a layer is real: from the layer's input and its mixture and weight parameters alone (the
    projected coordinates are hyperbolic tangents, so nothing is asked of the coordinates or of the projection). -/
theorem allR_layerAgg (h : S50000x64.Idx → EReal) (pseudo : S800000x2.Idx → EReal) (src dst : IVec S800000 32)
    (A : S2x2.Idx → EReal) (bvec : S2.Idx → EReal) (mu sg : S3x2.Idx → EReal) (W : S192x64.Idx → EReal)
    (hh : AllR h) (hmu : AllR mu) (hsg : AllR sg) (hW : AllR W) :
    AllR (S := S50000x64) (aggS (F := Ideal) (msgS (hkSrcS (hkS h W) src) (gaussS (uS pseudo A bvec) mu sg)) dst) :=
  allR_aggS _ _ (allR_msgS _ _ (allR_hkSrcS _ _ (allR_hkS _ _ hh hW)) (allR_gaussS _ _ _ (allR_uS _ _ _) hmu hsg))

/-- One layer sends a real input to a real output, given real mixture, weight and normalization parameters. -/
theorem allR_layerS (h : S50000x64.Idx → EReal) (pseudo : S800000x2.Idx → EReal) (src dst : IVec S800000 32)
    (A : S2x2.Idx → EReal) (bvec : S2.Idx → EReal) (mu sg : S3x2.Idx → EReal) (W : S192x64.Idx → EReal)
    (gamma beta : S64.Idx → EReal) (hh : AllR h) (hmu : AllR mu) (hsg : AllR sg) (hW : AllR W) (hgamma : AllR gamma)
    (hbeta : AllR beta) : AllR (S := S50000x64) (layerS (F := Ideal) h pseudo src dst A bvec mu sg W gamma beta) := by
  unfold layerS
  exact allR_bnS _ _ _ _ (allR_layerAgg h pseudo src dst A bvec mu sg W hh hmu hsg hW) hh hgamma hbeta

end Cert.ReferenceIdeal.RealStages

end
-- ==== Proof.Net.lean ====
/-
  The network as one function of its eighteen argument arrays, built from the reference's stages: the first node
  features, four layers each fed the previous layer's output and its own parameters cut out of the stacked ones, and the
  readout. Its intermediate node features are real whenever the float arguments are: a gather reads table entries, a
  layer maps real features and real parameters to real features.
-/
import proofs.«111449_j80633716015168_2_alg».proof.Proof.RefStages
import proofs.«111449_j80633716015168_2_alg».proof.Proof.RealStages

noncomputable section

namespace Cert.ReferenceIdeal.Net

open Cert.ReferenceIdeal Cert.ReferenceIdeal.Gen Cert.ReferenceIdeal.RefSpec Cert.ReferenceIdeal.RealStages Idealize.ShloMosaic Cert.Lib.RealEntries

/-- The nodes' features entering layer 0. -/
def netH0 (a0 : (⟨S50000, .i32⟩ : BufTy).Contents (Elt Ideal)) (a1 a2 : (⟨S800000, .i32⟩ : BufTy).Contents (Elt Ideal)) (a3 : (⟨S50000, .i32⟩ : BufTy).Contents (Elt Ideal)) (a4 : (⟨S28x64, .f32⟩ : BufTy).Contents (Elt Ideal)) (a5 : (⟨S4x192x64, .f32⟩ : BufTy).Contents (Elt Ideal)) (a6 a7 : (⟨S4x3x2, .f32⟩ : BufTy).Contents (Elt Ideal)) (a8 a9 : (⟨S4x64, .f32⟩ : BufTy).Contents (Elt Ideal)) (a10 : (⟨S4x2x2, .f32⟩ : BufTy).Contents (Elt Ideal)) (a11 : (⟨S4x2, .f32⟩ : BufTy).Contents (Elt Ideal)) : (⟨S50000x64, .f32⟩ : BufTy).Contents (Elt Ideal) := h0S (F := Ideal) a4 a0
/-- Layer 0's aggregate, and the nodes' features leaving layer 0. -/
def netAgg0 (a0 : (⟨S50000, .i32⟩ : BufTy).Contents (Elt Ideal)) (a1 a2 : (⟨S800000, .i32⟩ : BufTy).Contents (Elt Ideal)) (a3 : (⟨S50000, .i32⟩ : BufTy).Contents (Elt Ideal)) (a4 : (⟨S28x64, .f32⟩ : BufTy).Contents (Elt Ideal)) (a5 : (⟨S4x192x64, .f32⟩ : BufTy).Contents (Elt Ideal)) (a6 a7 : (⟨S4x3x2, .f32⟩ : BufTy).Contents (Elt Ideal)) (a8 a9 : (⟨S4x64, .f32⟩ : BufTy).Contents (Elt Ideal)) (a10 : (⟨S4x2x2, .f32⟩ : BufTy).Contents (Elt Ideal)) (a11 : (⟨S4x2, .f32⟩ : BufTy).Contents (Elt Ideal)) : (⟨S50000x64, .f32⟩ : BufTy).Contents (Elt Ideal) :=
  aggS (F := Ideal) (msgS (hkSrcS (hkS (netH0 a0 a1 a2 a3 a4 a5 a6 a7 a8 a9 a10 a11) (W_0 a5)) a1) (gaussS (uS (pseudoS a1 a2) (A_0 a10) (bvec_0 a11)) (mu_0 a6) (sg_0 a7))) a2
def netH1 (a0 : (⟨S50000, .i32⟩ : BufTy).Contents (Elt Ideal)) (a1 a2 : (⟨S800000, .i32⟩ : BufTy).Contents (Elt Ideal)) (a3 : (⟨S50000, .i32⟩ : BufTy).Contents (Elt Ideal)) (a4 : (⟨S28x64, .f32⟩ : BufTy).Contents (Elt Ideal)) (a5 : (⟨S4x192x64, .f32⟩ : BufTy).Contents (Elt Ideal)) (a6 a7 : (⟨S4x3x2, .f32⟩ : BufTy).Contents (Elt Ideal)) (a8 a9 : (⟨S4x64, .f32⟩ : BufTy).Contents (Elt Ideal)) (a10 : (⟨S4x2x2, .f32⟩ : BufTy).Contents (Elt Ideal)) (a11 : (⟨S4x2, .f32⟩ : BufTy).Contents (Elt Ideal)) : (⟨S50000x64, .f32⟩ : BufTy).Contents (Elt Ideal) :=
  layerS (F := Ideal) (netH0 a0 a1 a2 a3 a4 a5 a6 a7 a8 a9 a10 a11) (pseudoS a1 a2) a1 a2 (A_0 a10) (bvec_0 a11) (mu_0 a6) (sg_0 a7) (W_0 a5) (gamma_0 a8) (beta_0 a9)
/-- Layer 1's aggregate, and the nodes' features leaving layer 1. -/
def netAgg1 (a0 : (⟨S50000, .i32⟩ : BufTy).Contents (Elt Ideal)) (a1 a2 : (⟨S800000, .i32⟩ : BufTy).Contents (Elt Ideal)) (a3 : (⟨S50000, .i32⟩ : BufTy).Contents (Elt Ideal)) (a4 : (⟨S28x64, .f32⟩ : BufTy).Contents (Elt Ideal)) (a5 : (⟨S4x192x64, .f32⟩ : BufTy).Contents (Elt Ideal)) (a6 a7 : (⟨S4x3x2, .f32⟩ : BufTy).Contents (Elt Ideal)) (a8 a9 : (⟨S4x64, .f32⟩ : BufTy).Contents (Elt Ideal)) (a10 : (⟨S4x2x2, .f32⟩ : BufTy).Contents (Elt Ideal)) (a11 : (⟨S4x2, .f32⟩ : BufTy).Contents (Elt Ideal)) : (⟨S50000x64, .f32⟩ : BufTy).Contents (Elt Ideal) :=
  aggS (F := Ideal) (msgS (hkSrcS (hkS (netH1 a0 a1 a2 a3 a4 a5 a6 a7 a8 a9 a10 a11) (W_1 a5)) a1) (gaussS (uS (pseudoS a1 a2) (A_1 a10) (bvec_1 a11)) (mu_1 a6) (sg_1 a7))) a2
def netH2 (a0 : (⟨S50000, .i32⟩ : BufTy).Contents (Elt Ideal)) (a1 a2 : (⟨S800000, .i32⟩ : BufTy).Contents (Elt Ideal)) (a3 : (⟨S50000, .i32⟩ : BufTy).Contents (Elt Ideal)) (a4 : (⟨S28x64, .f32⟩ : BufTy).Contents (Elt Ideal)) (a5 : (⟨S4x192x64, .f32⟩ : BufTy).Contents (Elt Ideal)) (a6 a7 : (⟨S4x3x2, .f32⟩ : BufTy).Contents (Elt Ideal)) (a8 a9 : (⟨S4x64, .f32⟩ : BufTy).Contents (Elt Ideal)) (a10 : (⟨S4x2x2, .f32⟩ : BufTy).Contents (Elt Ideal)) (a11 : (⟨S4x2, .f32⟩ : BufTy).Contents (Elt Ideal)) : (⟨S50000x64, .f32⟩ : BufTy).Contents (Elt Ideal) :=
  layerS (F := Ideal) (netH1 a0 a1 a2 a3 a4 a5 a6 a7 a8 a9 a10 a11) (pseudoS a1 a2) a1 a2 (A_1 a10) (bvec_1 a11) (mu_1 a6) (sg_1 a7) (W_1 a5) (gamma_1 a8) (beta_1 a9)
/-- Layer 2's aggregate, and the nodes' features leaving layer 2. -/
def netAgg2 (a0 : (⟨S50000, .i32⟩ : BufTy).Contents (Elt Ideal)) (a1 a2 : (⟨S800000, .i32⟩ : BufTy).Contents (Elt Ideal)) (a3 : (⟨S50000, .i32⟩ : BufTy).Contents (Elt Ideal)) (a4 : (⟨S28x64, .f32⟩ : BufTy).Contents (Elt Ideal)) (a5 : (⟨S4x192x64, .f32⟩ : BufTy).Contents (Elt Ideal)) (a6 a7 : (⟨S4x3x2, .f32⟩ : BufTy).Contents (Elt Ideal)) (a8 a9 : (⟨S4x64, .f32⟩ : BufTy).Contents (Elt Ideal)) (a10 : (⟨S4x2x2, .f32⟩ : BufTy).Contents (Elt Ideal)) (a11 : (⟨S4x2, .f32⟩ : BufTy).Contents (Elt Ideal)) : (⟨S50000x64, .f32⟩ : BufTy).Contents (Elt Ideal) :=
  aggS (F := Ideal) (msgS (hkSrcS (hkS (netH2 a0 a1 a2 a3 a4 a5 a6 a7 a8 a9 a10 a11) (W_2 a5)) a1) (gaussS (uS (pseudoS a1 a2) (A_2 a10) (bvec_2 a11)) (mu_2 a6) (sg_2 a7))) a2
def netH3 (a0 : (⟨S50000, .i32⟩ : BufTy).Contents (Elt Ideal)) (a1 a2 : (⟨S800000, .i32⟩ : BufTy).Contents (Elt Ideal)) (a3 : (⟨S50000, .i32⟩ : BufTy).Contents (Elt Ideal)) (a4 : (⟨S28x64, .f32⟩ : BufTy).Contents (Elt Ideal)) (a5 : (⟨S4x192x64, .f32⟩ : BufTy).Contents (Elt Ideal)) (a6 a7 : (⟨S4x3x2, .f32⟩ : BufTy).Contents (Elt Ideal)) (a8 a9 : (⟨S4x64, .f32⟩ : BufTy).Contents (Elt Ideal)) (a10 : (⟨S4x2x2, .f32⟩ : BufTy).Contents (Elt Ideal)) (a11 : (⟨S4x2, .f32⟩ : BufTy).Contents (Elt Ideal)) : (⟨S50000x64, .f32⟩ : BufTy).Contents (Elt Ideal) :=
  layerS (F := Ideal) (netH2 a0 a1 a2 a3 a4 a5 a6 a7 a8 a9 a10 a11) (pseudoS a1 a2) a1 a2 (A_2 a10) (bvec_2 a11) (mu_2 a6) (sg_2 a7) (W_2 a5) (gamma_2 a8) (beta_2 a9)
/-- Layer 3's aggregate, and the nodes' features leaving layer 3. -/
def netAgg3 (a0 : (⟨S50000, .i32⟩ : BufTy).Contents (Elt Ideal)) (a1 a2 : (⟨S800000, .i32⟩ : BufTy).Contents (Elt Ideal)) (a3 : (⟨S50000, .i32⟩ : BufTy).Contents (Elt Ideal)) (a4 : (⟨S28x64, .f32⟩ : BufTy).Contents (Elt Ideal)) (a5 : (⟨S4x192x64, .f32⟩ : BufTy).Contents (Elt Ideal)) (a6 a7 : (⟨S4x3x2, .f32⟩ : BufTy).Contents (Elt Ideal)) (a8 a9 : (⟨S4x64, .f32⟩ : BufTy).Contents (Elt Ideal)) (a10 : (⟨S4x2x2, .f32⟩ : BufTy).Contents (Elt Ideal)) (a11 : (⟨S4x2, .f32⟩ : BufTy).Contents (Elt Ideal)) : (⟨S50000x64, .f32⟩ : BufTy).Contents (Elt Ideal) :=
  aggS (F := Ideal) (msgS (hkSrcS (hkS (netH3 a0 a1 a2 a3 a4 a5 a6 a7 a8 a9 a10 a11) (W_3 a5)) a1) (gaussS (uS (pseudoS a1 a2) (A_3 a10) (bvec_3 a11)) (mu_3 a6) (sg_3 a7))) a2
def netH4 (a0 : (⟨S50000, .i32⟩ : BufTy).Contents (Elt Ideal)) (a1 a2 : (⟨S800000, .i32⟩ : BufTy).Contents (Elt Ideal)) (a3 : (⟨S50000, .i32⟩ : BufTy).Contents (Elt Ideal)) (a4 : (⟨S28x64, .f32⟩ : BufTy).Contents (Elt Ideal)) (a5 : (⟨S4x192x64, .f32⟩ : BufTy).Contents (Elt Ideal)) (a6 a7 : (⟨S4x3x2, .f32⟩ : BufTy).Contents (Elt Ideal)) (a8 a9 : (⟨S4x64, .f32⟩ : BufTy).Contents (Elt Ideal)) (a10 : (⟨S4x2x2, .f32⟩ : BufTy).Contents (Elt Ideal)) (a11 : (⟨S4x2, .f32⟩ : BufTy).Contents (Elt Ideal)) : (⟨S50000x64, .f32⟩ : BufTy).Contents (Elt Ideal) :=
  layerS (F := Ideal) (netH3 a0 a1 a2 a3 a4 a5 a6 a7 a8 a9 a10 a11) (pseudoS a1 a2) a1 a2 (A_3 a10) (bvec_3 a11) (mu_3 a6) (sg_3 a7) (W_3 a5) (gamma_3 a8) (beta_3 a9)
/-- The network's result. -/
def netOut (a0 : (⟨S50000, .i32⟩ : BufTy).Contents (Elt Ideal)) (a1 a2 : (⟨S800000, .i32⟩ : BufTy).Contents (Elt Ideal)) (a3 : (⟨S50000, .i32⟩ : BufTy).Contents (Elt Ideal)) (a4 : (⟨S28x64, .f32⟩ : BufTy).Contents (Elt Ideal)) (a5 : (⟨S4x192x64, .f32⟩ : BufTy).Contents (Elt Ideal)) (a6 a7 : (⟨S4x3x2, .f32⟩ : BufTy).Contents (Elt Ideal)) (a8 a9 : (⟨S4x64, .f32⟩ : BufTy).Contents (Elt Ideal)) (a10 : (⟨S4x2x2, .f32⟩ : BufTy).Contents (Elt Ideal)) (a11 : (⟨S4x2, .f32⟩ : BufTy).Contents (Elt Ideal)) (a12 : (⟨S32x64, .f32⟩ : BufTy).Contents (Elt Ideal)) (a13 : (⟨S32, .f32⟩ : BufTy).Contents (Elt Ideal)) (a14 : (⟨S16x32, .f32⟩ : BufTy).Contents (Elt Ideal)) (a15 : (⟨S16, .f32⟩ : BufTy).Contents (Elt Ideal)) (a16 : (⟨S1x16, .f32⟩ : BufTy).Contents (Elt Ideal)) (a17 : (⟨S1, .f32⟩ : BufTy).Contents (Elt Ideal)) : (⟨S256x1, .f32⟩ : BufTy).Contents (Elt Ideal) :=
  readoutS (F := Ideal) (netH4 a0 a1 a2 a3 a4 a5 a6 a7 a8 a9 a10 a11) a3 a12 a13 a14 a15 a16 a17

section Real
variable (a0 : (⟨S50000, .i32⟩ : BufTy).Contents (Elt Ideal)) (a1 a2 : (⟨S800000, .i32⟩ : BufTy).Contents (Elt Ideal)) (a3 : (⟨S50000, .i32⟩ : BufTy).Contents (Elt Ideal)) (a4 : (⟨S28x64, .f32⟩ : BufTy).Contents (Elt Ideal)) (a5 : (⟨S4x192x64, .f32⟩ : BufTy).Contents (Elt Ideal)) (a6 a7 : (⟨S4x3x2, .f32⟩ : BufTy).Contents (Elt Ideal)) (a8 a9 : (⟨S4x64, .f32⟩ : BufTy).Contents (Elt Ideal)) (a10 : (⟨S4x2x2, .f32⟩ : BufTy).Contents (Elt Ideal)) (a11 : (⟨S4x2, .f32⟩ : BufTy).Contents (Elt Ideal))
variable (h4 : AllR (S := S28x64) a4) (h5 : AllR (S := S4x192x64) a5) (h6 : AllR (S := S4x3x2) a6) (h7 : AllR (S := S4x3x2) a7)
  (h8 : AllR (S := S4x64) a8) (h9 : AllR (S := S4x64) a9)
include h4 h5 h6 h7 h8 h9

theorem allR_netH0 : AllR (S := S50000x64) (netH0 a0 a1 a2 a3 a4 a5 a6 a7 a8 a9 a10 a11) := allR_h0S a4 a0 h4
theorem allR_netAgg0 : AllR (S := S50000x64) (netAgg0 a0 a1 a2 a3 a4 a5 a6 a7 a8 a9 a10 a11) :=
  allR_layerAgg (netH0 a0 a1 a2 a3 a4 a5 a6 a7 a8 a9 a10 a11) (pseudoS a1 a2) a1 a2 (A_0 a10) (bvec_0 a11) (mu_0 a6) (sg_0 a7) (W_0 a5)
    (allR_netH0 a0 a1 a2 a3 a4 a5 a6 a7 a8 a9 a10 a11 h4 h5 h6 h7 h8 h9) (allR_mu_0 a6 h6) (allR_sg_0 a7 h7) (allR_W_0 a5 h5)
theorem allR_netH1 : AllR (S := S50000x64) (netH1 a0 a1 a2 a3 a4 a5 a6 a7 a8 a9 a10 a11) :=
  allR_layerS (netH0 a0 a1 a2 a3 a4 a5 a6 a7 a8 a9 a10 a11) (pseudoS a1 a2) a1 a2 (A_0 a10) (bvec_0 a11) (mu_0 a6) (sg_0 a7) (W_0 a5) (gamma_0 a8) (beta_0 a9)
    (allR_netH0 a0 a1 a2 a3 a4 a5 a6 a7 a8 a9 a10 a11 h4 h5 h6 h7 h8 h9) (allR_mu_0 a6 h6) (allR_sg_0 a7 h7) (allR_W_0 a5 h5) (allR_gamma_0 a8 h8) (allR_beta_0 a9 h9)
theorem allR_netAgg1 : AllR (S := S50000x64) (netAgg1 a0 a1 a2 a3 a4 a5 a6 a7 a8 a9 a10 a11) :=
  allR_layerAgg (netH1 a0 a1 a2 a3 a4 a5 a6 a7 a8 a9 a10 a11) (pseudoS a1 a2) a1 a2 (A_1 a10) (bvec_1 a11) (mu_1 a6) (sg_1 a7) (W_1 a5)
    (allR_netH1 a0 a1 a2 a3 a4 a5 a6 a7 a8 a9 a10 a11 h4 h5 h6 h7 h8 h9) (allR_mu_1 a6 h6) (allR_sg_1 a7 h7) (allR_W_1 a5 h5)
theorem allR_netH2 : AllR (S := S50000x64) (netH2 a0 a1 a2 a3 a4 a5 a6 a7 a8 a9 a10 a11) :=
  allR_layerS (netH1 a0 a1 a2 a3 a4 a5 a6 a7 a8 a9 a10 a11) (pseudoS a1 a2) a1 a2 (A_1 a10) (bvec_1 a11) (mu_1 a6) (sg_1 a7) (W_1 a5) (gamma_1 a8) (beta_1 a9)
    (allR_netH1 a0 a1 a2 a3 a4 a5 a6 a7 a8 a9 a10 a11 h4 h5 h6 h7 h8 h9) (allR_mu_1 a6 h6) (allR_sg_1 a7 h7) (allR_W_1 a5 h5) (allR_gamma_1 a8 h8) (allR_beta_1 a9 h9)
theorem allR_netAgg2 : AllR (S := S50000x64) (netAgg2 a0 a1 a2 a3 a4 a5 a6 a7 a8 a9 a10 a11) :=
  allR_layerAgg (netH2 a0 a1 a2 a3 a4 a5 a6 a7 a8 a9 a10 a11) (pseudoS a1 a2) a1 a2 (A_2 a10) (bvec_2 a11) (mu_2 a6) (sg_2 a7) (W_2 a5)
    (allR_netH2 a0 a1 a2 a3 a4 a5 a6 a7 a8 a9 a10 a11 h4 h5 h6 h7 h8 h9) (allR_mu_2 a6 h6) (allR_sg_2 a7 h7) (allR_W_2 a5 h5)
theorem allR_netH3 : AllR (S := S50000x64) (netH3 a0 a1 a2 a3 a4 a5 a6 a7 a8 a9 a10 a11) :=
  allR_layerS (netH2 a0 a1 a2 a3 a4 a5 a6 a7 a8 a9 a10 a11) (pseudoS a1 a2) a1 a2 (A_2 a10) (bvec_2 a11) (mu_2 a6) (sg_2 a7) (W_2 a5) (gamma_2 a8) (beta_2 a9)
    (allR_netH2 a0 a1 a2 a3 a4 a5 a6 a7 a8 a9 a10 a11 h4 h5 h6 h7 h8 h9) (allR_mu_2 a6 h6) (allR_sg_2 a7 h7) (allR_W_2 a5 h5) (allR_gamma_2 a8 h8) (allR_beta_2 a9 h9)
theorem allR_netAgg3 : AllR (S := S50000x64) (netAgg3 a0 a1 a2 a3 a4 a5 a6 a7 a8 a9 a10 a11) :=
  allR_layerAgg (netH3 a0 a1 a2 a3 a4 a5 a6 a7 a8 a9 a10 a11) (pseudoS a1 a2) a1 a2 (A_3 a10) (bvec_3 a11) (mu_3 a6) (sg_3 a7) (W_3 a5)
    (allR_netH3 a0 a1 a2 a3 a4 a5 a6 a7 a8 a9 a10 a11 h4 h5 h6 h7 h8 h9) (allR_mu_3 a6 h6) (allR_sg_3 a7 h7) (allR_W_3 a5 h5)
theorem allR_netH4 : AllR (S := S50000x64) (netH4 a0 a1 a2 a3 a4 a5 a6 a7 a8 a9 a10 a11) :=
  allR_layerS (netH3 a0 a1 a2 a3 a4 a5 a6 a7 a8 a9 a10 a11) (pseudoS a1 a2) a1 a2 (A_3 a10) (bvec_3 a11) (mu_3 a6) (sg_3 a7) (W_3 a5) (gamma_3 a8) (beta_3 a9)
    (allR_netH3 a0 a1 a2 a3 a4 a5 a6 a7 a8 a9 a10 a11 h4 h5 h6 h7 h8 h9) (allR_mu_3 a6 h6) (allR_sg_3 a7 h7) (allR_W_3 a5 h5) (allR_gamma_3 a8 h8) (allR_beta_3 a9 h9)

end Real

end Cert.ReferenceIdeal.Net

end
-- ==== Proof.ReadoutK.lean ====
/-
  The readout as the kernel's last region computes it, for one graph. The region is handed the three weight matrices
  transposed (input feature first) and the three biases as one-row arrays; the weights are stored output feature first
  (32 × 64, 16 × 32, 1 × 16) and the biases as vectors. Reading each transposed matrix at (k, q) as the stored one at
  (q, k), and each bias row at column j as the vector at j, the region's row p is the three dense layers of graph p's
  row: two layers each followed by the maximum with zero, then the last layer.
-/
import proofs.«111449_j80633716015168_2_alg».proof.Proof.ValMlp
import proofs.«111449_j80633716015168_2_alg».proof.Proof.SpecDense

noncomputable section

namespace Cert.KernelIdeal.Vals

open Idealize.ShloMosaic Idealize.ShloMosaic.ValueIdx
open Cert.KernelIdeal Cert.KernelIdeal.Gen Cert.KernelIdeal.Bodies

/-- The readout of the transposed weights and the bias rows, at graph p: the three dense layers of the graph's row,
    over the weights as stored. -/
theorem readoutK_at (hg : S256x64.Idx → EReal) (w1 : S32x64.Idx → EReal) (b1 : S32.Idx → EReal) (w2 : S16x32.Idx → EReal)
    (b2 : S16.Idx → EReal) (w3 : S1x16.Idx → EReal) (b3 : S1.Idx → EReal) (p : Fin 256) :
    mlpOf hg (transpose S64x32 [1, 0] w1 transposes_S32x64_S64x32_1_0) (shapeCast S1x32 b1 shapeCasts_S32_S1x32)
        (transpose S32x16 [1, 0] w2 transposes_S16x32_S32x16_1_0) (shapeCast S1x16 b2 shapeCasts_S16_S1x16)
        (transpose S16x1 [1, 0] w3 transposes_S1x16_S16x1_1_0) (shapeCast S1x1 b3 shapeCasts_S1_S1x1) (ix2 p (0 : Fin 1))
      = Cert.Spec.denseRow (fun k1 => hg (ix2 p k1)) (fun k2 k1 => w1 (ix2 k2 k1)) (fun k2 => b1 (ix1 k2))
          (fun k3 k2 => w2 (ix2 k3 k2)) (fun k3 => b2 (ix1 k3)) (fun k3 => w3 (ix2 (0 : Fin 1) k3)) (b3 (ix1 (0 : Fin 1))) := by
  have t1 : ∀ (k1 : Fin 64) (k2 : Fin 32),
      transpose S64x32 [1, 0] w1 transposes_S32x64_S64x32_1_0 (ix2 k1 k2) = w1 (ix2 k2 k1) :=
    fun k1 k2 => transpose_ix2_apply (a := 32) (b := 64) w1 _ k1 k2
  have t2 : ∀ (k2 : Fin 32) (k3 : Fin 16),
      transpose S32x16 [1, 0] w2 transposes_S16x32_S32x16_1_0 (ix2 k2 k3) = w2 (ix2 k3 k2) :=
    fun k2 k3 => transpose_ix2_apply (a := 16) (b := 32) w2 _ k2 k3
  have t3 : ∀ k3 : Fin 16,
      transpose S16x1 [1, 0] w3 transposes_S1x16_S16x1_1_0 (ix2 k3 (0 : Fin 1)) = w3 (ix2 (0 : Fin 1) k3) :=
    fun k3 => transpose_ix2_apply (a := 1) (b := 16) w3 _ k3 0
  show mlpRow hg _ _ _ _ _ _ p = _
  unfold mlpRow Cert.Spec.denseRow
  simp only [t1, t2, t3, shapeCast_a_1a_apply]

end Cert.KernelIdeal.Vals

end
-- ==== Proof.KerNet.lean ====
/-
  The idealized kernel computes the network function of its arguments, provided the float arguments are real. Layer by
  layer the kernel's output is the reference's layer of the previous output (the layer bridge, with the kernel's
  re-laid parameters read back to the reference's), the aggregate being real because the previous output and the
  parameters are; the readout's dense layers are the same formula of the same per-graph means.
-/
import proofs.«111449_j80633716015168_2_alg».proof.Proof.KValue
import proofs.«111449_j80633716015168_2_alg».proof.Proof.LayerBridge
import proofs.«111449_j80633716015168_2_alg».proof.Proof.ParamBridge
import proofs.«111449_j80633716015168_2_alg».proof.Proof.Net
import proofs.«111449_j80633716015168_2_alg».proof.Proof.ReadoutK
import proofs.«111449_j80633716015168_2_alg».proof.Proof.RefIdx

set_option maxRecDepth 16384

noncomputable section

namespace Cert.KernelIdeal.Gen

open Idealize.ShloMosaic Idealize.ShloMosaic.TcCoe Idealize.ShloMosaic.ValueIdx Idealize.SL.Sem
open Cert.KernelIdeal Cert.KernelIdeal.Vals Cert.Lib.RealEntries

variable (m : (ℓ : Loc nD τ sig) → Buf (Elt Ideal) ℓ) (ρ : Dev nD → PrngReg) (c : Dev nD)
variable (h4 : AllR (S := S28x64) (W0 m ρ c (Proc.devRef .tc main_arg4))) (h5 : AllR (S := S4x192x64) (W0 m ρ c (Proc.devRef .tc main_arg5))) (h6 : AllR (S := S4x3x2) (W0 m ρ c (Proc.devRef .tc main_arg6))) (h7 : AllR (S := S4x3x2) (W0 m ρ c (Proc.devRef .tc main_arg7)))
  (h8 : AllR (S := S4x64) (W0 m ρ c (Proc.devRef .tc main_arg8))) (h9 : AllR (S := S4x64) (W0 m ρ c (Proc.devRef .tc main_arg9)))

theorem kH0_net : kH0 m ρ c = Cert.ReferenceIdeal.Net.netH0 (W0 m ρ c (Proc.devRef .tc main_arg0)) (W0 m ρ c (Proc.devRef .tc main_arg1)) (W0 m ρ c (Proc.devRef .tc main_arg2)) (W0 m ρ c (Proc.devRef .tc main_arg3)) (W0 m ρ c (Proc.devRef .tc main_arg4)) (W0 m ρ c (Proc.devRef .tc main_arg5)) (W0 m ρ c (Proc.devRef .tc main_arg6)) (W0 m ρ c (Proc.devRef .tc main_arg7)) (W0 m ρ c (Proc.devRef .tc main_arg8)) (W0 m ρ c (Proc.devRef .tc main_arg9)) (W0 m ρ c (Proc.devRef .tc main_arg10)) (W0 m ρ c (Proc.devRef .tc main_arg11)) := rfl

include h4 h5 h6 h7 h8 h9 in
theorem kH1_net : kH1 m ρ c = Cert.ReferenceIdeal.Net.netH1 (W0 m ρ c (Proc.devRef .tc main_arg0)) (W0 m ρ c (Proc.devRef .tc main_arg1)) (W0 m ρ c (Proc.devRef .tc main_arg2)) (W0 m ρ c (Proc.devRef .tc main_arg3)) (W0 m ρ c (Proc.devRef .tc main_arg4)) (W0 m ρ c (Proc.devRef .tc main_arg5)) (W0 m ρ c (Proc.devRef .tc main_arg6)) (W0 m ρ c (Proc.devRef .tc main_arg7)) (W0 m ρ c (Proc.devRef .tc main_arg8)) (W0 m ρ c (Proc.devRef .tc main_arg9)) (W0 m ρ c (Proc.devRef .tc main_arg10)) (W0 m ρ c (Proc.devRef .tc main_arg11)) := by
  unfold kH1 kAgg0
  rw [kH0_net m ρ c]
  exact Cert.Bridge.layer_bridge (Cert.ReferenceIdeal.Net.netH0 (W0 m ρ c (Proc.devRef .tc main_arg0)) (W0 m ρ c (Proc.devRef .tc main_arg1)) (W0 m ρ c (Proc.devRef .tc main_arg2)) (W0 m ρ c (Proc.devRef .tc main_arg3)) (W0 m ρ c (Proc.devRef .tc main_arg4)) (W0 m ρ c (Proc.devRef .tc main_arg5)) (W0 m ρ c (Proc.devRef .tc main_arg6)) (W0 m ρ c (Proc.devRef .tc main_arg7)) (W0 m ρ c (Proc.devRef .tc main_arg8)) (W0 m ρ c (Proc.devRef .tc main_arg9)) (W0 m ρ c (Proc.devRef .tc main_arg10)) (W0 m ρ c (Proc.devRef .tc main_arg11))) (kPseudo m ρ c) (W0 m ρ c (Proc.devRef .tc main_arg1)) (W0 m ρ c (Proc.devRef .tc main_arg2))
    (kWt0 (wT (W0 m ρ c (Proc.devRef .tc main_arg5)))) (kA0 (W0 m ρ c (Proc.devRef .tc main_arg10))) (kB0 (bR (W0 m ρ c (Proc.devRef .tc main_arg11)))) (kM0 (W0 m ρ c (Proc.devRef .tc main_arg6))) (kM0 (W0 m ρ c (Proc.devRef .tc main_arg7))) (kG0 (gR (W0 m ρ c (Proc.devRef .tc main_arg8)))) (kG0 (gR (W0 m ρ c (Proc.devRef .tc main_arg9))))
    (Cert.ReferenceIdeal.RefSpec.W_0 (W0 m ρ c (Proc.devRef .tc main_arg5))) (Cert.ReferenceIdeal.RefSpec.A_0 (W0 m ρ c (Proc.devRef .tc main_arg10))) (Cert.ReferenceIdeal.RefSpec.bvec_0 (W0 m ρ c (Proc.devRef .tc main_arg11))) (Cert.ReferenceIdeal.RefSpec.mu_0 (W0 m ρ c (Proc.devRef .tc main_arg6))) (Cert.ReferenceIdeal.RefSpec.sg_0 (W0 m ρ c (Proc.devRef .tc main_arg7))) (Cert.ReferenceIdeal.RefSpec.gamma_0 (W0 m ρ c (Proc.devRef .tc main_arg8))) (Cert.ReferenceIdeal.RefSpec.beta_0 (W0 m ρ c (Proc.devRef .tc main_arg9)))
    (Cert.KernelIdeal.ParamBridge.cWt0_at (W0 m ρ c (Proc.devRef .tc main_arg5))) (Cert.KernelIdeal.ParamBridge.cA0_eq (W0 m ρ c (Proc.devRef .tc main_arg10))) (Cert.KernelIdeal.ParamBridge.cB0_at_bvec (W0 m ρ c (Proc.devRef .tc main_arg11))) (Cert.KernelIdeal.ParamBridge.cM0_eq_mu (W0 m ρ c (Proc.devRef .tc main_arg6))) (Cert.KernelIdeal.ParamBridge.cM0_eq_sg (W0 m ρ c (Proc.devRef .tc main_arg7)))
    (Cert.KernelIdeal.ParamBridge.cG0_at_gamma (W0 m ρ c (Proc.devRef .tc main_arg8))) (Cert.KernelIdeal.ParamBridge.cG0_at_beta (W0 m ρ c (Proc.devRef .tc main_arg9)))
    (Cert.ReferenceIdeal.Net.allR_netAgg0 (W0 m ρ c (Proc.devRef .tc main_arg0)) (W0 m ρ c (Proc.devRef .tc main_arg1)) (W0 m ρ c (Proc.devRef .tc main_arg2)) (W0 m ρ c (Proc.devRef .tc main_arg3)) (W0 m ρ c (Proc.devRef .tc main_arg4)) (W0 m ρ c (Proc.devRef .tc main_arg5)) (W0 m ρ c (Proc.devRef .tc main_arg6)) (W0 m ρ c (Proc.devRef .tc main_arg7)) (W0 m ρ c (Proc.devRef .tc main_arg8)) (W0 m ρ c (Proc.devRef .tc main_arg9)) (W0 m ρ c (Proc.devRef .tc main_arg10)) (W0 m ρ c (Proc.devRef .tc main_arg11)) h4 h5 h6 h7 h8 h9)

include h4 h5 h6 h7 h8 h9 in
theorem kH2_net : kH2 m ρ c = Cert.ReferenceIdeal.Net.netH2 (W0 m ρ c (Proc.devRef .tc main_arg0)) (W0 m ρ c (Proc.devRef .tc main_arg1)) (W0 m ρ c (Proc.devRef .tc main_arg2)) (W0 m ρ c (Proc.devRef .tc main_arg3)) (W0 m ρ c (Proc.devRef .tc main_arg4)) (W0 m ρ c (Proc.devRef .tc main_arg5)) (W0 m ρ c (Proc.devRef .tc main_arg6)) (W0 m ρ c (Proc.devRef .tc main_arg7)) (W0 m ρ c (Proc.devRef .tc main_arg8)) (W0 m ρ c (Proc.devRef .tc main_arg9)) (W0 m ρ c (Proc.devRef .tc main_arg10)) (W0 m ρ c (Proc.devRef .tc main_arg11)) := by
  unfold kH2 kAgg1
  rw [kH1_net m ρ c h4 h5 h6 h7 h8 h9]
  exact Cert.Bridge.layer_bridge (Cert.ReferenceIdeal.Net.netH1 (W0 m ρ c (Proc.devRef .tc main_arg0)) (W0 m ρ c (Proc.devRef .tc main_arg1)) (W0 m ρ c (Proc.devRef .tc main_arg2)) (W0 m ρ c (Proc.devRef .tc main_arg3)) (W0 m ρ c (Proc.devRef .tc main_arg4)) (W0 m ρ c (Proc.devRef .tc main_arg5)) (W0 m ρ c (Proc.devRef .tc main_arg6)) (W0 m ρ c (Proc.devRef .tc main_arg7)) (W0 m ρ c (Proc.devRef .tc main_arg8)) (W0 m ρ c (Proc.devRef .tc main_arg9)) (W0 m ρ c (Proc.devRef .tc main_arg10)) (W0 m ρ c (Proc.devRef .tc main_arg11))) (kPseudo m ρ c) (W0 m ρ c (Proc.devRef .tc main_arg1)) (W0 m ρ c (Proc.devRef .tc main_arg2))
    (kWt1 (wT (W0 m ρ c (Proc.devRef .tc main_arg5)))) (kA1 (W0 m ρ c (Proc.devRef .tc main_arg10))) (kB1 (bR (W0 m ρ c (Proc.devRef .tc main_arg11)))) (kM1 (W0 m ρ c (Proc.devRef .tc main_arg6))) (kM1 (W0 m ρ c (Proc.devRef .tc main_arg7))) (kG1 (gR (W0 m ρ c (Proc.devRef .tc main_arg8)))) (kG1 (gR (W0 m ρ c (Proc.devRef .tc main_arg9))))
    (Cert.ReferenceIdeal.RefSpec.W_1 (W0 m ρ c (Proc.devRef .tc main_arg5))) (Cert.ReferenceIdeal.RefSpec.A_1 (W0 m ρ c (Proc.devRef .tc main_arg10))) (Cert.ReferenceIdeal.RefSpec.bvec_1 (W0 m ρ c (Proc.devRef .tc main_arg11))) (Cert.ReferenceIdeal.RefSpec.mu_1 (W0 m ρ c (Proc.devRef .tc main_arg6))) (Cert.ReferenceIdeal.RefSpec.sg_1 (W0 m ρ c (Proc.devRef .tc main_arg7))) (Cert.ReferenceIdeal.RefSpec.gamma_1 (W0 m ρ c (Proc.devRef .tc main_arg8))) (Cert.ReferenceIdeal.RefSpec.beta_1 (W0 m ρ c (Proc.devRef .tc main_arg9)))
    (Cert.KernelIdeal.ParamBridge.cWt1_at (W0 m ρ c (Proc.devRef .tc main_arg5))) (Cert.KernelIdeal.ParamBridge.cA1_eq (W0 m ρ c (Proc.devRef .tc main_arg10))) (Cert.KernelIdeal.ParamBridge.cB1_at_bvec (W0 m ρ c (Proc.devRef .tc main_arg11))) (Cert.KernelIdeal.ParamBridge.cM1_eq_mu (W0 m ρ c (Proc.devRef .tc main_arg6))) (Cert.KernelIdeal.ParamBridge.cM1_eq_sg (W0 m ρ c (Proc.devRef .tc main_arg7)))
    (Cert.KernelIdeal.ParamBridge.cG1_at_gamma (W0 m ρ c (Proc.devRef .tc main_arg8))) (Cert.KernelIdeal.ParamBridge.cG1_at_beta (W0 m ρ c (Proc.devRef .tc main_arg9)))
    (Cert.ReferenceIdeal.Net.allR_netAgg1 (W0 m ρ c (Proc.devRef .tc main_arg0)) (W0 m ρ c (Proc.devRef .tc main_arg1)) (W0 m ρ c (Proc.devRef .tc main_arg2)) (W0 m ρ c (Proc.devRef .tc main_arg3)) (W0 m ρ c (Proc.devRef .tc main_arg4)) (W0 m ρ c (Proc.devRef .tc main_arg5)) (W0 m ρ c (Proc.devRef .tc main_arg6)) (W0 m ρ c (Proc.devRef .tc main_arg7)) (W0 m ρ c (Proc.devRef .tc main_arg8)) (W0 m ρ c (Proc.devRef .tc main_arg9)) (W0 m ρ c (Proc.devRef .tc main_arg10)) (W0 m ρ c (Proc.devRef .tc main_arg11)) h4 h5 h6 h7 h8 h9)

include h4 h5 h6 h7 h8 h9 in
theorem kH3_net : kH3 m ρ c = Cert.ReferenceIdeal.Net.netH3 (W0 m ρ c (Proc.devRef .tc main_arg0)) (W0 m ρ c (Proc.devRef .tc main_arg1)) (W0 m ρ c (Proc.devRef .tc main_arg2)) (W0 m ρ c (Proc.devRef .tc main_arg3)) (W0 m ρ c (Proc.devRef .tc main_arg4)) (W0 m ρ c (Proc.devRef .tc main_arg5)) (W0 m ρ c (Proc.devRef .tc main_arg6)) (W0 m ρ c (Proc.devRef .tc main_arg7)) (W0 m ρ c (Proc.devRef .tc main_arg8)) (W0 m ρ c (Proc.devRef .tc main_arg9)) (W0 m ρ c (Proc.devRef .tc main_arg10)) (W0 m ρ c (Proc.devRef .tc main_arg11)) := by
  unfold kH3 kAgg2
  rw [kH2_net m ρ c h4 h5 h6 h7 h8 h9]
  exact Cert.Bridge.layer_bridge (Cert.ReferenceIdeal.Net.netH2 (W0 m ρ c (Proc.devRef .tc main_arg0)) (W0 m ρ c (Proc.devRef .tc main_arg1)) (W0 m ρ c (Proc.devRef .tc main_arg2)) (W0 m ρ c (Proc.devRef .tc main_arg3)) (W0 m ρ c (Proc.devRef .tc main_arg4)) (W0 m ρ c (Proc.devRef .tc main_arg5)) (W0 m ρ c (Proc.devRef .tc main_arg6)) (W0 m ρ c (Proc.devRef .tc main_arg7)) (W0 m ρ c (Proc.devRef .tc main_arg8)) (W0 m ρ c (Proc.devRef .tc main_arg9)) (W0 m ρ c (Proc.devRef .tc main_arg10)) (W0 m ρ c (Proc.devRef .tc main_arg11))) (kPseudo m ρ c) (W0 m ρ c (Proc.devRef .tc main_arg1)) (W0 m ρ c (Proc.devRef .tc main_arg2))
    (kWt2 (wT (W0 m ρ c (Proc.devRef .tc main_arg5)))) (kA2 (W0 m ρ c (Proc.devRef .tc main_arg10))) (kB2 (bR (W0 m ρ c (Proc.devRef .tc main_arg11)))) (kM2 (W0 m ρ c (Proc.devRef .tc main_arg6))) (kM2 (W0 m ρ c (Proc.devRef .tc main_arg7))) (kG2 (gR (W0 m ρ c (Proc.devRef .tc main_arg8)))) (kG2 (gR (W0 m ρ c (Proc.devRef .tc main_arg9))))
    (Cert.ReferenceIdeal.RefSpec.W_2 (W0 m ρ c (Proc.devRef .tc main_arg5))) (Cert.ReferenceIdeal.RefSpec.A_2 (W0 m ρ c (Proc.devRef .tc main_arg10))) (Cert.ReferenceIdeal.RefSpec.bvec_2 (W0 m ρ c (Proc.devRef .tc main_arg11))) (Cert.ReferenceIdeal.RefSpec.mu_2 (W0 m ρ c (Proc.devRef .tc main_arg6))) (Cert.ReferenceIdeal.RefSpec.sg_2 (W0 m ρ c (Proc.devRef .tc main_arg7))) (Cert.ReferenceIdeal.RefSpec.gamma_2 (W0 m ρ c (Proc.devRef .tc main_arg8))) (Cert.ReferenceIdeal.RefSpec.beta_2 (W0 m ρ c (Proc.devRef .tc main_arg9)))
    (Cert.KernelIdeal.ParamBridge.cWt2_at (W0 m ρ c (Proc.devRef .tc main_arg5))) (Cert.KernelIdeal.ParamBridge.cA2_eq (W0 m ρ c (Proc.devRef .tc main_arg10))) (Cert.KernelIdeal.ParamBridge.cB2_at_bvec (W0 m ρ c (Proc.devRef .tc main_arg11))) (Cert.KernelIdeal.ParamBridge.cM2_eq_mu (W0 m ρ c (Proc.devRef .tc main_arg6))) (Cert.KernelIdeal.ParamBridge.cM2_eq_sg (W0 m ρ c (Proc.devRef .tc main_arg7)))
    (Cert.KernelIdeal.ParamBridge.cG2_at_gamma (W0 m ρ c (Proc.devRef .tc main_arg8))) (Cert.KernelIdeal.ParamBridge.cG2_at_beta (W0 m ρ c (Proc.devRef .tc main_arg9)))
    (Cert.ReferenceIdeal.Net.allR_netAgg2 (W0 m ρ c (Proc.devRef .tc main_arg0)) (W0 m ρ c (Proc.devRef .tc main_arg1)) (W0 m ρ c (Proc.devRef .tc main_arg2)) (W0 m ρ c (Proc.devRef .tc main_arg3)) (W0 m ρ c (Proc.devRef .tc main_arg4)) (W0 m ρ c (Proc.devRef .tc main_arg5)) (W0 m ρ c (Proc.devRef .tc main_arg6)) (W0 m ρ c (Proc.devRef .tc main_arg7)) (W0 m ρ c (Proc.devRef .tc main_arg8)) (W0 m ρ c (Proc.devRef .tc main_arg9)) (W0 m ρ c (Proc.devRef .tc main_arg10)) (W0 m ρ c (Proc.devRef .tc main_arg11)) h4 h5 h6 h7 h8 h9)

include h4 h5 h6 h7 h8 h9 in
theorem kH4_net : kH4 m ρ c = Cert.ReferenceIdeal.Net.netH4 (W0 m ρ c (Proc.devRef .tc main_arg0)) (W0 m ρ c (Proc.devRef .tc main_arg1)) (W0 m ρ c (Proc.devRef .tc main_arg2)) (W0 m ρ c (Proc.devRef .tc main_arg3)) (W0 m ρ c (Proc.devRef .tc main_arg4)) (W0 m ρ c (Proc.devRef .tc main_arg5)) (W0 m ρ c (Proc.devRef .tc main_arg6)) (W0 m ρ c (Proc.devRef .tc main_arg7)) (W0 m ρ c (Proc.devRef .tc main_arg8)) (W0 m ρ c (Proc.devRef .tc main_arg9)) (W0 m ρ c (Proc.devRef .tc main_arg10)) (W0 m ρ c (Proc.devRef .tc main_arg11)) := by
  unfold kH4 kAgg3
  rw [kH3_net m ρ c h4 h5 h6 h7 h8 h9]
  exact Cert.Bridge.layer_bridge (Cert.ReferenceIdeal.Net.netH3 (W0 m ρ c (Proc.devRef .tc main_arg0)) (W0 m ρ c (Proc.devRef .tc main_arg1)) (W0 m ρ c (Proc.devRef .tc main_arg2)) (W0 m ρ c (Proc.devRef .tc main_arg3)) (W0 m ρ c (Proc.devRef .tc main_arg4)) (W0 m ρ c (Proc.devRef .tc main_arg5)) (W0 m ρ c (Proc.devRef .tc main_arg6)) (W0 m ρ c (Proc.devRef .tc main_arg7)) (W0 m ρ c (Proc.devRef .tc main_arg8)) (W0 m ρ c (Proc.devRef .tc main_arg9)) (W0 m ρ c (Proc.devRef .tc main_arg10)) (W0 m ρ c (Proc.devRef .tc main_arg11))) (kPseudo m ρ c) (W0 m ρ c (Proc.devRef .tc main_arg1)) (W0 m ρ c (Proc.devRef .tc main_arg2))
    (kWt3 (wT (W0 m ρ c (Proc.devRef .tc main_arg5)))) (kA3 (W0 m ρ c (Proc.devRef .tc main_arg10))) (kB3 (bR (W0 m ρ c (Proc.devRef .tc main_arg11)))) (kM3 (W0 m ρ c (Proc.devRef .tc main_arg6))) (kM3 (W0 m ρ c (Proc.devRef .tc main_arg7))) (kG3 (gR (W0 m ρ c (Proc.devRef .tc main_arg8)))) (kG3 (gR (W0 m ρ c (Proc.devRef .tc main_arg9))))
    (Cert.ReferenceIdeal.RefSpec.W_3 (W0 m ρ c (Proc.devRef .tc main_arg5))) (Cert.ReferenceIdeal.RefSpec.A_3 (W0 m ρ c (Proc.devRef .tc main_arg10))) (Cert.ReferenceIdeal.RefSpec.bvec_3 (W0 m ρ c (Proc.devRef .tc main_arg11))) (Cert.ReferenceIdeal.RefSpec.mu_3 (W0 m ρ c (Proc.devRef .tc main_arg6))) (Cert.ReferenceIdeal.RefSpec.sg_3 (W0 m ρ c (Proc.devRef .tc main_arg7))) (Cert.ReferenceIdeal.RefSpec.gamma_3 (W0 m ρ c (Proc.devRef .tc main_arg8))) (Cert.ReferenceIdeal.RefSpec.beta_3 (W0 m ρ c (Proc.devRef .tc main_arg9)))
    (Cert.KernelIdeal.ParamBridge.cWt3_at (W0 m ρ c (Proc.devRef .tc main_arg5))) (Cert.KernelIdeal.ParamBridge.cA3_eq (W0 m ρ c (Proc.devRef .tc main_arg10))) (Cert.KernelIdeal.ParamBridge.cB3_at_bvec (W0 m ρ c (Proc.devRef .tc main_arg11))) (Cert.KernelIdeal.ParamBridge.cM3_eq_mu (W0 m ρ c (Proc.devRef .tc main_arg6))) (Cert.KernelIdeal.ParamBridge.cM3_eq_sg (W0 m ρ c (Proc.devRef .tc main_arg7)))
    (Cert.KernelIdeal.ParamBridge.cG3_at_gamma (W0 m ρ c (Proc.devRef .tc main_arg8))) (Cert.KernelIdeal.ParamBridge.cG3_at_beta (W0 m ρ c (Proc.devRef .tc main_arg9)))
    (Cert.ReferenceIdeal.Net.allR_netAgg3 (W0 m ρ c (Proc.devRef .tc main_arg0)) (W0 m ρ c (Proc.devRef .tc main_arg1)) (W0 m ρ c (Proc.devRef .tc main_arg2)) (W0 m ρ c (Proc.devRef .tc main_arg3)) (W0 m ρ c (Proc.devRef .tc main_arg4)) (W0 m ρ c (Proc.devRef .tc main_arg5)) (W0 m ρ c (Proc.devRef .tc main_arg6)) (W0 m ρ c (Proc.devRef .tc main_arg7)) (W0 m ρ c (Proc.devRef .tc main_arg8)) (W0 m ρ c (Proc.devRef .tc main_arg9)) (W0 m ρ c (Proc.devRef .tc main_arg10)) (W0 m ρ c (Proc.devRef .tc main_arg11)) h4 h5 h6 h7 h8 h9)

include h4 h5 h6 h7 h8 h9 in
/-- The kernel's result is the network function of its arguments. -/
theorem kernel_net : W30 m ρ c (Proc.devRef .tc main_v180) = Cert.ReferenceIdeal.Net.netOut (W0 m ρ c (Proc.devRef .tc main_arg0)) (W0 m ρ c (Proc.devRef .tc main_arg1)) (W0 m ρ c (Proc.devRef .tc main_arg2)) (W0 m ρ c (Proc.devRef .tc main_arg3)) (W0 m ρ c (Proc.devRef .tc main_arg4)) (W0 m ρ c (Proc.devRef .tc main_arg5)) (W0 m ρ c (Proc.devRef .tc main_arg6)) (W0 m ρ c (Proc.devRef .tc main_arg7)) (W0 m ρ c (Proc.devRef .tc main_arg8)) (W0 m ρ c (Proc.devRef .tc main_arg9)) (W0 m ρ c (Proc.devRef .tc main_arg10)) (W0 m ρ c (Proc.devRef .tc main_arg11)) (W0 m ρ c (Proc.devRef .tc main_arg12)) (W0 m ρ c (Proc.devRef .tc main_arg13)) (W0 m ρ c (Proc.devRef .tc main_arg14)) (W0 m ρ c (Proc.devRef .tc main_arg15)) (W0 m ρ c (Proc.devRef .tc main_arg16)) (W0 m ρ c (Proc.devRef .tc main_arg17)) := by
  rw [kernel_value m ρ c, kH4_net m ρ c h4 h5 h6 h7 h8 h9]
  unfold Cert.ReferenceIdeal.Net.netOut
  rw [Cert.ReferenceIdeal.RefSpec.readoutS_split]
  funext i
  obtain ⟨p, u, rfl⟩ : ∃ (p : Fin 256) (u : Fin 1), i = ix2 p u := ⟨i 0, i 1, eq_ix2 i⟩
  have hu : u = 0 := Fin.ext (by omega)
  subst hu
  rw [readoutK_at, Cert.ReferenceIdeal.RefSpec.denseS_apply]
  rfl

end Cert.KernelIdeal.Gen

end
-- ==== Proof.RefNet.lean ====
/-
  The reference's result buffer, after its run, holds the network function of the argument arrays as launched: the
  run's fold at the result is the readout of the fourth layer's output, and each layer's output is the layer function
  of the previous one.
-/
import proofs.«111449_j80633716015168_2_alg».proof.Proof.RefSpec
import proofs.«111449_j80633716015168_2_alg».proof.Proof.Net

noncomputable section

namespace Cert.ReferenceIdeal.Net

open Cert.ReferenceIdeal Cert.ReferenceIdeal.Gen Cert.ReferenceIdeal.RefSpec Idealize.ShloMosaic Idealize.ShloMosaic.StableHlo

variable (V : Valuation τ sig (Elt Ideal))

theorem refH0_net : refH0 V = netH0 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) := rfl
theorem refH1_net : refH1 V = netH1 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) := by rw [refH1_eq, refH0_net]; rfl
theorem refH2_net : refH2 V = netH2 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) := by rw [refH2_eq, refH1_net]; rfl
theorem refH3_net : refH3 V = netH3 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) := by rw [refH3_eq, refH2_net]; rfl
theorem refH4_net : refH4 V = netH4 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) := by rw [refH4_eq, refH3_net]; rfl

/-- The reference's result after its run. -/
theorem ref_value : after RefRun.ops V (Proc.devRef .tc main_v350) = netOut (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) (V (Proc.devRef .tc main_arg13)) (V (Proc.devRef .tc main_arg14)) (V (Proc.devRef .tc main_arg15)) (V (Proc.devRef .tc main_arg16)) (V (Proc.devRef .tc main_arg17)) := by
  rw [result_eq, refH4_net]
  rfl

end Cert.ReferenceIdeal.Net

end
-- ==== Proof.PreReal.lean ====
/-
  From the precondition to real entries. On every device the precondition says that a conjunction, over the fourteen
  float arguments, of "every entry's absolute value is below plus infinity" is true. The absolute value of an extended
  real x is max(x, -x); if that is below plus infinity then x is neither plus nor minus infinity, so x is a real
  number. Hence every entry of every float argument is a real number. (The four integer arguments are not constrained.)
-/
import proofs.«111449_j80633716015168_2_alg».proof.Defs
import proofs.«111449_j80633716015168_2_alg».proof.Proof.Gen.Pre_finite_inputs
import proofs.«111449_j80633716015168_2_alg».proof.Proof.LibRealEntries
import Idealize.ShloMosaic.Lib.ReduceAll
import Idealize.ShloMosaic.Lib.ValueIdx

noncomputable section

namespace Cert.PreReal

open Idealize.ShloMosaic Idealize.ShloMosaic.ValueIdx Cert.Lib.RealEntries

/-! ## One entry -/

/-- A one-bit word made from a truth value is 1 exactly when the value is true. -/
theorem ofBool_one_iff (b : Bool) : BitVec.ofBool b = 1#1 ↔ b = true := by cases b <;> decide

/-- The f32 word 0x7F800000 denotes plus infinity. -/
theorem ofBits_inf : Ideal.ofBits .f32 0x7F800000#32 = (⊤ : EReal) := by simp [Ideal.ofBits, Ideal.ieee]

/-- An extended real whose absolute value max(x, -x) compares below the plus-infinity word is a real number. -/
theorem isR_of_abs_lt_inf (x : EReal)
    (h : Ideal.cmp .olt (max x (-x)) (Ideal.ofBits .f32 0x7F800000#32) = 1#1) : IsR x := by
  rw [ofBits_inf] at h
  have h' : BitVec.ofBool (decide (max x (-x) < (⊤ : EReal))) = 1#1 := h
  have hlt : max x (-x) < (⊤ : EReal) := of_decide_eq_true ((ofBool_one_iff _).1 h')
  have h1 : x < ⊤ := lt_of_le_of_lt (le_max_left _ _) hlt
  have h2 : -x < ⊤ := lt_of_le_of_lt (le_max_right _ _) hlt
  refine isR_of_ne (ne_of_lt h1) fun e => ?_
  rw [e, EReal.neg_bot] at h2
  exact lt_irrefl _ h2

/-! ## One argument -/

/-- The rank-0 shape has one index. -/
instance : Subsingleton Cert.Pre_finite_inputs.S_.Idx := ⟨fun a b => funext fun d => d.elim0⟩

/-- If the conjunction over all entries of "absolute value below the plus-infinity word" is true, every entry is real. -/
theorem allR_of_finite_mask {s : Shape} {axes : List (Fin s.rank)} (x : FVec Ideal s .f32)
    (hb : Cert.Pre_finite_inputs.S_.BroadcastsInDim s (![] : Fin 0 → Fin s.rank))
    (hred : s.ReducesTo axes Cert.Pre_finite_inputs.S_) (hu : 0 < Cert.Pre_finite_inputs.S_.numel)
    (h : Host.reduce IntOp.andi
        (cmpf .olt (Host.absf x) (broadcastInDim s ![] hb (constant (F := Ideal) Cert.Pre_finite_inputs.S_ .f32 0x7F800000#32)))
        (constantI Cert.Pre_finite_inputs.S_ 1 1#1) hred hu ix0 = 1#1) : AllR x := by
  intro i
  exact isR_of_abs_lt_inf (x i) (Host.reduce_andi_all _ _ hred hu ix0 h i)

/-! ## The printed predicate, decoded over any arrays -/

section Decode
open Cert.Pre_finite_inputs

/-- If the printed predicate of eighteen arrays is true, every entry of each of the fourteen float arrays is real. -/
theorem fn_decode (a0 : IVec S50000 32) (a1 : IVec S800000 32) (a2 : IVec S800000 32) (a3 : IVec S50000 32)
    (a4 : FVec Ideal S28x64 .f32) (a5 : FVec Ideal S4x192x64 .f32) (a6 : FVec Ideal S4x3x2 .f32) (a7 : FVec Ideal S4x3x2 .f32)
    (a8 : FVec Ideal S4x64 .f32) (a9 : FVec Ideal S4x64 .f32) (a10 : FVec Ideal S4x2x2 .f32) (a11 : FVec Ideal S4x2 .f32)
    (a12 : FVec Ideal S32x64 .f32) (a13 : FVec Ideal S32 .f32) (a14 : FVec Ideal S16x32 .f32) (a15 : FVec Ideal S16 .f32)
    (a16 : FVec Ideal S1x16 .f32) (a17 : FVec Ideal S1 .f32)
    (h : fn (F := Ideal) a0 a1 a2 a3 a4 a5 a6 a7 a8 a9 a10 a11 a12 a13 a14 a15 a16 a17 = fun _ => 1#1) :
    AllR a4 ∧ AllR a5 ∧ AllR a6 ∧ AllR a7 ∧ AllR a8 ∧ AllR a9 ∧ AllR a10 ∧ AllR a11 ∧ AllR a12 ∧ AllR a13 ∧ AllR a14
      ∧ AllR a15 ∧ AllR a16 ∧ AllR a17 := by
  have e := congrFun h ix0
  dsimp only [fn, fn_part1, fn_part2, fn_part3, fn_part4] at e
  simp only [andi, IntOp.andi_eq_one] at e
  obtain ⟨⟨⟨⟨⟨⟨⟨⟨⟨⟨⟨⟨⟨h4, h5⟩, h6⟩, h7⟩, h8⟩, h9⟩, h10⟩, h11⟩, h12⟩, h13⟩, h14⟩, h15⟩, h16⟩, h17⟩ := e
  exact ⟨allR_of_finite_mask a4 _ _ _ h4, allR_of_finite_mask a5 _ _ _ h5, allR_of_finite_mask a6 _ _ _ h6,
    allR_of_finite_mask a7 _ _ _ h7, allR_of_finite_mask a8 _ _ _ h8, allR_of_finite_mask a9 _ _ _ h9,
    allR_of_finite_mask a10 _ _ _ h10, allR_of_finite_mask a11 _ _ _ h11, allR_of_finite_mask a12 _ _ _ h12,
    allR_of_finite_mask a13 _ _ _ h13, allR_of_finite_mask a14 _ _ _ h14, allR_of_finite_mask a15 _ _ _ h15,
    allR_of_finite_mask a16 _ _ _ h16, allR_of_finite_mask a17 _ _ _ h17⟩

end Decode

/-! ## The kernel's arguments -/

section Args
open Cert.KernelIdeal

variable (m : (ℓ : Loc nD τ sig) → Buf (Elt Ideal) ℓ)

/-- Under the precondition, on every device, every entry of every float argument of the kernel is a real number. -/
theorem args_real (hpre : Cert.Pre_KernelIdeal m) (c : Dev nD) :
    AllR (S := S28x64) (m ((c.tc : Thread nD τ).loc main_arg4))
      ∧ AllR (S := S4x192x64) (m ((c.tc : Thread nD τ).loc main_arg5))
      ∧ AllR (S := S4x3x2) (m ((c.tc : Thread nD τ).loc main_arg6))
      ∧ AllR (S := S4x3x2) (m ((c.tc : Thread nD τ).loc main_arg7))
      ∧ AllR (S := S4x64) (m ((c.tc : Thread nD τ).loc main_arg8))
      ∧ AllR (S := S4x64) (m ((c.tc : Thread nD τ).loc main_arg9))
      ∧ AllR (S := S4x2x2) (m ((c.tc : Thread nD τ).loc main_arg10))
      ∧ AllR (S := S4x2) (m ((c.tc : Thread nD τ).loc main_arg11))
      ∧ AllR (S := S32x64) (m ((c.tc : Thread nD τ).loc main_arg12))
      ∧ AllR (S := S32) (m ((c.tc : Thread nD τ).loc main_arg13))
      ∧ AllR (S := S16x32) (m ((c.tc : Thread nD τ).loc main_arg14))
      ∧ AllR (S := S16) (m ((c.tc : Thread nD τ).loc main_arg15))
      ∧ AllR (S := S1x16) (m ((c.tc : Thread nD τ).loc main_arg16))
      ∧ AllR (S := S1) (m ((c.tc : Thread nD τ).loc main_arg17)) :=
  fn_decode _ _ _ _ _ _ _ _ _ _ _ _ _ _ _ _ _ _ (hpre c)

/-- Every entry of float argument 4 is a real number. -/
theorem arg4_real (hpre : Cert.Pre_KernelIdeal m) (c : Dev nD) : AllR (S := S28x64) (m ((c.tc : Thread nD τ).loc main_arg4)) :=
  (args_real m hpre c).1

/-- Every entry of float argument 5 is a real number. -/
theorem arg5_real (hpre : Cert.Pre_KernelIdeal m) (c : Dev nD) : AllR (S := S4x192x64) (m ((c.tc : Thread nD τ).loc main_arg5)) :=
  (args_real m hpre c).2.1

/-- Every entry of float argument 6 is a real number. -/
theorem arg6_real (hpre : Cert.Pre_KernelIdeal m) (c : Dev nD) : AllR (S := S4x3x2) (m ((c.tc : Thread nD τ).loc main_arg6)) :=
  (args_real m hpre c).2.2.1

/-- Every entry of float argument 7 is a real number. -/
theorem arg7_real (hpre : Cert.Pre_KernelIdeal m) (c : Dev nD) : AllR (S := S4x3x2) (m ((c.tc : Thread nD τ).loc main_arg7)) :=
  (args_real m hpre c).2.2.2.1

/-- Every entry of float argument 8 is a real number. -/
theorem arg8_real (hpre : Cert.Pre_KernelIdeal m) (c : Dev nD) : AllR (S := S4x64) (m ((c.tc : Thread nD τ).loc main_arg8)) :=
  (args_real m hpre c).2.2.2.2.1

/-- Every entry of float argument 9 is a real number. -/
theorem arg9_real (hpre : Cert.Pre_KernelIdeal m) (c : Dev nD) : AllR (S := S4x64) (m ((c.tc : Thread nD τ).loc main_arg9)) :=
  (args_real m hpre c).2.2.2.2.2.1

/-- Every entry of float argument 10 is a real number. -/
theorem arg10_real (hpre : Cert.Pre_KernelIdeal m) (c : Dev nD) : AllR (S := S4x2x2) (m ((c.tc : Thread nD τ).loc main_arg10)) :=
  (args_real m hpre c).2.2.2.2.2.2.1

/-- Every entry of float argument 11 is a real number. -/
theorem arg11_real (hpre : Cert.Pre_KernelIdeal m) (c : Dev nD) : AllR (S := S4x2) (m ((c.tc : Thread nD τ).loc main_arg11)) :=
  (args_real m hpre c).2.2.2.2.2.2.2.1

/-- Every entry of float argument 12 is a real number. -/
theorem arg12_real (hpre : Cert.Pre_KernelIdeal m) (c : Dev nD) : AllR (S := S32x64) (m ((c.tc : Thread nD τ).loc main_arg12)) :=
  (args_real m hpre c).2.2.2.2.2.2.2.2.1

/-- Every entry of float argument 13 is a real number. -/
theorem arg13_real (hpre : Cert.Pre_KernelIdeal m) (c : Dev nD) : AllR (S := S32) (m ((c.tc : Thread nD τ).loc main_arg13)) :=
  (args_real m hpre c).2.2.2.2.2.2.2.2.2.1

/-- Every entry of float argument 14 is a real number. -/
theorem arg14_real (hpre : Cert.Pre_KernelIdeal m) (c : Dev nD) : AllR (S := S16x32) (m ((c.tc : Thread nD τ).loc main_arg14)) :=
  (args_real m hpre c).2.2.2.2.2.2.2.2.2.2.1

/-- Every entry of float argument 15 is a real number. -/
theorem arg15_real (hpre : Cert.Pre_KernelIdeal m) (c : Dev nD) : AllR (S := S16) (m ((c.tc : Thread nD τ).loc main_arg15)) :=
  (args_real m hpre c).2.2.2.2.2.2.2.2.2.2.2.1

/-- Every entry of float argument 16 is a real number. -/
theorem arg16_real (hpre : Cert.Pre_KernelIdeal m) (c : Dev nD) : AllR (S := S1x16) (m ((c.tc : Thread nD τ).loc main_arg16)) :=
  (args_real m hpre c).2.2.2.2.2.2.2.2.2.2.2.2.1

/-- Every entry of float argument 17 is a real number. -/
theorem arg17_real (hpre : Cert.Pre_KernelIdeal m) (c : Dev nD) : AllR (S := S1) (m ((c.tc : Thread nD τ).loc main_arg17)) :=
  (args_real m hpre c).2.2.2.2.2.2.2.2.2.2.2.2.2

end Args

end Cert.PreReal

end
-- ==== Proof.ProofAlg.lean ====
/-
  Equivalence at exact arithmetic. Both idealized programs compute one function of the eighteen arguments: the first
  node features are gathered rows of the embedding table; each of the four layers multiplies the features by its weight
  matrix, gathers the products at the edges' sources, scales them by Gaussian weights of the edges' projected
  pseudo-coordinates, adds them up at the edges' targets and over the three mixture components, normalizes each feature
  column by its batch mean and variance, rectifies and adds the layer's input; the readout averages per graph and
  applies three dense layers. The kernel computes the variance as the mean of squares minus the squared mean, the
  reference as the mean of squared deviations: these agree because every entry is a real number when the float inputs
  are finite, which is where the precondition is used. The reference's run ends with that function of ITS arguments in
  its result buffer, and its arguments are the kernel's.
-/
import proofs.«111449_j80633716015168_2_alg».proof.Defs
import proofs.«111449_j80633716015168_2_alg».proof.Proof.KRun
import proofs.«111449_j80633716015168_2_alg».proof.Proof.KerNet
import proofs.«111449_j80633716015168_2_alg».proof.Proof.RefRun
import proofs.«111449_j80633716015168_2_alg».proof.Proof.RefNet
import proofs.«111449_j80633716015168_2_alg».proof.Proof.RefArgs
import proofs.«111449_j80633716015168_2_alg».proof.Proof.PreReal
import Idealize.ShloMosaic.Adequacy
import Idealize.ShloMosaic.Init

set_option maxRecDepth 16384

noncomputable section

namespace Cert.Proof

open Idealize.ShloMosaic Idealize.ShloMosaic.TcCoe Idealize.SL.Sem Idealize.ShloMosaic.StableHlo

/-- Both idealized programs end with the network function of the arguments in their result buffer. -/
theorem algebraic : Cert.algebraic_KernelIdeal_ReferenceIdeal := by
  intro m ρ m' ρ' hpre hagree
  refine ⟨fun c => Cert.ReferenceIdeal.Net.netOut (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)), ?_, ?_⟩
  · exact (θ_run (Cert.KernelIdeal.defs (F := Ideal)) _ _).mono (fun r h c =>
      ⟨(h c).1.trans (Cert.KernelIdeal.Gen.kernel_net m ρ c (Cert.PreReal.arg4_real m hpre c) (Cert.PreReal.arg5_real m hpre c)
          (Cert.PreReal.arg6_real m hpre c) (Cert.PreReal.arg7_real m hpre c) (Cert.PreReal.arg8_real m hpre c) (Cert.PreReal.arg9_real m hpre c)),
        (h c).2⟩)
      (Cert.KernelIdeal.Gen.run_result (F := Ideal) m ρ)
  · refine (θ_run (Cert.ReferenceIdeal.defs (F := Ideal)) _ _).mono (fun r h c => ?_) (Cert.ReferenceIdeal.RefRun.run_all (F := Ideal) m' ρ')
    obtain ⟨e0, e1, e2, e3, e4, e5, e6, e7, e8, e9, e10, e11, e12, e13, e14, e15, e16, e17⟩ := hagree c
    refine ⟨(h c Cert.ReferenceIdeal.main_v350).trans ((Cert.ReferenceIdeal.Net.ref_value (launchContents m' c)).trans ?_),
      (h c Cert.ReferenceIdeal.main_arg0).trans (Cert.ReferenceIdeal.RefSpec.arg_kept_0 _),
      (h c Cert.ReferenceIdeal.main_arg1).trans (Cert.ReferenceIdeal.RefSpec.arg_kept_1 _),
      (h c Cert.ReferenceIdeal.main_arg2).trans (Cert.ReferenceIdeal.RefSpec.arg_kept_2 _),
      (h c Cert.ReferenceIdeal.main_arg3).trans (Cert.ReferenceIdeal.RefSpec.arg_kept_3 _),
      (h c Cert.ReferenceIdeal.main_arg4).trans (Cert.ReferenceIdeal.RefSpec.arg_kept_4 _),
      (h c Cert.ReferenceIdeal.main_arg5).trans (Cert.ReferenceIdeal.RefSpec.arg_kept_5 _),
      (h c Cert.ReferenceIdeal.main_arg6).trans (Cert.ReferenceIdeal.RefSpec.arg_kept_6 _),
      (h c Cert.ReferenceIdeal.main_arg7).trans (Cert.ReferenceIdeal.RefSpec.arg_kept_7 _),
      (h c Cert.ReferenceIdeal.main_arg8).trans (Cert.ReferenceIdeal.RefSpec.arg_kept_8 _),
      (h c Cert.ReferenceIdeal.main_arg9).trans (Cert.ReferenceIdeal.RefSpec.arg_kept_9 _),
      (h c Cert.ReferenceIdeal.main_arg10).trans (Cert.ReferenceIdeal.RefSpec.arg_kept_10 _),
      (h c Cert.ReferenceIdeal.main_arg11).trans (Cert.ReferenceIdeal.RefSpec.arg_kept_11 _),
      (h c Cert.ReferenceIdeal.main_arg12).trans (Cert.ReferenceIdeal.RefSpec.arg_kept_12 _),
      (h c Cert.ReferenceIdeal.main_arg13).trans (Cert.ReferenceIdeal.RefSpec.arg_kept_13 _),
      (h c Cert.ReferenceIdeal.main_arg14).trans (Cert.ReferenceIdeal.RefSpec.arg_kept_14 _),
      (h c Cert.ReferenceIdeal.main_arg15).trans (Cert.ReferenceIdeal.RefSpec.arg_kept_15 _),
      (h c Cert.ReferenceIdeal.main_arg16).trans (Cert.ReferenceIdeal.RefSpec.arg_kept_16 _),
      (h c Cert.ReferenceIdeal.main_arg17).trans (Cert.ReferenceIdeal.RefSpec.arg_kept_17 _)⟩
    show Cert.ReferenceIdeal.Net.netOut (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7)) (m' ((c.tc : Thread Cert.ReferenceIdeal.nD Cert.ReferenceIdeal.τ).loc Cert.ReferenceIdeal.main_arg8)) (m' ((c.tc : Thread Cert.ReferenceIdeal.nD Cert.ReferenceIdeal.τ).loc Cert.ReferenceIdeal.main_arg9)) (m' ((c.tc : Thread Cert.ReferenceIdeal.nD Cert.ReferenceIdeal.τ).loc Cert.ReferenceIdeal.main_arg10)) (m' ((c.tc : Thread Cert.ReferenceIdeal.nD Cert.ReferenceIdeal.τ).loc Cert.ReferenceIdeal.main_arg11)) (m' ((c.tc : Thread Cert.ReferenceIdeal.nD Cert.ReferenceIdeal.τ).loc Cert.ReferenceIdeal.main_arg12)) (m' ((c.tc : Thread Cert.ReferenceIdeal.nD Cert.ReferenceIdeal.τ).loc Cert.ReferenceIdeal.main_arg13)) (m' ((c.tc : Thread Cert.ReferenceIdeal.nD Cert.ReferenceIdeal.τ).loc Cert.ReferenceIdeal.main_arg14)) (m' ((c.tc : Thread Cert.ReferenceIdeal.nD Cert.ReferenceIdeal.τ).loc Cert.ReferenceIdeal.main_arg15)) (m' ((c.tc : Thread Cert.ReferenceIdeal.nD Cert.ReferenceIdeal.τ).loc Cert.ReferenceIdeal.main_arg16)) (m' ((c.tc : Thread Cert.ReferenceIdeal.nD Cert.ReferenceIdeal.τ).loc Cert.ReferenceIdeal.main_arg17)) = _
    rw [e0, e1, e2, e3, e4, e5, e6, e7, e8, e9, e10, e11, e12, e13, e14, e15, e16, e17]

end Cert.Proof

end
-- ==== Proof.lean ====
/-
  The certificate: the programs' stated side conditions hold (the generated witnesses), and under them the five claims —
  the three programs run to completion without a fault and keep their arguments; the idealized kernel is the kernel's
  sanctioned idealization (its one named constant is the reciprocal of the node count); and the idealized kernel and the
  idealized reference, run on the same finite inputs, end with the same result: the network function of the arguments.
-/
import proofs.«111449_j80633716015168_2_alg».proof.Defs
import proofs.«111449_j80633716015168_2_alg».proof.Proof.ProofFrames
import proofs.«111449_j80633716015168_2_alg».proof.Proof.ProofAlg

noncomputable section

namespace Cert.Proof

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
